-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v305)) (v1 : (c : Dev Cert.KernelIdeal.nD) → Buf (Elt Ideal) ((c.tc : Thread Cert.KernelIdeal.nD Cert.KernelIdeal.τ).loc Cert.KernelIdeal.main_v294)) (v2 : (c : Dev Cert.KernelIdeal.nD) → Buf (Elt Ideal) ((c.tc : Thread Cert.KernelIdeal.nD Cert.KernelIdeal.τ).loc Cert.KernelIdeal.main_v295)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v305) = v0 c
          ∧ r.2.mem ((c.tc : Thread Cert.KernelIdeal.nD Cert.KernelIdeal.τ).loc Cert.KernelIdeal.main_v294) = v1 c
          ∧ r.2.mem ((c.tc : Thread Cert.KernelIdeal.nD Cert.KernelIdeal.τ).loc Cert.KernelIdeal.main_v295) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v425) = v0 c
          ∧ r.2.mem ((c.tc : Thread Cert.ReferenceIdeal.nD Cert.ReferenceIdeal.τ).loc Cert.ReferenceIdeal.main_v414) = v1 c
          ∧ r.2.mem ((c.tc : Thread Cert.ReferenceIdeal.nD Cert.ReferenceIdeal.τ).loc Cert.ReferenceIdeal.main_v415) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S2x3200000 : Shape := ⟨2, ![2, 3200000]⟩
abbrev S200000 : Shape := ⟨1, ![200000]⟩
abbrev S_ : Shape := ⟨0, ![]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x16 : Shape := ⟨2, ![16, 16]⟩
abbrev S32x8 : Shape := ⟨2, ![32, 8]⟩
abbrev S8 : Shape := ⟨1, ![8]⟩
abbrev S8x32 : Shape := ⟨2, ![8, 32]⟩
abbrev S16x8 : Shape := ⟨2, ![16, 8]⟩
abbrev S8x1 : Shape := ⟨2, ![8, 1]⟩
abbrev S1 : Shape := ⟨1, ![1]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  reducesTo_S_S_d : S_.ReducesTo [] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S8x32 : S_.BroadcastsInDim S8x32 (![] : Fin 0 → Fin S8x32.rank)
  reducesTo_S8x32_S_d0_1 : S8x32.ReducesTo [0, 1] S_
  bcast_S_S16x8 : S_.BroadcastsInDim S16x8 (![] : Fin 0 → Fin S16x8.rank)
  reducesTo_S16x8_S_d0_1 : S16x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_v165 : IVec S_ 1) (main_v169 : IVec S_ 1) : IVec S_ 1 :=
  let main_v170 : IVec S_ 1 := andi main_v165 main_v169
  main_v170

def fn_part9 {F : FTy → Type} [FloatOps F] (main_arg36 : FVec F S8 .f32) (main_arg37 : FVec F S8x1 .f32) (main_arg38 : FVec F S1 .f32) (main_v150 : IVec S_ 1) (main_v151 : FVec F S16x8 .f32) (main_v152 : FVec F S16x8 .f32) : IVec S_ 1 :=
  let main_v153 : IVec S16x8 1 := cmpf .olt main_v151 main_v152
  let main_c_61 : IVec S_ 1 := constantI S_ 1 1#1
  let main_v154 : IVec S_ 1 := (fun x v => Host.reduce IntOp.andi x v reducesTo_S16x8_S_d0_1 h_S_) main_v153 main_c_61
  let main_v155 : IVec S_ 1 := andi main_v150 main_v154
  let main_v156 : FVec F S8 .f32 := Host.absf main_arg36
  let main_cst_62 : FVec F S_ .f32 := constant S_ .f32 0x7F800000#32
  let main_v157 : FVec F S8 .f32 := broadcastInDim S8 ![] bcast_S_S8 main_cst_62
  let main_v158 : IVec S8 1 := cmpf .olt main_v156 main_v157
  let main_c_63 : IVec S_ 1 := constantI S_ 1 1#1
  let main_v159 : IVec S_ 1 := (fun x v => Host.reduce IntOp.andi x v reducesTo_S8_S_d0 h_S_) main_v158 main_c_63
  let main_v160 : IVec S_ 1 := andi main_v155 main_v159
  let main_v161 : FVec F S8x1 .f32 := Host.absf main_arg37
  let main_cst_64 : FVec F S_ .f32 := constant S_ .f32 0x7F800000#32
  let main_v162 : FVec F S8x1 .f32 := broadcastInDim S8x1 ![] bcast_S_S8x1 main_cst_64
  let main_v163 : IVec S8x1 1 := cmpf .olt main_v161 main_v162
  let main_c_65 : IVec S_ 1 := constantI S_ 1 1#1
  let main_v164 : IVec S_ 1 := (fun x v => Host.reduce IntOp.andi x v reducesTo_S8x1_S_d0_1 h_S_) main_v163 main_c_65
  let main_v165 : IVec S_ 1 := andi main_v160 main_v164
  let main_v166 : FVec F S1 .f32 := Host.absf main_arg38
  let main_cst_66 : FVec F S_ .f32 := constant S_ .f32 0x7F800000#32
  let main_v167 : FVec F S1 .f32 := broadcastInDim S1 ![] bcast_S_S1 main_cst_66
  let main_v168 : IVec S1 1 := cmpf .olt main_v166 main_v167
  let main_c_67 : IVec S_ 1 := constantI S_ 1 1#1
  let main_v169 : IVec S_ 1 := (fun x v => Host.reduce IntOp.andi x v reducesTo_S1_S_d0 h_S_) main_v168 main_c_67
  fn_part10 (F := F) main_v165 main_v169

def fn_part8 {F : FTy → Type} [FloatOps F] (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v135 : IVec S_ 1) : IVec S_ 1 :=
  let main_v136 : FVec F S32 .f32 := Host.absf main_arg32
  let main_cst_54 : FVec F S_ .f32 := constant S_ .f32 0x7F800000#32
  let main_v137 : FVec F S32 .f32 := broadcastInDim S32 ![] bcast_S_S32 main_cst_54
  let main_v138 : IVec S32 1 := cmpf .olt main_v136 main_v137
  let main_c_55 : IVec S_ 1 := constantI S_ 1 1#1
  let main_v139 : IVec S_ 1 := (fun x v => Host.reduce IntOp.andi x v reducesTo_S32_S_d0 h_S_) main_v138 main_c_55
  let main_v140 : IVec S_ 1 := andi main_v135 main_v139
  let main_v141 : FVec F S32x16 .f32 := Host.absf main_arg33
  let main_cst_56 : FVec F S_ .f32 := constant S_ .f32 0x7F800000#32
  let main_v142 : FVec F S32x16 .f32 := broadcastInDim S32x16 ![] bcast_S_S32x16 main_cst_56
  let main_v143 : IVec S32x16 1 := cmpf .olt main_v141 main_v142
  let main_c_57 : IVec S_ 1 := constantI S_ 1 1#1
  let main_v144 : IVec S_ 1 := (fun x v => Host.reduce IntOp.andi x v reducesTo_S32x16_S_d0_1 h_S_) main_v143 main_c_57
  let main_v145 : IVec S_ 1 := andi main_v140 main_v144
  let main_v146 : FVec F S16 .f32 := Host.absf main_arg34
  let main_cst_58 : FVec F S_ .f32 := constant S_ .f32 0x7F800000#32
  let main_v147 : FVec F S16 .f32 := broadcastInDim S16 ![] bcast_S_S16 main_cst_58
  let main_v148 : IVec S16 1 := cmpf .olt main_v146 main_v147
  let main_c_59 : IVec S_ 1 := constantI S_ 1 1#1
  let main_v149 : IVec S_ 1 := (fun x v => Host.reduce IntOp.andi x v reducesTo_S16_S_d0 h_S_) main_v148 main_c_59
  let main_v150 : IVec S_ 1 := andi main_v145 main_v149
  let main_v151 : FVec F S16x8 .f32 := Host.absf main_arg35
  let main_cst_60 : FVec F S_ .f32 := constant S_ .f32 0x7F800000#32
  let main_v152 : FVec F S16x8 .f32 := broadcastInDim S16x8 ![] bcast_S_S16x8 main_cst_60
  fn_part9 (F := F) main_arg36 main_arg37 main_arg38 main_v150 main_v151 main_v152

def fn_part7 {F : FTy → Type} [FloatOps F] (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v115 : IVec S_ 1) (main_v118 : IVec S16 1) : IVec S_ 1 :=
  let main_c_47 : IVec S_ 1 := constantI S_ 1 1#1
  let main_v119 : IVec S_ 1 := (fun x v => Host.reduce IntOp.andi x v reducesTo_S16_S_d0 h_S_) main_v118 main_c_47
  let main_v120 : IVec S_ 1 := andi main_v115 main_v119
  let main_v121 : FVec F S32x8 .f32 := Host.absf main_arg29
  let main_cst_48 : FVec F S_ .f32 := constant S_ .f32 0x7F800000#32
  let main_v122 : FVec F S32x8 .f32 := broadcastInDim S32x8 ![] bcast_S_S32x8 main_cst_48
  let main_v123 : IVec S32x8 1 := cmpf .olt main_v121 main_v122
  let main_c_49 : IVec S_ 1 := constantI S_ 1 1#1
  let main_v124 : IVec S_ 1 := (fun x v => Host.reduce IntOp.andi x v reducesTo_S32x8_S_d0_1 h_S_) main_v123 main_c_49
  let main_v125 : IVec S_ 1 := andi main_v120 main_v124
  let main_v126 : FVec F S8 .f32 := Host.absf main_arg30
  let main_cst_50 : FVec F S_ .f32 := constant S_ .f32 0x7F800000#32
  let main_v127 : FVec F S8 .f32 := broadcastInDim S8 ![] bcast_S_S8 main_cst_50
  let main_v128 : IVec S8 1 := cmpf .olt main_v126 main_v127
  let main_c_51 : IVec S_ 1 := constantI S_ 1 1#1
  let main_v129 : IVec S_ 1 := (fun x v => Host.reduce IntOp.andi x v reducesTo_S8_S_d0 h_S_) main_v128 main_c_51
  let main_v130 : IVec S_ 1 := andi main_v125 main_v129
  let main_v131 : FVec F S8x32 .f32 := Host.absf main_arg31
  let main_cst_52 : FVec F S_ .f32 := constant S_ .f32 0x7F800000#32
  let main_v132 : FVec F S8x32 .f32 := broadcastInDim S8x32 ![] bcast_S_S8x32 main_cst_52
  let main_v133 : IVec S8x32 1 := cmpf .olt main_v131 main_v132
  let main_c_53 : IVec S_ 1 := constantI S_ 1 1#1
  let main_v134 : IVec S_ 1 := (fun x v => Host.reduce IntOp.andi x v reducesTo_S8x32_S_d0_1 h_S_) main_v133 main_c_53
  let main_v135 : IVec S_ 1 := andi main_v130 main_v134
  fn_part8 (F := F) main_arg32 main_arg33 main_arg34 main_arg35 main_arg36 main_arg37 main_arg38 main_v135

def fn_part6 {F : FTy → Type} [FloatOps F] (main_arg26 : FVec F S16 .f32) (main_arg27 : FVec F S16x16 .f32) (main_arg28 : FVec F S16 .f32) (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v100 : IVec S_ 1) (main_v101 : FVec F S16 .f32) : IVec S_ 1 :=
  let main_cst_40 : FVec F S_ .f32 := constant S_ .f32 0x7F800000#32
  let main_v102 : FVec F S16 .f32 := broadcastInDim S16 ![] bcast_S_S16 main_cst_40
  let main_v103 : IVec S16 1 := cmpf .olt main_v101 main_v102
  let main_c_41 : IVec S_ 1 := constantI S_ 1 1#1
  let main_v104 : IVec S_ 1 := (fun x v => Host.reduce IntOp.andi x v reducesTo_S16_S_d0 h_S_) main_v103 main_c_41
  let main_v105 : IVec S_ 1 := andi main_v100 main_v104
  let main_v106 : FVec F S16 .f32 := Host.absf main_arg26
  let main_cst_42 : FVec F S_ .f32 := constant S_ .f32 0x7F800000#32
  let main_v107 : FVec F S16 .f32 := broadcastInDim S16 ![] bcast_S_S16 main_cst_42
  let main_v108 : IVec S16 1 := cmpf .olt main_v106 main_v107
  let main_c_43 : IVec S_ 1 := constantI S_ 1 1#1
  let main_v109 : IVec S_ 1 := (fun x v => Host.reduce IntOp.andi x v reducesTo_S16_S_d0 h_S_) main_v108 main_c_43
  let main_v110 : IVec S_ 1 := andi main_v105 main_v109
  let main_v111 : FVec F S16x16 .f32 := Host.absf main_arg27
  let main_cst_44 : FVec F S_ .f32 := constant S_ .f32 0x7F800000#32
  let main_v112 : FVec F S16x16 .f32 := broadcastInDim S16x16 ![] bcast_S_S16x16 main_cst_44
  let main_v113 : IVec S16x16 1 := cmpf .olt main_v111 main_v112
  let main_c_45 : IVec S_ 1 := constantI S_ 1 1#1
  let main_v114 : IVec S_ 1 := (fun x v => Host.reduce IntOp.andi x v reducesTo_S16x16_S_d0_1 h_S_) main_v113 main_c_45
  let main_v115 : IVec S_ 1 := andi main_v110 main_v114
  let main_v116 : FVec F S16 .f32 := Host.absf main_arg28
  let main_cst_46 : FVec F S_ .f32 := constant S_ .f32 0x7F800000#32
  let main_v117 : FVec F S16 .f32 := broadcastInDim S16 ![] bcast_S_S16 main_cst_46
  let main_v118 : IVec S16 1 := cmpf .olt main_v116 main_v117
  fn_part7 (F := F) main_arg29 main_arg30 main_arg31 main_arg32 main_arg33 main_arg34 main_arg35 main_arg36 main_arg37 main_arg38 main_v115 main_v118

def fn_part5 {F : FTy → Type} [FloatOps F] (main_arg22 : FVec F S16 .f32) (main_arg23 : FVec F S16x16 .f32) (main_arg24 : FVec F S16 .f32) (main_arg25 : FVec F S16 .f32) (main_arg26 : FVec F S16 .f32) (main_arg27 : FVec F S16x16 .f32) (main_arg28 : FVec F S16 .f32) (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v80 : IVec S_ 1) (main_v83 : IVec S32x16 1) (main_c_33 : IVec S_ 1) : IVec S_ 1 :=
  let main_v84 : IVec S_ 1 := (fun x v => Host.reduce IntOp.andi x v reducesTo_S32x16_S_d0_1 h_S_) main_v83 main_c_33
  let main_v85 : IVec S_ 1 := andi main_v80 main_v84
  let main_v86 : FVec F S16 .f32 := Host.absf main_arg22
  let main_cst_34 : FVec F S_ .f32 := constant S_ .f32 0x7F800000#32
  let main_v87 : FVec F S16 .f32 := broadcastInDim S16 ![] bcast_S_S16 main_cst_34
  let main_v88 : IVec S16 1 := cmpf .olt main_v86 main_v87
  let main_c_35 : IVec S_ 1 := constantI S_ 1 1#1
  let main_v89 : IVec S_ 1 := (fun x v => Host.reduce IntOp.andi x v reducesTo_S16_S_d0 h_S_) main_v88 main_c_35
  let main_v90 : IVec S_ 1 := andi main_v85 main_v89
  let main_v91 : FVec F S16x16 .f32 := Host.absf main_arg23
  let main_cst_36 : FVec F S_ .f32 := constant S_ .f32 0x7F800000#32
  let main_v92 : FVec F S16x16 .f32 := broadcastInDim S16x16 ![] bcast_S_S16x16 main_cst_36
  let main_v93 : IVec S16x16 1 := cmpf .olt main_v91 main_v92
  let main_c_37 : IVec S_ 1 := constantI S_ 1 1#1
  let main_v94 : IVec S_ 1 := (fun x v => Host.reduce IntOp.andi x v reducesTo_S16x16_S_d0_1 h_S_) main_v93 main_c_37
  let main_v95 : IVec S_ 1 := andi main_v90 main_v94
  let main_v96 : FVec F S16 .f32 := Host.absf main_arg24
  let main_cst_38 : FVec F S_ .f32 := constant S_ .f32 0x7F800000#32
  let main_v97 : FVec F S16 .f32 := broadcastInDim S16 ![] bcast_S_S16 main_cst_38
  let main_v98 : IVec S16 1 := cmpf .olt main_v96 main_v97
  let main_c_39 : IVec S_ 1 := constantI S_ 1 1#1
  let main_v99 : IVec S_ 1 := (fun x v => Host.reduce IntOp.andi x v reducesTo_S16_S_d0 h_S_) main_v98 main_c_39
  let main_v100 : IVec S_ 1 := andi main_v95 main_v99
  let main_v101 : FVec F S16 .f32 := Host.absf main_arg25
  fn_part6 (F := F) main_arg26 main_arg27 main_arg28 main_arg29 main_arg30 main_arg31 main_arg32 main_arg33 main_arg34 main_arg35 main_arg36 main_arg37 main_arg38 main_v100 main_v101

def fn_part4 {F : FTy → Type} [FloatOps F] (main_arg19 : FVec F S32 .f32) (main_arg20 : FVec F S_ .f32) (main_arg21 : FVec F S32x16 .f32) (main_arg22 : FVec F S16 .f32) (main_arg23 : FVec F S16x16 .f32) (main_arg24 : FVec F S16 .f32) (main_arg25 : FVec F S16 .f32) (main_arg26 : FVec F S16 .f32) (main_arg27 : FVec F S16x16 .f32) (main_arg28 : FVec F S16 .f32) (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v66 : IVec S_ 1) (main_v67 : FVec F S32 .f32) : IVec S_ 1 :=
  let main_cst_26 : FVec F S_ .f32 := constant S_ .f32 0x7F800000#32
  let main_v68 : FVec F S32 .f32 := broadcastInDim S32 ![] bcast_S_S32 main_cst_26
  let main_v69 : IVec S32 1 := cmpf .olt main_v67 main_v68
  let main_c_27 : IVec S_ 1 := constantI S_ 1 1#1
  let main_v70 : IVec S_ 1 := (fun x v => Host.reduce IntOp.andi x v reducesTo_S32_S_d0 h_S_) main_v69 main_c_27
  let main_v71 : IVec S_ 1 := andi main_v66 main_v70
  let main_v72 : FVec F S32 .f32 := Host.absf main_arg19
  let main_cst_28 : FVec F S_ .f32 := constant S_ .f32 0x7F800000#32
  let main_v73 : FVec F S32 .f32 := broadcastInDim S32 ![] bcast_S_S32 main_cst_28
  let main_v74 : IVec S32 1 := cmpf .olt main_v72 main_v73
  let main_c_29 : IVec S_ 1 := constantI S_ 1 1#1
  let main_v75 : IVec S_ 1 := (fun x v => Host.reduce IntOp.andi x v reducesTo_S32_S_d0 h_S_) main_v74 main_c_29
  let main_v76 : IVec S_ 1 := andi main_v71 main_v75
  let main_v77 : FVec F S_ .f32 := Host.absf main_arg20
  let main_cst_30 : FVec F S_ .f32 := constant S_ .f32 0x7F800000#32
  let main_v78 : IVec S_ 1 := cmpf .olt main_v77 main_cst_30
  let main_c_31 : IVec S_ 1 := constantI S_ 1 1#1
  let main_v79 : IVec S_ 1 := (fun x v => Host.reduce IntOp.andi x v reducesTo_S_S_d h_S_) main_v78 main_c_31
  let main_v80 : IVec S_ 1 := andi main_v76 main_v79
  let main_v81 : FVec F S32x16 .f32 := Host.absf main_arg21
  let main_cst_32 : FVec F S_ .f32 := constant S_ .f32 0x7F800000#32
  let main_v82 : FVec F S32x16 .f32 := broadcastInDim S32x16 ![] bcast_S_S32x16 main_cst_32
  let main_v83 : IVec S32x16 1 := cmpf .olt main_v81 main_v82
  let main_c_33 : IVec S_ 1 := constantI S_ 1 1#1
  fn_part5 (F := F) main_arg22 main_arg23 main_arg24 main_arg25 main_arg26 main_arg27 main_arg28 main_arg29 main_arg30 main_arg31 main_arg32 main_arg33 main_arg34 main_arg35 main_arg36 main_arg37 main_arg38 main_v80 main_v83 main_c_33

def fn_part3 {F : FTy → Type} [FloatOps F] (main_arg15 : FVec F S32 .f32) (main_arg16 : FVec F S32x32 .f32) (main_arg17 : FVec F S32 .f32) (main_arg18 : FVec F S32 .f32) (main_arg19 : FVec F S32 .f32) (main_arg20 : FVec F S_ .f32) (main_arg21 : FVec F S32x16 .f32) (main_arg22 : FVec F S16 .f32) (main_arg23 : FVec F S16x16 .f32) (main_arg24 : FVec F S16 .f32) (main_arg25 : FVec F S16 .f32) (main_arg26 : FVec F S16 .f32) (main_arg27 : FVec F S16x16 .f32) (main_arg28 : FVec F S16 .f32) (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v46 : IVec S_ 1) (main_v49 : IVec S64x32 1) (main_c_19 : IVec S_ 1) : IVec S_ 1 :=
  let main_v50 : IVec S_ 1 := (fun x v => Host.reduce IntOp.andi x v reducesTo_S64x32_S_d0_1 h_S_) main_v49 main_c_19
  let main_v51 : IVec S_ 1 := andi main_v46 main_v50
  let main_v52 : FVec F S32 .f32 := Host.absf main_arg15
  let main_cst_20 : FVec F S_ .f32 := constant S_ .f32 0x7F800000#32
  let main_v53 : FVec F S32 .f32 := broadcastInDim S32 ![] bcast_S_S32 main_cst_20
  let main_v54 : IVec S32 1 := cmpf .olt main_v52 main_v53
  let main_c_21 : IVec S_ 1 := constantI S_ 1 1#1
  let main_v55 : IVec S_ 1 := (fun x v => Host.reduce IntOp.andi x v reducesTo_S32_S_d0 h_S_) main_v54 main_c_21
  let main_v56 : IVec S_ 1 := andi main_v51 main_v55
  let main_v57 : FVec F S32x32 .f32 := Host.absf main_arg16
  let main_cst_22 : FVec F S_ .f32 := constant S_ .f32 0x7F800000#32
  let main_v58 : FVec F S32x32 .f32 := broadcastInDim S32x32 ![] bcast_S_S32x32 main_cst_22
  let main_v59 : IVec S32x32 1 := cmpf .olt main_v57 main_v58
  let main_c_23 : IVec S_ 1 := constantI S_ 1 1#1
  let main_v60 : IVec S_ 1 := (fun x v => Host.reduce IntOp.andi x v reducesTo_S32x32_S_d0_1 h_S_) main_v59 main_c_23
  let main_v61 : IVec S_ 1 := andi main_v56 main_v60
  let main_v62 : FVec F S32 .f32 := Host.absf main_arg17
  let main_cst_24 : FVec F S_ .f32 := constant S_ .f32 0x7F800000#32
  let main_v63 : FVec F S32 .f32 := broadcastInDim S32 ![] bcast_S_S32 main_cst_24
  let main_v64 : IVec S32 1 := cmpf .olt main_v62 main_v63
  let main_c_25 : IVec S_ 1 := constantI S_ 1 1#1
  let main_v65 : IVec S_ 1 := (fun x v => Host.reduce IntOp.andi x v reducesTo_S32_S_d0 h_S_) main_v64 main_c_25
  let main_v66 : IVec S_ 1 := andi main_v61 main_v65
  let main_v67 : FVec F S32 .f32 := Host.absf main_arg18
  fn_part4 (F := F) main_arg19 main_arg20 main_arg21 main_arg22 main_arg23 main_arg24 main_arg25 main_arg26 main_arg27 main_arg28 main_arg29 main_arg30 main_arg31 main_arg32 main_arg33 main_arg34 main_arg35 main_arg36 main_arg37 main_arg38 main_v66 main_v67

def fn_part2 {F : FTy → Type} [FloatOps F] (main_arg12 : FVec F S64 .f32) (main_arg13 : FVec F S_ .f32) (main_arg14 : FVec F S64x32 .f32) (main_arg15 : FVec F S32 .f32) (main_arg16 : FVec F S32x32 .f32) (main_arg17 : FVec F S32 .f32) (main_arg18 : FVec F S32 .f32) (main_arg19 : FVec F S32 .f32) (main_arg20 : FVec F S_ .f32) (main_arg21 : FVec F S32x16 .f32) (main_arg22 : FVec F S16 .f32) (main_arg23 : FVec F S16x16 .f32) (main_arg24 : FVec F S16 .f32) (main_arg25 : FVec F S16 .f32) (main_arg26 : FVec F S16 .f32) (main_arg27 : FVec F S16x16 .f32) (main_arg28 : FVec F S16 .f32) (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64 .f32 := Host.absf main_arg12
  let main_cst_14 : FVec F S_ .f32 := constant S_ .f32 0x7F800000#32
  let main_v39 : FVec F S64 .f32 := broadcastInDim S64 ![] bcast_S_S64 main_cst_14
  let main_v40 : IVec S64 1 := cmpf .olt main_v38 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v37 main_v41
  let main_v43 : FVec F S_ .f32 := Host.absf main_arg13
  let main_cst_16 : FVec F S_ .f32 := constant S_ .f32 0x7F800000#32
  let main_v44 : IVec S_ 1 := cmpf .olt main_v43 main_cst_16
  let main_c_17 : IVec S_ 1 := constantI S_ 1 1#1
  let main_v45 : IVec S_ 1 := (fun x v => Host.reduce IntOp.andi x v reducesTo_S_S_d h_S_) main_v44 main_c_17
  let main_v46 : IVec S_ 1 := andi main_v42 main_v45
  let main_v47 : FVec F S64x32 .f32 := Host.absf main_arg14
  let main_cst_18 : FVec F S_ .f32 := constant S_ .f32 0x7F800000#32
  let main_v48 : FVec F S64x32 .f32 := broadcastInDim S64x32 ![] bcast_S_S64x32 main_cst_18
  let main_v49 : IVec S64x32 1 := cmpf .olt main_v47 main_v48
  let main_c_19 : IVec S_ 1 := constantI S_ 1 1#1
  fn_part3 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v46 main_v49 main_c_19

def fn_part1 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S_ .f32) (main_arg14 : FVec F S64x32 .f32) (main_arg15 : FVec F S32 .f32) (main_arg16 : FVec F S32x32 .f32) (main_arg17 : FVec F S32 .f32) (main_arg18 : FVec F S32 .f32) (main_arg19 : FVec F S32 .f32) (main_arg20 : FVec F S_ .f32) (main_arg21 : FVec F S32x16 .f32) (main_arg22 : FVec F S16 .f32) (main_arg23 : FVec F S16x16 .f32) (main_arg24 : FVec F S16 .f32) (main_arg25 : FVec F S16 .f32) (main_arg26 : FVec F S16 .f32) (main_arg27 : FVec F S16x16 .f32) (main_arg28 : FVec F S16 .f32) (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) (main_v12 : IVec S_ 1) (main_v15 : IVec S64x64 1) (main_c_5 : IVec S_ 1) : IVec S_ 1 :=
  let main_v16 : IVec S_ 1 := (fun x v => Host.reduce IntOp.andi x v reducesTo_S64x64_S_d0_1 h_S_) main_v15 main_c_5
  let main_v17 : IVec S_ 1 := andi main_v12 main_v16
  let main_v18 : FVec F S64 .f32 := Host.absf main_arg8
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  let main_v23 : FVec F S64x64 .f32 := Host.absf main_arg9
  let main_cst_8 : FVec F S_ .f32 := constant S_ .f32 0x7F800000#32
  let main_v24 : FVec F S64x64 .f32 := broadcastInDim S64x64 ![] bcast_S_S64x64 main_cst_8
  let main_v25 : IVec S64x64 1 := cmpf .olt main_v23 main_v24
  let main_c_9 : IVec S_ 1 := constantI S_ 1 1#1
  let main_v26 : IVec S_ 1 := (fun x v => Host.reduce IntOp.andi x v reducesTo_S64x64_S_d0_1 h_S_) main_v25 main_c_9
  let main_v27 : IVec S_ 1 := andi main_v22 main_v26
  let main_v28 : FVec F S64 .f32 := Host.absf main_arg10
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S64 .f32 := Host.absf main_arg11
  fn_part2 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v32 main_v33

def fn {F : FTy → Type} [FloatOps F] (main_arg0 : FVec F S200000x64 .f32) (main_arg1 : FVec F S200000x64 .f32) (main_arg2 : IVec S2x3200000 32) (main_arg3 : IVec S2x3200000 32) (main_arg4 : IVec S200000 32) (main_arg5 : IVec S200000 32) (main_arg6 : FVec F S_ .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S_ .f32) (main_arg14 : FVec F S64x32 .f32) (main_arg15 : FVec F S32 .f32) (main_arg16 : FVec F S32x32 .f32) (main_arg17 : FVec F S32 .f32) (main_arg18 : FVec F S32 .f32) (main_arg19 : FVec F S32 .f32) (main_arg20 : FVec F S_ .f32) (main_arg21 : FVec F S32x16 .f32) (main_arg22 : FVec F S16 .f32) (main_arg23 : FVec F S16x16 .f32) (main_arg24 : FVec F S16 .f32) (main_arg25 : FVec F S16 .f32) (main_arg26 : FVec F S16 .f32) (main_arg27 : FVec F S16x16 .f32) (main_arg28 : FVec F S16 .f32) (main_arg29 : FVec F S32x8 .f32) (main_arg30 : FVec F S8 .f32) (main_arg31 : FVec F S8x32 .f32) (main_arg32 : FVec F S32 .f32) (main_arg33 : FVec F S32x16 .f32) (main_arg34 : FVec F S16 .f32) (main_arg35 : FVec F S16x8 .f32) (main_arg36 : FVec F S8 .f32) (main_arg37 : FVec F S8x1 .f32) (main_arg38 : FVec F S1 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S_ .f32 := Host.absf main_arg6
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S64x64 .f32 := Host.absf main_arg7
  let main_cst_4 : FVec F S_ .f32 := constant S_ .f32 0x7F800000#32
  let main_v14 : FVec F S64x64 .f32 := broadcastInDim S64x64 ![] bcast_S_S64x64 main_cst_4
  let main_v15 : IVec S64x64 1 := cmpf .olt main_v13 main_v14
  let main_c_5 : IVec S_ 1 := constantI S_ 1 1#1
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v12 main_v15 main_c_5
-- ==== Kernel.lean ====
abbrev S200000x64 : Shape := ⟨2, ![200000, 64]⟩
abbrev S2x3200000 : Shape := ⟨2, ![2, 3200000]⟩
abbrev S200000 : Shape := ⟨1, ![200000]⟩
abbrev S_ : Shape := ⟨0, ![]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x16 : Shape := ⟨2, ![16, 16]⟩
abbrev S32x8 : Shape := ⟨2, ![32, 8]⟩
abbrev S8 : Shape := ⟨1, ![8]⟩
abbrev S8x32 : Shape := ⟨2, ![8, 32]⟩
abbrev S16x8 : Shape := ⟨2, ![16, 8]⟩
abbrev S8x1 : Shape := ⟨2, ![8, 1]⟩
abbrev S1 : Shape := ⟨1, ![1]⟩
abbrev S1x3200000 : Shape := ⟨2, ![1, 3200000]⟩
abbrev S3200000 : Shape := ⟨1, ![3200000]⟩
abbrev S3200000x1 : Shape := ⟨2, ![3200000, 1]⟩
abbrev S3200000x64 : Shape := ⟨2, ![3200000, 64]⟩
abbrev S1x64 : Shape := ⟨2, ![1, 64]⟩
abbrev S4000x64 : Shape := ⟨2, ![4000, 64]⟩
abbrev S200000x32 : Shape := ⟨2, ![200000, 32]⟩
abbrev S1x32 : Shape := ⟨2, ![1, 32]⟩
abbrev S4000x32 : Shape := ⟨2, ![4000, 32]⟩
abbrev S3200000x32 : Shape := ⟨2, ![3200000, 32]⟩
abbrev S200000x16 : Shape := ⟨2, ![200000, 16]⟩
abbrev S1x16 : Shape := ⟨2, ![1, 16]⟩
abbrev S4000x16 : Shape := ⟨2, ![4000, 16]⟩
abbrev S200000x1 : Shape := ⟨2, ![200000, 1]⟩
abbrev S1000x1 : Shape := ⟨2, ![1000, 1]⟩
abbrev S1000x16 : Shape := ⟨2, ![1000, 16]⟩
abbrev S1000x32 : Shape := ⟨2, ![1000, 32]⟩
abbrev S1000x8 : Shape := ⟨2, ![1000, 8]⟩
abbrev S1x8 : Shape := ⟨2, ![1, 8]⟩
abbrev S1x1 : Shape := ⟨2, ![1, 1]⟩
abbrev S1000 : Shape := ⟨1, ![1000]⟩

abbrev nBuf : Space → Nat
  | .hbm => 431
  | .vmem => 108
  | .smem => 0
  | _ => 0

abbrev hbmTy0_0 (i : Nat) : BufTy := match i % 128 with
  | 0 => ⟨S200000x64, .f32⟩
  | 1 => ⟨S200000x64, .f32⟩
  | 2 => ⟨S2x3200000, .i32⟩
  | 3 => ⟨S2x3200000, .i32⟩
  | 4 => ⟨S200000, .i32⟩
  | 5 => ⟨S200000, .i32⟩
  | 6 => ⟨S_, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S_, .f32⟩
  | 14 => ⟨S64x32, .f32⟩
  | 15 => ⟨S32, .f32⟩
  | 16 => ⟨S32x32, .f32⟩
  | 17 => ⟨S32, .f32⟩
  | 18 => ⟨S32, .f32⟩
  | 19 => ⟨S32, .f32⟩
  | 20 => ⟨S_, .f32⟩
  | 21 => ⟨S32x16, .f32⟩
  | 22 => ⟨S16, .f32⟩
  | 23 => ⟨S16x16, .f32⟩
  | 24 => ⟨S16, .f32⟩
  | 25 => ⟨S16, .f32⟩
  | 26 => ⟨S16, .f32⟩
  | 27 => ⟨S16x16, .f32⟩
  | 28 => ⟨S16, .f32⟩
  | 29 => ⟨S32x8, .f32⟩
  | 30 => ⟨S8, .f32⟩
  | 31 => ⟨S8x32, .f32⟩
  | 32 => ⟨S32, .f32⟩
  | 33 => ⟨S32x16, .f32⟩
  | 34 => ⟨S16, .f32⟩
  | 35 => ⟨S16x8, .f32⟩
  | 36 => ⟨S8, .f32⟩
  | 37 => ⟨S8x1, .f32⟩
  | 38 => ⟨S1, .f32⟩
  | 39 => ⟨S1x3200000, .i32⟩
  | 40 => ⟨S3200000, .i32⟩
  | 41 => ⟨S1x3200000, .i32⟩
  | 42 => ⟨S3200000, .i32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S_, .f32⟩
  | 53 => ⟨S200000x64, .f32⟩
  | 54 => ⟨S3200000x1, .i32⟩
  | 55 => ⟨S200000x64, .f32⟩
  | 56 => ⟨S_, .f32⟩
  | 57 => ⟨S_, .f32⟩
  | 58 => ⟨S200000x64, .f32⟩
  | 59 => ⟨S200000x64, .f32⟩
  | 60 => ⟨S200000x64, .f32⟩
  | 61 => ⟨S200000x64, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S_, .f32⟩
  | 68 => ⟨S1x64, .f32⟩
  | 69 => ⟨S1x64, .f32⟩
  | 70 => ⟨S1x64, .f32⟩
  | 71 => ⟨S1x64, .f32⟩
  | 72 => ⟨S200000x64, .f32⟩
  | 73 => ⟨S1x3200000, .i32⟩
  | 74 => ⟨S3200000, .i32⟩
  | 75 => ⟨S1x3200000, .i32⟩
  | 76 => ⟨S3200000, .i32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x64, .f32⟩
  | 86 => ⟨S_, .f32⟩
  | 87 => ⟨S200000x64, .f32⟩
  | 88 => ⟨S3200000x1, .i32⟩
  | 89 => ⟨S200000x64, .f32⟩
  | 90 => ⟨S_, .f32⟩
  | 91 => ⟨S_, .f32⟩
  | 92 => ⟨S200000x64, .f32⟩
  | 93 => ⟨S200000x64, .f32⟩
  | 94 => ⟨S200000x64, .f32⟩
  | 95 => ⟨S200000x64, .f32⟩
  | 96 => ⟨S1x64, .f32⟩
  | 97 => ⟨S1x64, .f32⟩
  | 98 => ⟨S_, .f32⟩
  | 99 => ⟨S1x64, .f32⟩
  | 100 => ⟨S1x64, .f32⟩
  | 101 => ⟨S_, .f32⟩
  | 102 => ⟨S1x64, .f32⟩
  | 103 => ⟨S1x64, .f32⟩
  | 104 => ⟨S1x64, .f32⟩
  | 105 => ⟨S1x64, .f32⟩
  | 106 => ⟨S200000x64, .f32⟩
  | 107 => ⟨S1x3200000, .i32⟩
  | 108 => ⟨S3200000, .i32⟩
  | 109 => ⟨S1x3200000, .i32⟩
  | 110 => ⟨S3200000, .i32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000x64, .f32⟩
  | 120 => ⟨S_, .f32⟩
  | 121 => ⟨S200000x64, .f32⟩
  | 122 => ⟨S3200000x1, .i32⟩
  | 123 => ⟨S200000x64, .f32⟩
  | 124 => ⟨S_, .f32⟩
  | 125 => ⟨S_, .f32⟩
  | 126 => ⟨S200000x64, .f32⟩
  | 127 => ⟨S200000x64, .f32⟩
  | _ => ⟨S200000x64, .f32⟩

abbrev hbmTy0_1 (i : Nat) : BufTy := match i % 128 with
  | 0 => ⟨S200000x64, .f32⟩
  | 1 => ⟨S200000x32, .f32⟩
  | 2 => ⟨S1x32, .f32⟩
  | 3 => ⟨S1x32, .f32⟩
  | 4 => ⟨S_, .f32⟩
  | 5 => ⟨S1x32, .f32⟩
  | 6 => ⟨S1x32, .f32⟩
  | 7 => ⟨S_, .f32⟩
  | 8 => ⟨S1x32, .f32⟩
  | 9 => ⟨S1x32, .f32⟩
  | 10 => ⟨S1x32, .f32⟩
  | 11 => ⟨S1x32, .f32⟩
  | 12 => ⟨S200000x32, .f32⟩
  | 13 => ⟨S1x3200000, .i32⟩
  | 14 => ⟨S3200000, .i32⟩
  | 15 => ⟨S1x3200000, .i32⟩
  | 16 => ⟨S3200000, .i32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x64, .f32⟩
  | 26 => ⟨S_, .f32⟩
  | 27 => ⟨S200000x64, .f32⟩
  | 28 => ⟨S3200000x1, .i32⟩
  | 29 => ⟨S200000x64, .f32⟩
  | 30 => ⟨S_, .f32⟩
  | 31 => ⟨S_, .f32⟩
  | 32 => ⟨S200000x64, .f32⟩
  | 33 => ⟨S200000x64, .f32⟩
  | 34 => ⟨S200000x64, .f32⟩
  | 35 => ⟨S200000x32, .f32⟩
  | 36 => ⟨S1x32, .f32⟩
  | 37 => ⟨S1x32, .f32⟩
  | 38 => ⟨S_, .f32⟩
  | 39 => ⟨S1x32, .f32⟩
  | 40 => ⟨S1x32, .f32⟩
  | 41 => ⟨S_, .f32⟩
  | 42 => ⟨S1x32, .f32⟩
  | 43 => ⟨S1x32, .f32⟩
  | 44 => ⟨S1x32, .f32⟩
  | 45 => ⟨S1x32, .f32⟩
  | 46 => ⟨S200000x32, .f32⟩
  | 47 => ⟨S1x3200000, .i32⟩
  | 48 => ⟨S3200000, .i32⟩
  | 49 => ⟨S1x3200000, .i32⟩
  | 50 => ⟨S3200000, .i32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x32, .f32⟩
  | 60 => ⟨S_, .f32⟩
  | 61 => ⟨S200000x32, .f32⟩
  | 62 => ⟨S3200000x1, .i32⟩
  | 63 => ⟨S200000x32, .f32⟩
  | 64 => ⟨S_, .f32⟩
  | 65 => ⟨S_, .f32⟩
  | 66 => ⟨S200000x32, .f32⟩
  | 67 => ⟨S200000x32, .f32⟩
  | 68 => ⟨S200000x32, .f32⟩
  | 69 => ⟨S200000x16, .f32⟩
  | 70 => ⟨S1x16, .f32⟩
  | 71 => ⟨S1x16, .f32⟩
  | 72 => ⟨S_, .f32⟩
  | 73 => ⟨S1x16, .f32⟩
  | 74 => ⟨S1x16, .f32⟩
  | 75 => ⟨S_, .f32⟩
  | 76 => ⟨S1x16, .f32⟩
  | 77 => ⟨S1x16, .f32⟩
  | 78 => ⟨S1x16, .f32⟩
  | 79 => ⟨S1x16, .f32⟩
  | 80 => ⟨S200000x16, .f32⟩
  | 81 => ⟨S1x3200000, .i32⟩
  | 82 => ⟨S3200000, .i32⟩
  | 83 => ⟨S1x3200000, .i32⟩
  | 84 => ⟨S3200000, .i32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x32, .f32⟩
  | 94 => ⟨S_, .f32⟩
  | 95 => ⟨S200000x32, .f32⟩
  | 96 => ⟨S3200000x1, .i32⟩
  | 97 => ⟨S200000x32, .f32⟩
  | 98 => ⟨S_, .f32⟩
  | 99 => ⟨S_, .f32⟩
  | 100 => ⟨S200000x32, .f32⟩
  | 101 => ⟨S200000x32, .f32⟩
  | 102 => ⟨S200000x32, .f32⟩
  | 103 => ⟨S200000x16, .f32⟩
  | 104 => ⟨S1x16, .f32⟩
  | 105 => ⟨S1x16, .f32⟩
  | 106 => ⟨S_, .f32⟩
  | 107 => ⟨S1x16, .f32⟩
  | 108 => ⟨S1x16, .f32⟩
  | 109 => ⟨S_, .f32⟩
  | 110 => ⟨S1x16, .f32⟩
  | 111 => ⟨S1x16, .f32⟩
  | 112 => ⟨S1x16, .f32⟩
  | 113 => ⟨S1x16, .f32⟩
  | 114 => ⟨S200000x16, .f32⟩
  | 115 => ⟨S_, .f32⟩
  | 116 => ⟨S200000x1, .f32⟩
  | 117 => ⟨S_, .f32⟩
  | 118 => ⟨S1000x1, .f32⟩
  | 119 => ⟨S200000x1, .i32⟩
  | 120 => ⟨S1000x1, .f32⟩
  | 121 => ⟨S_, .f32⟩
  | 122 => ⟨S1000x16, .f32⟩
  | 123 => ⟨S200000x1, .i32⟩
  | 124 => ⟨S1000x16, .f32⟩
  | 125 => ⟨S_, .f32⟩
  | 126 => ⟨S1000x1, .f32⟩
  | 127 => ⟨S1000x1, .f32⟩
  | _ => ⟨S200000x64, .f32⟩

abbrev hbmTy0_2 (i : Nat) : BufTy := match i % 128 with
  | 0 => ⟨S1000x16, .f32⟩
  | 1 => ⟨S1000x16, .f32⟩
  | 2 => ⟨S1000x16, .f32⟩
  | 3 => ⟨S1x16, .f32⟩
  | 4 => ⟨S1000x16, .f32⟩
  | 5 => ⟨S1000x16, .f32⟩
  | 6 => ⟨S1000x16, .f32⟩
  | 7 => ⟨S1000x16, .f32⟩
  | 8 => ⟨S_, .f32⟩
  | 9 => ⟨S1000x16, .f32⟩
  | 10 => ⟨S1000x16, .f32⟩
  | 11 => ⟨S_, .f32⟩
  | 12 => ⟨S1000x16, .f32⟩
  | 13 => ⟨S1000x16, .f32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x16, .f32⟩
  | 23 => ⟨S200000x16, .f32⟩
  | 24 => ⟨S_, .f32⟩
  | 25 => ⟨S200000, .f32⟩
  | 26 => ⟨S200000x1, .f32⟩
  | 27 => ⟨S200000x1, .f32⟩
  | 28 => ⟨S200000x1, .f32⟩
  | 29 => ⟨S_, .f32⟩
  | 30 => ⟨S200000x1, .f32⟩
  | 31 => ⟨S200000x1, .f32⟩
  | 32 => ⟨S_, .f32⟩
  | 33 => ⟨S200000x1, .f32⟩
  | 34 => ⟨S200000x1, .f32⟩
  | 35 => ⟨S200000x16, .f32⟩
  | 36 => ⟨S200000x16, .f32⟩
  | 37 => ⟨S_, .f32⟩
  | 38 => ⟨S1000x16, .f32⟩
  | 39 => ⟨S200000x1, .i32⟩
  | 40 => ⟨S1000x16, .f32⟩
  | 41 => ⟨S_, .f32⟩
  | 42 => ⟨S200000x1, .f32⟩
  | 43 => ⟨S_, .f32⟩
  | 44 => ⟨S1000x1, .f32⟩
  | 45 => ⟨S200000x1, .i32⟩
  | 46 => ⟨S1000x1, .f32⟩
  | 47 => ⟨S_, .f32⟩
  | 48 => ⟨S1000x16, .f32⟩
  | 49 => ⟨S200000x1, .i32⟩
  | 50 => ⟨S1000x16, .f32⟩
  | 51 => ⟨S_, .f32⟩
  | 52 => ⟨S1000x1, .f32⟩
  | 53 => ⟨S1000x1, .f32⟩
  | 54 => ⟨S1000x16, .f32⟩
  | 55 => ⟨S1000x16, .f32⟩
  | 56 => ⟨S1000x16, .f32⟩
  | 57 => ⟨S1x16, .f32⟩
  | 58 => ⟨S1000x16, .f32⟩
  | 59 => ⟨S1000x16, .f32⟩
  | 60 => ⟨S1000x16, .f32⟩
  | 61 => ⟨S1000x16, .f32⟩
  | 62 => ⟨S_, .f32⟩
  | 63 => ⟨S1000x16, .f32⟩
  | 64 => ⟨S1000x16, .f32⟩
  | 65 => ⟨S_, .f32⟩
  | 66 => ⟨S1000x16, .f32⟩
  | 67 => ⟨S1000x16, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x16, .f32⟩
  | 77 => ⟨S200000x16, .f32⟩
  | 78 => ⟨S_, .f32⟩
  | 79 => ⟨S200000, .f32⟩
  | 80 => ⟨S200000x1, .f32⟩
  | 81 => ⟨S200000x1, .f32⟩
  | 82 => ⟨S200000x1, .f32⟩
  | 83 => ⟨S_, .f32⟩
  | 84 => ⟨S200000x1, .f32⟩
  | 85 => ⟨S200000x1, .f32⟩
  | 86 => ⟨S_, .f32⟩
  | 87 => ⟨S200000x1, .f32⟩
  | 88 => ⟨S200000x1, .f32⟩
  | 89 => ⟨S200000x16, .f32⟩
  | 90 => ⟨S200000x16, .f32⟩
  | 91 => ⟨S_, .f32⟩
  | 92 => ⟨S1000x16, .f32⟩
  | 93 => ⟨S200000x1, .i32⟩
  | 94 => ⟨S1000x16, .f32⟩
  | 95 => ⟨S1000x32, .f32⟩
  | 96 => ⟨S1000x8, .f32⟩
  | 97 => ⟨S1x8, .f32⟩
  | 98 => ⟨S1000x8, .f32⟩
  | 99 => ⟨S1000x8, .f32⟩
  | 100 => ⟨S_, .f32⟩
  | 101 => ⟨S1000x8, .f32⟩
  | 102 => ⟨S1000x8, .f32⟩
  | 103 => ⟨S1000x32, .f32⟩
  | 104 => ⟨S1x32, .f32⟩
  | 105 => ⟨S1000x32, .f32⟩
  | 106 => ⟨S1000x32, .f32⟩
  | 107 => ⟨S1000x32, .f32⟩
  | 108 => ⟨S1000x32, .f32⟩
  | 109 => ⟨S1000x32, .f32⟩
  | 110 => ⟨S1000x16, .f32⟩
  | 111 => ⟨S1x16, .f32⟩
  | 112 => ⟨S1000x16, .f32⟩
  | 113 => ⟨S1000x16, .f32⟩
  | 114 => ⟨S_, .f32⟩
  | 115 => ⟨S1000x16, .f32⟩
  | 116 => ⟨S1000x16, .f32⟩
  | 117 => ⟨S1000x32, .f32⟩
  | 118 => ⟨S1000x8, .f32⟩
  | 119 => ⟨S1x8, .f32⟩
  | 120 => ⟨S1000x8, .f32⟩
  | 121 => ⟨S1000x8, .f32⟩
  | 122 => ⟨S_, .f32⟩
  | 123 => ⟨S1000x8, .f32⟩
  | 124 => ⟨S1000x8, .f32⟩
  | 125 => ⟨S1000x32, .f32⟩
  | 126 => ⟨S1x32, .f32⟩
  | 127 => ⟨S1000x32, .f32⟩
  | _ => ⟨S200000x64, .f32⟩

abbrev hbmTy0_3 (i : Nat) : BufTy := match i % 128 with
  | 0 => ⟨S1000x32, .f32⟩
  | 1 => ⟨S1000x32, .f32⟩
  | 2 => ⟨S1000x32, .f32⟩
  | 3 => ⟨S1000x32, .f32⟩
  | 4 => ⟨S1000x16, .f32⟩
  | 5 => ⟨S1x16, .f32⟩
  | 6 => ⟨S1000x16, .f32⟩
  | 7 => ⟨S1000x16, .f32⟩
  | 8 => ⟨S_, .f32⟩
  | 9 => ⟨S1000x16, .f32⟩
  | 10 => ⟨S1000x16, .f32⟩
  | 11 => ⟨S1000x32, .f32⟩
  | 12 => ⟨S1000x8, .f32⟩
  | 13 => ⟨S1x8, .f32⟩
  | 14 => ⟨S1000x8, .f32⟩
  | 15 => ⟨S1000x8, .f32⟩
  | 16 => ⟨S_, .f32⟩
  | 17 => ⟨S1000x8, .f32⟩
  | 18 => ⟨S1000x8, .f32⟩
  | 19 => ⟨S1000x32, .f32⟩
  | 20 => ⟨S1x32, .f32⟩
  | 21 => ⟨S1000x32, .f32⟩
  | 22 => ⟨S1000x32, .f32⟩
  | 23 => ⟨S1000x32, .f32⟩
  | 24 => ⟨S1000x32, .f32⟩
  | 25 => ⟨S1000x32, .f32⟩
  | 26 => ⟨S1000x16, .f32⟩
  | 27 => ⟨S1x16, .f32⟩
  | 28 => ⟨S1000x16, .f32⟩
  | 29 => ⟨S1000x16, .f32⟩
  | 30 => ⟨S_, .f32⟩
  | 31 => ⟨S1000x16, .f32⟩
  | 32 => ⟨S1000x16, .f32⟩
  | 33 => ⟨S1000x16, .f32⟩
  | 34 => ⟨S1000x16, .f32⟩
  | 35 => ⟨S1000x8, .f32⟩
  | 36 => ⟨S1x8, .f32⟩
  | 37 => ⟨S1000x8, .f32⟩
  | 38 => ⟨S1000x8, .f32⟩
  | 39 => ⟨S_, .f32⟩
  | 40 => ⟨S1000x8, .f32⟩
  | 41 => ⟨S1000x8, .f32⟩
  | 42 => ⟨S1000x1, .f32⟩
  | 43 => ⟨S1x1, .f32⟩
  | 44 => ⟨S1000x1, .f32⟩
  | 45 => ⟨S1000x1, .f32⟩
  | 46 => ⟨S1000, .f32⟩
  | _ => ⟨S200000x64, .f32⟩

abbrev hbmTy (i : Nat) : BufTy := match i / 128 with
  | 0 => hbmTy0_0 i
  | 1 => hbmTy0_1 i
  | 2 => hbmTy0_2 i
  | 3 => hbmTy0_3 i
  | _ => ⟨S200000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S4000x64, .f32⟩
  | .local _ .vmem, ⟨7, _⟩ => ⟨S4000x64, .f32⟩
  | .local _ .vmem, ⟨8, _⟩ => ⟨S1x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S1x64, .f32⟩
  | .local _ .vmem, ⟨13, _⟩ => ⟨S1x64, .f32⟩
  | .local _ .vmem, ⟨14, _⟩ => ⟨S64, .f32⟩
  | .local _ .vmem, ⟨15, _⟩ => ⟨S64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S64x64, .f32⟩
  | .local _ .vmem, ⟨21, _⟩ => ⟨S64, .f32⟩
  | .local _ .vmem, ⟨22, _⟩ => ⟨S64x64, .f32⟩
  | .local _ .vmem, ⟨23, _⟩ => ⟨S64, .f32⟩
  | .local _ .vmem, ⟨24, _⟩ => ⟨S4000x64, .f32⟩
  | .local _ .vmem, ⟨25, _⟩ => ⟨S4000x64, .f32⟩
  | .local _ .vmem, ⟨26, _⟩ => ⟨S1x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | .local _ .vmem, ⟨30, _⟩ => ⟨S1x64, .f32⟩
  | .local _ .vmem, ⟨31, _⟩ => ⟨S1x64, .f32⟩
  | .local _ .vmem, ⟨32, _⟩ => ⟨S64, .f32⟩
  | .local _ .vmem, ⟨33, _⟩ => ⟨S64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S64x32, .f32⟩
  | .local _ .vmem, ⟨39, _⟩ => ⟨S32, .f32⟩
  | .local _ .vmem, ⟨40, _⟩ => ⟨S32x32, .f32⟩
  | .local _ .vmem, ⟨41, _⟩ => ⟨S32, .f32⟩
  | .local _ .vmem, ⟨42, _⟩ => ⟨S4000x32, .f32⟩
  | .local _ .vmem, ⟨43, _⟩ => ⟨S4000x32, .f32⟩
  | .local _ .vmem, ⟨44, _⟩ => ⟨S1x32, .f32⟩
  | .local _ .vmem, ⟨45, _⟩ => ⟨S1x32, .f32⟩
  | .local _ .vmem, ⟨46, _⟩ => ⟨S4000x32, .f32⟩
  | .local _ .vmem, ⟨47, _⟩ => ⟨S4000x32, .f32⟩
  | .local _ .vmem, ⟨48, _⟩ => ⟨S1x32, .f32⟩
  | .local _ .vmem, ⟨49, _⟩ => ⟨S1x32, .f32⟩
  | .local _ .vmem, ⟨50, _⟩ => ⟨S32, .f32⟩
  | .local _ .vmem, ⟨51, _⟩ => ⟨S32, .f32⟩
  | .local _ .vmem, ⟨52, _⟩ => ⟨S4000x32, .f32⟩
  | .local _ .vmem, ⟨53, _⟩ => ⟨S4000x32, .f32⟩
  | .local _ .vmem, ⟨54, _⟩ => ⟨S4000x64, .f32⟩
  | .local _ .vmem, ⟨55, _⟩ => ⟨S4000x64, .f32⟩
  | .local _ .vmem, ⟨56, _⟩ => ⟨S64x32, .f32⟩
  | .local _ .vmem, ⟨57, _⟩ => ⟨S32, .f32⟩
  | .local _ .vmem, ⟨58, _⟩ => ⟨S32x32, .f32⟩
  | .local _ .vmem, ⟨59, _⟩ => ⟨S32, .f32⟩
  | .local _ .vmem, ⟨60, _⟩ => ⟨S4000x32, .f32⟩
  | .local _ .vmem, ⟨61, _⟩ => ⟨S4000x32, .f32⟩
  | .local _ .vmem, ⟨62, _⟩ => ⟨S1x32, .f32⟩
  | .local _ .vmem, ⟨63, _⟩ => ⟨S1x32, .f32⟩
  | .local _ .vmem, ⟨64, _⟩ => ⟨S4000x32, .f32⟩
  | .local _ .vmem, ⟨65, _⟩ => ⟨S4000x32, .f32⟩
  | .local _ .vmem, ⟨66, _⟩ => ⟨S1x32, .f32⟩
  | .local _ .vmem, ⟨67, _⟩ => ⟨S1x32, .f32⟩
  | .local _ .vmem, ⟨68, _⟩ => ⟨S32, .f32⟩
  | .local _ .vmem, ⟨69, _⟩ => ⟨S32, .f32⟩
  | .local _ .vmem, ⟨70, _⟩ => ⟨S4000x32, .f32⟩
  | .local _ .vmem, ⟨71, _⟩ => ⟨S4000x32, .f32⟩
  | .local _ .vmem, ⟨72, _⟩ => ⟨S4000x32, .f32⟩
  | .local _ .vmem, ⟨73, _⟩ => ⟨S4000x32, .f32⟩
  | .local _ .vmem, ⟨74, _⟩ => ⟨S32x16, .f32⟩
  | .local _ .vmem, ⟨75, _⟩ => ⟨S16, .f32⟩
  | .local _ .vmem, ⟨76, _⟩ => ⟨S16x16, .f32⟩
  | .local _ .vmem, ⟨77, _⟩ => ⟨S16, .f32⟩
  | .local _ .vmem, ⟨78, _⟩ => ⟨S4000x16, .f32⟩
  | .local _ .vmem, ⟨79, _⟩ => ⟨S4000x16, .f32⟩
  | .local _ .vmem, ⟨80, _⟩ => ⟨S1x16, .f32⟩
  | .local _ .vmem, ⟨81, _⟩ => ⟨S1x16, .f32⟩
  | .local _ .vmem, ⟨82, _⟩ => ⟨S4000x16, .f32⟩
  | .local _ .vmem, ⟨83, _⟩ => ⟨S4000x16, .f32⟩
  | .local _ .vmem, ⟨84, _⟩ => ⟨S1x16, .f32⟩
  | .local _ .vmem, ⟨85, _⟩ => ⟨S1x16, .f32⟩
  | .local _ .vmem, ⟨86, _⟩ => ⟨S16, .f32⟩
  | .local _ .vmem, ⟨87, _⟩ => ⟨S16, .f32⟩
  | .local _ .vmem, ⟨88, _⟩ => ⟨S4000x16, .f32⟩
  | .local _ .vmem, ⟨89, _⟩ => ⟨S4000x16, .f32⟩
  | .local _ .vmem, ⟨90, _⟩ => ⟨S4000x32, .f32⟩
  | .local _ .vmem, ⟨91, _⟩ => ⟨S4000x32, .f32⟩
  | .local _ .vmem, ⟨92, _⟩ => ⟨S32x16, .f32⟩
  | .local _ .vmem, ⟨93, _⟩ => ⟨S16, .f32⟩
  | .local _ .vmem, ⟨94, _⟩ => ⟨S16x16, .f32⟩
  | .local _ .vmem, ⟨95, _⟩ => ⟨S16, .f32⟩
  | .local _ .vmem, ⟨96, _⟩ => ⟨S4000x16, .f32⟩
  | .local _ .vmem, ⟨97, _⟩ => ⟨S4000x16, .f32⟩
  | .local _ .vmem, ⟨98, _⟩ => ⟨S1x16, .f32⟩
  | .local _ .vmem, ⟨99, _⟩ => ⟨S1x16, .f32⟩
  | .local _ .vmem, ⟨100, _⟩ => ⟨S4000x16, .f32⟩
  | .local _ .vmem, ⟨101, _⟩ => ⟨S4000x16, .f32⟩
  | .local _ .vmem, ⟨102, _⟩ => ⟨S1x16, .f32⟩
  | .local _ .vmem, ⟨103, _⟩ => ⟨S1x16, .f32⟩
  | .local _ .vmem, ⟨104, _⟩ => ⟨S16, .f32⟩
  | .local _ .vmem, ⟨105, _⟩ => ⟨S16, .f32⟩
  | .local _ .vmem, ⟨106, _⟩ => ⟨S4000x16, .f32⟩
  | .local _ .vmem, ⟨107, _⟩ => ⟨S4000x16, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_c : Ref sig .tc := ⟨.hbm, 43, rfl⟩
abbrev main_v4 : Ref sig .tc := ⟨.hbm, 44, rfl⟩
abbrev main_v5 : Ref sig .tc := ⟨.hbm, 45, rfl⟩
abbrev main_c_0 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18_0 : Ref sig .tc := ⟨.hbm, 61, rfl⟩
abbrev main_v18_1 : Ref sig .tc := ⟨.hbm, 62, rfl⟩
abbrev main_v18_2 : Ref sig .tc := ⟨.hbm, 63, rfl⟩
abbrev main_cst_2 : Ref sig .tc := ⟨.hbm, 64, rfl⟩
abbrev main_v19 : Ref sig .tc := ⟨.hbm, 65, rfl⟩
abbrev main_v20 : Ref sig .tc := ⟨.hbm, 66, rfl⟩
abbrev main_cst_3 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_c_4 : Ref sig .tc := ⟨.hbm, 77, rfl⟩
abbrev main_v30 : Ref sig .tc := ⟨.hbm, 78, rfl⟩
abbrev main_v31 : Ref sig .tc := ⟨.hbm, 79, rfl⟩
abbrev main_c_5 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_6 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_cst_7 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44_0 : Ref sig .tc := ⟨.hbm, 95, rfl⟩
abbrev main_v44_1 : Ref sig .tc := ⟨.hbm, 96, rfl⟩
abbrev main_v44_2 : Ref sig .tc := ⟨.hbm, 97, rfl⟩
abbrev main_cst_8 : Ref sig .tc := ⟨.hbm, 98, rfl⟩
abbrev main_v45 : Ref sig .tc := ⟨.hbm, 99, rfl⟩
abbrev main_v46 : Ref sig .tc := ⟨.hbm, 100, rfl⟩
abbrev main_cst_9 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_c_10 : Ref sig .tc := ⟨.hbm, 111, rfl⟩
abbrev main_v56 : Ref sig .tc := ⟨.hbm, 112, rfl⟩
abbrev main_v57 : Ref sig .tc := ⟨.hbm, 113, rfl⟩
abbrev main_c_11 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_12 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_cst_13 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70_0 : Ref sig .tc := ⟨.hbm, 129, rfl⟩
abbrev main_v70_1 : Ref sig .tc := ⟨.hbm, 130, rfl⟩
abbrev main_v70_2 : Ref sig .tc := ⟨.hbm, 131, rfl⟩
abbrev main_cst_14 : Ref sig .tc := ⟨.hbm, 132, rfl⟩
abbrev main_v71 : Ref sig .tc := ⟨.hbm, 133, rfl⟩
abbrev main_v72 : Ref sig .tc := ⟨.hbm, 134, rfl⟩
abbrev main_cst_15 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_c_16 : Ref sig .tc := ⟨.hbm, 145, rfl⟩
abbrev main_v82 : Ref sig .tc := ⟨.hbm, 146, rfl⟩
abbrev main_v83 : Ref sig .tc := ⟨.hbm, 147, rfl⟩
abbrev main_c_17 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_cst_18 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_19 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96_0 : Ref sig .tc := ⟨.hbm, 163, rfl⟩
abbrev main_v96_1 : Ref sig .tc := ⟨.hbm, 164, rfl⟩
abbrev main_v96_2 : Ref sig .tc := ⟨.hbm, 165, rfl⟩
abbrev main_cst_20 : Ref sig .tc := ⟨.hbm, 166, rfl⟩
abbrev main_v97 : Ref sig .tc := ⟨.hbm, 167, rfl⟩
abbrev main_v98 : Ref sig .tc := ⟨.hbm, 168, rfl⟩
abbrev main_cst_21 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_c_22 : Ref sig .tc := ⟨.hbm, 179, rfl⟩
abbrev main_v108 : Ref sig .tc := ⟨.hbm, 180, rfl⟩
abbrev main_v109 : Ref sig .tc := ⟨.hbm, 181, rfl⟩
abbrev main_c_23 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_24 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_cst_25 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122_0 : Ref sig .tc := ⟨.hbm, 197, rfl⟩
abbrev main_v122_1 : Ref sig .tc := ⟨.hbm, 198, rfl⟩
abbrev main_v122_2 : Ref sig .tc := ⟨.hbm, 199, rfl⟩
abbrev main_cst_26 : Ref sig .tc := ⟨.hbm, 200, rfl⟩
abbrev main_v123 : Ref sig .tc := ⟨.hbm, 201, rfl⟩
abbrev main_v124 : Ref sig .tc := ⟨.hbm, 202, rfl⟩
abbrev main_cst_27 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_c_28 : Ref sig .tc := ⟨.hbm, 213, rfl⟩
abbrev main_v134 : Ref sig .tc := ⟨.hbm, 214, rfl⟩
abbrev main_v135 : Ref sig .tc := ⟨.hbm, 215, rfl⟩
abbrev main_c_29 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_cst_30 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_31 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148_0 : Ref sig .tc := ⟨.hbm, 231, rfl⟩
abbrev main_v148_1 : Ref sig .tc := ⟨.hbm, 232, rfl⟩
abbrev main_v148_2 : Ref sig .tc := ⟨.hbm, 233, rfl⟩
abbrev main_cst_32 : Ref sig .tc := ⟨.hbm, 234, rfl⟩
abbrev main_v149 : Ref sig .tc := ⟨.hbm, 235, rfl⟩
abbrev main_v150 : Ref sig .tc := ⟨.hbm, 236, rfl⟩
abbrev main_cst_33 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_cst_34 : Ref sig .tc := ⟨.hbm, 243, rfl⟩
abbrev main_v156 : Ref sig .tc := ⟨.hbm, 244, rfl⟩
abbrev main_cst_35 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_cst_36 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_cst_37 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_cst_38 : Ref sig .tc := ⟨.hbm, 264, rfl⟩
abbrev main_v173 : Ref sig .tc := ⟨.hbm, 265, rfl⟩
abbrev main_v174 : Ref sig .tc := ⟨.hbm, 266, rfl⟩
abbrev main_cst_39 : Ref sig .tc := ⟨.hbm, 267, rfl⟩
abbrev main_v175 : Ref sig .tc := ⟨.hbm, 268, rfl⟩
abbrev main_v176 : Ref sig .tc := ⟨.hbm, 269, rfl⟩
abbrev main_c_40 : Ref sig .tc := ⟨.hbm, 270, rfl⟩
abbrev main_v177 : Ref sig .tc := ⟨.hbm, 271, rfl⟩
abbrev main_v178 : Ref sig .tc := ⟨.hbm, 272, rfl⟩
abbrev main_c_41 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_cst_42 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_cst_43 : Ref sig .tc := ⟨.hbm, 285, rfl⟩
abbrev main_v189 : Ref sig .tc := ⟨.hbm, 286, rfl⟩
abbrev main_v190 : Ref sig .tc := ⟨.hbm, 287, rfl⟩
abbrev main_cst_44 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_cst_45 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_cst_46 : Ref sig .tc := ⟨.hbm, 297, rfl⟩
abbrev main_v198 : Ref sig .tc := ⟨.hbm, 298, rfl⟩
abbrev main_cst_47 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_cst_48 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_cst_49 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_cst_50 : Ref sig .tc := ⟨.hbm, 318, rfl⟩
abbrev main_v215 : Ref sig .tc := ⟨.hbm, 319, rfl⟩
abbrev main_v216 : Ref sig .tc := ⟨.hbm, 320, rfl⟩
abbrev main_cst_51 : Ref sig .tc := ⟨.hbm, 321, rfl⟩
abbrev main_v217 : Ref sig .tc := ⟨.hbm, 322, rfl⟩
abbrev main_v218 : Ref sig .tc := ⟨.hbm, 323, rfl⟩
abbrev main_c_52 : Ref sig .tc := ⟨.hbm, 324, rfl⟩
abbrev main_v219 : Ref sig .tc := ⟨.hbm, 325, rfl⟩
abbrev main_v220 : Ref sig .tc := ⟨.hbm, 326, rfl⟩
abbrev main_c_53 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_cst_54 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_cst_55 : Ref sig .tc := ⟨.hbm, 339, rfl⟩
abbrev main_v231 : Ref sig .tc := ⟨.hbm, 340, rfl⟩
abbrev main_v232 : Ref sig .tc := ⟨.hbm, 341, rfl⟩
abbrev main_cst_56 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_cst_57 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_call0_cst : Ref sig .tc := ⟨.hbm, 356, rfl⟩
abbrev main_call0_v0 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_v256 : Ref sig .tc := ⟨.hbm, 369, rfl⟩
abbrev main_call1_cst : Ref sig .tc := ⟨.hbm, 370, rfl⟩
abbrev main_call1_v0 : Ref sig .tc := ⟨.hbm, 371, rfl⟩
abbrev main_v257 : Ref sig .tc := ⟨.hbm, 372, rfl⟩
abbrev main_v258 : Ref sig .tc := ⟨.hbm, 373, rfl⟩
abbrev main_v259 : Ref sig .tc := ⟨.hbm, 374, rfl⟩
abbrev main_v260 : Ref sig .tc := ⟨.hbm, 375, rfl⟩
abbrev main_v261 : Ref sig .tc := ⟨.hbm, 376, rfl⟩
abbrev main_v262 : Ref sig .tc := ⟨.hbm, 377, rfl⟩
abbrev main_call2_cst : Ref sig .tc := ⟨.hbm, 378, rfl⟩
abbrev main_call2_v0 : Ref sig .tc := ⟨.hbm, 379, rfl⟩
abbrev main_v263 : Ref sig .tc := ⟨.hbm, 380, rfl⟩
abbrev main_v264 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_v269 : Ref sig .tc := ⟨.hbm, 386, rfl⟩
abbrev main_v270 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩
abbrev main_call3_cst : Ref sig .tc := ⟨.hbm, 392, rfl⟩
abbrev main_call3_v0 : Ref sig .tc := ⟨.hbm, 393, rfl⟩
abbrev main_v275 : Ref sig .tc := ⟨.hbm, 394, rfl⟩
abbrev main_v276 : Ref sig .tc := ⟨.hbm, 395, rfl⟩
abbrev main_v277 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_call4_cst : Ref sig .tc := ⟨.hbm, 400, rfl⟩
abbrev main_call4_v0 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_v284 : Ref sig .tc := ⟨.hbm, 405, rfl⟩
abbrev main_v285 : Ref sig .tc := ⟨.hbm, 406, rfl⟩
abbrev main_v286 : Ref sig .tc := ⟨.hbm, 407, rfl⟩
abbrev main_v287 : Ref sig .tc := ⟨.hbm, 408, rfl⟩
abbrev main_v288 : Ref sig .tc := ⟨.hbm, 409, rfl⟩
abbrev main_v289 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_call5_cst : Ref sig .tc := ⟨.hbm, 414, rfl⟩
abbrev main_call5_v0 : Ref sig .tc := ⟨.hbm, 415, rfl⟩
abbrev main_v293 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_v299 : Ref sig .tc := ⟨.hbm, 422, rfl⟩
abbrev main_call6_cst : Ref sig .tc := ⟨.hbm, 423, rfl⟩
abbrev main_call6_v0 : Ref sig .tc := ⟨.hbm, 424, rfl⟩
abbrev main_v300 : Ref sig .tc := ⟨.hbm, 425, rfl⟩
abbrev main_v301 : Ref sig .tc := ⟨.hbm, 426, rfl⟩
abbrev main_v302 : Ref sig .tc := ⟨.hbm, 427, rfl⟩
abbrev main_v303 : Ref sig .tc := ⟨.hbm, 428, rfl⟩
abbrev main_v304 : Ref sig .tc := ⟨.hbm, 429, rfl⟩
abbrev main_v305 : Ref sig .tc := ⟨.hbm, 430, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg7_0 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg4_0 : Ref sig .tc := ⟨.vmem, 77, rfl⟩
abbrev cc8_stg5_0 : Ref sig .tc := ⟨.vmem, 78, rfl⟩
abbrev cc8_stg5_1 : Ref sig .tc := ⟨.vmem, 79, rfl⟩
abbrev cc8_stg6_0 : Ref sig .tc := ⟨.vmem, 80, rfl⟩
abbrev cc8_stg7_0 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg2_0 : Ref sig .tc := ⟨.vmem, 93, rfl⟩
abbrev cc10_stg3_0 : Ref sig .tc := ⟨.vmem, 94, rfl⟩
abbrev cc10_stg4_0 : Ref sig .tc := ⟨.vmem, 95, rfl⟩
abbrev cc10_stg5_0 : Ref sig .tc := ⟨.vmem, 96, rfl⟩
abbrev cc10_stg5_1 : Ref sig .tc := ⟨.vmem, 97, rfl⟩
abbrev cc10_stg6_0 : Ref sig .tc := ⟨.vmem, 98, rfl⟩
abbrev cc10_stg7_0 : Ref sig .tc := ⟨.vmem, 99, rfl⟩
abbrev cc11_stg0_0 : Ref sig .tc := ⟨.vmem, 100, rfl⟩
abbrev cc11_stg0_1 : Ref sig .tc := ⟨.vmem, 101, rfl⟩
abbrev cc11_stg1_0 : Ref sig .tc := ⟨.vmem, 102, rfl⟩
abbrev cc11_stg2_0 : Ref sig .tc := ⟨.vmem, 103, rfl⟩
abbrev cc11_stg3_0 : Ref sig .tc := ⟨.vmem, 104, rfl⟩
abbrev cc11_stg4_0 : Ref sig .tc := ⟨.vmem, 105, rfl⟩
abbrev cc11_stg5_0 : Ref sig .tc := ⟨.vmem, 106, rfl⟩
abbrev cc11_stg5_1 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem4_0 : DmaSem sig := 77
abbrev cc8_sem5_0 : DmaSem sig := 78
abbrev cc8_sem5_1 : DmaSem sig := 79
abbrev cc8_sem6_0 : DmaSem sig := 80
abbrev cc8_sem7_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem0_1 : DmaSem sig := 91
abbrev cc10_sem1_0 : DmaSem sig := 92
abbrev cc10_sem2_0 : DmaSem sig := 93
abbrev cc10_sem3_0 : DmaSem sig := 94
abbrev cc10_sem4_0 : DmaSem sig := 95
abbrev cc10_sem5_0 : DmaSem sig := 96
abbrev cc10_sem5_1 : DmaSem sig := 97
abbrev cc10_sem6_0 : DmaSem sig := 98
abbrev cc10_sem7_0 : DmaSem sig := 99
abbrev cc11_sem0_0 : DmaSem sig := 100
abbrev cc11_sem0_1 : DmaSem sig := 101
abbrev cc11_sem1_0 : DmaSem sig := 102
abbrev cc11_sem2_0 : DmaSem sig := 103
abbrev cc11_sem3_0 : DmaSem sig := 104
abbrev cc11_sem4_0 : DmaSem sig := 105
abbrev cc11_sem5_0 : DmaSem sig := 106
abbrev cc11_sem5_1 : DmaSem sig := 107

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S4000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S16x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4000x16 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x16 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x16 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x16 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4000x16 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S4000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S16 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S16x16 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S16 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S4000x16 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x16 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x16 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x16 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x16 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x16 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S16 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S16 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S4000x16 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x64 : S_.BroadcastsInDim S200000x64 (![] : Fin 0 → Fin S200000x64.rank)
  inb_S1x64_S1x64_0_0 : ∀ a, (![0, 0] : Fin 2 → Nat) a + S1x64.size a ≤ S1x64.size a
  h_S1x64 : 0 < S1x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  shapeCasts_S1x64_S1x64 : S1x64.ShapeCasts S1x64
  reduces_S4000x64_S64 : S4000x64.Reduces [0] S64
  bcast_S_S1x64 : S_.BroadcastsInDim S1x64 (![] : Fin 0 → Fin S1x64.rank)
  inb_S1x32_S1x32_0_0 : ∀ a, (![0, 0] : Fin 2 → Nat) a + S1x32.size a ≤ S1x32.size a
  h_S1x32 : 0 < S1x32.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  inb_S4000x32_S4000x32_0_0 : ∀ a, (![0, 0] : Fin 2 → Nat) a + S4000x32.size a ≤ S4000x32.size a
  h_S4000x32 : 0 < S4000x32.numel
  shapeCasts_S1x32_S1x32 : S1x32.ShapeCasts S1x32
  reduces_S4000x32_S32 : S4000x32.Reduces [0] S32
  bcast_S_S1x32 : S_.BroadcastsInDim S1x32 (![] : Fin 0 → Fin S1x32.rank)
  shapeCasts_S4000x32_S4000x32 : S4000x32.ShapeCasts S4000x32
  bcast_S_S200000x32 : S_.BroadcastsInDim S200000x32 (![] : Fin 0 → Fin S200000x32.rank)
  inb_S1x16_S1x16_0_0 : ∀ a, (![0, 0] : Fin 2 → Nat) a + S1x16.size a ≤ S1x16.size a
  h_S1x16 : 0 < S1x16.numel
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x16_S16x16_0_0 : ∀ a, (![0, 0] : Fin 2 → Nat) a + S16x16.size a ≤ S16x16.size a
  h_S16x16 : 0 < S16x16.numel
  inb_S4000x16_S4000x16_0_0 : ∀ a, (![0, 0] : Fin 2 → Nat) a + S4000x16.size a ≤ S4000x16.size a
  h_S4000x16 : 0 < S4000x16.numel
  shapeCasts_S1x16_S1x16 : S1x16.ShapeCasts S1x16
  reduces_S4000x16_S16 : S4000x16.Reduces [0] S16
  bcast_S_S1x16 : S_.BroadcastsInDim S1x16 (![] : Fin 0 → Fin S1x16.rank)
  shapeCasts_S4000x16_S4000x16 : S4000x16.ShapeCasts S4000x16
  bcast_S_S200000x1 : S_.BroadcastsInDim S200000x1 (![] : Fin 0 → Fin S200000x1.rank)
  bcast_S_S1000x1 : S_.BroadcastsInDim S1000x1 (![] : Fin 0 → Fin S1000x1.rank)
  bcast_S200000_S200000x1_0 : S200000.BroadcastsInDim S200000x1 (![0] : Fin 1 → Fin S200000x1.rank)
  bcast_S_S1000x16 : S_.BroadcastsInDim S1000x16 (![] : Fin 0 → Fin S1000x16.rank)
  bcast_S1000x1_S1000x16_0_1 : S1000x1.BroadcastsInDim S1000x16 (![0, 1] : Fin 2 → Fin S1000x16.rank)
  bcast_S16_S1x16_1 : S16.BroadcastsInDim S1x16 (![1] : Fin 1 → Fin S1x16.rank)
  bcast_S1x16_S1000x16_0_1 : S1x16.BroadcastsInDim S1000x16 (![0, 1] : Fin 2 → Fin S1000x16.rank)
  bcast_S_S200000 : S_.BroadcastsInDim S200000 (![] : Fin 0 → Fin S200000.rank)
  reducesTo_S200000x16_S200000_d1 : S200000x16.ReducesTo [1] S200000
  h_S_ : 0 < S_.numel
  bcast_S200000x1_S200000x16_0_1 : S200000x1.BroadcastsInDim S200000x16 (![0, 1] : Fin 2 → Fin S200000x16.rank)
  concatenates_S1000x16_S1000x16_S1000x32_d1 : Shape.Concatenates [S1000x16, S1000x16] S1000x32 1
  bcast_S8_S1x8_1 : S8.BroadcastsInDim S1x8 (![1] : Fin 1 → Fin S1x8.rank)
  bcast_S1x8_S1000x8_0_1 : S1x8.BroadcastsInDim S1000x8 (![0, 1] : Fin 2 → Fin S1000x8.rank)
  bcast_S_S1000x8 : S_.BroadcastsInDim S1000x8 (![] : Fin 0 → Fin S1000x8.rank)
  bcast_S32_S1x32_1 : S32.BroadcastsInDim S1x32 (![1] : Fin 1 → Fin S1x32.rank)
  bcast_S1x32_S1000x32_0_1 : S1x32.BroadcastsInDim S1000x32 (![0, 1] : Fin 2 → Fin S1000x32.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  dot_S4000x32_S32x32_S4000x32_1_0_0_1_n_n_wf : DotDims.WF S4000x32 S32x32 S4000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S4000x32_S32x16_S4000x16_1_0_0_1_n_n_wf : DotDims.WF S4000x32 S32x16 S4000x16 [1] [0] [0] [1] [] []
  dot_S4000x16_S16x16_S4000x16_1_0_0_1_n_n_wf : DotDims.WF S4000x16 S16x16 S4000x16 [1] [0] [0] [1] [] []
  scatter_S1000x1_S200000x1_S200000x1_1_0_0_1_wf : ScatterDims.WF S1000x1 S200000x1 S200000x1 [1] [0] [0] 1
  scatter_S1000x16_S200000x1_S200000x16_1_0_0_1_wf : ScatterDims.WF S1000x16 S200000x1 S200000x16 [1] [0] [0] 1
  dot_S1000x16_S16x16_S1000x16_1_0_0_1_n_n_wf : DotDims.WF S1000x16 S16x16 S1000x16 [1] [0] [0] [1] [] []
  gather_S1000x16_S200000x1_S200000x16_1_0_n_n_0_1_116_wf : GatherDims.WF S1000x16 S200000x1 S200000x16 [1] [0] [] [0] [] 1 ![1, 16]
  dot_S1000x32_S32x8_S1000x8_1_0_0_1_n_n_wf : DotDims.WF S1000x32 S32x8 S1000x8 [1] [0] [0] [1] [] []
  dot_S1000x8_S8x32_S1000x32_1_0_0_1_n_n_wf : DotDims.WF S1000x8 S8x32 S1000x32 [1] [0] [0] [1] [] []
  dot_S1000x32_S32x16_S1000x16_1_0_0_1_n_n_wf : DotDims.WF S1000x32 S32x16 S1000x16 [1] [0] [0] [1] [] []
  dot_S1000x16_S16x8_S1000x8_1_0_0_1_n_n_wf : DotDims.WF S1000x16 S16x8 S1000x8 [1] [0] [0] [1] [] []
  dot_S1000x8_S8x1_S1000x1_1_0_0_1_n_n_wf : DotDims.WF S1000x8 S8x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S200000x64.size a
  hwx1_5 : ∀ i : grid1.Coords, EltTy.bits .f32 = 32 ∨ (Rect.block (s := S200000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S200000x64.size a
  hwx2_5 : ∀ i : grid2.Coords, EltTy.bits .f32 = 32 ∨ (Rect.block (s := S200000x64) S4000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S200000x64.size a
  hwx3_0 : ∀ i : grid3.Coords, EltTy.bits .f32 = 32 ∨ (Rect.block (s := S200000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S200000x64.size a
  hwx3_5 : ∀ i : grid3.Coords, EltTy.bits .f32 = 32 ∨ (Rect.block (s := S200000x64) S4000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S200000x64.size a
  hwx4_0 : ∀ i : grid4.Coords, EltTy.bits .f32 = 32 ∨ (Rect.block (s := S200000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x32.size a ≤ S200000x32.size a
  hwx4_5 : ∀ i : grid4.Coords, EltTy.bits .f32 = 32 ∨ (Rect.block (s := S200000x32) S4000x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x32.size a ≤ S200000x32.size a
  hwx5_0 : ∀ i : grid5.Coords, EltTy.bits .f32 = 32 ∨ (Rect.block (s := S200000x32) S4000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32.size a ≤ S32.size a
  hwx5_3 : ∀ i : grid5.Coords, EltTy.bits .f32 = 32 ∨ (Rect.block (s := S32) S32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32.size a ≤ S32.size a
  hwx5_4 : ∀ i : grid5.Coords, EltTy.bits .f32 = 32 ∨ (Rect.block (s := S32) S32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x32.size a ≤ S200000x32.size a
  hwx5_5 : ∀ i : grid5.Coords, EltTy.bits .f32 = 32 ∨ (Rect.block (s := S200000x32) S4000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S200000x64.size a
  hwx6_0 : ∀ i : grid6.Coords, EltTy.bits .f32 = 32 ∨ (Rect.block (s := S200000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32.size a ≤ S32.size a
  hwx6_2 : ∀ i : grid6.Coords, EltTy.bits .f32 = 32 ∨ (Rect.block (s := S32) S32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32.size a ≤ S32.size a
  hwx6_4 : ∀ i : grid6.Coords, EltTy.bits .f32 = 32 ∨ (Rect.block (s := S32) S32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x32.size a ≤ S200000x32.size a
  hwx6_5 : ∀ i : grid6.Coords, EltTy.bits .f32 = 32 ∨ (Rect.block (s := S200000x32) S4000x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x32.size a ≤ S1x32.size a
  hwx6_7 : ∀ i : grid6.Coords, EltTy.bits .f32 = 32 ∨ (Rect.block (s := S1x32) S1x32.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x32.size a ≤ S200000x32.size a
  hwx7_0 : ∀ i : grid7.Coords, EltTy.bits .f32 = 32 ∨ (Rect.block (s := S200000x32) S4000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32.size a ≤ S32.size a
  hwx7_3 : ∀ i : grid7.Coords, EltTy.bits .f32 = 32 ∨ (Rect.block (s := S32) S32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32.size a ≤ S32.size a
  hwx7_4 : ∀ i : grid7.Coords, EltTy.bits .f32 = 32 ∨ (Rect.block (s := S32) S32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x32.size a ≤ S200000x32.size a
  hwx7_5 : ∀ i : grid7.Coords, EltTy.bits .f32 = 32 ∨ (Rect.block (s := S200000x32) S4000x32.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x32.size a ≤ S200000x32.size a
  hwx8_0 : ∀ i : grid8.Coords, EltTy.bits .f32 = 32 ∨ (Rect.block (s := S200000x32) S4000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x16.size a ≤ S32x16.size a
  hwx8_1 : ∀ i : grid8.Coords, EltTy.bits .f32 = 32 ∨ (Rect.block (s := S32x16) S32x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S16.size a ≤ S16.size a
  hwx8_2 : ∀ i : grid8.Coords, EltTy.bits .f32 = 32 ∨ (Rect.block (s := S16) S16.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S16x16.size a ≤ S16x16.size a
  hwx8_3 : ∀ i : grid8.Coords, EltTy.bits .f32 = 32 ∨ (Rect.block (s := S16x16) S16x16.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S16.size a ≤ S16.size a
  hwx8_4 : ∀ i : grid8.Coords, EltTy.bits .f32 = 32 ∨ (Rect.block (s := S16) S16.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x16.size a ≤ S200000x16.size a
  hwx8_5 : ∀ i : grid8.Coords, EltTy.bits .f32 = 32 ∨ (Rect.block (s := S200000x16) S4000x16.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x16.size a ≤ S1x16.size a
  hwx8_6 : ∀ i : grid8.Coords, EltTy.bits .f32 = 32 ∨ (Rect.block (s := S1x16) S1x16.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x16.size a ≤ S1x16.size a
  hwx8_7 : ∀ i : grid8.Coords, EltTy.bits .f32 = 32 ∨ (Rect.block (s := S1x16) S1x16.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x16.size a ≤ S200000x16.size a
  hwx9_0 : ∀ i : grid9.Coords, EltTy.bits .f32 = 32 ∨ (Rect.block (s := S200000x16) S4000x16.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x16.size a ≤ S1x16.size a
  hwx9_1 : ∀ i : grid9.Coords, EltTy.bits .f32 = 32 ∨ (Rect.block (s := S1x16) S1x16.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x16.size a ≤ S1x16.size a
  hwx9_2 : ∀ i : grid9.Coords, EltTy.bits .f32 = 32 ∨ (Rect.block (s := S1x16) S1x16.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S16.size a ≤ S16.size a
  hwx9_3 : ∀ i : grid9.Coords, EltTy.bits .f32 = 32 ∨ (Rect.block (s := S16) S16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S16.size a ≤ S16.size a
  hwx9_4 : ∀ i : grid9.Coords, EltTy.bits .f32 = 32 ∨ (Rect.block (s := S16) S16.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4000x16.size a ≤ S200000x16.size a
  hwx9_5 : ∀ i : grid9.Coords, EltTy.bits .f32 = 32 ∨ (Rect.block (s := S200000x16) S4000x16.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x32.size a ≤ S200000x32.size a
  hwx10_0 : ∀ i : grid10.Coords, EltTy.bits .f32 = 32 ∨ (Rect.block (s := S200000x32) S4000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x16.size a ≤ S32x16.size a
  hwx10_1 : ∀ i : grid10.Coords, EltTy.bits .f32 = 32 ∨ (Rect.block (s := S32x16) S32x16.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S16.size a ≤ S16.size a
  hwx10_2 : ∀ i : grid10.Coords, EltTy.bits .f32 = 32 ∨ (Rect.block (s := S16) S16.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S16x16.size a ≤ S16x16.size a
  hwx10_3 : ∀ i : grid10.Coords, EltTy.bits .f32 = 32 ∨ (Rect.block (s := S16x16) S16x16.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S16.size a ≤ S16.size a
  hwx10_4 : ∀ i : grid10.Coords, EltTy.bits .f32 = 32 ∨ (Rect.block (s := S16) S16.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S4000x16.size a ≤ S200000x16.size a
  hwx10_5 : ∀ i : grid10.Coords, EltTy.bits .f32 = 32 ∨ (Rect.block (s := S200000x16) S4000x16.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x16.size a ≤ S1x16.size a
  hwx10_6 : ∀ i : grid10.Coords, EltTy.bits .f32 = 32 ∨ (Rect.block (s := S1x16) S1x16.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x16.size a ≤ S1x16.size a
  hwx10_7 : ∀ i : grid10.Coords, EltTy.bits .f32 = 32 ∨ (Rect.block (s := S1x16) S1x16.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x16.size a ≤ S200000x16.size a
  hwx11_0 : ∀ i : grid11.Coords, EltTy.bits .f32 = 32 ∨ (Rect.block (s := S200000x16) S4000x16.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x16.size a ≤ S1x16.size a
  hwx11_1 : ∀ i : grid11.Coords, EltTy.bits .f32 = 32 ∨ (Rect.block (s := S1x16) S1x16.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x16.size a ≤ S1x16.size a
  hwx11_2 : ∀ i : grid11.Coords, EltTy.bits .f32 = 32 ∨ (Rect.block (s := S1x16) S1x16.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S16.size a ≤ S16.size a
  hwx11_3 : ∀ i : grid11.Coords, EltTy.bits .f32 = 32 ∨ (Rect.block (s := S16) S16.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S16.size a ≤ S16.size a
  hwx11_4 : ∀ i : grid11.Coords, EltTy.bits .f32 = 32 ∨ (Rect.block (s := S16) S16.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S4000x16.size a ≤ S200000x16.size a
  hwx11_5 : ∀ i : grid11.Coords, EltTy.bits .f32 = 32 ∨ (Rect.block (s := S200000x16) S4000x16.size (cc11_transform_5 i) (hinb11_5 i)).WholeWords (EltTy.packing .f32)

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def scatter_S1000x1_S200000x1_S200000x1_1_0_0_1 : ScatterDims S1000x1 S200000x1 S200000x1 where
  updateWindowDims := [1]
  insertedWindowDims := [0]
  scatterDimsToOperandDims := [0]
  indexVectorDim := 1
  wf := scatter_S1000x1_S200000x1_S200000x1_1_0_0_1_wf
def scatter_S1000x16_S200000x1_S200000x16_1_0_0_1 : ScatterDims S1000x16 S200000x1 S200000x16 where
  updateWindowDims := [1]
  insertedWindowDims := [0]
  scatterDimsToOperandDims := [0]
  indexVectorDim := 1
  wf := scatter_S1000x16_S200000x1_S200000x16_1_0_0_1_wf
def dot_S1000x16_S16x16_S1000x16_1_0_0_1_n_n : DotDims S1000x16 S16x16 S1000x16 where
  lhsContracting := [1]
  rhsContracting := [0]
  lhsNonContracting := [0]
  rhsNonContracting := [1]
  lhsBatch := []
  rhsBatch := []
  wf := dot_S1000x16_S16x16_S1000x16_1_0_0_1_n_n_wf
def gather_S1000x16_S200000x1_S200000x16_1_0_n_n_0_1_116 : GatherDims S1000x16 S200000x1 S200000x16 where
  offsetDims := [1]
  collapsedSliceDims := [0]
  operandBatchingDims := []
  startIndicesBatchingDims := []
  startIndexMap := [0]
  indexVectorDim := 1
  sliceSizes := ![1, 16]
  wf := gather_S1000x16_S200000x1_S200000x16_1_0_n_n_0_1_116_wf
def dot_S1000x32_S32x8_S1000x8_1_0_0_1_n_n : DotDims S1000x32 S32x8 S1000x8 where
  lhsContracting := [1]
  rhsContracting := [0]
  lhsNonContracting := [0]
  rhsNonContracting := [1]
  lhsBatch := []
  rhsBatch := []
  wf := dot_S1000x32_S32x8_S1000x8_1_0_0_1_n_n_wf
def dot_S1000x8_S8x32_S1000x32_1_0_0_1_n_n : DotDims S1000x8 S8x32 S1000x32 where
  lhsContracting := [1]
  rhsContracting := [0]
  lhsNonContracting := [0]
  rhsNonContracting := [1]
  lhsBatch := []
  rhsBatch := []
  wf := dot_S1000x8_S8x32_S1000x32_1_0_0_1_n_n_wf
def dot_S1000x32_S32x16_S1000x16_1_0_0_1_n_n : DotDims S1000x32 S32x16 S1000x16 where
  lhsContracting := [1]
  rhsContracting := [0]
  lhsNonContracting := [0]
  rhsNonContracting := [1]
  lhsBatch := []
  rhsBatch := []
  wf := dot_S1000x32_S32x16_S1000x16_1_0_0_1_n_n_wf
def dot_S1000x16_S16x8_S1000x8_1_0_0_1_n_n : DotDims S1000x16 S16x8 S1000x8 where
  lhsContracting := [1]
  rhsContracting := [0]
  lhsNonContracting := [0]
  rhsNonContracting := [1]
  lhsBatch := []
  rhsBatch := []
  wf := dot_S1000x16_S16x8_S1000x8_1_0_0_1_n_n_wf
def dot_S1000x8_S8x1_S1000x1_1_0_0_1_n_n : DotDims S1000x8 S8x1 S1000x1 where
  lhsContracting := [1]
  rhsContracting := [0]
  lhsNonContracting := [0]
  rhsNonContracting := [1]
  lhsBatch := []
  rhsBatch := []
  wf := dot_S1000x8_S8x1_S1000x1_1_0_0_1_n_n_wf

abbrev win0_0 : Pipeline.Window sig grid0 :=
  Pipeline.Window.ofSpec (Memref.whole main_v17) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S4000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18_0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_0) S4000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v44_0) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70_0) S4000x32.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v70_1) S1x32.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v70_2) S1x32.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v70_0) S4000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg18) S32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S4000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v95) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg15) S32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg17) S32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v96_0) S4000x32.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v96_1) S1x32.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v96_2) S1x32.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v96_0) S4000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg18) S32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg19) S32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103) S4000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v121) S4000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg21) S32x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg22) S16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg23) S16x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg24) S16.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v122_0) S4000x16.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v122_1) S1x16.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v122_2) S1x16.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v122_0) S4000x16.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v124) S1x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v128) S1x16.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg25) S16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg26) S16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v129) S4000x16.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v147) S4000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg21) S32x16.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg22) S16.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg23) S16x16.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg24) S16.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v148_0) S4000x16.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v148_1) S1x16.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v148_2) S1x16.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v148_0) S4000x16.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v150) S1x16.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v154) S1x16.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg25) S16.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg26) S16.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v155) S4000x16.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S200000x64 : Shape := ⟨2, ![200000, 64]⟩
abbrev S2x3200000 : Shape := ⟨2, ![2, 3200000]⟩
abbrev S200000 : Shape := ⟨1, ![200000]⟩
abbrev S_ : Shape := ⟨0, ![]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x16 : Shape := ⟨2, ![16, 16]⟩
abbrev S32x8 : Shape := ⟨2, ![32, 8]⟩
abbrev S8 : Shape := ⟨1, ![8]⟩
abbrev S8x32 : Shape := ⟨2, ![8, 32]⟩
abbrev S16x8 : Shape := ⟨2, ![16, 8]⟩
abbrev S8x1 : Shape := ⟨2, ![8, 1]⟩
abbrev S1 : Shape := ⟨1, ![1]⟩
abbrev S1x3200000 : Shape := ⟨2, ![1, 3200000]⟩
abbrev S3200000 : Shape := ⟨1, ![3200000]⟩
abbrev S3200000x1 : Shape := ⟨2, ![3200000, 1]⟩
abbrev S3200000x64 : Shape := ⟨2, ![3200000, 64]⟩
abbrev S1x64 : Shape := ⟨2, ![1, 64]⟩
abbrev S200000x32 : Shape := ⟨2, ![200000, 32]⟩
abbrev S1x32 : Shape := ⟨2, ![1, 32]⟩
abbrev S3200000x32 : Shape := ⟨2, ![3200000, 32]⟩
abbrev S200000x16 : Shape := ⟨2, ![200000, 16]⟩
abbrev S1x16 : Shape := ⟨2, ![1, 16]⟩
abbrev S200000x1 : Shape := ⟨2, ![200000, 1]⟩
abbrev S1000x1 : Shape := ⟨2, ![1000, 1]⟩
abbrev S1000x16 : Shape := ⟨2, ![1000, 16]⟩
abbrev S1000x32 : Shape := ⟨2, ![1000, 32]⟩
abbrev S1000x8 : Shape := ⟨2, ![1000, 8]⟩
abbrev S1x8 : Shape := ⟨2, ![1, 8]⟩
abbrev S1x1 : Shape := ⟨2, ![1, 1]⟩
abbrev S1000 : Shape := ⟨1, ![1000]⟩

abbrev nBuf : Space → Nat
  | .hbm => 689
  | .vmem => 0
  | .smem => 0
  | _ => 0

abbrev hbmTy0_0 (i : Nat) : BufTy := match i % 128 with
  | 0 => ⟨S200000x64, .f32⟩
  | 1 => ⟨S200000x64, .f32⟩
  | 2 => ⟨S2x3200000, .i32⟩
  | 3 => ⟨S2x3200000, .i32⟩
  | 4 => ⟨S200000, .i32⟩
  | 5 => ⟨S200000, .i32⟩
  | 6 => ⟨S_, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S_, .f32⟩
  | 14 => ⟨S64x32, .f32⟩
  | 15 => ⟨S32, .f32⟩
  | 16 => ⟨S32x32, .f32⟩
  | 17 => ⟨S32, .f32⟩
  | 18 => ⟨S32, .f32⟩
  | 19 => ⟨S32, .f32⟩
  | 20 => ⟨S_, .f32⟩
  | 21 => ⟨S32x16, .f32⟩
  | 22 => ⟨S16, .f32⟩
  | 23 => ⟨S16x16, .f32⟩
  | 24 => ⟨S16, .f32⟩
  | 25 => ⟨S16, .f32⟩
  | 26 => ⟨S16, .f32⟩
  | 27 => ⟨S16x16, .f32⟩
  | 28 => ⟨S16, .f32⟩
  | 29 => ⟨S32x8, .f32⟩
  | 30 => ⟨S8, .f32⟩
  | 31 => ⟨S8x32, .f32⟩
  | 32 => ⟨S32, .f32⟩
  | 33 => ⟨S32x16, .f32⟩
  | 34 => ⟨S16, .f32⟩
  | 35 => ⟨S16x8, .f32⟩
  | 36 => ⟨S8, .f32⟩
  | 37 => ⟨S8x1, .f32⟩
  | 38 => ⟨S1, .f32⟩
  | 39 => ⟨S1x3200000, .i32⟩
  | 40 => ⟨S3200000, .i32⟩
  | 41 => ⟨S1x3200000, .i32⟩
  | 42 => ⟨S3200000, .i32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S_, .f32⟩
  | 53 => ⟨S200000x64, .f32⟩
  | 54 => ⟨S3200000x1, .i32⟩
  | 55 => ⟨S200000x64, .f32⟩
  | 56 => ⟨S_, .f32⟩
  | 57 => ⟨S_, .f32⟩
  | 58 => ⟨S200000x64, .f32⟩
  | 59 => ⟨S200000x64, .f32⟩
  | 60 => ⟨S200000x64, .f32⟩
  | 61 => ⟨S200000x64, .f32⟩
  | 62 => ⟨S1x64, .f32⟩
  | 63 => ⟨S200000x64, .f32⟩
  | 64 => ⟨S200000x64, .f32⟩
  | 65 => ⟨S_, .f32⟩
  | 66 => ⟨S200000x64, .f32⟩
  | 67 => ⟨S200000x64, .f32⟩
  | 68 => ⟨S200000x64, .f32⟩
  | 69 => ⟨S1x64, .f32⟩
  | 70 => ⟨S200000x64, .f32⟩
  | 71 => ⟨S200000x64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S200000x64, .f32⟩
  | 85 => ⟨S200000x64, .f32⟩
  | 86 => ⟨S200000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S200000x64, .f32⟩
  | 102 => ⟨S200000x64, .f32⟩
  | 103 => ⟨S1x64, .f32⟩
  | 104 => ⟨S200000x64, .f32⟩
  | 105 => ⟨S200000x64, .f32⟩
  | 106 => ⟨S_, .f32⟩
  | 107 => ⟨S64, .f32⟩
  | 108 => ⟨S64, .f32⟩
  | 109 => ⟨S64, .f32⟩
  | 110 => ⟨S1x64, .f32⟩
  | 111 => ⟨S200000x64, .f32⟩
  | 112 => ⟨S200000x64, .f32⟩
  | 113 => ⟨S1x64, .f32⟩
  | 114 => ⟨S200000x64, .f32⟩
  | 115 => ⟨S200000x64, .f32⟩
  | 116 => ⟨S1x3200000, .i32⟩
  | 117 => ⟨S3200000, .i32⟩
  | 118 => ⟨S1x3200000, .i32⟩
  | 119 => ⟨S3200000, .i32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S200000x64, .f32⟩

abbrev hbmTy0_1 (i : Nat) : BufTy := match i % 128 with
  | 0 => ⟨S3200000x64, .f32⟩
  | 1 => ⟨S_, .f32⟩
  | 2 => ⟨S200000x64, .f32⟩
  | 3 => ⟨S3200000x1, .i32⟩
  | 4 => ⟨S200000x64, .f32⟩
  | 5 => ⟨S_, .f32⟩
  | 6 => ⟨S_, .f32⟩
  | 7 => ⟨S200000x64, .f32⟩
  | 8 => ⟨S200000x64, .f32⟩
  | 9 => ⟨S200000x64, .f32⟩
  | 10 => ⟨S200000x64, .f32⟩
  | 11 => ⟨S1x64, .f32⟩
  | 12 => ⟨S200000x64, .f32⟩
  | 13 => ⟨S200000x64, .f32⟩
  | 14 => ⟨S_, .f32⟩
  | 15 => ⟨S200000x64, .f32⟩
  | 16 => ⟨S200000x64, .f32⟩
  | 17 => ⟨S200000x64, .f32⟩
  | 18 => ⟨S1x64, .f32⟩
  | 19 => ⟨S200000x64, .f32⟩
  | 20 => ⟨S200000x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S200000x64, .f32⟩
  | 34 => ⟨S200000x64, .f32⟩
  | 35 => ⟨S200000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S200000x64, .f32⟩
  | 51 => ⟨S200000x64, .f32⟩
  | 52 => ⟨S1x64, .f32⟩
  | 53 => ⟨S200000x64, .f32⟩
  | 54 => ⟨S200000x64, .f32⟩
  | 55 => ⟨S_, .f32⟩
  | 56 => ⟨S64, .f32⟩
  | 57 => ⟨S64, .f32⟩
  | 58 => ⟨S64, .f32⟩
  | 59 => ⟨S1x64, .f32⟩
  | 60 => ⟨S200000x64, .f32⟩
  | 61 => ⟨S200000x64, .f32⟩
  | 62 => ⟨S1x64, .f32⟩
  | 63 => ⟨S200000x64, .f32⟩
  | 64 => ⟨S200000x64, .f32⟩
  | 65 => ⟨S1x3200000, .i32⟩
  | 66 => ⟨S3200000, .i32⟩
  | 67 => ⟨S1x3200000, .i32⟩
  | 68 => ⟨S3200000, .i32⟩
  | 69 => ⟨S_, .i32⟩
  | 70 => ⟨S3200000, .i32⟩
  | 71 => ⟨S3200000, .i1⟩
  | 72 => ⟨S_, .i32⟩
  | 73 => ⟨S3200000, .i32⟩
  | 74 => ⟨S3200000, .i32⟩
  | 75 => ⟨S3200000, .i32⟩
  | 76 => ⟨S3200000x1, .i32⟩
  | 77 => ⟨S3200000x64, .f32⟩
  | 78 => ⟨S_, .f32⟩
  | 79 => ⟨S200000x64, .f32⟩
  | 80 => ⟨S3200000x1, .i32⟩
  | 81 => ⟨S200000x64, .f32⟩
  | 82 => ⟨S_, .f32⟩
  | 83 => ⟨S_, .f32⟩
  | 84 => ⟨S200000x64, .f32⟩
  | 85 => ⟨S200000x64, .f32⟩
  | 86 => ⟨S200000x64, .f32⟩
  | 87 => ⟨S200000x32, .f32⟩
  | 88 => ⟨S1x32, .f32⟩
  | 89 => ⟨S200000x32, .f32⟩
  | 90 => ⟨S200000x32, .f32⟩
  | 91 => ⟨S_, .f32⟩
  | 92 => ⟨S200000x32, .f32⟩
  | 93 => ⟨S200000x32, .f32⟩
  | 94 => ⟨S200000x32, .f32⟩
  | 95 => ⟨S1x32, .f32⟩
  | 96 => ⟨S200000x32, .f32⟩
  | 97 => ⟨S200000x32, .f32⟩
  | 98 => ⟨S_, .f32⟩
  | 99 => ⟨S32, .f32⟩
  | 100 => ⟨S_, .f32⟩
  | 101 => ⟨S32, .f32⟩
  | 102 => ⟨S32, .f32⟩
  | 103 => ⟨S_, .i32⟩
  | 104 => ⟨S_, .f32⟩
  | 105 => ⟨S32, .f32⟩
  | 106 => ⟨S1x32, .f32⟩
  | 107 => ⟨S_, .f32⟩
  | 108 => ⟨S1x32, .f32⟩
  | 109 => ⟨S1x32, .f32⟩
  | 110 => ⟨S200000x32, .f32⟩
  | 111 => ⟨S200000x32, .f32⟩
  | 112 => ⟨S200000x32, .f32⟩
  | 113 => ⟨S_, .f32⟩
  | 114 => ⟨S_, .f32⟩
  | 115 => ⟨S_, .f32⟩
  | 116 => ⟨S_, .f32⟩
  | 117 => ⟨S32, .f32⟩
  | 118 => ⟨S32, .f32⟩
  | 119 => ⟨S32, .f32⟩
  | 120 => ⟨S_, .f32⟩
  | 121 => ⟨S_, .i1⟩
  | 122 => ⟨S_, .f32⟩
  | 123 => ⟨S_, .f32⟩
  | 124 => ⟨S32, .f32⟩
  | 125 => ⟨S32, .f32⟩
  | 126 => ⟨S1x32, .f32⟩
  | 127 => ⟨S200000x32, .f32⟩
  | _ => ⟨S200000x64, .f32⟩

abbrev hbmTy0_2 (i : Nat) : BufTy := match i % 128 with
  | 0 => ⟨S200000x32, .f32⟩
  | 1 => ⟨S1x32, .f32⟩
  | 2 => ⟨S200000x32, .f32⟩
  | 3 => ⟨S200000x32, .f32⟩
  | 4 => ⟨S_, .f32⟩
  | 5 => ⟨S32, .f32⟩
  | 6 => ⟨S32, .f32⟩
  | 7 => ⟨S32, .f32⟩
  | 8 => ⟨S1x32, .f32⟩
  | 9 => ⟨S200000x32, .f32⟩
  | 10 => ⟨S200000x32, .f32⟩
  | 11 => ⟨S1x32, .f32⟩
  | 12 => ⟨S200000x32, .f32⟩
  | 13 => ⟨S200000x32, .f32⟩
  | 14 => ⟨S1x3200000, .i32⟩
  | 15 => ⟨S3200000, .i32⟩
  | 16 => ⟨S1x3200000, .i32⟩
  | 17 => ⟨S3200000, .i32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x64, .f32⟩
  | 27 => ⟨S_, .f32⟩
  | 28 => ⟨S200000x64, .f32⟩
  | 29 => ⟨S3200000x1, .i32⟩
  | 30 => ⟨S200000x64, .f32⟩
  | 31 => ⟨S_, .f32⟩
  | 32 => ⟨S_, .f32⟩
  | 33 => ⟨S200000x64, .f32⟩
  | 34 => ⟨S200000x64, .f32⟩
  | 35 => ⟨S200000x64, .f32⟩
  | 36 => ⟨S200000x32, .f32⟩
  | 37 => ⟨S1x32, .f32⟩
  | 38 => ⟨S200000x32, .f32⟩
  | 39 => ⟨S200000x32, .f32⟩
  | 40 => ⟨S_, .f32⟩
  | 41 => ⟨S200000x32, .f32⟩
  | 42 => ⟨S200000x32, .f32⟩
  | 43 => ⟨S200000x32, .f32⟩
  | 44 => ⟨S1x32, .f32⟩
  | 45 => ⟨S200000x32, .f32⟩
  | 46 => ⟨S200000x32, .f32⟩
  | 47 => ⟨S_, .f32⟩
  | 48 => ⟨S32, .f32⟩
  | 49 => ⟨S_, .f32⟩
  | 50 => ⟨S32, .f32⟩
  | 51 => ⟨S32, .f32⟩
  | 52 => ⟨S_, .i32⟩
  | 53 => ⟨S_, .f32⟩
  | 54 => ⟨S32, .f32⟩
  | 55 => ⟨S1x32, .f32⟩
  | 56 => ⟨S_, .f32⟩
  | 57 => ⟨S1x32, .f32⟩
  | 58 => ⟨S1x32, .f32⟩
  | 59 => ⟨S200000x32, .f32⟩
  | 60 => ⟨S200000x32, .f32⟩
  | 61 => ⟨S200000x32, .f32⟩
  | 62 => ⟨S_, .f32⟩
  | 63 => ⟨S_, .f32⟩
  | 64 => ⟨S_, .f32⟩
  | 65 => ⟨S_, .f32⟩
  | 66 => ⟨S32, .f32⟩
  | 67 => ⟨S32, .f32⟩
  | 68 => ⟨S32, .f32⟩
  | 69 => ⟨S_, .f32⟩
  | 70 => ⟨S_, .i1⟩
  | 71 => ⟨S_, .f32⟩
  | 72 => ⟨S_, .f32⟩
  | 73 => ⟨S32, .f32⟩
  | 74 => ⟨S32, .f32⟩
  | 75 => ⟨S1x32, .f32⟩
  | 76 => ⟨S200000x32, .f32⟩
  | 77 => ⟨S200000x32, .f32⟩
  | 78 => ⟨S1x32, .f32⟩
  | 79 => ⟨S200000x32, .f32⟩
  | 80 => ⟨S200000x32, .f32⟩
  | 81 => ⟨S_, .f32⟩
  | 82 => ⟨S32, .f32⟩
  | 83 => ⟨S32, .f32⟩
  | 84 => ⟨S32, .f32⟩
  | 85 => ⟨S1x32, .f32⟩
  | 86 => ⟨S200000x32, .f32⟩
  | 87 => ⟨S200000x32, .f32⟩
  | 88 => ⟨S1x32, .f32⟩
  | 89 => ⟨S200000x32, .f32⟩
  | 90 => ⟨S200000x32, .f32⟩
  | 91 => ⟨S1x3200000, .i32⟩
  | 92 => ⟨S3200000, .i32⟩
  | 93 => ⟨S1x3200000, .i32⟩
  | 94 => ⟨S3200000, .i32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x32, .f32⟩
  | 104 => ⟨S_, .f32⟩
  | 105 => ⟨S200000x32, .f32⟩
  | 106 => ⟨S3200000x1, .i32⟩
  | 107 => ⟨S200000x32, .f32⟩
  | 108 => ⟨S_, .f32⟩
  | 109 => ⟨S_, .f32⟩
  | 110 => ⟨S200000x32, .f32⟩
  | 111 => ⟨S200000x32, .f32⟩
  | 112 => ⟨S200000x32, .f32⟩
  | 113 => ⟨S200000x16, .f32⟩
  | 114 => ⟨S1x16, .f32⟩
  | 115 => ⟨S200000x16, .f32⟩
  | 116 => ⟨S200000x16, .f32⟩
  | 117 => ⟨S_, .f32⟩
  | 118 => ⟨S200000x16, .f32⟩
  | 119 => ⟨S200000x16, .f32⟩
  | 120 => ⟨S200000x16, .f32⟩
  | 121 => ⟨S1x16, .f32⟩
  | 122 => ⟨S200000x16, .f32⟩
  | 123 => ⟨S200000x16, .f32⟩
  | 124 => ⟨S_, .f32⟩
  | 125 => ⟨S16, .f32⟩
  | 126 => ⟨S_, .f32⟩
  | 127 => ⟨S16, .f32⟩
  | _ => ⟨S200000x64, .f32⟩

abbrev hbmTy0_3 (i : Nat) : BufTy := match i % 128 with
  | 0 => ⟨S16, .f32⟩
  | 1 => ⟨S_, .i32⟩
  | 2 => ⟨S_, .f32⟩
  | 3 => ⟨S16, .f32⟩
  | 4 => ⟨S1x16, .f32⟩
  | 5 => ⟨S_, .f32⟩
  | 6 => ⟨S1x16, .f32⟩
  | 7 => ⟨S1x16, .f32⟩
  | 8 => ⟨S200000x16, .f32⟩
  | 9 => ⟨S200000x16, .f32⟩
  | 10 => ⟨S200000x16, .f32⟩
  | 11 => ⟨S_, .f32⟩
  | 12 => ⟨S_, .f32⟩
  | 13 => ⟨S_, .f32⟩
  | 14 => ⟨S_, .f32⟩
  | 15 => ⟨S16, .f32⟩
  | 16 => ⟨S16, .f32⟩
  | 17 => ⟨S16, .f32⟩
  | 18 => ⟨S_, .f32⟩
  | 19 => ⟨S_, .i1⟩
  | 20 => ⟨S_, .f32⟩
  | 21 => ⟨S_, .f32⟩
  | 22 => ⟨S16, .f32⟩
  | 23 => ⟨S16, .f32⟩
  | 24 => ⟨S1x16, .f32⟩
  | 25 => ⟨S200000x16, .f32⟩
  | 26 => ⟨S200000x16, .f32⟩
  | 27 => ⟨S1x16, .f32⟩
  | 28 => ⟨S200000x16, .f32⟩
  | 29 => ⟨S200000x16, .f32⟩
  | 30 => ⟨S_, .f32⟩
  | 31 => ⟨S16, .f32⟩
  | 32 => ⟨S16, .f32⟩
  | 33 => ⟨S16, .f32⟩
  | 34 => ⟨S1x16, .f32⟩
  | 35 => ⟨S200000x16, .f32⟩
  | 36 => ⟨S200000x16, .f32⟩
  | 37 => ⟨S1x16, .f32⟩
  | 38 => ⟨S200000x16, .f32⟩
  | 39 => ⟨S200000x16, .f32⟩
  | 40 => ⟨S1x3200000, .i32⟩
  | 41 => ⟨S3200000, .i32⟩
  | 42 => ⟨S1x3200000, .i32⟩
  | 43 => ⟨S3200000, .i32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x32, .f32⟩
  | 53 => ⟨S_, .f32⟩
  | 54 => ⟨S200000x32, .f32⟩
  | 55 => ⟨S3200000x1, .i32⟩
  | 56 => ⟨S200000x32, .f32⟩
  | 57 => ⟨S_, .f32⟩
  | 58 => ⟨S_, .f32⟩
  | 59 => ⟨S200000x32, .f32⟩
  | 60 => ⟨S200000x32, .f32⟩
  | 61 => ⟨S200000x32, .f32⟩
  | 62 => ⟨S200000x16, .f32⟩
  | 63 => ⟨S1x16, .f32⟩
  | 64 => ⟨S200000x16, .f32⟩
  | 65 => ⟨S200000x16, .f32⟩
  | 66 => ⟨S_, .f32⟩
  | 67 => ⟨S200000x16, .f32⟩
  | 68 => ⟨S200000x16, .f32⟩
  | 69 => ⟨S200000x16, .f32⟩
  | 70 => ⟨S1x16, .f32⟩
  | 71 => ⟨S200000x16, .f32⟩
  | 72 => ⟨S200000x16, .f32⟩
  | 73 => ⟨S_, .f32⟩
  | 74 => ⟨S16, .f32⟩
  | 75 => ⟨S_, .f32⟩
  | 76 => ⟨S16, .f32⟩
  | 77 => ⟨S16, .f32⟩
  | 78 => ⟨S_, .i32⟩
  | 79 => ⟨S_, .f32⟩
  | 80 => ⟨S16, .f32⟩
  | 81 => ⟨S1x16, .f32⟩
  | 82 => ⟨S_, .f32⟩
  | 83 => ⟨S1x16, .f32⟩
  | 84 => ⟨S1x16, .f32⟩
  | 85 => ⟨S200000x16, .f32⟩
  | 86 => ⟨S200000x16, .f32⟩
  | 87 => ⟨S200000x16, .f32⟩
  | 88 => ⟨S_, .f32⟩
  | 89 => ⟨S_, .f32⟩
  | 90 => ⟨S_, .f32⟩
  | 91 => ⟨S_, .f32⟩
  | 92 => ⟨S16, .f32⟩
  | 93 => ⟨S16, .f32⟩
  | 94 => ⟨S16, .f32⟩
  | 95 => ⟨S_, .f32⟩
  | 96 => ⟨S_, .i1⟩
  | 97 => ⟨S_, .f32⟩
  | 98 => ⟨S_, .f32⟩
  | 99 => ⟨S16, .f32⟩
  | 100 => ⟨S16, .f32⟩
  | 101 => ⟨S1x16, .f32⟩
  | 102 => ⟨S200000x16, .f32⟩
  | 103 => ⟨S200000x16, .f32⟩
  | 104 => ⟨S1x16, .f32⟩
  | 105 => ⟨S200000x16, .f32⟩
  | 106 => ⟨S200000x16, .f32⟩
  | 107 => ⟨S_, .f32⟩
  | 108 => ⟨S16, .f32⟩
  | 109 => ⟨S16, .f32⟩
  | 110 => ⟨S16, .f32⟩
  | 111 => ⟨S1x16, .f32⟩
  | 112 => ⟨S200000x16, .f32⟩
  | 113 => ⟨S200000x16, .f32⟩
  | 114 => ⟨S1x16, .f32⟩
  | 115 => ⟨S200000x16, .f32⟩
  | 116 => ⟨S200000x16, .f32⟩
  | 117 => ⟨S_, .f32⟩
  | 118 => ⟨S200000x1, .f32⟩
  | 119 => ⟨S_, .f32⟩
  | 120 => ⟨S1000x1, .f32⟩
  | 121 => ⟨S200000x1, .i32⟩
  | 122 => ⟨S1000x1, .f32⟩
  | 123 => ⟨S_, .f32⟩
  | 124 => ⟨S1000x16, .f32⟩
  | 125 => ⟨S200000x1, .i32⟩
  | 126 => ⟨S1000x16, .f32⟩
  | 127 => ⟨S_, .f32⟩
  | _ => ⟨S200000x64, .f32⟩

abbrev hbmTy0_4 (i : Nat) : BufTy := match i % 128 with
  | 0 => ⟨S1000x1, .f32⟩
  | 1 => ⟨S1000x1, .f32⟩
  | 2 => ⟨S1000x16, .f32⟩
  | 3 => ⟨S1000x16, .f32⟩
  | 4 => ⟨S1000x16, .f32⟩
  | 5 => ⟨S1x16, .f32⟩
  | 6 => ⟨S1000x16, .f32⟩
  | 7 => ⟨S1000x16, .f32⟩
  | 8 => ⟨S1000x16, .f32⟩
  | 9 => ⟨S1000x16, .f32⟩
  | 10 => ⟨S_, .f32⟩
  | 11 => ⟨S1000x16, .f32⟩
  | 12 => ⟨S1000x16, .f32⟩
  | 13 => ⟨S_, .f32⟩
  | 14 => ⟨S1000x16, .f32⟩
  | 15 => ⟨S1000x16, .f32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S200000x16, .f32⟩
  | 25 => ⟨S200000x16, .f32⟩
  | 26 => ⟨S_, .f32⟩
  | 27 => ⟨S200000, .f32⟩
  | 28 => ⟨S200000x1, .f32⟩
  | 29 => ⟨S200000x1, .f32⟩
  | 30 => ⟨S200000x1, .f32⟩
  | 31 => ⟨S_, .f32⟩
  | 32 => ⟨S200000x1, .f32⟩
  | 33 => ⟨S200000x1, .f32⟩
  | 34 => ⟨S_, .f32⟩
  | 35 => ⟨S200000x1, .f32⟩
  | 36 => ⟨S200000x1, .f32⟩
  | 37 => ⟨S200000x16, .f32⟩
  | 38 => ⟨S200000x16, .f32⟩
  | 39 => ⟨S_, .f32⟩
  | 40 => ⟨S1000x16, .f32⟩
  | 41 => ⟨S200000x1, .i32⟩
  | 42 => ⟨S1000x16, .f32⟩
  | 43 => ⟨S_, .f32⟩
  | 44 => ⟨S200000x1, .f32⟩
  | 45 => ⟨S_, .f32⟩
  | 46 => ⟨S1000x1, .f32⟩
  | 47 => ⟨S200000x1, .i32⟩
  | 48 => ⟨S1000x1, .f32⟩
  | 49 => ⟨S_, .f32⟩
  | 50 => ⟨S1000x16, .f32⟩
  | 51 => ⟨S200000x1, .i32⟩
  | 52 => ⟨S1000x16, .f32⟩
  | 53 => ⟨S_, .f32⟩
  | 54 => ⟨S1000x1, .f32⟩
  | 55 => ⟨S1000x1, .f32⟩
  | 56 => ⟨S1000x16, .f32⟩
  | 57 => ⟨S1000x16, .f32⟩
  | 58 => ⟨S1000x16, .f32⟩
  | 59 => ⟨S1x16, .f32⟩
  | 60 => ⟨S1000x16, .f32⟩
  | 61 => ⟨S1000x16, .f32⟩
  | 62 => ⟨S1000x16, .f32⟩
  | 63 => ⟨S1000x16, .f32⟩
  | 64 => ⟨S_, .f32⟩
  | 65 => ⟨S1000x16, .f32⟩
  | 66 => ⟨S1000x16, .f32⟩
  | 67 => ⟨S_, .f32⟩
  | 68 => ⟨S1000x16, .f32⟩
  | 69 => ⟨S1000x16, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x16, .f32⟩
  | 79 => ⟨S200000x16, .f32⟩
  | 80 => ⟨S_, .f32⟩
  | 81 => ⟨S200000, .f32⟩
  | 82 => ⟨S200000x1, .f32⟩
  | 83 => ⟨S200000x1, .f32⟩
  | 84 => ⟨S200000x1, .f32⟩
  | 85 => ⟨S_, .f32⟩
  | 86 => ⟨S200000x1, .f32⟩
  | 87 => ⟨S200000x1, .f32⟩
  | 88 => ⟨S_, .f32⟩
  | 89 => ⟨S200000x1, .f32⟩
  | 90 => ⟨S200000x1, .f32⟩
  | 91 => ⟨S200000x16, .f32⟩
  | 92 => ⟨S200000x16, .f32⟩
  | 93 => ⟨S_, .f32⟩
  | 94 => ⟨S1000x16, .f32⟩
  | 95 => ⟨S200000x1, .i32⟩
  | 96 => ⟨S1000x16, .f32⟩
  | 97 => ⟨S1000x32, .f32⟩
  | 98 => ⟨S1000x8, .f32⟩
  | 99 => ⟨S1x8, .f32⟩
  | 100 => ⟨S1000x8, .f32⟩
  | 101 => ⟨S1000x8, .f32⟩
  | 102 => ⟨S_, .f32⟩
  | 103 => ⟨S1000x8, .f32⟩
  | 104 => ⟨S1000x8, .f32⟩
  | 105 => ⟨S1000x32, .f32⟩
  | 106 => ⟨S1x32, .f32⟩
  | 107 => ⟨S1000x32, .f32⟩
  | 108 => ⟨S1000x32, .f32⟩
  | 109 => ⟨S1000x32, .f32⟩
  | 110 => ⟨S1000x32, .f32⟩
  | 111 => ⟨S1000x32, .f32⟩
  | 112 => ⟨S1000x16, .f32⟩
  | 113 => ⟨S1x16, .f32⟩
  | 114 => ⟨S1000x16, .f32⟩
  | 115 => ⟨S1000x16, .f32⟩
  | 116 => ⟨S_, .f32⟩
  | 117 => ⟨S1000x16, .f32⟩
  | 118 => ⟨S1000x16, .f32⟩
  | 119 => ⟨S1000x32, .f32⟩
  | 120 => ⟨S1000x8, .f32⟩
  | 121 => ⟨S1x8, .f32⟩
  | 122 => ⟨S1000x8, .f32⟩
  | 123 => ⟨S1000x8, .f32⟩
  | 124 => ⟨S_, .f32⟩
  | 125 => ⟨S1000x8, .f32⟩
  | 126 => ⟨S1000x8, .f32⟩
  | 127 => ⟨S1000x32, .f32⟩
  | _ => ⟨S200000x64, .f32⟩

abbrev hbmTy0_5 (i : Nat) : BufTy := match i % 128 with
  | 0 => ⟨S1x32, .f32⟩
  | 1 => ⟨S1000x32, .f32⟩
  | 2 => ⟨S1000x32, .f32⟩
  | 3 => ⟨S1000x32, .f32⟩
  | 4 => ⟨S1000x32, .f32⟩
  | 5 => ⟨S1000x32, .f32⟩
  | 6 => ⟨S1000x16, .f32⟩
  | 7 => ⟨S1x16, .f32⟩
  | 8 => ⟨S1000x16, .f32⟩
  | 9 => ⟨S1000x16, .f32⟩
  | 10 => ⟨S_, .f32⟩
  | 11 => ⟨S1000x16, .f32⟩
  | 12 => ⟨S1000x16, .f32⟩
  | 13 => ⟨S1000x32, .f32⟩
  | 14 => ⟨S1000x8, .f32⟩
  | 15 => ⟨S1x8, .f32⟩
  | 16 => ⟨S1000x8, .f32⟩
  | 17 => ⟨S1000x8, .f32⟩
  | 18 => ⟨S_, .f32⟩
  | 19 => ⟨S1000x8, .f32⟩
  | 20 => ⟨S1000x8, .f32⟩
  | 21 => ⟨S1000x32, .f32⟩
  | 22 => ⟨S1x32, .f32⟩
  | 23 => ⟨S1000x32, .f32⟩
  | 24 => ⟨S1000x32, .f32⟩
  | 25 => ⟨S1000x32, .f32⟩
  | 26 => ⟨S1000x32, .f32⟩
  | 27 => ⟨S1000x32, .f32⟩
  | 28 => ⟨S1000x16, .f32⟩
  | 29 => ⟨S1x16, .f32⟩
  | 30 => ⟨S1000x16, .f32⟩
  | 31 => ⟨S1000x16, .f32⟩
  | 32 => ⟨S_, .f32⟩
  | 33 => ⟨S1000x16, .f32⟩
  | 34 => ⟨S1000x16, .f32⟩
  | 35 => ⟨S1000x16, .f32⟩
  | 36 => ⟨S1000x16, .f32⟩
  | 37 => ⟨S1000x8, .f32⟩
  | 38 => ⟨S1x8, .f32⟩
  | 39 => ⟨S1000x8, .f32⟩
  | 40 => ⟨S1000x8, .f32⟩
  | 41 => ⟨S_, .f32⟩
  | 42 => ⟨S1000x8, .f32⟩
  | 43 => ⟨S1000x8, .f32⟩
  | 44 => ⟨S1000x1, .f32⟩
  | 45 => ⟨S1x1, .f32⟩
  | 46 => ⟨S1000x1, .f32⟩
  | 47 => ⟨S1000x1, .f32⟩
  | 48 => ⟨S1000, .f32⟩
  | _ => ⟨S200000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_c : Ref sig .tc := ⟨.hbm, 43, rfl⟩
abbrev main_v4 : Ref sig .tc := ⟨.hbm, 44, rfl⟩
abbrev main_v5 : Ref sig .tc := ⟨.hbm, 45, rfl⟩
abbrev main_c_0 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_call0_cst : Ref sig .tc := ⟨.hbm, 65, rfl⟩
abbrev main_call0_v0 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_2 : Ref sig .tc := ⟨.hbm, 72, rfl⟩
abbrev main_v27 : Ref sig .tc := ⟨.hbm, 73, rfl⟩
abbrev main_cst_3 : Ref sig .tc := ⟨.hbm, 74, rfl⟩
abbrev main_v28 : Ref sig .tc := ⟨.hbm, 75, rfl⟩
abbrev main_v29 : Ref sig .tc := ⟨.hbm, 76, rfl⟩
abbrev main_c_4 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_cst_5 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_c_6 : Ref sig .tc := ⟨.hbm, 120, rfl⟩
abbrev main_v50 : Ref sig .tc := ⟨.hbm, 121, rfl⟩
abbrev main_v51 : Ref sig .tc := ⟨.hbm, 122, rfl⟩
abbrev main_c_7 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_cst_8 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_cst_9 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_call2_cst : Ref sig .tc := ⟨.hbm, 142, rfl⟩
abbrev main_call2_v0 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_cst_10 : Ref sig .tc := ⟨.hbm, 149, rfl⟩
abbrev main_v73 : Ref sig .tc := ⟨.hbm, 150, rfl⟩
abbrev main_cst_11 : Ref sig .tc := ⟨.hbm, 151, rfl⟩
abbrev main_v74 : Ref sig .tc := ⟨.hbm, 152, rfl⟩
abbrev main_v75 : Ref sig .tc := ⟨.hbm, 153, rfl⟩
abbrev main_c_12 : Ref sig .tc := ⟨.hbm, 154, rfl⟩
abbrev main_call3_cst : Ref sig .tc := ⟨.hbm, 155, rfl⟩
abbrev main_call3_v0 : Ref sig .tc := ⟨.hbm, 156, rfl⟩
abbrev main_call3_v1 : Ref sig .tc := ⟨.hbm, 157, rfl⟩
abbrev main_call3_cst_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_v7 : Ref sig .tc := ⟨.hbm, 164, rfl⟩
abbrev main_call3_cst_1 : Ref sig .tc := ⟨.hbm, 165, rfl⟩
abbrev main_call3_v8 : Ref sig .tc := ⟨.hbm, 166, rfl⟩
abbrev main_call3_cst_2 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_cst_3 : Ref sig .tc := ⟨.hbm, 171, rfl⟩
abbrev main_call3_v12 : Ref sig .tc := ⟨.hbm, 172, rfl⟩
abbrev main_call3_cst_4 : Ref sig .tc := ⟨.hbm, 173, rfl⟩
abbrev main_call3_call0_v0 : Ref sig .tc := ⟨.hbm, 174, rfl⟩
abbrev main_call3_call0_v1 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_cst_13 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_c_14 : Ref sig .tc := ⟨.hbm, 197, rfl⟩
abbrev main_v96 : Ref sig .tc := ⟨.hbm, 198, rfl⟩
abbrev main_v97 : Ref sig .tc := ⟨.hbm, 199, rfl⟩
abbrev main_c_15 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_cst_16 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_cst_17 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_call4_cst : Ref sig .tc := ⟨.hbm, 219, rfl⟩
abbrev main_call4_v0 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_cst_18 : Ref sig .tc := ⟨.hbm, 226, rfl⟩
abbrev main_v119 : Ref sig .tc := ⟨.hbm, 227, rfl⟩
abbrev main_cst_19 : Ref sig .tc := ⟨.hbm, 228, rfl⟩
abbrev main_v120 : Ref sig .tc := ⟨.hbm, 229, rfl⟩
abbrev main_v121 : Ref sig .tc := ⟨.hbm, 230, rfl⟩
abbrev main_c_20 : Ref sig .tc := ⟨.hbm, 231, rfl⟩
abbrev main_call5_cst : Ref sig .tc := ⟨.hbm, 232, rfl⟩
abbrev main_call5_v0 : Ref sig .tc := ⟨.hbm, 233, rfl⟩
abbrev main_call5_v1 : Ref sig .tc := ⟨.hbm, 234, rfl⟩
abbrev main_call5_cst_0 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_call5_v5 : Ref sig .tc := ⟨.hbm, 239, rfl⟩
abbrev main_call5_v6 : Ref sig .tc := ⟨.hbm, 240, rfl⟩
abbrev main_call5_v7 : Ref sig .tc := ⟨.hbm, 241, rfl⟩
abbrev main_call5_cst_1 : Ref sig .tc := ⟨.hbm, 242, rfl⟩
abbrev main_call5_v8 : Ref sig .tc := ⟨.hbm, 243, rfl⟩
abbrev main_call5_cst_2 : Ref sig .tc := ⟨.hbm, 244, rfl⟩
abbrev main_call5_v9 : Ref sig .tc := ⟨.hbm, 245, rfl⟩
abbrev main_call5_v10 : Ref sig .tc := ⟨.hbm, 246, rfl⟩
abbrev main_call5_v11 : Ref sig .tc := ⟨.hbm, 247, rfl⟩
abbrev main_call5_cst_3 : Ref sig .tc := ⟨.hbm, 248, rfl⟩
abbrev main_call5_v12 : Ref sig .tc := ⟨.hbm, 249, rfl⟩
abbrev main_call5_cst_4 : Ref sig .tc := ⟨.hbm, 250, rfl⟩
abbrev main_call5_call0_v0 : Ref sig .tc := ⟨.hbm, 251, rfl⟩
abbrev main_call5_call0_v1 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_cst_21 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_c_22 : Ref sig .tc := ⟨.hbm, 274, rfl⟩
abbrev main_v142 : Ref sig .tc := ⟨.hbm, 275, rfl⟩
abbrev main_v143 : Ref sig .tc := ⟨.hbm, 276, rfl⟩
abbrev main_c_23 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_cst_24 : Ref sig .tc := ⟨.hbm, 283, rfl⟩
abbrev main_v149 : Ref sig .tc := ⟨.hbm, 284, rfl⟩
abbrev main_v150 : Ref sig .tc := ⟨.hbm, 285, rfl⟩
abbrev main_v151 : Ref sig .tc := ⟨.hbm, 286, rfl⟩
abbrev main_cst_25 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_v156 : Ref sig .tc := ⟨.hbm, 292, rfl⟩
abbrev main_v157 : Ref sig .tc := ⟨.hbm, 293, rfl⟩
abbrev main_v158 : Ref sig .tc := ⟨.hbm, 294, rfl⟩
abbrev main_v159 : Ref sig .tc := ⟨.hbm, 295, rfl⟩
abbrev main_call6_cst : Ref sig .tc := ⟨.hbm, 296, rfl⟩
abbrev main_call6_v0 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_cst_26 : Ref sig .tc := ⟨.hbm, 303, rfl⟩
abbrev main_v165 : Ref sig .tc := ⟨.hbm, 304, rfl⟩
abbrev main_cst_27 : Ref sig .tc := ⟨.hbm, 305, rfl⟩
abbrev main_v166 : Ref sig .tc := ⟨.hbm, 306, rfl⟩
abbrev main_v167 : Ref sig .tc := ⟨.hbm, 307, rfl⟩
abbrev main_c_28 : Ref sig .tc := ⟨.hbm, 308, rfl⟩
abbrev main_call7_cst : Ref sig .tc := ⟨.hbm, 309, rfl⟩
abbrev main_call7_v0 : Ref sig .tc := ⟨.hbm, 310, rfl⟩
abbrev main_call7_v1 : Ref sig .tc := ⟨.hbm, 311, rfl⟩
abbrev main_call7_cst_0 : Ref sig .tc := ⟨.hbm, 312, rfl⟩
abbrev main_call7_v2 : Ref sig .tc := ⟨.hbm, 313, rfl⟩
abbrev main_call7_v3 : Ref sig .tc := ⟨.hbm, 314, rfl⟩
abbrev main_call7_v4 : Ref sig .tc := ⟨.hbm, 315, rfl⟩
abbrev main_call7_v5 : Ref sig .tc := ⟨.hbm, 316, rfl⟩
abbrev main_call7_v6 : Ref sig .tc := ⟨.hbm, 317, rfl⟩
abbrev main_call7_v7 : Ref sig .tc := ⟨.hbm, 318, rfl⟩
abbrev main_call7_cst_1 : Ref sig .tc := ⟨.hbm, 319, rfl⟩
abbrev main_call7_v8 : Ref sig .tc := ⟨.hbm, 320, rfl⟩
abbrev main_call7_cst_2 : Ref sig .tc := ⟨.hbm, 321, rfl⟩
abbrev main_call7_v9 : Ref sig .tc := ⟨.hbm, 322, rfl⟩
abbrev main_call7_v10 : Ref sig .tc := ⟨.hbm, 323, rfl⟩
abbrev main_call7_v11 : Ref sig .tc := ⟨.hbm, 324, rfl⟩
abbrev main_call7_cst_3 : Ref sig .tc := ⟨.hbm, 325, rfl⟩
abbrev main_call7_v12 : Ref sig .tc := ⟨.hbm, 326, rfl⟩
abbrev main_call7_cst_4 : Ref sig .tc := ⟨.hbm, 327, rfl⟩
abbrev main_call7_call0_v0 : Ref sig .tc := ⟨.hbm, 328, rfl⟩
abbrev main_call7_call0_v1 : Ref sig .tc := ⟨.hbm, 329, rfl⟩
abbrev main_v168 : Ref sig .tc := ⟨.hbm, 330, rfl⟩
abbrev main_v169 : Ref sig .tc := ⟨.hbm, 331, rfl⟩
abbrev main_v170 : Ref sig .tc := ⟨.hbm, 332, rfl⟩
abbrev main_v171 : Ref sig .tc := ⟨.hbm, 333, rfl⟩
abbrev main_v172 : Ref sig .tc := ⟨.hbm, 334, rfl⟩
abbrev main_v173 : Ref sig .tc := ⟨.hbm, 335, rfl⟩
abbrev main_v174 : Ref sig .tc := ⟨.hbm, 336, rfl⟩
abbrev main_cst_29 : Ref sig .tc := ⟨.hbm, 337, rfl⟩
abbrev main_v175 : Ref sig .tc := ⟨.hbm, 338, rfl⟩
abbrev main_v176 : Ref sig .tc := ⟨.hbm, 339, rfl⟩
abbrev main_v177 : Ref sig .tc := ⟨.hbm, 340, rfl⟩
abbrev main_v178 : Ref sig .tc := ⟨.hbm, 341, rfl⟩
abbrev main_v179 : Ref sig .tc := ⟨.hbm, 342, rfl⟩
abbrev main_v180 : Ref sig .tc := ⟨.hbm, 343, rfl⟩
abbrev main_v181 : Ref sig .tc := ⟨.hbm, 344, rfl⟩
abbrev main_v182 : Ref sig .tc := ⟨.hbm, 345, rfl⟩
abbrev main_v183 : Ref sig .tc := ⟨.hbm, 346, rfl⟩
abbrev main_v184 : Ref sig .tc := ⟨.hbm, 347, rfl⟩
abbrev main_v185 : Ref sig .tc := ⟨.hbm, 348, rfl⟩
abbrev main_v186 : Ref sig .tc := ⟨.hbm, 349, rfl⟩
abbrev main_v187 : Ref sig .tc := ⟨.hbm, 350, rfl⟩
abbrev main_c_30 : Ref sig .tc := ⟨.hbm, 351, rfl⟩
abbrev main_v188 : Ref sig .tc := ⟨.hbm, 352, rfl⟩
abbrev main_v189 : Ref sig .tc := ⟨.hbm, 353, rfl⟩
abbrev main_c_31 : Ref sig .tc := ⟨.hbm, 354, rfl⟩
abbrev main_v190 : Ref sig .tc := ⟨.hbm, 355, rfl⟩
abbrev main_v191 : Ref sig .tc := ⟨.hbm, 356, rfl⟩
abbrev main_v192 : Ref sig .tc := ⟨.hbm, 357, rfl⟩
abbrev main_v193 : Ref sig .tc := ⟨.hbm, 358, rfl⟩
abbrev main_v194 : Ref sig .tc := ⟨.hbm, 359, rfl⟩
abbrev main_cst_32 : Ref sig .tc := ⟨.hbm, 360, rfl⟩
abbrev main_v195 : Ref sig .tc := ⟨.hbm, 361, rfl⟩
abbrev main_v196 : Ref sig .tc := ⟨.hbm, 362, rfl⟩
abbrev main_v197 : Ref sig .tc := ⟨.hbm, 363, rfl⟩
abbrev main_cst_33 : Ref sig .tc := ⟨.hbm, 364, rfl⟩
abbrev main_v198 : Ref sig .tc := ⟨.hbm, 365, rfl⟩
abbrev main_v199 : Ref sig .tc := ⟨.hbm, 366, rfl⟩
abbrev main_v200 : Ref sig .tc := ⟨.hbm, 367, rfl⟩
abbrev main_v201 : Ref sig .tc := ⟨.hbm, 368, rfl⟩
abbrev main_v202 : Ref sig .tc := ⟨.hbm, 369, rfl⟩
abbrev main_v203 : Ref sig .tc := ⟨.hbm, 370, rfl⟩
abbrev main_v204 : Ref sig .tc := ⟨.hbm, 371, rfl⟩
abbrev main_v205 : Ref sig .tc := ⟨.hbm, 372, rfl⟩
abbrev main_call8_cst : Ref sig .tc := ⟨.hbm, 373, rfl⟩
abbrev main_call8_v0 : Ref sig .tc := ⟨.hbm, 374, rfl⟩
abbrev main_v206 : Ref sig .tc := ⟨.hbm, 375, rfl⟩
abbrev main_v207 : Ref sig .tc := ⟨.hbm, 376, rfl⟩
abbrev main_v208 : Ref sig .tc := ⟨.hbm, 377, rfl⟩
abbrev main_v209 : Ref sig .tc := ⟨.hbm, 378, rfl⟩
abbrev main_v210 : Ref sig .tc := ⟨.hbm, 379, rfl⟩
abbrev main_cst_34 : Ref sig .tc := ⟨.hbm, 380, rfl⟩
abbrev main_v211 : Ref sig .tc := ⟨.hbm, 381, rfl⟩
abbrev main_cst_35 : Ref sig .tc := ⟨.hbm, 382, rfl⟩
abbrev main_v212 : Ref sig .tc := ⟨.hbm, 383, rfl⟩
abbrev main_v213 : Ref sig .tc := ⟨.hbm, 384, rfl⟩
abbrev main_c_36 : Ref sig .tc := ⟨.hbm, 385, rfl⟩
abbrev main_call9_cst : Ref sig .tc := ⟨.hbm, 386, rfl⟩
abbrev main_call9_v0 : Ref sig .tc := ⟨.hbm, 387, rfl⟩
abbrev main_call9_v1 : Ref sig .tc := ⟨.hbm, 388, rfl⟩
abbrev main_call9_cst_0 : Ref sig .tc := ⟨.hbm, 389, rfl⟩
abbrev main_call9_v2 : Ref sig .tc := ⟨.hbm, 390, rfl⟩
abbrev main_call9_v3 : Ref sig .tc := ⟨.hbm, 391, rfl⟩
abbrev main_call9_v4 : Ref sig .tc := ⟨.hbm, 392, rfl⟩
abbrev main_call9_v5 : Ref sig .tc := ⟨.hbm, 393, rfl⟩
abbrev main_call9_v6 : Ref sig .tc := ⟨.hbm, 394, rfl⟩
abbrev main_call9_v7 : Ref sig .tc := ⟨.hbm, 395, rfl⟩
abbrev main_call9_cst_1 : Ref sig .tc := ⟨.hbm, 396, rfl⟩
abbrev main_call9_v8 : Ref sig .tc := ⟨.hbm, 397, rfl⟩
abbrev main_call9_cst_2 : Ref sig .tc := ⟨.hbm, 398, rfl⟩
abbrev main_call9_v9 : Ref sig .tc := ⟨.hbm, 399, rfl⟩
abbrev main_call9_v10 : Ref sig .tc := ⟨.hbm, 400, rfl⟩
abbrev main_call9_v11 : Ref sig .tc := ⟨.hbm, 401, rfl⟩
abbrev main_call9_cst_3 : Ref sig .tc := ⟨.hbm, 402, rfl⟩
abbrev main_call9_v12 : Ref sig .tc := ⟨.hbm, 403, rfl⟩
abbrev main_call9_cst_4 : Ref sig .tc := ⟨.hbm, 404, rfl⟩
abbrev main_call9_call0_v0 : Ref sig .tc := ⟨.hbm, 405, rfl⟩
abbrev main_call9_call0_v1 : Ref sig .tc := ⟨.hbm, 406, rfl⟩
abbrev main_v214 : Ref sig .tc := ⟨.hbm, 407, rfl⟩
abbrev main_v215 : Ref sig .tc := ⟨.hbm, 408, rfl⟩
abbrev main_v216 : Ref sig .tc := ⟨.hbm, 409, rfl⟩
abbrev main_v217 : Ref sig .tc := ⟨.hbm, 410, rfl⟩
abbrev main_v218 : Ref sig .tc := ⟨.hbm, 411, rfl⟩
abbrev main_v219 : Ref sig .tc := ⟨.hbm, 412, rfl⟩
abbrev main_v220 : Ref sig .tc := ⟨.hbm, 413, rfl⟩
abbrev main_cst_37 : Ref sig .tc := ⟨.hbm, 414, rfl⟩
abbrev main_v221 : Ref sig .tc := ⟨.hbm, 415, rfl⟩
abbrev main_v222 : Ref sig .tc := ⟨.hbm, 416, rfl⟩
abbrev main_v223 : Ref sig .tc := ⟨.hbm, 417, rfl⟩
abbrev main_v224 : Ref sig .tc := ⟨.hbm, 418, rfl⟩
abbrev main_v225 : Ref sig .tc := ⟨.hbm, 419, rfl⟩
abbrev main_v226 : Ref sig .tc := ⟨.hbm, 420, rfl⟩
abbrev main_v227 : Ref sig .tc := ⟨.hbm, 421, rfl⟩
abbrev main_v228 : Ref sig .tc := ⟨.hbm, 422, rfl⟩
abbrev main_v229 : Ref sig .tc := ⟨.hbm, 423, rfl⟩
abbrev main_v230 : Ref sig .tc := ⟨.hbm, 424, rfl⟩
abbrev main_v231 : Ref sig .tc := ⟨.hbm, 425, rfl⟩
abbrev main_v232 : Ref sig .tc := ⟨.hbm, 426, rfl⟩
abbrev main_v233 : Ref sig .tc := ⟨.hbm, 427, rfl⟩
abbrev main_c_38 : Ref sig .tc := ⟨.hbm, 428, rfl⟩
abbrev main_v234 : Ref sig .tc := ⟨.hbm, 429, rfl⟩
abbrev main_v235 : Ref sig .tc := ⟨.hbm, 430, rfl⟩
abbrev main_c_39 : Ref sig .tc := ⟨.hbm, 431, rfl⟩
abbrev main_v236 : Ref sig .tc := ⟨.hbm, 432, rfl⟩
abbrev main_v237 : Ref sig .tc := ⟨.hbm, 433, rfl⟩
abbrev main_v238 : Ref sig .tc := ⟨.hbm, 434, rfl⟩
abbrev main_v239 : Ref sig .tc := ⟨.hbm, 435, rfl⟩
abbrev main_v240 : Ref sig .tc := ⟨.hbm, 436, rfl⟩
abbrev main_cst_40 : Ref sig .tc := ⟨.hbm, 437, rfl⟩
abbrev main_v241 : Ref sig .tc := ⟨.hbm, 438, rfl⟩
abbrev main_v242 : Ref sig .tc := ⟨.hbm, 439, rfl⟩
abbrev main_v243 : Ref sig .tc := ⟨.hbm, 440, rfl⟩
abbrev main_cst_41 : Ref sig .tc := ⟨.hbm, 441, rfl⟩
abbrev main_v244 : Ref sig .tc := ⟨.hbm, 442, rfl⟩
abbrev main_v245 : Ref sig .tc := ⟨.hbm, 443, rfl⟩
abbrev main_v246 : Ref sig .tc := ⟨.hbm, 444, rfl⟩
abbrev main_v247 : Ref sig .tc := ⟨.hbm, 445, rfl⟩
abbrev main_v248 : Ref sig .tc := ⟨.hbm, 446, rfl⟩
abbrev main_v249 : Ref sig .tc := ⟨.hbm, 447, rfl⟩
abbrev main_v250 : Ref sig .tc := ⟨.hbm, 448, rfl⟩
abbrev main_v251 : Ref sig .tc := ⟨.hbm, 449, rfl⟩
abbrev main_call10_cst : Ref sig .tc := ⟨.hbm, 450, rfl⟩
abbrev main_call10_v0 : Ref sig .tc := ⟨.hbm, 451, rfl⟩
abbrev main_v252 : Ref sig .tc := ⟨.hbm, 452, rfl⟩
abbrev main_v253 : Ref sig .tc := ⟨.hbm, 453, rfl⟩
abbrev main_v254 : Ref sig .tc := ⟨.hbm, 454, rfl⟩
abbrev main_v255 : Ref sig .tc := ⟨.hbm, 455, rfl⟩
abbrev main_v256 : Ref sig .tc := ⟨.hbm, 456, rfl⟩
abbrev main_cst_42 : Ref sig .tc := ⟨.hbm, 457, rfl⟩
abbrev main_v257 : Ref sig .tc := ⟨.hbm, 458, rfl⟩
abbrev main_cst_43 : Ref sig .tc := ⟨.hbm, 459, rfl⟩
abbrev main_v258 : Ref sig .tc := ⟨.hbm, 460, rfl⟩
abbrev main_v259 : Ref sig .tc := ⟨.hbm, 461, rfl⟩
abbrev main_c_44 : Ref sig .tc := ⟨.hbm, 462, rfl⟩
abbrev main_call11_cst : Ref sig .tc := ⟨.hbm, 463, rfl⟩
abbrev main_call11_v0 : Ref sig .tc := ⟨.hbm, 464, rfl⟩
abbrev main_call11_v1 : Ref sig .tc := ⟨.hbm, 465, rfl⟩
abbrev main_call11_cst_0 : Ref sig .tc := ⟨.hbm, 466, rfl⟩
abbrev main_call11_v2 : Ref sig .tc := ⟨.hbm, 467, rfl⟩
abbrev main_call11_v3 : Ref sig .tc := ⟨.hbm, 468, rfl⟩
abbrev main_call11_v4 : Ref sig .tc := ⟨.hbm, 469, rfl⟩
abbrev main_call11_v5 : Ref sig .tc := ⟨.hbm, 470, rfl⟩
abbrev main_call11_v6 : Ref sig .tc := ⟨.hbm, 471, rfl⟩
abbrev main_call11_v7 : Ref sig .tc := ⟨.hbm, 472, rfl⟩
abbrev main_call11_cst_1 : Ref sig .tc := ⟨.hbm, 473, rfl⟩
abbrev main_call11_v8 : Ref sig .tc := ⟨.hbm, 474, rfl⟩
abbrev main_call11_cst_2 : Ref sig .tc := ⟨.hbm, 475, rfl⟩
abbrev main_call11_v9 : Ref sig .tc := ⟨.hbm, 476, rfl⟩
abbrev main_call11_v10 : Ref sig .tc := ⟨.hbm, 477, rfl⟩
abbrev main_call11_v11 : Ref sig .tc := ⟨.hbm, 478, rfl⟩
abbrev main_call11_cst_3 : Ref sig .tc := ⟨.hbm, 479, rfl⟩
abbrev main_call11_v12 : Ref sig .tc := ⟨.hbm, 480, rfl⟩
abbrev main_call11_cst_4 : Ref sig .tc := ⟨.hbm, 481, rfl⟩
abbrev main_call11_call0_v0 : Ref sig .tc := ⟨.hbm, 482, rfl⟩
abbrev main_call11_call0_v1 : Ref sig .tc := ⟨.hbm, 483, rfl⟩
abbrev main_v260 : Ref sig .tc := ⟨.hbm, 484, rfl⟩
abbrev main_v261 : Ref sig .tc := ⟨.hbm, 485, rfl⟩
abbrev main_v262 : Ref sig .tc := ⟨.hbm, 486, rfl⟩
abbrev main_v263 : Ref sig .tc := ⟨.hbm, 487, rfl⟩
abbrev main_v264 : Ref sig .tc := ⟨.hbm, 488, rfl⟩
abbrev main_v265 : Ref sig .tc := ⟨.hbm, 489, rfl⟩
abbrev main_v266 : Ref sig .tc := ⟨.hbm, 490, rfl⟩
abbrev main_cst_45 : Ref sig .tc := ⟨.hbm, 491, rfl⟩
abbrev main_v267 : Ref sig .tc := ⟨.hbm, 492, rfl⟩
abbrev main_v268 : Ref sig .tc := ⟨.hbm, 493, rfl⟩
abbrev main_v269 : Ref sig .tc := ⟨.hbm, 494, rfl⟩
abbrev main_v270 : Ref sig .tc := ⟨.hbm, 495, rfl⟩
abbrev main_v271 : Ref sig .tc := ⟨.hbm, 496, rfl⟩
abbrev main_v272 : Ref sig .tc := ⟨.hbm, 497, rfl⟩
abbrev main_v273 : Ref sig .tc := ⟨.hbm, 498, rfl⟩
abbrev main_v274 : Ref sig .tc := ⟨.hbm, 499, rfl⟩
abbrev main_v275 : Ref sig .tc := ⟨.hbm, 500, rfl⟩
abbrev main_cst_46 : Ref sig .tc := ⟨.hbm, 501, rfl⟩
abbrev main_v276 : Ref sig .tc := ⟨.hbm, 502, rfl⟩
abbrev main_cst_47 : Ref sig .tc := ⟨.hbm, 503, rfl⟩
abbrev main_v277 : Ref sig .tc := ⟨.hbm, 504, rfl⟩
abbrev main_v278 : Ref sig .tc := ⟨.hbm, 505, rfl⟩
abbrev main_v279 : Ref sig .tc := ⟨.hbm, 506, rfl⟩
abbrev main_cst_48 : Ref sig .tc := ⟨.hbm, 507, rfl⟩
abbrev main_v280 : Ref sig .tc := ⟨.hbm, 508, rfl⟩
abbrev main_v281 : Ref sig .tc := ⟨.hbm, 509, rfl⟩
abbrev main_v282 : Ref sig .tc := ⟨.hbm, 510, rfl⟩
abbrev main_cst_49 : Ref sig .tc := ⟨.hbm, 511, rfl⟩
abbrev main_v283 : Ref sig .tc := ⟨.hbm, 512, rfl⟩
abbrev main_v284 : Ref sig .tc := ⟨.hbm, 513, rfl⟩
abbrev main_v285 : Ref sig .tc := ⟨.hbm, 514, rfl⟩
abbrev main_v286 : Ref sig .tc := ⟨.hbm, 515, rfl⟩
abbrev main_v287 : Ref sig .tc := ⟨.hbm, 516, rfl⟩
abbrev main_v288 : Ref sig .tc := ⟨.hbm, 517, rfl⟩
abbrev main_v289 : Ref sig .tc := ⟨.hbm, 518, rfl⟩
abbrev main_v290 : Ref sig .tc := ⟨.hbm, 519, rfl⟩
abbrev main_v291 : Ref sig .tc := ⟨.hbm, 520, rfl⟩
abbrev main_v292 : Ref sig .tc := ⟨.hbm, 521, rfl⟩
abbrev main_cst_50 : Ref sig .tc := ⟨.hbm, 522, rfl⟩
abbrev main_v293 : Ref sig .tc := ⟨.hbm, 523, rfl⟩
abbrev main_v294 : Ref sig .tc := ⟨.hbm, 524, rfl⟩
abbrev main_cst_51 : Ref sig .tc := ⟨.hbm, 525, rfl⟩
abbrev main_v295 : Ref sig .tc := ⟨.hbm, 526, rfl⟩
abbrev main_v296 : Ref sig .tc := ⟨.hbm, 527, rfl⟩
abbrev main_c_52 : Ref sig .tc := ⟨.hbm, 528, rfl⟩
abbrev main_v297 : Ref sig .tc := ⟨.hbm, 529, rfl⟩
abbrev main_v298 : Ref sig .tc := ⟨.hbm, 530, rfl⟩
abbrev main_c_53 : Ref sig .tc := ⟨.hbm, 531, rfl⟩
abbrev main_v299 : Ref sig .tc := ⟨.hbm, 532, rfl⟩
abbrev main_v300 : Ref sig .tc := ⟨.hbm, 533, rfl⟩
abbrev main_v301 : Ref sig .tc := ⟨.hbm, 534, rfl⟩
abbrev main_v302 : Ref sig .tc := ⟨.hbm, 535, rfl⟩
abbrev main_v303 : Ref sig .tc := ⟨.hbm, 536, rfl⟩
abbrev main_v304 : Ref sig .tc := ⟨.hbm, 537, rfl⟩
abbrev main_cst_54 : Ref sig .tc := ⟨.hbm, 538, rfl⟩
abbrev main_v305 : Ref sig .tc := ⟨.hbm, 539, rfl⟩
abbrev main_v306 : Ref sig .tc := ⟨.hbm, 540, rfl⟩
abbrev main_v307 : Ref sig .tc := ⟨.hbm, 541, rfl⟩
abbrev main_v308 : Ref sig .tc := ⟨.hbm, 542, rfl⟩
abbrev main_cst_55 : Ref sig .tc := ⟨.hbm, 543, rfl⟩
abbrev main_v309 : Ref sig .tc := ⟨.hbm, 544, rfl⟩
abbrev main_v310 : Ref sig .tc := ⟨.hbm, 545, rfl⟩
abbrev main_cst_56 : Ref sig .tc := ⟨.hbm, 546, rfl⟩
abbrev main_v311 : Ref sig .tc := ⟨.hbm, 547, rfl⟩
abbrev main_v312 : Ref sig .tc := ⟨.hbm, 548, rfl⟩
abbrev main_v313 : Ref sig .tc := ⟨.hbm, 549, rfl⟩
abbrev main_v314 : Ref sig .tc := ⟨.hbm, 550, rfl⟩
abbrev main_cst_57 : Ref sig .tc := ⟨.hbm, 551, rfl⟩
abbrev main_v315 : Ref sig .tc := ⟨.hbm, 552, rfl⟩
abbrev main_v316 : Ref sig .tc := ⟨.hbm, 553, rfl⟩
abbrev main_v317 : Ref sig .tc := ⟨.hbm, 554, rfl⟩
abbrev main_cst_58 : Ref sig .tc := ⟨.hbm, 555, rfl⟩
abbrev main_v318 : Ref sig .tc := ⟨.hbm, 556, rfl⟩
abbrev main_cst_59 : Ref sig .tc := ⟨.hbm, 557, rfl⟩
abbrev main_v319 : Ref sig .tc := ⟨.hbm, 558, rfl⟩
abbrev main_v320 : Ref sig .tc := ⟨.hbm, 559, rfl⟩
abbrev main_v321 : Ref sig .tc := ⟨.hbm, 560, rfl⟩
abbrev main_cst_60 : Ref sig .tc := ⟨.hbm, 561, rfl⟩
abbrev main_v322 : Ref sig .tc := ⟨.hbm, 562, rfl⟩
abbrev main_v323 : Ref sig .tc := ⟨.hbm, 563, rfl⟩
abbrev main_v324 : Ref sig .tc := ⟨.hbm, 564, rfl⟩
abbrev main_cst_61 : Ref sig .tc := ⟨.hbm, 565, rfl⟩
abbrev main_v325 : Ref sig .tc := ⟨.hbm, 566, rfl⟩
abbrev main_v326 : Ref sig .tc := ⟨.hbm, 567, rfl⟩
abbrev main_v327 : Ref sig .tc := ⟨.hbm, 568, rfl⟩
abbrev main_v328 : Ref sig .tc := ⟨.hbm, 569, rfl⟩
abbrev main_v329 : Ref sig .tc := ⟨.hbm, 570, rfl⟩
abbrev main_v330 : Ref sig .tc := ⟨.hbm, 571, rfl⟩
abbrev main_v331 : Ref sig .tc := ⟨.hbm, 572, rfl⟩
abbrev main_v332 : Ref sig .tc := ⟨.hbm, 573, rfl⟩
abbrev main_v333 : Ref sig .tc := ⟨.hbm, 574, rfl⟩
abbrev main_v334 : Ref sig .tc := ⟨.hbm, 575, rfl⟩
abbrev main_cst_62 : Ref sig .tc := ⟨.hbm, 576, rfl⟩
abbrev main_v335 : Ref sig .tc := ⟨.hbm, 577, rfl⟩
abbrev main_v336 : Ref sig .tc := ⟨.hbm, 578, rfl⟩
abbrev main_cst_63 : Ref sig .tc := ⟨.hbm, 579, rfl⟩
abbrev main_v337 : Ref sig .tc := ⟨.hbm, 580, rfl⟩
abbrev main_v338 : Ref sig .tc := ⟨.hbm, 581, rfl⟩
abbrev main_c_64 : Ref sig .tc := ⟨.hbm, 582, rfl⟩
abbrev main_v339 : Ref sig .tc := ⟨.hbm, 583, rfl⟩
abbrev main_v340 : Ref sig .tc := ⟨.hbm, 584, rfl⟩
abbrev main_c_65 : Ref sig .tc := ⟨.hbm, 585, rfl⟩
abbrev main_v341 : Ref sig .tc := ⟨.hbm, 586, rfl⟩
abbrev main_v342 : Ref sig .tc := ⟨.hbm, 587, rfl⟩
abbrev main_v343 : Ref sig .tc := ⟨.hbm, 588, rfl⟩
abbrev main_v344 : Ref sig .tc := ⟨.hbm, 589, rfl⟩
abbrev main_v345 : Ref sig .tc := ⟨.hbm, 590, rfl⟩
abbrev main_v346 : Ref sig .tc := ⟨.hbm, 591, rfl⟩
abbrev main_cst_66 : Ref sig .tc := ⟨.hbm, 592, rfl⟩
abbrev main_v347 : Ref sig .tc := ⟨.hbm, 593, rfl⟩
abbrev main_v348 : Ref sig .tc := ⟨.hbm, 594, rfl⟩
abbrev main_v349 : Ref sig .tc := ⟨.hbm, 595, rfl⟩
abbrev main_v350 : Ref sig .tc := ⟨.hbm, 596, rfl⟩
abbrev main_cst_67 : Ref sig .tc := ⟨.hbm, 597, rfl⟩
abbrev main_v351 : Ref sig .tc := ⟨.hbm, 598, rfl⟩
abbrev main_v352 : Ref sig .tc := ⟨.hbm, 599, rfl⟩
abbrev main_cst_68 : Ref sig .tc := ⟨.hbm, 600, rfl⟩
abbrev main_v353 : Ref sig .tc := ⟨.hbm, 601, rfl⟩
abbrev main_v354 : Ref sig .tc := ⟨.hbm, 602, rfl⟩
abbrev main_v355 : Ref sig .tc := ⟨.hbm, 603, rfl⟩
abbrev main_v356 : Ref sig .tc := ⟨.hbm, 604, rfl⟩
abbrev main_cst_69 : Ref sig .tc := ⟨.hbm, 605, rfl⟩
abbrev main_v357 : Ref sig .tc := ⟨.hbm, 606, rfl⟩
abbrev main_v358 : Ref sig .tc := ⟨.hbm, 607, rfl⟩
abbrev main_v359 : Ref sig .tc := ⟨.hbm, 608, rfl⟩
abbrev main_v360 : Ref sig .tc := ⟨.hbm, 609, rfl⟩
abbrev main_v361 : Ref sig .tc := ⟨.hbm, 610, rfl⟩
abbrev main_v362 : Ref sig .tc := ⟨.hbm, 611, rfl⟩
abbrev main_v363 : Ref sig .tc := ⟨.hbm, 612, rfl⟩
abbrev main_v364 : Ref sig .tc := ⟨.hbm, 613, rfl⟩
abbrev main_call12_cst : Ref sig .tc := ⟨.hbm, 614, rfl⟩
abbrev main_call12_v0 : Ref sig .tc := ⟨.hbm, 615, rfl⟩
abbrev main_v365 : Ref sig .tc := ⟨.hbm, 616, rfl⟩
abbrev main_v366 : Ref sig .tc := ⟨.hbm, 617, rfl⟩
abbrev main_v367 : Ref sig .tc := ⟨.hbm, 618, rfl⟩
abbrev main_v368 : Ref sig .tc := ⟨.hbm, 619, rfl⟩
abbrev main_v369 : Ref sig .tc := ⟨.hbm, 620, rfl⟩
abbrev main_v370 : Ref sig .tc := ⟨.hbm, 621, rfl⟩
abbrev main_v371 : Ref sig .tc := ⟨.hbm, 622, rfl⟩
abbrev main_v372 : Ref sig .tc := ⟨.hbm, 623, rfl⟩
abbrev main_v373 : Ref sig .tc := ⟨.hbm, 624, rfl⟩
abbrev main_v374 : Ref sig .tc := ⟨.hbm, 625, rfl⟩
abbrev main_v375 : Ref sig .tc := ⟨.hbm, 626, rfl⟩
abbrev main_v376 : Ref sig .tc := ⟨.hbm, 627, rfl⟩
abbrev main_call13_cst : Ref sig .tc := ⟨.hbm, 628, rfl⟩
abbrev main_call13_v0 : Ref sig .tc := ⟨.hbm, 629, rfl⟩
abbrev main_v377 : Ref sig .tc := ⟨.hbm, 630, rfl⟩
abbrev main_v378 : Ref sig .tc := ⟨.hbm, 631, rfl⟩
abbrev main_v379 : Ref sig .tc := ⟨.hbm, 632, rfl⟩
abbrev main_v380 : Ref sig .tc := ⟨.hbm, 633, rfl⟩
abbrev main_v381 : Ref sig .tc := ⟨.hbm, 634, rfl⟩
abbrev main_v382 : Ref sig .tc := ⟨.hbm, 635, rfl⟩
abbrev main_call14_cst : Ref sig .tc := ⟨.hbm, 636, rfl⟩
abbrev main_call14_v0 : Ref sig .tc := ⟨.hbm, 637, rfl⟩
abbrev main_v383 : Ref sig .tc := ⟨.hbm, 638, rfl⟩
abbrev main_v384 : Ref sig .tc := ⟨.hbm, 639, rfl⟩
abbrev main_v385 : Ref sig .tc := ⟨.hbm, 640, rfl⟩
abbrev main_v386 : Ref sig .tc := ⟨.hbm, 641, rfl⟩
abbrev main_v387 : Ref sig .tc := ⟨.hbm, 642, rfl⟩
abbrev main_v388 : Ref sig .tc := ⟨.hbm, 643, rfl⟩
abbrev main_v389 : Ref sig .tc := ⟨.hbm, 644, rfl⟩
abbrev main_v390 : Ref sig .tc := ⟨.hbm, 645, rfl⟩
abbrev main_v391 : Ref sig .tc := ⟨.hbm, 646, rfl⟩
abbrev main_v392 : Ref sig .tc := ⟨.hbm, 647, rfl⟩
abbrev main_v393 : Ref sig .tc := ⟨.hbm, 648, rfl⟩
abbrev main_v394 : Ref sig .tc := ⟨.hbm, 649, rfl⟩
abbrev main_call15_cst : Ref sig .tc := ⟨.hbm, 650, rfl⟩
abbrev main_call15_v0 : Ref sig .tc := ⟨.hbm, 651, rfl⟩
abbrev main_v395 : Ref sig .tc := ⟨.hbm, 652, rfl⟩
abbrev main_v396 : Ref sig .tc := ⟨.hbm, 653, rfl⟩
abbrev main_v397 : Ref sig .tc := ⟨.hbm, 654, rfl⟩
abbrev main_v398 : Ref sig .tc := ⟨.hbm, 655, rfl⟩
abbrev main_v399 : Ref sig .tc := ⟨.hbm, 656, rfl⟩
abbrev main_v400 : Ref sig .tc := ⟨.hbm, 657, rfl⟩
abbrev main_call16_cst : Ref sig .tc := ⟨.hbm, 658, rfl⟩
abbrev main_call16_v0 : Ref sig .tc := ⟨.hbm, 659, rfl⟩
abbrev main_v401 : Ref sig .tc := ⟨.hbm, 660, rfl⟩
abbrev main_v402 : Ref sig .tc := ⟨.hbm, 661, rfl⟩
abbrev main_v403 : Ref sig .tc := ⟨.hbm, 662, rfl⟩
abbrev main_v404 : Ref sig .tc := ⟨.hbm, 663, rfl⟩
abbrev main_v405 : Ref sig .tc := ⟨.hbm, 664, rfl⟩
abbrev main_v406 : Ref sig .tc := ⟨.hbm, 665, rfl⟩
abbrev main_v407 : Ref sig .tc := ⟨.hbm, 666, rfl⟩
abbrev main_v408 : Ref sig .tc := ⟨.hbm, 667, rfl⟩
abbrev main_v409 : Ref sig .tc := ⟨.hbm, 668, rfl⟩
abbrev main_v410 : Ref sig .tc := ⟨.hbm, 669, rfl⟩
abbrev main_v411 : Ref sig .tc := ⟨.hbm, 670, rfl⟩
abbrev main_v412 : Ref sig .tc := ⟨.hbm, 671, rfl⟩
abbrev main_call17_cst : Ref sig .tc := ⟨.hbm, 672, rfl⟩
abbrev main_call17_v0 : Ref sig .tc := ⟨.hbm, 673, rfl⟩
abbrev main_v413 : Ref sig .tc := ⟨.hbm, 674, rfl⟩
abbrev main_v414 : Ref sig .tc := ⟨.hbm, 675, rfl⟩
abbrev main_v415 : Ref sig .tc := ⟨.hbm, 676, rfl⟩
abbrev main_v416 : Ref sig .tc := ⟨.hbm, 677, rfl⟩
abbrev main_v417 : Ref sig .tc := ⟨.hbm, 678, rfl⟩
abbrev main_v418 : Ref sig .tc := ⟨.hbm, 679, rfl⟩
abbrev main_v419 : Ref sig .tc := ⟨.hbm, 680, rfl⟩
abbrev main_call18_cst : Ref sig .tc := ⟨.hbm, 681, rfl⟩
abbrev main_call18_v0 : Ref sig .tc := ⟨.hbm, 682, rfl⟩
abbrev main_v420 : Ref sig .tc := ⟨.hbm, 683, rfl⟩
abbrev main_v421 : Ref sig .tc := ⟨.hbm, 684, rfl⟩
abbrev main_v422 : Ref sig .tc := ⟨.hbm, 685, rfl⟩
abbrev main_v423 : Ref sig .tc := ⟨.hbm, 686, rfl⟩
abbrev main_v424 : Ref sig .tc := ⟨.hbm, 687, rfl⟩
abbrev main_v425 : Ref sig .tc := ⟨.hbm, 688, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x64_S64_d0 : S200000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  reducesTo_S200000x32_S32_d0 : S200000x32.ReducesTo [0] S32
  bcast_S_S32 : S_.BroadcastsInDim S32 (![] : Fin 0 → Fin S32.rank)
  bcast_S_S1x32 : S_.BroadcastsInDim S1x32 (![] : Fin 0 → Fin S1x32.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  reducesTo_S200000x16_S16_d0 : S200000x16.ReducesTo [0] S16
  bcast_S_S16 : S_.BroadcastsInDim S16 (![] : Fin 0 → Fin S16.rank)
  bcast_S_S1x16 : S_.BroadcastsInDim S1x16 (![] : Fin 0 → Fin S1x16.rank)
  bcast_S_S200000x1 : S_.BroadcastsInDim S200000x1 (![] : Fin 0 → Fin S200000x1.rank)
  bcast_S_S1000x1 : S_.BroadcastsInDim S1000x1 (![] : Fin 0 → Fin S1000x1.rank)
  bcast_S200000_S200000x1_0 : S200000.BroadcastsInDim S200000x1 (![0] : Fin 1 → Fin S200000x1.rank)
  bcast_S_S1000x16 : S_.BroadcastsInDim S1000x16 (![] : Fin 0 → Fin S1000x16.rank)
  bcast_S1000x1_S1000x16_0_1 : S1000x1.BroadcastsInDim S1000x16 (![0, 1] : Fin 2 → Fin S1000x16.rank)
  bcast_S1x16_S1000x16_0_1 : S1x16.BroadcastsInDim S1000x16 (![0, 1] : Fin 2 → Fin S1000x16.rank)
  bcast_S_S200000 : S_.BroadcastsInDim S200000 (![] : Fin 0 → Fin S200000.rank)
  reducesTo_S200000x16_S200000_d1 : S200000x16.ReducesTo [1] S200000
  bcast_S200000x1_S200000x16_0_1 : S200000x1.BroadcastsInDim S200000x16 (![0, 1] : Fin 2 → Fin S200000x16.rank)
  concatenates_S1000x16_S1000x16_S1000x32_d1 : Shape.Concatenates [S1000x16, S1000x16] S1000x32 1
  bcast_S8_S1x8_1 : S8.BroadcastsInDim S1x8 (![1] : Fin 1 → Fin S1x8.rank)
  bcast_S1x8_S1000x8_0_1 : S1x8.BroadcastsInDim S1000x8 (![0, 1] : Fin 2 → Fin S1000x8.rank)
  bcast_S_S1000x8 : S_.BroadcastsInDim S1000x8 (![] : Fin 0 → Fin S1000x8.rank)
  bcast_S1x32_S1000x32_0_1 : S1x32.BroadcastsInDim S1000x32 (![0, 1] : Fin 2 → Fin S1000x32.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x64_S200000x64_1_0_0_1_n_n_wf : DotDims.WF S200000x64 S64x64 S200000x64 [1] [0] [0] [1] [] []
  dot_S200000x64_S64x32_S200000x32_1_0_0_1_n_n_wf : DotDims.WF S200000x64 S64x32 S200000x32 [1] [0] [0] [1] [] []
  dot_S200000x32_S32x32_S200000x32_1_0_0_1_n_n_wf : DotDims.WF S200000x32 S32x32 S200000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S200000x32_S32x16_S200000x16_1_0_0_1_n_n_wf : DotDims.WF S200000x32 S32x16 S200000x16 [1] [0] [0] [1] [] []
  dot_S200000x16_S16x16_S200000x16_1_0_0_1_n_n_wf : DotDims.WF S200000x16 S16x16 S200000x16 [1] [0] [0] [1] [] []
  scatter_S1000x1_S200000x1_S200000x1_1_0_0_1_wf : ScatterDims.WF S1000x1 S200000x1 S200000x1 [1] [0] [0] 1
  scatter_S1000x16_S200000x1_S200000x16_1_0_0_1_wf : ScatterDims.WF S1000x16 S200000x1 S200000x16 [1] [0] [0] 1
  dot_S1000x16_S16x16_S1000x16_1_0_0_1_n_n_wf : DotDims.WF S1000x16 S16x16 S1000x16 [1] [0] [0] [1] [] []
  gather_S1000x16_S200000x1_S200000x16_1_0_n_n_0_1_116_wf : GatherDims.WF S1000x16 S200000x1 S200000x16 [1] [0] [] [0] [] 1 ![1, 16]
  dot_S1000x32_S32x8_S1000x8_1_0_0_1_n_n_wf : DotDims.WF S1000x32 S32x8 S1000x8 [1] [0] [0] [1] [] []
  dot_S1000x8_S8x32_S1000x32_1_0_0_1_n_n_wf : DotDims.WF S1000x8 S8x32 S1000x32 [1] [0] [0] [1] [] []
  dot_S1000x32_S32x16_S1000x16_1_0_0_1_n_n_wf : DotDims.WF S1000x32 S32x16 S1000x16 [1] [0] [0] [1] [] []
  dot_S1000x16_S16x8_S1000x8_1_0_0_1_n_n_wf : DotDims.WF S1000x16 S16x8 S1000x8 [1] [0] [0] [1] [] []
  dot_S1000x8_S8x1_S1000x1_1_0_0_1_n_n_wf : DotDims.WF S1000x8 S8x1 S1000x1 [1] [0] [0] [1] [] []

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def scatter_S1000x1_S200000x1_S200000x1_1_0_0_1 : ScatterDims S1000x1 S200000x1 S200000x1 where
  updateWindowDims := [1]
  insertedWindowDims := [0]
  scatterDimsToOperandDims := [0]
  indexVectorDim := 1
  wf := scatter_S1000x1_S200000x1_S200000x1_1_0_0_1_wf
def scatter_S1000x16_S200000x1_S200000x16_1_0_0_1 : ScatterDims S1000x16 S200000x1 S200000x16 where
  updateWindowDims := [1]
  insertedWindowDims := [0]
  scatterDimsToOperandDims := [0]
  indexVectorDim := 1
  wf := scatter_S1000x16_S200000x1_S200000x16_1_0_0_1_wf
def dot_S1000x16_S16x16_S1000x16_1_0_0_1_n_n : DotDims S1000x16 S16x16 S1000x16 where
  lhsContracting := [1]
  rhsContracting := [0]
  lhsNonContracting := [0]
  rhsNonContracting := [1]
  lhsBatch := []
  rhsBatch := []
  wf := dot_S1000x16_S16x16_S1000x16_1_0_0_1_n_n_wf
def gather_S1000x16_S200000x1_S200000x16_1_0_n_n_0_1_116 : GatherDims S1000x16 S200000x1 S200000x16 where
  offsetDims := [1]
  collapsedSliceDims := [0]
  operandBatchingDims := []
  startIndicesBatchingDims := []
  startIndexMap := [0]
  indexVectorDim := 1
  sliceSizes := ![1, 16]
  wf := gather_S1000x16_S200000x1_S200000x16_1_0_n_n_0_1_116_wf
def dot_S1000x32_S32x8_S1000x8_1_0_0_1_n_n : DotDims S1000x32 S32x8 S1000x8 where
  lhsContracting := [1]
  rhsContracting := [0]
  lhsNonContracting := [0]
  rhsNonContracting := [1]
  lhsBatch := []
  rhsBatch := []
  wf := dot_S1000x32_S32x8_S1000x8_1_0_0_1_n_n_wf
def dot_S1000x8_S8x32_S1000x32_1_0_0_1_n_n : DotDims S1000x8 S8x32 S1000x32 where
  lhsContracting := [1]
  rhsContracting := [0]
  lhsNonContracting := [0]
  rhsNonContracting := [1]
  lhsBatch := []
  rhsBatch := []
  wf := dot_S1000x8_S8x32_S1000x32_1_0_0_1_n_n_wf
def dot_S1000x32_S32x16_S1000x16_1_0_0_1_n_n : DotDims S1000x32 S32x16 S1000x16 where
  lhsContracting := [1]
  rhsContracting := [0]
  lhsNonContracting := [0]
  rhsNonContracting := [1]
  lhsBatch := []
  rhsBatch := []
  wf := dot_S1000x32_S32x16_S1000x16_1_0_0_1_n_n_wf
def dot_S1000x16_S16x8_S1000x8_1_0_0_1_n_n : DotDims S1000x16 S16x8 S1000x8 where
  lhsContracting := [1]
  rhsContracting := [0]
  lhsNonContracting := [0]
  rhsNonContracting := [1]
  lhsBatch := []
  rhsBatch := []
  wf := dot_S1000x16_S16x8_S1000x8_1_0_0_1_n_n_wf
def dot_S1000x8_S8x1_S1000x1_1_0_0_1_n_n : DotDims S1000x8 S8x1 S1000x1 where
  lhsContracting := [1]
  rhsContracting := [0]
  lhsNonContracting := [0]
  rhsNonContracting := [1]
  lhsBatch := []
  rhsBatch := []
  wf := dot_S1000x8_S8x1_S1000x1_1_0_0_1_n_n_wf

class Facts : Prop extends Facts₀ where

variable [Facts]
-- ==== Proof.KRun.lean ====
/-
  The idealized kernel program's run with every buffer's final contents named: at the compiled mesh, from any memory
  with zero counters, every weakly fair execution of @main terminates, nothing faulting, and in every final state each
  unscoped TensorCore buffer b of core c holds W39 m ρ c b — the fold of the program's segments over the launch memory:
  a stretch of host operations applies them in order, a region replaces its arrays by what its write-backs leave.
  The frame states the same run with the post weakened to the argument arrays; here the post is kept whole, so that the
  three result buffers can be read off the fold.
-/
import proofs.«120907_j71768903516484_1_alg».proof.Proof.KIFrameP

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel program terminates with every unscoped buffer at the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W39 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h => h)

end Cert.KernelIdeal.KRun

end
-- ==== Proof.Spec.lean ====
/-
  The network's stages as pure functions of arrays of extended reals, spelt with the reference program's own printed
  operations, shapes and shape facts, so that the reference's run reads into them by unfolding and the kernel program's
  host stretches — the same operations under that program's own names — read into them as well. A layer is
  bn (dense (pre x e eps) W1 b1 W2 b2) g bt; the results are score (efn hI hJ ..) .., efn hI hJ - efn hJ hJ and
  efn hI hJ - efn hI hI with hI, hJ the two sides' readouts of the third layer.
-/
import proofs.«120907_j71768903516484_1_alg».proof.ReferenceIdeal
import Idealize.ShloMosaic.PureOps.Ideal

noncomputable section

namespace Cert.Spec

open Idealize.ShloMosaic Cert.ReferenceIdeal

variable [Cert.ReferenceIdeal.Facts]
open Cert.ReferenceIdeal.Facts₀ Cert.ReferenceIdeal.Facts

/-- The input of a layer's dense part at width 64: (1 + eps) * x plus, at each node, the sum of x over the edges that end there (the sources' rows gathered, negative indices wrapped, scattered by addition onto the destinations). -/
def pre64 (x : FVec Ideal S200000x64 .f32) (e : IVec S2x3200000 32) (eps : FVec Ideal S_ .f32) : FVec Ideal S200000x64 .f32 :=
  ((addf) ((mulf) ((broadcastInDim S200000x64 ![] bcast_S_S200000x64) ((addf) ((constant (F := Ideal) S_ .f32 0x3F800000#32)) eps)) x) (((fun x i u => Host.scatterAdd (F := Ideal) scatter_S200000x64_S3200000x1_S3200000x64_1_0_0_1 x i u)) ((broadcastInDim S200000x64 ![] bcast_S_S200000x64) ((constant (F := Ideal) S_ .f32 0x00000000#32))) ((broadcastInDim S3200000x1 ![0] bcast_S3200000_S3200000x1_0) (shapeCast S3200000 ((extractStridedSlice S1x3200000 ![1, 0] e slices_S2x3200000_S1x3200000_1_0)) shapeCasts_S1x3200000_S3200000)) (((fun x i => Host.gather gather_S200000x64_S3200000x1_S3200000x64_1_0_n_n_0_1_164 x i)) x ((broadcastInDim S3200000x1 ![0] bcast_S3200000_S3200000x1_0) ((select) ((cmpi .slt) (shapeCast S3200000 ((extractStridedSlice S1x3200000 ![0, 0] e slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] e slices_S2x3200000_S1x3200000_0_0)) shapeCasts_S1x3200000_S3200000) ((broadcastInDim S3200000 ![] bcast_S_S3200000) ((constantI S_ 32 200000#32)))) (shapeCast S3200000 ((extractStridedSlice S1x3200000 ![0, 0] e slices_S2x3200000_S1x3200000_0_0)) shapeCasts_S1x3200000_S3200000))))))

/-- The same at width 32. -/
def pre32 (x : FVec Ideal S200000x32 .f32) (e : IVec S2x3200000 32) (eps : FVec Ideal S_ .f32) : FVec Ideal S200000x32 .f32 :=
  ((addf) ((mulf) ((broadcastInDim S200000x32 ![] bcast_S_S200000x32) ((addf) ((constant (F := Ideal) S_ .f32 0x3F800000#32)) eps)) x) (((fun x i u => Host.scatterAdd (F := Ideal) scatter_S200000x32_S3200000x1_S3200000x32_1_0_0_1 x i u)) ((broadcastInDim S200000x32 ![] bcast_S_S200000x32) ((constant (F := Ideal) S_ .f32 0x00000000#32))) ((broadcastInDim S3200000x1 ![0] bcast_S3200000_S3200000x1_0) (shapeCast S3200000 ((extractStridedSlice S1x3200000 ![1, 0] e slices_S2x3200000_S1x3200000_1_0)) shapeCasts_S1x3200000_S3200000)) (((fun x i => Host.gather gather_S200000x32_S3200000x1_S3200000x32_1_0_n_n_0_1_132 x i)) x ((broadcastInDim S3200000x1 ![0] bcast_S3200000_S3200000x1_0) ((select) ((cmpi .slt) (shapeCast S3200000 ((extractStridedSlice S1x3200000 ![0, 0] e slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] e slices_S2x3200000_S1x3200000_0_0)) shapeCasts_S1x3200000_S3200000) ((broadcastInDim S3200000 ![] bcast_S_S3200000) ((constantI S_ 32 200000#32)))) (shapeCast S3200000 ((extractStridedSlice S1x3200000 ![0, 0] e slices_S2x3200000_S1x3200000_0_0)) shapeCasts_S1x3200000_S3200000))))))

/-- Linear, ReLU, Linear: widths 64, 64, 64. -/
def dense64a (h0 : FVec Ideal S200000x64 .f32) (W1 : FVec Ideal S64x64 .f32) (b1 : FVec Ideal S64 .f32) (W2 : FVec Ideal S64x64 .f32) (b2 : FVec Ideal S64 .f32) : FVec Ideal S200000x64 .f32 :=
  ((addf) (((fun l r => Host.dotGeneral (F := Ideal) dot_S200000x64_S64x64_S200000x64_1_0_0_1_n_n none l r)) ((maximumf) ((addf) (((fun l r => Host.dotGeneral (F := Ideal) dot_S200000x64_S64x64_S200000x64_1_0_0_1_n_n none l r)) h0 W1) ((broadcastInDim S200000x64 ![0, 1] bcast_S1x64_S200000x64_0_1) ((broadcastInDim S1x64 ![1] bcast_S64_S1x64_1) b1))) ((broadcastInDim S200000x64 ![] bcast_S_S200000x64) (constant (F := Ideal) S_ .f32 0x00000000#32))) W2) ((broadcastInDim S200000x64 ![0, 1] bcast_S1x64_S200000x64_0_1) ((broadcastInDim S1x64 ![1] bcast_S64_S1x64_1) b2)))

/-- Linear, ReLU, Linear: widths 64, 32, 32. -/
def dense64b (h0 : FVec Ideal S200000x64 .f32) (W1 : FVec Ideal S64x32 .f32) (b1 : FVec Ideal S32 .f32) (W2 : FVec Ideal S32x32 .f32) (b2 : FVec Ideal S32 .f32) : FVec Ideal S200000x32 .f32 :=
  ((addf) (((fun l r => Host.dotGeneral (F := Ideal) dot_S200000x32_S32x32_S200000x32_1_0_0_1_n_n none l r)) ((maximumf) ((addf) (((fun l r => Host.dotGeneral (F := Ideal) dot_S200000x64_S64x32_S200000x32_1_0_0_1_n_n none l r)) h0 W1) ((broadcastInDim S200000x32 ![0, 1] bcast_S1x32_S200000x32_0_1) ((broadcastInDim S1x32 ![1] bcast_S32_S1x32_1) b1))) ((broadcastInDim S200000x32 ![] bcast_S_S200000x32) (constant (F := Ideal) S_ .f32 0x00000000#32))) W2) ((broadcastInDim S200000x32 ![0, 1] bcast_S1x32_S200000x32_0_1) ((broadcastInDim S1x32 ![1] bcast_S32_S1x32_1) b2)))

/-- Linear, ReLU, Linear: widths 32, 16, 16. -/
def dense32 (h0 : FVec Ideal S200000x32 .f32) (W1 : FVec Ideal S32x16 .f32) (b1 : FVec Ideal S16 .f32) (W2 : FVec Ideal S16x16 .f32) (b2 : FVec Ideal S16 .f32) : FVec Ideal S200000x16 .f32 :=
  ((addf) (((fun l r => Host.dotGeneral (F := Ideal) dot_S200000x16_S16x16_S200000x16_1_0_0_1_n_n none l r)) ((maximumf) ((addf) (((fun l r => Host.dotGeneral (F := Ideal) dot_S200000x32_S32x16_S200000x16_1_0_0_1_n_n none l r)) h0 W1) ((broadcastInDim S200000x16 ![0, 1] bcast_S1x16_S200000x16_0_1) ((broadcastInDim S1x16 ![1] bcast_S16_S1x16_1) b1))) ((broadcastInDim S200000x16 ![] bcast_S_S200000x16) (constant (F := Ideal) S_ .f32 0x00000000#32))) W2) ((broadcastInDim S200000x16 ![0, 1] bcast_S1x16_S200000x16_0_1) ((broadcastInDim S1x16 ![1] bcast_S16_S1x16_1) b2)))

/-- The reference's batch normalisation of the columns of a [200000, 64] array: g * (H - mean) * rsqrt (var + eps) + bt with the column mean and the column variance of jnp.mean and jnp.var. -/
def bnR64 (H : FVec Ideal S200000x64 .f32) (g : FVec Ideal S64 .f32) (bt : FVec Ideal S64 .f32) : FVec Ideal S200000x64 .f32 :=
  ((addf) ((mulf) ((mulf) ((broadcastInDim S200000x64 ![0, 1] bcast_S1x64_S200000x64_0_1) ((broadcastInDim S1x64 ![1] bcast_S64_S1x64_1) g)) ((subf) H ((broadcastInDim S200000x64 ![0, 1] bcast_S1x64_S200000x64_0_1) ((broadcastInDim S1x64 ![1] bcast_S64_S1x64_1) ((Host.divf (F := Ideal)) (((fun x v => Host.reduceAdd (F := Ideal) x v reducesTo_S200000x64_S64_d0 h_S_)) H ((constant (F := Ideal) S_ .f32 0x00000000#32))) ((broadcastInDim S64 ![] bcast_S_S64) ((constant (F := Ideal) S_ .f32 0x48435000#32)))))))) ((broadcastInDim S200000x64 ![0, 1] bcast_S1x64_S200000x64_0_1) ((broadcastInDim S1x64 ![1] bcast_S64_S1x64_1) ((Host.rsqrt (F := Ideal)) ((addf) ((fun p a b => select (broadcastInDim S64 ![] bcast_S_S64 p) a b) ((cmpf .ogt) ((subf) (constant (F := Ideal) S_ .f32 0x48435000#32) ((sitofp .f32) ((constantI S_ 32 0#32)))) (constant (F := Ideal) S_ .f32 0x00000000#32)) ((Host.divf (F := Ideal)) ((fun x v => Host.reduceAdd (F := Ideal) x v reducesTo_S200000x64_S64_d0 h_S_) ((mulf) ((subf) H ((broadcastInDim S200000x64 ![0, 1] bcast_S1x64_S200000x64_0_1) ((Host.divf (F := Ideal)) ((broadcastInDim S1x64 ![1] bcast_S64_S1x64_1) ((fun x v => Host.reduceAdd (F := Ideal) x v reducesTo_S200000x64_S64_d0 h_S_) H (constant (F := Ideal) S_ .f32 0x00000000#32))) ((broadcastInDim S1x64 ![] bcast_S_S1x64) (constant (F := Ideal) S_ .f32 0x48435000#32))))) ((subf) H ((broadcastInDim S200000x64 ![0, 1] bcast_S1x64_S200000x64_0_1) ((Host.divf (F := Ideal)) ((broadcastInDim S1x64 ![1] bcast_S64_S1x64_1) ((fun x v => Host.reduceAdd (F := Ideal) x v reducesTo_S200000x64_S64_d0 h_S_) H (constant (F := Ideal) S_ .f32 0x00000000#32))) ((broadcastInDim S1x64 ![] bcast_S_S1x64) (constant (F := Ideal) S_ .f32 0x48435000#32)))))) (constant (F := Ideal) S_ .f32 0x00000000#32)) ((broadcastInDim S64 ![] bcast_S_S64) ((subf) (constant (F := Ideal) S_ .f32 0x48435000#32) ((sitofp .f32) ((constantI S_ 32 0#32)))))) ((broadcastInDim S64 ![] bcast_S_S64) ((id) (constant (F := Ideal) S_ .f32 0x7FC00000#32)))) ((broadcastInDim S64 ![] bcast_S_S64) ((constant (F := Ideal) S_ .f32 0x3727C5AC#32)))))))) ((broadcastInDim S200000x64 ![0, 1] bcast_S1x64_S200000x64_0_1) ((broadcastInDim S1x64 ![1] bcast_S64_S1x64_1) bt)))

/-- The same at width 32. -/
def bnR32 (H : FVec Ideal S200000x32 .f32) (g : FVec Ideal S32 .f32) (bt : FVec Ideal S32 .f32) : FVec Ideal S200000x32 .f32 :=
  ((addf) ((mulf) ((mulf) ((broadcastInDim S200000x32 ![0, 1] bcast_S1x32_S200000x32_0_1) ((broadcastInDim S1x32 ![1] bcast_S32_S1x32_1) g)) ((subf) H ((broadcastInDim S200000x32 ![0, 1] bcast_S1x32_S200000x32_0_1) ((broadcastInDim S1x32 ![1] bcast_S32_S1x32_1) ((Host.divf (F := Ideal)) (((fun x v => Host.reduceAdd (F := Ideal) x v reducesTo_S200000x32_S32_d0 h_S_)) H ((constant (F := Ideal) S_ .f32 0x00000000#32))) ((broadcastInDim S32 ![] bcast_S_S32) ((constant (F := Ideal) S_ .f32 0x48435000#32)))))))) ((broadcastInDim S200000x32 ![0, 1] bcast_S1x32_S200000x32_0_1) ((broadcastInDim S1x32 ![1] bcast_S32_S1x32_1) ((Host.rsqrt (F := Ideal)) ((addf) ((fun p a b => select (broadcastInDim S32 ![] bcast_S_S32 p) a b) ((cmpf .ogt) ((subf) (constant (F := Ideal) S_ .f32 0x48435000#32) ((sitofp .f32) ((constantI S_ 32 0#32)))) (constant (F := Ideal) S_ .f32 0x00000000#32)) ((Host.divf (F := Ideal)) ((fun x v => Host.reduceAdd (F := Ideal) x v reducesTo_S200000x32_S32_d0 h_S_) ((mulf) ((subf) H ((broadcastInDim S200000x32 ![0, 1] bcast_S1x32_S200000x32_0_1) ((Host.divf (F := Ideal)) ((broadcastInDim S1x32 ![1] bcast_S32_S1x32_1) ((fun x v => Host.reduceAdd (F := Ideal) x v reducesTo_S200000x32_S32_d0 h_S_) H (constant (F := Ideal) S_ .f32 0x00000000#32))) ((broadcastInDim S1x32 ![] bcast_S_S1x32) (constant (F := Ideal) S_ .f32 0x48435000#32))))) ((subf) H ((broadcastInDim S200000x32 ![0, 1] bcast_S1x32_S200000x32_0_1) ((Host.divf (F := Ideal)) ((broadcastInDim S1x32 ![1] bcast_S32_S1x32_1) ((fun x v => Host.reduceAdd (F := Ideal) x v reducesTo_S200000x32_S32_d0 h_S_) H (constant (F := Ideal) S_ .f32 0x00000000#32))) ((broadcastInDim S1x32 ![] bcast_S_S1x32) (constant (F := Ideal) S_ .f32 0x48435000#32)))))) (constant (F := Ideal) S_ .f32 0x00000000#32)) ((broadcastInDim S32 ![] bcast_S_S32) ((subf) (constant (F := Ideal) S_ .f32 0x48435000#32) ((sitofp .f32) ((constantI S_ 32 0#32)))))) ((broadcastInDim S32 ![] bcast_S_S32) ((id) (constant (F := Ideal) S_ .f32 0x7FC00000#32)))) ((broadcastInDim S32 ![] bcast_S_S32) ((constant (F := Ideal) S_ .f32 0x3727C5AC#32)))))))) ((broadcastInDim S200000x32 ![0, 1] bcast_S1x32_S200000x32_0_1) ((broadcastInDim S1x32 ![1] bcast_S32_S1x32_1) bt)))

/-- The same at width 16. -/
def bnR16 (H : FVec Ideal S200000x16 .f32) (g : FVec Ideal S16 .f32) (bt : FVec Ideal S16 .f32) : FVec Ideal S200000x16 .f32 :=
  ((addf) ((mulf) ((mulf) ((broadcastInDim S200000x16 ![0, 1] bcast_S1x16_S200000x16_0_1) ((broadcastInDim S1x16 ![1] bcast_S16_S1x16_1) g)) ((subf) H ((broadcastInDim S200000x16 ![0, 1] bcast_S1x16_S200000x16_0_1) ((broadcastInDim S1x16 ![1] bcast_S16_S1x16_1) ((Host.divf (F := Ideal)) (((fun x v => Host.reduceAdd (F := Ideal) x v reducesTo_S200000x16_S16_d0 h_S_)) H ((constant (F := Ideal) S_ .f32 0x00000000#32))) ((broadcastInDim S16 ![] bcast_S_S16) ((constant (F := Ideal) S_ .f32 0x48435000#32)))))))) ((broadcastInDim S200000x16 ![0, 1] bcast_S1x16_S200000x16_0_1) ((broadcastInDim S1x16 ![1] bcast_S16_S1x16_1) ((Host.rsqrt (F := Ideal)) ((addf) ((fun p a b => select (broadcastInDim S16 ![] bcast_S_S16 p) a b) ((cmpf .ogt) ((subf) (constant (F := Ideal) S_ .f32 0x48435000#32) ((sitofp .f32) ((constantI S_ 32 0#32)))) (constant (F := Ideal) S_ .f32 0x00000000#32)) ((Host.divf (F := Ideal)) ((fun x v => Host.reduceAdd (F := Ideal) x v reducesTo_S200000x16_S16_d0 h_S_) ((mulf) ((subf) H ((broadcastInDim S200000x16 ![0, 1] bcast_S1x16_S200000x16_0_1) ((Host.divf (F := Ideal)) ((broadcastInDim S1x16 ![1] bcast_S16_S1x16_1) ((fun x v => Host.reduceAdd (F := Ideal) x v reducesTo_S200000x16_S16_d0 h_S_) H (constant (F := Ideal) S_ .f32 0x00000000#32))) ((broadcastInDim S1x16 ![] bcast_S_S1x16) (constant (F := Ideal) S_ .f32 0x48435000#32))))) ((subf) H ((broadcastInDim S200000x16 ![0, 1] bcast_S1x16_S200000x16_0_1) ((Host.divf (F := Ideal)) ((broadcastInDim S1x16 ![1] bcast_S16_S1x16_1) ((fun x v => Host.reduceAdd (F := Ideal) x v reducesTo_S200000x16_S16_d0 h_S_) H (constant (F := Ideal) S_ .f32 0x00000000#32))) ((broadcastInDim S1x16 ![] bcast_S_S1x16) (constant (F := Ideal) S_ .f32 0x48435000#32)))))) (constant (F := Ideal) S_ .f32 0x00000000#32)) ((broadcastInDim S16 ![] bcast_S_S16) ((subf) (constant (F := Ideal) S_ .f32 0x48435000#32) ((sitofp .f32) ((constantI S_ 32 0#32)))))) ((broadcastInDim S16 ![] bcast_S_S16) ((id) (constant (F := Ideal) S_ .f32 0x7FC00000#32)))) ((broadcastInDim S16 ![] bcast_S_S16) ((constant (F := Ideal) S_ .f32 0x3727C5AC#32)))))))) ((broadcastInDim S200000x16 ![0, 1] bcast_S1x16_S200000x16_0_1) ((broadcastInDim S1x16 ![1] bcast_S16_S1x16_1) bt)))

/-- The gated pooling of the nodes of each graph: the per-graph mean through a sigmoid layer gives a context, each node's gate is the sigmoid of its inner product with its graph's context, and the gated rows are summed per graph. -/
def readout (x3 : FVec Ideal S200000x16 .f32) (b : IVec S200000 32) (aW : FVec Ideal S16x16 .f32) (ab : FVec Ideal S16 .f32) : FVec Ideal S1000x16 .f32 :=
  (((fun x i u => Host.scatterAdd (F := Ideal) scatter_S1000x16_S200000x1_S200000x16_1_0_0_1 x i u)) ((broadcastInDim S1000x16 ![] bcast_S_S1000x16) ((constant (F := Ideal) S_ .f32 0x00000000#32))) ((broadcastInDim S200000x1 ![0] bcast_S200000_S200000x1_0) b) ((mulf) ((broadcastInDim S200000x16 ![0, 1] bcast_S200000x1_S200000x16_0_1) ((Host.divf (F := Ideal)) ((broadcastInDim S200000x1 ![] bcast_S_S200000x1) ((constant (F := Ideal) S_ .f32 0x3F800000#32))) ((addf) ((broadcastInDim S200000x1 ![] bcast_S_S200000x1) ((constant (F := Ideal) S_ .f32 0x3F800000#32))) ((Host.exp) ((Host.negf) ((broadcastInDim S200000x1 ![0] bcast_S200000_S200000x1_0) (((fun x v => Host.reduceAdd (F := Ideal) x v reducesTo_S200000x16_S200000_d1 h_S_)) ((mulf) x3 (((fun x i => Host.gather gather_S1000x16_S200000x1_S200000x16_1_0_n_n_0_1_116 x i)) ((Host.divf (F := Ideal)) ((broadcastInDim S1000x16 ![] bcast_S_S1000x16) ((constant (F := Ideal) S_ .f32 0x3F800000#32))) ((addf) ((broadcastInDim S1000x16 ![] bcast_S_S1000x16) ((constant (F := Ideal) S_ .f32 0x3F800000#32))) ((Host.exp) ((Host.negf) ((addf) (((fun l r => Host.dotGeneral (F := Ideal) dot_S1000x16_S16x16_S1000x16_1_0_0_1_n_n none l r)) ((Host.divf (F := Ideal)) (((fun x i u => Host.scatterAdd (F := Ideal) scatter_S1000x16_S200000x1_S200000x16_1_0_0_1 x i u)) ((broadcastInDim S1000x16 ![] bcast_S_S1000x16) ((constant (F := Ideal) S_ .f32 0x00000000#32))) ((broadcastInDim S200000x1 ![0] bcast_S200000_S200000x1_0) b) x3) ((broadcastInDim S1000x16 ![0, 1] bcast_S1000x1_S1000x16_0_1) ((maximumf) (((fun x i u => Host.scatterAdd (F := Ideal) scatter_S1000x1_S200000x1_S200000x1_1_0_0_1 x i u)) ((broadcastInDim S1000x1 ![] bcast_S_S1000x1) ((constant (F := Ideal) S_ .f32 0x00000000#32))) ((broadcastInDim S200000x1 ![0] bcast_S200000_S200000x1_0) b) ((broadcastInDim S200000x1 ![] bcast_S_S200000x1) ((constant (F := Ideal) S_ .f32 0x3F800000#32)))) ((broadcastInDim S1000x1 ![] bcast_S_S1000x1) ((constant (F := Ideal) S_ .f32 0x3F800000#32)))))) aW) ((broadcastInDim S1000x16 ![0, 1] bcast_S1x16_S1000x16_0_1) ((broadcastInDim S1x16 ![1] bcast_S16_S1x16_1) ab))))))) ((broadcastInDim S200000x1 ![0] bcast_S200000_S200000x1_0) ((select) ((cmpi .slt) b ((broadcastInDim S200000 ![] bcast_S_S200000) ((constantI S_ 32 0#32)))) ((addi) b ((broadcastInDim S200000 ![] bcast_S_S200000) ((constantI S_ 32 1000#32)))) b)))) ((constant (F := Ideal) S_ .f32 0x00000000#32))))))))) x3))

/-- The pairwise head on the two pooled vectors laid side by side: an attention vector by tanh of a two-layer map, the re-weighted pair through a ReLU layer. -/
def efn (h1 h2 : FVec Ideal S1000x16 .f32) (a29 : FVec Ideal S32x8 .f32) (a30 : FVec Ideal S8 .f32) (a31 : FVec Ideal S8x32 .f32) (a32 : FVec Ideal S32 .f32) (a33 : FVec Ideal S32x16 .f32) (a34 : FVec Ideal S16 .f32) : FVec Ideal S1000x16 .f32 :=
  ((maximumf) ((addf) (((fun l r => Host.dotGeneral (F := Ideal) dot_S1000x32_S32x16_S1000x16_1_0_0_1_n_n none l r)) ((addf) ((mulf) ((Host.tanh) ((addf) (((fun l r => Host.dotGeneral (F := Ideal) dot_S1000x8_S8x32_S1000x32_1_0_0_1_n_n none l r)) ((maximumf) ((addf) (((fun l r => Host.dotGeneral (F := Ideal) dot_S1000x32_S32x8_S1000x8_1_0_0_1_n_n none l r)) (((fun a b => concatenate S1000x32 1 [⟨S1000x16, a⟩, ⟨S1000x16, b⟩] concatenates_S1000x16_S1000x16_S1000x32_d1)) h1 h2) a29) ((broadcastInDim S1000x8 ![0, 1] bcast_S1x8_S1000x8_0_1) ((broadcastInDim S1x8 ![1] bcast_S8_S1x8_1) a30))) ((broadcastInDim S1000x8 ![] bcast_S_S1000x8) (constant (F := Ideal) S_ .f32 0x00000000#32))) a31) ((broadcastInDim S1000x32 ![0, 1] bcast_S1x32_S1000x32_0_1) ((broadcastInDim S1x32 ![1] bcast_S32_S1x32_1) a32)))) (((fun a b => concatenate S1000x32 1 [⟨S1000x16, a⟩, ⟨S1000x16, b⟩] concatenates_S1000x16_S1000x16_S1000x32_d1)) h1 h2)) (((fun a b => concatenate S1000x32 1 [⟨S1000x16, a⟩, ⟨S1000x16, b⟩] concatenates_S1000x16_S1000x16_S1000x32_d1)) h1 h2)) a33) ((broadcastInDim S1000x16 ![0, 1] bcast_S1x16_S1000x16_0_1) ((broadcastInDim S1x16 ![1] bcast_S16_S1x16_1) a34))) ((broadcastInDim S1000x16 ![] bcast_S_S1000x16) (constant (F := Ideal) S_ .f32 0x00000000#32)))

/-- The final two-layer score of each graph pair. -/
def score (hAB : FVec Ideal S1000x16 .f32) (a35 : FVec Ideal S16x8 .f32) (a36 : FVec Ideal S8 .f32) (a37 : FVec Ideal S8x1 .f32) (a38 : FVec Ideal S1 .f32) : FVec Ideal S1000 .f32 :=
  (shapeCast S1000 ((addf) (((fun l r => Host.dotGeneral (F := Ideal) dot_S1000x8_S8x1_S1000x1_1_0_0_1_n_n none l r)) ((maximumf) ((addf) (((fun l r => Host.dotGeneral (F := Ideal) dot_S1000x16_S16x8_S1000x8_1_0_0_1_n_n none l r)) hAB a35) ((broadcastInDim S1000x8 ![0, 1] bcast_S1x8_S1000x8_0_1) ((broadcastInDim S1x8 ![1] bcast_S8_S1x8_1) a36))) ((broadcastInDim S1000x8 ![] bcast_S_S1000x8) (constant (F := Ideal) S_ .f32 0x00000000#32))) a37) ((broadcastInDim S1000x1 ![0, 1] bcast_S1x1_S1000x1_0_1) ((broadcastInDim S1x1 ![1] bcast_S1_S1x1_1) a38))) shapeCasts_S1000x1_S1000)

/-- The kernel program's column mean from the column sums, width 64: the quotient by 200000. -/
def statsMu64 (S : FVec Ideal S1x64 .f32) : FVec Ideal S1x64 .f32 :=
  ((Host.divf (F := Ideal)) S ((broadcastInDim S1x64 ![] bcast_S_S1x64) ((constant (F := Ideal) S_ .f32 0x48435000#32))))

/-- The kernel program's column variance from the column sums and sums of squares, width 64: the mean square minus the squared mean. -/
def statsVar64 (S Q : FVec Ideal S1x64 .f32) : FVec Ideal S1x64 .f32 :=
  ((subf) ((Host.divf (F := Ideal)) Q ((broadcastInDim S1x64 ![] bcast_S_S1x64) ((constant (F := Ideal) S_ .f32 0x48435000#32)))) ((mulf) ((Host.divf (F := Ideal)) S ((broadcastInDim S1x64 ![] bcast_S_S1x64) ((constant (F := Ideal) S_ .f32 0x48435000#32)))) ((Host.divf (F := Ideal)) S ((broadcastInDim S1x64 ![] bcast_S_S1x64) ((constant (F := Ideal) S_ .f32 0x48435000#32))))))

/-- The kernel program's column mean from the column sums, width 32: the quotient by 200000. -/
def statsMu32 (S : FVec Ideal S1x32 .f32) : FVec Ideal S1x32 .f32 :=
  ((Host.divf (F := Ideal)) S ((broadcastInDim S1x32 ![] bcast_S_S1x32) ((constant (F := Ideal) S_ .f32 0x48435000#32))))

/-- The kernel program's column variance from the column sums and sums of squares, width 32: the mean square minus the squared mean. -/
def statsVar32 (S Q : FVec Ideal S1x32 .f32) : FVec Ideal S1x32 .f32 :=
  ((subf) ((Host.divf (F := Ideal)) Q ((broadcastInDim S1x32 ![] bcast_S_S1x32) ((constant (F := Ideal) S_ .f32 0x48435000#32)))) ((mulf) ((Host.divf (F := Ideal)) S ((broadcastInDim S1x32 ![] bcast_S_S1x32) ((constant (F := Ideal) S_ .f32 0x48435000#32)))) ((Host.divf (F := Ideal)) S ((broadcastInDim S1x32 ![] bcast_S_S1x32) ((constant (F := Ideal) S_ .f32 0x48435000#32))))))

/-- The kernel program's column mean from the column sums, width 16: the quotient by 200000. -/
def statsMu16 (S : FVec Ideal S1x16 .f32) : FVec Ideal S1x16 .f32 :=
  ((Host.divf (F := Ideal)) S ((broadcastInDim S1x16 ![] bcast_S_S1x16) ((constant (F := Ideal) S_ .f32 0x48435000#32))))

/-- The kernel program's column variance from the column sums and sums of squares, width 16: the mean square minus the squared mean. -/
def statsVar16 (S Q : FVec Ideal S1x16 .f32) : FVec Ideal S1x16 .f32 :=
  ((subf) ((Host.divf (F := Ideal)) Q ((broadcastInDim S1x16 ![] bcast_S_S1x16) ((constant (F := Ideal) S_ .f32 0x48435000#32)))) ((mulf) ((Host.divf (F := Ideal)) S ((broadcastInDim S1x16 ![] bcast_S_S1x16) ((constant (F := Ideal) S_ .f32 0x48435000#32)))) ((Host.divf (F := Ideal)) S ((broadcastInDim S1x16 ![] bcast_S_S1x16) ((constant (F := Ideal) S_ .f32 0x48435000#32))))))

/-- One layer at widths 64, 64, 64. -/
def layerA (x : FVec Ideal S200000x64 .f32) (e : IVec S2x3200000 32) (eps : FVec Ideal S_ .f32) (W1 : FVec Ideal S64x64 .f32)
    (b1 : FVec Ideal S64 .f32) (W2 : FVec Ideal S64x64 .f32) (b2 g bt : FVec Ideal S64 .f32) : FVec Ideal S200000x64 .f32 :=
  bnR64 (dense64a (pre64 x e eps) W1 b1 W2 b2) g bt

/-- One layer at widths 64, 32, 32. -/
def layerB (x : FVec Ideal S200000x64 .f32) (e : IVec S2x3200000 32) (eps : FVec Ideal S_ .f32) (W1 : FVec Ideal S64x32 .f32)
    (b1 : FVec Ideal S32 .f32) (W2 : FVec Ideal S32x32 .f32) (b2 g bt : FVec Ideal S32 .f32) : FVec Ideal S200000x32 .f32 :=
  bnR32 (dense64b (pre64 x e eps) W1 b1 W2 b2) g bt

/-- One layer at widths 32, 16, 16. -/
def layerC (x : FVec Ideal S200000x32 .f32) (e : IVec S2x3200000 32) (eps : FVec Ideal S_ .f32) (W1 : FVec Ideal S32x16 .f32)
    (b1 : FVec Ideal S16 .f32) (W2 : FVec Ideal S16x16 .f32) (b2 g bt : FVec Ideal S16 .f32) : FVec Ideal S200000x16 .f32 :=
  bnR16 (dense32 (pre32 x e eps) W1 b1 W2 b2) g bt

/-- The three layers of one side: its node features x and its edge list e. -/
def side (x : FVec Ideal S200000x64 .f32) (e : IVec S2x3200000 32) (x6 : FVec Ideal S_ .f32) (x7 : FVec Ideal S64x64 .f32) (x8 : FVec Ideal S64 .f32) (x9 : FVec Ideal S64x64 .f32) (x10 : FVec Ideal S64 .f32) (x11 : FVec Ideal S64 .f32) (x12 : FVec Ideal S64 .f32) (x13 : FVec Ideal S_ .f32) (x14 : FVec Ideal S64x32 .f32) (x15 : FVec Ideal S32 .f32) (x16 : FVec Ideal S32x32 .f32) (x17 : FVec Ideal S32 .f32) (x18 : FVec Ideal S32 .f32) (x19 : FVec Ideal S32 .f32) (x20 : FVec Ideal S_ .f32) (x21 : FVec Ideal S32x16 .f32) (x22 : FVec Ideal S16 .f32) (x23 : FVec Ideal S16x16 .f32) (x24 : FVec Ideal S16 .f32) (x25 : FVec Ideal S16 .f32) (x26 : FVec Ideal S16 .f32) :
    FVec Ideal S200000x16 .f32 :=
  layerC (layerB (layerA x e x6 x7 x8 x9 x10 x11 x12) e x13 x14 x15 x16 x17 x18 x19) e x20 x21 x22 x23 x24 x25 x26

/-- The pooled vector of side i. -/
def pooledI (x0 : FVec Ideal S200000x64 .f32) (x1 : FVec Ideal S200000x64 .f32) (x2 : IVec S2x3200000 32) (x3 : IVec S2x3200000 32) (x4 : IVec S200000 32) (x5 : IVec S200000 32) (x6 : FVec Ideal S_ .f32) (x7 : FVec Ideal S64x64 .f32) (x8 : FVec Ideal S64 .f32) (x9 : FVec Ideal S64x64 .f32) (x10 : FVec Ideal S64 .f32) (x11 : FVec Ideal S64 .f32) (x12 : FVec Ideal S64 .f32) (x13 : FVec Ideal S_ .f32) (x14 : FVec Ideal S64x32 .f32) (x15 : FVec Ideal S32 .f32) (x16 : FVec Ideal S32x32 .f32) (x17 : FVec Ideal S32 .f32) (x18 : FVec Ideal S32 .f32) (x19 : FVec Ideal S32 .f32) (x20 : FVec Ideal S_ .f32) (x21 : FVec Ideal S32x16 .f32) (x22 : FVec Ideal S16 .f32) (x23 : FVec Ideal S16x16 .f32) (x24 : FVec Ideal S16 .f32) (x25 : FVec Ideal S16 .f32) (x26 : FVec Ideal S16 .f32) (x27 : FVec Ideal S16x16 .f32) (x28 : FVec Ideal S16 .f32) (x29 : FVec Ideal S32x8 .f32) (x30 : FVec Ideal S8 .f32) (x31 : FVec Ideal S8x32 .f32) (x32 : FVec Ideal S32 .f32) (x33 : FVec Ideal S32x16 .f32) (x34 : FVec Ideal S16 .f32) (x35 : FVec Ideal S16x8 .f32) (x36 : FVec Ideal S8 .f32) (x37 : FVec Ideal S8x1 .f32) (x38 : FVec Ideal S1 .f32) : FVec Ideal S1000x16 .f32 :=
  readout (side x0 x2 x6 x7 x8 x9 x10 x11 x12 x13 x14 x15 x16 x17 x18 x19 x20 x21 x22 x23 x24 x25 x26) x4 x27 x28

/-- The pooled vector of side j. -/
def pooledJ (x0 : FVec Ideal S200000x64 .f32) (x1 : FVec Ideal S200000x64 .f32) (x2 : IVec S2x3200000 32) (x3 : IVec S2x3200000 32) (x4 : IVec S200000 32) (x5 : IVec S200000 32) (x6 : FVec Ideal S_ .f32) (x7 : FVec Ideal S64x64 .f32) (x8 : FVec Ideal S64 .f32) (x9 : FVec Ideal S64x64 .f32) (x10 : FVec Ideal S64 .f32) (x11 : FVec Ideal S64 .f32) (x12 : FVec Ideal S64 .f32) (x13 : FVec Ideal S_ .f32) (x14 : FVec Ideal S64x32 .f32) (x15 : FVec Ideal S32 .f32) (x16 : FVec Ideal S32x32 .f32) (x17 : FVec Ideal S32 .f32) (x18 : FVec Ideal S32 .f32) (x19 : FVec Ideal S32 .f32) (x20 : FVec Ideal S_ .f32) (x21 : FVec Ideal S32x16 .f32) (x22 : FVec Ideal S16 .f32) (x23 : FVec Ideal S16x16 .f32) (x24 : FVec Ideal S16 .f32) (x25 : FVec Ideal S16 .f32) (x26 : FVec Ideal S16 .f32) (x27 : FVec Ideal S16x16 .f32) (x28 : FVec Ideal S16 .f32) (x29 : FVec Ideal S32x8 .f32) (x30 : FVec Ideal S8 .f32) (x31 : FVec Ideal S8x32 .f32) (x32 : FVec Ideal S32 .f32) (x33 : FVec Ideal S32x16 .f32) (x34 : FVec Ideal S16 .f32) (x35 : FVec Ideal S16x8 .f32) (x36 : FVec Ideal S8 .f32) (x37 : FVec Ideal S8x1 .f32) (x38 : FVec Ideal S1 .f32) : FVec Ideal S1000x16 .f32 :=
  readout (side x1 x3 x6 x7 x8 x9 x10 x11 x12 x13 x14 x15 x16 x17 x18 x19 x20 x21 x22 x23 x24 x25 x26) x5 x27 x28

/-- The network's three results from the two pooled vectors: the score of the pair, and the pair's head minus each
    side's head against itself. -/
def heads (hI hJ : FVec Ideal S1000x16 .f32) (x29 : FVec Ideal S32x8 .f32) (x30 : FVec Ideal S8 .f32) (x31 : FVec Ideal S8x32 .f32) (x32 : FVec Ideal S32 .f32) (x33 : FVec Ideal S32x16 .f32) (x34 : FVec Ideal S16 .f32) (x35 : FVec Ideal S16x8 .f32) (x36 : FVec Ideal S8 .f32) (x37 : FVec Ideal S8x1 .f32) (x38 : FVec Ideal S1 .f32) :
    FVec Ideal S1000 .f32 × FVec Ideal S1000x16 .f32 × FVec Ideal S1000x16 .f32 :=
  (score (efn hI hJ x29 x30 x31 x32 x33 x34) x35 x36 x37 x38,
   subf (efn hI hJ x29 x30 x31 x32 x33 x34) (efn hJ hJ x29 x30 x31 x32 x33 x34),
   subf (efn hI hJ x29 x30 x31 x32 x33 x34) (efn hI hI x29 x30 x31 x32 x33 x34))

end Cert.Spec

end
-- ==== Proof.KHost.lean ====
/-
  The kernel program's stretches of host operations, read as pure functions: what each stretch leaves in the buffers the
  regions and the later stretches read, as the composed term of its printed operations of the contents it starts from, and
  that it leaves every buffer it does not write as it found it. The stretch before a layer's first region builds the
  layer's input (the composed term is the specification's own), the stretch between a layer's two regions the column
  mean and variance from the column sums and sums of squares, and the stretches after the last region the pooled
  vectors of the two sides and from them the three results.
-/
import proofs.«120907_j71768903516484_1_alg».proof.Proof.Gen.KernelIdeal.Launch
import proofs.«120907_j71768903516484_1_alg».proof.Proof.Spec
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable [Cert.KernelIdeal.Facts] [Cert.ReferenceIdeal.Facts]

/-- Running one list of operations after another is running their concatenation. -/
theorem after_append {τ : Topo} {sig : RefSig} {Val : EltTy → Type} (a b : List (HloOp τ sig Val)) (V : Valuation τ sig Val) :
    after (a ++ b) V = after b (after a V) := by
  induction a generalizing V with
  | nil => rfl
  | cons op a ih => rw [List.cons_append, after_cons, after_cons, ih]

/-- The buffers the operations of hostOps0 write, in order. -/
abbrev W_hostOps0 : List (Ref sig .tc) := [main_v0, main_v1, main_v2, main_v3, main_c, main_v4, main_v5, main_c_0, main_v6, main_v7, main_v8, main_v9, main_v10, main_cst, main_v11, main_v12, main_v13, main_cst_1, main_v14, main_v15, main_v16, main_v17]
theorem writes_hostOps0 : (hostOps0 : List (HloOp τ sig (Elt Ideal))).Forall fun op => op.writes ⊆ (W_hostOps0.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps0 does not write keeps its contents. -/
theorem keep_hostOps0 (V : Valuation τ sig (Elt Ideal)) (r : Ref sig .tc) (hr : r ∉ W_hostOps0) :
    after (hostOps0 : List (HloOp τ sig (Elt Ideal))) V (Proc.devRef .tc r) = V (Proc.devRef .tc r) :=
  after_of_writes_sub _ V writes_hostOps0 hr

/-- The buffers the operations of hostOps1 write, in order. -/
abbrev W_hostOps1 : List (Ref sig .tc) := [main_cst_2, main_v19, main_v20, main_cst_3, main_v21, main_v22, main_v23, main_v24]
theorem writes_hostOps1 : (hostOps1 : List (HloOp τ sig (Elt Ideal))).Forall fun op => op.writes ⊆ (W_hostOps1.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps1 does not write keeps its contents. -/
theorem keep_hostOps1 (V : Valuation τ sig (Elt Ideal)) (r : Ref sig .tc) (hr : r ∉ W_hostOps1) :
    after (hostOps1 : List (HloOp τ sig (Elt Ideal))) V (Proc.devRef .tc r) = V (Proc.devRef .tc r) :=
  after_of_writes_sub _ V writes_hostOps1 hr

/-- The buffers the operations of hostOps2 write, in order. -/
abbrev W_hostOps2 : List (Ref sig .tc) := [main_v26, main_v27, main_v28, main_v29, main_c_4, main_v30, main_v31, main_c_5, main_v32, main_v33, main_v34, main_v35, main_v36, main_cst_6, main_v37, main_v38, main_v39, main_cst_7, main_v40, main_v41, main_v42, main_v43]
theorem writes_hostOps2 : (hostOps2 : List (HloOp τ sig (Elt Ideal))).Forall fun op => op.writes ⊆ (W_hostOps2.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps2 does not write keeps its contents. -/
theorem keep_hostOps2 (V : Valuation τ sig (Elt Ideal)) (r : Ref sig .tc) (hr : r ∉ W_hostOps2) :
    after (hostOps2 : List (HloOp τ sig (Elt Ideal))) V (Proc.devRef .tc r) = V (Proc.devRef .tc r) :=
  after_of_writes_sub _ V writes_hostOps2 hr

/-- The buffers the operations of hostOps3 write, in order. -/
abbrev W_hostOps3 : List (Ref sig .tc) := [main_cst_8, main_v45, main_v46, main_cst_9, main_v47, main_v48, main_v49, main_v50]
theorem writes_hostOps3 : (hostOps3 : List (HloOp τ sig (Elt Ideal))).Forall fun op => op.writes ⊆ (W_hostOps3.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps3 does not write keeps its contents. -/
theorem keep_hostOps3 (V : Valuation τ sig (Elt Ideal)) (r : Ref sig .tc) (hr : r ∉ W_hostOps3) :
    after (hostOps3 : List (HloOp τ sig (Elt Ideal))) V (Proc.devRef .tc r) = V (Proc.devRef .tc r) :=
  after_of_writes_sub _ V writes_hostOps3 hr

/-- The buffers the operations of hostOps4 write, in order. -/
abbrev W_hostOps4 : List (Ref sig .tc) := [main_v52, main_v53, main_v54, main_v55, main_c_10, main_v56, main_v57, main_c_11, main_v58, main_v59, main_v60, main_v61, main_v62, main_cst_12, main_v63, main_v64, main_v65, main_cst_13, main_v66, main_v67, main_v68, main_v69]
theorem writes_hostOps4 : (hostOps4 : List (HloOp τ sig (Elt Ideal))).Forall fun op => op.writes ⊆ (W_hostOps4.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps4 does not write keeps its contents. -/
theorem keep_hostOps4 (V : Valuation τ sig (Elt Ideal)) (r : Ref sig .tc) (hr : r ∉ W_hostOps4) :
    after (hostOps4 : List (HloOp τ sig (Elt Ideal))) V (Proc.devRef .tc r) = V (Proc.devRef .tc r) :=
  after_of_writes_sub _ V writes_hostOps4 hr

/-- The buffers the operations of hostOps5 write, in order. -/
abbrev W_hostOps5 : List (Ref sig .tc) := [main_cst_14, main_v71, main_v72, main_cst_15, main_v73, main_v74, main_v75, main_v76]
theorem writes_hostOps5 : (hostOps5 : List (HloOp τ sig (Elt Ideal))).Forall fun op => op.writes ⊆ (W_hostOps5.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps5 does not write keeps its contents. -/
theorem keep_hostOps5 (V : Valuation τ sig (Elt Ideal)) (r : Ref sig .tc) (hr : r ∉ W_hostOps5) :
    after (hostOps5 : List (HloOp τ sig (Elt Ideal))) V (Proc.devRef .tc r) = V (Proc.devRef .tc r) :=
  after_of_writes_sub _ V writes_hostOps5 hr

/-- The buffers the operations of hostOps6 write, in order. -/
abbrev W_hostOps6 : List (Ref sig .tc) := [main_v78, main_v79, main_v80, main_v81, main_c_16, main_v82, main_v83, main_c_17, main_v84, main_v85, main_v86, main_v87, main_v88, main_cst_18, main_v89, main_v90, main_v91, main_cst_19, main_v92, main_v93, main_v94, main_v95]
theorem writes_hostOps6 : (hostOps6 : List (HloOp τ sig (Elt Ideal))).Forall fun op => op.writes ⊆ (W_hostOps6.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps6 does not write keeps its contents. -/
theorem keep_hostOps6 (V : Valuation τ sig (Elt Ideal)) (r : Ref sig .tc) (hr : r ∉ W_hostOps6) :
    after (hostOps6 : List (HloOp τ sig (Elt Ideal))) V (Proc.devRef .tc r) = V (Proc.devRef .tc r) :=
  after_of_writes_sub _ V writes_hostOps6 hr

/-- The buffers the operations of hostOps7 write, in order. -/
abbrev W_hostOps7 : List (Ref sig .tc) := [main_cst_20, main_v97, main_v98, main_cst_21, main_v99, main_v100, main_v101, main_v102]
theorem writes_hostOps7 : (hostOps7 : List (HloOp τ sig (Elt Ideal))).Forall fun op => op.writes ⊆ (W_hostOps7.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps7 does not write keeps its contents. -/
theorem keep_hostOps7 (V : Valuation τ sig (Elt Ideal)) (r : Ref sig .tc) (hr : r ∉ W_hostOps7) :
    after (hostOps7 : List (HloOp τ sig (Elt Ideal))) V (Proc.devRef .tc r) = V (Proc.devRef .tc r) :=
  after_of_writes_sub _ V writes_hostOps7 hr

/-- The buffers the operations of hostOps8 write, in order. -/
abbrev W_hostOps8 : List (Ref sig .tc) := [main_v104, main_v105, main_v106, main_v107, main_c_22, main_v108, main_v109, main_c_23, main_v110, main_v111, main_v112, main_v113, main_v114, main_cst_24, main_v115, main_v116, main_v117, main_cst_25, main_v118, main_v119, main_v120, main_v121]
theorem writes_hostOps8 : (hostOps8 : List (HloOp τ sig (Elt Ideal))).Forall fun op => op.writes ⊆ (W_hostOps8.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps8 does not write keeps its contents. -/
theorem keep_hostOps8 (V : Valuation τ sig (Elt Ideal)) (r : Ref sig .tc) (hr : r ∉ W_hostOps8) :
    after (hostOps8 : List (HloOp τ sig (Elt Ideal))) V (Proc.devRef .tc r) = V (Proc.devRef .tc r) :=
  after_of_writes_sub _ V writes_hostOps8 hr

/-- The buffers the operations of hostOps9 write, in order. -/
abbrev W_hostOps9 : List (Ref sig .tc) := [main_cst_26, main_v123, main_v124, main_cst_27, main_v125, main_v126, main_v127, main_v128]
theorem writes_hostOps9 : (hostOps9 : List (HloOp τ sig (Elt Ideal))).Forall fun op => op.writes ⊆ (W_hostOps9.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps9 does not write keeps its contents. -/
theorem keep_hostOps9 (V : Valuation τ sig (Elt Ideal)) (r : Ref sig .tc) (hr : r ∉ W_hostOps9) :
    after (hostOps9 : List (HloOp τ sig (Elt Ideal))) V (Proc.devRef .tc r) = V (Proc.devRef .tc r) :=
  after_of_writes_sub _ V writes_hostOps9 hr

/-- The buffers the operations of hostOps10 write, in order. -/
abbrev W_hostOps10 : List (Ref sig .tc) := [main_v130, main_v131, main_v132, main_v133, main_c_28, main_v134, main_v135, main_c_29, main_v136, main_v137, main_v138, main_v139, main_v140, main_cst_30, main_v141, main_v142, main_v143, main_cst_31, main_v144, main_v145, main_v146, main_v147]
theorem writes_hostOps10 : (hostOps10 : List (HloOp τ sig (Elt Ideal))).Forall fun op => op.writes ⊆ (W_hostOps10.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps10 does not write keeps its contents. -/
theorem keep_hostOps10 (V : Valuation τ sig (Elt Ideal)) (r : Ref sig .tc) (hr : r ∉ W_hostOps10) :
    after (hostOps10 : List (HloOp τ sig (Elt Ideal))) V (Proc.devRef .tc r) = V (Proc.devRef .tc r) :=
  after_of_writes_sub _ V writes_hostOps10 hr

/-- The buffers the operations of hostOps11 write, in order. -/
abbrev W_hostOps11 : List (Ref sig .tc) := [main_cst_32, main_v149, main_v150, main_cst_33, main_v151, main_v152, main_v153, main_v154]
theorem writes_hostOps11 : (hostOps11 : List (HloOp τ sig (Elt Ideal))).Forall fun op => op.writes ⊆ (W_hostOps11.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer hostOps11 does not write keeps its contents. -/
theorem keep_hostOps11 (V : Valuation τ sig (Elt Ideal)) (r : Ref sig .tc) (hr : r ∉ W_hostOps11) :
    after (hostOps11 : List (HloOp τ sig (Elt Ideal))) V (Proc.devRef .tc r) = V (Proc.devRef .tc r) :=
  after_of_writes_sub _ V writes_hostOps11 hr

set_option maxHeartbeats 4000000 in
theorem pre_0_raw (V : Valuation τ sig (Elt Ideal)) :
    after (hostOps0 (F := Ideal)) V (main_v17 : DevRef τ sig)
      = ((addf) ((mulf) ((broadcastInDim S200000x64 ![] bcast_S_S200000x64) ((addf) ((constant (F := Ideal) S_ .f32 0x3F800000#32)) (V (main_arg6 : DevRef τ sig) : FVec Ideal S_ .f32))) (V (main_arg0 : DevRef τ sig) : FVec Ideal S200000x64 .f32)) (((fun x i u => Host.scatterAdd (F := Ideal) scatter_S200000x64_S3200000x1_S3200000x64_1_0_0_1 x i u)) ((broadcastInDim S200000x64 ![] bcast_S_S200000x64) ((constant (F := Ideal) S_ .f32 0x00000000#32))) ((broadcastInDim S3200000x1 ![0] bcast_S3200000_S3200000x1_0) (shapeCast S3200000 ((extractStridedSlice S1x3200000 ![1, 0] (V (main_arg2 : DevRef τ sig) : IVec S2x3200000 32) slices_S2x3200000_S1x3200000_1_0)) shapeCasts_S1x3200000_S3200000)) (((fun x i => Host.gather gather_S200000x64_S3200000x1_S3200000x64_1_0_n_n_0_1_164 x i)) (V (main_arg0 : DevRef τ sig) : FVec Ideal S200000x64 .f32) ((broadcastInDim S3200000x1 ![0] bcast_S3200000_S3200000x1_0) ((select) ((cmpi .slt) (shapeCast S3200000 ((extractStridedSlice S1x3200000 ![0, 0] (V (main_arg2 : DevRef τ sig) : IVec S2x3200000 32) slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] (V (main_arg2 : DevRef τ sig) : IVec S2x3200000 32) slices_S2x3200000_S1x3200000_0_0)) shapeCasts_S1x3200000_S3200000) ((broadcastInDim S3200000 ![] bcast_S_S3200000) ((constantI S_ 32 200000#32)))) (shapeCast S3200000 ((extractStridedSlice S1x3200000 ![0, 0] (V (main_arg2 : DevRef τ sig) : IVec S2x3200000 32) slices_S2x3200000_S1x3200000_0_0)) shapeCasts_S1x3200000_S3200000)))))) := by
  after_results_simp
  rfl
/-- The input of layer block 0's first region is the specification's layer input of the block's features, edges and eps. -/
theorem pre_0 (V : Valuation τ sig (Elt Ideal)) :
    after (hostOps0 (F := Ideal)) V (main_v17 : DevRef τ sig) = Cert.Spec.pre64 (V (main_arg0 : DevRef τ sig) : FVec Ideal S200000x64 .f32) (V (main_arg2 : DevRef τ sig) : IVec S2x3200000 32) (V (main_arg6 : DevRef τ sig) : FVec Ideal S_ .f32) :=
  (pre_0_raw V).trans rfl
set_option maxHeartbeats 4000000 in
theorem mu_0_raw (V : Valuation τ sig (Elt Ideal)) :
    after (hostOps1 (F := Ideal)) V (main_v20 : DevRef τ sig)
      = ((Host.divf (F := Ideal)) (V (main_v18_1 : DevRef τ sig) : FVec Ideal S1x64 .f32) ((broadcastInDim S1x64 ![] bcast_S_S1x64) ((constant (F := Ideal) S_ .f32 0x48435000#32)))) := by
  after_results_simp
  try rfl
theorem mu_0 (V : Valuation τ sig (Elt Ideal)) :
    after (hostOps1 (F := Ideal)) V (main_v20 : DevRef τ sig) = Cert.Spec.statsMu64 (V (main_v18_1 : DevRef τ sig) : FVec Ideal S1x64 .f32) :=
  (mu_0_raw V).trans rfl
set_option maxHeartbeats 4000000 in
theorem var_0_raw (V : Valuation τ sig (Elt Ideal)) :
    after (hostOps1 (F := Ideal)) V (main_v24 : DevRef τ sig)
      = ((subf) ((Host.divf (F := Ideal)) (V (main_v18_2 : DevRef τ sig) : FVec Ideal S1x64 .f32) ((broadcastInDim S1x64 ![] bcast_S_S1x64) ((constant (F := Ideal) S_ .f32 0x48435000#32)))) ((mulf) ((Host.divf (F := Ideal)) (V (main_v18_1 : DevRef τ sig) : FVec Ideal S1x64 .f32) ((broadcastInDim S1x64 ![] bcast_S_S1x64) ((constant (F := Ideal) S_ .f32 0x48435000#32)))) ((Host.divf (F := Ideal)) (V (main_v18_1 : DevRef τ sig) : FVec Ideal S1x64 .f32) ((broadcastInDim S1x64 ![] bcast_S_S1x64) ((constant (F := Ideal) S_ .f32 0x48435000#32)))))) := by
  after_results_simp
  try rfl
theorem var_0 (V : Valuation τ sig (Elt Ideal)) :
    after (hostOps1 (F := Ideal)) V (main_v24 : DevRef τ sig) = Cert.Spec.statsVar64 (V (main_v18_1 : DevRef τ sig) : FVec Ideal S1x64 .f32) (V (main_v18_2 : DevRef τ sig) : FVec Ideal S1x64 .f32) :=
  (var_0_raw V).trans rfl

set_option maxHeartbeats 4000000 in
theorem pre_1_raw (V : Valuation τ sig (Elt Ideal)) :
    after (hostOps2 (F := Ideal)) V (main_v43 : DevRef τ sig)
      = ((addf) ((mulf) ((broadcastInDim S200000x64 ![] bcast_S_S200000x64) ((addf) ((constant (F := Ideal) S_ .f32 0x3F800000#32)) (V (main_arg6 : DevRef τ sig) : FVec Ideal S_ .f32))) (V (main_arg1 : DevRef τ sig) : FVec Ideal S200000x64 .f32)) (((fun x i u => Host.scatterAdd (F := Ideal) scatter_S200000x64_S3200000x1_S3200000x64_1_0_0_1 x i u)) ((broadcastInDim S200000x64 ![] bcast_S_S200000x64) ((constant (F := Ideal) S_ .f32 0x00000000#32))) ((broadcastInDim S3200000x1 ![0] bcast_S3200000_S3200000x1_0) (shapeCast S3200000 ((extractStridedSlice S1x3200000 ![1, 0] (V (main_arg3 : DevRef τ sig) : IVec S2x3200000 32) slices_S2x3200000_S1x3200000_1_0)) shapeCasts_S1x3200000_S3200000)) (((fun x i => Host.gather gather_S200000x64_S3200000x1_S3200000x64_1_0_n_n_0_1_164 x i)) (V (main_arg1 : DevRef τ sig) : FVec Ideal S200000x64 .f32) ((broadcastInDim S3200000x1 ![0] bcast_S3200000_S3200000x1_0) ((select) ((cmpi .slt) (shapeCast S3200000 ((extractStridedSlice S1x3200000 ![0, 0] (V (main_arg3 : DevRef τ sig) : IVec S2x3200000 32) slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] (V (main_arg3 : DevRef τ sig) : IVec S2x3200000 32) slices_S2x3200000_S1x3200000_0_0)) shapeCasts_S1x3200000_S3200000) ((broadcastInDim S3200000 ![] bcast_S_S3200000) ((constantI S_ 32 200000#32)))) (shapeCast S3200000 ((extractStridedSlice S1x3200000 ![0, 0] (V (main_arg3 : DevRef τ sig) : IVec S2x3200000 32) slices_S2x3200000_S1x3200000_0_0)) shapeCasts_S1x3200000_S3200000)))))) := by
  after_results_simp
  rfl
/-- The input of layer block 1's first region is the specification's layer input of the block's features, edges and eps. -/
theorem pre_1 (V : Valuation τ sig (Elt Ideal)) :
    after (hostOps2 (F := Ideal)) V (main_v43 : DevRef τ sig) = Cert.Spec.pre64 (V (main_arg1 : DevRef τ sig) : FVec Ideal S200000x64 .f32) (V (main_arg3 : DevRef τ sig) : IVec S2x3200000 32) (V (main_arg6 : DevRef τ sig) : FVec Ideal S_ .f32) :=
  (pre_1_raw V).trans rfl
set_option maxHeartbeats 4000000 in
theorem mu_1_raw (V : Valuation τ sig (Elt Ideal)) :
    after (hostOps3 (F := Ideal)) V (main_v46 : DevRef τ sig)
      = ((Host.divf (F := Ideal)) (V (main_v44_1 : DevRef τ sig) : FVec Ideal S1x64 .f32) ((broadcastInDim S1x64 ![] bcast_S_S1x64) ((constant (F := Ideal) S_ .f32 0x48435000#32)))) := by
  after_results_simp
  try rfl
theorem mu_1 (V : Valuation τ sig (Elt Ideal)) :
    after (hostOps3 (F := Ideal)) V (main_v46 : DevRef τ sig) = Cert.Spec.statsMu64 (V (main_v44_1 : DevRef τ sig) : FVec Ideal S1x64 .f32) :=
  (mu_1_raw V).trans rfl
set_option maxHeartbeats 4000000 in
theorem var_1_raw (V : Valuation τ sig (Elt Ideal)) :
    after (hostOps3 (F := Ideal)) V (main_v50 : DevRef τ sig)
      = ((subf) ((Host.divf (F := Ideal)) (V (main_v44_2 : DevRef τ sig) : FVec Ideal S1x64 .f32) ((broadcastInDim S1x64 ![] bcast_S_S1x64) ((constant (F := Ideal) S_ .f32 0x48435000#32)))) ((mulf) ((Host.divf (F := Ideal)) (V (main_v44_1 : DevRef τ sig) : FVec Ideal S1x64 .f32) ((broadcastInDim S1x64 ![] bcast_S_S1x64) ((constant (F := Ideal) S_ .f32 0x48435000#32)))) ((Host.divf (F := Ideal)) (V (main_v44_1 : DevRef τ sig) : FVec Ideal S1x64 .f32) ((broadcastInDim S1x64 ![] bcast_S_S1x64) ((constant (F := Ideal) S_ .f32 0x48435000#32)))))) := by
  after_results_simp
  try rfl
theorem var_1 (V : Valuation τ sig (Elt Ideal)) :
    after (hostOps3 (F := Ideal)) V (main_v50 : DevRef τ sig) = Cert.Spec.statsVar64 (V (main_v44_1 : DevRef τ sig) : FVec Ideal S1x64 .f32) (V (main_v44_2 : DevRef τ sig) : FVec Ideal S1x64 .f32) :=
  (var_1_raw V).trans rfl

set_option maxHeartbeats 4000000 in
theorem pre_2_raw (V : Valuation τ sig (Elt Ideal)) :
    after (hostOps4 (F := Ideal)) V (main_v69 : DevRef τ sig)
      = ((addf) ((mulf) ((broadcastInDim S200000x64 ![] bcast_S_S200000x64) ((addf) ((constant (F := Ideal) S_ .f32 0x3F800000#32)) (V (main_arg13 : DevRef τ sig) : FVec Ideal S_ .f32))) (V (main_v25 : DevRef τ sig) : FVec Ideal S200000x64 .f32)) (((fun x i u => Host.scatterAdd (F := Ideal) scatter_S200000x64_S3200000x1_S3200000x64_1_0_0_1 x i u)) ((broadcastInDim S200000x64 ![] bcast_S_S200000x64) ((constant (F := Ideal) S_ .f32 0x00000000#32))) ((broadcastInDim S3200000x1 ![0] bcast_S3200000_S3200000x1_0) (shapeCast S3200000 ((extractStridedSlice S1x3200000 ![1, 0] (V (main_arg2 : DevRef τ sig) : IVec S2x3200000 32) slices_S2x3200000_S1x3200000_1_0)) shapeCasts_S1x3200000_S3200000)) (((fun x i => Host.gather gather_S200000x64_S3200000x1_S3200000x64_1_0_n_n_0_1_164 x i)) (V (main_v25 : DevRef τ sig) : FVec Ideal S200000x64 .f32) ((broadcastInDim S3200000x1 ![0] bcast_S3200000_S3200000x1_0) ((select) ((cmpi .slt) (shapeCast S3200000 ((extractStridedSlice S1x3200000 ![0, 0] (V (main_arg2 : DevRef τ sig) : IVec S2x3200000 32) slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] (V (main_arg2 : DevRef τ sig) : IVec S2x3200000 32) slices_S2x3200000_S1x3200000_0_0)) shapeCasts_S1x3200000_S3200000) ((broadcastInDim S3200000 ![] bcast_S_S3200000) ((constantI S_ 32 200000#32)))) (shapeCast S3200000 ((extractStridedSlice S1x3200000 ![0, 0] (V (main_arg2 : DevRef τ sig) : IVec S2x3200000 32) slices_S2x3200000_S1x3200000_0_0)) shapeCasts_S1x3200000_S3200000)))))) := by
  after_results_simp
  rfl
/-- The input of layer block 2's first region is the specification's layer input of the block's features, edges and eps. -/
theorem pre_2 (V : Valuation τ sig (Elt Ideal)) :
    after (hostOps4 (F := Ideal)) V (main_v69 : DevRef τ sig) = Cert.Spec.pre64 (V (main_v25 : DevRef τ sig) : FVec Ideal S200000x64 .f32) (V (main_arg2 : DevRef τ sig) : IVec S2x3200000 32) (V (main_arg13 : DevRef τ sig) : FVec Ideal S_ .f32) :=
  (pre_2_raw V).trans rfl
set_option maxHeartbeats 4000000 in
theorem mu_2_raw (V : Valuation τ sig (Elt Ideal)) :
    after (hostOps5 (F := Ideal)) V (main_v72 : DevRef τ sig)
      = ((Host.divf (F := Ideal)) (V (main_v70_1 : DevRef τ sig) : FVec Ideal S1x32 .f32) ((broadcastInDim S1x32 ![] bcast_S_S1x32) ((constant (F := Ideal) S_ .f32 0x48435000#32)))) := by
  after_results_simp
  try rfl
theorem mu_2 (V : Valuation τ sig (Elt Ideal)) :
    after (hostOps5 (F := Ideal)) V (main_v72 : DevRef τ sig) = Cert.Spec.statsMu32 (V (main_v70_1 : DevRef τ sig) : FVec Ideal S1x32 .f32) :=
  (mu_2_raw V).trans rfl
set_option maxHeartbeats 4000000 in
theorem var_2_raw (V : Valuation τ sig (Elt Ideal)) :
    after (hostOps5 (F := Ideal)) V (main_v76 : DevRef τ sig)
      = ((subf) ((Host.divf (F := Ideal)) (V (main_v70_2 : DevRef τ sig) : FVec Ideal S1x32 .f32) ((broadcastInDim S1x32 ![] bcast_S_S1x32) ((constant (F := Ideal) S_ .f32 0x48435000#32)))) ((mulf) ((Host.divf (F := Ideal)) (V (main_v70_1 : DevRef τ sig) : FVec Ideal S1x32 .f32) ((broadcastInDim S1x32 ![] bcast_S_S1x32) ((constant (F := Ideal) S_ .f32 0x48435000#32)))) ((Host.divf (F := Ideal)) (V (main_v70_1 : DevRef τ sig) : FVec Ideal S1x32 .f32) ((broadcastInDim S1x32 ![] bcast_S_S1x32) ((constant (F := Ideal) S_ .f32 0x48435000#32)))))) := by
  after_results_simp
  try rfl
theorem var_2 (V : Valuation τ sig (Elt Ideal)) :
    after (hostOps5 (F := Ideal)) V (main_v76 : DevRef τ sig) = Cert.Spec.statsVar32 (V (main_v70_1 : DevRef τ sig) : FVec Ideal S1x32 .f32) (V (main_v70_2 : DevRef τ sig) : FVec Ideal S1x32 .f32) :=
  (var_2_raw V).trans rfl

set_option maxHeartbeats 4000000 in
theorem pre_3_raw (V : Valuation τ sig (Elt Ideal)) :
    after (hostOps6 (F := Ideal)) V (main_v95 : DevRef τ sig)
      = ((addf) ((mulf) ((broadcastInDim S200000x64 ![] bcast_S_S200000x64) ((addf) ((constant (F := Ideal) S_ .f32 0x3F800000#32)) (V (main_arg13 : DevRef τ sig) : FVec Ideal S_ .f32))) (V (main_v51 : DevRef τ sig) : FVec Ideal S200000x64 .f32)) (((fun x i u => Host.scatterAdd (F := Ideal) scatter_S200000x64_S3200000x1_S3200000x64_1_0_0_1 x i u)) ((broadcastInDim S200000x64 ![] bcast_S_S200000x64) ((constant (F := Ideal) S_ .f32 0x00000000#32))) ((broadcastInDim S3200000x1 ![0] bcast_S3200000_S3200000x1_0) (shapeCast S3200000 ((extractStridedSlice S1x3200000 ![1, 0] (V (main_arg3 : DevRef τ sig) : IVec S2x3200000 32) slices_S2x3200000_S1x3200000_1_0)) shapeCasts_S1x3200000_S3200000)) (((fun x i => Host.gather gather_S200000x64_S3200000x1_S3200000x64_1_0_n_n_0_1_164 x i)) (V (main_v51 : DevRef τ sig) : FVec Ideal S200000x64 .f32) ((broadcastInDim S3200000x1 ![0] bcast_S3200000_S3200000x1_0) ((select) ((cmpi .slt) (shapeCast S3200000 ((extractStridedSlice S1x3200000 ![0, 0] (V (main_arg3 : DevRef τ sig) : IVec S2x3200000 32) slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] (V (main_arg3 : DevRef τ sig) : IVec S2x3200000 32) slices_S2x3200000_S1x3200000_0_0)) shapeCasts_S1x3200000_S3200000) ((broadcastInDim S3200000 ![] bcast_S_S3200000) ((constantI S_ 32 200000#32)))) (shapeCast S3200000 ((extractStridedSlice S1x3200000 ![0, 0] (V (main_arg3 : DevRef τ sig) : IVec S2x3200000 32) slices_S2x3200000_S1x3200000_0_0)) shapeCasts_S1x3200000_S3200000)))))) := by
  after_results_simp
  rfl
/-- The input of layer block 3's first region is the specification's layer input of the block's features, edges and eps. -/
theorem pre_3 (V : Valuation τ sig (Elt Ideal)) :
    after (hostOps6 (F := Ideal)) V (main_v95 : DevRef τ sig) = Cert.Spec.pre64 (V (main_v51 : DevRef τ sig) : FVec Ideal S200000x64 .f32) (V (main_arg3 : DevRef τ sig) : IVec S2x3200000 32) (V (main_arg13 : DevRef τ sig) : FVec Ideal S_ .f32) :=
  (pre_3_raw V).trans rfl
set_option maxHeartbeats 4000000 in
theorem mu_3_raw (V : Valuation τ sig (Elt Ideal)) :
    after (hostOps7 (F := Ideal)) V (main_v98 : DevRef τ sig)
      = ((Host.divf (F := Ideal)) (V (main_v96_1 : DevRef τ sig) : FVec Ideal S1x32 .f32) ((broadcastInDim S1x32 ![] bcast_S_S1x32) ((constant (F := Ideal) S_ .f32 0x48435000#32)))) := by
  after_results_simp
  try rfl
theorem mu_3 (V : Valuation τ sig (Elt Ideal)) :
    after (hostOps7 (F := Ideal)) V (main_v98 : DevRef τ sig) = Cert.Spec.statsMu32 (V (main_v96_1 : DevRef τ sig) : FVec Ideal S1x32 .f32) :=
  (mu_3_raw V).trans rfl
set_option maxHeartbeats 4000000 in
theorem var_3_raw (V : Valuation τ sig (Elt Ideal)) :
    after (hostOps7 (F := Ideal)) V (main_v102 : DevRef τ sig)
      = ((subf) ((Host.divf (F := Ideal)) (V (main_v96_2 : DevRef τ sig) : FVec Ideal S1x32 .f32) ((broadcastInDim S1x32 ![] bcast_S_S1x32) ((constant (F := Ideal) S_ .f32 0x48435000#32)))) ((mulf) ((Host.divf (F := Ideal)) (V (main_v96_1 : DevRef τ sig) : FVec Ideal S1x32 .f32) ((broadcastInDim S1x32 ![] bcast_S_S1x32) ((constant (F := Ideal) S_ .f32 0x48435000#32)))) ((Host.divf (F := Ideal)) (V (main_v96_1 : DevRef τ sig) : FVec Ideal S1x32 .f32) ((broadcastInDim S1x32 ![] bcast_S_S1x32) ((constant (F := Ideal) S_ .f32 0x48435000#32)))))) := by
  after_results_simp
  try rfl
theorem var_3 (V : Valuation τ sig (Elt Ideal)) :
    after (hostOps7 (F := Ideal)) V (main_v102 : DevRef τ sig) = Cert.Spec.statsVar32 (V (main_v96_1 : DevRef τ sig) : FVec Ideal S1x32 .f32) (V (main_v96_2 : DevRef τ sig) : FVec Ideal S1x32 .f32) :=
  (var_3_raw V).trans rfl

set_option maxHeartbeats 4000000 in
theorem pre_4_raw (V : Valuation τ sig (Elt Ideal)) :
    after (hostOps8 (F := Ideal)) V (main_v121 : DevRef τ sig)
      = ((addf) ((mulf) ((broadcastInDim S200000x32 ![] bcast_S_S200000x32) ((addf) ((constant (F := Ideal) S_ .f32 0x3F800000#32)) (V (main_arg20 : DevRef τ sig) : FVec Ideal S_ .f32))) (V (main_v77 : DevRef τ sig) : FVec Ideal S200000x32 .f32)) (((fun x i u => Host.scatterAdd (F := Ideal) scatter_S200000x32_S3200000x1_S3200000x32_1_0_0_1 x i u)) ((broadcastInDim S200000x32 ![] bcast_S_S200000x32) ((constant (F := Ideal) S_ .f32 0x00000000#32))) ((broadcastInDim S3200000x1 ![0] bcast_S3200000_S3200000x1_0) (shapeCast S3200000 ((extractStridedSlice S1x3200000 ![1, 0] (V (main_arg2 : DevRef τ sig) : IVec S2x3200000 32) slices_S2x3200000_S1x3200000_1_0)) shapeCasts_S1x3200000_S3200000)) (((fun x i => Host.gather gather_S200000x32_S3200000x1_S3200000x32_1_0_n_n_0_1_132 x i)) (V (main_v77 : DevRef τ sig) : FVec Ideal S200000x32 .f32) ((broadcastInDim S3200000x1 ![0] bcast_S3200000_S3200000x1_0) ((select) ((cmpi .slt) (shapeCast S3200000 ((extractStridedSlice S1x3200000 ![0, 0] (V (main_arg2 : DevRef τ sig) : IVec S2x3200000 32) slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] (V (main_arg2 : DevRef τ sig) : IVec S2x3200000 32) slices_S2x3200000_S1x3200000_0_0)) shapeCasts_S1x3200000_S3200000) ((broadcastInDim S3200000 ![] bcast_S_S3200000) ((constantI S_ 32 200000#32)))) (shapeCast S3200000 ((extractStridedSlice S1x3200000 ![0, 0] (V (main_arg2 : DevRef τ sig) : IVec S2x3200000 32) slices_S2x3200000_S1x3200000_0_0)) shapeCasts_S1x3200000_S3200000)))))) := by
  after_results_simp
  rfl
/-- The input of layer block 4's first region is the specification's layer input of the block's features, edges and eps. -/
theorem pre_4 (V : Valuation τ sig (Elt Ideal)) :
    after (hostOps8 (F := Ideal)) V (main_v121 : DevRef τ sig) = Cert.Spec.pre32 (V (main_v77 : DevRef τ sig) : FVec Ideal S200000x32 .f32) (V (main_arg2 : DevRef τ sig) : IVec S2x3200000 32) (V (main_arg20 : DevRef τ sig) : FVec Ideal S_ .f32) :=
  (pre_4_raw V).trans rfl
set_option maxHeartbeats 4000000 in
theorem mu_4_raw (V : Valuation τ sig (Elt Ideal)) :
    after (hostOps9 (F := Ideal)) V (main_v124 : DevRef τ sig)
      = ((Host.divf (F := Ideal)) (V (main_v122_1 : DevRef τ sig) : FVec Ideal S1x16 .f32) ((broadcastInDim S1x16 ![] bcast_S_S1x16) ((constant (F := Ideal) S_ .f32 0x48435000#32)))) := by
  after_results_simp
  try rfl
theorem mu_4 (V : Valuation τ sig (Elt Ideal)) :
    after (hostOps9 (F := Ideal)) V (main_v124 : DevRef τ sig) = Cert.Spec.statsMu16 (V (main_v122_1 : DevRef τ sig) : FVec Ideal S1x16 .f32) :=
  (mu_4_raw V).trans rfl
set_option maxHeartbeats 4000000 in
theorem var_4_raw (V : Valuation τ sig (Elt Ideal)) :
    after (hostOps9 (F := Ideal)) V (main_v128 : DevRef τ sig)
      = ((subf) ((Host.divf (F := Ideal)) (V (main_v122_2 : DevRef τ sig) : FVec Ideal S1x16 .f32) ((broadcastInDim S1x16 ![] bcast_S_S1x16) ((constant (F := Ideal) S_ .f32 0x48435000#32)))) ((mulf) ((Host.divf (F := Ideal)) (V (main_v122_1 : DevRef τ sig) : FVec Ideal S1x16 .f32) ((broadcastInDim S1x16 ![] bcast_S_S1x16) ((constant (F := Ideal) S_ .f32 0x48435000#32)))) ((Host.divf (F := Ideal)) (V (main_v122_1 : DevRef τ sig) : FVec Ideal S1x16 .f32) ((broadcastInDim S1x16 ![] bcast_S_S1x16) ((constant (F := Ideal) S_ .f32 0x48435000#32)))))) := by
  after_results_simp
  try rfl
theorem var_4 (V : Valuation τ sig (Elt Ideal)) :
    after (hostOps9 (F := Ideal)) V (main_v128 : DevRef τ sig) = Cert.Spec.statsVar16 (V (main_v122_1 : DevRef τ sig) : FVec Ideal S1x16 .f32) (V (main_v122_2 : DevRef τ sig) : FVec Ideal S1x16 .f32) :=
  (var_4_raw V).trans rfl

set_option maxHeartbeats 4000000 in
theorem pre_5_raw (V : Valuation τ sig (Elt Ideal)) :
    after (hostOps10 (F := Ideal)) V (main_v147 : DevRef τ sig)
      = ((addf) ((mulf) ((broadcastInDim S200000x32 ![] bcast_S_S200000x32) ((addf) ((constant (F := Ideal) S_ .f32 0x3F800000#32)) (V (main_arg20 : DevRef τ sig) : FVec Ideal S_ .f32))) (V (main_v103 : DevRef τ sig) : FVec Ideal S200000x32 .f32)) (((fun x i u => Host.scatterAdd (F := Ideal) scatter_S200000x32_S3200000x1_S3200000x32_1_0_0_1 x i u)) ((broadcastInDim S200000x32 ![] bcast_S_S200000x32) ((constant (F := Ideal) S_ .f32 0x00000000#32))) ((broadcastInDim S3200000x1 ![0] bcast_S3200000_S3200000x1_0) (shapeCast S3200000 ((extractStridedSlice S1x3200000 ![1, 0] (V (main_arg3 : DevRef τ sig) : IVec S2x3200000 32) slices_S2x3200000_S1x3200000_1_0)) shapeCasts_S1x3200000_S3200000)) (((fun x i => Host.gather gather_S200000x32_S3200000x1_S3200000x32_1_0_n_n_0_1_132 x i)) (V (main_v103 : DevRef τ sig) : FVec Ideal S200000x32 .f32) ((broadcastInDim S3200000x1 ![0] bcast_S3200000_S3200000x1_0) ((select) ((cmpi .slt) (shapeCast S3200000 ((extractStridedSlice S1x3200000 ![0, 0] (V (main_arg3 : DevRef τ sig) : IVec S2x3200000 32) slices_S2x3200000_S1x3200000_0_0)) shapeCasts_S1x3200000_S3200000) ((broadcastInDim S3200000 ![] bcast_S_S3200000) ((constantI S_ 32 0#32)))) ((addi) (shapeCast S3200000 ((extractStridedSlice S1x3200000 ![0, 0] (V (main_arg3 : DevRef τ sig) : IVec S2x3200000 32) slices_S2x3200000_S1x3200000_0_0)) shapeCasts_S1x3200000_S3200000) ((broadcastInDim S3200000 ![] bcast_S_S3200000) ((constantI S_ 32 200000#32)))) (shapeCast S3200000 ((extractStridedSlice S1x3200000 ![0, 0] (V (main_arg3 : DevRef τ sig) : IVec S2x3200000 32) slices_S2x3200000_S1x3200000_0_0)) shapeCasts_S1x3200000_S3200000)))))) := by
  after_results_simp
  rfl
/-- The input of layer block 5's first region is the specification's layer input of the block's features, edges and eps. -/
theorem pre_5 (V : Valuation τ sig (Elt Ideal)) :
    after (hostOps10 (F := Ideal)) V (main_v147 : DevRef τ sig) = Cert.Spec.pre32 (V (main_v103 : DevRef τ sig) : FVec Ideal S200000x32 .f32) (V (main_arg3 : DevRef τ sig) : IVec S2x3200000 32) (V (main_arg20 : DevRef τ sig) : FVec Ideal S_ .f32) :=
  (pre_5_raw V).trans rfl
set_option maxHeartbeats 4000000 in
theorem mu_5_raw (V : Valuation τ sig (Elt Ideal)) :
    after (hostOps11 (F := Ideal)) V (main_v150 : DevRef τ sig)
      = ((Host.divf (F := Ideal)) (V (main_v148_1 : DevRef τ sig) : FVec Ideal S1x16 .f32) ((broadcastInDim S1x16 ![] bcast_S_S1x16) ((constant (F := Ideal) S_ .f32 0x48435000#32)))) := by
  after_results_simp
  try rfl
theorem mu_5 (V : Valuation τ sig (Elt Ideal)) :
    after (hostOps11 (F := Ideal)) V (main_v150 : DevRef τ sig) = Cert.Spec.statsMu16 (V (main_v148_1 : DevRef τ sig) : FVec Ideal S1x16 .f32) :=
  (mu_5_raw V).trans rfl
set_option maxHeartbeats 4000000 in
theorem var_5_raw (V : Valuation τ sig (Elt Ideal)) :
    after (hostOps11 (F := Ideal)) V (main_v154 : DevRef τ sig)
      = ((subf) ((Host.divf (F := Ideal)) (V (main_v148_2 : DevRef τ sig) : FVec Ideal S1x16 .f32) ((broadcastInDim S1x16 ![] bcast_S_S1x16) ((constant (F := Ideal) S_ .f32 0x48435000#32)))) ((mulf) ((Host.divf (F := Ideal)) (V (main_v148_1 : DevRef τ sig) : FVec Ideal S1x16 .f32) ((broadcastInDim S1x16 ![] bcast_S_S1x16) ((constant (F := Ideal) S_ .f32 0x48435000#32)))) ((Host.divf (F := Ideal)) (V (main_v148_1 : DevRef τ sig) : FVec Ideal S1x16 .f32) ((broadcastInDim S1x16 ![] bcast_S_S1x16) ((constant (F := Ideal) S_ .f32 0x48435000#32)))))) := by
  after_results_simp
  try rfl
theorem var_5 (V : Valuation τ sig (Elt Ideal)) :
    after (hostOps11 (F := Ideal)) V (main_v154 : DevRef τ sig) = Cert.Spec.statsVar16 (V (main_v148_1 : DevRef τ sig) : FVec Ideal S1x16 .f32) (V (main_v148_2 : DevRef τ sig) : FVec Ideal S1x16 .f32) :=
  (var_5_raw V).trans rfl

variable {F : FTy → Type} [FloatOps F]

/-- The operations after the last region that pool side i: the first 54 of the stretch. -/
abbrev tailI : List (HloOp τ sig (Elt F)) :=
  [ StableHlo.nullary main_cst_34 (constant S_ .f32 0x3F800000#32),
    StableHlo.unary main_cst_34 main_v156 (broadcastInDim S200000x1 ![] bcast_S_S200000x1 : (⟨S_, .f32⟩ : BufTy).Contents (Elt F) → (⟨S200000x1, .f32⟩ : BufTy).Contents (Elt F)),
    StableHlo.nullary main_cst_35 (constant S_ .f32 0x00000000#32),
    StableHlo.unary main_cst_35 main_v157 (broadcastInDim S1000x1 ![] bcast_S_S1000x1 : (⟨S_, .f32⟩ : BufTy).Contents (Elt F) → (⟨S1000x1, .f32⟩ : BufTy).Contents (Elt F)),
    StableHlo.unary main_arg4 main_v158 (broadcastInDim S200000x1 ![0] bcast_S200000_S200000x1_0 : (⟨S200000, .i32⟩ : BufTy).Contents (Elt F) → (⟨S200000x1, .i32⟩ : BufTy).Contents (Elt F)),
    StableHlo.ternary main_v157 main_v158 main_v156 main_v159 ((fun x i u => Host.scatterAdd scatter_S1000x1_S200000x1_S200000x1_1_0_0_1 x i u) : (⟨S1000x1, .f32⟩ : BufTy).Contents (Elt F) → (⟨S200000x1, .i32⟩ : BufTy).Contents (Elt F) → (⟨S200000x1, .f32⟩ : BufTy).Contents (Elt F) → (⟨S1000x1, .f32⟩ : BufTy).Contents (Elt F)),
    StableHlo.nullary main_cst_36 (constant S_ .f32 0x00000000#32),
    StableHlo.unary main_cst_36 main_v160 (broadcastInDim S1000x16 ![] bcast_S_S1000x16 : (⟨S_, .f32⟩ : BufTy).Contents (Elt F) → (⟨S1000x16, .f32⟩ : BufTy).Contents (Elt F)),
    StableHlo.unary main_arg4 main_v161 (broadcastInDim S200000x1 ![0] bcast_S200000_S200000x1_0 : (⟨S200000, .i32⟩ : BufTy).Contents (Elt F) → (⟨S200000x1, .i32⟩ : BufTy).Contents (Elt F)),
    StableHlo.ternary main_v160 main_v161 main_v129 main_v162 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.nullary main_cst_37 (constant S_ .f32 0x3F800000#32),
    StableHlo.unary main_cst_37 main_v163 (broadcastInDim S1000x1 ![] bcast_S_S1000x1 : (⟨S_, .f32⟩ : BufTy).Contents (Elt F) → (⟨S1000x1, .f32⟩ : BufTy).Contents (Elt F)),
    StableHlo.binary main_v159 main_v163 main_v164 (maximumf : (⟨S1000x1, .f32⟩ : BufTy).Contents (Elt F) → (⟨S1000x1, .f32⟩ : BufTy).Contents (Elt F) → (⟨S1000x1, .f32⟩ : BufTy).Contents (Elt F)),
    StableHlo.unary main_v164 main_v165 (broadcastInDim S1000x16 ![0, 1] bcast_S1000x1_S1000x16_0_1 : (⟨S1000x1, .f32⟩ : BufTy).Contents (Elt F) → (⟨S1000x16, .f32⟩ : BufTy).Contents (Elt F)),
    StableHlo.binary main_v162 main_v165 main_v166 (Host.divf : (⟨S1000x16, .f32⟩ : BufTy).Contents (Elt F) → (⟨S1000x16, .f32⟩ : BufTy).Contents (Elt F) → (⟨S1000x16, .f32⟩ : BufTy).Contents (Elt F)),
    StableHlo.binary main_v166 main_arg27 main_v167 ((fun l r => Host.dotGeneral dot_S1000x16_S16x16_S1000x16_1_0_0_1_n_n none l r) : (⟨S1000x16, .f32⟩ : BufTy).Contents (Elt F) → (⟨S16x16, .f32⟩ : BufTy).Contents (Elt F) → (⟨S1000x16, .f32⟩ : BufTy).Contents (Elt F)),
    StableHlo.unary main_arg28 main_v168 (broadcastInDim S1x16 ![1] bcast_S16_S1x16_1 : (⟨S16, .f32⟩ : BufTy).Contents (Elt F) → (⟨S1x16, .f32⟩ : BufTy).Contents (Elt F)),
    StableHlo.unary main_v168 main_v169 (broadcastInDim S1000x16 ![0, 1] bcast_S1x16_S1000x16_0_1 : (⟨S1x16, .f32⟩ : BufTy).Contents (Elt F) → (⟨S1000x16, .f32⟩ : BufTy).Contents (Elt F)),
    StableHlo.binary main_v167 main_v169 main_v170 (addf : (⟨S1000x16, .f32⟩ : BufTy).Contents (Elt F) → (⟨S1000x16, .f32⟩ : BufTy).Contents (Elt F) → (⟨S1000x16, .f32⟩ : BufTy).Contents (Elt F)),
    StableHlo.unary main_v170 main_v171 (Host.negf : (⟨S1000x16, .f32⟩ : BufTy).Contents (Elt F) → (⟨S1000x16, .f32⟩ : BufTy).Contents (Elt F)),
    StableHlo.unary main_v171 main_v172 (Host.exp : (⟨S1000x16, .f32⟩ : BufTy).Contents (Elt F) → (⟨S1000x16, .f32⟩ : BufTy).Contents (Elt F)),
    StableHlo.nullary main_cst_38 (constant S_ .f32 0x3F800000#32),
    StableHlo.unary main_cst_38 main_v173 (broadcastInDim S1000x16 ![] bcast_S_S1000x16 : (⟨S_, .f32⟩ : BufTy).Contents (Elt F) → (⟨S1000x16, .f32⟩ : BufTy).Contents (Elt F)),
    StableHlo.binary main_v173 main_v172 main_v174 (addf : (⟨S1000x16, .f32⟩ : BufTy).Contents (Elt F) → (⟨S1000x16, .f32⟩ : BufTy).Contents (Elt F) → (⟨S1000x16, .f32⟩ : BufTy).Contents (Elt F)),
    StableHlo.nullary main_cst_39 (constant S_ .f32 0x3F800000#32),
    StableHlo.unary main_cst_39 main_v175 (broadcastInDim S1000x16 ![] bcast_S_S1000x16 : (⟨S_, .f32⟩ : BufTy).Contents (Elt F) → (⟨S1000x16, .f32⟩ : BufTy).Contents (Elt F)),
    StableHlo.binary main_v175 main_v174 main_v176 (Host.divf : (⟨S1000x16, .f32⟩ : BufTy).Contents (Elt F) → (⟨S1000x16, .f32⟩ : BufTy).Contents (Elt F) → (⟨S1000x16, .f32⟩ : BufTy).Contents (Elt F)),
    StableHlo.nullary main_c_40 (constantI S_ 32 0#32),
    StableHlo.unary main_c_40 main_v177 (broadcastInDim S200000 ![] bcast_S_S200000 : (⟨S_, .i32⟩ : BufTy).Contents (Elt F) → (⟨S200000, .i32⟩ : BufTy).Contents (Elt F)),
    StableHlo.binary main_arg4 main_v177 main_v178 (cmpi .slt : (⟨S200000, .i32⟩ : BufTy).Contents (Elt F) → (⟨S200000, .i32⟩ : BufTy).Contents (Elt F) → (⟨S200000, .i1⟩ : BufTy).Contents (Elt F)),
    StableHlo.nullary main_c_41 (constantI S_ 32 1000#32),
    StableHlo.unary main_c_41 main_v179 (broadcastInDim S200000 ![] bcast_S_S200000 : (⟨S_, .i32⟩ : BufTy).Contents (Elt F) → (⟨S200000, .i32⟩ : BufTy).Contents (Elt F)),
    StableHlo.binary main_arg4 main_v179 main_v180 (addi : (⟨S200000, .i32⟩ : BufTy).Contents (Elt F) → (⟨S200000, .i32⟩ : BufTy).Contents (Elt F) → (⟨S200000, .i32⟩ : BufTy).Contents (Elt F)),
    StableHlo.ternary main_v178 main_v180 main_arg4 main_v181 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v181 main_v182 (broadcastInDim S200000x1 ![0] bcast_S200000_S200000x1_0 : (⟨S200000, .i32⟩ : BufTy).Contents (Elt F) → (⟨S200000x1, .i32⟩ : BufTy).Contents (Elt F)),
    StableHlo.binary main_v176 main_v182 main_v183 ((fun x i => Host.gather gather_S1000x16_S200000x1_S200000x16_1_0_n_n_0_1_116 x i) : (⟨S1000x16, .f32⟩ : BufTy).Contents (Elt F) → (⟨S200000x1, .i32⟩ : BufTy).Contents (Elt F) → (⟨S200000x16, .f32⟩ : BufTy).Contents (Elt F)),
    StableHlo.binary main_v129 main_v183 main_v184 (mulf : (⟨S200000x16, .f32⟩ : BufTy).Contents (Elt F) → (⟨S200000x16, .f32⟩ : BufTy).Contents (Elt F) → (⟨S200000x16, .f32⟩ : BufTy).Contents (Elt F)),
    StableHlo.nullary main_cst_42 (constant S_ .f32 0x00000000#32),
    StableHlo.binary main_v184 main_cst_42 main_v185 ((fun x v => Host.reduceAdd x v reducesTo_S200000x16_S200000_d1 h_S_) : (⟨S200000x16, .f32⟩ : BufTy).Contents (Elt F) → (⟨S_, .f32⟩ : BufTy).Contents (Elt F) → (⟨S200000, .f32⟩ : BufTy).Contents (Elt F)),
    StableHlo.unary main_v185 main_v186 (broadcastInDim S200000x1 ![0] bcast_S200000_S200000x1_0 : (⟨S200000, .f32⟩ : BufTy).Contents (Elt F) → (⟨S200000x1, .f32⟩ : BufTy).Contents (Elt F)),
    StableHlo.unary main_v186 main_v187 (Host.negf : (⟨S200000x1, .f32⟩ : BufTy).Contents (Elt F) → (⟨S200000x1, .f32⟩ : BufTy).Contents (Elt F)),
    StableHlo.unary main_v187 main_v188 (Host.exp : (⟨S200000x1, .f32⟩ : BufTy).Contents (Elt F) → (⟨S200000x1, .f32⟩ : BufTy).Contents (Elt F)),
    StableHlo.nullary main_cst_43 (constant S_ .f32 0x3F800000#32),
    StableHlo.unary main_cst_43 main_v189 (broadcastInDim S200000x1 ![] bcast_S_S200000x1 : (⟨S_, .f32⟩ : BufTy).Contents (Elt F) → (⟨S200000x1, .f32⟩ : BufTy).Contents (Elt F)),
    StableHlo.binary main_v189 main_v188 main_v190 (addf : (⟨S200000x1, .f32⟩ : BufTy).Contents (Elt F) → (⟨S200000x1, .f32⟩ : BufTy).Contents (Elt F) → (⟨S200000x1, .f32⟩ : BufTy).Contents (Elt F)),
    StableHlo.nullary main_cst_44 (constant S_ .f32 0x3F800000#32),
    StableHlo.unary main_cst_44 main_v191 (broadcastInDim S200000x1 ![] bcast_S_S200000x1 : (⟨S_, .f32⟩ : BufTy).Contents (Elt F) → (⟨S200000x1, .f32⟩ : BufTy).Contents (Elt F)),
    StableHlo.binary main_v191 main_v190 main_v192 (Host.divf : (⟨S200000x1, .f32⟩ : BufTy).Contents (Elt F) → (⟨S200000x1, .f32⟩ : BufTy).Contents (Elt F) → (⟨S200000x1, .f32⟩ : BufTy).Contents (Elt F)),
    StableHlo.unary main_v192 main_v193 (broadcastInDim S200000x16 ![0, 1] bcast_S200000x1_S200000x16_0_1 : (⟨S200000x1, .f32⟩ : BufTy).Contents (Elt F) → (⟨S200000x16, .f32⟩ : BufTy).Contents (Elt F)),
    StableHlo.binary main_v193 main_v129 main_v194 (mulf : (⟨S200000x16, .f32⟩ : BufTy).Contents (Elt F) → (⟨S200000x16, .f32⟩ : BufTy).Contents (Elt F) → (⟨S200000x16, .f32⟩ : BufTy).Contents (Elt F)),
    StableHlo.nullary main_cst_45 (constant S_ .f32 0x00000000#32),
    StableHlo.unary main_cst_45 main_v195 (broadcastInDim S1000x16 ![] bcast_S_S1000x16 : (⟨S_, .f32⟩ : BufTy).Contents (Elt F) → (⟨S1000x16, .f32⟩ : BufTy).Contents (Elt F)),
    StableHlo.unary main_arg4 main_v196 (broadcastInDim S200000x1 ![0] bcast_S200000_S200000x1_0 : (⟨S200000, .i32⟩ : BufTy).Contents (Elt F) → (⟨S200000x1, .i32⟩ : BufTy).Contents (Elt F)),
    StableHlo.ternary main_v195 main_v196 main_v194 main_v197 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)) ]

/-- The next 54: they pool side j. -/
abbrev tailJ : List (HloOp τ sig (Elt F)) :=
  [ StableHlo.nullary main_cst_46 (constant S_ .f32 0x3F800000#32),
    StableHlo.unary main_cst_46 main_v198 (broadcastInDim S200000x1 ![] bcast_S_S200000x1 : (⟨S_, .f32⟩ : BufTy).Contents (Elt F) → (⟨S200000x1, .f32⟩ : BufTy).Contents (Elt F)),
    StableHlo.nullary main_cst_47 (constant S_ .f32 0x00000000#32),
    StableHlo.unary main_cst_47 main_v199 (broadcastInDim S1000x1 ![] bcast_S_S1000x1 : (⟨S_, .f32⟩ : BufTy).Contents (Elt F) → (⟨S1000x1, .f32⟩ : BufTy).Contents (Elt F)),
    StableHlo.unary main_arg5 main_v200 (broadcastInDim S200000x1 ![0] bcast_S200000_S200000x1_0 : (⟨S200000, .i32⟩ : BufTy).Contents (Elt F) → (⟨S200000x1, .i32⟩ : BufTy).Contents (Elt F)),
    StableHlo.ternary main_v199 main_v200 main_v198 main_v201 ((fun x i u => Host.scatterAdd scatter_S1000x1_S200000x1_S200000x1_1_0_0_1 x i u) : (⟨S1000x1, .f32⟩ : BufTy).Contents (Elt F) → (⟨S200000x1, .i32⟩ : BufTy).Contents (Elt F) → (⟨S200000x1, .f32⟩ : BufTy).Contents (Elt F) → (⟨S1000x1, .f32⟩ : BufTy).Contents (Elt F)),
    StableHlo.nullary main_cst_48 (constant S_ .f32 0x00000000#32),
    StableHlo.unary main_cst_48 main_v202 (broadcastInDim S1000x16 ![] bcast_S_S1000x16 : (⟨S_, .f32⟩ : BufTy).Contents (Elt F) → (⟨S1000x16, .f32⟩ : BufTy).Contents (Elt F)),
    StableHlo.unary main_arg5 main_v203 (broadcastInDim S200000x1 ![0] bcast_S200000_S200000x1_0 : (⟨S200000, .i32⟩ : BufTy).Contents (Elt F) → (⟨S200000x1, .i32⟩ : BufTy).Contents (Elt F)),
    StableHlo.ternary main_v202 main_v203 main_v155 main_v204 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.nullary main_cst_49 (constant S_ .f32 0x3F800000#32),
    StableHlo.unary main_cst_49 main_v205 (broadcastInDim S1000x1 ![] bcast_S_S1000x1 : (⟨S_, .f32⟩ : BufTy).Contents (Elt F) → (⟨S1000x1, .f32⟩ : BufTy).Contents (Elt F)),
    StableHlo.binary main_v201 main_v205 main_v206 (maximumf : (⟨S1000x1, .f32⟩ : BufTy).Contents (Elt F) → (⟨S1000x1, .f32⟩ : BufTy).Contents (Elt F) → (⟨S1000x1, .f32⟩ : BufTy).Contents (Elt F)),
    StableHlo.unary main_v206 main_v207 (broadcastInDim S1000x16 ![0, 1] bcast_S1000x1_S1000x16_0_1 : (⟨S1000x1, .f32⟩ : BufTy).Contents (Elt F) → (⟨S1000x16, .f32⟩ : BufTy).Contents (Elt F)),
    StableHlo.binary main_v204 main_v207 main_v208 (Host.divf : (⟨S1000x16, .f32⟩ : BufTy).Contents (Elt F) → (⟨S1000x16, .f32⟩ : BufTy).Contents (Elt F) → (⟨S1000x16, .f32⟩ : BufTy).Contents (Elt F)),
    StableHlo.binary main_v208 main_arg27 main_v209 ((fun l r => Host.dotGeneral dot_S1000x16_S16x16_S1000x16_1_0_0_1_n_n none l r) : (⟨S1000x16, .f32⟩ : BufTy).Contents (Elt F) → (⟨S16x16, .f32⟩ : BufTy).Contents (Elt F) → (⟨S1000x16, .f32⟩ : BufTy).Contents (Elt F)),
    StableHlo.unary main_arg28 main_v210 (broadcastInDim S1x16 ![1] bcast_S16_S1x16_1 : (⟨S16, .f32⟩ : BufTy).Contents (Elt F) → (⟨S1x16, .f32⟩ : BufTy).Contents (Elt F)),
    StableHlo.unary main_v210 main_v211 (broadcastInDim S1000x16 ![0, 1] bcast_S1x16_S1000x16_0_1 : (⟨S1x16, .f32⟩ : BufTy).Contents (Elt F) → (⟨S1000x16, .f32⟩ : BufTy).Contents (Elt F)),
    StableHlo.binary main_v209 main_v211 main_v212 (addf : (⟨S1000x16, .f32⟩ : BufTy).Contents (Elt F) → (⟨S1000x16, .f32⟩ : BufTy).Contents (Elt F) → (⟨S1000x16, .f32⟩ : BufTy).Contents (Elt F)),
    StableHlo.unary main_v212 main_v213 (Host.negf : (⟨S1000x16, .f32⟩ : BufTy).Contents (Elt F) → (⟨S1000x16, .f32⟩ : BufTy).Contents (Elt F)),
    StableHlo.unary main_v213 main_v214 (Host.exp : (⟨S1000x16, .f32⟩ : BufTy).Contents (Elt F) → (⟨S1000x16, .f32⟩ : BufTy).Contents (Elt F)),
    StableHlo.nullary main_cst_50 (constant S_ .f32 0x3F800000#32),
    StableHlo.unary main_cst_50 main_v215 (broadcastInDim S1000x16 ![] bcast_S_S1000x16 : (⟨S_, .f32⟩ : BufTy).Contents (Elt F) → (⟨S1000x16, .f32⟩ : BufTy).Contents (Elt F)),
    StableHlo.binary main_v215 main_v214 main_v216 (addf : (⟨S1000x16, .f32⟩ : BufTy).Contents (Elt F) → (⟨S1000x16, .f32⟩ : BufTy).Contents (Elt F) → (⟨S1000x16, .f32⟩ : BufTy).Contents (Elt F)),
    StableHlo.nullary main_cst_51 (constant S_ .f32 0x3F800000#32),
    StableHlo.unary main_cst_51 main_v217 (broadcastInDim S1000x16 ![] bcast_S_S1000x16 : (⟨S_, .f32⟩ : BufTy).Contents (Elt F) → (⟨S1000x16, .f32⟩ : BufTy).Contents (Elt F)),
    StableHlo.binary main_v217 main_v216 main_v218 (Host.divf : (⟨S1000x16, .f32⟩ : BufTy).Contents (Elt F) → (⟨S1000x16, .f32⟩ : BufTy).Contents (Elt F) → (⟨S1000x16, .f32⟩ : BufTy).Contents (Elt F)),
    StableHlo.nullary main_c_52 (constantI S_ 32 0#32),
    StableHlo.unary main_c_52 main_v219 (broadcastInDim S200000 ![] bcast_S_S200000 : (⟨S_, .i32⟩ : BufTy).Contents (Elt F) → (⟨S200000, .i32⟩ : BufTy).Contents (Elt F)),
    StableHlo.binary main_arg5 main_v219 main_v220 (cmpi .slt : (⟨S200000, .i32⟩ : BufTy).Contents (Elt F) → (⟨S200000, .i32⟩ : BufTy).Contents (Elt F) → (⟨S200000, .i1⟩ : BufTy).Contents (Elt F)),
    StableHlo.nullary main_c_53 (constantI S_ 32 1000#32),
    StableHlo.unary main_c_53 main_v221 (broadcastInDim S200000 ![] bcast_S_S200000 : (⟨S_, .i32⟩ : BufTy).Contents (Elt F) → (⟨S200000, .i32⟩ : BufTy).Contents (Elt F)),
    StableHlo.binary main_arg5 main_v221 main_v222 (addi : (⟨S200000, .i32⟩ : BufTy).Contents (Elt F) → (⟨S200000, .i32⟩ : BufTy).Contents (Elt F) → (⟨S200000, .i32⟩ : BufTy).Contents (Elt F)),
    StableHlo.ternary main_v220 main_v222 main_arg5 main_v223 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v223 main_v224 (broadcastInDim S200000x1 ![0] bcast_S200000_S200000x1_0 : (⟨S200000, .i32⟩ : BufTy).Contents (Elt F) → (⟨S200000x1, .i32⟩ : BufTy).Contents (Elt F)),
    StableHlo.binary main_v218 main_v224 main_v225 ((fun x i => Host.gather gather_S1000x16_S200000x1_S200000x16_1_0_n_n_0_1_116 x i) : (⟨S1000x16, .f32⟩ : BufTy).Contents (Elt F) → (⟨S200000x1, .i32⟩ : BufTy).Contents (Elt F) → (⟨S200000x16, .f32⟩ : BufTy).Contents (Elt F)),
    StableHlo.binary main_v155 main_v225 main_v226 (mulf : (⟨S200000x16, .f32⟩ : BufTy).Contents (Elt F) → (⟨S200000x16, .f32⟩ : BufTy).Contents (Elt F) → (⟨S200000x16, .f32⟩ : BufTy).Contents (Elt F)),
    StableHlo.nullary main_cst_54 (constant S_ .f32 0x00000000#32),
    StableHlo.binary main_v226 main_cst_54 main_v227 ((fun x v => Host.reduceAdd x v reducesTo_S200000x16_S200000_d1 h_S_) : (⟨S200000x16, .f32⟩ : BufTy).Contents (Elt F) → (⟨S_, .f32⟩ : BufTy).Contents (Elt F) → (⟨S200000, .f32⟩ : BufTy).Contents (Elt F)),
    StableHlo.unary main_v227 main_v228 (broadcastInDim S200000x1 ![0] bcast_S200000_S200000x1_0 : (⟨S200000, .f32⟩ : BufTy).Contents (Elt F) → (⟨S200000x1, .f32⟩ : BufTy).Contents (Elt F)),
    StableHlo.unary main_v228 main_v229 (Host.negf : (⟨S200000x1, .f32⟩ : BufTy).Contents (Elt F) → (⟨S200000x1, .f32⟩ : BufTy).Contents (Elt F)),
    StableHlo.unary main_v229 main_v230 (Host.exp : (⟨S200000x1, .f32⟩ : BufTy).Contents (Elt F) → (⟨S200000x1, .f32⟩ : BufTy).Contents (Elt F)),
    StableHlo.nullary main_cst_55 (constant S_ .f32 0x3F800000#32),
    StableHlo.unary main_cst_55 main_v231 (broadcastInDim S200000x1 ![] bcast_S_S200000x1 : (⟨S_, .f32⟩ : BufTy).Contents (Elt F) → (⟨S200000x1, .f32⟩ : BufTy).Contents (Elt F)),
    StableHlo.binary main_v231 main_v230 main_v232 (addf : (⟨S200000x1, .f32⟩ : BufTy).Contents (Elt F) → (⟨S200000x1, .f32⟩ : BufTy).Contents (Elt F) → (⟨S200000x1, .f32⟩ : BufTy).Contents (Elt F)),
    StableHlo.nullary main_cst_56 (constant S_ .f32 0x3F800000#32),
    StableHlo.unary main_cst_56 main_v233 (broadcastInDim S200000x1 ![] bcast_S_S200000x1 : (⟨S_, .f32⟩ : BufTy).Contents (Elt F) → (⟨S200000x1, .f32⟩ : BufTy).Contents (Elt F)),
    StableHlo.binary main_v233 main_v232 main_v234 (Host.divf : (⟨S200000x1, .f32⟩ : BufTy).Contents (Elt F) → (⟨S200000x1, .f32⟩ : BufTy).Contents (Elt F) → (⟨S200000x1, .f32⟩ : BufTy).Contents (Elt F)),
    StableHlo.unary main_v234 main_v235 (broadcastInDim S200000x16 ![0, 1] bcast_S200000x1_S200000x16_0_1 : (⟨S200000x1, .f32⟩ : BufTy).Contents (Elt F) → (⟨S200000x16, .f32⟩ : BufTy).Contents (Elt F)),
    StableHlo.binary main_v235 main_v155 main_v236 (mulf : (⟨S200000x16, .f32⟩ : BufTy).Contents (Elt F) → (⟨S200000x16, .f32⟩ : BufTy).Contents (Elt F) → (⟨S200000x16, .f32⟩ : BufTy).Contents (Elt F)),
    StableHlo.nullary main_cst_57 (constant S_ .f32 0x00000000#32),
    StableHlo.unary main_cst_57 main_v237 (broadcastInDim S1000x16 ![] bcast_S_S1000x16 : (⟨S_, .f32⟩ : BufTy).Contents (Elt F) → (⟨S1000x16, .f32⟩ : BufTy).Contents (Elt F)),
    StableHlo.unary main_arg5 main_v238 (broadcastInDim S200000x1 ![0] bcast_S200000_S200000x1_0 : (⟨S200000, .i32⟩ : BufTy).Contents (Elt F) → (⟨S200000x1, .i32⟩ : BufTy).Contents (Elt F)),
    StableHlo.ternary main_v237 main_v238 main_v236 main_v239 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)) ]

/-- The rest of the program: the three pairwise heads, the two differences and the score. -/
abbrev tailH : List (HloOp τ sig (Elt F)) :=
  [ StableHlo.binary main_v197 main_v239 main_v240 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v240 main_arg29 main_v241 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v242 (broadcastInDim S1x8 ![1] bcast_S8_S1x8_1 : (⟨S8, .f32⟩ : BufTy).Contents (Elt F) → (⟨S1x8, .f32⟩ : BufTy).Contents (Elt F)),
    StableHlo.unary main_v242 main_v243 (broadcastInDim S1000x8 ![0, 1] bcast_S1x8_S1000x8_0_1 : (⟨S1x8, .f32⟩ : BufTy).Contents (Elt F) → (⟨S1000x8, .f32⟩ : BufTy).Contents (Elt F)),
    StableHlo.binary main_v241 main_v243 main_v244 (addf : (⟨S1000x8, .f32⟩ : BufTy).Contents (Elt F) → (⟨S1000x8, .f32⟩ : BufTy).Contents (Elt F) → (⟨S1000x8, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1000x8, .f32⟩) (broadcastInDim S1000x8 ![] bcast_S_S1000x8),
    StableHlo.TRef.binary (.of main_v244 : StableHlo.TRef sig ⟨S1000x8, .f32⟩) (.of main_call0_v0 : StableHlo.TRef sig ⟨S1000x8, .f32⟩) (.of main_v245 : StableHlo.TRef sig ⟨S1000x8, .f32⟩) maximumf,
    StableHlo.binary main_v245 main_arg31 main_v246 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v247 (broadcastInDim S1x32 ![1] bcast_S32_S1x32_1 : (⟨S32, .f32⟩ : BufTy).Contents (Elt F) → (⟨S1x32, .f32⟩ : BufTy).Contents (Elt F)),
    StableHlo.unary main_v247 main_v248 (broadcastInDim S1000x32 ![0, 1] bcast_S1x32_S1000x32_0_1 : (⟨S1x32, .f32⟩ : BufTy).Contents (Elt F) → (⟨S1000x32, .f32⟩ : BufTy).Contents (Elt F)),
    StableHlo.binary main_v246 main_v248 main_v249 (addf : (⟨S1000x32, .f32⟩ : BufTy).Contents (Elt F) → (⟨S1000x32, .f32⟩ : BufTy).Contents (Elt F) → (⟨S1000x32, .f32⟩ : BufTy).Contents (Elt F)),
    StableHlo.unary main_v249 main_v250 (Host.tanh : (⟨S1000x32, .f32⟩ : BufTy).Contents (Elt F) → (⟨S1000x32, .f32⟩ : BufTy).Contents (Elt F)),
    StableHlo.binary main_v250 main_v240 main_v251 (mulf : (⟨S1000x32, .f32⟩ : BufTy).Contents (Elt F) → (⟨S1000x32, .f32⟩ : BufTy).Contents (Elt F) → (⟨S1000x32, .f32⟩ : BufTy).Contents (Elt F)),
    StableHlo.binary main_v251 main_v240 main_v252 (addf : (⟨S1000x32, .f32⟩ : BufTy).Contents (Elt F) → (⟨S1000x32, .f32⟩ : BufTy).Contents (Elt F) → (⟨S1000x32, .f32⟩ : BufTy).Contents (Elt F)),
    StableHlo.binary main_v252 main_arg33 main_v253 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v254 (broadcastInDim S1x16 ![1] bcast_S16_S1x16_1 : (⟨S16, .f32⟩ : BufTy).Contents (Elt F) → (⟨S1x16, .f32⟩ : BufTy).Contents (Elt F)),
    StableHlo.unary main_v254 main_v255 (broadcastInDim S1000x16 ![0, 1] bcast_S1x16_S1000x16_0_1 : (⟨S1x16, .f32⟩ : BufTy).Contents (Elt F) → (⟨S1000x16, .f32⟩ : BufTy).Contents (Elt F)),
    StableHlo.binary main_v253 main_v255 main_v256 (addf : (⟨S1000x16, .f32⟩ : BufTy).Contents (Elt F) → (⟨S1000x16, .f32⟩ : BufTy).Contents (Elt F) → (⟨S1000x16, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S1000x16, .f32⟩) (broadcastInDim S1000x16 ![] bcast_S_S1000x16),
    StableHlo.TRef.binary (.of main_v256 : StableHlo.TRef sig ⟨S1000x16, .f32⟩) (.of main_call1_v0 : StableHlo.TRef sig ⟨S1000x16, .f32⟩) (.of main_v257 : StableHlo.TRef sig ⟨S1000x16, .f32⟩) maximumf,
    StableHlo.binary main_v197 main_v197 main_v258 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v258 main_arg29 main_v259 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v260 (broadcastInDim S1x8 ![1] bcast_S8_S1x8_1 : (⟨S8, .f32⟩ : BufTy).Contents (Elt F) → (⟨S1x8, .f32⟩ : BufTy).Contents (Elt F)),
    StableHlo.unary main_v260 main_v261 (broadcastInDim S1000x8 ![0, 1] bcast_S1x8_S1000x8_0_1 : (⟨S1x8, .f32⟩ : BufTy).Contents (Elt F) → (⟨S1000x8, .f32⟩ : BufTy).Contents (Elt F)),
    StableHlo.binary main_v259 main_v261 main_v262 (addf : (⟨S1000x8, .f32⟩ : BufTy).Contents (Elt F) → (⟨S1000x8, .f32⟩ : BufTy).Contents (Elt F) → (⟨S1000x8, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S1000x8, .f32⟩) (broadcastInDim S1000x8 ![] bcast_S_S1000x8),
    StableHlo.TRef.binary (.of main_v262 : StableHlo.TRef sig ⟨S1000x8, .f32⟩) (.of main_call2_v0 : StableHlo.TRef sig ⟨S1000x8, .f32⟩) (.of main_v263 : StableHlo.TRef sig ⟨S1000x8, .f32⟩) maximumf,
    StableHlo.binary main_v263 main_arg31 main_v264 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v265 (broadcastInDim S1x32 ![1] bcast_S32_S1x32_1 : (⟨S32, .f32⟩ : BufTy).Contents (Elt F) → (⟨S1x32, .f32⟩ : BufTy).Contents (Elt F)),
    StableHlo.unary main_v265 main_v266 (broadcastInDim S1000x32 ![0, 1] bcast_S1x32_S1000x32_0_1 : (⟨S1x32, .f32⟩ : BufTy).Contents (Elt F) → (⟨S1000x32, .f32⟩ : BufTy).Contents (Elt F)),
    StableHlo.binary main_v264 main_v266 main_v267 (addf : (⟨S1000x32, .f32⟩ : BufTy).Contents (Elt F) → (⟨S1000x32, .f32⟩ : BufTy).Contents (Elt F) → (⟨S1000x32, .f32⟩ : BufTy).Contents (Elt F)),
    StableHlo.unary main_v267 main_v268 (Host.tanh : (⟨S1000x32, .f32⟩ : BufTy).Contents (Elt F) → (⟨S1000x32, .f32⟩ : BufTy).Contents (Elt F)),
    StableHlo.binary main_v268 main_v258 main_v269 (mulf : (⟨S1000x32, .f32⟩ : BufTy).Contents (Elt F) → (⟨S1000x32, .f32⟩ : BufTy).Contents (Elt F) → (⟨S1000x32, .f32⟩ : BufTy).Contents (Elt F)),
    StableHlo.binary main_v269 main_v258 main_v270 (addf : (⟨S1000x32, .f32⟩ : BufTy).Contents (Elt F) → (⟨S1000x32, .f32⟩ : BufTy).Contents (Elt F) → (⟨S1000x32, .f32⟩ : BufTy).Contents (Elt F)),
    StableHlo.binary main_v270 main_arg33 main_v271 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v272 (broadcastInDim S1x16 ![1] bcast_S16_S1x16_1 : (⟨S16, .f32⟩ : BufTy).Contents (Elt F) → (⟨S1x16, .f32⟩ : BufTy).Contents (Elt F)),
    StableHlo.unary main_v272 main_v273 (broadcastInDim S1000x16 ![0, 1] bcast_S1x16_S1000x16_0_1 : (⟨S1x16, .f32⟩ : BufTy).Contents (Elt F) → (⟨S1000x16, .f32⟩ : BufTy).Contents (Elt F)),
    StableHlo.binary main_v271 main_v273 main_v274 (addf : (⟨S1000x16, .f32⟩ : BufTy).Contents (Elt F) → (⟨S1000x16, .f32⟩ : BufTy).Contents (Elt F) → (⟨S1000x16, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1000x16, .f32⟩) (broadcastInDim S1000x16 ![] bcast_S_S1000x16),
    StableHlo.TRef.binary (.of main_v274 : StableHlo.TRef sig ⟨S1000x16, .f32⟩) (.of main_call3_v0 : StableHlo.TRef sig ⟨S1000x16, .f32⟩) (.of main_v275 : StableHlo.TRef sig ⟨S1000x16, .f32⟩) maximumf,
    StableHlo.binary main_v239 main_v239 main_v276 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v276 main_arg29 main_v277 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v278 (broadcastInDim S1x8 ![1] bcast_S8_S1x8_1 : (⟨S8, .f32⟩ : BufTy).Contents (Elt F) → (⟨S1x8, .f32⟩ : BufTy).Contents (Elt F)),
    StableHlo.unary main_v278 main_v279 (broadcastInDim S1000x8 ![0, 1] bcast_S1x8_S1000x8_0_1 : (⟨S1x8, .f32⟩ : BufTy).Contents (Elt F) → (⟨S1000x8, .f32⟩ : BufTy).Contents (Elt F)),
    StableHlo.binary main_v277 main_v279 main_v280 (addf : (⟨S1000x8, .f32⟩ : BufTy).Contents (Elt F) → (⟨S1000x8, .f32⟩ : BufTy).Contents (Elt F) → (⟨S1000x8, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S1000x8, .f32⟩) (broadcastInDim S1000x8 ![] bcast_S_S1000x8),
    StableHlo.TRef.binary (.of main_v280 : StableHlo.TRef sig ⟨S1000x8, .f32⟩) (.of main_call4_v0 : StableHlo.TRef sig ⟨S1000x8, .f32⟩) (.of main_v281 : StableHlo.TRef sig ⟨S1000x8, .f32⟩) maximumf,
    StableHlo.binary main_v281 main_arg31 main_v282 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v283 (broadcastInDim S1x32 ![1] bcast_S32_S1x32_1 : (⟨S32, .f32⟩ : BufTy).Contents (Elt F) → (⟨S1x32, .f32⟩ : BufTy).Contents (Elt F)),
    StableHlo.unary main_v283 main_v284 (broadcastInDim S1000x32 ![0, 1] bcast_S1x32_S1000x32_0_1 : (⟨S1x32, .f32⟩ : BufTy).Contents (Elt F) → (⟨S1000x32, .f32⟩ : BufTy).Contents (Elt F)),
    StableHlo.binary main_v282 main_v284 main_v285 (addf : (⟨S1000x32, .f32⟩ : BufTy).Contents (Elt F) → (⟨S1000x32, .f32⟩ : BufTy).Contents (Elt F) → (⟨S1000x32, .f32⟩ : BufTy).Contents (Elt F)),
    StableHlo.unary main_v285 main_v286 (Host.tanh : (⟨S1000x32, .f32⟩ : BufTy).Contents (Elt F) → (⟨S1000x32, .f32⟩ : BufTy).Contents (Elt F)),
    StableHlo.binary main_v286 main_v276 main_v287 (mulf : (⟨S1000x32, .f32⟩ : BufTy).Contents (Elt F) → (⟨S1000x32, .f32⟩ : BufTy).Contents (Elt F) → (⟨S1000x32, .f32⟩ : BufTy).Contents (Elt F)),
    StableHlo.binary main_v287 main_v276 main_v288 (addf : (⟨S1000x32, .f32⟩ : BufTy).Contents (Elt F) → (⟨S1000x32, .f32⟩ : BufTy).Contents (Elt F) → (⟨S1000x32, .f32⟩ : BufTy).Contents (Elt F)),
    StableHlo.binary main_v288 main_arg33 main_v289 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v290 (broadcastInDim S1x16 ![1] bcast_S16_S1x16_1 : (⟨S16, .f32⟩ : BufTy).Contents (Elt F) → (⟨S1x16, .f32⟩ : BufTy).Contents (Elt F)),
    StableHlo.unary main_v290 main_v291 (broadcastInDim S1000x16 ![0, 1] bcast_S1x16_S1000x16_0_1 : (⟨S1x16, .f32⟩ : BufTy).Contents (Elt F) → (⟨S1000x16, .f32⟩ : BufTy).Contents (Elt F)),
    StableHlo.binary main_v289 main_v291 main_v292 (addf : (⟨S1000x16, .f32⟩ : BufTy).Contents (Elt F) → (⟨S1000x16, .f32⟩ : BufTy).Contents (Elt F) → (⟨S1000x16, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S1000x16, .f32⟩) (broadcastInDim S1000x16 ![] bcast_S_S1000x16),
    StableHlo.TRef.binary (.of main_v292 : StableHlo.TRef sig ⟨S1000x16, .f32⟩) (.of main_call5_v0 : StableHlo.TRef sig ⟨S1000x16, .f32⟩) (.of main_v293 : StableHlo.TRef sig ⟨S1000x16, .f32⟩) maximumf,
    StableHlo.binary main_v257 main_v293 main_v294 (subf : (⟨S1000x16, .f32⟩ : BufTy).Contents (Elt F) → (⟨S1000x16, .f32⟩ : BufTy).Contents (Elt F) → (⟨S1000x16, .f32⟩ : BufTy).Contents (Elt F)),
    StableHlo.binary main_v257 main_v275 main_v295 (subf : (⟨S1000x16, .f32⟩ : BufTy).Contents (Elt F) → (⟨S1000x16, .f32⟩ : BufTy).Contents (Elt F) → (⟨S1000x16, .f32⟩ : BufTy).Contents (Elt F)),
    StableHlo.binary main_v257 main_arg35 main_v296 ((fun l r => Host.dotGeneral dot_S1000x16_S16x8_S1000x8_1_0_0_1_n_n none l r) : (⟨S1000x16, .f32⟩ : BufTy).Contents (Elt F) → (⟨S16x8, .f32⟩ : BufTy).Contents (Elt F) → (⟨S1000x8, .f32⟩ : BufTy).Contents (Elt F)),
    StableHlo.unary main_arg36 main_v297 (broadcastInDim S1x8 ![1] bcast_S8_S1x8_1 : (⟨S8, .f32⟩ : BufTy).Contents (Elt F) → (⟨S1x8, .f32⟩ : BufTy).Contents (Elt F)),
    StableHlo.unary main_v297 main_v298 (broadcastInDim S1000x8 ![0, 1] bcast_S1x8_S1000x8_0_1 : (⟨S1x8, .f32⟩ : BufTy).Contents (Elt F) → (⟨S1000x8, .f32⟩ : BufTy).Contents (Elt F)),
    StableHlo.binary main_v296 main_v298 main_v299 (addf : (⟨S1000x8, .f32⟩ : BufTy).Contents (Elt F) → (⟨S1000x8, .f32⟩ : BufTy).Contents (Elt F) → (⟨S1000x8, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S1000x8, .f32⟩) (broadcastInDim S1000x8 ![] bcast_S_S1000x8),
    StableHlo.TRef.binary (.of main_v299 : StableHlo.TRef sig ⟨S1000x8, .f32⟩) (.of main_call6_v0 : StableHlo.TRef sig ⟨S1000x8, .f32⟩) (.of main_v300 : StableHlo.TRef sig ⟨S1000x8, .f32⟩) maximumf,
    StableHlo.binary main_v300 main_arg37 main_v301 ((fun l r => Host.dotGeneral dot_S1000x8_S8x1_S1000x1_1_0_0_1_n_n none l r) : (⟨S1000x8, .f32⟩ : BufTy).Contents (Elt F) → (⟨S8x1, .f32⟩ : BufTy).Contents (Elt F) → (⟨S1000x1, .f32⟩ : BufTy).Contents (Elt F)),
    StableHlo.unary main_arg38 main_v302 (broadcastInDim S1x1 ![1] bcast_S1_S1x1_1 : (⟨S1, .f32⟩ : BufTy).Contents (Elt F) → (⟨S1x1, .f32⟩ : BufTy).Contents (Elt F)),
    StableHlo.unary main_v302 main_v303 (broadcastInDim S1000x1 ![0, 1] bcast_S1x1_S1000x1_0_1 : (⟨S1x1, .f32⟩ : BufTy).Contents (Elt F) → (⟨S1000x1, .f32⟩ : BufTy).Contents (Elt F)),
    StableHlo.binary main_v301 main_v303 main_v304 (addf : (⟨S1000x1, .f32⟩ : BufTy).Contents (Elt F) → (⟨S1000x1, .f32⟩ : BufTy).Contents (Elt F) → (⟨S1000x1, .f32⟩ : BufTy).Contents (Elt F)),
    StableHlo.reshape main_v304 main_v305 rfl shapeCasts_S1000x1_S1000 ]

/-- The stretches after the last region, one after the other, are these three lists one after the other. -/
theorem tail_split : (hostOps12 (F := Ideal)) ++ (hostOps12_1 (F := Ideal) ++ hostOps12_2 (F := Ideal) ++ hostOps12_3 (F := Ideal) ++ hostOps12_4 (F := Ideal) ++ hostOps12_5 (F := Ideal) ++ hostOps12_6 (F := Ideal) ++ hostOps12_7 (F := Ideal) ++ hostOps12_8 (F := Ideal) ++ hostOps12_9 (F := Ideal) ++ hostOps12_10 (F := Ideal) ++ hostOps12_11 (F := Ideal) ++ hostOps12_12 (F := Ideal) ++ hostOps12_13 (F := Ideal) ++ hostOps12_14 (F := Ideal)) = (tailI (F := Ideal)) ++ (tailJ ++ tailH) := rfl

/-- The buffers the operations of tailI write, in order. -/
abbrev W_tailI : List (Ref sig .tc) := [main_cst_34, main_v156, main_cst_35, main_v157, main_v158, main_v159, main_cst_36, main_v160, main_v161, main_v162, main_cst_37, main_v163, main_v164, main_v165, main_v166, main_v167, main_v168, main_v169, main_v170, main_v171, main_v172, main_cst_38, main_v173, main_v174, main_cst_39, main_v175, main_v176, main_c_40, main_v177, main_v178, main_c_41, main_v179, main_v180, main_v181, main_v182, main_v183, main_v184, main_cst_42, main_v185, main_v186, main_v187, main_v188, main_cst_43, main_v189, main_v190, main_cst_44, main_v191, main_v192, main_v193, main_v194, main_cst_45, main_v195, main_v196, main_v197]
theorem writes_tailI : (tailI : List (HloOp τ sig (Elt Ideal))).Forall fun op => op.writes ⊆ (W_tailI.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer tailI does not write keeps its contents. -/
theorem keep_tailI (V : Valuation τ sig (Elt Ideal)) (r : Ref sig .tc) (hr : r ∉ W_tailI) :
    after (tailI : List (HloOp τ sig (Elt Ideal))) V (Proc.devRef .tc r) = V (Proc.devRef .tc r) :=
  after_of_writes_sub _ V writes_tailI hr

/-- The buffers the operations of tailJ write, in order. -/
abbrev W_tailJ : List (Ref sig .tc) := [main_cst_46, main_v198, main_cst_47, main_v199, main_v200, main_v201, main_cst_48, main_v202, main_v203, main_v204, main_cst_49, main_v205, main_v206, main_v207, main_v208, main_v209, main_v210, main_v211, main_v212, main_v213, main_v214, main_cst_50, main_v215, main_v216, main_cst_51, main_v217, main_v218, main_c_52, main_v219, main_v220, main_c_53, main_v221, main_v222, main_v223, main_v224, main_v225, main_v226, main_cst_54, main_v227, main_v228, main_v229, main_v230, main_cst_55, main_v231, main_v232, main_cst_56, main_v233, main_v234, main_v235, main_v236, main_cst_57, main_v237, main_v238, main_v239]
theorem writes_tailJ : (tailJ : List (HloOp τ sig (Elt Ideal))).Forall fun op => op.writes ⊆ (W_tailJ.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer tailJ does not write keeps its contents. -/
theorem keep_tailJ (V : Valuation τ sig (Elt Ideal)) (r : Ref sig .tc) (hr : r ∉ W_tailJ) :
    after (tailJ : List (HloOp τ sig (Elt Ideal))) V (Proc.devRef .tc r) = V (Proc.devRef .tc r) :=
  after_of_writes_sub _ V writes_tailJ hr

/-- The buffers the operations of tailH write, in order. -/
abbrev W_tailH : List (Ref sig .tc) := [main_v240, main_v241, main_v242, main_v243, main_v244, main_call0_cst, main_call0_v0, main_v245, main_v246, main_v247, main_v248, main_v249, main_v250, main_v251, main_v252, main_v253, main_v254, main_v255, main_v256, main_call1_cst, main_call1_v0, main_v257, main_v258, main_v259, main_v260, main_v261, main_v262, main_call2_cst, main_call2_v0, main_v263, main_v264, main_v265, main_v266, main_v267, main_v268, main_v269, main_v270, main_v271, main_v272, main_v273, main_v274, main_call3_cst, main_call3_v0, main_v275, main_v276, main_v277, main_v278, main_v279, main_v280, main_call4_cst, main_call4_v0, main_v281, main_v282, main_v283, main_v284, main_v285, main_v286, main_v287, main_v288, main_v289, main_v290, main_v291, main_v292, main_call5_cst, main_call5_v0, main_v293, main_v294, main_v295, main_v296, main_v297, main_v298, main_v299, main_call6_cst, main_call6_v0, main_v300, main_v301, main_v302, main_v303, main_v304, main_v305]
theorem writes_tailH : (tailH : List (HloOp τ sig (Elt Ideal))).Forall fun op => op.writes ⊆ (W_tailH.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer tailH does not write keeps its contents. -/
theorem keep_tailH (V : Valuation τ sig (Elt Ideal)) (r : Ref sig .tc) (hr : r ∉ W_tailH) :
    after (tailH : List (HloOp τ sig (Elt Ideal))) V (Proc.devRef .tc r) = V (Proc.devRef .tc r) :=
  after_of_writes_sub _ V writes_tailH hr

set_option maxHeartbeats 8000000 in
/-- Side i's pooled vector is the specification's readout of the third layer's output, the graph ids and the two gate parameters. -/
theorem poolI (V : Valuation τ sig (Elt Ideal)) :
    after (tailI (F := Ideal)) V (main_v197 : DevRef τ sig) = Cert.Spec.readout (V (main_v129 : DevRef τ sig) : FVec Ideal S200000x16 .f32) (V (main_arg4 : DevRef τ sig) : IVec S200000 32) (V (main_arg27 : DevRef τ sig) : FVec Ideal S16x16 .f32) (V (main_arg28 : DevRef τ sig) : FVec Ideal S16 .f32) := by
  after_results_simp
  rfl
set_option maxHeartbeats 8000000 in
theorem poolJ (V : Valuation τ sig (Elt Ideal)) :
    after (tailJ (F := Ideal)) V (main_v239 : DevRef τ sig) = Cert.Spec.readout (V (main_v155 : DevRef τ sig) : FVec Ideal S200000x16 .f32) (V (main_arg5 : DevRef τ sig) : IVec S200000 32) (V (main_arg27 : DevRef τ sig) : FVec Ideal S16x16 .f32) (V (main_arg28 : DevRef τ sig) : FVec Ideal S16 .f32) := by
  after_results_simp
  rfl
set_option maxHeartbeats 8000000 in
theorem score (V : Valuation τ sig (Elt Ideal)) :
    after (tailH (F := Ideal)) V (main_v305 : DevRef τ sig) = (Cert.Spec.heads (V (main_v197 : DevRef τ sig) : FVec Ideal S1000x16 .f32) (V (main_v239 : DevRef τ sig) : FVec Ideal S1000x16 .f32) (V (main_arg29 : DevRef τ sig) : FVec Ideal S32x8 .f32) (V (main_arg30 : DevRef τ sig) : FVec Ideal S8 .f32) (V (main_arg31 : DevRef τ sig) : FVec Ideal S8x32 .f32) (V (main_arg32 : DevRef τ sig) : FVec Ideal S32 .f32) (V (main_arg33 : DevRef τ sig) : FVec Ideal S32x16 .f32) (V (main_arg34 : DevRef τ sig) : FVec Ideal S16 .f32) (V (main_arg35 : DevRef τ sig) : FVec Ideal S16x8 .f32) (V (main_arg36 : DevRef τ sig) : FVec Ideal S8 .f32) (V (main_arg37 : DevRef τ sig) : FVec Ideal S8x1 .f32) (V (main_arg38 : DevRef τ sig) : FVec Ideal S1 .f32)).1 := by
  after_results_simp
  rfl
set_option maxHeartbeats 8000000 in
theorem diffJ (V : Valuation τ sig (Elt Ideal)) :
    after (tailH (F := Ideal)) V (main_v294 : DevRef τ sig) = (Cert.Spec.heads (V (main_v197 : DevRef τ sig) : FVec Ideal S1000x16 .f32) (V (main_v239 : DevRef τ sig) : FVec Ideal S1000x16 .f32) (V (main_arg29 : DevRef τ sig) : FVec Ideal S32x8 .f32) (V (main_arg30 : DevRef τ sig) : FVec Ideal S8 .f32) (V (main_arg31 : DevRef τ sig) : FVec Ideal S8x32 .f32) (V (main_arg32 : DevRef τ sig) : FVec Ideal S32 .f32) (V (main_arg33 : DevRef τ sig) : FVec Ideal S32x16 .f32) (V (main_arg34 : DevRef τ sig) : FVec Ideal S16 .f32) (V (main_arg35 : DevRef τ sig) : FVec Ideal S16x8 .f32) (V (main_arg36 : DevRef τ sig) : FVec Ideal S8 .f32) (V (main_arg37 : DevRef τ sig) : FVec Ideal S8x1 .f32) (V (main_arg38 : DevRef τ sig) : FVec Ideal S1 .f32)).2.1 := by
  after_results_simp
  rfl
set_option maxHeartbeats 8000000 in
theorem diffI (V : Valuation τ sig (Elt Ideal)) :
    after (tailH (F := Ideal)) V (main_v295 : DevRef τ sig) = (Cert.Spec.heads (V (main_v197 : DevRef τ sig) : FVec Ideal S1000x16 .f32) (V (main_v239 : DevRef τ sig) : FVec Ideal S1000x16 .f32) (V (main_arg29 : DevRef τ sig) : FVec Ideal S32x8 .f32) (V (main_arg30 : DevRef τ sig) : FVec Ideal S8 .f32) (V (main_arg31 : DevRef τ sig) : FVec Ideal S8x32 .f32) (V (main_arg32 : DevRef τ sig) : FVec Ideal S32 .f32) (V (main_arg33 : DevRef τ sig) : FVec Ideal S32x16 .f32) (V (main_arg34 : DevRef τ sig) : FVec Ideal S16 .f32) (V (main_arg35 : DevRef τ sig) : FVec Ideal S16x8 .f32) (V (main_arg36 : DevRef τ sig) : FVec Ideal S8 .f32) (V (main_arg37 : DevRef τ sig) : FVec Ideal S8x1 .f32) (V (main_arg38 : DevRef τ sig) : FVec Ideal S1 .f32)).2.2 := by
  after_results_simp
  rfl

end Cert.KernelIdeal.KHost

end
-- ==== Proof.GinSpec.lean ====
/- The mathematics of one GIN layer's two device passes, as functions of the argument arrays read index by index at the
   ideal values (extended reals, exact operations).  Pass 1: a two-layer perceptron applied row by row, and the column
   sums of its output and of its squares, taken tile by tile in the order the grid visits the tiles.  Pass 2: the
   affine normalisation of a column by a given mean and variance.  No program is imported here. -/
import Idealize.ShloMosaic.Lib.ValueIdx

noncomputable section

open scoped BigOperators
open Idealize.ShloMosaic Idealize.ShloMosaic.ValueIdx

namespace Cert.KernelIdeal.GinSpec

/-- Linear, ReLU, Linear at row r and column c: with y q = max (sum over p of x r p * W1 p q + b1 q) 0, the value is
    (sum over q of y q * W2 q c) + b2 c. -/
def mlpAt {n A B C : Nat} (x : (⟨2, ![n, A]⟩ : Shape).Idx → EReal) (W1 : (⟨2, ![A, B]⟩ : Shape).Idx → EReal)
    (b1 : (⟨1, ![B]⟩ : Shape).Idx → EReal) (W2 : (⟨2, ![B, C]⟩ : Shape).Idx → EReal) (b2 : (⟨1, ![C]⟩ : Shape).Idx → EReal)
    (r : Fin n) (c : Fin C) : EReal :=
  (∑ q : Fin B, max ((∑ p : Fin A, x (ix2 r p) * W1 (ix2 p q)) + b1 (ix1 q)) 0 * W2 (ix2 q c)) + b2 (ix1 c)

/-- The same as an array over the rows and columns. -/
def mlp {n A B C : Nat} (x : (⟨2, ![n, A]⟩ : Shape).Idx → EReal) (W1 : (⟨2, ![A, B]⟩ : Shape).Idx → EReal)
    (b1 : (⟨1, ![B]⟩ : Shape).Idx → EReal) (W2 : (⟨2, ![B, C]⟩ : Shape).Idx → EReal) (b2 : (⟨1, ![C]⟩ : Shape).Idx → EReal) :
    (⟨2, ![n, C]⟩ : Shape).Idx → EReal :=
  fun i => mlpAt x W1 b1 W2 b2 (i 0) (i 1)

/-- The perceptron at a row depends on the arrays only through the entries it reads: that row of the input, the two weight
    matrices and the two bias vectors. -/
theorem mlpAt_congr {n n' A B C : Nat} {x : (⟨2, ![n, A]⟩ : Shape).Idx → EReal} {x' : (⟨2, ![n', A]⟩ : Shape).Idx → EReal}
    {W1 W1' : (⟨2, ![A, B]⟩ : Shape).Idx → EReal} {b1 b1' : (⟨1, ![B]⟩ : Shape).Idx → EReal}
    {W2 W2' : (⟨2, ![B, C]⟩ : Shape).Idx → EReal} {b2 b2' : (⟨1, ![C]⟩ : Shape).Idx → EReal} {r : Fin n} {r' : Fin n'} (c : Fin C)
    (hx : ∀ p, x (ix2 r p) = x' (ix2 r' p)) (hW1 : ∀ p q, W1 (ix2 p q) = W1' (ix2 p q)) (hb1 : ∀ q, b1 (ix1 q) = b1' (ix1 q))
    (hW2 : ∀ q d, W2 (ix2 q d) = W2' (ix2 q d)) (hb2 : ∀ d, b2 (ix1 d) = b2' (ix1 d)) :
    mlpAt x W1 b1 W2 b2 r c = mlpAt x' W1' b1' W2' b2' r' c := by
  unfold mlpAt
  simp only [hx, hW1, hb1, hW2, hb2]

/-- Row r of tile t, when n rows are cut into T tiles of R rows, is row R * t + r. -/
theorem tileRow_lt {T R n : Nat} (hn : T * R = n) (t : Fin T) (r : Fin R) : R * t.val + r.val < n := by
  subst hn
  calc R * t.val + r.val < R * t.val + R := Nat.add_lt_add_left r.isLt _
    _ = R * (t.val + 1) := (Nat.mul_succ _ _).symm
    _ ≤ R * T := Nat.mul_le_mul_left _ t.isLt
    _ = T * R := Nat.mul_comm _ _

def tileRow {T R n : Nat} (hn : T * R = n) (t : Fin T) (r : Fin R) : Fin n := ⟨R * t.val + r.val, tileRow_lt hn t r⟩

/-- The sum of column c of a function of rows and columns over T tiles of R rows, tile after tile and row after row
    inside a tile. -/
def colSumAt {n C : Nat} (T R : Nat) (hn : T * R = n) (h : Fin n → Fin C → EReal) (c : Fin C) : EReal :=
  ∑ t : Fin T, ∑ r : Fin R, h (tileRow hn t r) c

/-- Tile k's part of that sum (zero past the last tile): the grid adds these one after another. -/
def tileSum {n C : Nat} (T R : Nat) (hn : T * R = n) (h : Fin n → Fin C → EReal) (k : Nat) (c : Fin C) : EReal :=
  if hk : k < T then ∑ r : Fin R, h (tileRow hn ⟨k, hk⟩ r) c else 0

theorem tileSum_of_lt {n C : Nat} (T R : Nat) (hn : T * R = n) (h : Fin n → Fin C → EReal) {k : Nat} (hk : k < T) (c : Fin C) :
    tileSum T R hn h k c = ∑ r : Fin R, h (tileRow hn ⟨k, hk⟩ r) c := dif_pos hk

/-- The column sum is the tiles' parts added in the grid's order. -/
theorem colSumAt_eq_range {n C : Nat} (T R : Nat) (hn : T * R = n) (h : Fin n → Fin C → EReal) (c : Fin C) :
    colSumAt T R hn h c = ∑ k ∈ Finset.range T, tileSum T R hn h k c := by
  unfold colSumAt
  rw [Finset.sum_range]
  exact Finset.sum_congr rfl fun t _ => (tileSum_of_lt T R hn h t.isLt c).symm

/-- The affine normalisation at row r, column c, in the order the device multiplies: scale times the centred entry,
    times the reciprocal square root of variance plus the literal 9.99999974E-6, plus shift. -/
def bnAffineAt {n C : Nat} (h : (⟨2, ![n, C]⟩ : Shape).Idx → EReal) (mu var : (⟨2, ![1, C]⟩ : Shape).Idx → EReal)
    (g bt : (⟨1, ![C]⟩ : Shape).Idx → EReal) (r : Fin n) (c : Fin C) : EReal :=
  g (ix1 c) * (h (ix2 r c) - mu (ix2 (0 : Fin 1) c)) * Ideal.rsqrt (var (ix2 (0 : Fin 1) c) + Ideal.ofBits .f32 0x3727C5AC#32)
    + bt (ix1 c)

/-- The same as an array. -/
def bnAffine {n C : Nat} (h : (⟨2, ![n, C]⟩ : Shape).Idx → EReal) (mu var : (⟨2, ![1, C]⟩ : Shape).Idx → EReal)
    (g bt : (⟨1, ![C]⟩ : Shape).Idx → EReal) : (⟨2, ![n, C]⟩ : Shape).Idx → EReal :=
  fun i => bnAffineAt h mu var g bt (i 0) (i 1)

end Cert.KernelIdeal.GinSpec

end
-- ==== Proof.BridgeDense.lean ====
/-
  The dense part of a layer (Linear, ReLU, Linear) as the reference program spells it — two host matrix products, the
  biases laid along the rows, the maximum with a splat of zero — read entry by entry: at row r and column c it is the
  explicit double sum of the two-layer perceptron. At the extended reals a host matrix product is the plain sum of the
  products over the contracted coordinate, a broadcast reads the operand's entry, and the zero pattern denotes 0, so
  no finiteness is needed: the identity holds for every input, infinities included.
-/
import proofs.«120907_j71768903516484_1_alg».proof.Proof.Spec
import proofs.«120907_j71768903516484_1_alg».proof.Proof.GinSpec
import Idealize.ShloMosaic.Lib.ValueIdx
import Idealize.ShloMosaic.Lib.IdealHost
import Idealize.ShloMosaic.Lib.KernelVsHost
import Idealize.ShloMosaic.Lib.StackMember
import Idealize.ShloMosaic.PureOps.Ideal.Laws

noncomputable section

open scoped BigOperators

namespace Cert.Bridge

open Idealize.ShloMosaic Idealize.ShloMosaic.ValueIdx Cert.KernelIdeal.GinSpec

/-- A vector of n entries laid as the one row of a [1, n] matrix, read at (0, j), is the vector at j. -/
theorem row_apply {α : Type} {n : Nat} (hb : (⟨1, ![n]⟩ : Shape).BroadcastsInDim ⟨2, ![1, n]⟩ ![1])
    (v : (⟨1, ![n]⟩ : Shape).Idx → α) (j : Fin n) :
    broadcastInDim ⟨2, ![1, n]⟩ ![1] hb v (ix2 (0 : Fin 1) j) = v (ix1 j) := by
  refine broadcastInDim_apply ![1] hb v (ix2 (0 : Fin 1) j) (ix1 j) ?_
  intro a
  match a with
  | ⟨0, _⟩ =>
    show j.val = if n = 1 then 0 else j.val
    split_ifs with hn
    · have := j.isLt; omega
    · rfl

/-- A vector of n entries laid as one row and then down m rows, read at (r, c), is the vector at c. -/
theorem rows_apply {α : Type} {m n : Nat} (hb : (⟨1, ![n]⟩ : Shape).BroadcastsInDim ⟨2, ![1, n]⟩ ![1])
    (hbc : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] hbc (broadcastInDim ⟨2, ![1, n]⟩ ![1] hb v) (ix2 r c) = v (ix1 c) := by
  rw [broadcastInDim_oneRow_apply, row_apply]

/-- A host matrix product of an [m, k] by a [k, n] array whose dimension numbers are the plain ones, read at an entry. -/
theorem dot_apply {m k n : Nat} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    Host.dotGeneral (F := Ideal) d none A B (ix2 a b) = ∑ c : Fin k, A (ix2 a c) * B (ix2 c b) := by
  subst hd
  exact StackMember.dotGeneral_plain_apply none A B a b

/-- Linear, ReLU, Linear in the host's operations, at any sizes, is the explicit perceptron. -/
theorem mlp_read {n A B C : Nat}
    (d1 : DotDims ⟨2, ![n, A]⟩ ⟨2, ![A, B]⟩ ⟨2, ![n, B]⟩) (hd1 : d1 = DotDims.plain n A B)
    (d2 : DotDims ⟨2, ![n, B]⟩ ⟨2, ![B, C]⟩ ⟨2, ![n, C]⟩) (hd2 : d2 = DotDims.plain n B C)
    (hrB : (⟨1, ![B]⟩ : Shape).BroadcastsInDim ⟨2, ![1, B]⟩ ![1])
    (hbB : (⟨2, ![1, B]⟩ : Shape).BroadcastsInDim ⟨2, ![n, B]⟩ ![0, 1])
    (hzB : (⟨0, ![]⟩ : Shape).BroadcastsInDim ⟨2, ![n, B]⟩ ![])
    (hrC : (⟨1, ![C]⟩ : Shape).BroadcastsInDim ⟨2, ![1, C]⟩ ![1])
    (hbC : (⟨2, ![1, C]⟩ : Shape).BroadcastsInDim ⟨2, ![n, C]⟩ ![0, 1])
    (h0 : FVec Ideal ⟨2, ![n, A]⟩ .f32) (W1 : FVec Ideal ⟨2, ![A, B]⟩ .f32) (b1 : FVec Ideal ⟨1, ![B]⟩ .f32)
    (W2 : FVec Ideal ⟨2, ![B, C]⟩ .f32) (b2 : FVec Ideal ⟨1, ![C]⟩ .f32) :
    addf (Host.dotGeneral (F := Ideal) d2 none
        (maximumf (addf (Host.dotGeneral (F := Ideal) d1 none h0 W1)
            (broadcastInDim ⟨2, ![n, B]⟩ ![0, 1] hbB (broadcastInDim ⟨2, ![1, B]⟩ ![1] hrB b1)))
          (broadcastInDim ⟨2, ![n, B]⟩ ![] hzB (constant (F := Ideal) ⟨0, ![]⟩ .f32 0x00000000#32))) W2)
        (broadcastInDim ⟨2, ![n, C]⟩ ![0, 1] hbC (broadcastInDim ⟨2, ![1, C]⟩ ![1] hrC b2))
      = mlp h0 W1 b1 W2 b2 := by
  funext i
  obtain ⟨r, c, rfl⟩ : ∃ (r : Fin n) (c : Fin C), i = ix2 r c := ⟨i 0, i 1, eq_ix2 i⟩
  show _ = mlpAt h0 W1 b1 W2 b2 r c
  unfold mlpAt
  rw [addf_apply, rows_apply, dot_apply d2 hd2]
  refine congrArg (fun z => z + b2 (ix1 c)) (Finset.sum_congr rfl fun q _ => ?_)
  rw [maximumf_apply, addf_apply, rows_apply, dot_apply d1 hd1, broadcastInDim_scalar_apply, constant_apply,
    Ideal.ofBits_zero_f32]

variable [Cert.ReferenceIdeal.Facts]
open Cert.ReferenceIdeal Cert.ReferenceIdeal.Facts₀ Cert.ReferenceIdeal.Facts

/-- The reference's dense part at widths 64, 64, 64 is the explicit perceptron. -/
theorem dense64a_eq (h0 : FVec Ideal S200000x64 .f32) (W1 : FVec Ideal S64x64 .f32) (b1 : FVec Ideal S64 .f32)
    (W2 : FVec Ideal S64x64 .f32) (b2 : FVec Ideal S64 .f32) :
    Cert.Spec.dense64a h0 W1 b1 W2 b2 = mlp h0 W1 b1 W2 b2 :=
  mlp_read _ rfl _ rfl _ _ _ _ _ h0 W1 b1 W2 b2

/-- The same at widths 64, 32, 32. -/
theorem dense64b_eq (h0 : FVec Ideal S200000x64 .f32) (W1 : FVec Ideal S64x32 .f32) (b1 : FVec Ideal S32 .f32)
    (W2 : FVec Ideal S32x32 .f32) (b2 : FVec Ideal S32 .f32) :
    Cert.Spec.dense64b h0 W1 b1 W2 b2 = mlp h0 W1 b1 W2 b2 :=
  mlp_read _ rfl _ rfl _ _ _ _ _ h0 W1 b1 W2 b2

/-- The same at widths 32, 16, 16. -/
theorem dense32_eq (h0 : FVec Ideal S200000x32 .f32) (W1 : FVec Ideal S32x16 .f32) (b1 : FVec Ideal S16 .f32)
    (W2 : FVec Ideal S16x16 .f32) (b2 : FVec Ideal S16 .f32) :
    Cert.Spec.dense32 h0 W1 b1 W2 b2 = mlp h0 W1 b1 W2 b2 :=
  mlp_read _ rfl _ rfl _ _ _ _ _ h0 W1 b1 W2 b2

end Cert.Bridge

end
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.LibBatchNorm.lean ====
/-
  General facts about sums of extended reals that take real values, and the one algebraic law the batch
  normalisation needs: the mean of the squared deviations from the mean is the mean of the squares minus the square of
  the mean. On the extended reals the law needs every summand to be a real number (at an infinity the difference of
  two infinities is the bottom element and the two sides part), so it is stated for a real family read into the
  extended reals, with the quotients taken by the extended reals' division by a nonzero real, which is the product
  with the reciprocal.
-/
import Idealize.ShloMosaic.PureOps.Ideal

noncomputable section

namespace Cert.Lib.BatchNorm

open Idealize.ShloMosaic Finset

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a real number is the real sum. -/
theorem sum_eq_coe {ι : Type*} (s : Finset ι) (x : ι → EReal) (f : ι → ℝ) (hx : ∀ i ∈ s, x i = (f i : EReal)) :
    ∑ i ∈ s, x i = ((∑ i ∈ s, f i : ℝ) : EReal) := by
  rw [coe_sum]; exact Finset.sum_congr rfl hx

/-- The quotient of a real by a nonzero real, on the extended reals, is the real quotient. -/
theorem div_coe_coe (a : ℝ) {n : ℝ} (hn : n ≠ 0) : Ideal.div (a : EReal) (n : EReal) = ((a / n : ℝ) : EReal) := by
  rw [Ideal.div_coe hn, ← EReal.coe_mul]; congr 1; field_simp

/-- Over the reals: the mean squared deviation from the mean is the mean square minus the squared mean
    (n the number of summands). -/
theorem real_var {ι : Type*} [Fintype ι] (h : ι → ℝ) (n : ℝ) (hn : n ≠ 0) (hcard : (Fintype.card ι : ℝ) = n) :
    (∑ i, (h i - (∑ i, h i) / n) * (h i - (∑ i, h i) / n)) / n
      = (∑ i, h i * h i) / n - ((∑ i, h i) / n) * ((∑ i, h i) / n) := by
  have e : ∑ i, (h i - (∑ i, h i) / n) * (h i - (∑ i, h i) / n)
      = (∑ i, h i * h i) - 2 * ((∑ i, h i) / n) * (∑ i, h i) + n * (((∑ i, h i) / n) * ((∑ i, h i) / n)) := by
    have : ∀ i, (h i - (∑ i, h i) / n) * (h i - (∑ i, h i) / n)
        = h i * h i - 2 * ((∑ i, h i) / n) * h i + ((∑ i, h i) / n) * ((∑ i, h i) / n) := fun i => by ring
    simp only [this, Finset.sum_add_distrib, Finset.sum_sub_distrib, ← Finset.mul_sum, Finset.sum_const, Finset.card_univ,
      nsmul_eq_mul, hcard]
    ring
  rw [e]; field_simp; ring

/-- The law on the extended reals, for a real-valued family: with m the quotient of the sum by n,
    the quotient by n of the sum of the squares of (h - m) is the quotient by n of the sum of squares, minus m squared. -/
theorem ereal_var {ι : Type*} [Fintype ι] (h : ι → ℝ) (n : ℝ) (hn : n ≠ 0) (hcard : (Fintype.card ι : ℝ) = n) :
    Ideal.div (∑ i, ((h i : EReal) - Ideal.div (∑ i, (h i : EReal)) (n : EReal))
        * ((h i : EReal) - Ideal.div (∑ i, (h i : EReal)) (n : EReal))) (n : EReal)
      = Ideal.div (∑ i, (h i : EReal) * (h i : EReal)) (n : EReal)
        - Ideal.div (∑ i, (h i : EReal)) (n : EReal) * Ideal.div (∑ i, (h i : EReal)) (n : EReal) := by
  have hS : ∑ i, (h i : EReal) = ((∑ i, h i : ℝ) : EReal) := (coe_sum _ _).symm
  have hQ : ∑ i, (h i : EReal) * (h i : EReal) = ((∑ i, h i * h i : ℝ) : EReal) := by
    rw [coe_sum]; exact Finset.sum_congr rfl fun i _ => (EReal.coe_mul _ _).symm
  rw [hS, hQ, div_coe_coe _ hn, div_coe_coe _ hn]
  have hD : ∑ i, ((h i : EReal) - (((∑ i, h i) / n : ℝ) : EReal)) * ((h i : EReal) - (((∑ i, h i) / n : ℝ) : EReal))
      = ((∑ i, (h i - (∑ i, h i) / n) * (h i - (∑ i, h i) / n) : ℝ) : EReal) := by
    rw [coe_sum]; exact Finset.sum_congr rfl fun i _ => by rw [← EReal.coe_sub, ← EReal.coe_mul]
  rw [hD, div_coe_coe _ hn, ← EReal.coe_mul, ← EReal.coe_sub, real_var h n hn hcard]

end Cert.Lib.BatchNorm

end
-- ==== Proof.LibTileSum.lean ====
/-
  A sum over the rows of an array taken tile by tile: for N = T * R, the sum over all N rows is the sum over the T
  tiles of the sum over the R rows of each tile, row R * t + r being row r of tile t. Only commutativity and
  associativity of the addition are used, so the law holds in any commutative additive monoid (the extended reals
  included, infinities and all).
-/
import Mathlib.Algebra.BigOperators.Fin
import Mathlib.Logic.Equiv.Fin.Basic

namespace Cert.Lib.TileSum

open Finset

theorem row_lt {T R N : ℕ} (hN : T * R = N) (t : Fin T) (r : Fin R) : R * t.val + r.val < N := by
  have h1 : R * t.val + r.val < R * (t.val + 1) := by
    rw [Nat.mul_succ]; exact Nat.add_lt_add_left r.isLt _
  have h2 : R * (t.val + 1) ≤ R * T := Nat.mul_le_mul_left _ t.isLt
  rw [← hN, Nat.mul_comm T R]; exact lt_of_lt_of_le h1 h2

/-- The sum over N = T * R indices is the sum over T tiles of the sum over the R indices of each tile. -/
theorem sum_tiles {M : Type*} [AddCommMonoid M] (T R N : ℕ) (hN : T * R = N) (f : Fin N → M) :
    ∑ k : Fin N, f k = ∑ t : Fin T, ∑ r : Fin R, f ⟨R * t.val + r.val, row_lt hN t r⟩ := by
  subst hN
  rw [← (finProdFinEquiv (m := T) (n := R)).sum_comp, Fintype.sum_prod_type]
  refine Finset.sum_congr rfl fun t _ => Finset.sum_congr rfl fun r _ => ?_
  refine congrArg f (Fin.ext ?_)
  show r.val + R * t.val = R * t.val + r.val
  exact Nat.add_comm _ _

end Cert.Lib.TileSum
-- ==== Proof.Consts.lean ====
/-
  The float constants the two programs spell, as the extended reals their bit patterns denote: the row count 200000,
  the variance offset (the single-precision neighbour of one hundred-thousandth, a positive dyadic rational), one and zero.
-/
import Idealize.ShloMosaic.PureOps.Ideal
import Idealize.ShloMosaic.PureOps.Ideal.Laws

noncomputable section

namespace Cert.Consts

open Idealize.ShloMosaic

/-- The pattern of 200000.0 denotes the real 200000. -/
theorem ofBits_200000 : Ideal.ofBits .f32 0x48435000#32 = ((200000 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The variance offset denotes the positive dyadic rational 10995116 / 2 ^ 40. -/
theorem ofBits_eps : Ideal.ofBits .f32 0x3727C5AC#32 = ((10995116 / 2 ^ 40 : ℝ) : EReal) := by
  simp [Ideal.ofBits, Ideal.ieee, -EReal.coe_mul]; norm_num

theorem eps_pos : (0 : ℝ) < 10995116 / 2 ^ 40 := by norm_num

end Cert.Consts

end
-- ==== Proof.BridgeBn.lean ====
/-
  The batch normalisation as the reference program spells it (jnp.mean and jnp.var of the columns, then
  g * (H - mean) * rsqrt (var + eps) + bt) against the device's second pass fed with the host's statistics of the first
  pass's column sums: mean = S / 200000 and var = Q / 200000 - mean * mean, where S and Q are the column sums of H and
  of its squares taken tile by tile. Read entry by entry the two differ only in the variance: the reference's is the
  mean of the squared deviations from the mean (behind a guard on the positive divisor 200000 - 0, which selects the
  quotient), the device's the mean square minus the squared mean. For a column of real numbers these are equal; at an
  infinite entry they are not (the deviations' squares sum to the top element or to the bottom one, and the difference
  of two infinities is the bottom element), which is why the entries of H are required to be real.
-/
import proofs.«120907_j71768903516484_1_alg».proof.Proof.Spec
import proofs.«120907_j71768903516484_1_alg».proof.Proof.GinSpec
import proofs.«120907_j71768903516484_1_alg».proof.Proof.LibReal
import proofs.«120907_j71768903516484_1_alg».proof.Proof.LibBatchNorm
import proofs.«120907_j71768903516484_1_alg».proof.Proof.LibTileSum
import proofs.«120907_j71768903516484_1_alg».proof.Proof.Consts
import Idealize.ShloMosaic.Lib.ValueIdx
import Idealize.ShloMosaic.Lib.IdealHost
import Idealize.ShloMosaic.Lib.KernelVsHost
import Idealize.ShloMosaic.PureOps.Ideal.Laws

noncomputable section

open scoped BigOperators

namespace Cert.Bridge.Bn

open Idealize.ShloMosaic Idealize.ShloMosaic.ValueIdx Cert.KernelIdeal.GinSpec Cert.Lib.Real

/-- A vector of n entries laid as the one row of a [1, n] matrix, read at (0, j), is the vector at j. -/
theorem row_apply {α : Type} {n : Nat} (hb : (⟨1, ![n]⟩ : Shape).BroadcastsInDim ⟨2, ![1, n]⟩ ![1])
    (v : (⟨1, ![n]⟩ : Shape).Idx → α) (j : Fin n) :
    broadcastInDim ⟨2, ![1, n]⟩ ![1] hb v (ix2 (0 : Fin 1) j) = v (ix1 j) := by
  refine broadcastInDim_apply ![1] hb v (ix2 (0 : Fin 1) j) (ix1 j) ?_
  intro a
  match a with
  | ⟨0, _⟩ =>
    show j.val = if n = 1 then 0 else j.val
    split_ifs with hn
    · have := j.isLt; omega
    · rfl

/-- A vector of n entries laid as one row and then down m rows, read at (r, c), is the vector at c. -/
theorem rows_apply {α : Type} {m n : Nat} (hb : (⟨1, ![n]⟩ : Shape).BroadcastsInDim ⟨2, ![1, n]⟩ ![1])
    (hbc : (⟨2, ![1, n]⟩ : Shape).BroadcastsInDim ⟨2, ![m, n]⟩ ![0, 1])
    (v : (⟨1, ![n]⟩ : Shape).Idx → α) (r : Fin m) (c : Fin n) :
    broadcastInDim ⟨2, ![m, n]⟩ ![0, 1] hbc (broadcastInDim ⟨2, ![1, n]⟩ ![1] hb v) (ix2 r c) = v (ix1 c) := by
  rw [broadcastInDim_oneRow_apply, row_apply]

/-- The host's reciprocal square root at an index is the extended reals' one. -/
theorem hostRsqrt_apply {s : Shape} (x : FVec Ideal s .f32) (i : s.Idx) : Host.rsqrt (F := Ideal) x i = Ideal.rsqrt (x i) := rfl

/-- The column sum taken tile by tile is the sum over all the rows. -/
theorem colSumAt_eq_sum {n C : Nat} (T R : Nat) (hn : T * R = n) (h : Fin n → Fin C → EReal) (c : Fin C) :
    colSumAt T R hn h c = ∑ k : Fin n, h k c :=
  (Cert.Lib.TileSum.sum_tiles T R n hn fun k => h k c).symm

/-- 200000 - 0, with the 0 an integer converted, denotes 200000. -/
theorem n_minus_ddof :
    (subf (constant (F := Ideal) ⟨0, ![]⟩ .f32 0x48435000#32) (sitofp .f32 (constantI ⟨0, ![]⟩ 32 0#32)) : FVec Ideal ⟨0, ![]⟩ .f32) ix0
      = ((200000 : ℝ) : EReal) := by
  rw [subf_apply, constant_apply, Cert.Consts.ofBits_200000, sitofp_apply]
  show ((200000 : ℝ) : EReal) - ((((0#32 : BitVec 32).toInt : ℤ) : ℝ) : EReal) = _
  simp

/-- 200000 is above 0 in the comparison of the extended reals. -/
theorem guard_true : FloatOps.cmpf (F := Ideal) (φ := .f32) .ogt (((200000 : ℝ) : EReal)) 0 = 1#1 := by
  rw [Ideal.cmpf_def]; unfold Ideal.cmp
  have : (0 : EReal) < ((200000 : ℝ) : EReal) := by exact_mod_cast (by norm_num : (0 : ℝ) < 200000)
  simp [this]

section Generic

variable {C : Nat}
  (hRT : (⟨2, ![200000, C]⟩ : Shape).ReducesTo [0] ⟨1, ![C]⟩)
  (h0 : 0 < (⟨0, ![]⟩ : Shape).numel)
  (hrow : (⟨1, ![C]⟩ : Shape).BroadcastsInDim ⟨2, ![1, C]⟩ ![1])
  (hrows : (⟨2, ![1, C]⟩ : Shape).BroadcastsInDim ⟨2, ![200000, C]⟩ ![0, 1])
  (hsC : (⟨0, ![]⟩ : Shape).BroadcastsInDim ⟨1, ![C]⟩ ![])
  (hs1C : (⟨0, ![]⟩ : Shape).BroadcastsInDim ⟨2, ![1, C]⟩ ![])

/-- The column sums of a [200000, C] array as the host's reduce from the zero pattern prints them. -/
def colSumG (H : FVec Ideal ⟨2, ![200000, C]⟩ .f32) : FVec Ideal ⟨1, ![C]⟩ .f32 :=
  Host.reduceAdd (F := Ideal) H (constant (F := Ideal) ⟨0, ![]⟩ .f32 0x00000000#32) hRT h0

theorem colSumG_apply (hR : Shape.Reduces ⟨2, ![200000, C]⟩ [0] ⟨1, ![C]⟩) (H : FVec Ideal ⟨2, ![200000, C]⟩ .f32) (j : Fin C) :
    colSumG hRT h0 H (ix1 j) = ∑ r : Fin 200000, H (ix2 r j) := by
  unfold colSumG
  rw [hostReduceAdd_apply]
  refine (Ideal.hostReduceAdd_single hRT hR H _ (ix1 j)).trans ?_
  rw [constant_apply, Ideal.ofBits_zero_f32, zero_add]
  show ∑ r : Fin 200000, _ = ∑ r : Fin 200000, _
  refine Finset.sum_congr rfl fun r _ => congrArg H ?_
  funext a; match a with | ⟨0, _⟩ => rfl | ⟨1, _⟩ => rfl

/-- jnp.mean of the columns: the column sums divided by the splat of 200000. -/
def meanVecG (H : FVec Ideal ⟨2, ![200000, C]⟩ .f32) : FVec Ideal ⟨1, ![C]⟩ .f32 :=
  Host.divf (F := Ideal) (colSumG hRT h0 H) (broadcastInDim ⟨1, ![C]⟩ ![] hsC (constant (F := Ideal) ⟨0, ![]⟩ .f32 0x48435000#32))

theorem meanVecG_apply (hR : Shape.Reduces ⟨2, ![200000, C]⟩ [0] ⟨1, ![C]⟩) (H : FVec Ideal ⟨2, ![200000, C]⟩ .f32) (j : Fin C) :
    meanVecG hRT h0 hsC H (ix1 j) = Ideal.div (∑ r : Fin 200000, H (ix2 r j)) ((200000 : ℝ) : EReal) := by
  unfold meanVecG
  rw [hostDivf_apply, colSumG_apply hRT h0 hR, broadcastInDim_scalar_apply, constant_apply, Cert.Consts.ofBits_200000]

/-- The column means inside jnp.var: the column sums laid as one row, divided by the splat of 200000. -/
def meanRowG (H : FVec Ideal ⟨2, ![200000, C]⟩ .f32) : FVec Ideal ⟨2, ![1, C]⟩ .f32 :=
  Host.divf (F := Ideal) (broadcastInDim ⟨2, ![1, C]⟩ ![1] hrow (colSumG hRT h0 H))
    (broadcastInDim ⟨2, ![1, C]⟩ ![] hs1C (constant (F := Ideal) ⟨0, ![]⟩ .f32 0x48435000#32))

theorem meanRowG_apply (hR : Shape.Reduces ⟨2, ![200000, C]⟩ [0] ⟨1, ![C]⟩) (H : FVec Ideal ⟨2, ![200000, C]⟩ .f32) (j : Fin C) :
    meanRowG hRT h0 hrow hs1C H (ix2 (0 : Fin 1) j) = Ideal.div (∑ r : Fin 200000, H (ix2 r j)) ((200000 : ℝ) : EReal) := by
  unfold meanRowG
  rw [hostDivf_apply, row_apply, colSumG_apply hRT h0 hR, broadcastInDim_scalar_apply, constant_apply, Cert.Consts.ofBits_200000]

/-- jnp.var of the columns at ddof = 0: the guard on 200000 - 0 > 0 selecting the quotient by 200000 - 0 of the column
    sums of the squared deviations, else the not-a-number pattern. -/
def varG (H : FVec Ideal ⟨2, ![200000, C]⟩ .f32) : FVec Ideal ⟨1, ![C]⟩ .f32 :=
  select (broadcastInDim ⟨1, ![C]⟩ ![] hsC
      (cmpf .ogt (subf (constant (F := Ideal) ⟨0, ![]⟩ .f32 0x48435000#32) (sitofp .f32 (constantI ⟨0, ![]⟩ 32 0#32)))
        (constant (F := Ideal) ⟨0, ![]⟩ .f32 0x00000000#32)))
    (Host.divf (F := Ideal)
      (Host.reduceAdd (F := Ideal)
        (mulf (subf H (broadcastInDim ⟨2, ![200000, C]⟩ ![0, 1] hrows (meanRowG hRT h0 hrow hs1C H)))
          (subf H (broadcastInDim ⟨2, ![200000, C]⟩ ![0, 1] hrows (meanRowG hRT h0 hrow hs1C H))))
        (constant (F := Ideal) ⟨0, ![]⟩ .f32 0x00000000#32) hRT h0)
      (broadcastInDim ⟨1, ![C]⟩ ![] hsC
        (subf (constant (F := Ideal) ⟨0, ![]⟩ .f32 0x48435000#32) (sitofp .f32 (constantI ⟨0, ![]⟩ 32 0#32)))))
    (broadcastInDim ⟨1, ![C]⟩ ![] hsC (constant (F := Ideal) ⟨0, ![]⟩ .f32 0x7FC00000#32))

theorem varG_apply (hR : Shape.Reduces ⟨2, ![200000, C]⟩ [0] ⟨1, ![C]⟩) (H : FVec Ideal ⟨2, ![200000, C]⟩ .f32) (j : Fin C) :
    varG hRT h0 hrow hrows hsC hs1C H (ix1 j)
      = Ideal.div (∑ r : Fin 200000,
          (H (ix2 r j) - Ideal.div (∑ r : Fin 200000, H (ix2 r j)) ((200000 : ℝ) : EReal))
            * (H (ix2 r j) - Ideal.div (∑ r : Fin 200000, H (ix2 r j)) ((200000 : ℝ) : EReal)))
          ((200000 : ℝ) : EReal) := by
  unfold varG
  rw [select_apply, broadcastInDim_scalar_apply, cmpf_apply, n_minus_ddof, constant_apply, Ideal.ofBits_zero_f32,
    guard_true, select_one, hostDivf_apply, broadcastInDim_scalar_apply, n_minus_ddof]
  refine congrArg (fun z => Ideal.div z ((200000 : ℝ) : EReal)) ?_
  rw [hostReduceAdd_apply]
  refine (Ideal.hostReduceAdd_single hRT hR _ _ (ix1 j)).trans ?_
  rw [constant_apply, Ideal.ofBits_zero_f32, zero_add]
  show ∑ r : Fin 200000, _ = ∑ r : Fin 200000, _
  refine Finset.sum_congr rfl fun (r : Fin 200000) _ => ?_
  have hidx : hR.lift (ix1 j) r = ix2 r j := by
    funext a; match a with | ⟨0, _⟩ => rfl | ⟨1, _⟩ => rfl
  rw [hidx, mulf_apply, subf_apply, broadcastInDim_oneRow_apply, meanRowG_apply hRT h0 hrow hs1C hR]

/-- The reference's batch normalisation of the columns, from its parts. -/
def bnG (H : FVec Ideal ⟨2, ![200000, C]⟩ .f32) (g bt : FVec Ideal ⟨1, ![C]⟩ .f32) : FVec Ideal ⟨2, ![200000, C]⟩ .f32 :=
  addf (mulf (mulf (broadcastInDim ⟨2, ![200000, C]⟩ ![0, 1] hrows (broadcastInDim ⟨2, ![1, C]⟩ ![1] hrow g))
      (subf H (broadcastInDim ⟨2, ![200000, C]⟩ ![0, 1] hrows (broadcastInDim ⟨2, ![1, C]⟩ ![1] hrow (meanVecG hRT h0 hsC H)))))
      (broadcastInDim ⟨2, ![200000, C]⟩ ![0, 1] hrows (broadcastInDim ⟨2, ![1, C]⟩ ![1] hrow
        (Host.rsqrt (F := Ideal) (addf (varG hRT h0 hrow hrows hsC hs1C H)
          (broadcastInDim ⟨1, ![C]⟩ ![] hsC (constant (F := Ideal) ⟨0, ![]⟩ .f32 0x3727C5AC#32)))))))
    (broadcastInDim ⟨2, ![200000, C]⟩ ![0, 1] hrows (broadcastInDim ⟨2, ![1, C]⟩ ![1] hrow bt))

/-- The reference's batch normalisation read at an entry. -/
theorem bnG_apply (hR : Shape.Reduces ⟨2, ![200000, C]⟩ [0] ⟨1, ![C]⟩) (H : FVec Ideal ⟨2, ![200000, C]⟩ .f32)
    (g bt : FVec Ideal ⟨1, ![C]⟩ .f32) (r : Fin 200000) (c : Fin C) :
    bnG hRT h0 hrow hrows hsC hs1C H g bt (ix2 r c)
      = g (ix1 c) * (H (ix2 r c) - Ideal.div (∑ k : Fin 200000, H (ix2 k c)) ((200000 : ℝ) : EReal))
          * Ideal.rsqrt (Ideal.div (∑ k : Fin 200000,
              (H (ix2 k c) - Ideal.div (∑ k : Fin 200000, H (ix2 k c)) ((200000 : ℝ) : EReal))
                * (H (ix2 k c) - Ideal.div (∑ k : Fin 200000, H (ix2 k c)) ((200000 : ℝ) : EReal)))
              ((200000 : ℝ) : EReal) + Ideal.ofBits .f32 0x3727C5AC#32)
        + bt (ix1 c) := by
  unfold bnG
  rw [addf_apply, mulf_apply, mulf_apply, rows_apply, rows_apply, rows_apply, subf_apply, rows_apply,
    meanVecG_apply hRT h0 hsC hR, hostRsqrt_apply, addf_apply, varG_apply hRT h0 hrow hrows hsC hs1C hR,
    broadcastInDim_scalar_apply, constant_apply]

/-- The law: on a real array the reference's batch normalisation is the device's affine pass at the host's statistics
    of the tile-by-tile column sums S and sums of squares Q. -/
theorem bn_read (hR : Shape.Reduces ⟨2, ![200000, C]⟩ [0] ⟨1, ![C]⟩) (H : FVec Ideal ⟨2, ![200000, C]⟩ .f32)
    (g bt : FVec Ideal ⟨1, ![C]⟩ .f32) (S Q : FVec Ideal ⟨2, ![1, C]⟩ .f32) (hH : AllReal H)
    (hS : ∀ c : Fin C, S (ix2 (0 : Fin 1) c) = colSumAt 50 4000 rfl (fun r c => H (ix2 r c)) c)
    (hQ : ∀ c : Fin C, Q (ix2 (0 : Fin 1) c) = colSumAt 50 4000 rfl (fun r c => H (ix2 r c) * H (ix2 r c)) c) :
    bnG hRT h0 hrow hrows hsC hs1C H g bt
      = bnAffine H
          (Host.divf (F := Ideal) S (broadcastInDim ⟨2, ![1, C]⟩ ![] hs1C (constant (F := Ideal) ⟨0, ![]⟩ .f32 0x48435000#32)))
          (subf (Host.divf (F := Ideal) Q (broadcastInDim ⟨2, ![1, C]⟩ ![] hs1C (constant (F := Ideal) ⟨0, ![]⟩ .f32 0x48435000#32)))
            (mulf (Host.divf (F := Ideal) S (broadcastInDim ⟨2, ![1, C]⟩ ![] hs1C (constant (F := Ideal) ⟨0, ![]⟩ .f32 0x48435000#32)))
              (Host.divf (F := Ideal) S (broadcastInDim ⟨2, ![1, C]⟩ ![] hs1C (constant (F := Ideal) ⟨0, ![]⟩ .f32 0x48435000#32)))))
          g bt := by
  funext i
  obtain ⟨r, c, rfl⟩ : ∃ (r : Fin 200000) (c : Fin C), i = ix2 r c := ⟨i 0, i 1, eq_ix2 i⟩
  rw [bnG_apply hRT h0 hrow hrows hsC hs1C hR]
  show _ = bnAffineAt H _ _ g bt r c
  unfold bnAffineAt
  rw [subf_apply, mulf_apply, hostDivf_apply, hostDivf_apply, broadcastInDim_scalar_apply, constant_apply,
    Cert.Consts.ofBits_200000, hS c, hQ c, colSumAt_eq_sum, colSumAt_eq_sum]
  -- the column is a family of reals
  choose f hf using fun k : Fin 200000 => hH (ix2 k c)
  have hcard : (Fintype.card (Fin 200000) : ℝ) = 200000 := by rw [Fintype.card_fin]; norm_num
  have law := Cert.Lib.BatchNorm.ereal_var f 200000 (by norm_num) hcard
  simp only [← hf] at law
  rw [law]

/-- On a real array with real scale and shift the reference's batch normalisation is real: the mean is a real, the
    variance is a mean of squares of reals, so the variance plus the positive offset is a positive real and its
    reciprocal square root is a real. -/
theorem bnG_real (hR : Shape.Reduces ⟨2, ![200000, C]⟩ [0] ⟨1, ![C]⟩) (H : FVec Ideal ⟨2, ![200000, C]⟩ .f32)
    (g bt : FVec Ideal ⟨1, ![C]⟩ .f32) (hH : AllReal H) (hg : AllReal g) (hbt : AllReal bt) :
    AllReal (bnG hRT h0 hrow hrows hsC hs1C H g bt) := by
  intro i
  obtain ⟨r, c, rfl⟩ : ∃ (r : Fin 200000) (c : Fin C), i = ix2 r c := ⟨i 0, i 1, eq_ix2 i⟩
  rw [bnG_apply hRT h0 hrow hrows hsC hs1C hR]
  choose f hf using fun k : Fin 200000 => hH (ix2 k c)
  have hsum : ∑ k : Fin 200000, H (ix2 k c) = ((∑ k, f k : ℝ) : EReal) :=
    Cert.Lib.BatchNorm.sum_eq_coe _ _ f fun k _ => hf k
  have hn : (200000 : ℝ) ≠ 0 := by norm_num
  rw [hsum, Cert.Lib.BatchNorm.div_coe_coe _ hn]
  generalize (∑ k, f k) / 200000 = m
  have hdev : ∑ k : Fin 200000, (H (ix2 k c) - (m : EReal)) * (H (ix2 k c) - (m : EReal))
      = ((∑ k, (f k - m) * (f k - m) : ℝ) : EReal) :=
    Cert.Lib.BatchNorm.sum_eq_coe _ _ _ fun k _ => by rw [hf k, ← EReal.coe_sub, ← EReal.coe_mul]
  rw [hdev, Cert.Lib.BatchNorm.div_coe_coe _ hn, Cert.Consts.ofBits_eps, ← EReal.coe_add]
  have hpos : 0 < (∑ k, (f k - m) * (f k - m)) / 200000 + 10995116 / 2 ^ 40 := by
    have h1 : 0 ≤ ∑ k, (f k - m) * (f k - m) := Finset.sum_nonneg fun k _ => mul_self_nonneg _
    have h2 : 0 ≤ (∑ k, (f k - m) * (f k - m)) / 200000 := div_nonneg h1 (by norm_num)
    exact add_pos_of_nonneg_of_pos h2 Cert.Consts.eps_pos
  exact (((hg (ix1 c)).mul ((hH (ix2 r c)).sub (isReal_coe m))).mul (isReal_rsqrt_of_pos hpos)).add (hbt (ix1 c))

end Generic

end Cert.Bridge.Bn

namespace Cert.Bridge

open Idealize.ShloMosaic Idealize.ShloMosaic.ValueIdx Cert.KernelIdeal.GinSpec Cert.Lib.Real

variable [Cert.ReferenceIdeal.Facts]
open Cert.ReferenceIdeal Cert.ReferenceIdeal.Facts₀ Cert.ReferenceIdeal.Facts

/-- Width 64: the reference's batch normalisation of a real array is the device's affine pass at the host's statistics. -/
theorem bn64_eq (H : FVec Ideal S200000x64 .f32) (g bt : FVec Ideal S64 .f32) (S Q : FVec Ideal S1x64 .f32) (hH : AllReal H)
    (hS : ∀ c : Fin 64, S (ix2 (0 : Fin 1) c) = colSumAt 50 4000 rfl (fun r c => H (ix2 r c)) c)
    (hQ : ∀ c : Fin 64, Q (ix2 (0 : Fin 1) c) = colSumAt 50 4000 rfl (fun r c => H (ix2 r c) * H (ix2 r c)) c) :
    Cert.Spec.bnR64 H g bt = bnAffine H (Cert.Spec.statsMu64 S) (Cert.Spec.statsVar64 S Q) g bt :=
  Bn.bn_read reducesTo_S200000x64_S64_d0 h_S_ bcast_S64_S1x64_1 bcast_S1x64_S200000x64_0_1 bcast_S_S64 bcast_S_S1x64
    (by decide) H g bt S Q hH hS hQ

/-- Width 32: the same law. -/
theorem bn32_eq (H : FVec Ideal S200000x32 .f32) (g bt : FVec Ideal S32 .f32) (S Q : FVec Ideal S1x32 .f32) (hH : AllReal H)
    (hS : ∀ c : Fin 32, S (ix2 (0 : Fin 1) c) = colSumAt 50 4000 rfl (fun r c => H (ix2 r c)) c)
    (hQ : ∀ c : Fin 32, Q (ix2 (0 : Fin 1) c) = colSumAt 50 4000 rfl (fun r c => H (ix2 r c) * H (ix2 r c)) c) :
    Cert.Spec.bnR32 H g bt = bnAffine H (Cert.Spec.statsMu32 S) (Cert.Spec.statsVar32 S Q) g bt :=
  Bn.bn_read reducesTo_S200000x32_S32_d0 h_S_ bcast_S32_S1x32_1 bcast_S1x32_S200000x32_0_1 bcast_S_S32 bcast_S_S1x32
    (by decide) H g bt S Q hH hS hQ

/-- Width 16: the same law. -/
theorem bn16_eq (H : FVec Ideal S200000x16 .f32) (g bt : FVec Ideal S16 .f32) (S Q : FVec Ideal S1x16 .f32) (hH : AllReal H)
    (hS : ∀ c : Fin 16, S (ix2 (0 : Fin 1) c) = colSumAt 50 4000 rfl (fun r c => H (ix2 r c)) c)
    (hQ : ∀ c : Fin 16, Q (ix2 (0 : Fin 1) c) = colSumAt 50 4000 rfl (fun r c => H (ix2 r c) * H (ix2 r c)) c) :
    Cert.Spec.bnR16 H g bt = bnAffine H (Cert.Spec.statsMu16 S) (Cert.Spec.statsVar16 S Q) g bt :=
  Bn.bn_read reducesTo_S200000x16_S16_d0 h_S_ bcast_S16_S1x16_1 bcast_S1x16_S200000x16_0_1 bcast_S_S16 bcast_S_S1x16
    (by decide) H g bt S Q hH hS hQ

/-- Width 64: on a real array with real scale and shift the reference's batch normalisation is real. -/
theorem bnR64_real (H : FVec Ideal S200000x64 .f32) (g bt : FVec Ideal S64 .f32) (hH : AllReal H) (hg : AllReal g)
    (hbt : AllReal bt) : AllReal (Cert.Spec.bnR64 H g bt) :=
  Bn.bnG_real reducesTo_S200000x64_S64_d0 h_S_ bcast_S64_S1x64_1 bcast_S1x64_S200000x64_0_1 bcast_S_S64 bcast_S_S1x64
    (by decide) H g bt hH hg hbt

/-- Width 32: on a real array with real scale and shift the reference's batch normalisation is real. -/
theorem bnR32_real (H : FVec Ideal S200000x32 .f32) (g bt : FVec Ideal S32 .f32) (hH : AllReal H) (hg : AllReal g)
    (hbt : AllReal bt) : AllReal (Cert.Spec.bnR32 H g bt) :=
  Bn.bnG_real reducesTo_S200000x32_S32_d0 h_S_ bcast_S32_S1x32_1 bcast_S1x32_S200000x32_0_1 bcast_S_S32 bcast_S_S1x32
    (by decide) H g bt hH hg hbt

/-- Width 16: on a real array with real scale and shift the reference's batch normalisation is real. -/
theorem bnR16_real (H : FVec Ideal S200000x16 .f32) (g bt : FVec Ideal S16 .f32) (hH : AllReal H) (hg : AllReal g)
    (hbt : AllReal bt) : AllReal (Cert.Spec.bnR16 H g bt) :=
  Bn.bnG_real reducesTo_S200000x16_S16_d0 h_S_ bcast_S16_S1x16_1 bcast_S1x16_S200000x16_0_1 bcast_S_S16 bcast_S_S1x16
    (by decide) H g bt hH hg hbt

end Cert.Bridge

end
-- ==== Proof.BridgeReal.lean ====
/-
  Realness through a layer: the input of the dense part ((1 + eps) * x plus the sum of x over the incoming edges) and
  the two-layer perceptron take arrays of real numbers to arrays of real numbers. A gather reads an entry of its
  operand, a broadcast reads an entry of its operand, the host's scatter with addition is an entry of its operand plus
  a finite sum of update entries, and the patterns of 0 and 1 denote 0 and 1; sums, products and maxima of reals are
  reals. So the law of real arithmetic that joins the two programs' batch normalisations applies layer after layer.
-/
import proofs.«120907_j71768903516484_1_alg».proof.Proof.Spec
import proofs.«120907_j71768903516484_1_alg».proof.Proof.GinSpec
import proofs.«120907_j71768903516484_1_alg».proof.Proof.LibReal
import Idealize.ShloMosaic.Lib.ValueIdx
import Idealize.ShloMosaic.Lib.IdealHost
import Idealize.ShloMosaic.PureOps.Ideal.Laws

noncomputable section

open scoped BigOperators

namespace Cert.Bridge

open Idealize.ShloMosaic Idealize.ShloMosaic.ValueIdx Cert.KernelIdeal.GinSpec Cert.Lib.Real

section Ops
variable {s t : Shape}

theorem allReal_addf {a b : FVec Ideal s .f32} (ha : AllReal a) (hb : AllReal b) : AllReal (addf a b) :=
  fun i => by rw [addf_apply]; exact (ha i).add (hb i)
theorem allReal_subf {a b : FVec Ideal s .f32} (ha : AllReal a) (hb : AllReal b) : AllReal (subf a b) :=
  fun i => by rw [subf_apply]; exact (ha i).sub (hb i)
theorem allReal_mulf {a b : FVec Ideal s .f32} (ha : AllReal a) (hb : AllReal b) : AllReal (mulf a b) :=
  fun i => by rw [mulf_apply]; exact (ha i).mul (hb i)
theorem allReal_maximumf {a b : FVec Ideal s .f32} (ha : AllReal a) (hb : AllReal b) : AllReal (maximumf a b) :=
  fun i => by rw [maximumf_apply]; exact (ha i).max (hb i)

/-- A broadcast reads an entry of its operand. -/
theorem allReal_broadcastInDim (dims : Fin s.rank → Fin t.rank) (h : s.BroadcastsInDim t dims) {x : s.Idx → EReal}
    (hx : AllReal x) : AllReal (broadcastInDim t dims h x) := by
  intro j; unfold broadcastInDim; exact hx _

/-- The pattern of 0.0 is the real 0. -/
theorem allReal_zero : AllReal (constant (F := Ideal) s .f32 0x00000000#32) :=
  fun i => by rw [constant_apply, Ideal.ofBits_zero_f32]; exact isReal_zero
/-- The pattern of 1.0 is the real 1. -/
theorem allReal_one : AllReal (constant (F := Ideal) s .f32 0x3F800000#32) :=
  fun i => by rw [constant_apply, Ideal.ofBits_one_f32]; exact isReal_one

/-- A gather reads an entry of its operand. -/
theorem allReal_gather {si : Shape} {w : Nat} (d : GatherDims s si t) {x : s.Idx → EReal} (idx : IVec si w) (hx : AllReal x) :
    AllReal (Host.gather d x idx) := by
  intro j; unfold Host.gather; exact hx _

/-- The host's scatter with addition is an entry of its operand plus a finite sum of update entries. -/
theorem allReal_scatterAdd {si u : Shape} {w : Nat} (d : ScatterDims s si u) {x : FVec Ideal s .f32} (idx : IVec si w)
    {upd : FVec Ideal u .f32} (hx : AllReal x) (hu : AllReal upd) : AllReal (Host.scatterAdd (F := Ideal) d x idx upd) := by
  intro i
  show IsReal (Ideal.hostScatterAdd d x idx upd i)
  unfold Ideal.hostScatterAdd
  exact (hx i).add (isReal_sum _ _ fun j _ => hu j)

end Ops

/-- The two-layer perceptron of real arrays is real, at any sizes. -/
theorem mlp_real {n A B C : Nat} (x : (⟨2, ![n, A]⟩ : Shape).Idx → EReal) (W1 : (⟨2, ![A, B]⟩ : Shape).Idx → EReal)
    (b1 : (⟨1, ![B]⟩ : Shape).Idx → EReal) (W2 : (⟨2, ![B, C]⟩ : Shape).Idx → EReal) (b2 : (⟨1, ![C]⟩ : Shape).Idx → EReal)
    (hx : AllReal x) (hW1 : AllReal W1) (hb1 : AllReal b1) (hW2 : AllReal W2) (hb2 : AllReal b2) :
    AllReal (mlp x W1 b1 W2 b2) := by
  intro i
  show IsReal (mlpAt x W1 b1 W2 b2 (i 0) (i 1))
  unfold mlpAt
  exact (isReal_sum _ _ fun q _ =>
    (((isReal_sum _ _ fun p _ => (hx _).mul (hW1 _)).add (hb1 _)).max isReal_zero).mul (hW2 _)).add (hb2 _)

variable [Cert.ReferenceIdeal.Facts]
open Cert.ReferenceIdeal Cert.ReferenceIdeal.Facts₀ Cert.ReferenceIdeal.Facts

/-- The input of the dense part at width 64 is real when the node features and the scalar eps are. -/
theorem pre64_real (x : FVec Ideal S200000x64 .f32) (e : IVec S2x3200000 32) (eps : FVec Ideal S_ .f32) (hx : AllReal x)
    (he : AllReal eps) : AllReal (Cert.Spec.pre64 x e eps) := by
  unfold Cert.Spec.pre64
  exact allReal_addf (allReal_mulf (allReal_broadcastInDim _ _ (allReal_addf allReal_one he)) hx)
    (allReal_scatterAdd _ _ (allReal_broadcastInDim _ _ allReal_zero) (allReal_gather _ _ hx))

/-- The same at width 32. -/
theorem pre32_real (x : FVec Ideal S200000x32 .f32) (e : IVec S2x3200000 32) (eps : FVec Ideal S_ .f32) (hx : AllReal x)
    (he : AllReal eps) : AllReal (Cert.Spec.pre32 x e eps) := by
  unfold Cert.Spec.pre32
  exact allReal_addf (allReal_mulf (allReal_broadcastInDim _ _ (allReal_addf allReal_one he)) hx)
    (allReal_scatterAdd _ _ (allReal_broadcastInDim _ _ allReal_zero) (allReal_gather _ _ hx))

end Cert.Bridge

end
-- ==== Proof.BridgeLayer.lean ====
/-
  One layer, joined: the reference's layer bn (dense (pre x e eps) W1 b1 W2 b2) g bt is the device's affine pass on the
  explicit perceptron of the layer's input, at the host's statistics of the tile-by-tile column sums of the perceptron's
  output and of its squares, whenever the layer's float inputs are real; and the layer's output is then real again, so
  the statement applies to the next layer.
-/
import proofs.«120907_j71768903516484_1_alg».proof.Proof.BridgeDense
import proofs.«120907_j71768903516484_1_alg».proof.Proof.BridgeBn
import proofs.«120907_j71768903516484_1_alg».proof.Proof.BridgeReal

noncomputable section

namespace Cert.Bridge

open Idealize.ShloMosaic Idealize.ShloMosaic.ValueIdx Cert.KernelIdeal.GinSpec Cert.Lib.Real

variable [Cert.ReferenceIdeal.Facts]
open Cert.ReferenceIdeal Cert.ReferenceIdeal.Facts₀ Cert.ReferenceIdeal.Facts

/-- Layer at widths 64, 64, 64. -/
theorem layerA_eq (x : FVec Ideal S200000x64 .f32) (e : IVec S2x3200000 32) (eps : FVec Ideal S_ .f32)
    (W1 : FVec Ideal S64x64 .f32) (b1 : FVec Ideal S64 .f32) (W2 : FVec Ideal S64x64 .f32) (b2 g bt : FVec Ideal S64 .f32)
    (S Q : FVec Ideal S1x64 .f32) (hx : AllReal x) (he : AllReal eps) (hW1 : AllReal W1) (hb1 : AllReal b1)
    (hW2 : AllReal W2) (hb2 : AllReal b2)
    (hS : ∀ c : Fin 64, S (ix2 (0 : Fin 1) c)
      = colSumAt 50 4000 rfl (fun r c => mlp (Cert.Spec.pre64 x e eps) W1 b1 W2 b2 (ix2 r c)) c)
    (hQ : ∀ c : Fin 64, Q (ix2 (0 : Fin 1) c)
      = colSumAt 50 4000 rfl (fun r c => mlp (Cert.Spec.pre64 x e eps) W1 b1 W2 b2 (ix2 r c)
          * mlp (Cert.Spec.pre64 x e eps) W1 b1 W2 b2 (ix2 r c)) c) :
    Cert.Spec.layerA x e eps W1 b1 W2 b2 g bt
      = bnAffine (mlp (Cert.Spec.pre64 x e eps) W1 b1 W2 b2) (Cert.Spec.statsMu64 S) (Cert.Spec.statsVar64 S Q) g bt := by
  unfold Cert.Spec.layerA
  rw [dense64a_eq]
  exact bn64_eq _ g bt S Q (mlp_real _ W1 b1 W2 b2 (pre64_real x e eps hx he) hW1 hb1 hW2 hb2) hS hQ

theorem layerA_real (x : FVec Ideal S200000x64 .f32) (e : IVec S2x3200000 32) (eps : FVec Ideal S_ .f32)
    (W1 : FVec Ideal S64x64 .f32) (b1 : FVec Ideal S64 .f32) (W2 : FVec Ideal S64x64 .f32) (b2 g bt : FVec Ideal S64 .f32)
    (hx : AllReal x) (he : AllReal eps) (hW1 : AllReal W1) (hb1 : AllReal b1) (hW2 : AllReal W2) (hb2 : AllReal b2)
    (hg : AllReal g) (hbt : AllReal bt) : AllReal (Cert.Spec.layerA x e eps W1 b1 W2 b2 g bt) := by
  unfold Cert.Spec.layerA
  rw [dense64a_eq]
  exact bnR64_real _ g bt (mlp_real _ W1 b1 W2 b2 (pre64_real x e eps hx he) hW1 hb1 hW2 hb2) hg hbt

/-- Layer at widths 64, 32, 32. -/
theorem layerB_eq (x : FVec Ideal S200000x64 .f32) (e : IVec S2x3200000 32) (eps : FVec Ideal S_ .f32)
    (W1 : FVec Ideal S64x32 .f32) (b1 : FVec Ideal S32 .f32) (W2 : FVec Ideal S32x32 .f32) (b2 g bt : FVec Ideal S32 .f32)
    (S Q : FVec Ideal S1x32 .f32) (hx : AllReal x) (he : AllReal eps) (hW1 : AllReal W1) (hb1 : AllReal b1)
    (hW2 : AllReal W2) (hb2 : AllReal b2)
    (hS : ∀ c : Fin 32, S (ix2 (0 : Fin 1) c)
      = colSumAt 50 4000 rfl (fun r c => mlp (Cert.Spec.pre64 x e eps) W1 b1 W2 b2 (ix2 r c)) c)
    (hQ : ∀ c : Fin 32, Q (ix2 (0 : Fin 1) c)
      = colSumAt 50 4000 rfl (fun r c => mlp (Cert.Spec.pre64 x e eps) W1 b1 W2 b2 (ix2 r c)
          * mlp (Cert.Spec.pre64 x e eps) W1 b1 W2 b2 (ix2 r c)) c) :
    Cert.Spec.layerB x e eps W1 b1 W2 b2 g bt
      = bnAffine (mlp (Cert.Spec.pre64 x e eps) W1 b1 W2 b2) (Cert.Spec.statsMu32 S) (Cert.Spec.statsVar32 S Q) g bt := by
  unfold Cert.Spec.layerB
  rw [dense64b_eq]
  exact bn32_eq _ g bt S Q (mlp_real _ W1 b1 W2 b2 (pre64_real x e eps hx he) hW1 hb1 hW2 hb2) hS hQ

theorem layerB_real (x : FVec Ideal S200000x64 .f32) (e : IVec S2x3200000 32) (eps : FVec Ideal S_ .f32)
    (W1 : FVec Ideal S64x32 .f32) (b1 : FVec Ideal S32 .f32) (W2 : FVec Ideal S32x32 .f32) (b2 g bt : FVec Ideal S32 .f32)
    (hx : AllReal x) (he : AllReal eps) (hW1 : AllReal W1) (hb1 : AllReal b1) (hW2 : AllReal W2) (hb2 : AllReal b2)
    (hg : AllReal g) (hbt : AllReal bt) : AllReal (Cert.Spec.layerB x e eps W1 b1 W2 b2 g bt) := by
  unfold Cert.Spec.layerB
  rw [dense64b_eq]
  exact bnR32_real _ g bt (mlp_real _ W1 b1 W2 b2 (pre64_real x e eps hx he) hW1 hb1 hW2 hb2) hg hbt

/-- Layer at widths 32, 16, 16. -/
theorem layerC_eq (x : FVec Ideal S200000x32 .f32) (e : IVec S2x3200000 32) (eps : FVec Ideal S_ .f32)
    (W1 : FVec Ideal S32x16 .f32) (b1 : FVec Ideal S16 .f32) (W2 : FVec Ideal S16x16 .f32) (b2 g bt : FVec Ideal S16 .f32)
    (S Q : FVec Ideal S1x16 .f32) (hx : AllReal x) (he : AllReal eps) (hW1 : AllReal W1) (hb1 : AllReal b1)
    (hW2 : AllReal W2) (hb2 : AllReal b2)
    (hS : ∀ c : Fin 16, S (ix2 (0 : Fin 1) c)
      = colSumAt 50 4000 rfl (fun r c => mlp (Cert.Spec.pre32 x e eps) W1 b1 W2 b2 (ix2 r c)) c)
    (hQ : ∀ c : Fin 16, Q (ix2 (0 : Fin 1) c)
      = colSumAt 50 4000 rfl (fun r c => mlp (Cert.Spec.pre32 x e eps) W1 b1 W2 b2 (ix2 r c)
          * mlp (Cert.Spec.pre32 x e eps) W1 b1 W2 b2 (ix2 r c)) c) :
    Cert.Spec.layerC x e eps W1 b1 W2 b2 g bt
      = bnAffine (mlp (Cert.Spec.pre32 x e eps) W1 b1 W2 b2) (Cert.Spec.statsMu16 S) (Cert.Spec.statsVar16 S Q) g bt := by
  unfold Cert.Spec.layerC
  rw [dense32_eq]
  exact bn16_eq _ g bt S Q (mlp_real _ W1 b1 W2 b2 (pre32_real x e eps hx he) hW1 hb1 hW2 hb2) hS hQ

theorem layerC_real (x : FVec Ideal S200000x32 .f32) (e : IVec S2x3200000 32) (eps : FVec Ideal S_ .f32)
    (W1 : FVec Ideal S32x16 .f32) (b1 : FVec Ideal S16 .f32) (W2 : FVec Ideal S16x16 .f32) (b2 g bt : FVec Ideal S16 .f32)
    (hx : AllReal x) (he : AllReal eps) (hW1 : AllReal W1) (hb1 : AllReal b1) (hW2 : AllReal W2) (hb2 : AllReal b2)
    (hg : AllReal g) (hbt : AllReal bt) : AllReal (Cert.Spec.layerC x e eps W1 b1 W2 b2 g bt) := by
  unfold Cert.Spec.layerC
  rw [dense32_eq]
  exact bnR16_real _ g bt (mlp_real _ W1 b1 W2 b2 (pre32_real x e eps hx he) hW1 hb1 hW2 hb2) hg hbt

/-- Layer A with the column sums stated on the perceptron's entries (the sums over 50 tiles of 4000 rows of
    mlpAt at row r and column q, and of its square). -/
theorem layerA_eq' (x : FVec Ideal S200000x64 .f32) (e : IVec S2x3200000 32) (eps : FVec Ideal S_ .f32)
    (W1 : FVec Ideal S64x64 .f32) (b1 : FVec Ideal S64 .f32) (W2 : FVec Ideal S64x64 .f32) (b2 g bt : FVec Ideal S64 .f32)
    (S Q : FVec Ideal S1x64 .f32) (hx : AllReal x) (he : AllReal eps) (hW1 : AllReal W1) (hb1 : AllReal b1)
    (hW2 : AllReal W2) (hb2 : AllReal b2)
    (hS : ∀ c : Fin 64, S (ix2 (0 : Fin 1) c)
      = colSumAt 50 4000 (by decide : 50 * 4000 = 200000)
          (fun r q => mlpAt (Cert.Spec.pre64 x e eps) W1 b1 W2 b2 r q) c)
    (hQ : ∀ c : Fin 64, Q (ix2 (0 : Fin 1) c)
      = colSumAt 50 4000 (by decide : 50 * 4000 = 200000)
          (fun r q => mlpAt (Cert.Spec.pre64 x e eps) W1 b1 W2 b2 r q * mlpAt (Cert.Spec.pre64 x e eps) W1 b1 W2 b2 r q) c) :
    Cert.Spec.layerA x e eps W1 b1 W2 b2 g bt
      = bnAffine (mlp (Cert.Spec.pre64 x e eps) W1 b1 W2 b2) (Cert.Spec.statsMu64 S) (Cert.Spec.statsVar64 S Q) g bt :=
  layerA_eq x e eps W1 b1 W2 b2 g bt S Q hx he hW1 hb1 hW2 hb2 hS hQ

/-- Layer B with the column sums stated on the perceptron's entries (the sums over 50 tiles of 4000 rows of
    mlpAt at row r and column q, and of its square). -/
theorem layerB_eq' (x : FVec Ideal S200000x64 .f32) (e : IVec S2x3200000 32) (eps : FVec Ideal S_ .f32)
    (W1 : FVec Ideal S64x32 .f32) (b1 : FVec Ideal S32 .f32) (W2 : FVec Ideal S32x32 .f32) (b2 g bt : FVec Ideal S32 .f32)
    (S Q : FVec Ideal S1x32 .f32) (hx : AllReal x) (he : AllReal eps) (hW1 : AllReal W1) (hb1 : AllReal b1)
    (hW2 : AllReal W2) (hb2 : AllReal b2)
    (hS : ∀ c : Fin 32, S (ix2 (0 : Fin 1) c)
      = colSumAt 50 4000 (by decide : 50 * 4000 = 200000)
          (fun r q => mlpAt (Cert.Spec.pre64 x e eps) W1 b1 W2 b2 r q) c)
    (hQ : ∀ c : Fin 32, Q (ix2 (0 : Fin 1) c)
      = colSumAt 50 4000 (by decide : 50 * 4000 = 200000)
          (fun r q => mlpAt (Cert.Spec.pre64 x e eps) W1 b1 W2 b2 r q * mlpAt (Cert.Spec.pre64 x e eps) W1 b1 W2 b2 r q) c) :
    Cert.Spec.layerB x e eps W1 b1 W2 b2 g bt
      = bnAffine (mlp (Cert.Spec.pre64 x e eps) W1 b1 W2 b2) (Cert.Spec.statsMu32 S) (Cert.Spec.statsVar32 S Q) g bt :=
  layerB_eq x e eps W1 b1 W2 b2 g bt S Q hx he hW1 hb1 hW2 hb2 hS hQ

/-- Layer C with the column sums stated on the perceptron's entries (the sums over 50 tiles of 4000 rows of
    mlpAt at row r and column q, and of its square). -/
theorem layerC_eq' (x : FVec Ideal S200000x32 .f32) (e : IVec S2x3200000 32) (eps : FVec Ideal S_ .f32)
    (W1 : FVec Ideal S32x16 .f32) (b1 : FVec Ideal S16 .f32) (W2 : FVec Ideal S16x16 .f32) (b2 g bt : FVec Ideal S16 .f32)
    (S Q : FVec Ideal S1x16 .f32) (hx : AllReal x) (he : AllReal eps) (hW1 : AllReal W1) (hb1 : AllReal b1)
    (hW2 : AllReal W2) (hb2 : AllReal b2)
    (hS : ∀ c : Fin 16, S (ix2 (0 : Fin 1) c)
      = colSumAt 50 4000 (by decide : 50 * 4000 = 200000)
          (fun r q => mlpAt (Cert.Spec.pre32 x e eps) W1 b1 W2 b2 r q) c)
    (hQ : ∀ c : Fin 16, Q (ix2 (0 : Fin 1) c)
      = colSumAt 50 4000 (by decide : 50 * 4000 = 200000)
          (fun r q => mlpAt (Cert.Spec.pre32 x e eps) W1 b1 W2 b2 r q * mlpAt (Cert.Spec.pre32 x e eps) W1 b1 W2 b2 r q) c) :
    Cert.Spec.layerC x e eps W1 b1 W2 b2 g bt
      = bnAffine (mlp (Cert.Spec.pre32 x e eps) W1 b1 W2 b2) (Cert.Spec.statsMu16 S) (Cert.Spec.statsVar16 S Q) g bt :=
  layerC_eq x e eps W1 b1 W2 b2 g bt S Q hx he hW1 hb1 hW2 hb2 hS hQ

end Cert.Bridge

end
-- ==== Proof.KBlock.lean ====
/-
  The kernel program's six blocks (a layer on one side: the stretch of host operations that builds the layer's input,
  the first region, the stretch that turns the column sums into mean and variance, the second region), each joined to
  the reference's layer. The statement is about arbitrary contents before the block, after the first region and after
  the second: given what the two regions compute — the explicit perceptron of the input with its tile-by-tile column
  sums and sums of squares, and the affine normalisation — in terms of what the stretches before them leave, the
  normalised array is the reference's layer of the block's nine inputs, provided the float inputs are real.
-/
import proofs.«120907_j71768903516484_1_alg».proof.Proof.KHost
import proofs.«120907_j71768903516484_1_alg».proof.Proof.BridgeLayer
import proofs.«120907_j71768903516484_1_alg».proof.Proof.GinSpec
import proofs.«120907_j71768903516484_1_alg».proof.Proof.Spec

noncomputable section

namespace Cert.KernelIdeal.KBlock

open Cert.KernelIdeal Cert.KernelIdeal.Gen Idealize.ShloMosaic Idealize.ShloMosaic.TcCoe Idealize.SL.Sem Idealize.ShloMosaic.StableHlo
open Idealize.ShloMosaic.ValueIdx Cert.KernelIdeal.GinSpec Cert.Lib.Real Cert.KernelIdeal.KHost

variable [Cert.KernelIdeal.Facts] [Cert.ReferenceIdeal.Facts]

/-- Block 0 (layer 1, side i): from the layer's nine inputs, the first region's three results stated on what the stretch
    before it leaves, and the second region's result stated on what the stretch between them leaves, the normalised
    array is the reference's layer of the inputs. -/
theorem block_0 (Wa Wa2 Wa4 : Valuation τ sig (Elt Ideal))
    (X : FVec Ideal S200000x64 .f32) (E : IVec S2x3200000 32) (eps : FVec Ideal S_ .f32) (W1 : FVec Ideal S64x64 .f32) (b1 : FVec Ideal S64 .f32) (W2 : FVec Ideal S64x64 .f32)
    (b2 g bt : FVec Ideal S64 .f32)
    (hX : (Wa (main_arg0 : DevRef τ sig) : FVec Ideal S200000x64 .f32) = X) (hE : (Wa (main_arg2 : DevRef τ sig) : IVec S2x3200000 32) = E)
    (heps : (Wa (main_arg6 : DevRef τ sig) : FVec Ideal S_ .f32) = eps) (hW1 : (Wa (main_arg7 : DevRef τ sig) : FVec Ideal S64x64 .f32) = W1)
    (hb1 : (Wa (main_arg8 : DevRef τ sig) : FVec Ideal S64 .f32) = b1) (hW2 : (Wa (main_arg9 : DevRef τ sig) : FVec Ideal S64x64 .f32) = W2)
    (hb2 : (Wa (main_arg10 : DevRef τ sig) : FVec Ideal S64 .f32) = b2) (hg : (Wa (main_arg11 : DevRef τ sig) : FVec Ideal S64 .f32) = g) (hbt : (Wa (main_arg12 : DevRef τ sig) : FVec Ideal S64 .f32) = bt)
    (rX : AllReal X) (reps : AllReal eps) (rW1 : AllReal W1) (rb1 : AllReal b1) (rW2 : AllReal W2) (rb2 : AllReal b2)
    (hH : (Wa2 (main_v18_0 : DevRef τ sig) : FVec Ideal S200000x64 .f32) = mlp (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32))
    (hS : (Wa2 (main_v18_1 : DevRef τ sig) : FVec Ideal S1x64 .f32) = fun i => colSumAt 50 4000 (by decide : 50 * 4000 = 200000)
      (fun r q => mlpAt (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32) r q) (i 1))
    (hQ : (Wa2 (main_v18_2 : DevRef τ sig) : FVec Ideal S1x64 .f32) = fun i => colSumAt 50 4000 (by decide : 50 * 4000 = 200000)
      (fun r q => mlpAt (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32) r q
        * mlpAt (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32) r q) (i 1))
    (hk2 : ∀ r : Ref sig .tc, r ∉ [main_v17, main_arg7, main_arg8, main_arg9, main_arg10, main_v18_0, main_v18_1, main_v18_2] →
      Wa2 (Proc.devRef .tc r) = after (hostOps0 (F := Ideal)) Wa (Proc.devRef .tc r))
    (hout : (Wa4 (main_v25 : DevRef τ sig) : FVec Ideal S200000x64 .f32) = bnAffine (after (hostOps1 (F := Ideal)) Wa2 (main_v18_0 : DevRef τ sig) : FVec Ideal S200000x64 .f32) (after (hostOps1 (F := Ideal)) Wa2 (main_v20 : DevRef τ sig) : FVec Ideal S1x64 .f32) (after (hostOps1 (F := Ideal)) Wa2 (main_v24 : DevRef τ sig) : FVec Ideal S1x64 .f32) (after (hostOps1 (F := Ideal)) Wa2 (main_arg11 : DevRef τ sig) : FVec Ideal S64 .f32) (after (hostOps1 (F := Ideal)) Wa2 (main_arg12 : DevRef τ sig) : FVec Ideal S64 .f32)) :
    (Wa4 (main_v25 : DevRef τ sig) : FVec Ideal S200000x64 .f32) = Cert.Spec.layerA X E eps W1 b1 W2 b2 g bt := by
  have p : (after (hostOps0 (F := Ideal)) Wa (main_v17 : DevRef τ sig) : FVec Ideal S200000x64 .f32) = Cert.Spec.pre64 X E eps := by
    rw [pre_0 Wa, hX, hE, heps]
  have k1 : (after (hostOps0 (F := Ideal)) Wa (main_arg7 : DevRef τ sig) : FVec Ideal S64x64 .f32) = W1 := (keep_hostOps0 Wa main_arg7 (by decide)).trans hW1
  have k2 : (after (hostOps0 (F := Ideal)) Wa (main_arg8 : DevRef τ sig) : FVec Ideal S64 .f32) = b1 := (keep_hostOps0 Wa main_arg8 (by decide)).trans hb1
  have k3 : (after (hostOps0 (F := Ideal)) Wa (main_arg9 : DevRef τ sig) : FVec Ideal S64x64 .f32) = W2 := (keep_hostOps0 Wa main_arg9 (by decide)).trans hW2
  have k4 : (after (hostOps0 (F := Ideal)) Wa (main_arg10 : DevRef τ sig) : FVec Ideal S64 .f32) = b2 := (keep_hostOps0 Wa main_arg10 (by decide)).trans hb2
  rw [p, k1, k2, k3, k4] at hH hS hQ
  have kH : (after (hostOps1 (F := Ideal)) Wa2 (main_v18_0 : DevRef τ sig) : FVec Ideal S200000x64 .f32) = mlp (Cert.Spec.pre64 X E eps) W1 b1 W2 b2 :=
    (keep_hostOps1 Wa2 main_v18_0 (by decide)).trans hH
  have kg : (after (hostOps1 (F := Ideal)) Wa2 (main_arg11 : DevRef τ sig) : FVec Ideal S64 .f32) = g :=
    (keep_hostOps1 Wa2 main_arg11 (by decide)).trans ((hk2 main_arg11 (by decide)).trans ((keep_hostOps0 Wa main_arg11 (by decide)).trans hg))
  have kbt : (after (hostOps1 (F := Ideal)) Wa2 (main_arg12 : DevRef τ sig) : FVec Ideal S64 .f32) = bt :=
    (keep_hostOps1 Wa2 main_arg12 (by decide)).trans ((hk2 main_arg12 (by decide)).trans ((keep_hostOps0 Wa main_arg12 (by decide)).trans hbt))
  rw [hout, kH, mu_0 Wa2, var_0 Wa2, kg, kbt]
  exact (Cert.Bridge.layerA_eq' X E eps W1 b1 W2 b2 g bt _ _ rX reps rW1 rb1 rW2 rb2
    (fun c => congrFun hS (ix2 (0 : Fin 1) c)) (fun c => congrFun hQ (ix2 (0 : Fin 1) c))).symm

/-- Block 1 (layer 1, side j): from the layer's nine inputs, the first region's three results stated on what the stretch
    before it leaves, and the second region's result stated on what the stretch between them leaves, the normalised
    array is the reference's layer of the inputs. -/
theorem block_1 (Wa Wa2 Wa4 : Valuation τ sig (Elt Ideal))
    (X : FVec Ideal S200000x64 .f32) (E : IVec S2x3200000 32) (eps : FVec Ideal S_ .f32) (W1 : FVec Ideal S64x64 .f32) (b1 : FVec Ideal S64 .f32) (W2 : FVec Ideal S64x64 .f32)
    (b2 g bt : FVec Ideal S64 .f32)
    (hX : (Wa (main_arg1 : DevRef τ sig) : FVec Ideal S200000x64 .f32) = X) (hE : (Wa (main_arg3 : DevRef τ sig) : IVec S2x3200000 32) = E)
    (heps : (Wa (main_arg6 : DevRef τ sig) : FVec Ideal S_ .f32) = eps) (hW1 : (Wa (main_arg7 : DevRef τ sig) : FVec Ideal S64x64 .f32) = W1)
    (hb1 : (Wa (main_arg8 : DevRef τ sig) : FVec Ideal S64 .f32) = b1) (hW2 : (Wa (main_arg9 : DevRef τ sig) : FVec Ideal S64x64 .f32) = W2)
    (hb2 : (Wa (main_arg10 : DevRef τ sig) : FVec Ideal S64 .f32) = b2) (hg : (Wa (main_arg11 : DevRef τ sig) : FVec Ideal S64 .f32) = g) (hbt : (Wa (main_arg12 : DevRef τ sig) : FVec Ideal S64 .f32) = bt)
    (rX : AllReal X) (reps : AllReal eps) (rW1 : AllReal W1) (rb1 : AllReal b1) (rW2 : AllReal W2) (rb2 : AllReal b2)
    (hH : (Wa2 (main_v44_0 : DevRef τ sig) : FVec Ideal S200000x64 .f32) = mlp (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32))
    (hS : (Wa2 (main_v44_1 : DevRef τ sig) : FVec Ideal S1x64 .f32) = fun i => colSumAt 50 4000 (by decide : 50 * 4000 = 200000)
      (fun r q => mlpAt (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32) r q) (i 1))
    (hQ : (Wa2 (main_v44_2 : DevRef τ sig) : FVec Ideal S1x64 .f32) = fun i => colSumAt 50 4000 (by decide : 50 * 4000 = 200000)
      (fun r q => mlpAt (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32) r q
        * mlpAt (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32) r q) (i 1))
    (hk2 : ∀ r : Ref sig .tc, r ∉ [main_v43, main_arg7, main_arg8, main_arg9, main_arg10, main_v44_0, main_v44_1, main_v44_2] →
      Wa2 (Proc.devRef .tc r) = after (hostOps2 (F := Ideal)) Wa (Proc.devRef .tc r))
    (hout : (Wa4 (main_v51 : DevRef τ sig) : FVec Ideal S200000x64 .f32) = bnAffine (after (hostOps3 (F := Ideal)) Wa2 (main_v44_0 : DevRef τ sig) : FVec Ideal S200000x64 .f32) (after (hostOps3 (F := Ideal)) Wa2 (main_v46 : DevRef τ sig) : FVec Ideal S1x64 .f32) (after (hostOps3 (F := Ideal)) Wa2 (main_v50 : DevRef τ sig) : FVec Ideal S1x64 .f32) (after (hostOps3 (F := Ideal)) Wa2 (main_arg11 : DevRef τ sig) : FVec Ideal S64 .f32) (after (hostOps3 (F := Ideal)) Wa2 (main_arg12 : DevRef τ sig) : FVec Ideal S64 .f32)) :
    (Wa4 (main_v51 : DevRef τ sig) : FVec Ideal S200000x64 .f32) = Cert.Spec.layerA X E eps W1 b1 W2 b2 g bt := by
  have p : (after (hostOps2 (F := Ideal)) Wa (main_v43 : DevRef τ sig) : FVec Ideal S200000x64 .f32) = Cert.Spec.pre64 X E eps := by
    rw [pre_1 Wa, hX, hE, heps]
  have k1 : (after (hostOps2 (F := Ideal)) Wa (main_arg7 : DevRef τ sig) : FVec Ideal S64x64 .f32) = W1 := (keep_hostOps2 Wa main_arg7 (by decide)).trans hW1
  have k2 : (after (hostOps2 (F := Ideal)) Wa (main_arg8 : DevRef τ sig) : FVec Ideal S64 .f32) = b1 := (keep_hostOps2 Wa main_arg8 (by decide)).trans hb1
  have k3 : (after (hostOps2 (F := Ideal)) Wa (main_arg9 : DevRef τ sig) : FVec Ideal S64x64 .f32) = W2 := (keep_hostOps2 Wa main_arg9 (by decide)).trans hW2
  have k4 : (after (hostOps2 (F := Ideal)) Wa (main_arg10 : DevRef τ sig) : FVec Ideal S64 .f32) = b2 := (keep_hostOps2 Wa main_arg10 (by decide)).trans hb2
  rw [p, k1, k2, k3, k4] at hH hS hQ
  have kH : (after (hostOps3 (F := Ideal)) Wa2 (main_v44_0 : DevRef τ sig) : FVec Ideal S200000x64 .f32) = mlp (Cert.Spec.pre64 X E eps) W1 b1 W2 b2 :=
    (keep_hostOps3 Wa2 main_v44_0 (by decide)).trans hH
  have kg : (after (hostOps3 (F := Ideal)) Wa2 (main_arg11 : DevRef τ sig) : FVec Ideal S64 .f32) = g :=
    (keep_hostOps3 Wa2 main_arg11 (by decide)).trans ((hk2 main_arg11 (by decide)).trans ((keep_hostOps2 Wa main_arg11 (by decide)).trans hg))
  have kbt : (after (hostOps3 (F := Ideal)) Wa2 (main_arg12 : DevRef τ sig) : FVec Ideal S64 .f32) = bt :=
    (keep_hostOps3 Wa2 main_arg12 (by decide)).trans ((hk2 main_arg12 (by decide)).trans ((keep_hostOps2 Wa main_arg12 (by decide)).trans hbt))
  rw [hout, kH, mu_1 Wa2, var_1 Wa2, kg, kbt]
  exact (Cert.Bridge.layerA_eq' X E eps W1 b1 W2 b2 g bt _ _ rX reps rW1 rb1 rW2 rb2
    (fun c => congrFun hS (ix2 (0 : Fin 1) c)) (fun c => congrFun hQ (ix2 (0 : Fin 1) c))).symm

/-- Block 2 (layer 2, side i): from the layer's nine inputs, the first region's three results stated on what the stretch
    before it leaves, and the second region's result stated on what the stretch between them leaves, the normalised
    array is the reference's layer of the inputs. -/
theorem block_2 (Wa Wa2 Wa4 : Valuation τ sig (Elt Ideal))
    (X : FVec Ideal S200000x64 .f32) (E : IVec S2x3200000 32) (eps : FVec Ideal S_ .f32) (W1 : FVec Ideal S64x32 .f32) (b1 : FVec Ideal S32 .f32) (W2 : FVec Ideal S32x32 .f32)
    (b2 g bt : FVec Ideal S32 .f32)
    (hX : (Wa (main_v25 : DevRef τ sig) : FVec Ideal S200000x64 .f32) = X) (hE : (Wa (main_arg2 : DevRef τ sig) : IVec S2x3200000 32) = E)
    (heps : (Wa (main_arg13 : DevRef τ sig) : FVec Ideal S_ .f32) = eps) (hW1 : (Wa (main_arg14 : DevRef τ sig) : FVec Ideal S64x32 .f32) = W1)
    (hb1 : (Wa (main_arg15 : DevRef τ sig) : FVec Ideal S32 .f32) = b1) (hW2 : (Wa (main_arg16 : DevRef τ sig) : FVec Ideal S32x32 .f32) = W2)
    (hb2 : (Wa (main_arg17 : DevRef τ sig) : FVec Ideal S32 .f32) = b2) (hg : (Wa (main_arg18 : DevRef τ sig) : FVec Ideal S32 .f32) = g) (hbt : (Wa (main_arg19 : DevRef τ sig) : FVec Ideal S32 .f32) = bt)
    (rX : AllReal X) (reps : AllReal eps) (rW1 : AllReal W1) (rb1 : AllReal b1) (rW2 : AllReal W2) (rb2 : AllReal b2)
    (hH : (Wa2 (main_v70_0 : DevRef τ sig) : FVec Ideal S200000x32 .f32) = mlp (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32))
    (hS : (Wa2 (main_v70_1 : DevRef τ sig) : FVec Ideal S1x32 .f32) = fun i => colSumAt 50 4000 (by decide : 50 * 4000 = 200000)
      (fun r q => mlpAt (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32) r q) (i 1))
    (hQ : (Wa2 (main_v70_2 : DevRef τ sig) : FVec Ideal S1x32 .f32) = fun i => colSumAt 50 4000 (by decide : 50 * 4000 = 200000)
      (fun r q => mlpAt (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32) r q
        * mlpAt (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32) r q) (i 1))
    (hk2 : ∀ r : Ref sig .tc, r ∉ [main_v69, main_arg14, main_arg15, main_arg16, main_arg17, main_v70_0, main_v70_1, main_v70_2] →
      Wa2 (Proc.devRef .tc r) = after (hostOps4 (F := Ideal)) Wa (Proc.devRef .tc r))
    (hout : (Wa4 (main_v77 : DevRef τ sig) : FVec Ideal S200000x32 .f32) = bnAffine (after (hostOps5 (F := Ideal)) Wa2 (main_v70_0 : DevRef τ sig) : FVec Ideal S200000x32 .f32) (after (hostOps5 (F := Ideal)) Wa2 (main_v72 : DevRef τ sig) : FVec Ideal S1x32 .f32) (after (hostOps5 (F := Ideal)) Wa2 (main_v76 : DevRef τ sig) : FVec Ideal S1x32 .f32) (after (hostOps5 (F := Ideal)) Wa2 (main_arg18 : DevRef τ sig) : FVec Ideal S32 .f32) (after (hostOps5 (F := Ideal)) Wa2 (main_arg19 : DevRef τ sig) : FVec Ideal S32 .f32)) :
    (Wa4 (main_v77 : DevRef τ sig) : FVec Ideal S200000x32 .f32) = Cert.Spec.layerB X E eps W1 b1 W2 b2 g bt := by
  have p : (after (hostOps4 (F := Ideal)) Wa (main_v69 : DevRef τ sig) : FVec Ideal S200000x64 .f32) = Cert.Spec.pre64 X E eps := by
    rw [pre_2 Wa, hX, hE, heps]
  have k1 : (after (hostOps4 (F := Ideal)) Wa (main_arg14 : DevRef τ sig) : FVec Ideal S64x32 .f32) = W1 := (keep_hostOps4 Wa main_arg14 (by decide)).trans hW1
  have k2 : (after (hostOps4 (F := Ideal)) Wa (main_arg15 : DevRef τ sig) : FVec Ideal S32 .f32) = b1 := (keep_hostOps4 Wa main_arg15 (by decide)).trans hb1
  have k3 : (after (hostOps4 (F := Ideal)) Wa (main_arg16 : DevRef τ sig) : FVec Ideal S32x32 .f32) = W2 := (keep_hostOps4 Wa main_arg16 (by decide)).trans hW2
  have k4 : (after (hostOps4 (F := Ideal)) Wa (main_arg17 : DevRef τ sig) : FVec Ideal S32 .f32) = b2 := (keep_hostOps4 Wa main_arg17 (by decide)).trans hb2
  rw [p, k1, k2, k3, k4] at hH hS hQ
  have kH : (after (hostOps5 (F := Ideal)) Wa2 (main_v70_0 : DevRef τ sig) : FVec Ideal S200000x32 .f32) = mlp (Cert.Spec.pre64 X E eps) W1 b1 W2 b2 :=
    (keep_hostOps5 Wa2 main_v70_0 (by decide)).trans hH
  have kg : (after (hostOps5 (F := Ideal)) Wa2 (main_arg18 : DevRef τ sig) : FVec Ideal S32 .f32) = g :=
    (keep_hostOps5 Wa2 main_arg18 (by decide)).trans ((hk2 main_arg18 (by decide)).trans ((keep_hostOps4 Wa main_arg18 (by decide)).trans hg))
  have kbt : (after (hostOps5 (F := Ideal)) Wa2 (main_arg19 : DevRef τ sig) : FVec Ideal S32 .f32) = bt :=
    (keep_hostOps5 Wa2 main_arg19 (by decide)).trans ((hk2 main_arg19 (by decide)).trans ((keep_hostOps4 Wa main_arg19 (by decide)).trans hbt))
  rw [hout, kH, mu_2 Wa2, var_2 Wa2, kg, kbt]
  exact (Cert.Bridge.layerB_eq' X E eps W1 b1 W2 b2 g bt _ _ rX reps rW1 rb1 rW2 rb2
    (fun c => congrFun hS (ix2 (0 : Fin 1) c)) (fun c => congrFun hQ (ix2 (0 : Fin 1) c))).symm

/-- Block 3 (layer 2, side j): from the layer's nine inputs, the first region's three results stated on what the stretch
    before it leaves, and the second region's result stated on what the stretch between them leaves, the normalised
    array is the reference's layer of the inputs. -/
theorem block_3 (Wa Wa2 Wa4 : Valuation τ sig (Elt Ideal))
    (X : FVec Ideal S200000x64 .f32) (E : IVec S2x3200000 32) (eps : FVec Ideal S_ .f32) (W1 : FVec Ideal S64x32 .f32) (b1 : FVec Ideal S32 .f32) (W2 : FVec Ideal S32x32 .f32)
    (b2 g bt : FVec Ideal S32 .f32)
    (hX : (Wa (main_v51 : DevRef τ sig) : FVec Ideal S200000x64 .f32) = X) (hE : (Wa (main_arg3 : DevRef τ sig) : IVec S2x3200000 32) = E)
    (heps : (Wa (main_arg13 : DevRef τ sig) : FVec Ideal S_ .f32) = eps) (hW1 : (Wa (main_arg14 : DevRef τ sig) : FVec Ideal S64x32 .f32) = W1)
    (hb1 : (Wa (main_arg15 : DevRef τ sig) : FVec Ideal S32 .f32) = b1) (hW2 : (Wa (main_arg16 : DevRef τ sig) : FVec Ideal S32x32 .f32) = W2)
    (hb2 : (Wa (main_arg17 : DevRef τ sig) : FVec Ideal S32 .f32) = b2) (hg : (Wa (main_arg18 : DevRef τ sig) : FVec Ideal S32 .f32) = g) (hbt : (Wa (main_arg19 : DevRef τ sig) : FVec Ideal S32 .f32) = bt)
    (rX : AllReal X) (reps : AllReal eps) (rW1 : AllReal W1) (rb1 : AllReal b1) (rW2 : AllReal W2) (rb2 : AllReal b2)
    (hH : (Wa2 (main_v96_0 : DevRef τ sig) : FVec Ideal S200000x32 .f32) = mlp (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32))
    (hS : (Wa2 (main_v96_1 : DevRef τ sig) : FVec Ideal S1x32 .f32) = fun i => colSumAt 50 4000 (by decide : 50 * 4000 = 200000)
      (fun r q => mlpAt (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32) r q) (i 1))
    (hQ : (Wa2 (main_v96_2 : DevRef τ sig) : FVec Ideal S1x32 .f32) = fun i => colSumAt 50 4000 (by decide : 50 * 4000 = 200000)
      (fun r q => mlpAt (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32) r q
        * mlpAt (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32) r q) (i 1))
    (hk2 : ∀ r : Ref sig .tc, r ∉ [main_v95, main_arg14, main_arg15, main_arg16, main_arg17, main_v96_0, main_v96_1, main_v96_2] →
      Wa2 (Proc.devRef .tc r) = after (hostOps6 (F := Ideal)) Wa (Proc.devRef .tc r))
    (hout : (Wa4 (main_v103 : DevRef τ sig) : FVec Ideal S200000x32 .f32) = bnAffine (after (hostOps7 (F := Ideal)) Wa2 (main_v96_0 : DevRef τ sig) : FVec Ideal S200000x32 .f32) (after (hostOps7 (F := Ideal)) Wa2 (main_v98 : DevRef τ sig) : FVec Ideal S1x32 .f32) (after (hostOps7 (F := Ideal)) Wa2 (main_v102 : DevRef τ sig) : FVec Ideal S1x32 .f32) (after (hostOps7 (F := Ideal)) Wa2 (main_arg18 : DevRef τ sig) : FVec Ideal S32 .f32) (after (hostOps7 (F := Ideal)) Wa2 (main_arg19 : DevRef τ sig) : FVec Ideal S32 .f32)) :
    (Wa4 (main_v103 : DevRef τ sig) : FVec Ideal S200000x32 .f32) = Cert.Spec.layerB X E eps W1 b1 W2 b2 g bt := by
  have p : (after (hostOps6 (F := Ideal)) Wa (main_v95 : DevRef τ sig) : FVec Ideal S200000x64 .f32) = Cert.Spec.pre64 X E eps := by
    rw [pre_3 Wa, hX, hE, heps]
  have k1 : (after (hostOps6 (F := Ideal)) Wa (main_arg14 : DevRef τ sig) : FVec Ideal S64x32 .f32) = W1 := (keep_hostOps6 Wa main_arg14 (by decide)).trans hW1
  have k2 : (after (hostOps6 (F := Ideal)) Wa (main_arg15 : DevRef τ sig) : FVec Ideal S32 .f32) = b1 := (keep_hostOps6 Wa main_arg15 (by decide)).trans hb1
  have k3 : (after (hostOps6 (F := Ideal)) Wa (main_arg16 : DevRef τ sig) : FVec Ideal S32x32 .f32) = W2 := (keep_hostOps6 Wa main_arg16 (by decide)).trans hW2
  have k4 : (after (hostOps6 (F := Ideal)) Wa (main_arg17 : DevRef τ sig) : FVec Ideal S32 .f32) = b2 := (keep_hostOps6 Wa main_arg17 (by decide)).trans hb2
  rw [p, k1, k2, k3, k4] at hH hS hQ
  have kH : (after (hostOps7 (F := Ideal)) Wa2 (main_v96_0 : DevRef τ sig) : FVec Ideal S200000x32 .f32) = mlp (Cert.Spec.pre64 X E eps) W1 b1 W2 b2 :=
    (keep_hostOps7 Wa2 main_v96_0 (by decide)).trans hH
  have kg : (after (hostOps7 (F := Ideal)) Wa2 (main_arg18 : DevRef τ sig) : FVec Ideal S32 .f32) = g :=
    (keep_hostOps7 Wa2 main_arg18 (by decide)).trans ((hk2 main_arg18 (by decide)).trans ((keep_hostOps6 Wa main_arg18 (by decide)).trans hg))
  have kbt : (after (hostOps7 (F := Ideal)) Wa2 (main_arg19 : DevRef τ sig) : FVec Ideal S32 .f32) = bt :=
    (keep_hostOps7 Wa2 main_arg19 (by decide)).trans ((hk2 main_arg19 (by decide)).trans ((keep_hostOps6 Wa main_arg19 (by decide)).trans hbt))
  rw [hout, kH, mu_3 Wa2, var_3 Wa2, kg, kbt]
  exact (Cert.Bridge.layerB_eq' X E eps W1 b1 W2 b2 g bt _ _ rX reps rW1 rb1 rW2 rb2
    (fun c => congrFun hS (ix2 (0 : Fin 1) c)) (fun c => congrFun hQ (ix2 (0 : Fin 1) c))).symm

/-- Block 4 (layer 3, side i): from the layer's nine inputs, the first region's three results stated on what the stretch
    before it leaves, and the second region's result stated on what the stretch between them leaves, the normalised
    array is the reference's layer of the inputs. -/
theorem block_4 (Wa Wa2 Wa4 : Valuation τ sig (Elt Ideal))
    (X : FVec Ideal S200000x32 .f32) (E : IVec S2x3200000 32) (eps : FVec Ideal S_ .f32) (W1 : FVec Ideal S32x16 .f32) (b1 : FVec Ideal S16 .f32) (W2 : FVec Ideal S16x16 .f32)
    (b2 g bt : FVec Ideal S16 .f32)
    (hX : (Wa (main_v77 : DevRef τ sig) : FVec Ideal S200000x32 .f32) = X) (hE : (Wa (main_arg2 : DevRef τ sig) : IVec S2x3200000 32) = E)
    (heps : (Wa (main_arg20 : DevRef τ sig) : FVec Ideal S_ .f32) = eps) (hW1 : (Wa (main_arg21 : DevRef τ sig) : FVec Ideal S32x16 .f32) = W1)
    (hb1 : (Wa (main_arg22 : DevRef τ sig) : FVec Ideal S16 .f32) = b1) (hW2 : (Wa (main_arg23 : DevRef τ sig) : FVec Ideal S16x16 .f32) = W2)
    (hb2 : (Wa (main_arg24 : DevRef τ sig) : FVec Ideal S16 .f32) = b2) (hg : (Wa (main_arg25 : DevRef τ sig) : FVec Ideal S16 .f32) = g) (hbt : (Wa (main_arg26 : DevRef τ sig) : FVec Ideal S16 .f32) = bt)
    (rX : AllReal X) (reps : AllReal eps) (rW1 : AllReal W1) (rb1 : AllReal b1) (rW2 : AllReal W2) (rb2 : AllReal b2)
    (hH : (Wa2 (main_v122_0 : DevRef τ sig) : FVec Ideal S200000x16 .f32) = mlp (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32))
    (hS : (Wa2 (main_v122_1 : DevRef τ sig) : FVec Ideal S1x16 .f32) = fun i => colSumAt 50 4000 (by decide : 50 * 4000 = 200000)
      (fun r q => mlpAt (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32) r q) (i 1))
    (hQ : (Wa2 (main_v122_2 : DevRef τ sig) : FVec Ideal S1x16 .f32) = fun i => colSumAt 50 4000 (by decide : 50 * 4000 = 200000)
      (fun r q => mlpAt (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32) r q
        * mlpAt (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32) r q) (i 1))
    (hk2 : ∀ r : Ref sig .tc, r ∉ [main_v121, main_arg21, main_arg22, main_arg23, main_arg24, main_v122_0, main_v122_1, main_v122_2] →
      Wa2 (Proc.devRef .tc r) = after (hostOps8 (F := Ideal)) Wa (Proc.devRef .tc r))
    (hout : (Wa4 (main_v129 : DevRef τ sig) : FVec Ideal S200000x16 .f32) = bnAffine (after (hostOps9 (F := Ideal)) Wa2 (main_v122_0 : DevRef τ sig) : FVec Ideal S200000x16 .f32) (after (hostOps9 (F := Ideal)) Wa2 (main_v124 : DevRef τ sig) : FVec Ideal S1x16 .f32) (after (hostOps9 (F := Ideal)) Wa2 (main_v128 : DevRef τ sig) : FVec Ideal S1x16 .f32) (after (hostOps9 (F := Ideal)) Wa2 (main_arg25 : DevRef τ sig) : FVec Ideal S16 .f32) (after (hostOps9 (F := Ideal)) Wa2 (main_arg26 : DevRef τ sig) : FVec Ideal S16 .f32)) :
    (Wa4 (main_v129 : DevRef τ sig) : FVec Ideal S200000x16 .f32) = Cert.Spec.layerC X E eps W1 b1 W2 b2 g bt := by
  have p : (after (hostOps8 (F := Ideal)) Wa (main_v121 : DevRef τ sig) : FVec Ideal S200000x32 .f32) = Cert.Spec.pre32 X E eps := by
    rw [pre_4 Wa, hX, hE, heps]
  have k1 : (after (hostOps8 (F := Ideal)) Wa (main_arg21 : DevRef τ sig) : FVec Ideal S32x16 .f32) = W1 := (keep_hostOps8 Wa main_arg21 (by decide)).trans hW1
  have k2 : (after (hostOps8 (F := Ideal)) Wa (main_arg22 : DevRef τ sig) : FVec Ideal S16 .f32) = b1 := (keep_hostOps8 Wa main_arg22 (by decide)).trans hb1
  have k3 : (after (hostOps8 (F := Ideal)) Wa (main_arg23 : DevRef τ sig) : FVec Ideal S16x16 .f32) = W2 := (keep_hostOps8 Wa main_arg23 (by decide)).trans hW2
  have k4 : (after (hostOps8 (F := Ideal)) Wa (main_arg24 : DevRef τ sig) : FVec Ideal S16 .f32) = b2 := (keep_hostOps8 Wa main_arg24 (by decide)).trans hb2
  rw [p, k1, k2, k3, k4] at hH hS hQ
  have kH : (after (hostOps9 (F := Ideal)) Wa2 (main_v122_0 : DevRef τ sig) : FVec Ideal S200000x16 .f32) = mlp (Cert.Spec.pre32 X E eps) W1 b1 W2 b2 :=
    (keep_hostOps9 Wa2 main_v122_0 (by decide)).trans hH
  have kg : (after (hostOps9 (F := Ideal)) Wa2 (main_arg25 : DevRef τ sig) : FVec Ideal S16 .f32) = g :=
    (keep_hostOps9 Wa2 main_arg25 (by decide)).trans ((hk2 main_arg25 (by decide)).trans ((keep_hostOps8 Wa main_arg25 (by decide)).trans hg))
  have kbt : (after (hostOps9 (F := Ideal)) Wa2 (main_arg26 : DevRef τ sig) : FVec Ideal S16 .f32) = bt :=
    (keep_hostOps9 Wa2 main_arg26 (by decide)).trans ((hk2 main_arg26 (by decide)).trans ((keep_hostOps8 Wa main_arg26 (by decide)).trans hbt))
  rw [hout, kH, mu_4 Wa2, var_4 Wa2, kg, kbt]
  exact (Cert.Bridge.layerC_eq' X E eps W1 b1 W2 b2 g bt _ _ rX reps rW1 rb1 rW2 rb2
    (fun c => congrFun hS (ix2 (0 : Fin 1) c)) (fun c => congrFun hQ (ix2 (0 : Fin 1) c))).symm

/-- Block 5 (layer 3, side j): from the layer's nine inputs, the first region's three results stated on what the stretch
    before it leaves, and the second region's result stated on what the stretch between them leaves, the normalised
    array is the reference's layer of the inputs. -/
theorem block_5 (Wa Wa2 Wa4 : Valuation τ sig (Elt Ideal))
    (X : FVec Ideal S200000x32 .f32) (E : IVec S2x3200000 32) (eps : FVec Ideal S_ .f32) (W1 : FVec Ideal S32x16 .f32) (b1 : FVec Ideal S16 .f32) (W2 : FVec Ideal S16x16 .f32)
    (b2 g bt : FVec Ideal S16 .f32)
    (hX : (Wa (main_v103 : DevRef τ sig) : FVec Ideal S200000x32 .f32) = X) (hE : (Wa (main_arg3 : DevRef τ sig) : IVec S2x3200000 32) = E)
    (heps : (Wa (main_arg20 : DevRef τ sig) : FVec Ideal S_ .f32) = eps) (hW1 : (Wa (main_arg21 : DevRef τ sig) : FVec Ideal S32x16 .f32) = W1)
    (hb1 : (Wa (main_arg22 : DevRef τ sig) : FVec Ideal S16 .f32) = b1) (hW2 : (Wa (main_arg23 : DevRef τ sig) : FVec Ideal S16x16 .f32) = W2)
    (hb2 : (Wa (main_arg24 : DevRef τ sig) : FVec Ideal S16 .f32) = b2) (hg : (Wa (main_arg25 : DevRef τ sig) : FVec Ideal S16 .f32) = g) (hbt : (Wa (main_arg26 : DevRef τ sig) : FVec Ideal S16 .f32) = bt)
    (rX : AllReal X) (reps : AllReal eps) (rW1 : AllReal W1) (rb1 : AllReal b1) (rW2 : AllReal W2) (rb2 : AllReal b2)
    (hH : (Wa2 (main_v148_0 : DevRef τ sig) : FVec Ideal S200000x16 .f32) = mlp (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32))
    (hS : (Wa2 (main_v148_1 : DevRef τ sig) : FVec Ideal S1x16 .f32) = fun i => colSumAt 50 4000 (by decide : 50 * 4000 = 200000)
      (fun r q => mlpAt (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32) r q) (i 1))
    (hQ : (Wa2 (main_v148_2 : DevRef τ sig) : FVec Ideal S1x16 .f32) = fun i => colSumAt 50 4000 (by decide : 50 * 4000 = 200000)
      (fun r q => mlpAt (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32) r q
        * mlpAt (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32) r q) (i 1))
    (hk2 : ∀ r : Ref sig .tc, r ∉ [main_v147, main_arg21, main_arg22, main_arg23, main_arg24, main_v148_0, main_v148_1, main_v148_2] →
      Wa2 (Proc.devRef .tc r) = after (hostOps10 (F := Ideal)) Wa (Proc.devRef .tc r))
    (hout : (Wa4 (main_v155 : DevRef τ sig) : FVec Ideal S200000x16 .f32) = bnAffine (after (hostOps11 (F := Ideal)) Wa2 (main_v148_0 : DevRef τ sig) : FVec Ideal S200000x16 .f32) (after (hostOps11 (F := Ideal)) Wa2 (main_v150 : DevRef τ sig) : FVec Ideal S1x16 .f32) (after (hostOps11 (F := Ideal)) Wa2 (main_v154 : DevRef τ sig) : FVec Ideal S1x16 .f32) (after (hostOps11 (F := Ideal)) Wa2 (main_arg25 : DevRef τ sig) : FVec Ideal S16 .f32) (after (hostOps11 (F := Ideal)) Wa2 (main_arg26 : DevRef τ sig) : FVec Ideal S16 .f32)) :
    (Wa4 (main_v155 : DevRef τ sig) : FVec Ideal S200000x16 .f32) = Cert.Spec.layerC X E eps W1 b1 W2 b2 g bt := by
  have p : (after (hostOps10 (F := Ideal)) Wa (main_v147 : DevRef τ sig) : FVec Ideal S200000x32 .f32) = Cert.Spec.pre32 X E eps := by
    rw [pre_5 Wa, hX, hE, heps]
  have k1 : (after (hostOps10 (F := Ideal)) Wa (main_arg21 : DevRef τ sig) : FVec Ideal S32x16 .f32) = W1 := (keep_hostOps10 Wa main_arg21 (by decide)).trans hW1
  have k2 : (after (hostOps10 (F := Ideal)) Wa (main_arg22 : DevRef τ sig) : FVec Ideal S16 .f32) = b1 := (keep_hostOps10 Wa main_arg22 (by decide)).trans hb1
  have k3 : (after (hostOps10 (F := Ideal)) Wa (main_arg23 : DevRef τ sig) : FVec Ideal S16x16 .f32) = W2 := (keep_hostOps10 Wa main_arg23 (by decide)).trans hW2
  have k4 : (after (hostOps10 (F := Ideal)) Wa (main_arg24 : DevRef τ sig) : FVec Ideal S16 .f32) = b2 := (keep_hostOps10 Wa main_arg24 (by decide)).trans hb2
  rw [p, k1, k2, k3, k4] at hH hS hQ
  have kH : (after (hostOps11 (F := Ideal)) Wa2 (main_v148_0 : DevRef τ sig) : FVec Ideal S200000x16 .f32) = mlp (Cert.Spec.pre32 X E eps) W1 b1 W2 b2 :=
    (keep_hostOps11 Wa2 main_v148_0 (by decide)).trans hH
  have kg : (after (hostOps11 (F := Ideal)) Wa2 (main_arg25 : DevRef τ sig) : FVec Ideal S16 .f32) = g :=
    (keep_hostOps11 Wa2 main_arg25 (by decide)).trans ((hk2 main_arg25 (by decide)).trans ((keep_hostOps10 Wa main_arg25 (by decide)).trans hg))
  have kbt : (after (hostOps11 (F := Ideal)) Wa2 (main_arg26 : DevRef τ sig) : FVec Ideal S16 .f32) = bt :=
    (keep_hostOps11 Wa2 main_arg26 (by decide)).trans ((hk2 main_arg26 (by decide)).trans ((keep_hostOps10 Wa main_arg26 (by decide)).trans hbt))
  rw [hout, kH, mu_5 Wa2, var_5 Wa2, kg, kbt]
  exact (Cert.Bridge.layerC_eq' X E eps W1 b1 W2 b2 g bt _ _ rX reps rW1 rb1 rW2 rb2
    (fun c => congrFun hS (ix2 (0 : Fin 1) c)) (fun c => congrFun hQ (ix2 (0 : Fin 1) c))).symm

end Cert.KernelIdeal.KBlock

end
-- ==== Proof.KTail.lean ====
/-
  The kernel program's closing stretch of host operations (the pooling of each side's third-layer array and the three
  heads), joined to the specification: from any contents that hold the two third-layer arrays and the fourteen
  arguments the stretch reads, the three result buffers end at the three components of the specification's heads of
  the two pooled vectors. The stretch splits into the pooling of side i, the pooling of side j and the heads; each part
  leaves what the later parts read as it found it.
-/
import proofs.«120907_j71768903516484_1_alg».proof.Proof.KHost
import proofs.«120907_j71768903516484_1_alg».proof.Proof.Spec

noncomputable section

namespace Cert.KernelIdeal.KTail

open Cert.KernelIdeal Cert.KernelIdeal.Gen Idealize.ShloMosaic Idealize.ShloMosaic.TcCoe Idealize.SL.Sem Idealize.ShloMosaic.StableHlo
open Cert.KernelIdeal.KHost

variable [Cert.KernelIdeal.Facts] [Cert.ReferenceIdeal.Facts]

/-- The closing stretch, as the program lists it. -/
abbrev tailOps : List (HloOp τ sig (Elt Ideal)) :=
  (hostOps12 (F := Ideal)) ++ (hostOps12_1 (F := Ideal) ++ hostOps12_2 (F := Ideal) ++ hostOps12_3 (F := Ideal) ++ hostOps12_4 (F := Ideal) ++ hostOps12_5 (F := Ideal) ++ hostOps12_6 (F := Ideal) ++ hostOps12_7 (F := Ideal) ++ hostOps12_8 (F := Ideal) ++ hostOps12_9 (F := Ideal) ++ hostOps12_10 (F := Ideal) ++ hostOps12_11 (F := Ideal) ++ hostOps12_12 (F := Ideal) ++ hostOps12_13 (F := Ideal) ++ hostOps12_14 (F := Ideal))

theorem tail_eq (Vt : Valuation τ sig (Elt Ideal)) (L3i L3j : FVec Ideal S200000x16 .f32)
    (x4 : IVec S200000 32) (x5 : IVec S200000 32) (x27 : FVec Ideal S16x16 .f32) (x28 : FVec Ideal S16 .f32) (x29 : FVec Ideal S32x8 .f32) (x30 : FVec Ideal S8 .f32) (x31 : FVec Ideal S8x32 .f32) (x32 : FVec Ideal S32 .f32) (x33 : FVec Ideal S32x16 .f32) (x34 : FVec Ideal S16 .f32) (x35 : FVec Ideal S16x8 .f32) (x36 : FVec Ideal S8 .f32) (x37 : FVec Ideal S8x1 .f32) (x38 : FVec Ideal S1 .f32)
    (h129 : (Vt (main_v129 : DevRef τ sig) : FVec Ideal S200000x16 .f32) = L3i)
    (h155 : (Vt (main_v155 : DevRef τ sig) : FVec Ideal S200000x16 .f32) = L3j)
    (h4 : (Vt (main_arg4 : DevRef τ sig) : IVec S200000 32) = x4)
    (h5 : (Vt (main_arg5 : DevRef τ sig) : IVec S200000 32) = x5)
    (h27 : (Vt (main_arg27 : DevRef τ sig) : FVec Ideal S16x16 .f32) = x27)
    (h28 : (Vt (main_arg28 : DevRef τ sig) : FVec Ideal S16 .f32) = x28)
    (h29 : (Vt (main_arg29 : DevRef τ sig) : FVec Ideal S32x8 .f32) = x29)
    (h30 : (Vt (main_arg30 : DevRef τ sig) : FVec Ideal S8 .f32) = x30)
    (h31 : (Vt (main_arg31 : DevRef τ sig) : FVec Ideal S8x32 .f32) = x31)
    (h32 : (Vt (main_arg32 : DevRef τ sig) : FVec Ideal S32 .f32) = x32)
    (h33 : (Vt (main_arg33 : DevRef τ sig) : FVec Ideal S32x16 .f32) = x33)
    (h34 : (Vt (main_arg34 : DevRef τ sig) : FVec Ideal S16 .f32) = x34)
    (h35 : (Vt (main_arg35 : DevRef τ sig) : FVec Ideal S16x8 .f32) = x35)
    (h36 : (Vt (main_arg36 : DevRef τ sig) : FVec Ideal S8 .f32) = x36)
    (h37 : (Vt (main_arg37 : DevRef τ sig) : FVec Ideal S8x1 .f32) = x37)
    (h38 : (Vt (main_arg38 : DevRef τ sig) : FVec Ideal S1 .f32) = x38) :
    (after tailOps Vt (main_v305 : DevRef τ sig) : FVec Ideal S1000 .f32) = (Cert.Spec.heads (Cert.Spec.readout L3i x4 x27 x28) (Cert.Spec.readout L3j x5 x27 x28) x29 x30 x31 x32 x33 x34 x35 x36 x37 x38).1
    ∧ (after tailOps Vt (main_v294 : DevRef τ sig) : FVec Ideal S1000x16 .f32) = (Cert.Spec.heads (Cert.Spec.readout L3i x4 x27 x28) (Cert.Spec.readout L3j x5 x27 x28) x29 x30 x31 x32 x33 x34 x35 x36 x37 x38).2.1
    ∧ (after tailOps Vt (main_v295 : DevRef τ sig) : FVec Ideal S1000x16 .f32) = (Cert.Spec.heads (Cert.Spec.readout L3i x4 x27 x28) (Cert.Spec.readout L3j x5 x27 x28) x29 x30 x31 x32 x33 x34 x35 x36 x37 x38).2.2 := by
  have hsplit : after tailOps Vt = after (tailH (F := Ideal)) (after (tailJ (F := Ideal)) (after (tailI (F := Ideal)) Vt)) := by
    show after ((hostOps12 (F := Ideal)) ++ (hostOps12_1 (F := Ideal) ++ hostOps12_2 (F := Ideal) ++ hostOps12_3 (F := Ideal) ++ hostOps12_4 (F := Ideal) ++ hostOps12_5 (F := Ideal) ++ hostOps12_6 (F := Ideal) ++ hostOps12_7 (F := Ideal) ++ hostOps12_8 (F := Ideal) ++ hostOps12_9 (F := Ideal) ++ hostOps12_10 (F := Ideal) ++ hostOps12_11 (F := Ideal) ++ hostOps12_12 (F := Ideal) ++ hostOps12_13 (F := Ideal) ++ hostOps12_14 (F := Ideal))) Vt = _
    rw [tail_split, after_append, after_append]
  -- the pooled vector of side i, kept by the pooling of side j
  have pI : (after (tailJ (F := Ideal)) (after (tailI (F := Ideal)) Vt) (main_v197 : DevRef τ sig) : FVec Ideal S1000x16 .f32)
      = Cert.Spec.readout L3i x4 x27 x28 := by
    rw [keep_tailJ (after (tailI (F := Ideal)) Vt) main_v197 (by decide), poolI Vt, h129, h4, h27, h28]
  -- the pooled vector of side j, from what the pooling of side i keeps
  have pJ : (after (tailJ (F := Ideal)) (after (tailI (F := Ideal)) Vt) (main_v239 : DevRef τ sig) : FVec Ideal S1000x16 .f32)
      = Cert.Spec.readout L3j x5 x27 x28 := by
    rw [poolJ (after (tailI (F := Ideal)) Vt), keep_tailI Vt main_v155 (by decide), keep_tailI Vt main_arg5 (by decide),
      keep_tailI Vt main_arg27 (by decide), keep_tailI Vt main_arg28 (by decide), h155, h5, h27, h28]
  have a29 : (after (tailJ (F := Ideal)) (after (tailI (F := Ideal)) Vt) (main_arg29 : DevRef τ sig) : FVec Ideal S32x8 .f32) = x29 :=
    ((keep_tailJ (after (tailI (F := Ideal)) Vt) main_arg29 (by decide)).trans (keep_tailI Vt main_arg29 (by decide))).trans h29
  have a30 : (after (tailJ (F := Ideal)) (after (tailI (F := Ideal)) Vt) (main_arg30 : DevRef τ sig) : FVec Ideal S8 .f32) = x30 :=
    ((keep_tailJ (after (tailI (F := Ideal)) Vt) main_arg30 (by decide)).trans (keep_tailI Vt main_arg30 (by decide))).trans h30
  have a31 : (after (tailJ (F := Ideal)) (after (tailI (F := Ideal)) Vt) (main_arg31 : DevRef τ sig) : FVec Ideal S8x32 .f32) = x31 :=
    ((keep_tailJ (after (tailI (F := Ideal)) Vt) main_arg31 (by decide)).trans (keep_tailI Vt main_arg31 (by decide))).trans h31
  have a32 : (after (tailJ (F := Ideal)) (after (tailI (F := Ideal)) Vt) (main_arg32 : DevRef τ sig) : FVec Ideal S32 .f32) = x32 :=
    ((keep_tailJ (after (tailI (F := Ideal)) Vt) main_arg32 (by decide)).trans (keep_tailI Vt main_arg32 (by decide))).trans h32
  have a33 : (after (tailJ (F := Ideal)) (after (tailI (F := Ideal)) Vt) (main_arg33 : DevRef τ sig) : FVec Ideal S32x16 .f32) = x33 :=
    ((keep_tailJ (after (tailI (F := Ideal)) Vt) main_arg33 (by decide)).trans (keep_tailI Vt main_arg33 (by decide))).trans h33
  have a34 : (after (tailJ (F := Ideal)) (after (tailI (F := Ideal)) Vt) (main_arg34 : DevRef τ sig) : FVec Ideal S16 .f32) = x34 :=
    ((keep_tailJ (after (tailI (F := Ideal)) Vt) main_arg34 (by decide)).trans (keep_tailI Vt main_arg34 (by decide))).trans h34
  have a35 : (after (tailJ (F := Ideal)) (after (tailI (F := Ideal)) Vt) (main_arg35 : DevRef τ sig) : FVec Ideal S16x8 .f32) = x35 :=
    ((keep_tailJ (after (tailI (F := Ideal)) Vt) main_arg35 (by decide)).trans (keep_tailI Vt main_arg35 (by decide))).trans h35
  have a36 : (after (tailJ (F := Ideal)) (after (tailI (F := Ideal)) Vt) (main_arg36 : DevRef τ sig) : FVec Ideal S8 .f32) = x36 :=
    ((keep_tailJ (after (tailI (F := Ideal)) Vt) main_arg36 (by decide)).trans (keep_tailI Vt main_arg36 (by decide))).trans h36
  have a37 : (after (tailJ (F := Ideal)) (after (tailI (F := Ideal)) Vt) (main_arg37 : DevRef τ sig) : FVec Ideal S8x1 .f32) = x37 :=
    ((keep_tailJ (after (tailI (F := Ideal)) Vt) main_arg37 (by decide)).trans (keep_tailI Vt main_arg37 (by decide))).trans h37
  have a38 : (after (tailJ (F := Ideal)) (after (tailI (F := Ideal)) Vt) (main_arg38 : DevRef τ sig) : FVec Ideal S1 .f32) = x38 :=
    ((keep_tailJ (after (tailI (F := Ideal)) Vt) main_arg38 (by decide)).trans (keep_tailI Vt main_arg38 (by decide))).trans h38
  rw [hsplit]
  refine ⟨?_, ?_, ?_⟩
  · rw [score, pI, pJ, a29, a30, a31, a32, a33, a34, a35, a36, a37, a38]
  · rw [diffJ, pI, pJ, a29, a30, a31, a32, a33, a34, a35, a36, a37, a38]
  · rw [diffI, pI, pJ, a29, a30, a31, a32, a33, a34, a35, a36, a37, a38]

end Cert.KernelIdeal.KTail

end
-- ==== Proof.KWhole.lean ====
/-
  The kernel program from its launch contents to its three results. The contents after each of the twelve regions are
  arbitrary, constrained only by what each region computes (the explicit perceptron with its tile-by-tile column sums
  and sums of squares; the affine normalisation) in terms of what the host stretch before it leaves, and by each
  region leaving the buffers that are not its own, and the arrays it only reads, as it found them. Then, for real float
  arguments, the three result buffers after the closing stretch are the three components of the specification's heads
  of the two sides' pooled vectors: block after block the normalised array is the reference's layer (the law of the
  variance applies because each layer's output is real again), the arguments and the earlier layers' outputs survive
  every block that does not own them, and the closing stretch reads the two third-layer arrays.
-/
import proofs.«120907_j71768903516484_1_alg».proof.Proof.KHost
import proofs.«120907_j71768903516484_1_alg».proof.Proof.KBlock
import proofs.«120907_j71768903516484_1_alg».proof.Proof.KTail
import proofs.«120907_j71768903516484_1_alg».proof.Proof.BridgeLayer

noncomputable section

namespace Cert.KernelIdeal.KWhole

open Cert.KernelIdeal Cert.KernelIdeal.Gen Idealize.ShloMosaic Idealize.ShloMosaic.TcCoe Idealize.SL.Sem Idealize.ShloMosaic.StableHlo
open Idealize.ShloMosaic.ValueIdx Cert.KernelIdeal.GinSpec Cert.Lib.Real Cert.KernelIdeal.KHost Cert.KernelIdeal.KBlock

variable [Cert.KernelIdeal.Facts] [Cert.ReferenceIdeal.Facts]

/-- A buffer that block 0 neither writes nor hands to its regions is, after the block, as before it. -/
theorem thru_0 (Wa Wa2 Wa4 : Valuation τ sig (Elt Ideal))
    (hk2 : ∀ r : Ref sig .tc, r ∉ [main_v17, main_arg7, main_arg8, main_arg9, main_arg10, main_v18_0, main_v18_1, main_v18_2] →
      Wa2 (Proc.devRef .tc r) = after (hostOps0 (F := Ideal)) Wa (Proc.devRef .tc r))
    (hk4 : ∀ r : Ref sig .tc, r ∉ [main_v18_0, main_v20, main_v24, main_arg11, main_arg12, main_v25] →
      Wa4 (Proc.devRef .tc r) = after (hostOps1 (F := Ideal)) Wa2 (Proc.devRef .tc r))
    (r : Ref sig .tc) (h1 : r ∉ W_hostOps0) (h2 : r ∉ [main_v17, main_arg7, main_arg8, main_arg9, main_arg10, main_v18_0, main_v18_1, main_v18_2]) (h3 : r ∉ W_hostOps1) (h4 : r ∉ [main_v18_0, main_v20, main_v24, main_arg11, main_arg12, main_v25]) :
    Wa4 (Proc.devRef .tc r) = Wa (Proc.devRef .tc r) :=
  (hk4 r h4).trans ((keep_hostOps1 Wa2 r h3).trans ((hk2 r h2).trans (keep_hostOps0 Wa r h1)))

/-- The weights and biases the first region of block 0 reads are, after the block, as before it. -/
theorem thruW_0 (Wa Wa2 Wa4 : Valuation τ sig (Elt Ideal))
    (hin2 : ∀ r : Ref sig .tc, r ∈ [main_arg7, main_arg8, main_arg9, main_arg10] →
      Wa2 (Proc.devRef .tc r) = after (hostOps0 (F := Ideal)) Wa (Proc.devRef .tc r))
    (hk4 : ∀ r : Ref sig .tc, r ∉ [main_v18_0, main_v20, main_v24, main_arg11, main_arg12, main_v25] →
      Wa4 (Proc.devRef .tc r) = after (hostOps1 (F := Ideal)) Wa2 (Proc.devRef .tc r))
    (r : Ref sig .tc) (hm : r ∈ [main_arg7, main_arg8, main_arg9, main_arg10]) (h1 : r ∉ W_hostOps0) (h3 : r ∉ W_hostOps1) (h4 : r ∉ [main_v18_0, main_v20, main_v24, main_arg11, main_arg12, main_v25]) :
    Wa4 (Proc.devRef .tc r) = Wa (Proc.devRef .tc r) :=
  (hk4 r h4).trans ((keep_hostOps1 Wa2 r h3).trans ((hin2 r hm).trans (keep_hostOps0 Wa r h1)))

/-- The scale and shift the second region of block 0 reads are, after the block, as before it. -/
theorem thruG_0 (Wa Wa2 Wa4 : Valuation τ sig (Elt Ideal))
    (hk2 : ∀ r : Ref sig .tc, r ∉ [main_v17, main_arg7, main_arg8, main_arg9, main_arg10, main_v18_0, main_v18_1, main_v18_2] →
      Wa2 (Proc.devRef .tc r) = after (hostOps0 (F := Ideal)) Wa (Proc.devRef .tc r))
    (hin4 : ∀ r : Ref sig .tc, r ∈ [main_arg11, main_arg12] →
      Wa4 (Proc.devRef .tc r) = after (hostOps1 (F := Ideal)) Wa2 (Proc.devRef .tc r))
    (r : Ref sig .tc) (hm : r ∈ [main_arg11, main_arg12]) (h1 : r ∉ W_hostOps0) (h2 : r ∉ [main_v17, main_arg7, main_arg8, main_arg9, main_arg10, main_v18_0, main_v18_1, main_v18_2]) (h3 : r ∉ W_hostOps1) :
    Wa4 (Proc.devRef .tc r) = Wa (Proc.devRef .tc r) :=
  (hin4 r hm).trans ((keep_hostOps1 Wa2 r h3).trans ((hk2 r h2).trans (keep_hostOps0 Wa r h1)))

/-- A buffer that block 1 neither writes nor hands to its regions is, after the block, as before it. -/
theorem thru_1 (Wa Wa2 Wa4 : Valuation τ sig (Elt Ideal))
    (hk2 : ∀ r : Ref sig .tc, r ∉ [main_v43, main_arg7, main_arg8, main_arg9, main_arg10, main_v44_0, main_v44_1, main_v44_2] →
      Wa2 (Proc.devRef .tc r) = after (hostOps2 (F := Ideal)) Wa (Proc.devRef .tc r))
    (hk4 : ∀ r : Ref sig .tc, r ∉ [main_v44_0, main_v46, main_v50, main_arg11, main_arg12, main_v51] →
      Wa4 (Proc.devRef .tc r) = after (hostOps3 (F := Ideal)) Wa2 (Proc.devRef .tc r))
    (r : Ref sig .tc) (h1 : r ∉ W_hostOps2) (h2 : r ∉ [main_v43, main_arg7, main_arg8, main_arg9, main_arg10, main_v44_0, main_v44_1, main_v44_2]) (h3 : r ∉ W_hostOps3) (h4 : r ∉ [main_v44_0, main_v46, main_v50, main_arg11, main_arg12, main_v51]) :
    Wa4 (Proc.devRef .tc r) = Wa (Proc.devRef .tc r) :=
  (hk4 r h4).trans ((keep_hostOps3 Wa2 r h3).trans ((hk2 r h2).trans (keep_hostOps2 Wa r h1)))

/-- The weights and biases the first region of block 1 reads are, after the block, as before it. -/
theorem thruW_1 (Wa Wa2 Wa4 : Valuation τ sig (Elt Ideal))
    (hin2 : ∀ r : Ref sig .tc, r ∈ [main_arg7, main_arg8, main_arg9, main_arg10] →
      Wa2 (Proc.devRef .tc r) = after (hostOps2 (F := Ideal)) Wa (Proc.devRef .tc r))
    (hk4 : ∀ r : Ref sig .tc, r ∉ [main_v44_0, main_v46, main_v50, main_arg11, main_arg12, main_v51] →
      Wa4 (Proc.devRef .tc r) = after (hostOps3 (F := Ideal)) Wa2 (Proc.devRef .tc r))
    (r : Ref sig .tc) (hm : r ∈ [main_arg7, main_arg8, main_arg9, main_arg10]) (h1 : r ∉ W_hostOps2) (h3 : r ∉ W_hostOps3) (h4 : r ∉ [main_v44_0, main_v46, main_v50, main_arg11, main_arg12, main_v51]) :
    Wa4 (Proc.devRef .tc r) = Wa (Proc.devRef .tc r) :=
  (hk4 r h4).trans ((keep_hostOps3 Wa2 r h3).trans ((hin2 r hm).trans (keep_hostOps2 Wa r h1)))

/-- The scale and shift the second region of block 1 reads are, after the block, as before it. -/
theorem thruG_1 (Wa Wa2 Wa4 : Valuation τ sig (Elt Ideal))
    (hk2 : ∀ r : Ref sig .tc, r ∉ [main_v43, main_arg7, main_arg8, main_arg9, main_arg10, main_v44_0, main_v44_1, main_v44_2] →
      Wa2 (Proc.devRef .tc r) = after (hostOps2 (F := Ideal)) Wa (Proc.devRef .tc r))
    (hin4 : ∀ r : Ref sig .tc, r ∈ [main_arg11, main_arg12] →
      Wa4 (Proc.devRef .tc r) = after (hostOps3 (F := Ideal)) Wa2 (Proc.devRef .tc r))
    (r : Ref sig .tc) (hm : r ∈ [main_arg11, main_arg12]) (h1 : r ∉ W_hostOps2) (h2 : r ∉ [main_v43, main_arg7, main_arg8, main_arg9, main_arg10, main_v44_0, main_v44_1, main_v44_2]) (h3 : r ∉ W_hostOps3) :
    Wa4 (Proc.devRef .tc r) = Wa (Proc.devRef .tc r) :=
  (hin4 r hm).trans ((keep_hostOps3 Wa2 r h3).trans ((hk2 r h2).trans (keep_hostOps2 Wa r h1)))

/-- A buffer that block 2 neither writes nor hands to its regions is, after the block, as before it. -/
theorem thru_2 (Wa Wa2 Wa4 : Valuation τ sig (Elt Ideal))
    (hk2 : ∀ r : Ref sig .tc, r ∉ [main_v69, main_arg14, main_arg15, main_arg16, main_arg17, main_v70_0, main_v70_1, main_v70_2] →
      Wa2 (Proc.devRef .tc r) = after (hostOps4 (F := Ideal)) Wa (Proc.devRef .tc r))
    (hk4 : ∀ r : Ref sig .tc, r ∉ [main_v70_0, main_v72, main_v76, main_arg18, main_arg19, main_v77] →
      Wa4 (Proc.devRef .tc r) = after (hostOps5 (F := Ideal)) Wa2 (Proc.devRef .tc r))
    (r : Ref sig .tc) (h1 : r ∉ W_hostOps4) (h2 : r ∉ [main_v69, main_arg14, main_arg15, main_arg16, main_arg17, main_v70_0, main_v70_1, main_v70_2]) (h3 : r ∉ W_hostOps5) (h4 : r ∉ [main_v70_0, main_v72, main_v76, main_arg18, main_arg19, main_v77]) :
    Wa4 (Proc.devRef .tc r) = Wa (Proc.devRef .tc r) :=
  (hk4 r h4).trans ((keep_hostOps5 Wa2 r h3).trans ((hk2 r h2).trans (keep_hostOps4 Wa r h1)))

/-- The weights and biases the first region of block 2 reads are, after the block, as before it. -/
theorem thruW_2 (Wa Wa2 Wa4 : Valuation τ sig (Elt Ideal))
    (hin2 : ∀ r : Ref sig .tc, r ∈ [main_arg14, main_arg15, main_arg16, main_arg17] →
      Wa2 (Proc.devRef .tc r) = after (hostOps4 (F := Ideal)) Wa (Proc.devRef .tc r))
    (hk4 : ∀ r : Ref sig .tc, r ∉ [main_v70_0, main_v72, main_v76, main_arg18, main_arg19, main_v77] →
      Wa4 (Proc.devRef .tc r) = after (hostOps5 (F := Ideal)) Wa2 (Proc.devRef .tc r))
    (r : Ref sig .tc) (hm : r ∈ [main_arg14, main_arg15, main_arg16, main_arg17]) (h1 : r ∉ W_hostOps4) (h3 : r ∉ W_hostOps5) (h4 : r ∉ [main_v70_0, main_v72, main_v76, main_arg18, main_arg19, main_v77]) :
    Wa4 (Proc.devRef .tc r) = Wa (Proc.devRef .tc r) :=
  (hk4 r h4).trans ((keep_hostOps5 Wa2 r h3).trans ((hin2 r hm).trans (keep_hostOps4 Wa r h1)))

/-- The scale and shift the second region of block 2 reads are, after the block, as before it. -/
theorem thruG_2 (Wa Wa2 Wa4 : Valuation τ sig (Elt Ideal))
    (hk2 : ∀ r : Ref sig .tc, r ∉ [main_v69, main_arg14, main_arg15, main_arg16, main_arg17, main_v70_0, main_v70_1, main_v70_2] →
      Wa2 (Proc.devRef .tc r) = after (hostOps4 (F := Ideal)) Wa (Proc.devRef .tc r))
    (hin4 : ∀ r : Ref sig .tc, r ∈ [main_arg18, main_arg19] →
      Wa4 (Proc.devRef .tc r) = after (hostOps5 (F := Ideal)) Wa2 (Proc.devRef .tc r))
    (r : Ref sig .tc) (hm : r ∈ [main_arg18, main_arg19]) (h1 : r ∉ W_hostOps4) (h2 : r ∉ [main_v69, main_arg14, main_arg15, main_arg16, main_arg17, main_v70_0, main_v70_1, main_v70_2]) (h3 : r ∉ W_hostOps5) :
    Wa4 (Proc.devRef .tc r) = Wa (Proc.devRef .tc r) :=
  (hin4 r hm).trans ((keep_hostOps5 Wa2 r h3).trans ((hk2 r h2).trans (keep_hostOps4 Wa r h1)))

/-- A buffer that block 3 neither writes nor hands to its regions is, after the block, as before it. -/
theorem thru_3 (Wa Wa2 Wa4 : Valuation τ sig (Elt Ideal))
    (hk2 : ∀ r : Ref sig .tc, r ∉ [main_v95, main_arg14, main_arg15, main_arg16, main_arg17, main_v96_0, main_v96_1, main_v96_2] →
      Wa2 (Proc.devRef .tc r) = after (hostOps6 (F := Ideal)) Wa (Proc.devRef .tc r))
    (hk4 : ∀ r : Ref sig .tc, r ∉ [main_v96_0, main_v98, main_v102, main_arg18, main_arg19, main_v103] →
      Wa4 (Proc.devRef .tc r) = after (hostOps7 (F := Ideal)) Wa2 (Proc.devRef .tc r))
    (r : Ref sig .tc) (h1 : r ∉ W_hostOps6) (h2 : r ∉ [main_v95, main_arg14, main_arg15, main_arg16, main_arg17, main_v96_0, main_v96_1, main_v96_2]) (h3 : r ∉ W_hostOps7) (h4 : r ∉ [main_v96_0, main_v98, main_v102, main_arg18, main_arg19, main_v103]) :
    Wa4 (Proc.devRef .tc r) = Wa (Proc.devRef .tc r) :=
  (hk4 r h4).trans ((keep_hostOps7 Wa2 r h3).trans ((hk2 r h2).trans (keep_hostOps6 Wa r h1)))

/-- The weights and biases the first region of block 3 reads are, after the block, as before it. -/
theorem thruW_3 (Wa Wa2 Wa4 : Valuation τ sig (Elt Ideal))
    (hin2 : ∀ r : Ref sig .tc, r ∈ [main_arg14, main_arg15, main_arg16, main_arg17] →
      Wa2 (Proc.devRef .tc r) = after (hostOps6 (F := Ideal)) Wa (Proc.devRef .tc r))
    (hk4 : ∀ r : Ref sig .tc, r ∉ [main_v96_0, main_v98, main_v102, main_arg18, main_arg19, main_v103] →
      Wa4 (Proc.devRef .tc r) = after (hostOps7 (F := Ideal)) Wa2 (Proc.devRef .tc r))
    (r : Ref sig .tc) (hm : r ∈ [main_arg14, main_arg15, main_arg16, main_arg17]) (h1 : r ∉ W_hostOps6) (h3 : r ∉ W_hostOps7) (h4 : r ∉ [main_v96_0, main_v98, main_v102, main_arg18, main_arg19, main_v103]) :
    Wa4 (Proc.devRef .tc r) = Wa (Proc.devRef .tc r) :=
  (hk4 r h4).trans ((keep_hostOps7 Wa2 r h3).trans ((hin2 r hm).trans (keep_hostOps6 Wa r h1)))

/-- The scale and shift the second region of block 3 reads are, after the block, as before it. -/
theorem thruG_3 (Wa Wa2 Wa4 : Valuation τ sig (Elt Ideal))
    (hk2 : ∀ r : Ref sig .tc, r ∉ [main_v95, main_arg14, main_arg15, main_arg16, main_arg17, main_v96_0, main_v96_1, main_v96_2] →
      Wa2 (Proc.devRef .tc r) = after (hostOps6 (F := Ideal)) Wa (Proc.devRef .tc r))
    (hin4 : ∀ r : Ref sig .tc, r ∈ [main_arg18, main_arg19] →
      Wa4 (Proc.devRef .tc r) = after (hostOps7 (F := Ideal)) Wa2 (Proc.devRef .tc r))
    (r : Ref sig .tc) (hm : r ∈ [main_arg18, main_arg19]) (h1 : r ∉ W_hostOps6) (h2 : r ∉ [main_v95, main_arg14, main_arg15, main_arg16, main_arg17, main_v96_0, main_v96_1, main_v96_2]) (h3 : r ∉ W_hostOps7) :
    Wa4 (Proc.devRef .tc r) = Wa (Proc.devRef .tc r) :=
  (hin4 r hm).trans ((keep_hostOps7 Wa2 r h3).trans ((hk2 r h2).trans (keep_hostOps6 Wa r h1)))

/-- A buffer that block 4 neither writes nor hands to its regions is, after the block, as before it. -/
theorem thru_4 (Wa Wa2 Wa4 : Valuation τ sig (Elt Ideal))
    (hk2 : ∀ r : Ref sig .tc, r ∉ [main_v121, main_arg21, main_arg22, main_arg23, main_arg24, main_v122_0, main_v122_1, main_v122_2] →
      Wa2 (Proc.devRef .tc r) = after (hostOps8 (F := Ideal)) Wa (Proc.devRef .tc r))
    (hk4 : ∀ r : Ref sig .tc, r ∉ [main_v122_0, main_v124, main_v128, main_arg25, main_arg26, main_v129] →
      Wa4 (Proc.devRef .tc r) = after (hostOps9 (F := Ideal)) Wa2 (Proc.devRef .tc r))
    (r : Ref sig .tc) (h1 : r ∉ W_hostOps8) (h2 : r ∉ [main_v121, main_arg21, main_arg22, main_arg23, main_arg24, main_v122_0, main_v122_1, main_v122_2]) (h3 : r ∉ W_hostOps9) (h4 : r ∉ [main_v122_0, main_v124, main_v128, main_arg25, main_arg26, main_v129]) :
    Wa4 (Proc.devRef .tc r) = Wa (Proc.devRef .tc r) :=
  (hk4 r h4).trans ((keep_hostOps9 Wa2 r h3).trans ((hk2 r h2).trans (keep_hostOps8 Wa r h1)))

/-- The weights and biases the first region of block 4 reads are, after the block, as before it. -/
theorem thruW_4 (Wa Wa2 Wa4 : Valuation τ sig (Elt Ideal))
    (hin2 : ∀ r : Ref sig .tc, r ∈ [main_arg21, main_arg22, main_arg23, main_arg24] →
      Wa2 (Proc.devRef .tc r) = after (hostOps8 (F := Ideal)) Wa (Proc.devRef .tc r))
    (hk4 : ∀ r : Ref sig .tc, r ∉ [main_v122_0, main_v124, main_v128, main_arg25, main_arg26, main_v129] →
      Wa4 (Proc.devRef .tc r) = after (hostOps9 (F := Ideal)) Wa2 (Proc.devRef .tc r))
    (r : Ref sig .tc) (hm : r ∈ [main_arg21, main_arg22, main_arg23, main_arg24]) (h1 : r ∉ W_hostOps8) (h3 : r ∉ W_hostOps9) (h4 : r ∉ [main_v122_0, main_v124, main_v128, main_arg25, main_arg26, main_v129]) :
    Wa4 (Proc.devRef .tc r) = Wa (Proc.devRef .tc r) :=
  (hk4 r h4).trans ((keep_hostOps9 Wa2 r h3).trans ((hin2 r hm).trans (keep_hostOps8 Wa r h1)))

/-- The scale and shift the second region of block 4 reads are, after the block, as before it. -/
theorem thruG_4 (Wa Wa2 Wa4 : Valuation τ sig (Elt Ideal))
    (hk2 : ∀ r : Ref sig .tc, r ∉ [main_v121, main_arg21, main_arg22, main_arg23, main_arg24, main_v122_0, main_v122_1, main_v122_2] →
      Wa2 (Proc.devRef .tc r) = after (hostOps8 (F := Ideal)) Wa (Proc.devRef .tc r))
    (hin4 : ∀ r : Ref sig .tc, r ∈ [main_arg25, main_arg26] →
      Wa4 (Proc.devRef .tc r) = after (hostOps9 (F := Ideal)) Wa2 (Proc.devRef .tc r))
    (r : Ref sig .tc) (hm : r ∈ [main_arg25, main_arg26]) (h1 : r ∉ W_hostOps8) (h2 : r ∉ [main_v121, main_arg21, main_arg22, main_arg23, main_arg24, main_v122_0, main_v122_1, main_v122_2]) (h3 : r ∉ W_hostOps9) :
    Wa4 (Proc.devRef .tc r) = Wa (Proc.devRef .tc r) :=
  (hin4 r hm).trans ((keep_hostOps9 Wa2 r h3).trans ((hk2 r h2).trans (keep_hostOps8 Wa r h1)))

/-- A buffer that block 5 neither writes nor hands to its regions is, after the block, as before it. -/
theorem thru_5 (Wa Wa2 Wa4 : Valuation τ sig (Elt Ideal))
    (hk2 : ∀ r : Ref sig .tc, r ∉ [main_v147, main_arg21, main_arg22, main_arg23, main_arg24, main_v148_0, main_v148_1, main_v148_2] →
      Wa2 (Proc.devRef .tc r) = after (hostOps10 (F := Ideal)) Wa (Proc.devRef .tc r))
    (hk4 : ∀ r : Ref sig .tc, r ∉ [main_v148_0, main_v150, main_v154, main_arg25, main_arg26, main_v155] →
      Wa4 (Proc.devRef .tc r) = after (hostOps11 (F := Ideal)) Wa2 (Proc.devRef .tc r))
    (r : Ref sig .tc) (h1 : r ∉ W_hostOps10) (h2 : r ∉ [main_v147, main_arg21, main_arg22, main_arg23, main_arg24, main_v148_0, main_v148_1, main_v148_2]) (h3 : r ∉ W_hostOps11) (h4 : r ∉ [main_v148_0, main_v150, main_v154, main_arg25, main_arg26, main_v155]) :
    Wa4 (Proc.devRef .tc r) = Wa (Proc.devRef .tc r) :=
  (hk4 r h4).trans ((keep_hostOps11 Wa2 r h3).trans ((hk2 r h2).trans (keep_hostOps10 Wa r h1)))

/-- The weights and biases the first region of block 5 reads are, after the block, as before it. -/
theorem thruW_5 (Wa Wa2 Wa4 : Valuation τ sig (Elt Ideal))
    (hin2 : ∀ r : Ref sig .tc, r ∈ [main_arg21, main_arg22, main_arg23, main_arg24] →
      Wa2 (Proc.devRef .tc r) = after (hostOps10 (F := Ideal)) Wa (Proc.devRef .tc r))
    (hk4 : ∀ r : Ref sig .tc, r ∉ [main_v148_0, main_v150, main_v154, main_arg25, main_arg26, main_v155] →
      Wa4 (Proc.devRef .tc r) = after (hostOps11 (F := Ideal)) Wa2 (Proc.devRef .tc r))
    (r : Ref sig .tc) (hm : r ∈ [main_arg21, main_arg22, main_arg23, main_arg24]) (h1 : r ∉ W_hostOps10) (h3 : r ∉ W_hostOps11) (h4 : r ∉ [main_v148_0, main_v150, main_v154, main_arg25, main_arg26, main_v155]) :
    Wa4 (Proc.devRef .tc r) = Wa (Proc.devRef .tc r) :=
  (hk4 r h4).trans ((keep_hostOps11 Wa2 r h3).trans ((hin2 r hm).trans (keep_hostOps10 Wa r h1)))

/-- The scale and shift the second region of block 5 reads are, after the block, as before it. -/
theorem thruG_5 (Wa Wa2 Wa4 : Valuation τ sig (Elt Ideal))
    (hk2 : ∀ r : Ref sig .tc, r ∉ [main_v147, main_arg21, main_arg22, main_arg23, main_arg24, main_v148_0, main_v148_1, main_v148_2] →
      Wa2 (Proc.devRef .tc r) = after (hostOps10 (F := Ideal)) Wa (Proc.devRef .tc r))
    (hin4 : ∀ r : Ref sig .tc, r ∈ [main_arg25, main_arg26] →
      Wa4 (Proc.devRef .tc r) = after (hostOps11 (F := Ideal)) Wa2 (Proc.devRef .tc r))
    (r : Ref sig .tc) (hm : r ∈ [main_arg25, main_arg26]) (h1 : r ∉ W_hostOps10) (h2 : r ∉ [main_v147, main_arg21, main_arg22, main_arg23, main_arg24, main_v148_0, main_v148_1, main_v148_2]) (h3 : r ∉ W_hostOps11) :
    Wa4 (Proc.devRef .tc r) = Wa (Proc.devRef .tc r) :=
  (hin4 r hm).trans ((keep_hostOps11 Wa2 r h3).trans ((hk2 r h2).trans (keep_hostOps10 Wa r h1)))

/-- What the two regions of block 0 do, between the contents Wa before the block's first host stretch, Wa2 after its
    first region and Wa4 after its second: the first region's three results on what the first stretch leaves, the second
    region's result on what the second stretch leaves, and both regions leaving every other buffer, and the arrays they
    only read, as they found them. -/
structure Regions_0 (Wa Wa2 Wa4 : Valuation τ sig (Elt Ideal)) : Prop where
  hH : (Wa2 (main_v18_0 : DevRef τ sig) : FVec Ideal S200000x64 .f32) = mlp (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32)
  hS : (Wa2 (main_v18_1 : DevRef τ sig) : FVec Ideal S1x64 .f32) = fun i => colSumAt 50 4000 (by decide : 50 * 4000 = 200000)
      (fun r q => mlpAt (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32) r q) (i 1)
  hQ : (Wa2 (main_v18_2 : DevRef τ sig) : FVec Ideal S1x64 .f32) = fun i => colSumAt 50 4000 (by decide : 50 * 4000 = 200000)
      (fun r q => mlpAt (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32) r q
        * mlpAt (after (hostOps0 (F := Ideal)) Wa (main_v17 : DevRef τ sig) : FVec Ideal S200000x64 .f32) (after (hostOps0 (F := Ideal)) Wa (main_arg7 : DevRef τ sig) : FVec Ideal S64x64 .f32) (after (hostOps0 (F := Ideal)) Wa (main_arg8 : DevRef τ sig) : FVec Ideal S64 .f32) (after (hostOps0 (F := Ideal)) Wa (main_arg9 : DevRef τ sig) : FVec Ideal S64x64 .f32) (after (hostOps0 (F := Ideal)) Wa (main_arg10 : DevRef τ sig) : FVec Ideal S64 .f32) r q) (i 1)
  hk2 : ∀ r : Ref sig .tc, r ∉ [main_v17, main_arg7, main_arg8, main_arg9, main_arg10, main_v18_0, main_v18_1, main_v18_2] →
      Wa2 (Proc.devRef .tc r) = after (hostOps0 (F := Ideal)) Wa (Proc.devRef .tc r)
  hin2 : ∀ r : Ref sig .tc, r ∈ [main_arg7, main_arg8, main_arg9, main_arg10] →
      Wa2 (Proc.devRef .tc r) = after (hostOps0 (F := Ideal)) Wa (Proc.devRef .tc r)
  hout : (Wa4 (main_v25 : DevRef τ sig) : FVec Ideal S200000x64 .f32) = bnAffine (after (hostOps1 (F := Ideal)) Wa2 (main_v18_0 : DevRef τ sig) : FVec Ideal S200000x64 .f32) (after (hostOps1 (F := Ideal)) Wa2 (main_v20 : DevRef τ sig) : FVec Ideal S1x64 .f32) (after (hostOps1 (F := Ideal)) Wa2 (main_v24 : DevRef τ sig) : FVec Ideal S1x64 .f32) (after (hostOps1 (F := Ideal)) Wa2 (main_arg11 : DevRef τ sig) : FVec Ideal S64 .f32) (after (hostOps1 (F := Ideal)) Wa2 (main_arg12 : DevRef τ sig) : FVec Ideal S64 .f32)
  hk4 : ∀ r : Ref sig .tc, r ∉ [main_v18_0, main_v20, main_v24, main_arg11, main_arg12, main_v25] →
      Wa4 (Proc.devRef .tc r) = after (hostOps1 (F := Ideal)) Wa2 (Proc.devRef .tc r)
  hin4 : ∀ r : Ref sig .tc, r ∈ [main_arg11, main_arg12] →
      Wa4 (Proc.devRef .tc r) = after (hostOps1 (F := Ideal)) Wa2 (Proc.devRef .tc r)

/-- What the two regions of block 1 do, between the contents Wa before the block's first host stretch, Wa2 after its
    first region and Wa4 after its second: the first region's three results on what the first stretch leaves, the second
    region's result on what the second stretch leaves, and both regions leaving every other buffer, and the arrays they
    only read, as they found them. -/
structure Regions_1 (Wa Wa2 Wa4 : Valuation τ sig (Elt Ideal)) : Prop where
  hH : (Wa2 (main_v44_0 : DevRef τ sig) : FVec Ideal S200000x64 .f32) = mlp (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32)
  hS : (Wa2 (main_v44_1 : DevRef τ sig) : FVec Ideal S1x64 .f32) = fun i => colSumAt 50 4000 (by decide : 50 * 4000 = 200000)
      (fun r q => mlpAt (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32) r q) (i 1)
  hQ : (Wa2 (main_v44_2 : DevRef τ sig) : FVec Ideal S1x64 .f32) = fun i => colSumAt 50 4000 (by decide : 50 * 4000 = 200000)
      (fun r q => mlpAt (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32) r q
        * mlpAt (after (hostOps2 (F := Ideal)) Wa (main_v43 : DevRef τ sig) : FVec Ideal S200000x64 .f32) (after (hostOps2 (F := Ideal)) Wa (main_arg7 : DevRef τ sig) : FVec Ideal S64x64 .f32) (after (hostOps2 (F := Ideal)) Wa (main_arg8 : DevRef τ sig) : FVec Ideal S64 .f32) (after (hostOps2 (F := Ideal)) Wa (main_arg9 : DevRef τ sig) : FVec Ideal S64x64 .f32) (after (hostOps2 (F := Ideal)) Wa (main_arg10 : DevRef τ sig) : FVec Ideal S64 .f32) r q) (i 1)
  hk2 : ∀ r : Ref sig .tc, r ∉ [main_v43, main_arg7, main_arg8, main_arg9, main_arg10, main_v44_0, main_v44_1, main_v44_2] →
      Wa2 (Proc.devRef .tc r) = after (hostOps2 (F := Ideal)) Wa (Proc.devRef .tc r)
  hin2 : ∀ r : Ref sig .tc, r ∈ [main_arg7, main_arg8, main_arg9, main_arg10] →
      Wa2 (Proc.devRef .tc r) = after (hostOps2 (F := Ideal)) Wa (Proc.devRef .tc r)
  hout : (Wa4 (main_v51 : DevRef τ sig) : FVec Ideal S200000x64 .f32) = bnAffine (after (hostOps3 (F := Ideal)) Wa2 (main_v44_0 : DevRef τ sig) : FVec Ideal S200000x64 .f32) (after (hostOps3 (F := Ideal)) Wa2 (main_v46 : DevRef τ sig) : FVec Ideal S1x64 .f32) (after (hostOps3 (F := Ideal)) Wa2 (main_v50 : DevRef τ sig) : FVec Ideal S1x64 .f32) (after (hostOps3 (F := Ideal)) Wa2 (main_arg11 : DevRef τ sig) : FVec Ideal S64 .f32) (after (hostOps3 (F := Ideal)) Wa2 (main_arg12 : DevRef τ sig) : FVec Ideal S64 .f32)
  hk4 : ∀ r : Ref sig .tc, r ∉ [main_v44_0, main_v46, main_v50, main_arg11, main_arg12, main_v51] →
      Wa4 (Proc.devRef .tc r) = after (hostOps3 (F := Ideal)) Wa2 (Proc.devRef .tc r)
  hin4 : ∀ r : Ref sig .tc, r ∈ [main_arg11, main_arg12] →
      Wa4 (Proc.devRef .tc r) = after (hostOps3 (F := Ideal)) Wa2 (Proc.devRef .tc r)

/-- What the two regions of block 2 do, between the contents Wa before the block's first host stretch, Wa2 after its
    first region and Wa4 after its second: the first region's three results on what the first stretch leaves, the second
    region's result on what the second stretch leaves, and both regions leaving every other buffer, and the arrays they
    only read, as they found them. -/
structure Regions_2 (Wa Wa2 Wa4 : Valuation τ sig (Elt Ideal)) : Prop where
  hH : (Wa2 (main_v70_0 : DevRef τ sig) : FVec Ideal S200000x32 .f32) = mlp (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32)
  hS : (Wa2 (main_v70_1 : DevRef τ sig) : FVec Ideal S1x32 .f32) = fun i => colSumAt 50 4000 (by decide : 50 * 4000 = 200000)
      (fun r q => mlpAt (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32) r q) (i 1)
  hQ : (Wa2 (main_v70_2 : DevRef τ sig) : FVec Ideal S1x32 .f32) = fun i => colSumAt 50 4000 (by decide : 50 * 4000 = 200000)
      (fun r q => mlpAt (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32) r q
        * mlpAt (after (hostOps4 (F := Ideal)) Wa (main_v69 : DevRef τ sig) : FVec Ideal S200000x64 .f32) (after (hostOps4 (F := Ideal)) Wa (main_arg14 : DevRef τ sig) : FVec Ideal S64x32 .f32) (after (hostOps4 (F := Ideal)) Wa (main_arg15 : DevRef τ sig) : FVec Ideal S32 .f32) (after (hostOps4 (F := Ideal)) Wa (main_arg16 : DevRef τ sig) : FVec Ideal S32x32 .f32) (after (hostOps4 (F := Ideal)) Wa (main_arg17 : DevRef τ sig) : FVec Ideal S32 .f32) r q) (i 1)
  hk2 : ∀ r : Ref sig .tc, r ∉ [main_v69, main_arg14, main_arg15, main_arg16, main_arg17, main_v70_0, main_v70_1, main_v70_2] →
      Wa2 (Proc.devRef .tc r) = after (hostOps4 (F := Ideal)) Wa (Proc.devRef .tc r)
  hin2 : ∀ r : Ref sig .tc, r ∈ [main_arg14, main_arg15, main_arg16, main_arg17] →
      Wa2 (Proc.devRef .tc r) = after (hostOps4 (F := Ideal)) Wa (Proc.devRef .tc r)
  hout : (Wa4 (main_v77 : DevRef τ sig) : FVec Ideal S200000x32 .f32) = bnAffine (after (hostOps5 (F := Ideal)) Wa2 (main_v70_0 : DevRef τ sig) : FVec Ideal S200000x32 .f32) (after (hostOps5 (F := Ideal)) Wa2 (main_v72 : DevRef τ sig) : FVec Ideal S1x32 .f32) (after (hostOps5 (F := Ideal)) Wa2 (main_v76 : DevRef τ sig) : FVec Ideal S1x32 .f32) (after (hostOps5 (F := Ideal)) Wa2 (main_arg18 : DevRef τ sig) : FVec Ideal S32 .f32) (after (hostOps5 (F := Ideal)) Wa2 (main_arg19 : DevRef τ sig) : FVec Ideal S32 .f32)
  hk4 : ∀ r : Ref sig .tc, r ∉ [main_v70_0, main_v72, main_v76, main_arg18, main_arg19, main_v77] →
      Wa4 (Proc.devRef .tc r) = after (hostOps5 (F := Ideal)) Wa2 (Proc.devRef .tc r)
  hin4 : ∀ r : Ref sig .tc, r ∈ [main_arg18, main_arg19] →
      Wa4 (Proc.devRef .tc r) = after (hostOps5 (F := Ideal)) Wa2 (Proc.devRef .tc r)

/-- What the two regions of block 3 do, between the contents Wa before the block's first host stretch, Wa2 after its
    first region and Wa4 after its second: the first region's three results on what the first stretch leaves, the second
    region's result on what the second stretch leaves, and both regions leaving every other buffer, and the arrays they
    only read, as they found them. -/
structure Regions_3 (Wa Wa2 Wa4 : Valuation τ sig (Elt Ideal)) : Prop where
  hH : (Wa2 (main_v96_0 : DevRef τ sig) : FVec Ideal S200000x32 .f32) = mlp (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32)
  hS : (Wa2 (main_v96_1 : DevRef τ sig) : FVec Ideal S1x32 .f32) = fun i => colSumAt 50 4000 (by decide : 50 * 4000 = 200000)
      (fun r q => mlpAt (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32) r q) (i 1)
  hQ : (Wa2 (main_v96_2 : DevRef τ sig) : FVec Ideal S1x32 .f32) = fun i => colSumAt 50 4000 (by decide : 50 * 4000 = 200000)
      (fun r q => mlpAt (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32) r q
        * mlpAt (after (hostOps6 (F := Ideal)) Wa (main_v95 : DevRef τ sig) : FVec Ideal S200000x64 .f32) (after (hostOps6 (F := Ideal)) Wa (main_arg14 : DevRef τ sig) : FVec Ideal S64x32 .f32) (after (hostOps6 (F := Ideal)) Wa (main_arg15 : DevRef τ sig) : FVec Ideal S32 .f32) (after (hostOps6 (F := Ideal)) Wa (main_arg16 : DevRef τ sig) : FVec Ideal S32x32 .f32) (after (hostOps6 (F := Ideal)) Wa (main_arg17 : DevRef τ sig) : FVec Ideal S32 .f32) r q) (i 1)
  hk2 : ∀ r : Ref sig .tc, r ∉ [main_v95, main_arg14, main_arg15, main_arg16, main_arg17, main_v96_0, main_v96_1, main_v96_2] →
      Wa2 (Proc.devRef .tc r) = after (hostOps6 (F := Ideal)) Wa (Proc.devRef .tc r)
  hin2 : ∀ r : Ref sig .tc, r ∈ [main_arg14, main_arg15, main_arg16, main_arg17] →
      Wa2 (Proc.devRef .tc r) = after (hostOps6 (F := Ideal)) Wa (Proc.devRef .tc r)
  hout : (Wa4 (main_v103 : DevRef τ sig) : FVec Ideal S200000x32 .f32) = bnAffine (after (hostOps7 (F := Ideal)) Wa2 (main_v96_0 : DevRef τ sig) : FVec Ideal S200000x32 .f32) (after (hostOps7 (F := Ideal)) Wa2 (main_v98 : DevRef τ sig) : FVec Ideal S1x32 .f32) (after (hostOps7 (F := Ideal)) Wa2 (main_v102 : DevRef τ sig) : FVec Ideal S1x32 .f32) (after (hostOps7 (F := Ideal)) Wa2 (main_arg18 : DevRef τ sig) : FVec Ideal S32 .f32) (after (hostOps7 (F := Ideal)) Wa2 (main_arg19 : DevRef τ sig) : FVec Ideal S32 .f32)
  hk4 : ∀ r : Ref sig .tc, r ∉ [main_v96_0, main_v98, main_v102, main_arg18, main_arg19, main_v103] →
      Wa4 (Proc.devRef .tc r) = after (hostOps7 (F := Ideal)) Wa2 (Proc.devRef .tc r)
  hin4 : ∀ r : Ref sig .tc, r ∈ [main_arg18, main_arg19] →
      Wa4 (Proc.devRef .tc r) = after (hostOps7 (F := Ideal)) Wa2 (Proc.devRef .tc r)

/-- What the two regions of block 4 do, between the contents Wa before the block's first host stretch, Wa2 after its
    first region and Wa4 after its second: the first region's three results on what the first stretch leaves, the second
    region's result on what the second stretch leaves, and both regions leaving every other buffer, and the arrays they
    only read, as they found them. -/
structure Regions_4 (Wa Wa2 Wa4 : Valuation τ sig (Elt Ideal)) : Prop where
  hH : (Wa2 (main_v122_0 : DevRef τ sig) : FVec Ideal S200000x16 .f32) = mlp (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32)
  hS : (Wa2 (main_v122_1 : DevRef τ sig) : FVec Ideal S1x16 .f32) = fun i => colSumAt 50 4000 (by decide : 50 * 4000 = 200000)
      (fun r q => mlpAt (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32) r q) (i 1)
  hQ : (Wa2 (main_v122_2 : DevRef τ sig) : FVec Ideal S1x16 .f32) = fun i => colSumAt 50 4000 (by decide : 50 * 4000 = 200000)
      (fun r q => mlpAt (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32) r q
        * mlpAt (after (hostOps8 (F := Ideal)) Wa (main_v121 : DevRef τ sig) : FVec Ideal S200000x32 .f32) (after (hostOps8 (F := Ideal)) Wa (main_arg21 : DevRef τ sig) : FVec Ideal S32x16 .f32) (after (hostOps8 (F := Ideal)) Wa (main_arg22 : DevRef τ sig) : FVec Ideal S16 .f32) (after (hostOps8 (F := Ideal)) Wa (main_arg23 : DevRef τ sig) : FVec Ideal S16x16 .f32) (after (hostOps8 (F := Ideal)) Wa (main_arg24 : DevRef τ sig) : FVec Ideal S16 .f32) r q) (i 1)
  hk2 : ∀ r : Ref sig .tc, r ∉ [main_v121, main_arg21, main_arg22, main_arg23, main_arg24, main_v122_0, main_v122_1, main_v122_2] →
      Wa2 (Proc.devRef .tc r) = after (hostOps8 (F := Ideal)) Wa (Proc.devRef .tc r)
  hin2 : ∀ r : Ref sig .tc, r ∈ [main_arg21, main_arg22, main_arg23, main_arg24] →
      Wa2 (Proc.devRef .tc r) = after (hostOps8 (F := Ideal)) Wa (Proc.devRef .tc r)
  hout : (Wa4 (main_v129 : DevRef τ sig) : FVec Ideal S200000x16 .f32) = bnAffine (after (hostOps9 (F := Ideal)) Wa2 (main_v122_0 : DevRef τ sig) : FVec Ideal S200000x16 .f32) (after (hostOps9 (F := Ideal)) Wa2 (main_v124 : DevRef τ sig) : FVec Ideal S1x16 .f32) (after (hostOps9 (F := Ideal)) Wa2 (main_v128 : DevRef τ sig) : FVec Ideal S1x16 .f32) (after (hostOps9 (F := Ideal)) Wa2 (main_arg25 : DevRef τ sig) : FVec Ideal S16 .f32) (after (hostOps9 (F := Ideal)) Wa2 (main_arg26 : DevRef τ sig) : FVec Ideal S16 .f32)
  hk4 : ∀ r : Ref sig .tc, r ∉ [main_v122_0, main_v124, main_v128, main_arg25, main_arg26, main_v129] →
      Wa4 (Proc.devRef .tc r) = after (hostOps9 (F := Ideal)) Wa2 (Proc.devRef .tc r)
  hin4 : ∀ r : Ref sig .tc, r ∈ [main_arg25, main_arg26] →
      Wa4 (Proc.devRef .tc r) = after (hostOps9 (F := Ideal)) Wa2 (Proc.devRef .tc r)

/-- What the two regions of block 5 do, between the contents Wa before the block's first host stretch, Wa2 after its
    first region and Wa4 after its second: the first region's three results on what the first stretch leaves, the second
    region's result on what the second stretch leaves, and both regions leaving every other buffer, and the arrays they
    only read, as they found them. -/
structure Regions_5 (Wa Wa2 Wa4 : Valuation τ sig (Elt Ideal)) : Prop where
  hH : (Wa2 (main_v148_0 : DevRef τ sig) : FVec Ideal S200000x16 .f32) = mlp (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32)
  hS : (Wa2 (main_v148_1 : DevRef τ sig) : FVec Ideal S1x16 .f32) = fun i => colSumAt 50 4000 (by decide : 50 * 4000 = 200000)
      (fun r q => mlpAt (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32) r q) (i 1)
  hQ : (Wa2 (main_v148_2 : DevRef τ sig) : FVec Ideal S1x16 .f32) = fun i => colSumAt 50 4000 (by decide : 50 * 4000 = 200000)
      (fun r q => mlpAt (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32) r q
        * mlpAt (after (hostOps10 (F := Ideal)) Wa (main_v147 : DevRef τ sig) : FVec Ideal S200000x32 .f32) (after (hostOps10 (F := Ideal)) Wa (main_arg21 : DevRef τ sig) : FVec Ideal S32x16 .f32) (after (hostOps10 (F := Ideal)) Wa (main_arg22 : DevRef τ sig) : FVec Ideal S16 .f32) (after (hostOps10 (F := Ideal)) Wa (main_arg23 : DevRef τ sig) : FVec Ideal S16x16 .f32) (after (hostOps10 (F := Ideal)) Wa (main_arg24 : DevRef τ sig) : FVec Ideal S16 .f32) r q) (i 1)
  hk2 : ∀ r : Ref sig .tc, r ∉ [main_v147, main_arg21, main_arg22, main_arg23, main_arg24, main_v148_0, main_v148_1, main_v148_2] →
      Wa2 (Proc.devRef .tc r) = after (hostOps10 (F := Ideal)) Wa (Proc.devRef .tc r)
  hin2 : ∀ r : Ref sig .tc, r ∈ [main_arg21, main_arg22, main_arg23, main_arg24] →
      Wa2 (Proc.devRef .tc r) = after (hostOps10 (F := Ideal)) Wa (Proc.devRef .tc r)
  hout : (Wa4 (main_v155 : DevRef τ sig) : FVec Ideal S200000x16 .f32) = bnAffine (after (hostOps11 (F := Ideal)) Wa2 (main_v148_0 : DevRef τ sig) : FVec Ideal S200000x16 .f32) (after (hostOps11 (F := Ideal)) Wa2 (main_v150 : DevRef τ sig) : FVec Ideal S1x16 .f32) (after (hostOps11 (F := Ideal)) Wa2 (main_v154 : DevRef τ sig) : FVec Ideal S1x16 .f32) (after (hostOps11 (F := Ideal)) Wa2 (main_arg25 : DevRef τ sig) : FVec Ideal S16 .f32) (after (hostOps11 (F := Ideal)) Wa2 (main_arg26 : DevRef τ sig) : FVec Ideal S16 .f32)
  hk4 : ∀ r : Ref sig .tc, r ∉ [main_v148_0, main_v150, main_v154, main_arg25, main_arg26, main_v155] →
      Wa4 (Proc.devRef .tc r) = after (hostOps11 (F := Ideal)) Wa2 (Proc.devRef .tc r)
  hin4 : ∀ r : Ref sig .tc, r ∈ [main_arg25, main_arg26] →
      Wa4 (Proc.devRef .tc r) = after (hostOps11 (F := Ideal)) Wa2 (Proc.devRef .tc r)

set_option maxHeartbeats 4000000 in
/-- The whole kernel program, abstractly over the contents after each region. -/
theorem whole (W0 W2 W4 W6 W8 W10 W12 W14 W16 W18 W20 W22 W24 : Valuation τ sig (Elt Ideal))
    (x0 : FVec Ideal S200000x64 .f32) (x1 : FVec Ideal S200000x64 .f32) (x2 : IVec S2x3200000 32) (x3 : IVec S2x3200000 32) (x4 : IVec S200000 32) (x5 : IVec S200000 32) (x6 : FVec Ideal S_ .f32) (x7 : FVec Ideal S64x64 .f32) (x8 : FVec Ideal S64 .f32) (x9 : FVec Ideal S64x64 .f32) (x10 : FVec Ideal S64 .f32) (x11 : FVec Ideal S64 .f32) (x12 : FVec Ideal S64 .f32) (x13 : FVec Ideal S_ .f32) (x14 : FVec Ideal S64x32 .f32) (x15 : FVec Ideal S32 .f32) (x16 : FVec Ideal S32x32 .f32) (x17 : FVec Ideal S32 .f32) (x18 : FVec Ideal S32 .f32) (x19 : FVec Ideal S32 .f32) (x20 : FVec Ideal S_ .f32) (x21 : FVec Ideal S32x16 .f32) (x22 : FVec Ideal S16 .f32) (x23 : FVec Ideal S16x16 .f32) (x24 : FVec Ideal S16 .f32) (x25 : FVec Ideal S16 .f32) (x26 : FVec Ideal S16 .f32) (x27 : FVec Ideal S16x16 .f32) (x28 : FVec Ideal S16 .f32) (x29 : FVec Ideal S32x8 .f32) (x30 : FVec Ideal S8 .f32) (x31 : FVec Ideal S8x32 .f32) (x32 : FVec Ideal S32 .f32) (x33 : FVec Ideal S32x16 .f32) (x34 : FVec Ideal S16 .f32) (x35 : FVec Ideal S16x8 .f32) (x36 : FVec Ideal S8 .f32) (x37 : FVec Ideal S8x1 .f32) (x38 : FVec Ideal S1 .f32)
    (a0 : (W0 (main_arg0 : DevRef τ sig) : FVec Ideal S200000x64 .f32) = x0)
    (a1 : (W0 (main_arg1 : DevRef τ sig) : FVec Ideal S200000x64 .f32) = x1)
    (a2 : (W0 (main_arg2 : DevRef τ sig) : IVec S2x3200000 32) = x2)
    (a3 : (W0 (main_arg3 : DevRef τ sig) : IVec S2x3200000 32) = x3)
    (a4 : (W0 (main_arg4 : DevRef τ sig) : IVec S200000 32) = x4)
    (a5 : (W0 (main_arg5 : DevRef τ sig) : IVec S200000 32) = x5)
    (a6 : (W0 (main_arg6 : DevRef τ sig) : FVec Ideal S_ .f32) = x6)
    (a7 : (W0 (main_arg7 : DevRef τ sig) : FVec Ideal S64x64 .f32) = x7)
    (a8 : (W0 (main_arg8 : DevRef τ sig) : FVec Ideal S64 .f32) = x8)
    (a9 : (W0 (main_arg9 : DevRef τ sig) : FVec Ideal S64x64 .f32) = x9)
    (a10 : (W0 (main_arg10 : DevRef τ sig) : FVec Ideal S64 .f32) = x10)
    (a11 : (W0 (main_arg11 : DevRef τ sig) : FVec Ideal S64 .f32) = x11)
    (a12 : (W0 (main_arg12 : DevRef τ sig) : FVec Ideal S64 .f32) = x12)
    (a13 : (W0 (main_arg13 : DevRef τ sig) : FVec Ideal S_ .f32) = x13)
    (a14 : (W0 (main_arg14 : DevRef τ sig) : FVec Ideal S64x32 .f32) = x14)
    (a15 : (W0 (main_arg15 : DevRef τ sig) : FVec Ideal S32 .f32) = x15)
    (a16 : (W0 (main_arg16 : DevRef τ sig) : FVec Ideal S32x32 .f32) = x16)
    (a17 : (W0 (main_arg17 : DevRef τ sig) : FVec Ideal S32 .f32) = x17)
    (a18 : (W0 (main_arg18 : DevRef τ sig) : FVec Ideal S32 .f32) = x18)
    (a19 : (W0 (main_arg19 : DevRef τ sig) : FVec Ideal S32 .f32) = x19)
    (a20 : (W0 (main_arg20 : DevRef τ sig) : FVec Ideal S_ .f32) = x20)
    (a21 : (W0 (main_arg21 : DevRef τ sig) : FVec Ideal S32x16 .f32) = x21)
    (a22 : (W0 (main_arg22 : DevRef τ sig) : FVec Ideal S16 .f32) = x22)
    (a23 : (W0 (main_arg23 : DevRef τ sig) : FVec Ideal S16x16 .f32) = x23)
    (a24 : (W0 (main_arg24 : DevRef τ sig) : FVec Ideal S16 .f32) = x24)
    (a25 : (W0 (main_arg25 : DevRef τ sig) : FVec Ideal S16 .f32) = x25)
    (a26 : (W0 (main_arg26 : DevRef τ sig) : FVec Ideal S16 .f32) = x26)
    (a27 : (W0 (main_arg27 : DevRef τ sig) : FVec Ideal S16x16 .f32) = x27)
    (a28 : (W0 (main_arg28 : DevRef τ sig) : FVec Ideal S16 .f32) = x28)
    (a29 : (W0 (main_arg29 : DevRef τ sig) : FVec Ideal S32x8 .f32) = x29)
    (a30 : (W0 (main_arg30 : DevRef τ sig) : FVec Ideal S8 .f32) = x30)
    (a31 : (W0 (main_arg31 : DevRef τ sig) : FVec Ideal S8x32 .f32) = x31)
    (a32 : (W0 (main_arg32 : DevRef τ sig) : FVec Ideal S32 .f32) = x32)
    (a33 : (W0 (main_arg33 : DevRef τ sig) : FVec Ideal S32x16 .f32) = x33)
    (a34 : (W0 (main_arg34 : DevRef τ sig) : FVec Ideal S16 .f32) = x34)
    (a35 : (W0 (main_arg35 : DevRef τ sig) : FVec Ideal S16x8 .f32) = x35)
    (a36 : (W0 (main_arg36 : DevRef τ sig) : FVec Ideal S8 .f32) = x36)
    (a37 : (W0 (main_arg37 : DevRef τ sig) : FVec Ideal S8x1 .f32) = x37)
    (a38 : (W0 (main_arg38 : DevRef τ sig) : FVec Ideal S1 .f32) = x38)
    (r0 : AllReal x0) (r1 : AllReal x1) (r6 : AllReal x6) (r7 : AllReal x7) (r8 : AllReal x8) (r9 : AllReal x9) (r10 : AllReal x10) (r11 : AllReal x11) (r12 : AllReal x12) (r13 : AllReal x13) (r14 : AllReal x14) (r15 : AllReal x15) (r16 : AllReal x16) (r17 : AllReal x17) (r18 : AllReal x18) (r19 : AllReal x19) (r20 : AllReal x20) (r21 : AllReal x21) (r22 : AllReal x22) (r23 : AllReal x23) (r24 : AllReal x24) (r25 : AllReal x25) (r26 : AllReal x26) (r27 : AllReal x27) (r28 : AllReal x28) (r29 : AllReal x29) (r30 : AllReal x30) (r31 : AllReal x31) (r32 : AllReal x32) (r33 : AllReal x33) (r34 : AllReal x34) (r35 : AllReal x35) (r36 : AllReal x36) (r37 : AllReal x37) (r38 : AllReal x38)
    (R0 : Regions_0 W0 W2 W4) (R1 : Regions_1 W4 W6 W8) (R2 : Regions_2 W8 W10 W12) (R3 : Regions_3 W12 W14 W16) (R4 : Regions_4 W16 W18 W20) (R5 : Regions_5 W20 W22 W24) :
    (after ((hostOps12 (F := Ideal)) ++ (hostOps12_1 (F := Ideal) ++ hostOps12_2 (F := Ideal) ++ hostOps12_3 (F := Ideal) ++ hostOps12_4 (F := Ideal) ++ hostOps12_5 (F := Ideal) ++ hostOps12_6 (F := Ideal) ++ hostOps12_7 (F := Ideal) ++ hostOps12_8 (F := Ideal) ++ hostOps12_9 (F := Ideal) ++ hostOps12_10 (F := Ideal) ++ hostOps12_11 (F := Ideal) ++ hostOps12_12 (F := Ideal) ++ hostOps12_13 (F := Ideal) ++ hostOps12_14 (F := Ideal))) W24 (main_v305 : DevRef τ sig) : FVec Ideal S1000 .f32) = (Cert.Spec.heads (Cert.Spec.pooledI x0 x1 x2 x3 x4 x5 x6 x7 x8 x9 x10 x11 x12 x13 x14 x15 x16 x17 x18 x19 x20 x21 x22 x23 x24 x25 x26 x27 x28 x29 x30 x31 x32 x33 x34 x35 x36 x37 x38) (Cert.Spec.pooledJ x0 x1 x2 x3 x4 x5 x6 x7 x8 x9 x10 x11 x12 x13 x14 x15 x16 x17 x18 x19 x20 x21 x22 x23 x24 x25 x26 x27 x28 x29 x30 x31 x32 x33 x34 x35 x36 x37 x38) x29 x30 x31 x32 x33 x34 x35 x36 x37 x38).1
    ∧ (after ((hostOps12 (F := Ideal)) ++ (hostOps12_1 (F := Ideal) ++ hostOps12_2 (F := Ideal) ++ hostOps12_3 (F := Ideal) ++ hostOps12_4 (F := Ideal) ++ hostOps12_5 (F := Ideal) ++ hostOps12_6 (F := Ideal) ++ hostOps12_7 (F := Ideal) ++ hostOps12_8 (F := Ideal) ++ hostOps12_9 (F := Ideal) ++ hostOps12_10 (F := Ideal) ++ hostOps12_11 (F := Ideal) ++ hostOps12_12 (F := Ideal) ++ hostOps12_13 (F := Ideal) ++ hostOps12_14 (F := Ideal))) W24 (main_v294 : DevRef τ sig) : FVec Ideal S1000x16 .f32) = (Cert.Spec.heads (Cert.Spec.pooledI x0 x1 x2 x3 x4 x5 x6 x7 x8 x9 x10 x11 x12 x13 x14 x15 x16 x17 x18 x19 x20 x21 x22 x23 x24 x25 x26 x27 x28 x29 x30 x31 x32 x33 x34 x35 x36 x37 x38) (Cert.Spec.pooledJ x0 x1 x2 x3 x4 x5 x6 x7 x8 x9 x10 x11 x12 x13 x14 x15 x16 x17 x18 x19 x20 x21 x22 x23 x24 x25 x26 x27 x28 x29 x30 x31 x32 x33 x34 x35 x36 x37 x38) x29 x30 x31 x32 x33 x34 x35 x36 x37 x38).2.1
    ∧ (after ((hostOps12 (F := Ideal)) ++ (hostOps12_1 (F := Ideal) ++ hostOps12_2 (F := Ideal) ++ hostOps12_3 (F := Ideal) ++ hostOps12_4 (F := Ideal) ++ hostOps12_5 (F := Ideal) ++ hostOps12_6 (F := Ideal) ++ hostOps12_7 (F := Ideal) ++ hostOps12_8 (F := Ideal) ++ hostOps12_9 (F := Ideal) ++ hostOps12_10 (F := Ideal) ++ hostOps12_11 (F := Ideal) ++ hostOps12_12 (F := Ideal) ++ hostOps12_13 (F := Ideal) ++ hostOps12_14 (F := Ideal))) W24 (main_v295 : DevRef τ sig) : FVec Ideal S1000x16 .f32) = (Cert.Spec.heads (Cert.Spec.pooledI x0 x1 x2 x3 x4 x5 x6 x7 x8 x9 x10 x11 x12 x13 x14 x15 x16 x17 x18 x19 x20 x21 x22 x23 x24 x25 x26 x27 x28 x29 x30 x31 x32 x33 x34 x35 x36 x37 x38) (Cert.Spec.pooledJ x0 x1 x2 x3 x4 x5 x6 x7 x8 x9 x10 x11 x12 x13 x14 x15 x16 x17 x18 x19 x20 x21 x22 x23 x24 x25 x26 x27 x28 x29 x30 x31 x32 x33 x34 x35 x36 x37 x38) x29 x30 x31 x32 x33 x34 x35 x36 x37 x38).2.2 := by
  -- block 0
  have B0 : (W4 (main_v25 : DevRef τ sig) : FVec Ideal S200000x64 .f32) = (Cert.Spec.layerA x0 x2 x6 x7 x8 x9 x10 x11 x12) :=
    block_0 W0 W2 W4 x0 x2 x6 x7 x8 x9 x10 x11 x12 a0 a2 a6 a7 a8 a9 a10 a11 a12
      r0 r6 r7 r8 r9 r10 R0.hH R0.hS R0.hQ R0.hk2 R0.hout
  have RL0 : AllReal (Cert.Spec.layerA x0 x2 x6 x7 x8 x9 x10 x11 x12) :=
    Cert.Bridge.layerA_real x0 x2 x6 x7 x8 x9 x10 x11 x12 r0 r6 r7 r8 r9 r10 r11 r12
  have A1_1 : (W4 (main_arg1 : DevRef τ sig) : FVec Ideal S200000x64 .f32) = x1 := (thru_0 W0 W2 W4 R0.hk2 R0.hk4 main_arg1 (by decide) (by decide) (by decide) (by decide)).trans a1
  have A1_2 : (W4 (main_arg2 : DevRef τ sig) : IVec S2x3200000 32) = x2 := (thru_0 W0 W2 W4 R0.hk2 R0.hk4 main_arg2 (by decide) (by decide) (by decide) (by decide)).trans a2
  have A1_3 : (W4 (main_arg3 : DevRef τ sig) : IVec S2x3200000 32) = x3 := (thru_0 W0 W2 W4 R0.hk2 R0.hk4 main_arg3 (by decide) (by decide) (by decide) (by decide)).trans a3
  have A1_4 : (W4 (main_arg4 : DevRef τ sig) : IVec S200000 32) = x4 := (thru_0 W0 W2 W4 R0.hk2 R0.hk4 main_arg4 (by decide) (by decide) (by decide) (by decide)).trans a4
  have A1_5 : (W4 (main_arg5 : DevRef τ sig) : IVec S200000 32) = x5 := (thru_0 W0 W2 W4 R0.hk2 R0.hk4 main_arg5 (by decide) (by decide) (by decide) (by decide)).trans a5
  have A1_6 : (W4 (main_arg6 : DevRef τ sig) : FVec Ideal S_ .f32) = x6 := (thru_0 W0 W2 W4 R0.hk2 R0.hk4 main_arg6 (by decide) (by decide) (by decide) (by decide)).trans a6
  have A1_7 : (W4 (main_arg7 : DevRef τ sig) : FVec Ideal S64x64 .f32) = x7 := (thruW_0 W0 W2 W4 R0.hin2 R0.hk4 main_arg7 (by decide) (by decide) (by decide) (by decide)).trans a7
  have A1_8 : (W4 (main_arg8 : DevRef τ sig) : FVec Ideal S64 .f32) = x8 := (thruW_0 W0 W2 W4 R0.hin2 R0.hk4 main_arg8 (by decide) (by decide) (by decide) (by decide)).trans a8
  have A1_9 : (W4 (main_arg9 : DevRef τ sig) : FVec Ideal S64x64 .f32) = x9 := (thruW_0 W0 W2 W4 R0.hin2 R0.hk4 main_arg9 (by decide) (by decide) (by decide) (by decide)).trans a9
  have A1_10 : (W4 (main_arg10 : DevRef τ sig) : FVec Ideal S64 .f32) = x10 := (thruW_0 W0 W2 W4 R0.hin2 R0.hk4 main_arg10 (by decide) (by decide) (by decide) (by decide)).trans a10
  have A1_11 : (W4 (main_arg11 : DevRef τ sig) : FVec Ideal S64 .f32) = x11 := (thruG_0 W0 W2 W4 R0.hk2 R0.hin4 main_arg11 (by decide) (by decide) (by decide) (by decide)).trans a11
  have A1_12 : (W4 (main_arg12 : DevRef τ sig) : FVec Ideal S64 .f32) = x12 := (thruG_0 W0 W2 W4 R0.hk2 R0.hin4 main_arg12 (by decide) (by decide) (by decide) (by decide)).trans a12
  have A1_13 : (W4 (main_arg13 : DevRef τ sig) : FVec Ideal S_ .f32) = x13 := (thru_0 W0 W2 W4 R0.hk2 R0.hk4 main_arg13 (by decide) (by decide) (by decide) (by decide)).trans a13
  have A1_14 : (W4 (main_arg14 : DevRef τ sig) : FVec Ideal S64x32 .f32) = x14 := (thru_0 W0 W2 W4 R0.hk2 R0.hk4 main_arg14 (by decide) (by decide) (by decide) (by decide)).trans a14
  have A1_15 : (W4 (main_arg15 : DevRef τ sig) : FVec Ideal S32 .f32) = x15 := (thru_0 W0 W2 W4 R0.hk2 R0.hk4 main_arg15 (by decide) (by decide) (by decide) (by decide)).trans a15
  have A1_16 : (W4 (main_arg16 : DevRef τ sig) : FVec Ideal S32x32 .f32) = x16 := (thru_0 W0 W2 W4 R0.hk2 R0.hk4 main_arg16 (by decide) (by decide) (by decide) (by decide)).trans a16
  have A1_17 : (W4 (main_arg17 : DevRef τ sig) : FVec Ideal S32 .f32) = x17 := (thru_0 W0 W2 W4 R0.hk2 R0.hk4 main_arg17 (by decide) (by decide) (by decide) (by decide)).trans a17
  have A1_18 : (W4 (main_arg18 : DevRef τ sig) : FVec Ideal S32 .f32) = x18 := (thru_0 W0 W2 W4 R0.hk2 R0.hk4 main_arg18 (by decide) (by decide) (by decide) (by decide)).trans a18
  have A1_19 : (W4 (main_arg19 : DevRef τ sig) : FVec Ideal S32 .f32) = x19 := (thru_0 W0 W2 W4 R0.hk2 R0.hk4 main_arg19 (by decide) (by decide) (by decide) (by decide)).trans a19
  have A1_20 : (W4 (main_arg20 : DevRef τ sig) : FVec Ideal S_ .f32) = x20 := (thru_0 W0 W2 W4 R0.hk2 R0.hk4 main_arg20 (by decide) (by decide) (by decide) (by decide)).trans a20
  have A1_21 : (W4 (main_arg21 : DevRef τ sig) : FVec Ideal S32x16 .f32) = x21 := (thru_0 W0 W2 W4 R0.hk2 R0.hk4 main_arg21 (by decide) (by decide) (by decide) (by decide)).trans a21
  have A1_22 : (W4 (main_arg22 : DevRef τ sig) : FVec Ideal S16 .f32) = x22 := (thru_0 W0 W2 W4 R0.hk2 R0.hk4 main_arg22 (by decide) (by decide) (by decide) (by decide)).trans a22
  have A1_23 : (W4 (main_arg23 : DevRef τ sig) : FVec Ideal S16x16 .f32) = x23 := (thru_0 W0 W2 W4 R0.hk2 R0.hk4 main_arg23 (by decide) (by decide) (by decide) (by decide)).trans a23
  have A1_24 : (W4 (main_arg24 : DevRef τ sig) : FVec Ideal S16 .f32) = x24 := (thru_0 W0 W2 W4 R0.hk2 R0.hk4 main_arg24 (by decide) (by decide) (by decide) (by decide)).trans a24
  have A1_25 : (W4 (main_arg25 : DevRef τ sig) : FVec Ideal S16 .f32) = x25 := (thru_0 W0 W2 W4 R0.hk2 R0.hk4 main_arg25 (by decide) (by decide) (by decide) (by decide)).trans a25
  have A1_26 : (W4 (main_arg26 : DevRef τ sig) : FVec Ideal S16 .f32) = x26 := (thru_0 W0 W2 W4 R0.hk2 R0.hk4 main_arg26 (by decide) (by decide) (by decide) (by decide)).trans a26
  have A1_27 : (W4 (main_arg27 : DevRef τ sig) : FVec Ideal S16x16 .f32) = x27 := (thru_0 W0 W2 W4 R0.hk2 R0.hk4 main_arg27 (by decide) (by decide) (by decide) (by decide)).trans a27
  have A1_28 : (W4 (main_arg28 : DevRef τ sig) : FVec Ideal S16 .f32) = x28 := (thru_0 W0 W2 W4 R0.hk2 R0.hk4 main_arg28 (by decide) (by decide) (by decide) (by decide)).trans a28
  have A1_29 : (W4 (main_arg29 : DevRef τ sig) : FVec Ideal S32x8 .f32) = x29 := (thru_0 W0 W2 W4 R0.hk2 R0.hk4 main_arg29 (by decide) (by decide) (by decide) (by decide)).trans a29
  have A1_30 : (W4 (main_arg30 : DevRef τ sig) : FVec Ideal S8 .f32) = x30 := (thru_0 W0 W2 W4 R0.hk2 R0.hk4 main_arg30 (by decide) (by decide) (by decide) (by decide)).trans a30
  have A1_31 : (W4 (main_arg31 : DevRef τ sig) : FVec Ideal S8x32 .f32) = x31 := (thru_0 W0 W2 W4 R0.hk2 R0.hk4 main_arg31 (by decide) (by decide) (by decide) (by decide)).trans a31
  have A1_32 : (W4 (main_arg32 : DevRef τ sig) : FVec Ideal S32 .f32) = x32 := (thru_0 W0 W2 W4 R0.hk2 R0.hk4 main_arg32 (by decide) (by decide) (by decide) (by decide)).trans a32
  have A1_33 : (W4 (main_arg33 : DevRef τ sig) : FVec Ideal S32x16 .f32) = x33 := (thru_0 W0 W2 W4 R0.hk2 R0.hk4 main_arg33 (by decide) (by decide) (by decide) (by decide)).trans a33
  have A1_34 : (W4 (main_arg34 : DevRef τ sig) : FVec Ideal S16 .f32) = x34 := (thru_0 W0 W2 W4 R0.hk2 R0.hk4 main_arg34 (by decide) (by decide) (by decide) (by decide)).trans a34
  have A1_35 : (W4 (main_arg35 : DevRef τ sig) : FVec Ideal S16x8 .f32) = x35 := (thru_0 W0 W2 W4 R0.hk2 R0.hk4 main_arg35 (by decide) (by decide) (by decide) (by decide)).trans a35
  have A1_36 : (W4 (main_arg36 : DevRef τ sig) : FVec Ideal S8 .f32) = x36 := (thru_0 W0 W2 W4 R0.hk2 R0.hk4 main_arg36 (by decide) (by decide) (by decide) (by decide)).trans a36
  have A1_37 : (W4 (main_arg37 : DevRef τ sig) : FVec Ideal S8x1 .f32) = x37 := (thru_0 W0 W2 W4 R0.hk2 R0.hk4 main_arg37 (by decide) (by decide) (by decide) (by decide)).trans a37
  have A1_38 : (W4 (main_arg38 : DevRef τ sig) : FVec Ideal S1 .f32) = x38 := (thru_0 W0 W2 W4 R0.hk2 R0.hk4 main_arg38 (by decide) (by decide) (by decide) (by decide)).trans a38
  have O1_0 := B0
  -- block 1
  have B1 : (W8 (main_v51 : DevRef τ sig) : FVec Ideal S200000x64 .f32) = (Cert.Spec.layerA x1 x3 x6 x7 x8 x9 x10 x11 x12) :=
    block_1 W4 W6 W8 x1 x3 x6 x7 x8 x9 x10 x11 x12 A1_1 A1_3 A1_6 A1_7 A1_8 A1_9 A1_10 A1_11 A1_12
      r1 r6 r7 r8 r9 r10 R1.hH R1.hS R1.hQ R1.hk2 R1.hout
  have RL1 : AllReal (Cert.Spec.layerA x1 x3 x6 x7 x8 x9 x10 x11 x12) :=
    Cert.Bridge.layerA_real x1 x3 x6 x7 x8 x9 x10 x11 x12 r1 r6 r7 r8 r9 r10 r11 r12
  have A2_2 : (W8 (main_arg2 : DevRef τ sig) : IVec S2x3200000 32) = x2 := (thru_1 W4 W6 W8 R1.hk2 R1.hk4 main_arg2 (by decide) (by decide) (by decide) (by decide)).trans A1_2
  have A2_3 : (W8 (main_arg3 : DevRef τ sig) : IVec S2x3200000 32) = x3 := (thru_1 W4 W6 W8 R1.hk2 R1.hk4 main_arg3 (by decide) (by decide) (by decide) (by decide)).trans A1_3
  have A2_4 : (W8 (main_arg4 : DevRef τ sig) : IVec S200000 32) = x4 := (thru_1 W4 W6 W8 R1.hk2 R1.hk4 main_arg4 (by decide) (by decide) (by decide) (by decide)).trans A1_4
  have A2_5 : (W8 (main_arg5 : DevRef τ sig) : IVec S200000 32) = x5 := (thru_1 W4 W6 W8 R1.hk2 R1.hk4 main_arg5 (by decide) (by decide) (by decide) (by decide)).trans A1_5
  have A2_13 : (W8 (main_arg13 : DevRef τ sig) : FVec Ideal S_ .f32) = x13 := (thru_1 W4 W6 W8 R1.hk2 R1.hk4 main_arg13 (by decide) (by decide) (by decide) (by decide)).trans A1_13
  have A2_14 : (W8 (main_arg14 : DevRef τ sig) : FVec Ideal S64x32 .f32) = x14 := (thru_1 W4 W6 W8 R1.hk2 R1.hk4 main_arg14 (by decide) (by decide) (by decide) (by decide)).trans A1_14
  have A2_15 : (W8 (main_arg15 : DevRef τ sig) : FVec Ideal S32 .f32) = x15 := (thru_1 W4 W6 W8 R1.hk2 R1.hk4 main_arg15 (by decide) (by decide) (by decide) (by decide)).trans A1_15
  have A2_16 : (W8 (main_arg16 : DevRef τ sig) : FVec Ideal S32x32 .f32) = x16 := (thru_1 W4 W6 W8 R1.hk2 R1.hk4 main_arg16 (by decide) (by decide) (by decide) (by decide)).trans A1_16
  have A2_17 : (W8 (main_arg17 : DevRef τ sig) : FVec Ideal S32 .f32) = x17 := (thru_1 W4 W6 W8 R1.hk2 R1.hk4 main_arg17 (by decide) (by decide) (by decide) (by decide)).trans A1_17
  have A2_18 : (W8 (main_arg18 : DevRef τ sig) : FVec Ideal S32 .f32) = x18 := (thru_1 W4 W6 W8 R1.hk2 R1.hk4 main_arg18 (by decide) (by decide) (by decide) (by decide)).trans A1_18
  have A2_19 : (W8 (main_arg19 : DevRef τ sig) : FVec Ideal S32 .f32) = x19 := (thru_1 W4 W6 W8 R1.hk2 R1.hk4 main_arg19 (by decide) (by decide) (by decide) (by decide)).trans A1_19
  have A2_20 : (W8 (main_arg20 : DevRef τ sig) : FVec Ideal S_ .f32) = x20 := (thru_1 W4 W6 W8 R1.hk2 R1.hk4 main_arg20 (by decide) (by decide) (by decide) (by decide)).trans A1_20
  have A2_21 : (W8 (main_arg21 : DevRef τ sig) : FVec Ideal S32x16 .f32) = x21 := (thru_1 W4 W6 W8 R1.hk2 R1.hk4 main_arg21 (by decide) (by decide) (by decide) (by decide)).trans A1_21
  have A2_22 : (W8 (main_arg22 : DevRef τ sig) : FVec Ideal S16 .f32) = x22 := (thru_1 W4 W6 W8 R1.hk2 R1.hk4 main_arg22 (by decide) (by decide) (by decide) (by decide)).trans A1_22
  have A2_23 : (W8 (main_arg23 : DevRef τ sig) : FVec Ideal S16x16 .f32) = x23 := (thru_1 W4 W6 W8 R1.hk2 R1.hk4 main_arg23 (by decide) (by decide) (by decide) (by decide)).trans A1_23
  have A2_24 : (W8 (main_arg24 : DevRef τ sig) : FVec Ideal S16 .f32) = x24 := (thru_1 W4 W6 W8 R1.hk2 R1.hk4 main_arg24 (by decide) (by decide) (by decide) (by decide)).trans A1_24
  have A2_25 : (W8 (main_arg25 : DevRef τ sig) : FVec Ideal S16 .f32) = x25 := (thru_1 W4 W6 W8 R1.hk2 R1.hk4 main_arg25 (by decide) (by decide) (by decide) (by decide)).trans A1_25
  have A2_26 : (W8 (main_arg26 : DevRef τ sig) : FVec Ideal S16 .f32) = x26 := (thru_1 W4 W6 W8 R1.hk2 R1.hk4 main_arg26 (by decide) (by decide) (by decide) (by decide)).trans A1_26
  have A2_27 : (W8 (main_arg27 : DevRef τ sig) : FVec Ideal S16x16 .f32) = x27 := (thru_1 W4 W6 W8 R1.hk2 R1.hk4 main_arg27 (by decide) (by decide) (by decide) (by decide)).trans A1_27
  have A2_28 : (W8 (main_arg28 : DevRef τ sig) : FVec Ideal S16 .f32) = x28 := (thru_1 W4 W6 W8 R1.hk2 R1.hk4 main_arg28 (by decide) (by decide) (by decide) (by decide)).trans A1_28
  have A2_29 : (W8 (main_arg29 : DevRef τ sig) : FVec Ideal S32x8 .f32) = x29 := (thru_1 W4 W6 W8 R1.hk2 R1.hk4 main_arg29 (by decide) (by decide) (by decide) (by decide)).trans A1_29
  have A2_30 : (W8 (main_arg30 : DevRef τ sig) : FVec Ideal S8 .f32) = x30 := (thru_1 W4 W6 W8 R1.hk2 R1.hk4 main_arg30 (by decide) (by decide) (by decide) (by decide)).trans A1_30
  have A2_31 : (W8 (main_arg31 : DevRef τ sig) : FVec Ideal S8x32 .f32) = x31 := (thru_1 W4 W6 W8 R1.hk2 R1.hk4 main_arg31 (by decide) (by decide) (by decide) (by decide)).trans A1_31
  have A2_32 : (W8 (main_arg32 : DevRef τ sig) : FVec Ideal S32 .f32) = x32 := (thru_1 W4 W6 W8 R1.hk2 R1.hk4 main_arg32 (by decide) (by decide) (by decide) (by decide)).trans A1_32
  have A2_33 : (W8 (main_arg33 : DevRef τ sig) : FVec Ideal S32x16 .f32) = x33 := (thru_1 W4 W6 W8 R1.hk2 R1.hk4 main_arg33 (by decide) (by decide) (by decide) (by decide)).trans A1_33
  have A2_34 : (W8 (main_arg34 : DevRef τ sig) : FVec Ideal S16 .f32) = x34 := (thru_1 W4 W6 W8 R1.hk2 R1.hk4 main_arg34 (by decide) (by decide) (by decide) (by decide)).trans A1_34
  have A2_35 : (W8 (main_arg35 : DevRef τ sig) : FVec Ideal S16x8 .f32) = x35 := (thru_1 W4 W6 W8 R1.hk2 R1.hk4 main_arg35 (by decide) (by decide) (by decide) (by decide)).trans A1_35
  have A2_36 : (W8 (main_arg36 : DevRef τ sig) : FVec Ideal S8 .f32) = x36 := (thru_1 W4 W6 W8 R1.hk2 R1.hk4 main_arg36 (by decide) (by decide) (by decide) (by decide)).trans A1_36
  have A2_37 : (W8 (main_arg37 : DevRef τ sig) : FVec Ideal S8x1 .f32) = x37 := (thru_1 W4 W6 W8 R1.hk2 R1.hk4 main_arg37 (by decide) (by decide) (by decide) (by decide)).trans A1_37
  have A2_38 : (W8 (main_arg38 : DevRef τ sig) : FVec Ideal S1 .f32) = x38 := (thru_1 W4 W6 W8 R1.hk2 R1.hk4 main_arg38 (by decide) (by decide) (by decide) (by decide)).trans A1_38
  have O2_1 := B1
  have O2_0 : (W8 (main_v25 : DevRef τ sig) : FVec Ideal S200000x64 .f32) = (Cert.Spec.layerA x0 x2 x6 x7 x8 x9 x10 x11 x12) :=
    (thru_1 W4 W6 W8 R1.hk2 R1.hk4 main_v25 (by decide) (by decide) (by decide) (by decide)).trans O1_0
  -- block 2
  have B2 : (W12 (main_v77 : DevRef τ sig) : FVec Ideal S200000x32 .f32) = (Cert.Spec.layerB (Cert.Spec.layerA x0 x2 x6 x7 x8 x9 x10 x11 x12) x2 x13 x14 x15 x16 x17 x18 x19) :=
    block_2 W8 W10 W12 (Cert.Spec.layerA x0 x2 x6 x7 x8 x9 x10 x11 x12) x2 x13 x14 x15 x16 x17 x18 x19 O2_0 A2_2 A2_13 A2_14 A2_15 A2_16 A2_17 A2_18 A2_19
      RL0 r13 r14 r15 r16 r17 R2.hH R2.hS R2.hQ R2.hk2 R2.hout
  have RL2 : AllReal (Cert.Spec.layerB (Cert.Spec.layerA x0 x2 x6 x7 x8 x9 x10 x11 x12) x2 x13 x14 x15 x16 x17 x18 x19) :=
    Cert.Bridge.layerB_real (Cert.Spec.layerA x0 x2 x6 x7 x8 x9 x10 x11 x12) x2 x13 x14 x15 x16 x17 x18 x19 RL0 r13 r14 r15 r16 r17 r18 r19
  have A3_2 : (W12 (main_arg2 : DevRef τ sig) : IVec S2x3200000 32) = x2 := (thru_2 W8 W10 W12 R2.hk2 R2.hk4 main_arg2 (by decide) (by decide) (by decide) (by decide)).trans A2_2
  have A3_3 : (W12 (main_arg3 : DevRef τ sig) : IVec S2x3200000 32) = x3 := (thru_2 W8 W10 W12 R2.hk2 R2.hk4 main_arg3 (by decide) (by decide) (by decide) (by decide)).trans A2_3
  have A3_4 : (W12 (main_arg4 : DevRef τ sig) : IVec S200000 32) = x4 := (thru_2 W8 W10 W12 R2.hk2 R2.hk4 main_arg4 (by decide) (by decide) (by decide) (by decide)).trans A2_4
  have A3_5 : (W12 (main_arg5 : DevRef τ sig) : IVec S200000 32) = x5 := (thru_2 W8 W10 W12 R2.hk2 R2.hk4 main_arg5 (by decide) (by decide) (by decide) (by decide)).trans A2_5
  have A3_13 : (W12 (main_arg13 : DevRef τ sig) : FVec Ideal S_ .f32) = x13 := (thru_2 W8 W10 W12 R2.hk2 R2.hk4 main_arg13 (by decide) (by decide) (by decide) (by decide)).trans A2_13
  have A3_14 : (W12 (main_arg14 : DevRef τ sig) : FVec Ideal S64x32 .f32) = x14 := (thruW_2 W8 W10 W12 R2.hin2 R2.hk4 main_arg14 (by decide) (by decide) (by decide) (by decide)).trans A2_14
  have A3_15 : (W12 (main_arg15 : DevRef τ sig) : FVec Ideal S32 .f32) = x15 := (thruW_2 W8 W10 W12 R2.hin2 R2.hk4 main_arg15 (by decide) (by decide) (by decide) (by decide)).trans A2_15
  have A3_16 : (W12 (main_arg16 : DevRef τ sig) : FVec Ideal S32x32 .f32) = x16 := (thruW_2 W8 W10 W12 R2.hin2 R2.hk4 main_arg16 (by decide) (by decide) (by decide) (by decide)).trans A2_16
  have A3_17 : (W12 (main_arg17 : DevRef τ sig) : FVec Ideal S32 .f32) = x17 := (thruW_2 W8 W10 W12 R2.hin2 R2.hk4 main_arg17 (by decide) (by decide) (by decide) (by decide)).trans A2_17
  have A3_18 : (W12 (main_arg18 : DevRef τ sig) : FVec Ideal S32 .f32) = x18 := (thruG_2 W8 W10 W12 R2.hk2 R2.hin4 main_arg18 (by decide) (by decide) (by decide) (by decide)).trans A2_18
  have A3_19 : (W12 (main_arg19 : DevRef τ sig) : FVec Ideal S32 .f32) = x19 := (thruG_2 W8 W10 W12 R2.hk2 R2.hin4 main_arg19 (by decide) (by decide) (by decide) (by decide)).trans A2_19
  have A3_20 : (W12 (main_arg20 : DevRef τ sig) : FVec Ideal S_ .f32) = x20 := (thru_2 W8 W10 W12 R2.hk2 R2.hk4 main_arg20 (by decide) (by decide) (by decide) (by decide)).trans A2_20
  have A3_21 : (W12 (main_arg21 : DevRef τ sig) : FVec Ideal S32x16 .f32) = x21 := (thru_2 W8 W10 W12 R2.hk2 R2.hk4 main_arg21 (by decide) (by decide) (by decide) (by decide)).trans A2_21
  have A3_22 : (W12 (main_arg22 : DevRef τ sig) : FVec Ideal S16 .f32) = x22 := (thru_2 W8 W10 W12 R2.hk2 R2.hk4 main_arg22 (by decide) (by decide) (by decide) (by decide)).trans A2_22
  have A3_23 : (W12 (main_arg23 : DevRef τ sig) : FVec Ideal S16x16 .f32) = x23 := (thru_2 W8 W10 W12 R2.hk2 R2.hk4 main_arg23 (by decide) (by decide) (by decide) (by decide)).trans A2_23
  have A3_24 : (W12 (main_arg24 : DevRef τ sig) : FVec Ideal S16 .f32) = x24 := (thru_2 W8 W10 W12 R2.hk2 R2.hk4 main_arg24 (by decide) (by decide) (by decide) (by decide)).trans A2_24
  have A3_25 : (W12 (main_arg25 : DevRef τ sig) : FVec Ideal S16 .f32) = x25 := (thru_2 W8 W10 W12 R2.hk2 R2.hk4 main_arg25 (by decide) (by decide) (by decide) (by decide)).trans A2_25
  have A3_26 : (W12 (main_arg26 : DevRef τ sig) : FVec Ideal S16 .f32) = x26 := (thru_2 W8 W10 W12 R2.hk2 R2.hk4 main_arg26 (by decide) (by decide) (by decide) (by decide)).trans A2_26
  have A3_27 : (W12 (main_arg27 : DevRef τ sig) : FVec Ideal S16x16 .f32) = x27 := (thru_2 W8 W10 W12 R2.hk2 R2.hk4 main_arg27 (by decide) (by decide) (by decide) (by decide)).trans A2_27
  have A3_28 : (W12 (main_arg28 : DevRef τ sig) : FVec Ideal S16 .f32) = x28 := (thru_2 W8 W10 W12 R2.hk2 R2.hk4 main_arg28 (by decide) (by decide) (by decide) (by decide)).trans A2_28
  have A3_29 : (W12 (main_arg29 : DevRef τ sig) : FVec Ideal S32x8 .f32) = x29 := (thru_2 W8 W10 W12 R2.hk2 R2.hk4 main_arg29 (by decide) (by decide) (by decide) (by decide)).trans A2_29
  have A3_30 : (W12 (main_arg30 : DevRef τ sig) : FVec Ideal S8 .f32) = x30 := (thru_2 W8 W10 W12 R2.hk2 R2.hk4 main_arg30 (by decide) (by decide) (by decide) (by decide)).trans A2_30
  have A3_31 : (W12 (main_arg31 : DevRef τ sig) : FVec Ideal S8x32 .f32) = x31 := (thru_2 W8 W10 W12 R2.hk2 R2.hk4 main_arg31 (by decide) (by decide) (by decide) (by decide)).trans A2_31
  have A3_32 : (W12 (main_arg32 : DevRef τ sig) : FVec Ideal S32 .f32) = x32 := (thru_2 W8 W10 W12 R2.hk2 R2.hk4 main_arg32 (by decide) (by decide) (by decide) (by decide)).trans A2_32
  have A3_33 : (W12 (main_arg33 : DevRef τ sig) : FVec Ideal S32x16 .f32) = x33 := (thru_2 W8 W10 W12 R2.hk2 R2.hk4 main_arg33 (by decide) (by decide) (by decide) (by decide)).trans A2_33
  have A3_34 : (W12 (main_arg34 : DevRef τ sig) : FVec Ideal S16 .f32) = x34 := (thru_2 W8 W10 W12 R2.hk2 R2.hk4 main_arg34 (by decide) (by decide) (by decide) (by decide)).trans A2_34
  have A3_35 : (W12 (main_arg35 : DevRef τ sig) : FVec Ideal S16x8 .f32) = x35 := (thru_2 W8 W10 W12 R2.hk2 R2.hk4 main_arg35 (by decide) (by decide) (by decide) (by decide)).trans A2_35
  have A3_36 : (W12 (main_arg36 : DevRef τ sig) : FVec Ideal S8 .f32) = x36 := (thru_2 W8 W10 W12 R2.hk2 R2.hk4 main_arg36 (by decide) (by decide) (by decide) (by decide)).trans A2_36
  have A3_37 : (W12 (main_arg37 : DevRef τ sig) : FVec Ideal S8x1 .f32) = x37 := (thru_2 W8 W10 W12 R2.hk2 R2.hk4 main_arg37 (by decide) (by decide) (by decide) (by decide)).trans A2_37
  have A3_38 : (W12 (main_arg38 : DevRef τ sig) : FVec Ideal S1 .f32) = x38 := (thru_2 W8 W10 W12 R2.hk2 R2.hk4 main_arg38 (by decide) (by decide) (by decide) (by decide)).trans A2_38
  have O3_2 := B2
  have O3_1 : (W12 (main_v51 : DevRef τ sig) : FVec Ideal S200000x64 .f32) = (Cert.Spec.layerA x1 x3 x6 x7 x8 x9 x10 x11 x12) :=
    (thru_2 W8 W10 W12 R2.hk2 R2.hk4 main_v51 (by decide) (by decide) (by decide) (by decide)).trans O2_1
  -- block 3
  have B3 : (W16 (main_v103 : DevRef τ sig) : FVec Ideal S200000x32 .f32) = (Cert.Spec.layerB (Cert.Spec.layerA x1 x3 x6 x7 x8 x9 x10 x11 x12) x3 x13 x14 x15 x16 x17 x18 x19) :=
    block_3 W12 W14 W16 (Cert.Spec.layerA x1 x3 x6 x7 x8 x9 x10 x11 x12) x3 x13 x14 x15 x16 x17 x18 x19 O3_1 A3_3 A3_13 A3_14 A3_15 A3_16 A3_17 A3_18 A3_19
      RL1 r13 r14 r15 r16 r17 R3.hH R3.hS R3.hQ R3.hk2 R3.hout
  have RL3 : AllReal (Cert.Spec.layerB (Cert.Spec.layerA x1 x3 x6 x7 x8 x9 x10 x11 x12) x3 x13 x14 x15 x16 x17 x18 x19) :=
    Cert.Bridge.layerB_real (Cert.Spec.layerA x1 x3 x6 x7 x8 x9 x10 x11 x12) x3 x13 x14 x15 x16 x17 x18 x19 RL1 r13 r14 r15 r16 r17 r18 r19
  have A4_2 : (W16 (main_arg2 : DevRef τ sig) : IVec S2x3200000 32) = x2 := (thru_3 W12 W14 W16 R3.hk2 R3.hk4 main_arg2 (by decide) (by decide) (by decide) (by decide)).trans A3_2
  have A4_3 : (W16 (main_arg3 : DevRef τ sig) : IVec S2x3200000 32) = x3 := (thru_3 W12 W14 W16 R3.hk2 R3.hk4 main_arg3 (by decide) (by decide) (by decide) (by decide)).trans A3_3
  have A4_4 : (W16 (main_arg4 : DevRef τ sig) : IVec S200000 32) = x4 := (thru_3 W12 W14 W16 R3.hk2 R3.hk4 main_arg4 (by decide) (by decide) (by decide) (by decide)).trans A3_4
  have A4_5 : (W16 (main_arg5 : DevRef τ sig) : IVec S200000 32) = x5 := (thru_3 W12 W14 W16 R3.hk2 R3.hk4 main_arg5 (by decide) (by decide) (by decide) (by decide)).trans A3_5
  have A4_20 : (W16 (main_arg20 : DevRef τ sig) : FVec Ideal S_ .f32) = x20 := (thru_3 W12 W14 W16 R3.hk2 R3.hk4 main_arg20 (by decide) (by decide) (by decide) (by decide)).trans A3_20
  have A4_21 : (W16 (main_arg21 : DevRef τ sig) : FVec Ideal S32x16 .f32) = x21 := (thru_3 W12 W14 W16 R3.hk2 R3.hk4 main_arg21 (by decide) (by decide) (by decide) (by decide)).trans A3_21
  have A4_22 : (W16 (main_arg22 : DevRef τ sig) : FVec Ideal S16 .f32) = x22 := (thru_3 W12 W14 W16 R3.hk2 R3.hk4 main_arg22 (by decide) (by decide) (by decide) (by decide)).trans A3_22
  have A4_23 : (W16 (main_arg23 : DevRef τ sig) : FVec Ideal S16x16 .f32) = x23 := (thru_3 W12 W14 W16 R3.hk2 R3.hk4 main_arg23 (by decide) (by decide) (by decide) (by decide)).trans A3_23
  have A4_24 : (W16 (main_arg24 : DevRef τ sig) : FVec Ideal S16 .f32) = x24 := (thru_3 W12 W14 W16 R3.hk2 R3.hk4 main_arg24 (by decide) (by decide) (by decide) (by decide)).trans A3_24
  have A4_25 : (W16 (main_arg25 : DevRef τ sig) : FVec Ideal S16 .f32) = x25 := (thru_3 W12 W14 W16 R3.hk2 R3.hk4 main_arg25 (by decide) (by decide) (by decide) (by decide)).trans A3_25
  have A4_26 : (W16 (main_arg26 : DevRef τ sig) : FVec Ideal S16 .f32) = x26 := (thru_3 W12 W14 W16 R3.hk2 R3.hk4 main_arg26 (by decide) (by decide) (by decide) (by decide)).trans A3_26
  have A4_27 : (W16 (main_arg27 : DevRef τ sig) : FVec Ideal S16x16 .f32) = x27 := (thru_3 W12 W14 W16 R3.hk2 R3.hk4 main_arg27 (by decide) (by decide) (by decide) (by decide)).trans A3_27
  have A4_28 : (W16 (main_arg28 : DevRef τ sig) : FVec Ideal S16 .f32) = x28 := (thru_3 W12 W14 W16 R3.hk2 R3.hk4 main_arg28 (by decide) (by decide) (by decide) (by decide)).trans A3_28
  have A4_29 : (W16 (main_arg29 : DevRef τ sig) : FVec Ideal S32x8 .f32) = x29 := (thru_3 W12 W14 W16 R3.hk2 R3.hk4 main_arg29 (by decide) (by decide) (by decide) (by decide)).trans A3_29
  have A4_30 : (W16 (main_arg30 : DevRef τ sig) : FVec Ideal S8 .f32) = x30 := (thru_3 W12 W14 W16 R3.hk2 R3.hk4 main_arg30 (by decide) (by decide) (by decide) (by decide)).trans A3_30
  have A4_31 : (W16 (main_arg31 : DevRef τ sig) : FVec Ideal S8x32 .f32) = x31 := (thru_3 W12 W14 W16 R3.hk2 R3.hk4 main_arg31 (by decide) (by decide) (by decide) (by decide)).trans A3_31
  have A4_32 : (W16 (main_arg32 : DevRef τ sig) : FVec Ideal S32 .f32) = x32 := (thru_3 W12 W14 W16 R3.hk2 R3.hk4 main_arg32 (by decide) (by decide) (by decide) (by decide)).trans A3_32
  have A4_33 : (W16 (main_arg33 : DevRef τ sig) : FVec Ideal S32x16 .f32) = x33 := (thru_3 W12 W14 W16 R3.hk2 R3.hk4 main_arg33 (by decide) (by decide) (by decide) (by decide)).trans A3_33
  have A4_34 : (W16 (main_arg34 : DevRef τ sig) : FVec Ideal S16 .f32) = x34 := (thru_3 W12 W14 W16 R3.hk2 R3.hk4 main_arg34 (by decide) (by decide) (by decide) (by decide)).trans A3_34
  have A4_35 : (W16 (main_arg35 : DevRef τ sig) : FVec Ideal S16x8 .f32) = x35 := (thru_3 W12 W14 W16 R3.hk2 R3.hk4 main_arg35 (by decide) (by decide) (by decide) (by decide)).trans A3_35
  have A4_36 : (W16 (main_arg36 : DevRef τ sig) : FVec Ideal S8 .f32) = x36 := (thru_3 W12 W14 W16 R3.hk2 R3.hk4 main_arg36 (by decide) (by decide) (by decide) (by decide)).trans A3_36
  have A4_37 : (W16 (main_arg37 : DevRef τ sig) : FVec Ideal S8x1 .f32) = x37 := (thru_3 W12 W14 W16 R3.hk2 R3.hk4 main_arg37 (by decide) (by decide) (by decide) (by decide)).trans A3_37
  have A4_38 : (W16 (main_arg38 : DevRef τ sig) : FVec Ideal S1 .f32) = x38 := (thru_3 W12 W14 W16 R3.hk2 R3.hk4 main_arg38 (by decide) (by decide) (by decide) (by decide)).trans A3_38
  have O4_3 := B3
  have O4_2 : (W16 (main_v77 : DevRef τ sig) : FVec Ideal S200000x32 .f32) = (Cert.Spec.layerB (Cert.Spec.layerA x0 x2 x6 x7 x8 x9 x10 x11 x12) x2 x13 x14 x15 x16 x17 x18 x19) :=
    (thru_3 W12 W14 W16 R3.hk2 R3.hk4 main_v77 (by decide) (by decide) (by decide) (by decide)).trans O3_2
  -- block 4
  have B4 : (W20 (main_v129 : DevRef τ sig) : FVec Ideal S200000x16 .f32) = (Cert.Spec.layerC (Cert.Spec.layerB (Cert.Spec.layerA x0 x2 x6 x7 x8 x9 x10 x11 x12) x2 x13 x14 x15 x16 x17 x18 x19) x2 x20 x21 x22 x23 x24 x25 x26) :=
    block_4 W16 W18 W20 (Cert.Spec.layerB (Cert.Spec.layerA x0 x2 x6 x7 x8 x9 x10 x11 x12) x2 x13 x14 x15 x16 x17 x18 x19) x2 x20 x21 x22 x23 x24 x25 x26 O4_2 A4_2 A4_20 A4_21 A4_22 A4_23 A4_24 A4_25 A4_26
      RL2 r20 r21 r22 r23 r24 R4.hH R4.hS R4.hQ R4.hk2 R4.hout
  have RL4 : AllReal (Cert.Spec.layerC (Cert.Spec.layerB (Cert.Spec.layerA x0 x2 x6 x7 x8 x9 x10 x11 x12) x2 x13 x14 x15 x16 x17 x18 x19) x2 x20 x21 x22 x23 x24 x25 x26) :=
    Cert.Bridge.layerC_real (Cert.Spec.layerB (Cert.Spec.layerA x0 x2 x6 x7 x8 x9 x10 x11 x12) x2 x13 x14 x15 x16 x17 x18 x19) x2 x20 x21 x22 x23 x24 x25 x26 RL2 r20 r21 r22 r23 r24 r25 r26
  have A5_3 : (W20 (main_arg3 : DevRef τ sig) : IVec S2x3200000 32) = x3 := (thru_4 W16 W18 W20 R4.hk2 R4.hk4 main_arg3 (by decide) (by decide) (by decide) (by decide)).trans A4_3
  have A5_4 : (W20 (main_arg4 : DevRef τ sig) : IVec S200000 32) = x4 := (thru_4 W16 W18 W20 R4.hk2 R4.hk4 main_arg4 (by decide) (by decide) (by decide) (by decide)).trans A4_4
  have A5_5 : (W20 (main_arg5 : DevRef τ sig) : IVec S200000 32) = x5 := (thru_4 W16 W18 W20 R4.hk2 R4.hk4 main_arg5 (by decide) (by decide) (by decide) (by decide)).trans A4_5
  have A5_20 : (W20 (main_arg20 : DevRef τ sig) : FVec Ideal S_ .f32) = x20 := (thru_4 W16 W18 W20 R4.hk2 R4.hk4 main_arg20 (by decide) (by decide) (by decide) (by decide)).trans A4_20
  have A5_21 : (W20 (main_arg21 : DevRef τ sig) : FVec Ideal S32x16 .f32) = x21 := (thruW_4 W16 W18 W20 R4.hin2 R4.hk4 main_arg21 (by decide) (by decide) (by decide) (by decide)).trans A4_21
  have A5_22 : (W20 (main_arg22 : DevRef τ sig) : FVec Ideal S16 .f32) = x22 := (thruW_4 W16 W18 W20 R4.hin2 R4.hk4 main_arg22 (by decide) (by decide) (by decide) (by decide)).trans A4_22
  have A5_23 : (W20 (main_arg23 : DevRef τ sig) : FVec Ideal S16x16 .f32) = x23 := (thruW_4 W16 W18 W20 R4.hin2 R4.hk4 main_arg23 (by decide) (by decide) (by decide) (by decide)).trans A4_23
  have A5_24 : (W20 (main_arg24 : DevRef τ sig) : FVec Ideal S16 .f32) = x24 := (thruW_4 W16 W18 W20 R4.hin2 R4.hk4 main_arg24 (by decide) (by decide) (by decide) (by decide)).trans A4_24
  have A5_25 : (W20 (main_arg25 : DevRef τ sig) : FVec Ideal S16 .f32) = x25 := (thruG_4 W16 W18 W20 R4.hk2 R4.hin4 main_arg25 (by decide) (by decide) (by decide) (by decide)).trans A4_25
  have A5_26 : (W20 (main_arg26 : DevRef τ sig) : FVec Ideal S16 .f32) = x26 := (thruG_4 W16 W18 W20 R4.hk2 R4.hin4 main_arg26 (by decide) (by decide) (by decide) (by decide)).trans A4_26
  have A5_27 : (W20 (main_arg27 : DevRef τ sig) : FVec Ideal S16x16 .f32) = x27 := (thru_4 W16 W18 W20 R4.hk2 R4.hk4 main_arg27 (by decide) (by decide) (by decide) (by decide)).trans A4_27
  have A5_28 : (W20 (main_arg28 : DevRef τ sig) : FVec Ideal S16 .f32) = x28 := (thru_4 W16 W18 W20 R4.hk2 R4.hk4 main_arg28 (by decide) (by decide) (by decide) (by decide)).trans A4_28
  have A5_29 : (W20 (main_arg29 : DevRef τ sig) : FVec Ideal S32x8 .f32) = x29 := (thru_4 W16 W18 W20 R4.hk2 R4.hk4 main_arg29 (by decide) (by decide) (by decide) (by decide)).trans A4_29
  have A5_30 : (W20 (main_arg30 : DevRef τ sig) : FVec Ideal S8 .f32) = x30 := (thru_4 W16 W18 W20 R4.hk2 R4.hk4 main_arg30 (by decide) (by decide) (by decide) (by decide)).trans A4_30
  have A5_31 : (W20 (main_arg31 : DevRef τ sig) : FVec Ideal S8x32 .f32) = x31 := (thru_4 W16 W18 W20 R4.hk2 R4.hk4 main_arg31 (by decide) (by decide) (by decide) (by decide)).trans A4_31
  have A5_32 : (W20 (main_arg32 : DevRef τ sig) : FVec Ideal S32 .f32) = x32 := (thru_4 W16 W18 W20 R4.hk2 R4.hk4 main_arg32 (by decide) (by decide) (by decide) (by decide)).trans A4_32
  have A5_33 : (W20 (main_arg33 : DevRef τ sig) : FVec Ideal S32x16 .f32) = x33 := (thru_4 W16 W18 W20 R4.hk2 R4.hk4 main_arg33 (by decide) (by decide) (by decide) (by decide)).trans A4_33
  have A5_34 : (W20 (main_arg34 : DevRef τ sig) : FVec Ideal S16 .f32) = x34 := (thru_4 W16 W18 W20 R4.hk2 R4.hk4 main_arg34 (by decide) (by decide) (by decide) (by decide)).trans A4_34
  have A5_35 : (W20 (main_arg35 : DevRef τ sig) : FVec Ideal S16x8 .f32) = x35 := (thru_4 W16 W18 W20 R4.hk2 R4.hk4 main_arg35 (by decide) (by decide) (by decide) (by decide)).trans A4_35
  have A5_36 : (W20 (main_arg36 : DevRef τ sig) : FVec Ideal S8 .f32) = x36 := (thru_4 W16 W18 W20 R4.hk2 R4.hk4 main_arg36 (by decide) (by decide) (by decide) (by decide)).trans A4_36
  have A5_37 : (W20 (main_arg37 : DevRef τ sig) : FVec Ideal S8x1 .f32) = x37 := (thru_4 W16 W18 W20 R4.hk2 R4.hk4 main_arg37 (by decide) (by decide) (by decide) (by decide)).trans A4_37
  have A5_38 : (W20 (main_arg38 : DevRef τ sig) : FVec Ideal S1 .f32) = x38 := (thru_4 W16 W18 W20 R4.hk2 R4.hk4 main_arg38 (by decide) (by decide) (by decide) (by decide)).trans A4_38
  have O5_4 := B4
  have O5_3 : (W20 (main_v103 : DevRef τ sig) : FVec Ideal S200000x32 .f32) = (Cert.Spec.layerB (Cert.Spec.layerA x1 x3 x6 x7 x8 x9 x10 x11 x12) x3 x13 x14 x15 x16 x17 x18 x19) :=
    (thru_4 W16 W18 W20 R4.hk2 R4.hk4 main_v103 (by decide) (by decide) (by decide) (by decide)).trans O4_3
  -- block 5
  have B5 : (W24 (main_v155 : DevRef τ sig) : FVec Ideal S200000x16 .f32) = (Cert.Spec.layerC (Cert.Spec.layerB (Cert.Spec.layerA x1 x3 x6 x7 x8 x9 x10 x11 x12) x3 x13 x14 x15 x16 x17 x18 x19) x3 x20 x21 x22 x23 x24 x25 x26) :=
    block_5 W20 W22 W24 (Cert.Spec.layerB (Cert.Spec.layerA x1 x3 x6 x7 x8 x9 x10 x11 x12) x3 x13 x14 x15 x16 x17 x18 x19) x3 x20 x21 x22 x23 x24 x25 x26 O5_3 A5_3 A5_20 A5_21 A5_22 A5_23 A5_24 A5_25 A5_26
      RL3 r20 r21 r22 r23 r24 R5.hH R5.hS R5.hQ R5.hk2 R5.hout
  have RL5 : AllReal (Cert.Spec.layerC (Cert.Spec.layerB (Cert.Spec.layerA x1 x3 x6 x7 x8 x9 x10 x11 x12) x3 x13 x14 x15 x16 x17 x18 x19) x3 x20 x21 x22 x23 x24 x25 x26) :=
    Cert.Bridge.layerC_real (Cert.Spec.layerB (Cert.Spec.layerA x1 x3 x6 x7 x8 x9 x10 x11 x12) x3 x13 x14 x15 x16 x17 x18 x19) x3 x20 x21 x22 x23 x24 x25 x26 RL3 r20 r21 r22 r23 r24 r25 r26
  have A6_4 : (W24 (main_arg4 : DevRef τ sig) : IVec S200000 32) = x4 := (thru_5 W20 W22 W24 R5.hk2 R5.hk4 main_arg4 (by decide) (by decide) (by decide) (by decide)).trans A5_4
  have A6_5 : (W24 (main_arg5 : DevRef τ sig) : IVec S200000 32) = x5 := (thru_5 W20 W22 W24 R5.hk2 R5.hk4 main_arg5 (by decide) (by decide) (by decide) (by decide)).trans A5_5
  have A6_27 : (W24 (main_arg27 : DevRef τ sig) : FVec Ideal S16x16 .f32) = x27 := (thru_5 W20 W22 W24 R5.hk2 R5.hk4 main_arg27 (by decide) (by decide) (by decide) (by decide)).trans A5_27
  have A6_28 : (W24 (main_arg28 : DevRef τ sig) : FVec Ideal S16 .f32) = x28 := (thru_5 W20 W22 W24 R5.hk2 R5.hk4 main_arg28 (by decide) (by decide) (by decide) (by decide)).trans A5_28
  have A6_29 : (W24 (main_arg29 : DevRef τ sig) : FVec Ideal S32x8 .f32) = x29 := (thru_5 W20 W22 W24 R5.hk2 R5.hk4 main_arg29 (by decide) (by decide) (by decide) (by decide)).trans A5_29
  have A6_30 : (W24 (main_arg30 : DevRef τ sig) : FVec Ideal S8 .f32) = x30 := (thru_5 W20 W22 W24 R5.hk2 R5.hk4 main_arg30 (by decide) (by decide) (by decide) (by decide)).trans A5_30
  have A6_31 : (W24 (main_arg31 : DevRef τ sig) : FVec Ideal S8x32 .f32) = x31 := (thru_5 W20 W22 W24 R5.hk2 R5.hk4 main_arg31 (by decide) (by decide) (by decide) (by decide)).trans A5_31
  have A6_32 : (W24 (main_arg32 : DevRef τ sig) : FVec Ideal S32 .f32) = x32 := (thru_5 W20 W22 W24 R5.hk2 R5.hk4 main_arg32 (by decide) (by decide) (by decide) (by decide)).trans A5_32
  have A6_33 : (W24 (main_arg33 : DevRef τ sig) : FVec Ideal S32x16 .f32) = x33 := (thru_5 W20 W22 W24 R5.hk2 R5.hk4 main_arg33 (by decide) (by decide) (by decide) (by decide)).trans A5_33
  have A6_34 : (W24 (main_arg34 : DevRef τ sig) : FVec Ideal S16 .f32) = x34 := (thru_5 W20 W22 W24 R5.hk2 R5.hk4 main_arg34 (by decide) (by decide) (by decide) (by decide)).trans A5_34
  have A6_35 : (W24 (main_arg35 : DevRef τ sig) : FVec Ideal S16x8 .f32) = x35 := (thru_5 W20 W22 W24 R5.hk2 R5.hk4 main_arg35 (by decide) (by decide) (by decide) (by decide)).trans A5_35
  have A6_36 : (W24 (main_arg36 : DevRef τ sig) : FVec Ideal S8 .f32) = x36 := (thru_5 W20 W22 W24 R5.hk2 R5.hk4 main_arg36 (by decide) (by decide) (by decide) (by decide)).trans A5_36
  have A6_37 : (W24 (main_arg37 : DevRef τ sig) : FVec Ideal S8x1 .f32) = x37 := (thru_5 W20 W22 W24 R5.hk2 R5.hk4 main_arg37 (by decide) (by decide) (by decide) (by decide)).trans A5_37
  have A6_38 : (W24 (main_arg38 : DevRef τ sig) : FVec Ideal S1 .f32) = x38 := (thru_5 W20 W22 W24 R5.hk2 R5.hk4 main_arg38 (by decide) (by decide) (by decide) (by decide)).trans A5_38
  have O6_5 := B5
  have O6_4 : (W24 (main_v129 : DevRef τ sig) : FVec Ideal S200000x16 .f32) = (Cert.Spec.layerC (Cert.Spec.layerB (Cert.Spec.layerA x0 x2 x6 x7 x8 x9 x10 x11 x12) x2 x13 x14 x15 x16 x17 x18 x19) x2 x20 x21 x22 x23 x24 x25 x26) :=
    (thru_5 W20 W22 W24 R5.hk2 R5.hk4 main_v129 (by decide) (by decide) (by decide) (by decide)).trans O5_4
  -- the closing stretch
  have T := Cert.KernelIdeal.KTail.tail_eq W24 (Cert.Spec.layerC (Cert.Spec.layerB (Cert.Spec.layerA x0 x2 x6 x7 x8 x9 x10 x11 x12) x2 x13 x14 x15 x16 x17 x18 x19) x2 x20 x21 x22 x23 x24 x25 x26) (Cert.Spec.layerC (Cert.Spec.layerB (Cert.Spec.layerA x1 x3 x6 x7 x8 x9 x10 x11 x12) x3 x13 x14 x15 x16 x17 x18 x19) x3 x20 x21 x22 x23 x24 x25 x26) x4 x5 x27 x28 x29 x30 x31 x32 x33 x34 x35 x36 x37 x38 O6_4 O6_5 A6_4 A6_5 A6_27 A6_28 A6_29 A6_30 A6_31 A6_32 A6_33 A6_34 A6_35 A6_36 A6_37 A6_38
  unfold Cert.Spec.pooledI Cert.Spec.pooledJ Cert.Spec.side
  exact T

end Cert.KernelIdeal.KWhole

end
-- ==== Proof.BridgePre.lean ====
/-
  The precondition decoded. The printed predicate tests, for each float argument array, |x| < +inf at every entry,
  reduces each test by "and" to one bit, and joins the bits by "and"; the precondition says the result is 1. So every
  bit is 1, every entry passes its test, and an extended real whose absolute value max x (-x) is below the top element
  is neither infinity: it is a real number. The integer argument arrays (the edge lists and the graph indices) are
  not tested and nothing is said of them.
-/
import proofs.«120907_j71768903516484_1_alg».proof.Defs
import proofs.«120907_j71768903516484_1_alg».proof.Proof.LibReal
import Idealize.ShloMosaic.Lib.ReduceAll
import Idealize.ShloMosaic.Lib.ValueIdx
import Idealize.ShloMosaic.Lib.IdealHost
import Idealize.ShloMosaic.PureOps.Ideal.Laws

noncomputable section

namespace Cert.Bridge.Pre

open Idealize.ShloMosaic Idealize.ShloMosaic.ValueIdx Cert.Lib.Real

instance : Subsingleton (⟨0, ![]⟩ : Shape).Idx := ⟨fun a b => funext fun d => d.elim0⟩

/-- The pattern of +inf denotes the top element. -/
theorem ofBits_inf : Ideal.ofBits .f32 0x7F800000#32 = ⊤ := by simp [Ideal.ofBits, Ideal.ieee]

/-- An extended real whose absolute value is below +inf is a real number. -/
theorem isReal_of_abs_lt_inf (x : EReal)
    (h : FloatOps.cmpf (F := Ideal) (φ := .f32) .olt (FloatOps.hostAbsf (F := Ideal) (φ := .f32) x)
      (Ideal.ofBits .f32 0x7F800000#32) = 1#1) : IsReal x := by
  rw [ofBits_inf, Ideal.cmpf_def] at h
  have hlt : max x (-x) < ⊤ := by
    unfold Ideal.cmp at h
    change BitVec.ofBool (decide (max x (-x) < (⊤ : EReal))) = 1#1 at h
    by_contra hn
    rw [decide_eq_false hn] at h
    exact absurd h (by decide)
  induction x using EReal.rec with
  | bot => simp at hlt
  | top => simp at hlt
  | coe r => exact ⟨r, rfl⟩

/-- The "and" of two one-bit arrays at an index. -/
theorem andi_vec_apply {s : Shape} (x y : IVec s 1) (i : s.Idx) : andi x y i = IntOp.andi (x i) (y i) := rfl

/-- jnp.all of |a| < +inf being 1 makes every entry of a real (a the array, +inf broadcast to its shape). -/
theorem allReal_of_all {s : Shape} {axes : List (Fin s.rank)} (hb : (⟨0, ![]⟩ : Shape).BroadcastsInDim s ![])
    (hr : s.ReducesTo axes ⟨0, ![]⟩) (h0 : 0 < (⟨0, ![]⟩ : Shape).numel) (a : FVec Ideal s .f32)
    (h : Host.reduce IntOp.andi (cmpf .olt (Host.absf a)
          (broadcastInDim s ![] hb (constant (F := Ideal) ⟨0, ![]⟩ .f32 0x7F800000#32)))
        (constantI ⟨0, ![]⟩ 1 1#1) hr h0 ix0 = 1#1) : AllReal a := by
  intro i
  have e := Host.reduce_andi_all _ _ hr h0 ix0 h i
  rw [cmpf_apply, broadcastInDim_scalar_apply, constant_apply] at e
  exact isReal_of_abs_lt_inf _ e

/-- The same for a scalar argument, which is compared with the +inf scalar itself. -/
theorem allReal_of_all_scalar (hr : (⟨0, ![]⟩ : Shape).ReducesTo [] ⟨0, ![]⟩) (h0 : 0 < (⟨0, ![]⟩ : Shape).numel)
    (a : FVec Ideal ⟨0, ![]⟩ .f32)
    (h : Host.reduce IntOp.andi (cmpf .olt (Host.absf a) (constant (F := Ideal) ⟨0, ![]⟩ .f32 0x7F800000#32))
        (constantI ⟨0, ![]⟩ 1 1#1) hr h0 ix0 = 1#1) : AllReal a := by
  intro i
  have e := Host.reduce_andi_all _ _ hr h0 ix0 h i
  rw [cmpf_apply, constant_apply] at e
  exact isReal_of_abs_lt_inf _ e

section Fn
open Cert.Pre_finite_inputs
variable [Cert.Pre_finite_inputs.Facts]
open Cert.Pre_finite_inputs.Facts

/-- The printed predicate being all ones makes every float argument an array of reals. -/
theorem fn_real (a0 : FVec Ideal S200000x64 .f32) (a1 : FVec Ideal S200000x64 .f32) (a2 : IVec S2x3200000 32) (a3 : IVec S2x3200000 32) (a4 : IVec S200000 32) (a5 : IVec S200000 32) (a6 : FVec Ideal S_ .f32) (a7 : FVec Ideal S64x64 .f32) (a8 : FVec Ideal S64 .f32) (a9 : FVec Ideal S64x64 .f32) (a10 : FVec Ideal S64 .f32) (a11 : FVec Ideal S64 .f32) (a12 : FVec Ideal S64 .f32) (a13 : FVec Ideal S_ .f32) (a14 : FVec Ideal S64x32 .f32) (a15 : FVec Ideal S32 .f32) (a16 : FVec Ideal S32x32 .f32) (a17 : FVec Ideal S32 .f32) (a18 : FVec Ideal S32 .f32) (a19 : FVec Ideal S32 .f32) (a20 : FVec Ideal S_ .f32) (a21 : FVec Ideal S32x16 .f32) (a22 : FVec Ideal S16 .f32) (a23 : FVec Ideal S16x16 .f32) (a24 : FVec Ideal S16 .f32) (a25 : FVec Ideal S16 .f32) (a26 : FVec Ideal S16 .f32) (a27 : FVec Ideal S16x16 .f32) (a28 : FVec Ideal S16 .f32) (a29 : FVec Ideal S32x8 .f32) (a30 : FVec Ideal S8 .f32) (a31 : FVec Ideal S8x32 .f32) (a32 : FVec Ideal S32 .f32) (a33 : FVec Ideal S32x16 .f32) (a34 : FVec Ideal S16 .f32) (a35 : FVec Ideal S16x8 .f32) (a36 : FVec Ideal S8 .f32) (a37 : FVec Ideal S8x1 .f32) (a38 : FVec Ideal S1 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 = fun _ => 1#1) :
    AllReal a0 ∧ AllReal a1 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 ∧ AllReal a32 ∧ AllReal a33 ∧ AllReal a34 ∧ AllReal a35 ∧ AllReal a36 ∧ AllReal a37 ∧ AllReal a38 := by
  have h0 := congrFun h ix0
  dsimp only [fn, fn_part1, fn_part2, fn_part3, fn_part4, fn_part5, fn_part6, fn_part7, fn_part8, fn_part9, fn_part10] at h0
  simp only [andi_vec_apply, IntOp.andi_eq_one, and_assoc] at h0
  obtain ⟨h0, h1, h6, h7, h8, h9, h10, h11, h12, h13, h14, h15, h16, h17, h18, h19, h20, h21, h22, h23, h24, h25, h26, h27, h28, h29, h30, h31, h32, h33, h34, h35, h36, h37, h38⟩ := h0
  exact ⟨allReal_of_all _ _ _ a0 h0,
    allReal_of_all _ _ _ a1 h1,
    allReal_of_all_scalar _ _ a6 h6,
    allReal_of_all _ _ _ a7 h7,
    allReal_of_all _ _ _ a8 h8,
    allReal_of_all _ _ _ a9 h9,
    allReal_of_all _ _ _ a10 h10,
    allReal_of_all _ _ _ a11 h11,
    allReal_of_all _ _ _ a12 h12,
    allReal_of_all_scalar _ _ a13 h13,
    allReal_of_all _ _ _ a14 h14,
    allReal_of_all _ _ _ a15 h15,
    allReal_of_all _ _ _ a16 h16,
    allReal_of_all _ _ _ a17 h17,
    allReal_of_all _ _ _ a18 h18,
    allReal_of_all _ _ _ a19 h19,
    allReal_of_all_scalar _ _ a20 h20,
    allReal_of_all _ _ _ a21 h21,
    allReal_of_all _ _ _ a22 h22,
    allReal_of_all _ _ _ a23 h23,
    allReal_of_all _ _ _ a24 h24,
    allReal_of_all _ _ _ a25 h25,
    allReal_of_all _ _ _ a26 h26,
    allReal_of_all _ _ _ a27 h27,
    allReal_of_all _ _ _ a28 h28,
    allReal_of_all _ _ _ a29 h29,
    allReal_of_all _ _ _ a30 h30,
    allReal_of_all _ _ _ a31 h31,
    allReal_of_all _ _ _ a32 h32,
    allReal_of_all _ _ _ a33 h33,
    allReal_of_all _ _ _ a34 h34,
    allReal_of_all _ _ _ a35 h35,
    allReal_of_all _ _ _ a36 h36,
    allReal_of_all _ _ _ a37 h37,
    allReal_of_all _ _ _ a38 h38⟩

end Fn

end Cert.Bridge.Pre

namespace Cert.Bridge

open Idealize.ShloMosaic Idealize.SL.Sem Cert.Lib.Real Cert.Pre_finite_inputs

variable [Cert.Pre_finite_inputs.Facts]

/-- Every float argument array of the kernel program, on core c, is an array of reals. -/
structure ArgsReal (m : (ℓ : Loc Cert.KernelIdeal.nD Cert.KernelIdeal.τ Cert.KernelIdeal.sig) → Buf (Elt Ideal) ℓ)
    (c : Dev Cert.KernelIdeal.nD) : Prop where
  arg0 : AllReal ((m ((c.tc : Thread Cert.KernelIdeal.nD Cert.KernelIdeal.τ).loc Cert.KernelIdeal.main_arg0)) : FVec Ideal S200000x64 .f32)
  arg1 : AllReal ((m ((c.tc : Thread Cert.KernelIdeal.nD Cert.KernelIdeal.τ).loc Cert.KernelIdeal.main_arg1)) : FVec Ideal S200000x64 .f32)
  arg6 : AllReal ((m ((c.tc : Thread Cert.KernelIdeal.nD Cert.KernelIdeal.τ).loc Cert.KernelIdeal.main_arg6)) : FVec Ideal S_ .f32)
  arg7 : AllReal ((m ((c.tc : Thread Cert.KernelIdeal.nD Cert.KernelIdeal.τ).loc Cert.KernelIdeal.main_arg7)) : FVec Ideal S64x64 .f32)
  arg8 : AllReal ((m ((c.tc : Thread Cert.KernelIdeal.nD Cert.KernelIdeal.τ).loc Cert.KernelIdeal.main_arg8)) : FVec Ideal S64 .f32)
  arg9 : AllReal ((m ((c.tc : Thread Cert.KernelIdeal.nD Cert.KernelIdeal.τ).loc Cert.KernelIdeal.main_arg9)) : FVec Ideal S64x64 .f32)
  arg10 : AllReal ((m ((c.tc : Thread Cert.KernelIdeal.nD Cert.KernelIdeal.τ).loc Cert.KernelIdeal.main_arg10)) : FVec Ideal S64 .f32)
  arg11 : AllReal ((m ((c.tc : Thread Cert.KernelIdeal.nD Cert.KernelIdeal.τ).loc Cert.KernelIdeal.main_arg11)) : FVec Ideal S64 .f32)
  arg12 : AllReal ((m ((c.tc : Thread Cert.KernelIdeal.nD Cert.KernelIdeal.τ).loc Cert.KernelIdeal.main_arg12)) : FVec Ideal S64 .f32)
  arg13 : AllReal ((m ((c.tc : Thread Cert.KernelIdeal.nD Cert.KernelIdeal.τ).loc Cert.KernelIdeal.main_arg13)) : FVec Ideal S_ .f32)
  arg14 : AllReal ((m ((c.tc : Thread Cert.KernelIdeal.nD Cert.KernelIdeal.τ).loc Cert.KernelIdeal.main_arg14)) : FVec Ideal S64x32 .f32)
  arg15 : AllReal ((m ((c.tc : Thread Cert.KernelIdeal.nD Cert.KernelIdeal.τ).loc Cert.KernelIdeal.main_arg15)) : FVec Ideal S32 .f32)
  arg16 : AllReal ((m ((c.tc : Thread Cert.KernelIdeal.nD Cert.KernelIdeal.τ).loc Cert.KernelIdeal.main_arg16)) : FVec Ideal S32x32 .f32)
  arg17 : AllReal ((m ((c.tc : Thread Cert.KernelIdeal.nD Cert.KernelIdeal.τ).loc Cert.KernelIdeal.main_arg17)) : FVec Ideal S32 .f32)
  arg18 : AllReal ((m ((c.tc : Thread Cert.KernelIdeal.nD Cert.KernelIdeal.τ).loc Cert.KernelIdeal.main_arg18)) : FVec Ideal S32 .f32)
  arg19 : AllReal ((m ((c.tc : Thread Cert.KernelIdeal.nD Cert.KernelIdeal.τ).loc Cert.KernelIdeal.main_arg19)) : FVec Ideal S32 .f32)
  arg20 : AllReal ((m ((c.tc : Thread Cert.KernelIdeal.nD Cert.KernelIdeal.τ).loc Cert.KernelIdeal.main_arg20)) : FVec Ideal S_ .f32)
  arg21 : AllReal ((m ((c.tc : Thread Cert.KernelIdeal.nD Cert.KernelIdeal.τ).loc Cert.KernelIdeal.main_arg21)) : FVec Ideal S32x16 .f32)
  arg22 : AllReal ((m ((c.tc : Thread Cert.KernelIdeal.nD Cert.KernelIdeal.τ).loc Cert.KernelIdeal.main_arg22)) : FVec Ideal S16 .f32)
  arg23 : AllReal ((m ((c.tc : Thread Cert.KernelIdeal.nD Cert.KernelIdeal.τ).loc Cert.KernelIdeal.main_arg23)) : FVec Ideal S16x16 .f32)
  arg24 : AllReal ((m ((c.tc : Thread Cert.KernelIdeal.nD Cert.KernelIdeal.τ).loc Cert.KernelIdeal.main_arg24)) : FVec Ideal S16 .f32)
  arg25 : AllReal ((m ((c.tc : Thread Cert.KernelIdeal.nD Cert.KernelIdeal.τ).loc Cert.KernelIdeal.main_arg25)) : FVec Ideal S16 .f32)
  arg26 : AllReal ((m ((c.tc : Thread Cert.KernelIdeal.nD Cert.KernelIdeal.τ).loc Cert.KernelIdeal.main_arg26)) : FVec Ideal S16 .f32)
  arg27 : AllReal ((m ((c.tc : Thread Cert.KernelIdeal.nD Cert.KernelIdeal.τ).loc Cert.KernelIdeal.main_arg27)) : FVec Ideal S16x16 .f32)
  arg28 : AllReal ((m ((c.tc : Thread Cert.KernelIdeal.nD Cert.KernelIdeal.τ).loc Cert.KernelIdeal.main_arg28)) : FVec Ideal S16 .f32)
  arg29 : AllReal ((m ((c.tc : Thread Cert.KernelIdeal.nD Cert.KernelIdeal.τ).loc Cert.KernelIdeal.main_arg29)) : FVec Ideal S32x8 .f32)
  arg30 : AllReal ((m ((c.tc : Thread Cert.KernelIdeal.nD Cert.KernelIdeal.τ).loc Cert.KernelIdeal.main_arg30)) : FVec Ideal S8 .f32)
  arg31 : AllReal ((m ((c.tc : Thread Cert.KernelIdeal.nD Cert.KernelIdeal.τ).loc Cert.KernelIdeal.main_arg31)) : FVec Ideal S8x32 .f32)
  arg32 : AllReal ((m ((c.tc : Thread Cert.KernelIdeal.nD Cert.KernelIdeal.τ).loc Cert.KernelIdeal.main_arg32)) : FVec Ideal S32 .f32)
  arg33 : AllReal ((m ((c.tc : Thread Cert.KernelIdeal.nD Cert.KernelIdeal.τ).loc Cert.KernelIdeal.main_arg33)) : FVec Ideal S32x16 .f32)
  arg34 : AllReal ((m ((c.tc : Thread Cert.KernelIdeal.nD Cert.KernelIdeal.τ).loc Cert.KernelIdeal.main_arg34)) : FVec Ideal S16 .f32)
  arg35 : AllReal ((m ((c.tc : Thread Cert.KernelIdeal.nD Cert.KernelIdeal.τ).loc Cert.KernelIdeal.main_arg35)) : FVec Ideal S16x8 .f32)
  arg36 : AllReal ((m ((c.tc : Thread Cert.KernelIdeal.nD Cert.KernelIdeal.τ).loc Cert.KernelIdeal.main_arg36)) : FVec Ideal S8 .f32)
  arg37 : AllReal ((m ((c.tc : Thread Cert.KernelIdeal.nD Cert.KernelIdeal.τ).loc Cert.KernelIdeal.main_arg37)) : FVec Ideal S8x1 .f32)
  arg38 : AllReal ((m ((c.tc : Thread Cert.KernelIdeal.nD Cert.KernelIdeal.τ).loc Cert.KernelIdeal.main_arg38)) : FVec Ideal S1 .f32)

/-- The kernel program's precondition gives the realness of its 33 float arguments on every core. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) : ArgsReal m c := by
  obtain ⟨h0, h1, h6, h7, h8, h9, h10, h11, h12, h13, h14, h15, h16, h17, h18, h19, h20, h21, h22, h23, h24, h25, h26, h27, h28, h29, h30, h31, h32, h33, h34, h35, h36, h37, h38⟩ := Pre.fn_real _ _ _ _ _ _ _ _ _ _ _ _ _ _ _ _ _ _ _ _ _ _ _ _ _ _ _ _ _ _ _ _ _ _ _ _ _ _ _ (hpre c)
  exact ⟨h0, h1, h6, h7, h8, h9, h10, h11, h12, h13, h14, h15, h16, h17, h18, h19, h20, h21, h22, h23, h24, h25, h26, h27, h28, h29, h30, h31, h32, h33, h34, h35, h36, h37, h38⟩

end Cert.Bridge

end
-- ==== Proof.Net.lean ====
/-
  The whole network as one function of the 39 argument arrays: the three results — the score of each graph pair, and
  the pair's head minus each side's head against itself — from the two sides' pooled vectors.
-/
import proofs.«120907_j71768903516484_1_alg».proof.Proof.Spec

noncomputable section

namespace Cert.Spec

open Idealize.ShloMosaic Cert.ReferenceIdeal

variable [Cert.ReferenceIdeal.Facts]

/-- The three results of the network on its 39 arguments. -/
def net (x0 : FVec Ideal S200000x64 .f32) (x1 : FVec Ideal S200000x64 .f32) (x2 : IVec S2x3200000 32) (x3 : IVec S2x3200000 32) (x4 : IVec S200000 32) (x5 : IVec S200000 32) (x6 : FVec Ideal S_ .f32) (x7 : FVec Ideal S64x64 .f32) (x8 : FVec Ideal S64 .f32) (x9 : FVec Ideal S64x64 .f32) (x10 : FVec Ideal S64 .f32) (x11 : FVec Ideal S64 .f32) (x12 : FVec Ideal S64 .f32) (x13 : FVec Ideal S_ .f32) (x14 : FVec Ideal S64x32 .f32) (x15 : FVec Ideal S32 .f32) (x16 : FVec Ideal S32x32 .f32) (x17 : FVec Ideal S32 .f32) (x18 : FVec Ideal S32 .f32) (x19 : FVec Ideal S32 .f32) (x20 : FVec Ideal S_ .f32) (x21 : FVec Ideal S32x16 .f32) (x22 : FVec Ideal S16 .f32) (x23 : FVec Ideal S16x16 .f32) (x24 : FVec Ideal S16 .f32) (x25 : FVec Ideal S16 .f32) (x26 : FVec Ideal S16 .f32) (x27 : FVec Ideal S16x16 .f32) (x28 : FVec Ideal S16 .f32) (x29 : FVec Ideal S32x8 .f32) (x30 : FVec Ideal S8 .f32) (x31 : FVec Ideal S8x32 .f32) (x32 : FVec Ideal S32 .f32) (x33 : FVec Ideal S32x16 .f32) (x34 : FVec Ideal S16 .f32) (x35 : FVec Ideal S16x8 .f32) (x36 : FVec Ideal S8 .f32) (x37 : FVec Ideal S8x1 .f32) (x38 : FVec Ideal S1 .f32) :
    FVec Ideal S1000 .f32 × FVec Ideal S1000x16 .f32 × FVec Ideal S1000x16 .f32 :=
  heads (pooledI x0 x1 x2 x3 x4 x5 x6 x7 x8 x9 x10 x11 x12 x13 x14 x15 x16 x17 x18 x19 x20 x21 x22 x23 x24 x25 x26 x27 x28 x29 x30 x31 x32 x33 x34 x35 x36 x37 x38) (pooledJ x0 x1 x2 x3 x4 x5 x6 x7 x8 x9 x10 x11 x12 x13 x14 x15 x16 x17 x18 x19 x20 x21 x22 x23 x24 x25 x26 x27 x28 x29 x30 x31 x32 x33 x34 x35 x36 x37 x38)
    x29 x30 x31 x32 x33 x34 x35 x36 x37 x38

end Cert.Spec

end
-- ==== Proof.MlpPayL1i.lean ====
/- The values the stores of the first device pass of one GIN layer write, read index by index at the ideal values: the
   two-layer perceptron of a [4000, 64] tile of rows (widths 64, 64, 64), its column sums added to a running [1, 64] row, and
   the column sums of its squares added to another.  Rounding to bf16 before each matrix product is the identity at the ideal
   values, a matrix product into the zero block is the plain sum of products, and a sum over the row axis is the sum over
   the tile's 4000 rows. -/
import proofs.«120907_j71768903516484_1_alg».proof.Proof.Gen.KernelIdeal.Skeleton
import proofs.«120907_j71768903516484_1_alg».proof.Proof.GinSpec
import Idealize.ShloMosaic.PureOps.Ideal.Laws
import Idealize.ShloMosaic.Lib.ValueLayout
import Idealize.ShloMosaic.Lib.Pipeline.Value

noncomputable section

open Idealize.ShloMosaic Idealize.ShloMosaic.ValueIdx

namespace Cert.KernelIdeal.MlpPayL1i

open Cert.KernelIdeal Cert.KernelIdeal.Gen Cert.KernelIdeal.GinSpec

/-- The device's matrix product of a [4000, 64] block by a [64, 64] matrix into the zero block, read at row r and column c:
    the sum over the contracted coordinate of the products of the entries. -/
theorem matmul1_at {φ₁ φ₂ : FTy} (lhs : FVec Ideal S4000x64 φ₁) (rhs : FVec Ideal S64x64 φ₂) (r : Fin 4000) (c : Fin 64) :
    matmul dot_S4000x64_S64x64_S4000x64_1_0_0_1_n_n none lhs rhs (constant (F := Ideal) S4000x64 .f32 0x00000000#32) (ix2 r c)
      = ∑ k : Fin 64, lhs (ix2 r k) * rhs (ix2 k c) := by
  show FloatOps.matmul _ none lhs rhs (constant (F := Ideal) S4000x64 .f32 0x00000000#32) (ix2 r c) = _
  rw [Ideal.matmul_constant_zero_apply, ← Equiv.sum_comp (contrEquiv1 dot_S4000x64_S64x64_S4000x64_1_0_0_1_n_n 64 rfl rfl).symm]
  refine Finset.sum_congr rfl fun k _ => ?_
  have c2 := contrEquiv1_symm_val dot_S4000x64_S64x64_S4000x64_1_0_0_1_n_n 64 rfl rfl k
  have l2 : dot_S4000x64_S64x64_S4000x64_1_0_0_1_n_n.lhsIdx (ix2 r c) ((contrEquiv1 _ 64 rfl rfl).symm k) = ix2 r k := by
    funext ax; apply Fin.ext
    match ax with
    | ⟨0, _⟩ => simp [DotDims.lhsIdx, dot_S4000x64_S64x64_S4000x64_1_0_0_1_n_n]; rfl
    | ⟨1, _⟩ => simp [DotDims.lhsIdx, dot_S4000x64_S64x64_S4000x64_1_0_0_1_n_n]; exact c2
  have r2 : dot_S4000x64_S64x64_S4000x64_1_0_0_1_n_n.rhsIdx (ix2 r c) ((contrEquiv1 _ 64 rfl rfl).symm k) = ix2 k c := by
    funext ax; apply Fin.ext
    match ax with
    | ⟨0, _⟩ => simp [DotDims.rhsIdx, dot_S4000x64_S64x64_S4000x64_1_0_0_1_n_n]; exact c2
    | ⟨1, _⟩ => simp [DotDims.rhsIdx, dot_S4000x64_S64x64_S4000x64_1_0_0_1_n_n]; rfl
  rw [l2, r2]

/-- The device's matrix product of a [4000, 64] block by a [64, 64] matrix into the zero block, read at row r and column c:
    the sum over the contracted coordinate of the products of the entries. -/
theorem matmul2_at {φ₁ φ₂ : FTy} (lhs : FVec Ideal S4000x64 φ₁) (rhs : FVec Ideal S64x64 φ₂) (r : Fin 4000) (c : Fin 64) :
    matmul dot_S4000x64_S64x64_S4000x64_1_0_0_1_n_n none lhs rhs (constant (F := Ideal) S4000x64 .f32 0x00000000#32) (ix2 r c)
      = ∑ k : Fin 64, lhs (ix2 r k) * rhs (ix2 k c) := by
  show FloatOps.matmul _ none lhs rhs (constant (F := Ideal) S4000x64 .f32 0x00000000#32) (ix2 r c) = _
  rw [Ideal.matmul_constant_zero_apply, ← Equiv.sum_comp (contrEquiv1 dot_S4000x64_S64x64_S4000x64_1_0_0_1_n_n 64 rfl rfl).symm]
  refine Finset.sum_congr rfl fun k _ => ?_
  have c2 := contrEquiv1_symm_val dot_S4000x64_S64x64_S4000x64_1_0_0_1_n_n 64 rfl rfl k
  have l2 : dot_S4000x64_S64x64_S4000x64_1_0_0_1_n_n.lhsIdx (ix2 r c) ((contrEquiv1 _ 64 rfl rfl).symm k) = ix2 r k := by
    funext ax; apply Fin.ext
    match ax with
    | ⟨0, _⟩ => simp [DotDims.lhsIdx, dot_S4000x64_S64x64_S4000x64_1_0_0_1_n_n]; rfl
    | ⟨1, _⟩ => simp [DotDims.lhsIdx, dot_S4000x64_S64x64_S4000x64_1_0_0_1_n_n]; exact c2
  have r2 : dot_S4000x64_S64x64_S4000x64_1_0_0_1_n_n.rhsIdx (ix2 r c) ((contrEquiv1 _ 64 rfl rfl).symm k) = ix2 k c := by
    funext ax; apply Fin.ext
    match ax with
    | ⟨0, _⟩ => simp [DotDims.rhsIdx, dot_S4000x64_S64x64_S4000x64_1_0_0_1_n_n]; exact c2
    | ⟨1, _⟩ => simp [DotDims.rhsIdx, dot_S4000x64_S64x64_S4000x64_1_0_0_1_n_n]; rfl
  rw [l2, r2]

/-- The tile's perceptron output at row r, column c. -/
theorem mlp_apply (v3 : Vec Ideal S4000x64 .f32) (v5 : Vec Ideal S64x64 .f32) (v9 : Vec Ideal S64 .f32)
    (v15 : Vec Ideal S64x64 .f32) (v19 : Vec Ideal S64 .f32) (r : Fin 4000) (c : Fin 64) :
    k0_pay4 v3 v5 v9 v15 v19 (ix2 r c) = mlpAt v3 v5 v9 v15 v19 r c := by
  unfold k0_pay4 mlpAt
  rw [addf_apply, matmul2_at, broadcastTo_1b_ab_apply, shapeCast_a_1a_apply]
  refine congrArg (· + v19 (ix1 c)) (Finset.sum_congr rfl fun q _ => ?_)
  rw [truncf_apply, truncf_apply, maximumf_apply, addf_apply, matmul1_at, broadcastTo_1b_ab_apply, shapeCast_a_1a_apply,
    broadcast_apply]
  simp only [truncf_apply, shapeCast_self]
  rw [Ideal.ofBits_def, Ideal.ofBits_zero_f32]

/-- A sum over the row axis of a [4000, 64] block, read at column c, is the sum of the column's 4000 entries. -/
theorem colsum_at (src : FVec Ideal S4000x64 .f32) (h : S4000x64.Reduces [0] S64) (hφ : FKind.Formats .f32)
    (hacc : (0x00000000#32 : BitVec 32) = 0x00000000#32) (c : Fin 64) :
    multiReduction (F := Ideal) .add [0] S64 src 0x00000000#32 h hφ hacc (ix1 c) = ∑ k : Fin 4000, src (ix2 k c) :=
  (Ideal.multiReduction_add_single src 0x00000000#32 h hφ hacc (ix1 c)).trans
    (Finset.sum_congr rfl fun k _ => congrArg src (funext fun a => Fin.ext (by
      match a with
      | ⟨0, _⟩ => rfl
      | ⟨1, _⟩ => rfl)))

/-- The running row of column sums after the tile: what it held plus the tile's column sums of the perceptron output. -/
theorem sum_apply (v3 : Vec Ideal S4000x64 .f32) (v5 : Vec Ideal S64x64 .f32) (v9 : Vec Ideal S64 .f32)
    (v15 : Vec Ideal S64x64 .f32) (v19 : Vec Ideal S64 .f32) (v24 : Vec Ideal S1x64 .f32) (u : Fin 1) (c : Fin 64) :
    k0_pay5 v3 v5 v9 v15 v19 v24 (ix2 u c) = v24 (ix2 u c) + ∑ k : Fin 4000, mlpAt v3 v5 v9 v15 v19 k c := by
  unfold k0_pay5
  rw [addf_apply, shapeCast_self, shapeCast_a_1a_apply, colsum_at]
  exact congrArg (v24 (ix2 u c) + ·) (Finset.sum_congr rfl fun k _ => mlp_apply v3 v5 v9 v15 v19 k c)

/-- A running row plus the column sums of a block. -/
theorem acc_apply (v31 : FVec Ideal S1x64 .f32) (v32 : FVec Ideal S4000x64 .f32) (u : Fin 1) (c : Fin 64) :
    k0_pay1 v31 v32 (ix2 u c) = v31 (ix2 u c) + ∑ k : Fin 4000, v32 (ix2 k c) := by
  unfold k0_pay1
  rw [addf_apply, shapeCast_a_1a_apply, colsum_at]

theorem carried_eq (v30 : Vec Ideal S1x64 .f32) : k0_pay6 v30 = v30 := by
  unfold k0_pay6
  rw [shapeCast_self]

/-- The squares of the tile's perceptron output. -/
theorem sq_apply (v3 : Vec Ideal S4000x64 .f32) (v5 : Vec Ideal S64x64 .f32) (v9 : Vec Ideal S64 .f32)
    (v15 : Vec Ideal S64x64 .f32) (v19 : Vec Ideal S64 .f32) (r : Fin 4000) (c : Fin 64) :
    k0_pay7 v3 v5 v9 v15 v19 (ix2 r c) = mlpAt v3 v5 v9 v15 v19 r c * mlpAt v3 v5 v9 v15 v19 r c := by
  unfold k0_pay7
  rw [mulf_apply, mlp_apply]

/-- The running row of sums of squares after the tile. -/
theorem sumsq_apply (v3 : Vec Ideal S4000x64 .f32) (v5 : Vec Ideal S64x64 .f32) (v9 : Vec Ideal S64 .f32)
    (v15 : Vec Ideal S64x64 .f32) (v19 : Vec Ideal S64 .f32) (v30 : Vec Ideal S1x64 .f32) (u : Fin 1) (c : Fin 64) :
    k0_pay1 (k0_pay6 v30) (k0_pay7 v3 v5 v9 v15 v19) (ix2 u c)
      = v30 (ix2 u c) + ∑ k : Fin 4000, mlpAt v3 v5 v9 v15 v19 k c * mlpAt v3 v5 v9 v15 v19 k c := by
  rw [acc_apply, carried_eq]
  exact congrArg (v30 (ix2 u c) + ·) (Finset.sum_congr rfl fun k _ => sq_apply v3 v5 v9 v15 v19 k c)

/-- The two zero rows the first grid point stores. -/
theorem zero_sum_apply (j : S1x64.Idx) : k0_pay2 (F := Ideal) j = 0 := by
  unfold k0_pay2
  rw [broadcast_apply]
  exact Ideal.ofBits_zero_f32

theorem zero_sumsq_apply (j : S1x64.Idx) : k0_pay3 (F := Ideal) j = 0 := by
  unfold k0_pay3
  rw [broadcast_apply]
  exact Ideal.ofBits_zero_f32

end Cert.KernelIdeal.MlpPayL1i

end
-- ==== Proof.MlpRunL1i.lean ====
/- The three arrays the first device pass of one GIN layer leaves (region 0: [200000, 64] rows in 50 tiles of 4000, widths
   64, 64, 64), for any contents of the device's buffers when the region is entered.  Each control case's stores are read as
   values of the point's input blocks; the tile window's block at point t is rows 4000 t … 4000 t + 3999 of the array and
   the other input windows' one block is their whole array; so the tile output is the two-layer perceptron of the input
   array row by row, and, by induction over the grid points (the first point zeroes the two running rows, every point
   adds its tile's column sums), after the last point the two [1, 64] rows hold the column sums of the perceptron output
   and of its squares, tile after tile. -/
import proofs.«120907_j71768903516484_1_alg».proof.Proof.KIFrameP
import proofs.«120907_j71768903516484_1_alg».proof.Proof.MlpPayL1i
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MlpRunL1i

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## What each control case leaves in the three output buffers, as the stores' values -/

/-- At the first grid point the tile's perceptron output is stored. -/
theorem outA5_eq (c : Dev nD) (i : grid0.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : cond0_0 i) (x0 : Vec Ideal S4000x64 .f32) (x1 : Vec Ideal S64x64 .f32) (x2 : Vec Ideal S64 .f32) (x3 : Vec Ideal S64x64 .f32) (x4 : Vec Ideal S64 .f32) :
    out0_A_5 c i arg1 harg1 arg2 harg2 arg3 harg3 arg4 harg4 arg5 harg5 arg6 harg6 arg7 harg7 arg8 harg8 hc0 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1]

/-- At the first grid point the row of column sums is zeroed, then the tile's column sums are added to it. -/
theorem outA6_eq (c : Dev nD) (i : grid0.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : cond0_0 i) (x0 : Vec Ideal S4000x64 .f32) (x1 : Vec Ideal S64x64 .f32) (x2 : Vec Ideal S64 .f32) (x3 : Vec Ideal S64x64 .f32) (x4 : Vec Ideal S64 .f32) :
    out0_A_6 c i arg1 harg1 arg2 harg2 arg3 harg3 arg4 harg4 arg5 harg5 arg6 harg6 arg7 harg7 arg8 harg8 hc0 x0 x1 x2 x3 x4 = k0_pay5 x0 x1 x2 x3 x4 (k0_pay2 (F := Ideal)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1]

/-- At the first grid point the row of sums of squares is zeroed, then the tile's sums of squares are added to it. -/
theorem outA7_eq (c : Dev nD) (i : grid0.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : cond0_0 i) (x0 : Vec Ideal S4000x64 .f32) (x1 : Vec Ideal S64x64 .f32) (x2 : Vec Ideal S64 .f32) (x3 : Vec Ideal S64x64 .f32) (x4 : Vec Ideal S64 .f32) :
    out0_A_7 c i arg1 harg1 arg2 harg2 arg3 harg3 arg4 harg4 arg5 harg5 arg6 harg6 arg7 harg7 arg8 harg8 hc0 x0 x1 x2 x3 x4 = k0_pay1 (k0_pay6 (k0_pay3 (F := Ideal))) (k0_pay7 x0 x1 x2 x3 x4) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1]

/-- At a later grid point the tile's perceptron output is stored. -/
theorem outB5_eq (c : Dev nD) (i : grid0.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (x0 : Vec Ideal S4000x64 .f32) (x1 : Vec Ideal S64x64 .f32) (x2 : Vec Ideal S64 .f32) (x3 : Vec Ideal S64x64 .f32) (x4 : Vec Ideal S64 .f32) (xo6 xo7 : Vec Ideal S1x64 .f32) :
    out0_B_5 c i arg1 harg1 arg2 harg2 arg3 harg3 arg4 harg4 arg5 harg5 arg6 harg6 arg7 harg7 arg8 harg8 hc0 x0 x1 x2 x3 x4 xo6 xo7 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1, harg7.read_unread, harg8.read_unread, View.ld_unit_zero (S := S1x64) hz2]

/-- At a later grid point the tile's column sums are added to the row the point before left. -/
theorem outB6_eq (c : Dev nD) (i : grid0.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (x0 : Vec Ideal S4000x64 .f32) (x1 : Vec Ideal S64x64 .f32) (x2 : Vec Ideal S64 .f32) (x3 : Vec Ideal S64x64 .f32) (x4 : Vec Ideal S64 .f32) (xo6 xo7 : Vec Ideal S1x64 .f32) :
    out0_B_6 c i arg1 harg1 arg2 harg2 arg3 harg3 arg4 harg4 arg5 harg5 arg6 harg6 arg7 harg7 arg8 harg8 hc0 x0 x1 x2 x3 x4 xo6 xo7 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1, harg7.read_unread, harg8.read_unread, View.ld_unit_zero (S := S1x64) hz2]

/-- At a later grid point the tile's sums of squares are added to the row the point before left. -/
theorem outB7_eq (c : Dev nD) (i : grid0.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (x0 : Vec Ideal S4000x64 .f32) (x1 : Vec Ideal S64x64 .f32) (x2 : Vec Ideal S64 .f32) (x3 : Vec Ideal S64x64 .f32) (x4 : Vec Ideal S64 .f32) (xo6 xo7 : Vec Ideal S1x64 .f32) :
    out0_B_7 c i arg1 harg1 arg2 harg2 arg3 harg3 arg4 harg4 arg5 harg5 arg6 harg6 arg7 harg7 arg8 harg8 hc0 x0 x1 x2 x3 x4 xo6 xo7 = k0_pay1 (k0_pay6 xo7) (k0_pay7 x0 x1 x2 x3 x4) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1, harg7.read_unread, harg8.read_unread, View.ld_unit_zero (S := S1x64) hz2]

/-! ## The windows' blocks as parts of the arrays -/

/-- The printed index maps over the grid: the two tile windows (input 0, output 5) sit at block (t, 0); the weights, the
    biases and the two running rows at block 0. -/
structure IdxFacts (t : Fin cfg0.N) : Prop where
  w0a : win0_0.index t (0 : Fin 2) = t.val
  w0b : win0_0.index t (1 : Fin 2) = 0
  w1a : win0_1.index t (0 : Fin 2) = 0
  w1b : win0_1.index t (1 : Fin 2) = 0
  w2a : win0_2.index t (0 : Fin 1) = 0
  w3a : win0_3.index t (0 : Fin 2) = 0
  w3b : win0_3.index t (1 : Fin 2) = 0
  w4a : win0_4.index t (0 : Fin 1) = 0
  w5a : win0_5.index t (0 : Fin 2) = t.val
  w5b : win0_5.index t (1 : Fin 2) = 0
  w6a : win0_6.index t (0 : Fin 2) = 0
  w6b : win0_6.index t (1 : Fin 2) = 0
  w7a : win0_7.index t (0 : Fin 2) = 0
  w7b : win0_7.index t (1 : Fin 2) = 0

theorem idx_facts : ∀ t : Fin cfg0.N, IdxFacts t :=
  fun t => by
    have h : ∀ t : Fin cfg0.N,
        win0_0.index t (0 : Fin 2) = t.val ∧ win0_0.index t (1 : Fin 2) = 0
        ∧ win0_1.index t (0 : Fin 2) = 0 ∧ win0_1.index t (1 : Fin 2) = 0
        ∧ win0_2.index t (0 : Fin 1) = 0
        ∧ win0_3.index t (0 : Fin 2) = 0 ∧ win0_3.index t (1 : Fin 2) = 0
        ∧ win0_4.index t (0 : Fin 1) = 0
        ∧ win0_5.index t (0 : Fin 2) = t.val ∧ win0_5.index t (1 : Fin 2) = 0
        ∧ win0_6.index t (0 : Fin 2) = 0 ∧ win0_6.index t (1 : Fin 2) = 0
        ∧ win0_7.index t (0 : Fin 2) = 0 ∧ win0_7.index t (1 : Fin 2) = 0 :=
      (by decide +kernel : ∀ t : Fin grid0.N, _)
    obtain ⟨h0, h1, h2, h3, h4, h5, h6, h7, h8, h9, h10, h11, h12, h13⟩ := h t
    exact ⟨h0, h1, h2, h3, h4, h5, h6, h7, h8, h9, h10, h11, h12, h13⟩

/-- Row p of the input tile at point t is row 4000 t + p of the input array. -/
theorem blk0_apply (c : Dev nD) (t : Fin cfg0.N) (p : Fin 4000) (q : Fin 64) (k : Fin 200000) (hk : k.val = 4000 * t.val + p.val) :
    (iblk0 V c 0 t : Vec Ideal S4000x64 .f32) (ix2 p q) = (V c (Pipeline.arrRef spec0 0) : S200000x64.Idx → EReal) (ix2 k q) := by
  have e := idx_facts t
  unfold iblk0
  rw [View.read_apply]
  show (V c (Pipeline.arrRef spec0 0) : S200000x64.Idx → EReal) _ = _
  refine congrArg _ (funext fun ax => Fin.ext ?_)
  match ax with
  | ⟨0, _⟩ => show win0_0.index t (0 : Fin 2) * 4000 + 1 * p.val = k.val; rw [e.w0a, hk]; omega
  | ⟨1, _⟩ => show win0_0.index t (1 : Fin 2) * 64 + 1 * q.val = q.val; rw [e.w0b]; omega

/-- The first weight matrix's one block is the whole array. -/
theorem blk1_apply (c : Dev nD) (t : Fin cfg0.N) (a : Fin 64) (b : Fin 64) :
    (iblk0 V c 1 t : Vec Ideal S64x64 .f32) (ix2 a b) = (V c (Pipeline.arrRef spec0 1) : S64x64.Idx → EReal) (ix2 a b) := by
  have e := idx_facts t
  unfold iblk0
  rw [View.read_apply]
  show (V c (Pipeline.arrRef spec0 1) : S64x64.Idx → EReal) _ = _
  refine congrArg _ (funext fun ax => Fin.ext ?_)
  match ax with
  | ⟨0, _⟩ => show win0_1.index t (0 : Fin 2) * 64 + 1 * a.val = a.val; rw [e.w1a]; omega
  | ⟨1, _⟩ => show win0_1.index t (1 : Fin 2) * 64 + 1 * b.val = b.val; rw [e.w1b]; omega

/-- The first bias vector's one block is the whole array. -/
theorem blk2_apply (c : Dev nD) (t : Fin cfg0.N) (a : Fin 64) :
    (iblk0 V c 2 t : Vec Ideal S64 .f32) (ix1 a) = (V c (Pipeline.arrRef spec0 2) : S64.Idx → EReal) (ix1 a) := by
  have e := idx_facts t
  unfold iblk0
  rw [View.read_apply]
  show (V c (Pipeline.arrRef spec0 2) : S64.Idx → EReal) _ = _
  refine congrArg _ (funext fun ax => Fin.ext ?_)
  match ax with
  | ⟨0, _⟩ => show win0_2.index t (0 : Fin 1) * 64 + 1 * a.val = a.val; rw [e.w2a]; omega

/-- The second weight matrix's one block is the whole array. -/
theorem blk3_apply (c : Dev nD) (t : Fin cfg0.N) (a : Fin 64) (b : Fin 64) :
    (iblk0 V c 3 t : Vec Ideal S64x64 .f32) (ix2 a b) = (V c (Pipeline.arrRef spec0 3) : S64x64.Idx → EReal) (ix2 a b) := by
  have e := idx_facts t
  unfold iblk0
  rw [View.read_apply]
  show (V c (Pipeline.arrRef spec0 3) : S64x64.Idx → EReal) _ = _
  refine congrArg _ (funext fun ax => Fin.ext ?_)
  match ax with
  | ⟨0, _⟩ => show win0_3.index t (0 : Fin 2) * 64 + 1 * a.val = a.val; rw [e.w3a]; omega
  | ⟨1, _⟩ => show win0_3.index t (1 : Fin 2) * 64 + 1 * b.val = b.val; rw [e.w3b]; omega

/-- The second bias vector's one block is the whole array. -/
theorem blk4_apply (c : Dev nD) (t : Fin cfg0.N) (a : Fin 64) :
    (iblk0 V c 4 t : Vec Ideal S64 .f32) (ix1 a) = (V c (Pipeline.arrRef spec0 4) : S64.Idx → EReal) (ix1 a) := by
  have e := idx_facts t
  unfold iblk0
  rw [View.read_apply]
  show (V c (Pipeline.arrRef spec0 4) : S64.Idx → EReal) _ = _
  refine congrArg _ (funext fun ax => Fin.ext ?_)
  match ax with
  | ⟨0, _⟩ => show win0_4.index t (0 : Fin 1) * 64 + 1 * a.val = a.val; rw [e.w4a]; omega

/-! ## The three results -/

/-- The perceptron of the input array by the weights and biases the region finds, at a row and a column. -/
def H (c : Dev nD) : Fin 200000 → Fin 64 → EReal :=
  mlpAt (V c (Pipeline.arrRef spec0 0) : S200000x64.Idx → EReal)
    (V c (Pipeline.arrRef spec0 1) : S64x64.Idx → EReal)
    (V c (Pipeline.arrRef spec0 2) : S64.Idx → EReal)
    (V c (Pipeline.arrRef spec0 3) : S64x64.Idx → EReal)
    (V c (Pipeline.arrRef spec0 4) : S64.Idx → EReal)

/-- Window 5: the perceptron output, row by row. -/
def resultMlp (c : Dev nD) : S200000x64.Idx → EReal := fun i => H V c (i 0) (i 1)

/-- Window 6: its column sums over the 50 tiles of 4000 rows. -/
def resultSum (c : Dev nD) : S1x64.Idx → EReal :=
  fun i => colSumAt 50 4000 (by decide : 50 * 4000 = 200000) (H V c) (i 1)

/-- Window 7: the column sums of its squares. -/
def resultSumSq (c : Dev nD) : S1x64.Idx → EReal :=
  fun i => colSumAt 50 4000 (by decide : 50 * 4000 = 200000) (fun r q => H V c r q * H V c r q) (i 1)

/-- The perceptron of tile t at its row p is the perceptron of the array at row 4000 t + p. -/
theorem tile_mlp (c : Dev nD) (t : Fin cfg0.N) (ht : t.val < 50) (p : Fin 4000) (q : Fin 64) :
    mlpAt (iblk0 V c 0 t : Vec Ideal S4000x64 .f32) (iblk0 V c 1 t : Vec Ideal S64x64 .f32) (iblk0 V c 2 t : Vec Ideal S64 .f32) (iblk0 V c 3 t : Vec Ideal S64x64 .f32) (iblk0 V c 4 t : Vec Ideal S64 .f32) p q
      = H V c (tileRow (T := 50) (R := 4000) (n := 200000) (by decide) ⟨t.val, ht⟩ p) q :=
  mlpAt_congr q (fun a => blk0_apply V c t p a _ rfl) (fun a b => blk1_apply V c t a b) (fun b => blk2_apply V c t b)
    (fun a b => blk3_apply V c t a b) (fun b => blk4_apply V c t b)

/-! ## The output buffers after each grid point -/

/-- After any grid point the tile buffer holds the perceptron of the point's tile. -/
theorem out5_eq (c : Dev nD) (t : Fin cfg0.N) :
    (outsAt0 V c t.val t.isLt).1 = k0_pay4 (iblk0 V c 0 t : Vec Ideal S4000x64 .f32) (iblk0 V c 1 t : Vec Ideal S64x64 .f32) (iblk0 V c 2 t : Vec Ideal S64 .f32) (iblk0 V c 3 t : Vec Ideal S64x64 .f32) (iblk0 V c 4 t : Vec Ideal S64 .f32) := by
  by_cases h0 : t.val % 50 = 0
  · rw [outsAt0_A V c t h0]
    dsimp only
    exact outA5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact outB5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) _ _

/-- After grid point n the row of column sums holds the parts of tiles 0 … n, added in that order. -/
theorem sums_eq (c : Dev nD) : ∀ (n : ℕ) (h : n < cfg0.N),
    (outsAt0 V c n h).2.1
      = (fun j : S1x64.Idx => ∑ k ∈ Finset.range (n + 1), tileSum 50 4000 (by decide : 50 * 4000 = 200000) (H V c) k (j 1))
  | 0, h => by
    refine (congrArg (fun z => z.2.1) (outsAt0_A V c ⟨0, h⟩ (Nat.zero_mod _))).trans ?_
    dsimp only
    rw [outA6_eq]
    funext j
    obtain ⟨u, q, rfl⟩ : ∃ (u : Fin 1) (q : Fin 64), j = ix2 u q := ⟨j 0, j 1, eq_ix2 j⟩
    refine (MlpPayL1i.sum_apply _ _ _ _ _ _ u q).trans ?_
    rw [MlpPayL1i.zero_sum_apply, zero_add, Finset.sum_range_one, tileSum_of_lt 50 4000 _ _ (by decide : 0 < 50)]
    exact Finset.sum_congr rfl fun p _ => tile_mlp V c ⟨0, h⟩ (Nat.succ_pos 49) p q
  | n + 1, h => by
    have hN : n + 1 < 50 := lt_of_lt_of_eq h N_0
    have hB : ¬(⟨n + 1, h⟩ : Fin cfg0.N).val % 50 = 0 := by dsimp only; omega
    refine (congrArg (fun z => z.2.1) (outsAt0_B V c ⟨n + 1, h⟩ hB)).trans ?_
    dsimp only
    rw [outB6_eq]
    funext j
    obtain ⟨u, q, rfl⟩ : ∃ (u : Fin 1) (q : Fin 64), j = ix2 u q := ⟨j 0, j 1, eq_ix2 j⟩
    refine (MlpPayL1i.sum_apply _ _ _ _ _ _ u q).trans ?_
    rw [Finset.sum_range_succ _ (n + 1), tileSum_of_lt 50 4000 _ _ hN]
    refine congrArg₂ (· + ·) ?_ (Finset.sum_congr rfl fun p _ => tile_mlp V c ⟨n + 1, h⟩ hN p q)
    exact congrFun (sums_eq c n (Nat.lt_of_succ_lt h)) (ix2 u q)

/-- After grid point n the row of sums of squares holds the parts of tiles 0 … n, added in that order. -/
theorem sumsqs_eq (c : Dev nD) : ∀ (n : ℕ) (h : n < cfg0.N),
    (outsAt0 V c n h).2.2
      = (fun j : S1x64.Idx => ∑ k ∈ Finset.range (n + 1),
          tileSum 50 4000 (by decide : 50 * 4000 = 200000) (fun r q => H V c r q * H V c r q) k (j 1))
  | 0, h => by
    refine (congrArg (fun z => z.2.2) (outsAt0_A V c ⟨0, h⟩ (Nat.zero_mod _))).trans ?_
    dsimp only
    rw [outA7_eq]
    funext j
    obtain ⟨u, q, rfl⟩ : ∃ (u : Fin 1) (q : Fin 64), j = ix2 u q := ⟨j 0, j 1, eq_ix2 j⟩
    refine (MlpPayL1i.sumsq_apply _ _ _ _ _ _ u q).trans ?_
    rw [MlpPayL1i.zero_sumsq_apply, zero_add, Finset.sum_range_one, tileSum_of_lt 50 4000 _ _ (by decide : 0 < 50)]
    exact Finset.sum_congr rfl fun p _ => by rw [tile_mlp V c ⟨0, h⟩ (Nat.succ_pos 49) p q]
  | n + 1, h => by
    have hN : n + 1 < 50 := lt_of_lt_of_eq h N_0
    have hB : ¬(⟨n + 1, h⟩ : Fin cfg0.N).val % 50 = 0 := by dsimp only; omega
    refine (congrArg (fun z => z.2.2) (outsAt0_B V c ⟨n + 1, h⟩ hB)).trans ?_
    dsimp only
    rw [outB7_eq]
    funext j
    obtain ⟨u, q, rfl⟩ : ∃ (u : Fin 1) (q : Fin 64), j = ix2 u q := ⟨j 0, j 1, eq_ix2 j⟩
    refine (MlpPayL1i.sumsq_apply _ _ _ _ _ _ u q).trans ?_
    rw [Finset.sum_range_succ _ (n + 1), tileSum_of_lt 50 4000 _ _ hN]
    refine congrArg₂ (· + ·) ?_ (Finset.sum_congr rfl fun p _ => by rw [tile_mlp V c ⟨n + 1, h⟩ hN p q])
    exact congrFun (sumsqs_eq c n (Nat.lt_of_succ_lt h)) (ix2 u q)

/-! ## From the buffers to the arrays -/

/-- What grid point t writes back of window 5 is rows 4000 t … 4000 t + 3999 of the perceptron output. -/
theorem flushed5_eq (c : Dev nD) (t : Fin cfg0.N) :
    (dat0 V c).flushed 5 t = ((cfg0.win 5).blk t).view.read (Elt Ideal) (resultMlp V c) := by
  have hN : t.val < 50 := lt_of_lt_of_eq t.isLt N_0
  have e := idx_facts t
  show (cfg0.win 5).cut (grid0.coords t) ((dat0 V c).after 5 t) = _
  rw [after0_5, out5_eq]
  funext j
  obtain ⟨p, q, rfl⟩ : ∃ (p : Fin 4000) (q : Fin 64), j = ix2 p q := ⟨j 0, j 1, eq_ix2 j⟩
  show k0_pay4 (iblk0 V c 0 t : Vec Ideal S4000x64 .f32) (iblk0 V c 1 t : Vec Ideal S64x64 .f32) (iblk0 V c 2 t : Vec Ideal S64 .f32) (iblk0 V c 3 t : Vec Ideal S64x64 .f32) (iblk0 V c 4 t : Vec Ideal S64 .f32) (ix2 p q)
    = resultMlp V c (((cfg0.win 5).blk t).view.emb (ix2 p q))
  refine (MlpPayL1i.mlp_apply (iblk0 V c 0 t : Vec Ideal S4000x64 .f32) (iblk0 V c 1 t : Vec Ideal S64x64 .f32) (iblk0 V c 2 t : Vec Ideal S64 .f32) (iblk0 V c 3 t : Vec Ideal S64x64 .f32) (iblk0 V c 4 t : Vec Ideal S64 .f32) p q).trans ?_
  have hemb : ((cfg0.win 5).blk t).view.emb (ix2 p q)
      = ix2 (tileRow (T := 50) (R := 4000) (n := 200000) (by decide) ⟨t.val, hN⟩ p) q := by
    funext a; apply Fin.ext
    match a with
    | ⟨0, _⟩ => show win0_5.index t (0 : Fin 2) * 4000 + 1 * p.val = 4000 * t.val + p.val; rw [e.w5a]; omega
    | ⟨1, _⟩ => show win0_5.index t (1 : Fin 2) * 64 + 1 * q.val = q.val; rw [e.w5b]; omega
  rw [hemb]
  exact tile_mlp V c t hN p q

theorem mem_blk5 (t : Fin cfg0.N) (i : S200000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole (Pipeline.arrRef spec0 5)).slice (win0_5.rect t)).set ↔ _
  rw [View.set_slice_whole, Rect.mem_set_unit]
  exact Iff.rfl

/-- Row r of the array lies in the block of point r / 4000. -/
theorem cover5 (i : S200000x64.Idx) : ∃ t : Fin cfg0.N, (cfg0.win 5).flush t = true ∧ i ∈ ((cfg0.win 5).blk t).view.set := by
  have hi0 : (i 0).val < 200000 := (i 0).isLt
  have hi1 : (i 1).val < 64 := (i 1).isLt
  have hN : cfg0.N = 50 := N_0
  let t : Fin cfg0.N := ⟨(i 0).val / 4000, by rw [hN]; omega⟩
  have e := idx_facts t
  have ht : t.val = (i 0).val / 4000 := rfl
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; rw [e.w5a, ht]; omega
  | ⟨1, _⟩ => show win0_5.index t (1 : Fin 2) * 64 ≤ (i 1).val ∧ (i 1).val < win0_5.index t (1 : Fin 2) * 64 + 64; rw [e.w5b]; omega

/-- Window 5's array after the region is the perceptron output. -/
theorem final5 (c : Dev nD) : (dat0 V c).arrAt 5 cfg0.N = resultMlp V c :=
  (dat0 V c).arrAt_eq_of_cover 5 (resultMlp V c) (fun t _ => flushed5_eq V c t) cover5

/-- The one write-back of window 6, after the last grid point, writes the column sums. -/
theorem flushed6_eq (c : Dev nD) (t : Fin cfg0.N) (hf : (cfg0.win 6).flush t = true) :
    (dat0 V c).flushed 6 t = ((cfg0.win 6).blk t).view.read (Elt Ideal) (resultSum V c) := by
  have hN : t.val < 50 := lt_of_lt_of_eq t.isLt N_0
  have h49 : t.val = 49 := by have := (flush0_6 t).mp hf; omega
  have e := idx_facts t
  show (cfg0.win 6).cut (grid0.coords t) ((dat0 V c).after 6 t) = _
  rw [after0_6, sums_eq V c t.val t.isLt]
  funext j
  obtain ⟨u, q, rfl⟩ : ∃ (u : Fin 1) (q : Fin 64), j = ix2 u q := ⟨j 0, j 1, eq_ix2 j⟩
  show (∑ k ∈ Finset.range (t.val + 1), tileSum 50 4000 (by decide : 50 * 4000 = 200000) (H V c) k q)
    = resultSum V c (((cfg0.win 6).blk t).view.emb (ix2 u q))
  have hemb : ((cfg0.win 6).blk t).view.emb (ix2 u q) = ix2 u q := by
    funext a; apply Fin.ext
    match a with
    | ⟨0, _⟩ => show win0_6.index t (0 : Fin 2) * 1 + 1 * u.val = u.val; rw [e.w6a]; omega
    | ⟨1, _⟩ => show win0_6.index t (1 : Fin 2) * 64 + 1 * q.val = q.val; rw [e.w6b]; omega
  rw [hemb, h49]
  exact (colSumAt_eq_range 50 4000 _ (H V c) q).symm

theorem mem_blk6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole (Pipeline.arrRef spec0 6)).slice (win0_6.rect t)).set ↔ _
  rw [View.set_slice_whole, Rect.mem_set_unit]
  exact Iff.rfl

/-- The last grid point's block is the whole [1, 64] array. -/
theorem cover6 (i : S1x64.Idx) : ∃ t : Fin cfg0.N, (cfg0.win 6).flush t = true ∧ i ∈ ((cfg0.win 6).blk t).view.set := by
  have hi0 : (i 0).val < 1 := (i 0).isLt
  have hi1 : (i 1).val < 64 := (i 1).isLt
  have hN : cfg0.N = 50 := N_0
  let t : Fin cfg0.N := ⟨49, by rw [hN]; omega⟩
  have e := idx_facts t
  refine ⟨t, (flush0_6 t).mpr rfl, ?_⟩
  rw [mem_blk6]
  intro a
  match a with
  | ⟨0, _⟩ => show win0_6.index t (0 : Fin 2) * 1 ≤ (i 0).val ∧ (i 0).val < win0_6.index t (0 : Fin 2) * 1 + 1; rw [e.w6a]; omega
  | ⟨1, _⟩ => show win0_6.index t (1 : Fin 2) * 64 ≤ (i 1).val ∧ (i 1).val < win0_6.index t (1 : Fin 2) * 64 + 64; rw [e.w6b]; omega

/-- Window 6's array after the region is the column sums. -/
theorem final6 (c : Dev nD) : (dat0 V c).arrAt 6 cfg0.N = resultSum V c :=
  (dat0 V c).arrAt_eq_of_cover 6 (resultSum V c) (fun t hf => flushed6_eq V c t hf) cover6

/-- The one write-back of window 7, after the last grid point, writes the column sums of squares. -/
theorem flushed7_eq (c : Dev nD) (t : Fin cfg0.N) (hf : (cfg0.win 7).flush t = true) :
    (dat0 V c).flushed 7 t = ((cfg0.win 7).blk t).view.read (Elt Ideal) (resultSumSq V c) := by
  have hN : t.val < 50 := lt_of_lt_of_eq t.isLt N_0
  have h49 : t.val = 49 := by have := (flush0_7 t).mp hf; omega
  have e := idx_facts t
  show (cfg0.win 7).cut (grid0.coords t) ((dat0 V c).after 7 t) = _
  rw [after0_7, sumsqs_eq V c t.val t.isLt]
  funext j
  obtain ⟨u, q, rfl⟩ : ∃ (u : Fin 1) (q : Fin 64), j = ix2 u q := ⟨j 0, j 1, eq_ix2 j⟩
  show (∑ k ∈ Finset.range (t.val + 1), tileSum 50 4000 (by decide : 50 * 4000 = 200000) (fun r q => H V c r q * H V c r q) k q)
    = resultSumSq V c (((cfg0.win 7).blk t).view.emb (ix2 u q))
  have hemb : ((cfg0.win 7).blk t).view.emb (ix2 u q) = ix2 u q := by
    funext a; apply Fin.ext
    match a with
    | ⟨0, _⟩ => show win0_7.index t (0 : Fin 2) * 1 + 1 * u.val = u.val; rw [e.w7a]; omega
    | ⟨1, _⟩ => show win0_7.index t (1 : Fin 2) * 64 + 1 * q.val = q.val; rw [e.w7b]; omega
  rw [hemb, h49]
  exact (colSumAt_eq_range 50 4000 _ (fun r q => H V c r q * H V c r q) q).symm

theorem mem_blk7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole (Pipeline.arrRef spec0 7)).slice (win0_7.rect t)).set ↔ _
  rw [View.set_slice_whole, Rect.mem_set_unit]
  exact Iff.rfl

/-- The last grid point's block is the whole [1, 64] array. -/
theorem cover7 (i : S1x64.Idx) : ∃ t : Fin cfg0.N, (cfg0.win 7).flush t = true ∧ i ∈ ((cfg0.win 7).blk t).view.set := by
  have hi0 : (i 0).val < 1 := (i 0).isLt
  have hi1 : (i 1).val < 64 := (i 1).isLt
  have hN : cfg0.N = 50 := N_0
  let t : Fin cfg0.N := ⟨49, by rw [hN]; omega⟩
  have e := idx_facts t
  refine ⟨t, (flush0_7 t).mpr rfl, ?_⟩
  rw [mem_blk7]
  intro a
  match a with
  | ⟨0, _⟩ => show win0_7.index t (0 : Fin 2) * 1 ≤ (i 0).val ∧ (i 0).val < win0_7.index t (0 : Fin 2) * 1 + 1; rw [e.w7a]; omega
  | ⟨1, _⟩ => show win0_7.index t (1 : Fin 2) * 64 ≤ (i 1).val ∧ (i 1).val < win0_7.index t (1 : Fin 2) * 64 + 64; rw [e.w7b]; omega

/-- Window 7's array after the region is the column sums of squares. -/
theorem final7 (c : Dev nD) : (dat0 V c).arrAt 7 cfg0.N = resultSumSq V c :=
  (dat0 V c).arrAt_eq_of_cover 7 (resultSumSq V c) (fun t hf => flushed7_eq V c t hf) cover7

/-! ## The windows' arrays, by name -/

theorem arr0 : Pipeline.arrRef spec0 0 = main_v17 := rfl
theorem arr1 : Pipeline.arrRef spec0 1 = main_arg7 := rfl
theorem arr2 : Pipeline.arrRef spec0 2 = main_arg8 := rfl
theorem arr3 : Pipeline.arrRef spec0 3 = main_arg9 := rfl
theorem arr4 : Pipeline.arrRef spec0 4 = main_arg10 := rfl
theorem arr5 : Pipeline.arrRef spec0 5 = main_v18_0 := rfl
theorem arr6 : Pipeline.arrRef spec0 6 = main_v18_1 := rfl
theorem arr7 : Pipeline.arrRef spec0 7 = main_v18_2 := rfl

end Cert.KernelIdeal.MlpRunL1i

end
-- ==== Proof.AffinePayL1i.lean ====
/- The value the store of the second device pass of one GIN layer writes, read index by index at the ideal values: a
   [4000, 64] tile of rows, each column centred by the given mean, scaled, multiplied by the reciprocal square root of the
   given variance plus a literal, and shifted — in the device's order of operations. -/
import proofs.«120907_j71768903516484_1_alg».proof.Proof.Gen.KernelIdeal.Skeleton
import proofs.«120907_j71768903516484_1_alg».proof.Proof.GinSpec
import Idealize.ShloMosaic.Lib.ValueLayout
import Idealize.ShloMosaic.Lib.Pipeline.Value

noncomputable section

open Idealize.ShloMosaic Idealize.ShloMosaic.ValueIdx

namespace Cert.KernelIdeal.AffinePayL1i

open Cert.KernelIdeal Cert.KernelIdeal.Gen Cert.KernelIdeal.GinSpec

/-- The normalised tile at row r, column c. -/
theorem affine_apply (v0 : Vec Ideal S4000x64 .f32) (v2 v4 : Vec Ideal S1x64 .f32) (v9 v17 : Vec Ideal S64 .f32)
    (r : Fin 4000) (c : Fin 64) :
    k1_pay1 v0 v2 v4 v9 v17 (ix2 r c) = bnAffineAt v0 v2 v4 v9 v17 r c := by
  unfold k1_pay1 bnAffineAt
  rw [addf_apply, mulf_apply, mulf_apply, subf_apply]
  rw [broadcastTo_1b_ab_apply, broadcastTo_1b_ab_apply, broadcastTo_1b_ab_apply, broadcastTo_1b_ab_apply]
  rw [shapeCast_a_1a_apply, shapeCast_a_1a_apply, shapeCast_self, shapeCast_self, shapeCast_self]
  rfl

end Cert.KernelIdeal.AffinePayL1i

end
-- ==== Proof.AffineRunL1i.lean ====
/- The array the second device pass of one GIN layer leaves (region 1: [200000, 64] rows in 50 tiles of 4000), for any
   contents of the device's buffers when the region is entered: tile t of the output is the affine normalisation of tile
   t of the input by the one-block mean, variance, scale and shift arrays, the tiles cover the array, so the output array
   is the affine normalisation of the input array, index by index. -/
import proofs.«120907_j71768903516484_1_alg».proof.Proof.KIFrameP
import proofs.«120907_j71768903516484_1_alg».proof.Proof.AffinePayL1i
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AffineRunL1i

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the tile windows sit at block (t, 0), the one-block windows at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- Row p of the input tile at point t is row 4000 t + p of the input array. -/
theorem blk0_apply (c : Dev nD) (t : Fin cfg1.N) (p : Fin 4000) (q : Fin 64) (k : Fin 200000) (hk : k.val = 4000 * t.val + p.val) :
    (iblk1 V c 0 t : Vec Ideal S4000x64 .f32) (ix2 p q) = (V c (Pipeline.arrRef spec1 0) : S200000x64.Idx → EReal) (ix2 k q) := by
  obtain ⟨e0, e1, -⟩ := idx_facts t
  unfold iblk1
  rw [View.read_apply]
  show (V c (Pipeline.arrRef spec1 0) : S200000x64.Idx → EReal) _ = _
  refine congrArg _ (funext fun a => Fin.ext ?_)
  match a with
  | ⟨0, _⟩ => show win1_0.index t (0 : Fin 2) * 4000 + 1 * p.val = k.val; rw [e0, hk]; omega
  | ⟨1, _⟩ => show win1_0.index t (1 : Fin 2) * 64 + 1 * q.val = q.val; rw [e1]; omega

/-- The mean's one block is the mean array. -/
theorem blk1_apply (c : Dev nD) (t : Fin cfg1.N) (u : Fin 1) (q : Fin 64) :
    (iblk1 V c 1 t : Vec Ideal S1x64 .f32) (ix2 u q) = (V c (Pipeline.arrRef spec1 1) : S1x64.Idx → EReal) (ix2 u q) := by
  obtain ⟨-, -, e0, e1, -⟩ := idx_facts t
  unfold iblk1
  rw [View.read_apply]
  show (V c (Pipeline.arrRef spec1 1) : S1x64.Idx → EReal) _ = _
  refine congrArg _ (funext fun a => Fin.ext ?_)
  match a with
  | ⟨0, _⟩ => show win1_1.index t (0 : Fin 2) * 1 + 1 * u.val = u.val; rw [e0]; omega
  | ⟨1, _⟩ => show win1_1.index t (1 : Fin 2) * 64 + 1 * q.val = q.val; rw [e1]; omega

/-- The variance's one block is the variance array. -/
theorem blk2_apply (c : Dev nD) (t : Fin cfg1.N) (u : Fin 1) (q : Fin 64) :
    (iblk1 V c 2 t : Vec Ideal S1x64 .f32) (ix2 u q) = (V c (Pipeline.arrRef spec1 2) : S1x64.Idx → EReal) (ix2 u q) := by
  obtain ⟨-, -, -, -, e0, e1, -⟩ := idx_facts t
  unfold iblk1
  rw [View.read_apply]
  show (V c (Pipeline.arrRef spec1 2) : S1x64.Idx → EReal) _ = _
  refine congrArg _ (funext fun a => Fin.ext ?_)
  match a with
  | ⟨0, _⟩ => show win1_2.index t (0 : Fin 2) * 1 + 1 * u.val = u.val; rw [e0]; omega
  | ⟨1, _⟩ => show win1_2.index t (1 : Fin 2) * 64 + 1 * q.val = q.val; rw [e1]; omega

/-- The scale's one block is the scale array. -/
theorem blk3_apply (c : Dev nD) (t : Fin cfg1.N) (q : Fin 64) :
    (iblk1 V c 3 t : Vec Ideal S64 .f32) (ix1 q) = (V c (Pipeline.arrRef spec1 3) : S64.Idx → EReal) (ix1 q) := by
  obtain ⟨-, -, -, -, -, -, e0, -⟩ := idx_facts t
  unfold iblk1
  rw [View.read_apply]
  show (V c (Pipeline.arrRef spec1 3) : S64.Idx → EReal) _ = _
  refine congrArg _ (funext fun a => Fin.ext ?_)
  match a with
  | ⟨0, _⟩ => show win1_3.index t (0 : Fin 1) * 64 + 1 * q.val = q.val; rw [e0]; omega

/-- The shift's one block is the shift array. -/
theorem blk4_apply (c : Dev nD) (t : Fin cfg1.N) (q : Fin 64) :
    (iblk1 V c 4 t : Vec Ideal S64 .f32) (ix1 q) = (V c (Pipeline.arrRef spec1 4) : S64.Idx → EReal) (ix1 q) := by
  obtain ⟨-, -, -, -, -, -, -, e0, -⟩ := idx_facts t
  unfold iblk1
  rw [View.read_apply]
  show (V c (Pipeline.arrRef spec1 4) : S64.Idx → EReal) _ = _
  refine congrArg _ (funext fun a => Fin.ext ?_)
  match a with
  | ⟨0, _⟩ => show win1_4.index t (0 : Fin 1) * 64 + 1 * q.val = q.val; rw [e0]; omega

/-- The normalised array: the affine normalisation of the input array by the mean, variance, scale and shift arrays the
    region finds. -/
def result (c : Dev nD) : S200000x64.Idx → EReal :=
  bnAffine (V c (Pipeline.arrRef spec1 0) : S200000x64.Idx → EReal) (V c (Pipeline.arrRef spec1 1) : S1x64.Idx → EReal)
    (V c (Pipeline.arrRef spec1 2) : S1x64.Idx → EReal) (V c (Pipeline.arrRef spec1 3) : S64.Idx → EReal)
    (V c (Pipeline.arrRef spec1 4) : S64.Idx → EReal)

set_option maxHeartbeats 1000000 in
/-- What grid point t writes back is rows 4000 t … 4000 t + 3999 of the normalised array. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz2]
  simp only [View.ld_unit_zero (S := S4000x64) hz2, View.ld_unit_zero (S := S1x64) hz2, View.ld_unit_zero (S := S64) hz1]
  funext j
  obtain ⟨p, q, rfl⟩ : ∃ (p : Fin 4000) (q : Fin 64), j = ix2 p q := ⟨j 0, j 1, eq_ix2 j⟩
  obtain ⟨-, -, -, -, -, -, -, -, e8, e9⟩ := idx_facts t
  have hN : t.val < 50 := lt_of_lt_of_eq t.isLt N_1
  show k1_pay1 (iblk1 V c 0 t) (iblk1 V c 1 t) (iblk1 V c 2 t) (iblk1 V c 3 t) (iblk1 V c 4 t) (ix2 p q)
    = result V c (((cfg1.win 5).blk t).view.emb (ix2 p q))
  refine (AffinePayL1i.affine_apply (iblk1 V c 0 t) (iblk1 V c 1 t) (iblk1 V c 2 t) (iblk1 V c 3 t) (iblk1 V c 4 t) p q).trans ?_
  have hemb : ((cfg1.win 5).blk t).view.emb (ix2 p q) = ix2 (⟨4000 * t.val + p.val, by omega⟩ : Fin 200000) q := by
    funext a; apply Fin.ext
    match a with
    | ⟨0, _⟩ => show win1_5.index t (0 : Fin 2) * 4000 + 1 * p.val = 4000 * t.val + p.val; rw [e8]; omega
    | ⟨1, _⟩ => show win1_5.index t (1 : Fin 2) * 64 + 1 * q.val = q.val; rw [e9]; omega
  rw [hemb]
  unfold result bnAffine bnAffineAt
  rw [blk0_apply V c t p q ⟨4000 * t.val + p.val, by omega⟩ rfl, blk1_apply V c t 0 q, blk2_apply V c t 0 q,
    blk3_apply V c t q, blk4_apply V c t q]

/-- An index of the array is in point t's block iff each coordinate is in the block's range on its axis. -/
theorem mem_blk (t : Fin cfg1.N) (i : S200000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole (Pipeline.arrRef spec1 5)).slice (win1_5.rect t)).set ↔ _
  rw [View.set_slice_whole, Rect.mem_set_unit]
  exact Iff.rfl

/-- Row r of the array lies in the block of point r / 4000. -/
theorem cover (i : S200000x64.Idx) : ∃ t : Fin cfg1.N, (cfg1.win 5).flush t = true ∧ i ∈ ((cfg1.win 5).blk t).view.set := by
  have hi0 : (i 0).val < 200000 := (i 0).isLt
  have hi1 : (i 1).val < 64 := (i 1).isLt
  have hN : cfg1.N = 50 := N_1
  let t : Fin cfg1.N := ⟨(i 0).val / 4000, by rw [hN]; omega⟩
  obtain ⟨-, -, -, -, -, -, -, -, e8, e9⟩ := idx_facts t
  have ht : t.val = (i 0).val / 4000 := rfl
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; rw [e8, ht]; omega
  | ⟨1, _⟩ => show win1_5.index t (1 : Fin 2) * 64 ≤ (i 1).val ∧ (i 1).val < win1_5.index t (1 : Fin 2) * 64 + 64; rw [e9]; omega

/-- The output array after the region is the normalised array. -/
theorem final (c : Dev nD) : (dat1 V c).arrAt 5 cfg1.N = result V c :=
  (dat1 V c).arrAt_eq_of_cover 5 (result V c) (fun t _ => flushed_eq V c t) cover

/-! ## The windows' arrays, by name -/

theorem arr0 : Pipeline.arrRef spec1 0 = main_v18_0 := rfl
theorem arr1 : Pipeline.arrRef spec1 1 = main_v20 := rfl
theorem arr2 : Pipeline.arrRef spec1 2 = main_v24 := rfl
theorem arr3 : Pipeline.arrRef spec1 3 = main_arg11 := rfl
theorem arr4 : Pipeline.arrRef spec1 4 = main_arg12 := rfl
theorem arr5 : Pipeline.arrRef spec1 5 = main_v25 := rfl

end Cert.KernelIdeal.AffineRunL1i

end
-- ==== Proof.MlpPayL1j.lean ====
/- The values the stores of the first device pass of one GIN layer write, read index by index at the ideal values: the
   two-layer perceptron of a [4000, 64] tile of rows (widths 64, 64, 64), its column sums added to a running [1, 64] row, and
   the column sums of its squares added to another.  Rounding to bf16 before each matrix product is the identity at the ideal
   values, a matrix product into the zero block is the plain sum of products, and a sum over the row axis is the sum over
   the tile's 4000 rows. -/
import proofs.«120907_j71768903516484_1_alg».proof.Proof.Gen.KernelIdeal.Skeleton
import proofs.«120907_j71768903516484_1_alg».proof.Proof.GinSpec
import Idealize.ShloMosaic.PureOps.Ideal.Laws
import Idealize.ShloMosaic.Lib.ValueLayout
import Idealize.ShloMosaic.Lib.Pipeline.Value

noncomputable section

open Idealize.ShloMosaic Idealize.ShloMosaic.ValueIdx

namespace Cert.KernelIdeal.MlpPayL1j

open Cert.KernelIdeal Cert.KernelIdeal.Gen Cert.KernelIdeal.GinSpec

/-- The device's matrix product of a [4000, 64] block by a [64, 64] matrix into the zero block, read at row r and column c:
    the sum over the contracted coordinate of the products of the entries. -/
theorem matmul1_at {φ₁ φ₂ : FTy} (lhs : FVec Ideal S4000x64 φ₁) (rhs : FVec Ideal S64x64 φ₂) (r : Fin 4000) (c : Fin 64) :
    matmul dot_S4000x64_S64x64_S4000x64_1_0_0_1_n_n none lhs rhs (constant (F := Ideal) S4000x64 .f32 0x00000000#32) (ix2 r c)
      = ∑ k : Fin 64, lhs (ix2 r k) * rhs (ix2 k c) := by
  show FloatOps.matmul _ none lhs rhs (constant (F := Ideal) S4000x64 .f32 0x00000000#32) (ix2 r c) = _
  rw [Ideal.matmul_constant_zero_apply, ← Equiv.sum_comp (contrEquiv1 dot_S4000x64_S64x64_S4000x64_1_0_0_1_n_n 64 rfl rfl).symm]
  refine Finset.sum_congr rfl fun k _ => ?_
  have c2 := contrEquiv1_symm_val dot_S4000x64_S64x64_S4000x64_1_0_0_1_n_n 64 rfl rfl k
  have l2 : dot_S4000x64_S64x64_S4000x64_1_0_0_1_n_n.lhsIdx (ix2 r c) ((contrEquiv1 _ 64 rfl rfl).symm k) = ix2 r k := by
    funext ax; apply Fin.ext
    match ax with
    | ⟨0, _⟩ => simp [DotDims.lhsIdx, dot_S4000x64_S64x64_S4000x64_1_0_0_1_n_n]; rfl
    | ⟨1, _⟩ => simp [DotDims.lhsIdx, dot_S4000x64_S64x64_S4000x64_1_0_0_1_n_n]; exact c2
  have r2 : dot_S4000x64_S64x64_S4000x64_1_0_0_1_n_n.rhsIdx (ix2 r c) ((contrEquiv1 _ 64 rfl rfl).symm k) = ix2 k c := by
    funext ax; apply Fin.ext
    match ax with
    | ⟨0, _⟩ => simp [DotDims.rhsIdx, dot_S4000x64_S64x64_S4000x64_1_0_0_1_n_n]; exact c2
    | ⟨1, _⟩ => simp [DotDims.rhsIdx, dot_S4000x64_S64x64_S4000x64_1_0_0_1_n_n]; rfl
  rw [l2, r2]

/-- The device's matrix product of a [4000, 64] block by a [64, 64] matrix into the zero block, read at row r and column c:
    the sum over the contracted coordinate of the products of the entries. -/
theorem matmul2_at {φ₁ φ₂ : FTy} (lhs : FVec Ideal S4000x64 φ₁) (rhs : FVec Ideal S64x64 φ₂) (r : Fin 4000) (c : Fin 64) :
    matmul dot_S4000x64_S64x64_S4000x64_1_0_0_1_n_n none lhs rhs (constant (F := Ideal) S4000x64 .f32 0x00000000#32) (ix2 r c)
      = ∑ k : Fin 64, lhs (ix2 r k) * rhs (ix2 k c) := by
  show FloatOps.matmul _ none lhs rhs (constant (F := Ideal) S4000x64 .f32 0x00000000#32) (ix2 r c) = _
  rw [Ideal.matmul_constant_zero_apply, ← Equiv.sum_comp (contrEquiv1 dot_S4000x64_S64x64_S4000x64_1_0_0_1_n_n 64 rfl rfl).symm]
  refine Finset.sum_congr rfl fun k _ => ?_
  have c2 := contrEquiv1_symm_val dot_S4000x64_S64x64_S4000x64_1_0_0_1_n_n 64 rfl rfl k
  have l2 : dot_S4000x64_S64x64_S4000x64_1_0_0_1_n_n.lhsIdx (ix2 r c) ((contrEquiv1 _ 64 rfl rfl).symm k) = ix2 r k := by
    funext ax; apply Fin.ext
    match ax with
    | ⟨0, _⟩ => simp [DotDims.lhsIdx, dot_S4000x64_S64x64_S4000x64_1_0_0_1_n_n]; rfl
    | ⟨1, _⟩ => simp [DotDims.lhsIdx, dot_S4000x64_S64x64_S4000x64_1_0_0_1_n_n]; exact c2
  have r2 : dot_S4000x64_S64x64_S4000x64_1_0_0_1_n_n.rhsIdx (ix2 r c) ((contrEquiv1 _ 64 rfl rfl).symm k) = ix2 k c := by
    funext ax; apply Fin.ext
    match ax with
    | ⟨0, _⟩ => simp [DotDims.rhsIdx, dot_S4000x64_S64x64_S4000x64_1_0_0_1_n_n]; exact c2
    | ⟨1, _⟩ => simp [DotDims.rhsIdx, dot_S4000x64_S64x64_S4000x64_1_0_0_1_n_n]; rfl
  rw [l2, r2]

/-- The tile's perceptron output at row r, column c. -/
theorem mlp_apply (v3 : Vec Ideal S4000x64 .f32) (v5 : Vec Ideal S64x64 .f32) (v9 : Vec Ideal S64 .f32)
    (v15 : Vec Ideal S64x64 .f32) (v19 : Vec Ideal S64 .f32) (r : Fin 4000) (c : Fin 64) :
    k2_pay4 v3 v5 v9 v15 v19 (ix2 r c) = mlpAt v3 v5 v9 v15 v19 r c := by
  unfold k2_pay4 mlpAt
  rw [addf_apply, matmul2_at, broadcastTo_1b_ab_apply, shapeCast_a_1a_apply]
  refine congrArg (· + v19 (ix1 c)) (Finset.sum_congr rfl fun q _ => ?_)
  rw [truncf_apply, truncf_apply, maximumf_apply, addf_apply, matmul1_at, broadcastTo_1b_ab_apply, shapeCast_a_1a_apply,
    broadcast_apply]
  simp only [truncf_apply, shapeCast_self]
  rw [Ideal.ofBits_def, Ideal.ofBits_zero_f32]

/-- A sum over the row axis of a [4000, 64] block, read at column c, is the sum of the column's 4000 entries. -/
theorem colsum_at (src : FVec Ideal S4000x64 .f32) (h : S4000x64.Reduces [0] S64) (hφ : FKind.Formats .f32)
    (hacc : (0x00000000#32 : BitVec 32) = 0x00000000#32) (c : Fin 64) :
    multiReduction (F := Ideal) .add [0] S64 src 0x00000000#32 h hφ hacc (ix1 c) = ∑ k : Fin 4000, src (ix2 k c) :=
  (Ideal.multiReduction_add_single src 0x00000000#32 h hφ hacc (ix1 c)).trans
    (Finset.sum_congr rfl fun k _ => congrArg src (funext fun a => Fin.ext (by
      match a with
      | ⟨0, _⟩ => rfl
      | ⟨1, _⟩ => rfl)))

/-- The running row of column sums after the tile: what it held plus the tile's column sums of the perceptron output. -/
theorem sum_apply (v3 : Vec Ideal S4000x64 .f32) (v5 : Vec Ideal S64x64 .f32) (v9 : Vec Ideal S64 .f32)
    (v15 : Vec Ideal S64x64 .f32) (v19 : Vec Ideal S64 .f32) (v24 : Vec Ideal S1x64 .f32) (u : Fin 1) (c : Fin 64) :
    k2_pay5 v3 v5 v9 v15 v19 v24 (ix2 u c) = v24 (ix2 u c) + ∑ k : Fin 4000, mlpAt v3 v5 v9 v15 v19 k c := by
  unfold k2_pay5
  rw [addf_apply, shapeCast_self, shapeCast_a_1a_apply, colsum_at]
  exact congrArg (v24 (ix2 u c) + ·) (Finset.sum_congr rfl fun k _ => mlp_apply v3 v5 v9 v15 v19 k c)

/-- A running row plus the column sums of a block. -/
theorem acc_apply (v31 : FVec Ideal S1x64 .f32) (v32 : FVec Ideal S4000x64 .f32) (u : Fin 1) (c : Fin 64) :
    k2_pay1 v31 v32 (ix2 u c) = v31 (ix2 u c) + ∑ k : Fin 4000, v32 (ix2 k c) := by
  unfold k2_pay1
  rw [addf_apply, shapeCast_a_1a_apply, colsum_at]

theorem carried_eq (v30 : Vec Ideal S1x64 .f32) : k2_pay6 v30 = v30 := by
  unfold k2_pay6
  rw [shapeCast_self]

/-- The squares of the tile's perceptron output. -/
theorem sq_apply (v3 : Vec Ideal S4000x64 .f32) (v5 : Vec Ideal S64x64 .f32) (v9 : Vec Ideal S64 .f32)
    (v15 : Vec Ideal S64x64 .f32) (v19 : Vec Ideal S64 .f32) (r : Fin 4000) (c : Fin 64) :
    k2_pay7 v3 v5 v9 v15 v19 (ix2 r c) = mlpAt v3 v5 v9 v15 v19 r c * mlpAt v3 v5 v9 v15 v19 r c := by
  unfold k2_pay7
  rw [mulf_apply, mlp_apply]

/-- The running row of sums of squares after the tile. -/
theorem sumsq_apply (v3 : Vec Ideal S4000x64 .f32) (v5 : Vec Ideal S64x64 .f32) (v9 : Vec Ideal S64 .f32)
    (v15 : Vec Ideal S64x64 .f32) (v19 : Vec Ideal S64 .f32) (v30 : Vec Ideal S1x64 .f32) (u : Fin 1) (c : Fin 64) :
    k2_pay1 (k2_pay6 v30) (k2_pay7 v3 v5 v9 v15 v19) (ix2 u c)
      = v30 (ix2 u c) + ∑ k : Fin 4000, mlpAt v3 v5 v9 v15 v19 k c * mlpAt v3 v5 v9 v15 v19 k c := by
  rw [acc_apply, carried_eq]
  exact congrArg (v30 (ix2 u c) + ·) (Finset.sum_congr rfl fun k _ => sq_apply v3 v5 v9 v15 v19 k c)

/-- The two zero rows the first grid point stores. -/
theorem zero_sum_apply (j : S1x64.Idx) : k2_pay2 (F := Ideal) j = 0 := by
  unfold k2_pay2
  rw [broadcast_apply]
  exact Ideal.ofBits_zero_f32

theorem zero_sumsq_apply (j : S1x64.Idx) : k2_pay3 (F := Ideal) j = 0 := by
  unfold k2_pay3
  rw [broadcast_apply]
  exact Ideal.ofBits_zero_f32

end Cert.KernelIdeal.MlpPayL1j

end
-- ==== Proof.MlpRunL1j.lean ====
/- The three arrays the first device pass of one GIN layer leaves (region 2: [200000, 64] rows in 50 tiles of 4000, widths
   64, 64, 64), for any contents of the device's buffers when the region is entered.  Each control case's stores are read as
   values of the point's input blocks; the tile window's block at point t is rows 4000 t … 4000 t + 3999 of the array and
   the other input windows' one block is their whole array; so the tile output is the two-layer perceptron of the input
   array row by row, and, by induction over the grid points (the first point zeroes the two running rows, every point
   adds its tile's column sums), after the last point the two [1, 64] rows hold the column sums of the perceptron output
   and of its squares, tile after tile. -/
import proofs.«120907_j71768903516484_1_alg».proof.Proof.KIFrameP
import proofs.«120907_j71768903516484_1_alg».proof.Proof.MlpPayL1j
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MlpRunL1j

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## What each control case leaves in the three output buffers, as the stores' values -/

/-- At the first grid point the tile's perceptron output is stored. -/
theorem outA5_eq (c : Dev nD) (i : grid2.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : cond2_0 i) (x0 : Vec Ideal S4000x64 .f32) (x1 : Vec Ideal S64x64 .f32) (x2 : Vec Ideal S64 .f32) (x3 : Vec Ideal S64x64 .f32) (x4 : Vec Ideal S64 .f32) :
    out2_A_5 c i arg1 harg1 arg2 harg2 arg3 harg3 arg4 harg4 arg5 harg5 arg6 harg6 arg7 harg7 arg8 harg8 hc0 x0 x1 x2 x3 x4 = k2_pay4 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1]

/-- At the first grid point the row of column sums is zeroed, then the tile's column sums are added to it. -/
theorem outA6_eq (c : Dev nD) (i : grid2.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : cond2_0 i) (x0 : Vec Ideal S4000x64 .f32) (x1 : Vec Ideal S64x64 .f32) (x2 : Vec Ideal S64 .f32) (x3 : Vec Ideal S64x64 .f32) (x4 : Vec Ideal S64 .f32) :
    out2_A_6 c i arg1 harg1 arg2 harg2 arg3 harg3 arg4 harg4 arg5 harg5 arg6 harg6 arg7 harg7 arg8 harg8 hc0 x0 x1 x2 x3 x4 = k2_pay5 x0 x1 x2 x3 x4 (k2_pay2 (F := Ideal)) := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1]

/-- At the first grid point the row of sums of squares is zeroed, then the tile's sums of squares are added to it. -/
theorem outA7_eq (c : Dev nD) (i : grid2.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : cond2_0 i) (x0 : Vec Ideal S4000x64 .f32) (x1 : Vec Ideal S64x64 .f32) (x2 : Vec Ideal S64 .f32) (x3 : Vec Ideal S64x64 .f32) (x4 : Vec Ideal S64 .f32) :
    out2_A_7 c i arg1 harg1 arg2 harg2 arg3 harg3 arg4 harg4 arg5 harg5 arg6 harg6 arg7 harg7 arg8 harg8 hc0 x0 x1 x2 x3 x4 = k2_pay1 (k2_pay6 (k2_pay3 (F := Ideal))) (k2_pay7 x0 x1 x2 x3 x4) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1]

/-- At a later grid point the tile's perceptron output is stored. -/
theorem outB5_eq (c : Dev nD) (i : grid2.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i) (x0 : Vec Ideal S4000x64 .f32) (x1 : Vec Ideal S64x64 .f32) (x2 : Vec Ideal S64 .f32) (x3 : Vec Ideal S64x64 .f32) (x4 : Vec Ideal S64 .f32) (xo6 xo7 : Vec Ideal S1x64 .f32) :
    out2_B_5 c i arg1 harg1 arg2 harg2 arg3 harg3 arg4 harg4 arg5 harg5 arg6 harg6 arg7 harg7 arg8 harg8 hc0 x0 x1 x2 x3 x4 xo6 xo7 = k2_pay4 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1, harg7.read_unread, harg8.read_unread, View.ld_unit_zero (S := S1x64) hz2]

/-- At a later grid point the tile's column sums are added to the row the point before left. -/
theorem outB6_eq (c : Dev nD) (i : grid2.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i) (x0 : Vec Ideal S4000x64 .f32) (x1 : Vec Ideal S64x64 .f32) (x2 : Vec Ideal S64 .f32) (x3 : Vec Ideal S64x64 .f32) (x4 : Vec Ideal S64 .f32) (xo6 xo7 : Vec Ideal S1x64 .f32) :
    out2_B_6 c i arg1 harg1 arg2 harg2 arg3 harg3 arg4 harg4 arg5 harg5 arg6 harg6 arg7 harg7 arg8 harg8 hc0 x0 x1 x2 x3 x4 xo6 xo7 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1, harg7.read_unread, harg8.read_unread, View.ld_unit_zero (S := S1x64) hz2]

/-- At a later grid point the tile's sums of squares are added to the row the point before left. -/
theorem outB7_eq (c : Dev nD) (i : grid2.Coords) (arg1 : Memref sig .tc .vmem S4000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S64 .f32) (harg5 : arg5.IsWhole) (arg6 : Memref sig .tc .vmem S4000x64 .f32) (harg6 : arg6.IsWhole) (arg7 : Memref sig .tc .vmem S1x64 .f32) (harg7 : arg7.IsWhole) (arg8 : Memref sig .tc .vmem S1x64 .f32) (harg8 : arg8.IsWhole) (hc0 : ¬cond2_0 i) (x0 : Vec Ideal S4000x64 .f32) (x1 : Vec Ideal S64x64 .f32) (x2 : Vec Ideal S64 .f32) (x3 : Vec Ideal S64x64 .f32) (x4 : Vec Ideal S64 .f32) (xo6 xo7 : Vec Ideal S1x64 .f32) :
    out2_B_7 c i arg1 harg1 arg2 harg2 arg3 harg3 arg4 harg4 arg5 harg5 arg6 harg6 arg7 harg7 arg8 harg8 hc0 x0 x1 x2 x3 x4 xo6 xo7 = k2_pay1 (k2_pay6 xo7) (k2_pay7 x0 x1 x2 x3 x4) := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x64) hz2, View.ld_unit_zero (S := S64) hz1, View.ld_unit_zero (S := S64x64) hz2, View.ld_unit_zero (S := S64) hz1, harg7.read_unread, harg8.read_unread, View.ld_unit_zero (S := S1x64) hz2]

/-! ## The windows' blocks as parts of the arrays -/

/-- The printed index maps over the grid: the two tile windows (input 0, output 5) sit at block (t, 0); the weights, the
    biases and the two running rows at block 0. -/
structure IdxFacts (t : Fin cfg2.N) : Prop where
  w0a : win2_0.index t (0 : Fin 2) = t.val
  w0b : win2_0.index t (1 : Fin 2) = 0
  w1a : win2_1.index t (0 : Fin 2) = 0
  w1b : win2_1.index t (1 : Fin 2) = 0
  w2a : win2_2.index t (0 : Fin 1) = 0
  w3a : win2_3.index t (0 : Fin 2) = 0
  w3b : win2_3.index t (1 : Fin 2) = 0
  w4a : win2_4.index t (0 : Fin 1) = 0
  w5a : win2_5.index t (0 : Fin 2) = t.val
  w5b : win2_5.index t (1 : Fin 2) = 0
  w6a : win2_6.index t (0 : Fin 2) = 0
  w6b : win2_6.index t (1 : Fin 2) = 0
  w7a : win2_7.index t (0 : Fin 2) = 0
  w7b : win2_7.index t (1 : Fin 2) = 0

theorem idx_facts : ∀ t : Fin cfg2.N, IdxFacts t :=
  fun t => by
    have h : ∀ t : Fin cfg2.N,
        win2_0.index t (0 : Fin 2) = t.val ∧ win2_0.index t (1 : Fin 2) = 0
        ∧ win2_1.index t (0 : Fin 2) = 0 ∧ win2_1.index t (1 : Fin 2) = 0
        ∧ win2_2.index t (0 : Fin 1) = 0
        ∧ win2_3.index t (0 : Fin 2) = 0 ∧ win2_3.index t (1 : Fin 2) = 0
        ∧ win2_4.index t (0 : Fin 1) = 0
        ∧ win2_5.index t (0 : Fin 2) = t.val ∧ win2_5.index t (1 : Fin 2) = 0
        ∧ win2_6.index t (0 : Fin 2) = 0 ∧ win2_6.index t (1 : Fin 2) = 0
        ∧ win2_7.index t (0 : Fin 2) = 0 ∧ win2_7.index t (1 : Fin 2) = 0 :=
      (by decide +kernel : ∀ t : Fin grid2.N, _)
    obtain ⟨h0, h1, h2, h3, h4, h5, h6, h7, h8, h9, h10, h11, h12, h13⟩ := h t
    exact ⟨h0, h1, h2, h3, h4, h5, h6, h7, h8, h9, h10, h11, h12, h13⟩

/-- Row p of the input tile at point t is row 4000 t + p of the input array. -/
theorem blk0_apply (c : Dev nD) (t : Fin cfg2.N) (p : Fin 4000) (q : Fin 64) (k : Fin 200000) (hk : k.val = 4000 * t.val + p.val) :
    (iblk2 V c 0 t : Vec Ideal S4000x64 .f32) (ix2 p q) = (V c (Pipeline.arrRef spec2 0) : S200000x64.Idx → EReal) (ix2 k q) := by
  have e := idx_facts t
  unfold iblk2
  rw [View.read_apply]
  show (V c (Pipeline.arrRef spec2 0) : S200000x64.Idx → EReal) _ = _
  refine congrArg _ (funext fun ax => Fin.ext ?_)
  match ax with
  | ⟨0, _⟩ => show win2_0.index t (0 : Fin 2) * 4000 + 1 * p.val = k.val; rw [e.w0a, hk]; omega
  | ⟨1, _⟩ => show win2_0.index t (1 : Fin 2) * 64 + 1 * q.val = q.val; rw [e.w0b]; omega

/-- The first weight matrix's one block is the whole array. -/
theorem blk1_apply (c : Dev nD) (t : Fin cfg2.N) (a : Fin 64) (b : Fin 64) :
    (iblk2 V c 1 t : Vec Ideal S64x64 .f32) (ix2 a b) = (V c (Pipeline.arrRef spec2 1) : S64x64.Idx → EReal) (ix2 a b) := by
  have e := idx_facts t
  unfold iblk2
  rw [View.read_apply]
  show (V c (Pipeline.arrRef spec2 1) : S64x64.Idx → EReal) _ = _
  refine congrArg _ (funext fun ax => Fin.ext ?_)
  match ax with
  | ⟨0, _⟩ => show win2_1.index t (0 : Fin 2) * 64 + 1 * a.val = a.val; rw [e.w1a]; omega
  | ⟨1, _⟩ => show win2_1.index t (1 : Fin 2) * 64 + 1 * b.val = b.val; rw [e.w1b]; omega

/-- The first bias vector's one block is the whole array. -/
theorem blk2_apply (c : Dev nD) (t : Fin cfg2.N) (a : Fin 64) :
    (iblk2 V c 2 t : Vec Ideal S64 .f32) (ix1 a) = (V c (Pipeline.arrRef spec2 2) : S64.Idx → EReal) (ix1 a) := by
  have e := idx_facts t
  unfold iblk2
  rw [View.read_apply]
  show (V c (Pipeline.arrRef spec2 2) : S64.Idx → EReal) _ = _
  refine congrArg _ (funext fun ax => Fin.ext ?_)
  match ax with
  | ⟨0, _⟩ => show win2_2.index t (0 : Fin 1) * 64 + 1 * a.val = a.val; rw [e.w2a]; omega

/-- The second weight matrix's one block is the whole array. -/
theorem blk3_apply (c : Dev nD) (t : Fin cfg2.N) (a : Fin 64) (b : Fin 64) :
    (iblk2 V c 3 t : Vec Ideal S64x64 .f32) (ix2 a b) = (V c (Pipeline.arrRef spec2 3) : S64x64.Idx → EReal) (ix2 a b) := by
  have e := idx_facts t
  unfold iblk2
  rw [View.read_apply]
  show (V c (Pipeline.arrRef spec2 3) : S64x64.Idx → EReal) _ = _
  refine congrArg _ (funext fun ax => Fin.ext ?_)
  match ax with
  | ⟨0, _⟩ => show win2_3.index t (0 : Fin 2) * 64 + 1 * a.val = a.val; rw [e.w3a]; omega
  | ⟨1, _⟩ => show win2_3.index t (1 : Fin 2) * 64 + 1 * b.val = b.val; rw [e.w3b]; omega

/-- The second bias vector's one block is the whole array. -/
theorem blk4_apply (c : Dev nD) (t : Fin cfg2.N) (a : Fin 64) :
    (iblk2 V c 4 t : Vec Ideal S64 .f32) (ix1 a) = (V c (Pipeline.arrRef spec2 4) : S64.Idx → EReal) (ix1 a) := by
  have e := idx_facts t
  unfold iblk2
  rw [View.read_apply]
  show (V c (Pipeline.arrRef spec2 4) : S64.Idx → EReal) _ = _
  refine congrArg _ (funext fun ax => Fin.ext ?_)
  match ax with
  | ⟨0, _⟩ => show win2_4.index t (0 : Fin 1) * 64 + 1 * a.val = a.val; rw [e.w4a]; omega

/-! ## The three results -/

/-- The perceptron of the input array by the weights and biases the region finds, at a row and a column. -/
def H (c : Dev nD) : Fin 200000 → Fin 64 → EReal :=
  mlpAt (V c (Pipeline.arrRef spec2 0) : S200000x64.Idx → EReal)
    (V c (Pipeline.arrRef spec2 1) : S64x64.Idx → EReal)
    (V c (Pipeline.arrRef spec2 2) : S64.Idx → EReal)
    (V c (Pipeline.arrRef spec2 3) : S64x64.Idx → EReal)
    (V c (Pipeline.arrRef spec2 4) : S64.Idx → EReal)

/-- Window 5: the perceptron output, row by row. -/
def resultMlp (c : Dev nD) : S200000x64.Idx → EReal := fun i => H V c (i 0) (i 1)

/-- Window 6: its column sums over the 50 tiles of 4000 rows. -/
def resultSum (c : Dev nD) : S1x64.Idx → EReal :=
  fun i => colSumAt 50 4000 (by decide : 50 * 4000 = 200000) (H V c) (i 1)

/-- Window 7: the column sums of its squares. -/
def resultSumSq (c : Dev nD) : S1x64.Idx → EReal :=
  fun i => colSumAt 50 4000 (by decide : 50 * 4000 = 200000) (fun r q => H V c r q * H V c r q) (i 1)

/-- The perceptron of tile t at its row p is the perceptron of the array at row 4000 t + p. -/
theorem tile_mlp (c : Dev nD) (t : Fin cfg2.N) (ht : t.val < 50) (p : Fin 4000) (q : Fin 64) :
    mlpAt (iblk2 V c 0 t : Vec Ideal S4000x64 .f32) (iblk2 V c 1 t : Vec Ideal S64x64 .f32) (iblk2 V c 2 t : Vec Ideal S64 .f32) (iblk2 V c 3 t : Vec Ideal S64x64 .f32) (iblk2 V c 4 t : Vec Ideal S64 .f32) p q
      = H V c (tileRow (T := 50) (R := 4000) (n := 200000) (by decide) ⟨t.val, ht⟩ p) q :=
  mlpAt_congr q (fun a => blk0_apply V c t p a _ rfl) (fun a b => blk1_apply V c t a b) (fun b => blk2_apply V c t b)
    (fun a b => blk3_apply V c t a b) (fun b => blk4_apply V c t b)

/-! ## The output buffers after each grid point -/

/-- After any grid point the tile buffer holds the perceptron of the point's tile. -/
theorem out5_eq (c : Dev nD) (t : Fin cfg2.N) :
    (outsAt2 V c t.val t.isLt).1 = k2_pay4 (iblk2 V c 0 t : Vec Ideal S4000x64 .f32) (iblk2 V c 1 t : Vec Ideal S64x64 .f32) (iblk2 V c 2 t : Vec Ideal S64 .f32) (iblk2 V c 3 t : Vec Ideal S64x64 .f32) (iblk2 V c 4 t : Vec Ideal S64 .f32) := by
  by_cases h0 : t.val % 50 = 0
  · rw [outsAt2_A V c t h0]
    dsimp only
    exact outA5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · rw [outsAt2_B V c t h0]
    dsimp only
    exact outB5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _

/-- After grid point n the row of column sums holds the parts of tiles 0 … n, added in that order. -/
theorem sums_eq (c : Dev nD) : ∀ (n : ℕ) (h : n < cfg2.N),
    (outsAt2 V c n h).2.1
      = (fun j : S1x64.Idx => ∑ k ∈ Finset.range (n + 1), tileSum 50 4000 (by decide : 50 * 4000 = 200000) (H V c) k (j 1))
  | 0, h => by
    refine (congrArg (fun z => z.2.1) (outsAt2_A V c ⟨0, h⟩ (Nat.zero_mod _))).trans ?_
    dsimp only
    rw [outA6_eq]
    funext j
    obtain ⟨u, q, rfl⟩ : ∃ (u : Fin 1) (q : Fin 64), j = ix2 u q := ⟨j 0, j 1, eq_ix2 j⟩
    refine (MlpPayL1j.sum_apply _ _ _ _ _ _ u q).trans ?_
    rw [MlpPayL1j.zero_sum_apply, zero_add, Finset.sum_range_one, tileSum_of_lt 50 4000 _ _ (by decide : 0 < 50)]
    exact Finset.sum_congr rfl fun p _ => tile_mlp V c ⟨0, h⟩ (Nat.succ_pos 49) p q
  | n + 1, h => by
    have hN : n + 1 < 50 := lt_of_lt_of_eq h N_2
    have hB : ¬(⟨n + 1, h⟩ : Fin cfg2.N).val % 50 = 0 := by dsimp only; omega
    refine (congrArg (fun z => z.2.1) (outsAt2_B V c ⟨n + 1, h⟩ hB)).trans ?_
    dsimp only
    rw [outB6_eq]
    funext j
    obtain ⟨u, q, rfl⟩ : ∃ (u : Fin 1) (q : Fin 64), j = ix2 u q := ⟨j 0, j 1, eq_ix2 j⟩
    refine (MlpPayL1j.sum_apply _ _ _ _ _ _ u q).trans ?_
    rw [Finset.sum_range_succ _ (n + 1), tileSum_of_lt 50 4000 _ _ hN]
    refine congrArg₂ (· + ·) ?_ (Finset.sum_congr rfl fun p _ => tile_mlp V c ⟨n + 1, h⟩ hN p q)
    exact congrFun (sums_eq c n (Nat.lt_of_succ_lt h)) (ix2 u q)

/-- After grid point n the row of sums of squares holds the parts of tiles 0 … n, added in that order. -/
theorem sumsqs_eq (c : Dev nD) : ∀ (n : ℕ) (h : n < cfg2.N),
    (outsAt2 V c n h).2.2
      = (fun j : S1x64.Idx => ∑ k ∈ Finset.range (n + 1),
          tileSum 50 4000 (by decide : 50 * 4000 = 200000) (fun r q => H V c r q * H V c r q) k (j 1))
  | 0, h => by
    refine (congrArg (fun z => z.2.2) (outsAt2_A V c ⟨0, h⟩ (Nat.zero_mod _))).trans ?_
    dsimp only
    rw [outA7_eq]
    funext j
    obtain ⟨u, q, rfl⟩ : ∃ (u : Fin 1) (q : Fin 64), j = ix2 u q := ⟨j 0, j 1, eq_ix2 j⟩
    refine (MlpPayL1j.sumsq_apply _ _ _ _ _ _ u q).trans ?_
    rw [MlpPayL1j.zero_sumsq_apply, zero_add, Finset.sum_range_one, tileSum_of_lt 50 4000 _ _ (by decide : 0 < 50)]
    exact Finset.sum_congr rfl fun p _ => by rw [tile_mlp V c ⟨0, h⟩ (Nat.succ_pos 49) p q]
  | n + 1, h => by
    have hN : n + 1 < 50 := lt_of_lt_of_eq h N_2
    have hB : ¬(⟨n + 1, h⟩ : Fin cfg2.N).val % 50 = 0 := by dsimp only; omega
    refine (congrArg (fun z => z.2.2) (outsAt2_B V c ⟨n + 1, h⟩ hB)).trans ?_
    dsimp only
    rw [outB7_eq]
    funext j
    obtain ⟨u, q, rfl⟩ : ∃ (u : Fin 1) (q : Fin 64), j = ix2 u q := ⟨j 0, j 1, eq_ix2 j⟩
    refine (MlpPayL1j.sumsq_apply _ _ _ _ _ _ u q).trans ?_
    rw [Finset.sum_range_succ _ (n + 1), tileSum_of_lt 50 4000 _ _ hN]
    refine congrArg₂ (· + ·) ?_ (Finset.sum_congr rfl fun p _ => by rw [tile_mlp V c ⟨n + 1, h⟩ hN p q])
    exact congrFun (sumsqs_eq c n (Nat.lt_of_succ_lt h)) (ix2 u q)

/-! ## From the buffers to the arrays -/

/-- What grid point t writes back of window 5 is rows 4000 t … 4000 t + 3999 of the perceptron output. -/
theorem flushed5_eq (c : Dev nD) (t : Fin cfg2.N) :
    (dat2 V c).flushed 5 t = ((cfg2.win 5).blk t).view.read (Elt Ideal) (resultMlp V c) := by
  have hN : t.val < 50 := lt_of_lt_of_eq t.isLt N_2
  have e := idx_facts t
  show (cfg2.win 5).cut (grid2.coords t) ((dat2 V c).after 5 t) = _
  rw [after2_5, out5_eq]
  funext j
  obtain ⟨p, q, rfl⟩ : ∃ (p : Fin 4000) (q : Fin 64), j = ix2 p q := ⟨j 0, j 1, eq_ix2 j⟩
  show k2_pay4 (iblk2 V c 0 t : Vec Ideal S4000x64 .f32) (iblk2 V c 1 t : Vec Ideal S64x64 .f32) (iblk2 V c 2 t : Vec Ideal S64 .f32) (iblk2 V c 3 t : Vec Ideal S64x64 .f32) (iblk2 V c 4 t : Vec Ideal S64 .f32) (ix2 p q)
    = resultMlp V c (((cfg2.win 5).blk t).view.emb (ix2 p q))
  refine (MlpPayL1j.mlp_apply (iblk2 V c 0 t : Vec Ideal S4000x64 .f32) (iblk2 V c 1 t : Vec Ideal S64x64 .f32) (iblk2 V c 2 t : Vec Ideal S64 .f32) (iblk2 V c 3 t : Vec Ideal S64x64 .f32) (iblk2 V c 4 t : Vec Ideal S64 .f32) p q).trans ?_
  have hemb : ((cfg2.win 5).blk t).view.emb (ix2 p q)
      = ix2 (tileRow (T := 50) (R := 4000) (n := 200000) (by decide) ⟨t.val, hN⟩ p) q := by
    funext a; apply Fin.ext
    match a with
    | ⟨0, _⟩ => show win2_5.index t (0 : Fin 2) * 4000 + 1 * p.val = 4000 * t.val + p.val; rw [e.w5a]; omega
    | ⟨1, _⟩ => show win2_5.index t (1 : Fin 2) * 64 + 1 * q.val = q.val; rw [e.w5b]; omega
  rw [hemb]
  exact tile_mlp V c t hN p q

theorem mem_blk5 (t : Fin cfg2.N) (i : S200000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole (Pipeline.arrRef spec2 5)).slice (win2_5.rect t)).set ↔ _
  rw [View.set_slice_whole, Rect.mem_set_unit]
  exact Iff.rfl

/-- Row r of the array lies in the block of point r / 4000. -/
theorem cover5 (i : S200000x64.Idx) : ∃ t : Fin cfg2.N, (cfg2.win 5).flush t = true ∧ i ∈ ((cfg2.win 5).blk t).view.set := by
  have hi0 : (i 0).val < 200000 := (i 0).isLt
  have hi1 : (i 1).val < 64 := (i 1).isLt
  have hN : cfg2.N = 50 := N_2
  let t : Fin cfg2.N := ⟨(i 0).val / 4000, by rw [hN]; omega⟩
  have e := idx_facts t
  have ht : t.val = (i 0).val / 4000 := rfl
  refine ⟨t, flush2_5 t, ?_⟩
  rw [mem_blk5]
  intro a
  match a with
  | ⟨0, _⟩ => show win2_5.index t (0 : Fin 2) * 4000 ≤ (i 0).val ∧ (i 0).val < win2_5.index t (0 : Fin 2) * 4000 + 4000; rw [e.w5a, ht]; omega
  | ⟨1, _⟩ => show win2_5.index t (1 : Fin 2) * 64 ≤ (i 1).val ∧ (i 1).val < win2_5.index t (1 : Fin 2) * 64 + 64; rw [e.w5b]; omega

/-- Window 5's array after the region is the perceptron output. -/
theorem final5 (c : Dev nD) : (dat2 V c).arrAt 5 cfg2.N = resultMlp V c :=
  (dat2 V c).arrAt_eq_of_cover 5 (resultMlp V c) (fun t _ => flushed5_eq V c t) cover5

/-- The one write-back of window 6, after the last grid point, writes the column sums. -/
theorem flushed6_eq (c : Dev nD) (t : Fin cfg2.N) (hf : (cfg2.win 6).flush t = true) :
    (dat2 V c).flushed 6 t = ((cfg2.win 6).blk t).view.read (Elt Ideal) (resultSum V c) := by
  have hN : t.val < 50 := lt_of_lt_of_eq t.isLt N_2
  have h49 : t.val = 49 := by have := (flush2_6 t).mp hf; omega
  have e := idx_facts t
  show (cfg2.win 6).cut (grid2.coords t) ((dat2 V c).after 6 t) = _
  rw [after2_6, sums_eq V c t.val t.isLt]
  funext j
  obtain ⟨u, q, rfl⟩ : ∃ (u : Fin 1) (q : Fin 64), j = ix2 u q := ⟨j 0, j 1, eq_ix2 j⟩
  show (∑ k ∈ Finset.range (t.val + 1), tileSum 50 4000 (by decide : 50 * 4000 = 200000) (H V c) k q)
    = resultSum V c (((cfg2.win 6).blk t).view.emb (ix2 u q))
  have hemb : ((cfg2.win 6).blk t).view.emb (ix2 u q) = ix2 u q := by
    funext a; apply Fin.ext
    match a with
    | ⟨0, _⟩ => show win2_6.index t (0 : Fin 2) * 1 + 1 * u.val = u.val; rw [e.w6a]; omega
    | ⟨1, _⟩ => show win2_6.index t (1 : Fin 2) * 64 + 1 * q.val = q.val; rw [e.w6b]; omega
  rw [hemb, h49]
  exact (colSumAt_eq_range 50 4000 _ (H V c) q).symm

theorem mem_blk6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole (Pipeline.arrRef spec2 6)).slice (win2_6.rect t)).set ↔ _
  rw [View.set_slice_whole, Rect.mem_set_unit]
  exact Iff.rfl

/-- The last grid point's block is the whole [1, 64] array. -/
theorem cover6 (i : S1x64.Idx) : ∃ t : Fin cfg2.N, (cfg2.win 6).flush t = true ∧ i ∈ ((cfg2.win 6).blk t).view.set := by
  have hi0 : (i 0).val < 1 := (i 0).isLt
  have hi1 : (i 1).val < 64 := (i 1).isLt
  have hN : cfg2.N = 50 := N_2
  let t : Fin cfg2.N := ⟨49, by rw [hN]; omega⟩
  have e := idx_facts t
  refine ⟨t, (flush2_6 t).mpr rfl, ?_⟩
  rw [mem_blk6]
  intro a
  match a with
  | ⟨0, _⟩ => show win2_6.index t (0 : Fin 2) * 1 ≤ (i 0).val ∧ (i 0).val < win2_6.index t (0 : Fin 2) * 1 + 1; rw [e.w6a]; omega
  | ⟨1, _⟩ => show win2_6.index t (1 : Fin 2) * 64 ≤ (i 1).val ∧ (i 1).val < win2_6.index t (1 : Fin 2) * 64 + 64; rw [e.w6b]; omega

/-- Window 6's array after the region is the column sums. -/
theorem final6 (c : Dev nD) : (dat2 V c).arrAt 6 cfg2.N = resultSum V c :=
  (dat2 V c).arrAt_eq_of_cover 6 (resultSum V c) (fun t hf => flushed6_eq V c t hf) cover6

/-- The one write-back of window 7, after the last grid point, writes the column sums of squares. -/
theorem flushed7_eq (c : Dev nD) (t : Fin cfg2.N) (hf : (cfg2.win 7).flush t = true) :
    (dat2 V c).flushed 7 t = ((cfg2.win 7).blk t).view.read (Elt Ideal) (resultSumSq V c) := by
  have hN : t.val < 50 := lt_of_lt_of_eq t.isLt N_2
  have h49 : t.val = 49 := by have := (flush2_7 t).mp hf; omega
  have e := idx_facts t
  show (cfg2.win 7).cut (grid2.coords t) ((dat2 V c).after 7 t) = _
  rw [after2_7, sumsqs_eq V c t.val t.isLt]
  funext j
  obtain ⟨u, q, rfl⟩ : ∃ (u : Fin 1) (q : Fin 64), j = ix2 u q := ⟨j 0, j 1, eq_ix2 j⟩
  show (∑ k ∈ Finset.range (t.val + 1), tileSum 50 4000 (by decide : 50 * 4000 = 200000) (fun r q => H V c r q * H V c r q) k q)
    = resultSumSq V c (((cfg2.win 7).blk t).view.emb (ix2 u q))
  have hemb : ((cfg2.win 7).blk t).view.emb (ix2 u q) = ix2 u q := by
    funext a; apply Fin.ext
    match a with
    | ⟨0, _⟩ => show win2_7.index t (0 : Fin 2) * 1 + 1 * u.val = u.val; rw [e.w7a]; omega
    | ⟨1, _⟩ => show win2_7.index t (1 : Fin 2) * 64 + 1 * q.val = q.val; rw [e.w7b]; omega
  rw [hemb, h49]
  exact (colSumAt_eq_range 50 4000 _ (fun r q => H V c r q * H V c r q) q).symm

theorem mem_blk7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole (Pipeline.arrRef spec2 7)).slice (win2_7.rect t)).set ↔ _
  rw [View.set_slice_whole, Rect.mem_set_unit]
  exact Iff.rfl

/-- The last grid point's block is the whole [1, 64] array. -/
theorem cover7 (i : S1x64.Idx) : ∃ t : Fin cfg2.N, (cfg2.win 7).flush t = true ∧ i ∈ ((cfg2.win 7).blk t).view.set := by
  have hi0 : (i 0).val < 1 := (i 0).isLt
  have hi1 : (i 1).val < 64 := (i 1).isLt
  have hN : cfg2.N = 50 := N_2
  let t : Fin cfg2.N := ⟨49, by rw [hN]; omega⟩
  have e := idx_facts t
  refine ⟨t, (flush2_7 t).mpr rfl, ?_⟩
  rw [mem_blk7]
  intro a
  match a with
  | ⟨0, _⟩ => show win2_7.index t (0 : Fin 2) * 1 ≤ (i 0).val ∧ (i 0).val < win2_7.index t (0 : Fin 2) * 1 + 1; rw [e.w7a]; omega
  | ⟨1, _⟩ => show win2_7.index t (1 : Fin 2) * 64 ≤ (i 1).val ∧ (i 1).val < win2_7.index t (1 : Fin 2) * 64 + 64; rw [e.w7b]; omega

/-- Window 7's array after the region is the column sums of squares. -/
theorem final7 (c : Dev nD) : (dat2 V c).arrAt 7 cfg2.N = resultSumSq V c :=
  (dat2 V c).arrAt_eq_of_cover 7 (resultSumSq V c) (fun t hf => flushed7_eq V c t hf) cover7

/-! ## The windows' arrays, by name -/

theorem arr0 : Pipeline.arrRef spec2 0 = main_v43 := rfl
theorem arr1 : Pipeline.arrRef spec2 1 = main_arg7 := rfl
theorem arr2 : Pipeline.arrRef spec2 2 = main_arg8 := rfl
theorem arr3 : Pipeline.arrRef spec2 3 = main_arg9 := rfl
theorem arr4 : Pipeline.arrRef spec2 4 = main_arg10 := rfl
theorem arr5 : Pipeline.arrRef spec2 5 = main_v44_0 := rfl
theorem arr6 : Pipeline.arrRef spec2 6 = main_v44_1 := rfl
theorem arr7 : Pipeline.arrRef spec2 7 = main_v44_2 := rfl

end Cert.KernelIdeal.MlpRunL1j

end
-- ==== Proof.AffinePayL1j.lean ====
/- The value the store of the second device pass of one GIN layer writes, read index by index at the ideal values: a
   [4000, 64] tile of rows, each column centred by the given mean, scaled, multiplied by the reciprocal square root of the
   given variance plus a literal, and shifted — in the device's order of operations. -/
import proofs.«120907_j71768903516484_1_alg».proof.Proof.Gen.KernelIdeal.Skeleton
import proofs.«120907_j71768903516484_1_alg».proof.Proof.GinSpec
import Idealize.ShloMosaic.Lib.ValueLayout
import Idealize.ShloMosaic.Lib.Pipeline.Value

noncomputable section

open Idealize.ShloMosaic Idealize.ShloMosaic.ValueIdx

namespace Cert.KernelIdeal.AffinePayL1j

open Cert.KernelIdeal Cert.KernelIdeal.Gen Cert.KernelIdeal.GinSpec

/-- The normalised tile at row r, column c. -/
theorem affine_apply (v0 : Vec Ideal S4000x64 .f32) (v2 v4 : Vec Ideal S1x64 .f32) (v9 v17 : Vec Ideal S64 .f32)
    (r : Fin 4000) (c : Fin 64) :
    k3_pay1 v0 v2 v4 v9 v17 (ix2 r c) = bnAffineAt v0 v2 v4 v9 v17 r c := by
  unfold k3_pay1 bnAffineAt
  rw [addf_apply, mulf_apply, mulf_apply, subf_apply]
  rw [broadcastTo_1b_ab_apply, broadcastTo_1b_ab_apply, broadcastTo_1b_ab_apply, broadcastTo_1b_ab_apply]
  rw [shapeCast_a_1a_apply, shapeCast_a_1a_apply, shapeCast_self, shapeCast_self, shapeCast_self]
  rfl

end Cert.KernelIdeal.AffinePayL1j

end
-- ==== Proof.AffineRunL1j.lean ====
/- The array the second device pass of one GIN layer leaves (region 3: [200000, 64] rows in 50 tiles of 4000), for any
   contents of the device's buffers when the region is entered: tile t of the output is the affine normalisation of tile
   t of the input by the one-block mean, variance, scale and shift arrays, the tiles cover the array, so the output array
   is the affine normalisation of the input array, index by index. -/
import proofs.«120907_j71768903516484_1_alg».proof.Proof.KIFrameP
import proofs.«120907_j71768903516484_1_alg».proof.Proof.AffinePayL1j
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AffineRunL1j

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the tile windows sit at block (t, 0), the one-block windows at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

/-- Row p of the input tile at point t is row 4000 t + p of the input array. -/
theorem blk0_apply (c : Dev nD) (t : Fin cfg3.N) (p : Fin 4000) (q : Fin 64) (k : Fin 200000) (hk : k.val = 4000 * t.val + p.val) :
    (iblk3 V c 0 t : Vec Ideal S4000x64 .f32) (ix2 p q) = (V c (Pipeline.arrRef spec3 0) : S200000x64.Idx → EReal) (ix2 k q) := by
  obtain ⟨e0, e1, -⟩ := idx_facts t
  unfold iblk3
  rw [View.read_apply]
  show (V c (Pipeline.arrRef spec3 0) : S200000x64.Idx → EReal) _ = _
  refine congrArg _ (funext fun a => Fin.ext ?_)
  match a with
  | ⟨0, _⟩ => show win3_0.index t (0 : Fin 2) * 4000 + 1 * p.val = k.val; rw [e0, hk]; omega
  | ⟨1, _⟩ => show win3_0.index t (1 : Fin 2) * 64 + 1 * q.val = q.val; rw [e1]; omega

/-- The mean's one block is the mean array. -/
theorem blk1_apply (c : Dev nD) (t : Fin cfg3.N) (u : Fin 1) (q : Fin 64) :
    (iblk3 V c 1 t : Vec Ideal S1x64 .f32) (ix2 u q) = (V c (Pipeline.arrRef spec3 1) : S1x64.Idx → EReal) (ix2 u q) := by
  obtain ⟨-, -, e0, e1, -⟩ := idx_facts t
  unfold iblk3
  rw [View.read_apply]
  show (V c (Pipeline.arrRef spec3 1) : S1x64.Idx → EReal) _ = _
  refine congrArg _ (funext fun a => Fin.ext ?_)
  match a with
  | ⟨0, _⟩ => show win3_1.index t (0 : Fin 2) * 1 + 1 * u.val = u.val; rw [e0]; omega
  | ⟨1, _⟩ => show win3_1.index t (1 : Fin 2) * 64 + 1 * q.val = q.val; rw [e1]; omega

/-- The variance's one block is the variance array. -/
theorem blk2_apply (c : Dev nD) (t : Fin cfg3.N) (u : Fin 1) (q : Fin 64) :
    (iblk3 V c 2 t : Vec Ideal S1x64 .f32) (ix2 u q) = (V c (Pipeline.arrRef spec3 2) : S1x64.Idx → EReal) (ix2 u q) := by
  obtain ⟨-, -, -, -, e0, e1, -⟩ := idx_facts t
  unfold iblk3
  rw [View.read_apply]
  show (V c (Pipeline.arrRef spec3 2) : S1x64.Idx → EReal) _ = _
  refine congrArg _ (funext fun a => Fin.ext ?_)
  match a with
  | ⟨0, _⟩ => show win3_2.index t (0 : Fin 2) * 1 + 1 * u.val = u.val; rw [e0]; omega
  | ⟨1, _⟩ => show win3_2.index t (1 : Fin 2) * 64 + 1 * q.val = q.val; rw [e1]; omega

/-- The scale's one block is the scale array. -/
theorem blk3_apply (c : Dev nD) (t : Fin cfg3.N) (q : Fin 64) :
    (iblk3 V c 3 t : Vec Ideal S64 .f32) (ix1 q) = (V c (Pipeline.arrRef spec3 3) : S64.Idx → EReal) (ix1 q) := by
  obtain ⟨-, -, -, -, -, -, e0, -⟩ := idx_facts t
  unfold iblk3
  rw [View.read_apply]
  show (V c (Pipeline.arrRef spec3 3) : S64.Idx → EReal) _ = _
  refine congrArg _ (funext fun a => Fin.ext ?_)
  match a with
  | ⟨0, _⟩ => show win3_3.index t (0 : Fin 1) * 64 + 1 * q.val = q.val; rw [e0]; omega

/-- The shift's one block is the shift array. -/
theorem blk4_apply (c : Dev nD) (t : Fin cfg3.N) (q : Fin 64) :
    (iblk3 V c 4 t : Vec Ideal S64 .f32) (ix1 q) = (V c (Pipeline.arrRef spec3 4) : S64.Idx → EReal) (ix1 q) := by
  obtain ⟨-, -, -, -, -, -, -, e0, -⟩ := idx_facts t
  unfold iblk3
  rw [View.read_apply]
  show (V c (Pipeline.arrRef spec3 4) : S64.Idx → EReal) _ = _
  refine congrArg _ (funext fun a => Fin.ext ?_)
  match a with
  | ⟨0, _⟩ => show win3_4.index t (0 : Fin 1) * 64 + 1 * q.val = q.val; rw [e0]; omega

/-- The normalised array: the affine normalisation of the input array by the mean, variance, scale and shift arrays the
    region finds. -/
def result (c : Dev nD) : S200000x64.Idx → EReal :=
  bnAffine (V c (Pipeline.arrRef spec3 0) : S200000x64.Idx → EReal) (V c (Pipeline.arrRef spec3 1) : S1x64.Idx → EReal)
    (V c (Pipeline.arrRef spec3 2) : S1x64.Idx → EReal) (V c (Pipeline.arrRef spec3 3) : S64.Idx → EReal)
    (V c (Pipeline.arrRef spec3 4) : S64.Idx → EReal)

set_option maxHeartbeats 1000000 in
/-- What grid point t writes back is rows 4000 t … 4000 t + 3999 of the normalised array. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz2]
  simp only [View.ld_unit_zero (S := S4000x64) hz2, View.ld_unit_zero (S := S1x64) hz2, View.ld_unit_zero (S := S64) hz1]
  funext j
  obtain ⟨p, q, rfl⟩ : ∃ (p : Fin 4000) (q : Fin 64), j = ix2 p q := ⟨j 0, j 1, eq_ix2 j⟩
  obtain ⟨-, -, -, -, -, -, -, -, e8, e9⟩ := idx_facts t
  have hN : t.val < 50 := lt_of_lt_of_eq t.isLt N_3
  show k3_pay1 (iblk3 V c 0 t) (iblk3 V c 1 t) (iblk3 V c 2 t) (iblk3 V c 3 t) (iblk3 V c 4 t) (ix2 p q)
    = result V c (((cfg3.win 5).blk t).view.emb (ix2 p q))
  refine (AffinePayL1j.affine_apply (iblk3 V c 0 t) (iblk3 V c 1 t) (iblk3 V c 2 t) (iblk3 V c 3 t) (iblk3 V c 4 t) p q).trans ?_
  have hemb : ((cfg3.win 5).blk t).view.emb (ix2 p q) = ix2 (⟨4000 * t.val + p.val, by omega⟩ : Fin 200000) q := by
    funext a; apply Fin.ext
    match a with
    | ⟨0, _⟩ => show win3_5.index t (0 : Fin 2) * 4000 + 1 * p.val = 4000 * t.val + p.val; rw [e8]; omega
    | ⟨1, _⟩ => show win3_5.index t (1 : Fin 2) * 64 + 1 * q.val = q.val; rw [e9]; omega
  rw [hemb]
  unfold result bnAffine bnAffineAt
  rw [blk0_apply V c t p q ⟨4000 * t.val + p.val, by omega⟩ rfl, blk1_apply V c t 0 q, blk2_apply V c t 0 q,
    blk3_apply V c t q, blk4_apply V c t q]

/-- An index of the array is in point t's block iff each coordinate is in the block's range on its axis. -/
theorem mem_blk (t : Fin cfg3.N) (i : S200000x64.Idx) :
    i ∈ ((cfg3.win 5).blk t).view.set ↔ ∀ a : Fin 2, win3_5.index t a * S4000x64.size a ≤ (i a).val ∧ (i a).val < win3_5.index t a * S4000x64.size a + S4000x64.size a := by
  show i ∈ ((View.whole (Pipeline.arrRef spec3 5)).slice (win3_5.rect t)).set ↔ _
  rw [View.set_slice_whole, Rect.mem_set_unit]
  exact Iff.rfl

/-- Row r of the array lies in the block of point r / 4000. -/
theorem cover (i : S200000x64.Idx) : ∃ t : Fin cfg3.N, (cfg3.win 5).flush t = true ∧ i ∈ ((cfg3.win 5).blk t).view.set := by
  have hi0 : (i 0).val < 200000 := (i 0).isLt
  have hi1 : (i 1).val < 64 := (i 1).isLt
  have hN : cfg3.N = 50 := N_3
  let t : Fin cfg3.N := ⟨(i 0).val / 4000, by rw [hN]; omega⟩
  obtain ⟨-, -, -, -, -, -, -, -, e8, e9⟩ := idx_facts t
  have ht : t.val = (i 0).val / 4000 := rfl
  refine ⟨t, flush3_5 t, ?_⟩
  rw [mem_blk]
  intro a
  match a with
  | ⟨0, _⟩ => show win3_5.index t (0 : Fin 2) * 4000 ≤ (i 0).val ∧ (i 0).val < win3_5.index t (0 : Fin 2) * 4000 + 4000; rw [e8, ht]; omega
  | ⟨1, _⟩ => show win3_5.index t (1 : Fin 2) * 64 ≤ (i 1).val ∧ (i 1).val < win3_5.index t (1 : Fin 2) * 64 + 64; rw [e9]; omega

/-- The output array after the region is the normalised array. -/
theorem final (c : Dev nD) : (dat3 V c).arrAt 5 cfg3.N = result V c :=
  (dat3 V c).arrAt_eq_of_cover 5 (result V c) (fun t _ => flushed_eq V c t) cover

/-! ## The windows' arrays, by name -/

theorem arr0 : Pipeline.arrRef spec3 0 = main_v44_0 := rfl
theorem arr1 : Pipeline.arrRef spec3 1 = main_v46 := rfl
theorem arr2 : Pipeline.arrRef spec3 2 = main_v50 := rfl
theorem arr3 : Pipeline.arrRef spec3 3 = main_arg11 := rfl
theorem arr4 : Pipeline.arrRef spec3 4 = main_arg12 := rfl
theorem arr5 : Pipeline.arrRef spec3 5 = main_v51 := rfl

end Cert.KernelIdeal.AffineRunL1j

end
-- ==== Proof.MlpPayL2i.lean ====
/- The values the stores of the first device pass of one GIN layer write, read index by index at the ideal values: the
   two-layer perceptron of a [4000, 64] tile of rows (widths 64, 32, 32), its column sums added to a running [1, 32] row, and
   the column sums of its squares added to another.  Rounding to bf16 before each matrix product is the identity at the ideal
   values, a matrix product into the zero block is the plain sum of products, and a sum over the row axis is the sum over
   the tile's 4000 rows. -/
import proofs.«120907_j71768903516484_1_alg».proof.Proof.Gen.KernelIdeal.Skeleton
import proofs.«120907_j71768903516484_1_alg».proof.Proof.GinSpec
import Idealize.ShloMosaic.PureOps.Ideal.Laws
import Idealize.ShloMosaic.Lib.ValueLayout
import Idealize.ShloMosaic.Lib.Pipeline.Value

noncomputable section

open Idealize.ShloMosaic Idealize.ShloMosaic.ValueIdx

namespace Cert.KernelIdeal.MlpPayL2i

open Cert.KernelIdeal Cert.KernelIdeal.Gen Cert.KernelIdeal.GinSpec

/-- The device's matrix product of a [4000, 64] block by a [64, 32] matrix into the zero block, read at row r and column c:
    the sum over the contracted coordinate of the products of the entries. -/
theorem matmul1_at {φ₁ φ₂ : FTy} (lhs : FVec Ideal S4000x64 φ₁) (rhs : FVec Ideal S64x32 φ₂) (r : Fin 4000) (c : Fin 32) :
    matmul dot_S4000x64_S64x32_S4000x32_1_0_0_1_n_n none lhs rhs (constant (F := Ideal) S4000x32 .f32 0x00000000#32) (ix2 r c)
      = ∑ k : Fin 64, lhs (ix2 r k) * rhs (ix2 k c) := by
  show FloatOps.matmul _ none lhs rhs (constant (F := Ideal) S4000x32 .f32 0x00000000#32) (ix2 r c) = _
  rw [Ideal.matmul_constant_zero_apply, ← Equiv.sum_comp (contrEquiv1 dot_S4000x64_S64x32_S4000x32_1_0_0_1_n_n 64 rfl rfl).symm]
  refine Finset.sum_congr rfl fun k _ => ?_
  have c2 := contrEquiv1_symm_val dot_S4000x64_S64x32_S4000x32_1_0_0_1_n_n 64 rfl rfl k
  have l2 : dot_S4000x64_S64x32_S4000x32_1_0_0_1_n_n.lhsIdx (ix2 r c) ((contrEquiv1 _ 64 rfl rfl).symm k) = ix2 r k := by
    funext ax; apply Fin.ext
    match ax with
    | ⟨0, _⟩ => simp [DotDims.lhsIdx, dot_S4000x64_S64x32_S4000x32_1_0_0_1_n_n]; rfl
    | ⟨1, _⟩ => simp [DotDims.lhsIdx, dot_S4000x64_S64x32_S4000x32_1_0_0_1_n_n]; exact c2
  have r2 : dot_S4000x64_S64x32_S4000x32_1_0_0_1_n_n.rhsIdx (ix2 r c) ((contrEquiv1 _ 64 rfl rfl).symm k) = ix2 k c := by
    funext ax; apply Fin.ext
    match ax with
    | ⟨0, _⟩ => simp [DotDims.rhsIdx, dot_S4000x64_S64x32_S4000x32_1_0_0_1_n_n]; exact c2
    | ⟨1, _⟩ => simp [DotDims.rhsIdx, dot_S4000x64_S64x32_S4000x32_1_0_0_1_n_n]; rfl
  rw [l2, r2]

/-- The device's matrix product of a [4000, 32] block by a [32, 32] matrix into the zero block, read at row r and column c:
    the sum over the contracted coordinate of the products of the entries. -/
theorem matmul2_at {φ₁ φ₂ : FTy} (lhs : FVec Ideal S4000x32 φ₁) (rhs : FVec Ideal S32x32 φ₂) (r : Fin 4000) (c : Fin 32) :
    matmul dot_S4000x32_S32x32_S4000x32_1_0_0_1_n_n none lhs rhs (constant (F := Ideal) S4000x32 .f32 0x00000000#32) (ix2 r c)
      = ∑ k : Fin 32, lhs (ix2 r k) * rhs (ix2 k c) := by
  show FloatOps.matmul _ none lhs rhs (constant (F := Ideal) S4000x32 .f32 0x00000000#32) (ix2 r c) = _
  rw [Ideal.matmul_constant_zero_apply, ← Equiv.sum_comp (contrEquiv1 dot_S4000x32_S32x32_S4000x32_1_0_0_1_n_n 32 rfl rfl).symm]
  refine Finset.sum_congr rfl fun k _ => ?_
  have c2 := contrEquiv1_symm_val dot_S4000x32_S32x32_S4000x32_1_0_0_1_n_n 32 rfl rfl k
  have l2 : dot_S4000x32_S32x32_S4000x32_1_0_0_1_n_n.lhsIdx (ix2 r c) ((contrEquiv1 _ 32 rfl rfl).symm k) = ix2 r k := by
    funext ax; apply Fin.ext
    match ax with
    | ⟨0, _⟩ => simp [DotDims.lhsIdx, dot_S4000x32_S32x32_S4000x32_1_0_0_1_n_n]; rfl
    | ⟨1, _⟩ => simp [DotDims.lhsIdx, dot_S4000x32_S32x32_S4000x32_1_0_0_1_n_n]; exact c2
  have r2 : dot_S4000x32_S32x32_S4000x32_1_0_0_1_n_n.rhsIdx (ix2 r c) ((contrEquiv1 _ 32 rfl rfl).symm k) = ix2 k c := by
    funext ax; apply Fin.ext
    match ax with
    | ⟨0, _⟩ => simp [DotDims.rhsIdx, dot_S4000x32_S32x32_S4000x32_1_0_0_1_n_n]; exact c2
    | ⟨1, _⟩ => simp [DotDims.rhsIdx, dot_S4000x32_S32x32_S4000x32_1_0_0_1_n_n]; rfl
  rw [l2, r2]

/-- The tile's perceptron output at row r, column c. -/
theorem mlp_apply (v3 : Vec Ideal S4000x64 .f32) (v5 : Vec Ideal S64x32 .f32) (v9 : Vec Ideal S32 .f32)
    (v15 : Vec Ideal S32x32 .f32) (v19 : Vec Ideal S32 .f32) (r : Fin 4000) (c : Fin 32) :
    k4_pay4 v3 v5 v9 v15 v19 (ix2 r c) = mlpAt v3 v5 v9 v15 v19 r c := by
  unfold k4_pay4 mlpAt
  rw [addf_apply, matmul2_at, broadcastTo_1b_ab_apply, shapeCast_a_1a_apply]
  refine congrArg (· + v19 (ix1 c)) (Finset.sum_congr rfl fun q _ => ?_)
  rw [truncf_apply, truncf_apply, maximumf_apply, addf_apply, matmul1_at, broadcastTo_1b_ab_apply, shapeCast_a_1a_apply,
    broadcast_apply]
  simp only [truncf_apply, shapeCast_self]
  rw [Ideal.ofBits_def, Ideal.ofBits_zero_f32]

/-- A sum over the row axis of a [4000, 32] block, read at column c, is the sum of the column's 4000 entries. -/
theorem colsum_at (src : FVec Ideal S4000x32 .f32) (h : S4000x32.Reduces [0] S32) (hφ : FKind.Formats .f32)
    (hacc : (0x00000000#32 : BitVec 32) = 0x00000000#32) (c : Fin 32) :
    multiReduction (F := Ideal) .add [0] S32 src 0x00000000#32 h hφ hacc (ix1 c) = ∑ k : Fin 4000, src (ix2 k c) :=
  (Ideal.multiReduction_add_single src 0x00000000#32 h hφ hacc (ix1 c)).trans
    (Finset.sum_congr rfl fun k _ => congrArg src (funext fun a => Fin.ext (by
      match a with
      | ⟨0, _⟩ => rfl
      | ⟨1, _⟩ => rfl)))

/-- The running row of column sums after the tile: what it held plus the tile's column sums of the perceptron output. -/
theorem sum_apply (v3 : Vec Ideal S4000x64 .f32) (v5 : Vec Ideal S64x32 .f32) (v9 : Vec Ideal S32 .f32)
    (v15 : Vec Ideal S32x32 .f32) (v19 : Vec Ideal S32 .f32) (v24 : Vec Ideal S1x32 .f32) (u : Fin 1) (c : Fin 32) :
    k4_pay5 v3 v5 v9 v15 v19 v24 (ix2 u c) = v24 (ix2 u c) + ∑ k : Fin 4000, mlpAt v3 v5 v9 v15 v19 k c := by
  unfold k4_pay5
  rw [addf_apply, shapeCast_self, shapeCast_a_1a_apply, colsum_at]
  exact congrArg (v24 (ix2 u c) + ·) (Finset.sum_congr rfl fun k _ => mlp_apply v3 v5 v9 v15 v19 k c)

/-- A running row plus the column sums of a block. -/
theorem acc_apply (v31 : FVec Ideal S1x32 .f32) (v32 : FVec Ideal S4000x32 .f32) (u : Fin 1) (c : Fin 32) :
    k4_pay1 v31 v32 (ix2 u c) = v31 (ix2 u c) + ∑ k : Fin 4000, v32 (ix2 k c) := by
  unfold k4_pay1
  rw [addf_apply, shapeCast_a_1a_apply, colsum_at]

theorem carried_eq (v30 : Vec Ideal S1x32 .f32) : k4_pay6 v30 = v30 := by
  unfold k4_pay6
  rw [shapeCast_self]

/-- The squares of the tile's perceptron output. -/
theorem sq_apply (v3 : Vec Ideal S4000x64 .f32) (v5 : Vec Ideal S64x32 .f32) (v9 : Vec Ideal S32 .f32)
    (v15 : Vec Ideal S32x32 .f32) (v19 : Vec Ideal S32 .f32) (r : Fin 4000) (c : Fin 32) :
    k4_pay7 v3 v5 v9 v15 v19 (ix2 r c) = mlpAt v3 v5 v9 v15 v19 r c * mlpAt v3 v5 v9 v15 v19 r c := by
  unfold k4_pay7
  rw [mulf_apply, mlp_apply]

/-- The running row of sums of squares after the tile. -/
theorem sumsq_apply (v3 : Vec Ideal S4000x64 .f32) (v5 : Vec Ideal S64x32 .f32) (v9 : Vec Ideal S32 .f32)
    (v15 : Vec Ideal S32x32 .f32) (v19 : Vec Ideal S32 .f32) (v30 : Vec Ideal S1x32 .f32) (u : Fin 1) (c : Fin 32) :
    k4_pay1 (k4_pay6 v30) (k4_pay7 v3 v5 v9 v15 v19) (ix2 u c)
      = v30 (ix2 u c) + ∑ k : Fin 4000, mlpAt v3 v5 v9 v15 v19 k c * mlpAt v3 v5 v9 v15 v19 k c := by
  rw [acc_apply, carried_eq]
  exact congrArg (v30 (ix2 u c) + ·) (Finset.sum_congr rfl fun k _ => sq_apply v3 v5 v9 v15 v19 k c)

/-- The two zero rows the first grid point stores. -/
theorem zero_sum_apply (j : S1x32.Idx) : k4_pay2 (F := Ideal) j = 0 := by
  unfold k4_pay2
  rw [broadcast_apply]
  exact Ideal.ofBits_zero_f32

theorem zero_sumsq_apply (j : S1x32.Idx) : k4_pay3 (F := Ideal) j = 0 := by
  unfold k4_pay3
  rw [broadcast_apply]
  exact Ideal.ofBits_zero_f32

end Cert.KernelIdeal.MlpPayL2i

end
-- ==== Proof.MlpRunL2i.lean ====
/- The three arrays the first device pass of one GIN layer leaves (region 4: [200000, 64] rows in 50 tiles of 4000, widths
   64, 32, 32), for any contents of the device's buffers when the region is entered.  Each control case's stores are read as
   values of the point's input blocks; the tile window's block at point t is rows 4000 t … 4000 t + 3999 of the array and
   the other input windows' one block is their whole array; so the tile output is the two-layer perceptron of the input
   array row by row, and, by induction over the grid points (the first point zeroes the two running rows, every point
   adds its tile's column sums), after the last point the two [1, 32] rows hold the column sums of the perceptron output
   and of its squares, tile after tile. -/
import proofs.«120907_j71768903516484_1_alg».proof.Proof.KIFrameP
import proofs.«120907_j71768903516484_1_alg».proof.Proof.MlpPayL2i
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MlpRunL2i

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## What each control case leaves in the three output buffers, as the stores' values -/

/-- At the first grid point the tile's perceptron output is stored. -/
theorem outA5_eq (c : Dev nD) (i : grid4.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : cond4_0 i) (x0 : Vec Ideal S4000x64 .f32) (x1 : Vec Ideal S64x32 .f32) (x2 : Vec Ideal S32 .f32) (x3 : Vec Ideal S32x32 .f32) (x4 : Vec Ideal S32 .f32) :
    out4_A_5 c i arg1 harg1 arg2 harg2 arg3 harg3 arg4 harg4 arg5 harg5 arg6 harg6 arg7 harg7 arg8 harg8 hc0 x0 x1 x2 x3 x4 = k4_pay4 x0 x1 x2 x3 x4 := by
  unfold out4_A_5
  rw [View.read_writes_eq_canon _ _ _ (cover4_A_5 c i arg1 harg1 arg2 harg2 arg3 harg3 arg4 harg4 arg5 harg5 arg6 harg6 arg7 harg7 arg8 harg8 hc0 x0 x1 x2 x3 x4)]
  unfold kernelRun4_A
  dsimp only
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1]

/-- At the first grid point the row of column sums is zeroed, then the tile's column sums are added to it. -/
theorem outA6_eq (c : Dev nD) (i : grid4.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : cond4_0 i) (x0 : Vec Ideal S4000x64 .f32) (x1 : Vec Ideal S64x32 .f32) (x2 : Vec Ideal S32 .f32) (x3 : Vec Ideal S32x32 .f32) (x4 : Vec Ideal S32 .f32) :
    out4_A_6 c i arg1 harg1 arg2 harg2 arg3 harg3 arg4 harg4 arg5 harg5 arg6 harg6 arg7 harg7 arg8 harg8 hc0 x0 x1 x2 x3 x4 = k4_pay5 x0 x1 x2 x3 x4 (k4_pay2 (F := Ideal)) := by
  unfold out4_A_6
  rw [View.read_writes_eq_canon _ _ _ (cover4_A_6 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x32) hz2, View.readCov_unit_zero (S := S1x32) _ hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1]

/-- At the first grid point the row of sums of squares is zeroed, then the tile's sums of squares are added to it. -/
theorem outA7_eq (c : Dev nD) (i : grid4.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : cond4_0 i) (x0 : Vec Ideal S4000x64 .f32) (x1 : Vec Ideal S64x32 .f32) (x2 : Vec Ideal S32 .f32) (x3 : Vec Ideal S32x32 .f32) (x4 : Vec Ideal S32 .f32) :
    out4_A_7 c i arg1 harg1 arg2 harg2 arg3 harg3 arg4 harg4 arg5 harg5 arg6 harg6 arg7 harg7 arg8 harg8 hc0 x0 x1 x2 x3 x4 = k4_pay1 (k4_pay6 (k4_pay3 (F := Ideal))) (k4_pay7 x0 x1 x2 x3 x4) := by
  unfold out4_A_7
  rw [View.read_writes_eq_canon _ _ _ (cover4_A_7 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x32) hz2, View.readCov_unit_zero (S := S1x32) _ hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1]

/-- At a later grid point the tile's perceptron output is stored. -/
theorem outB5_eq (c : Dev nD) (i : grid4.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : ¬cond4_0 i) (x0 : Vec Ideal S4000x64 .f32) (x1 : Vec Ideal S64x32 .f32) (x2 : Vec Ideal S32 .f32) (x3 : Vec Ideal S32x32 .f32) (x4 : Vec Ideal S32 .f32) (xo6 xo7 : Vec Ideal S1x32 .f32) :
    out4_B_5 c i arg1 harg1 arg2 harg2 arg3 harg3 arg4 harg4 arg5 harg5 arg6 harg6 arg7 harg7 arg8 harg8 hc0 x0 x1 x2 x3 x4 xo6 xo7 = k4_pay4 x0 x1 x2 x3 x4 := by
  unfold out4_B_5
  rw [View.read_writes_eq_canon _ _ _ (cover4_B_5 c i arg1 harg1 arg2 harg2 arg3 harg3 arg4 harg4 arg5 harg5 arg6 harg6 arg7 harg7 arg8 harg8 hc0 x0 x1 x2 x3 x4 xo6 xo7)]
  unfold kernelRun4_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1, harg7.read_unread, harg8.read_unread, View.ld_unit_zero (S := S1x32) hz2]

/-- At a later grid point the tile's column sums are added to the row the point before left. -/
theorem outB6_eq (c : Dev nD) (i : grid4.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : ¬cond4_0 i) (x0 : Vec Ideal S4000x64 .f32) (x1 : Vec Ideal S64x32 .f32) (x2 : Vec Ideal S32 .f32) (x3 : Vec Ideal S32x32 .f32) (x4 : Vec Ideal S32 .f32) (xo6 xo7 : Vec Ideal S1x32 .f32) :
    out4_B_6 c i arg1 harg1 arg2 harg2 arg3 harg3 arg4 harg4 arg5 harg5 arg6 harg6 arg7 harg7 arg8 harg8 hc0 x0 x1 x2 x3 x4 xo6 xo7 = k4_pay5 x0 x1 x2 x3 x4 xo6 := by
  unfold out4_B_6
  rw [View.read_writes_eq_canon _ _ _ (cover4_B_6 c i arg1 harg1 arg2 harg2 arg3 harg3 arg4 harg4 arg5 harg5 arg6 harg6 arg7 harg7 arg8 harg8 hc0 x0 x1 x2 x3 x4 xo6 xo7)]
  unfold kernelRun4_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1, harg7.read_unread, harg8.read_unread, View.ld_unit_zero (S := S1x32) hz2]

/-- At a later grid point the tile's sums of squares are added to the row the point before left. -/
theorem outB7_eq (c : Dev nD) (i : grid4.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : ¬cond4_0 i) (x0 : Vec Ideal S4000x64 .f32) (x1 : Vec Ideal S64x32 .f32) (x2 : Vec Ideal S32 .f32) (x3 : Vec Ideal S32x32 .f32) (x4 : Vec Ideal S32 .f32) (xo6 xo7 : Vec Ideal S1x32 .f32) :
    out4_B_7 c i arg1 harg1 arg2 harg2 arg3 harg3 arg4 harg4 arg5 harg5 arg6 harg6 arg7 harg7 arg8 harg8 hc0 x0 x1 x2 x3 x4 xo6 xo7 = k4_pay1 (k4_pay6 xo7) (k4_pay7 x0 x1 x2 x3 x4) := by
  unfold out4_B_7
  rw [View.read_writes_eq_canon _ _ _ (cover4_B_7 c i arg1 harg1 arg2 harg2 arg3 harg3 arg4 harg4 arg5 harg5 arg6 harg6 arg7 harg7 arg8 harg8 hc0 x0 x1 x2 x3 x4 xo6 xo7)]
  unfold kernelRun4_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1, harg7.read_unread, harg8.read_unread, View.ld_unit_zero (S := S1x32) hz2]

/-! ## The windows' blocks as parts of the arrays -/

/-- The printed index maps over the grid: the two tile windows (input 0, output 5) sit at block (t, 0); the weights, the
    biases and the two running rows at block 0. -/
structure IdxFacts (t : Fin cfg4.N) : Prop where
  w0a : win4_0.index t (0 : Fin 2) = t.val
  w0b : win4_0.index t (1 : Fin 2) = 0
  w1a : win4_1.index t (0 : Fin 2) = 0
  w1b : win4_1.index t (1 : Fin 2) = 0
  w2a : win4_2.index t (0 : Fin 1) = 0
  w3a : win4_3.index t (0 : Fin 2) = 0
  w3b : win4_3.index t (1 : Fin 2) = 0
  w4a : win4_4.index t (0 : Fin 1) = 0
  w5a : win4_5.index t (0 : Fin 2) = t.val
  w5b : win4_5.index t (1 : Fin 2) = 0
  w6a : win4_6.index t (0 : Fin 2) = 0
  w6b : win4_6.index t (1 : Fin 2) = 0
  w7a : win4_7.index t (0 : Fin 2) = 0
  w7b : win4_7.index t (1 : Fin 2) = 0

theorem idx_facts : ∀ t : Fin cfg4.N, IdxFacts t :=
  fun t => by
    have h : ∀ t : Fin cfg4.N,
        win4_0.index t (0 : Fin 2) = t.val ∧ win4_0.index t (1 : Fin 2) = 0
        ∧ win4_1.index t (0 : Fin 2) = 0 ∧ win4_1.index t (1 : Fin 2) = 0
        ∧ win4_2.index t (0 : Fin 1) = 0
        ∧ win4_3.index t (0 : Fin 2) = 0 ∧ win4_3.index t (1 : Fin 2) = 0
        ∧ win4_4.index t (0 : Fin 1) = 0
        ∧ win4_5.index t (0 : Fin 2) = t.val ∧ win4_5.index t (1 : Fin 2) = 0
        ∧ win4_6.index t (0 : Fin 2) = 0 ∧ win4_6.index t (1 : Fin 2) = 0
        ∧ win4_7.index t (0 : Fin 2) = 0 ∧ win4_7.index t (1 : Fin 2) = 0 :=
      (by decide +kernel : ∀ t : Fin grid4.N, _)
    obtain ⟨h0, h1, h2, h3, h4, h5, h6, h7, h8, h9, h10, h11, h12, h13⟩ := h t
    exact ⟨h0, h1, h2, h3, h4, h5, h6, h7, h8, h9, h10, h11, h12, h13⟩

/-- Row p of the input tile at point t is row 4000 t + p of the input array. -/
theorem blk0_apply (c : Dev nD) (t : Fin cfg4.N) (p : Fin 4000) (q : Fin 64) (k : Fin 200000) (hk : k.val = 4000 * t.val + p.val) :
    (iblk4 V c 0 t : Vec Ideal S4000x64 .f32) (ix2 p q) = (V c (Pipeline.arrRef spec4 0) : S200000x64.Idx → EReal) (ix2 k q) := by
  have e := idx_facts t
  unfold iblk4
  rw [View.read_apply]
  show (V c (Pipeline.arrRef spec4 0) : S200000x64.Idx → EReal) _ = _
  refine congrArg _ (funext fun ax => Fin.ext ?_)
  match ax with
  | ⟨0, _⟩ => show win4_0.index t (0 : Fin 2) * 4000 + 1 * p.val = k.val; rw [e.w0a, hk]; omega
  | ⟨1, _⟩ => show win4_0.index t (1 : Fin 2) * 64 + 1 * q.val = q.val; rw [e.w0b]; omega

/-- The first weight matrix's one block is the whole array. -/
theorem blk1_apply (c : Dev nD) (t : Fin cfg4.N) (a : Fin 64) (b : Fin 32) :
    (iblk4 V c 1 t : Vec Ideal S64x32 .f32) (ix2 a b) = (V c (Pipeline.arrRef spec4 1) : S64x32.Idx → EReal) (ix2 a b) := by
  have e := idx_facts t
  unfold iblk4
  rw [View.read_apply]
  show (V c (Pipeline.arrRef spec4 1) : S64x32.Idx → EReal) _ = _
  refine congrArg _ (funext fun ax => Fin.ext ?_)
  match ax with
  | ⟨0, _⟩ => show win4_1.index t (0 : Fin 2) * 64 + 1 * a.val = a.val; rw [e.w1a]; omega
  | ⟨1, _⟩ => show win4_1.index t (1 : Fin 2) * 32 + 1 * b.val = b.val; rw [e.w1b]; omega

/-- The first bias vector's one block is the whole array. -/
theorem blk2_apply (c : Dev nD) (t : Fin cfg4.N) (a : Fin 32) :
    (iblk4 V c 2 t : Vec Ideal S32 .f32) (ix1 a) = (V c (Pipeline.arrRef spec4 2) : S32.Idx → EReal) (ix1 a) := by
  have e := idx_facts t
  unfold iblk4
  rw [View.read_apply]
  show (V c (Pipeline.arrRef spec4 2) : S32.Idx → EReal) _ = _
  refine congrArg _ (funext fun ax => Fin.ext ?_)
  match ax with
  | ⟨0, _⟩ => show win4_2.index t (0 : Fin 1) * 32 + 1 * a.val = a.val; rw [e.w2a]; omega

/-- The second weight matrix's one block is the whole array. -/
theorem blk3_apply (c : Dev nD) (t : Fin cfg4.N) (a : Fin 32) (b : Fin 32) :
    (iblk4 V c 3 t : Vec Ideal S32x32 .f32) (ix2 a b) = (V c (Pipeline.arrRef spec4 3) : S32x32.Idx → EReal) (ix2 a b) := by
  have e := idx_facts t
  unfold iblk4
  rw [View.read_apply]
  show (V c (Pipeline.arrRef spec4 3) : S32x32.Idx → EReal) _ = _
  refine congrArg _ (funext fun ax => Fin.ext ?_)
  match ax with
  | ⟨0, _⟩ => show win4_3.index t (0 : Fin 2) * 32 + 1 * a.val = a.val; rw [e.w3a]; omega
  | ⟨1, _⟩ => show win4_3.index t (1 : Fin 2) * 32 + 1 * b.val = b.val; rw [e.w3b]; omega

/-- The second bias vector's one block is the whole array. -/
theorem blk4_apply (c : Dev nD) (t : Fin cfg4.N) (a : Fin 32) :
    (iblk4 V c 4 t : Vec Ideal S32 .f32) (ix1 a) = (V c (Pipeline.arrRef spec4 4) : S32.Idx → EReal) (ix1 a) := by
  have e := idx_facts t
  unfold iblk4
  rw [View.read_apply]
  show (V c (Pipeline.arrRef spec4 4) : S32.Idx → EReal) _ = _
  refine congrArg _ (funext fun ax => Fin.ext ?_)
  match ax with
  | ⟨0, _⟩ => show win4_4.index t (0 : Fin 1) * 32 + 1 * a.val = a.val; rw [e.w4a]; omega

/-! ## The three results -/

/-- The perceptron of the input array by the weights and biases the region finds, at a row and a column. -/
def H (c : Dev nD) : Fin 200000 → Fin 32 → EReal :=
  mlpAt (V c (Pipeline.arrRef spec4 0) : S200000x64.Idx → EReal)
    (V c (Pipeline.arrRef spec4 1) : S64x32.Idx → EReal)
    (V c (Pipeline.arrRef spec4 2) : S32.Idx → EReal)
    (V c (Pipeline.arrRef spec4 3) : S32x32.Idx → EReal)
    (V c (Pipeline.arrRef spec4 4) : S32.Idx → EReal)

/-- Window 5: the perceptron output, row by row. -/
def resultMlp (c : Dev nD) : S200000x32.Idx → EReal := fun i => H V c (i 0) (i 1)

/-- Window 6: its column sums over the 50 tiles of 4000 rows. -/
def resultSum (c : Dev nD) : S1x32.Idx → EReal :=
  fun i => colSumAt 50 4000 (by decide : 50 * 4000 = 200000) (H V c) (i 1)

/-- Window 7: the column sums of its squares. -/
def resultSumSq (c : Dev nD) : S1x32.Idx → EReal :=
  fun i => colSumAt 50 4000 (by decide : 50 * 4000 = 200000) (fun r q => H V c r q * H V c r q) (i 1)

/-- The perceptron of tile t at its row p is the perceptron of the array at row 4000 t + p. -/
theorem tile_mlp (c : Dev nD) (t : Fin cfg4.N) (ht : t.val < 50) (p : Fin 4000) (q : Fin 32) :
    mlpAt (iblk4 V c 0 t : Vec Ideal S4000x64 .f32) (iblk4 V c 1 t : Vec Ideal S64x32 .f32) (iblk4 V c 2 t : Vec Ideal S32 .f32) (iblk4 V c 3 t : Vec Ideal S32x32 .f32) (iblk4 V c 4 t : Vec Ideal S32 .f32) p q
      = H V c (tileRow (T := 50) (R := 4000) (n := 200000) (by decide) ⟨t.val, ht⟩ p) q :=
  mlpAt_congr q (fun a => blk0_apply V c t p a _ rfl) (fun a b => blk1_apply V c t a b) (fun b => blk2_apply V c t b)
    (fun a b => blk3_apply V c t a b) (fun b => blk4_apply V c t b)

/-! ## The output buffers after each grid point -/

/-- After any grid point the tile buffer holds the perceptron of the point's tile. -/
theorem out5_eq (c : Dev nD) (t : Fin cfg4.N) :
    (outsAt4 V c t.val t.isLt).1 = k4_pay4 (iblk4 V c 0 t : Vec Ideal S4000x64 .f32) (iblk4 V c 1 t : Vec Ideal S64x32 .f32) (iblk4 V c 2 t : Vec Ideal S32 .f32) (iblk4 V c 3 t : Vec Ideal S32x32 .f32) (iblk4 V c 4 t : Vec Ideal S32 .f32) := by
  by_cases h0 : t.val % 50 = 0
  · rw [outsAt4_A V c t h0]
    dsimp only
    exact outA5_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)
  · rw [outsAt4_B V c t h0]
    dsimp only
    exact outB5_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) _ _

/-- After grid point n the row of column sums holds the parts of tiles 0 … n, added in that order. -/
theorem sums_eq (c : Dev nD) : ∀ (n : ℕ) (h : n < cfg4.N),
    (outsAt4 V c n h).2.1
      = (fun j : S1x32.Idx => ∑ k ∈ Finset.range (n + 1), tileSum 50 4000 (by decide : 50 * 4000 = 200000) (H V c) k (j 1))
  | 0, h => by
    refine (congrArg (fun z => z.2.1) (outsAt4_A V c ⟨0, h⟩ (Nat.zero_mod _))).trans ?_
    dsimp only
    rw [outA6_eq]
    funext j
    obtain ⟨u, q, rfl⟩ : ∃ (u : Fin 1) (q : Fin 32), j = ix2 u q := ⟨j 0, j 1, eq_ix2 j⟩
    refine (MlpPayL2i.sum_apply _ _ _ _ _ _ u q).trans ?_
    rw [MlpPayL2i.zero_sum_apply, zero_add, Finset.sum_range_one, tileSum_of_lt 50 4000 _ _ (by decide : 0 < 50)]
    exact Finset.sum_congr rfl fun p _ => tile_mlp V c ⟨0, h⟩ (Nat.succ_pos 49) p q
  | n + 1, h => by
    have hN : n + 1 < 50 := lt_of_lt_of_eq h N_4
    have hB : ¬(⟨n + 1, h⟩ : Fin cfg4.N).val % 50 = 0 := by dsimp only; omega
    refine (congrArg (fun z => z.2.1) (outsAt4_B V c ⟨n + 1, h⟩ hB)).trans ?_
    dsimp only
    rw [outB6_eq]
    funext j
    obtain ⟨u, q, rfl⟩ : ∃ (u : Fin 1) (q : Fin 32), j = ix2 u q := ⟨j 0, j 1, eq_ix2 j⟩
    refine (MlpPayL2i.sum_apply _ _ _ _ _ _ u q).trans ?_
    rw [Finset.sum_range_succ _ (n + 1), tileSum_of_lt 50 4000 _ _ hN]
    refine congrArg₂ (· + ·) ?_ (Finset.sum_congr rfl fun p _ => tile_mlp V c ⟨n + 1, h⟩ hN p q)
    exact congrFun (sums_eq c n (Nat.lt_of_succ_lt h)) (ix2 u q)

/-- After grid point n the row of sums of squares holds the parts of tiles 0 … n, added in that order. -/
theorem sumsqs_eq (c : Dev nD) : ∀ (n : ℕ) (h : n < cfg4.N),
    (outsAt4 V c n h).2.2
      = (fun j : S1x32.Idx => ∑ k ∈ Finset.range (n + 1),
          tileSum 50 4000 (by decide : 50 * 4000 = 200000) (fun r q => H V c r q * H V c r q) k (j 1))
  | 0, h => by
    refine (congrArg (fun z => z.2.2) (outsAt4_A V c ⟨0, h⟩ (Nat.zero_mod _))).trans ?_
    dsimp only
    rw [outA7_eq]
    funext j
    obtain ⟨u, q, rfl⟩ : ∃ (u : Fin 1) (q : Fin 32), j = ix2 u q := ⟨j 0, j 1, eq_ix2 j⟩
    refine (MlpPayL2i.sumsq_apply _ _ _ _ _ _ u q).trans ?_
    rw [MlpPayL2i.zero_sumsq_apply, zero_add, Finset.sum_range_one, tileSum_of_lt 50 4000 _ _ (by decide : 0 < 50)]
    exact Finset.sum_congr rfl fun p _ => by rw [tile_mlp V c ⟨0, h⟩ (Nat.succ_pos 49) p q]
  | n + 1, h => by
    have hN : n + 1 < 50 := lt_of_lt_of_eq h N_4
    have hB : ¬(⟨n + 1, h⟩ : Fin cfg4.N).val % 50 = 0 := by dsimp only; omega
    refine (congrArg (fun z => z.2.2) (outsAt4_B V c ⟨n + 1, h⟩ hB)).trans ?_
    dsimp only
    rw [outB7_eq]
    funext j
    obtain ⟨u, q, rfl⟩ : ∃ (u : Fin 1) (q : Fin 32), j = ix2 u q := ⟨j 0, j 1, eq_ix2 j⟩
    refine (MlpPayL2i.sumsq_apply _ _ _ _ _ _ u q).trans ?_
    rw [Finset.sum_range_succ _ (n + 1), tileSum_of_lt 50 4000 _ _ hN]
    refine congrArg₂ (· + ·) ?_ (Finset.sum_congr rfl fun p _ => by rw [tile_mlp V c ⟨n + 1, h⟩ hN p q])
    exact congrFun (sumsqs_eq c n (Nat.lt_of_succ_lt h)) (ix2 u q)

/-! ## From the buffers to the arrays -/

/-- What grid point t writes back of window 5 is rows 4000 t … 4000 t + 3999 of the perceptron output. -/
theorem flushed5_eq (c : Dev nD) (t : Fin cfg4.N) :
    (dat4 V c).flushed 5 t = ((cfg4.win 5).blk t).view.read (Elt Ideal) (resultMlp V c) := by
  have hN : t.val < 50 := lt_of_lt_of_eq t.isLt N_4
  have e := idx_facts t
  show (cfg4.win 5).cut (grid4.coords t) ((dat4 V c).after 5 t) = _
  rw [after4_5, out5_eq]
  funext j
  obtain ⟨p, q, rfl⟩ : ∃ (p : Fin 4000) (q : Fin 32), j = ix2 p q := ⟨j 0, j 1, eq_ix2 j⟩
  show k4_pay4 (iblk4 V c 0 t : Vec Ideal S4000x64 .f32) (iblk4 V c 1 t : Vec Ideal S64x32 .f32) (iblk4 V c 2 t : Vec Ideal S32 .f32) (iblk4 V c 3 t : Vec Ideal S32x32 .f32) (iblk4 V c 4 t : Vec Ideal S32 .f32) (ix2 p q)
    = resultMlp V c (((cfg4.win 5).blk t).view.emb (ix2 p q))
  refine (MlpPayL2i.mlp_apply (iblk4 V c 0 t : Vec Ideal S4000x64 .f32) (iblk4 V c 1 t : Vec Ideal S64x32 .f32) (iblk4 V c 2 t : Vec Ideal S32 .f32) (iblk4 V c 3 t : Vec Ideal S32x32 .f32) (iblk4 V c 4 t : Vec Ideal S32 .f32) p q).trans ?_
  have hemb : ((cfg4.win 5).blk t).view.emb (ix2 p q)
      = ix2 (tileRow (T := 50) (R := 4000) (n := 200000) (by decide) ⟨t.val, hN⟩ p) q := by
    funext a; apply Fin.ext
    match a with
    | ⟨0, _⟩ => show win4_5.index t (0 : Fin 2) * 4000 + 1 * p.val = 4000 * t.val + p.val; rw [e.w5a]; omega
    | ⟨1, _⟩ => show win4_5.index t (1 : Fin 2) * 32 + 1 * q.val = q.val; rw [e.w5b]; omega
  rw [hemb]
  exact tile_mlp V c t hN p q

theorem mem_blk5 (t : Fin cfg4.N) (i : S200000x32.Idx) :
    i ∈ ((cfg4.win 5).blk t).view.set ↔ ∀ a : Fin 2, win4_5.index t a * S4000x32.size a ≤ (i a).val ∧ (i a).val < win4_5.index t a * S4000x32.size a + S4000x32.size a := by
  show i ∈ ((View.whole (Pipeline.arrRef spec4 5)).slice (win4_5.rect t)).set ↔ _
  rw [View.set_slice_whole, Rect.mem_set_unit]
  exact Iff.rfl

/-- Row r of the array lies in the block of point r / 4000. -/
theorem cover5 (i : S200000x32.Idx) : ∃ t : Fin cfg4.N, (cfg4.win 5).flush t = true ∧ i ∈ ((cfg4.win 5).blk t).view.set := by
  have hi0 : (i 0).val < 200000 := (i 0).isLt
  have hi1 : (i 1).val < 32 := (i 1).isLt
  have hN : cfg4.N = 50 := N_4
  let t : Fin cfg4.N := ⟨(i 0).val / 4000, by rw [hN]; omega⟩
  have e := idx_facts t
  have ht : t.val = (i 0).val / 4000 := rfl
  refine ⟨t, flush4_5 t, ?_⟩
  rw [mem_blk5]
  intro a
  match a with
  | ⟨0, _⟩ => show win4_5.index t (0 : Fin 2) * 4000 ≤ (i 0).val ∧ (i 0).val < win4_5.index t (0 : Fin 2) * 4000 + 4000; rw [e.w5a, ht]; omega
  | ⟨1, _⟩ => show win4_5.index t (1 : Fin 2) * 32 ≤ (i 1).val ∧ (i 1).val < win4_5.index t (1 : Fin 2) * 32 + 32; rw [e.w5b]; omega

/-- Window 5's array after the region is the perceptron output. -/
theorem final5 (c : Dev nD) : (dat4 V c).arrAt 5 cfg4.N = resultMlp V c :=
  (dat4 V c).arrAt_eq_of_cover 5 (resultMlp V c) (fun t _ => flushed5_eq V c t) cover5

/-- The one write-back of window 6, after the last grid point, writes the column sums. -/
theorem flushed6_eq (c : Dev nD) (t : Fin cfg4.N) (hf : (cfg4.win 6).flush t = true) :
    (dat4 V c).flushed 6 t = ((cfg4.win 6).blk t).view.read (Elt Ideal) (resultSum V c) := by
  have hN : t.val < 50 := lt_of_lt_of_eq t.isLt N_4
  have h49 : t.val = 49 := by have := (flush4_6 t).mp hf; omega
  have e := idx_facts t
  show (cfg4.win 6).cut (grid4.coords t) ((dat4 V c).after 6 t) = _
  rw [after4_6, sums_eq V c t.val t.isLt]
  funext j
  obtain ⟨u, q, rfl⟩ : ∃ (u : Fin 1) (q : Fin 32), j = ix2 u q := ⟨j 0, j 1, eq_ix2 j⟩
  show (∑ k ∈ Finset.range (t.val + 1), tileSum 50 4000 (by decide : 50 * 4000 = 200000) (H V c) k q)
    = resultSum V c (((cfg4.win 6).blk t).view.emb (ix2 u q))
  have hemb : ((cfg4.win 6).blk t).view.emb (ix2 u q) = ix2 u q := by
    funext a; apply Fin.ext
    match a with
    | ⟨0, _⟩ => show win4_6.index t (0 : Fin 2) * 1 + 1 * u.val = u.val; rw [e.w6a]; omega
    | ⟨1, _⟩ => show win4_6.index t (1 : Fin 2) * 32 + 1 * q.val = q.val; rw [e.w6b]; omega
  rw [hemb, h49]
  exact (colSumAt_eq_range 50 4000 _ (H V c) q).symm

theorem mem_blk6 (t : Fin cfg4.N) (i : S1x32.Idx) :
    i ∈ ((cfg4.win 6).blk t).view.set ↔ ∀ a : Fin 2, win4_6.index t a * S1x32.size a ≤ (i a).val ∧ (i a).val < win4_6.index t a * S1x32.size a + S1x32.size a := by
  show i ∈ ((View.whole (Pipeline.arrRef spec4 6)).slice (win4_6.rect t)).set ↔ _
  rw [View.set_slice_whole, Rect.mem_set_unit]
  exact Iff.rfl

/-- The last grid point's block is the whole [1, 32] array. -/
theorem cover6 (i : S1x32.Idx) : ∃ t : Fin cfg4.N, (cfg4.win 6).flush t = true ∧ i ∈ ((cfg4.win 6).blk t).view.set := by
  have hi0 : (i 0).val < 1 := (i 0).isLt
  have hi1 : (i 1).val < 32 := (i 1).isLt
  have hN : cfg4.N = 50 := N_4
  let t : Fin cfg4.N := ⟨49, by rw [hN]; omega⟩
  have e := idx_facts t
  refine ⟨t, (flush4_6 t).mpr rfl, ?_⟩
  rw [mem_blk6]
  intro a
  match a with
  | ⟨0, _⟩ => show win4_6.index t (0 : Fin 2) * 1 ≤ (i 0).val ∧ (i 0).val < win4_6.index t (0 : Fin 2) * 1 + 1; rw [e.w6a]; omega
  | ⟨1, _⟩ => show win4_6.index t (1 : Fin 2) * 32 ≤ (i 1).val ∧ (i 1).val < win4_6.index t (1 : Fin 2) * 32 + 32; rw [e.w6b]; omega

/-- Window 6's array after the region is the column sums. -/
theorem final6 (c : Dev nD) : (dat4 V c).arrAt 6 cfg4.N = resultSum V c :=
  (dat4 V c).arrAt_eq_of_cover 6 (resultSum V c) (fun t hf => flushed6_eq V c t hf) cover6

/-- The one write-back of window 7, after the last grid point, writes the column sums of squares. -/
theorem flushed7_eq (c : Dev nD) (t : Fin cfg4.N) (hf : (cfg4.win 7).flush t = true) :
    (dat4 V c).flushed 7 t = ((cfg4.win 7).blk t).view.read (Elt Ideal) (resultSumSq V c) := by
  have hN : t.val < 50 := lt_of_lt_of_eq t.isLt N_4
  have h49 : t.val = 49 := by have := (flush4_7 t).mp hf; omega
  have e := idx_facts t
  show (cfg4.win 7).cut (grid4.coords t) ((dat4 V c).after 7 t) = _
  rw [after4_7, sumsqs_eq V c t.val t.isLt]
  funext j
  obtain ⟨u, q, rfl⟩ : ∃ (u : Fin 1) (q : Fin 32), j = ix2 u q := ⟨j 0, j 1, eq_ix2 j⟩
  show (∑ k ∈ Finset.range (t.val + 1), tileSum 50 4000 (by decide : 50 * 4000 = 200000) (fun r q => H V c r q * H V c r q) k q)
    = resultSumSq V c (((cfg4.win 7).blk t).view.emb (ix2 u q))
  have hemb : ((cfg4.win 7).blk t).view.emb (ix2 u q) = ix2 u q := by
    funext a; apply Fin.ext
    match a with
    | ⟨0, _⟩ => show win4_7.index t (0 : Fin 2) * 1 + 1 * u.val = u.val; rw [e.w7a]; omega
    | ⟨1, _⟩ => show win4_7.index t (1 : Fin 2) * 32 + 1 * q.val = q.val; rw [e.w7b]; omega
  rw [hemb, h49]
  exact (colSumAt_eq_range 50 4000 _ (fun r q => H V c r q * H V c r q) q).symm

theorem mem_blk7 (t : Fin cfg4.N) (i : S1x32.Idx) :
    i ∈ ((cfg4.win 7).blk t).view.set ↔ ∀ a : Fin 2, win4_7.index t a * S1x32.size a ≤ (i a).val ∧ (i a).val < win4_7.index t a * S1x32.size a + S1x32.size a := by
  show i ∈ ((View.whole (Pipeline.arrRef spec4 7)).slice (win4_7.rect t)).set ↔ _
  rw [View.set_slice_whole, Rect.mem_set_unit]
  exact Iff.rfl

/-- The last grid point's block is the whole [1, 32] array. -/
theorem cover7 (i : S1x32.Idx) : ∃ t : Fin cfg4.N, (cfg4.win 7).flush t = true ∧ i ∈ ((cfg4.win 7).blk t).view.set := by
  have hi0 : (i 0).val < 1 := (i 0).isLt
  have hi1 : (i 1).val < 32 := (i 1).isLt
  have hN : cfg4.N = 50 := N_4
  let t : Fin cfg4.N := ⟨49, by rw [hN]; omega⟩
  have e := idx_facts t
  refine ⟨t, (flush4_7 t).mpr rfl, ?_⟩
  rw [mem_blk7]
  intro a
  match a with
  | ⟨0, _⟩ => show win4_7.index t (0 : Fin 2) * 1 ≤ (i 0).val ∧ (i 0).val < win4_7.index t (0 : Fin 2) * 1 + 1; rw [e.w7a]; omega
  | ⟨1, _⟩ => show win4_7.index t (1 : Fin 2) * 32 ≤ (i 1).val ∧ (i 1).val < win4_7.index t (1 : Fin 2) * 32 + 32; rw [e.w7b]; omega

/-- Window 7's array after the region is the column sums of squares. -/
theorem final7 (c : Dev nD) : (dat4 V c).arrAt 7 cfg4.N = resultSumSq V c :=
  (dat4 V c).arrAt_eq_of_cover 7 (resultSumSq V c) (fun t hf => flushed7_eq V c t hf) cover7

/-! ## The windows' arrays, by name -/

theorem arr0 : Pipeline.arrRef spec4 0 = main_v69 := rfl
theorem arr1 : Pipeline.arrRef spec4 1 = main_arg14 := rfl
theorem arr2 : Pipeline.arrRef spec4 2 = main_arg15 := rfl
theorem arr3 : Pipeline.arrRef spec4 3 = main_arg16 := rfl
theorem arr4 : Pipeline.arrRef spec4 4 = main_arg17 := rfl
theorem arr5 : Pipeline.arrRef spec4 5 = main_v70_0 := rfl
theorem arr6 : Pipeline.arrRef spec4 6 = main_v70_1 := rfl
theorem arr7 : Pipeline.arrRef spec4 7 = main_v70_2 := rfl

end Cert.KernelIdeal.MlpRunL2i

end
-- ==== Proof.AffinePayL2i.lean ====
/- The value the store of the second device pass of one GIN layer writes, read index by index at the ideal values: a
   [4000, 32] tile of rows, each column centred by the given mean, scaled, multiplied by the reciprocal square root of the
   given variance plus a literal, and shifted — in the device's order of operations. -/
import proofs.«120907_j71768903516484_1_alg».proof.Proof.Gen.KernelIdeal.Skeleton
import proofs.«120907_j71768903516484_1_alg».proof.Proof.GinSpec
import Idealize.ShloMosaic.Lib.ValueLayout
import Idealize.ShloMosaic.Lib.Pipeline.Value

noncomputable section

open Idealize.ShloMosaic Idealize.ShloMosaic.ValueIdx

namespace Cert.KernelIdeal.AffinePayL2i

open Cert.KernelIdeal Cert.KernelIdeal.Gen Cert.KernelIdeal.GinSpec

/-- The normalised tile at row r, column c. -/
theorem affine_apply (v0 : Vec Ideal S4000x32 .f32) (v2 v4 : Vec Ideal S1x32 .f32) (v9 v17 : Vec Ideal S32 .f32)
    (r : Fin 4000) (c : Fin 32) :
    k5_pay1 v0 v2 v4 v9 v17 (ix2 r c) = bnAffineAt v0 v2 v4 v9 v17 r c := by
  unfold k5_pay1 bnAffineAt
  rw [addf_apply, mulf_apply, mulf_apply, subf_apply]
  rw [broadcastTo_1b_ab_apply, broadcastTo_1b_ab_apply, broadcastTo_1b_ab_apply, broadcastTo_1b_ab_apply]
  rw [shapeCast_a_1a_apply, shapeCast_a_1a_apply, shapeCast_self, shapeCast_self, shapeCast_self]
  rfl

end Cert.KernelIdeal.AffinePayL2i

end
-- ==== Proof.AffineRunL2i.lean ====
/- The array the second device pass of one GIN layer leaves (region 5: [200000, 32] rows in 50 tiles of 4000), for any
   contents of the device's buffers when the region is entered: tile t of the output is the affine normalisation of tile
   t of the input by the one-block mean, variance, scale and shift arrays, the tiles cover the array, so the output array
   is the affine normalisation of the input array, index by index. -/
import proofs.«120907_j71768903516484_1_alg».proof.Proof.KIFrameP
import proofs.«120907_j71768903516484_1_alg».proof.Proof.AffinePayL2i
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AffineRunL2i

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the tile windows sit at block (t, 0), the one-block windows at block 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 1) = 0 ∧ win5_4.index t (0 : Fin 1) = 0
    ∧ win5_5.index t (0 : Fin 2) = t.val ∧ win5_5.index t (1 : Fin 2) = 0 :=
  (by decide +kernel : ∀ t : Fin grid5.N, _)

/-- Row p of the input tile at point t is row 4000 t + p of the input array. -/
theorem blk0_apply (c : Dev nD) (t : Fin cfg5.N) (p : Fin 4000) (q : Fin 32) (k : Fin 200000) (hk : k.val = 4000 * t.val + p.val) :
    (iblk5 V c 0 t : Vec Ideal S4000x32 .f32) (ix2 p q) = (V c (Pipeline.arrRef spec5 0) : S200000x32.Idx → EReal) (ix2 k q) := by
  obtain ⟨e0, e1, -⟩ := idx_facts t
  unfold iblk5
  rw [View.read_apply]
  show (V c (Pipeline.arrRef spec5 0) : S200000x32.Idx → EReal) _ = _
  refine congrArg _ (funext fun a => Fin.ext ?_)
  match a with
  | ⟨0, _⟩ => show win5_0.index t (0 : Fin 2) * 4000 + 1 * p.val = k.val; rw [e0, hk]; omega
  | ⟨1, _⟩ => show win5_0.index t (1 : Fin 2) * 32 + 1 * q.val = q.val; rw [e1]; omega

/-- The mean's one block is the mean array. -/
theorem blk1_apply (c : Dev nD) (t : Fin cfg5.N) (u : Fin 1) (q : Fin 32) :
    (iblk5 V c 1 t : Vec Ideal S1x32 .f32) (ix2 u q) = (V c (Pipeline.arrRef spec5 1) : S1x32.Idx → EReal) (ix2 u q) := by
  obtain ⟨-, -, e0, e1, -⟩ := idx_facts t
  unfold iblk5
  rw [View.read_apply]
  show (V c (Pipeline.arrRef spec5 1) : S1x32.Idx → EReal) _ = _
  refine congrArg _ (funext fun a => Fin.ext ?_)
  match a with
  | ⟨0, _⟩ => show win5_1.index t (0 : Fin 2) * 1 + 1 * u.val = u.val; rw [e0]; omega
  | ⟨1, _⟩ => show win5_1.index t (1 : Fin 2) * 32 + 1 * q.val = q.val; rw [e1]; omega

/-- The variance's one block is the variance array. -/
theorem blk2_apply (c : Dev nD) (t : Fin cfg5.N) (u : Fin 1) (q : Fin 32) :
    (iblk5 V c 2 t : Vec Ideal S1x32 .f32) (ix2 u q) = (V c (Pipeline.arrRef spec5 2) : S1x32.Idx → EReal) (ix2 u q) := by
  obtain ⟨-, -, -, -, e0, e1, -⟩ := idx_facts t
  unfold iblk5
  rw [View.read_apply]
  show (V c (Pipeline.arrRef spec5 2) : S1x32.Idx → EReal) _ = _
  refine congrArg _ (funext fun a => Fin.ext ?_)
  match a with
  | ⟨0, _⟩ => show win5_2.index t (0 : Fin 2) * 1 + 1 * u.val = u.val; rw [e0]; omega
  | ⟨1, _⟩ => show win5_2.index t (1 : Fin 2) * 32 + 1 * q.val = q.val; rw [e1]; omega

/-- The scale's one block is the scale array. -/
theorem blk3_apply (c : Dev nD) (t : Fin cfg5.N) (q : Fin 32) :
    (iblk5 V c 3 t : Vec Ideal S32 .f32) (ix1 q) = (V c (Pipeline.arrRef spec5 3) : S32.Idx → EReal) (ix1 q) := by
  obtain ⟨-, -, -, -, -, -, e0, -⟩ := idx_facts t
  unfold iblk5
  rw [View.read_apply]
  show (V c (Pipeline.arrRef spec5 3) : S32.Idx → EReal) _ = _
  refine congrArg _ (funext fun a => Fin.ext ?_)
  match a with
  | ⟨0, _⟩ => show win5_3.index t (0 : Fin 1) * 32 + 1 * q.val = q.val; rw [e0]; omega

/-- The shift's one block is the shift array. -/
theorem blk4_apply (c : Dev nD) (t : Fin cfg5.N) (q : Fin 32) :
    (iblk5 V c 4 t : Vec Ideal S32 .f32) (ix1 q) = (V c (Pipeline.arrRef spec5 4) : S32.Idx → EReal) (ix1 q) := by
  obtain ⟨-, -, -, -, -, -, -, e0, -⟩ := idx_facts t
  unfold iblk5
  rw [View.read_apply]
  show (V c (Pipeline.arrRef spec5 4) : S32.Idx → EReal) _ = _
  refine congrArg _ (funext fun a => Fin.ext ?_)
  match a with
  | ⟨0, _⟩ => show win5_4.index t (0 : Fin 1) * 32 + 1 * q.val = q.val; rw [e0]; omega

/-- The normalised array: the affine normalisation of the input array by the mean, variance, scale and shift arrays the
    region finds. -/
def result (c : Dev nD) : S200000x32.Idx → EReal :=
  bnAffine (V c (Pipeline.arrRef spec5 0) : S200000x32.Idx → EReal) (V c (Pipeline.arrRef spec5 1) : S1x32.Idx → EReal)
    (V c (Pipeline.arrRef spec5 2) : S1x32.Idx → EReal) (V c (Pipeline.arrRef spec5 3) : S32.Idx → EReal)
    (V c (Pipeline.arrRef spec5 4) : S32.Idx → EReal)

set_option maxHeartbeats 1000000 in
/-- What grid point t writes back is rows 4000 t … 4000 t + 3999 of the normalised array. -/
theorem flushed_eq (c : Dev nD) (t : Fin cfg5.N) :
    (dat5 V c).flushed 5 t = ((cfg5.win 5).blk t).view.read (Elt Ideal) (result V c) := by
  show (cfg5.win 5).cut (grid5.coords t) ((dat5 V c).after 5 t) = _
  rw [after5_5]
  unfold out5_5
  rw [View.canon_unit_zero hz2]
  simp only [View.ld_unit_zero (S := S4000x32) hz2, View.ld_unit_zero (S := S1x32) hz2, View.ld_unit_zero (S := S32) hz1]
  funext j
  obtain ⟨p, q, rfl⟩ : ∃ (p : Fin 4000) (q : Fin 32), j = ix2 p q := ⟨j 0, j 1, eq_ix2 j⟩
  obtain ⟨-, -, -, -, -, -, -, -, e8, e9⟩ := idx_facts t
  have hN : t.val < 50 := lt_of_lt_of_eq t.isLt N_5
  show k5_pay1 (iblk5 V c 0 t) (iblk5 V c 1 t) (iblk5 V c 2 t) (iblk5 V c 3 t) (iblk5 V c 4 t) (ix2 p q)
    = result V c (((cfg5.win 5).blk t).view.emb (ix2 p q))
  refine (AffinePayL2i.affine_apply (iblk5 V c 0 t) (iblk5 V c 1 t) (iblk5 V c 2 t) (iblk5 V c 3 t) (iblk5 V c 4 t) p q).trans ?_
  have hemb : ((cfg5.win 5).blk t).view.emb (ix2 p q) = ix2 (⟨4000 * t.val + p.val, by omega⟩ : Fin 200000) q := by
    funext a; apply Fin.ext
    match a with
    | ⟨0, _⟩ => show win5_5.index t (0 : Fin 2) * 4000 + 1 * p.val = 4000 * t.val + p.val; rw [e8]; omega
    | ⟨1, _⟩ => show win5_5.index t (1 : Fin 2) * 32 + 1 * q.val = q.val; rw [e9]; omega
  rw [hemb]
  unfold result bnAffine bnAffineAt
  rw [blk0_apply V c t p q ⟨4000 * t.val + p.val, by omega⟩ rfl, blk1_apply V c t 0 q, blk2_apply V c t 0 q,
    blk3_apply V c t q, blk4_apply V c t q]

/-- An index of the array is in point t's block iff each coordinate is in the block's range on its axis. -/
theorem mem_blk (t : Fin cfg5.N) (i : S200000x32.Idx) :
    i ∈ ((cfg5.win 5).blk t).view.set ↔ ∀ a : Fin 2, win5_5.index t a * S4000x32.size a ≤ (i a).val ∧ (i a).val < win5_5.index t a * S4000x32.size a + S4000x32.size a := by
  show i ∈ ((View.whole (Pipeline.arrRef spec5 5)).slice (win5_5.rect t)).set ↔ _
  rw [View.set_slice_whole, Rect.mem_set_unit]
  exact Iff.rfl

/-- Row r of the array lies in the block of point r / 4000. -/
theorem cover (i : S200000x32.Idx) : ∃ t : Fin cfg5.N, (cfg5.win 5).flush t = true ∧ i ∈ ((cfg5.win 5).blk t).view.set := by
  have hi0 : (i 0).val < 200000 := (i 0).isLt
  have hi1 : (i 1).val < 32 := (i 1).isLt
  have hN : cfg5.N = 50 := N_5
  let t : Fin cfg5.N := ⟨(i 0).val / 4000, by rw [hN]; omega⟩
  obtain ⟨-, -, -, -, -, -, -, -, e8, e9⟩ := idx_facts t
  have ht : t.val = (i 0).val / 4000 := rfl
  refine ⟨t, flush5_5 t, ?_⟩
  rw [mem_blk]
  intro a
  match a with
  | ⟨0, _⟩ => show win5_5.index t (0 : Fin 2) * 4000 ≤ (i 0).val ∧ (i 0).val < win5_5.index t (0 : Fin 2) * 4000 + 4000; rw [e8, ht]; omega
  | ⟨1, _⟩ => show win5_5.index t (1 : Fin 2) * 32 ≤ (i 1).val ∧ (i 1).val < win5_5.index t (1 : Fin 2) * 32 + 32; rw [e9]; omega

/-- The output array after the region is the normalised array. -/
theorem final (c : Dev nD) : (dat5 V c).arrAt 5 cfg5.N = result V c :=
  (dat5 V c).arrAt_eq_of_cover 5 (result V c) (fun t _ => flushed_eq V c t) cover

/-! ## The windows' arrays, by name -/

theorem arr0 : Pipeline.arrRef spec5 0 = main_v70_0 := rfl
theorem arr1 : Pipeline.arrRef spec5 1 = main_v72 := rfl
theorem arr2 : Pipeline.arrRef spec5 2 = main_v76 := rfl
theorem arr3 : Pipeline.arrRef spec5 3 = main_arg18 := rfl
theorem arr4 : Pipeline.arrRef spec5 4 = main_arg19 := rfl
theorem arr5 : Pipeline.arrRef spec5 5 = main_v77 := rfl

end Cert.KernelIdeal.AffineRunL2i

end
-- ==== Proof.MlpPayL2j.lean ====
/- The values the stores of the first device pass of one GIN layer write, read index by index at the ideal values: the
   two-layer perceptron of a [4000, 64] tile of rows (widths 64, 32, 32), its column sums added to a running [1, 32] row, and
   the column sums of its squares added to another.  Rounding to bf16 before each matrix product is the identity at the ideal
   values, a matrix product into the zero block is the plain sum of products, and a sum over the row axis is the sum over
   the tile's 4000 rows. -/
import proofs.«120907_j71768903516484_1_alg».proof.Proof.Gen.KernelIdeal.Skeleton
import proofs.«120907_j71768903516484_1_alg».proof.Proof.GinSpec
import Idealize.ShloMosaic.PureOps.Ideal.Laws
import Idealize.ShloMosaic.Lib.ValueLayout
import Idealize.ShloMosaic.Lib.Pipeline.Value

noncomputable section

open Idealize.ShloMosaic Idealize.ShloMosaic.ValueIdx

namespace Cert.KernelIdeal.MlpPayL2j

open Cert.KernelIdeal Cert.KernelIdeal.Gen Cert.KernelIdeal.GinSpec

/-- The device's matrix product of a [4000, 64] block by a [64, 32] matrix into the zero block, read at row r and column c:
    the sum over the contracted coordinate of the products of the entries. -/
theorem matmul1_at {φ₁ φ₂ : FTy} (lhs : FVec Ideal S4000x64 φ₁) (rhs : FVec Ideal S64x32 φ₂) (r : Fin 4000) (c : Fin 32) :
    matmul dot_S4000x64_S64x32_S4000x32_1_0_0_1_n_n none lhs rhs (constant (F := Ideal) S4000x32 .f32 0x00000000#32) (ix2 r c)
      = ∑ k : Fin 64, lhs (ix2 r k) * rhs (ix2 k c) := by
  show FloatOps.matmul _ none lhs rhs (constant (F := Ideal) S4000x32 .f32 0x00000000#32) (ix2 r c) = _
  rw [Ideal.matmul_constant_zero_apply, ← Equiv.sum_comp (contrEquiv1 dot_S4000x64_S64x32_S4000x32_1_0_0_1_n_n 64 rfl rfl).symm]
  refine Finset.sum_congr rfl fun k _ => ?_
  have c2 := contrEquiv1_symm_val dot_S4000x64_S64x32_S4000x32_1_0_0_1_n_n 64 rfl rfl k
  have l2 : dot_S4000x64_S64x32_S4000x32_1_0_0_1_n_n.lhsIdx (ix2 r c) ((contrEquiv1 _ 64 rfl rfl).symm k) = ix2 r k := by
    funext ax; apply Fin.ext
    match ax with
    | ⟨0, _⟩ => simp [DotDims.lhsIdx, dot_S4000x64_S64x32_S4000x32_1_0_0_1_n_n]; rfl
    | ⟨1, _⟩ => simp [DotDims.lhsIdx, dot_S4000x64_S64x32_S4000x32_1_0_0_1_n_n]; exact c2
  have r2 : dot_S4000x64_S64x32_S4000x32_1_0_0_1_n_n.rhsIdx (ix2 r c) ((contrEquiv1 _ 64 rfl rfl).symm k) = ix2 k c := by
    funext ax; apply Fin.ext
    match ax with
    | ⟨0, _⟩ => simp [DotDims.rhsIdx, dot_S4000x64_S64x32_S4000x32_1_0_0_1_n_n]; exact c2
    | ⟨1, _⟩ => simp [DotDims.rhsIdx, dot_S4000x64_S64x32_S4000x32_1_0_0_1_n_n]; rfl
  rw [l2, r2]

/-- The device's matrix product of a [4000, 32] block by a [32, 32] matrix into the zero block, read at row r and column c:
    the sum over the contracted coordinate of the products of the entries. -/
theorem matmul2_at {φ₁ φ₂ : FTy} (lhs : FVec Ideal S4000x32 φ₁) (rhs : FVec Ideal S32x32 φ₂) (r : Fin 4000) (c : Fin 32) :
    matmul dot_S4000x32_S32x32_S4000x32_1_0_0_1_n_n none lhs rhs (constant (F := Ideal) S4000x32 .f32 0x00000000#32) (ix2 r c)
      = ∑ k : Fin 32, lhs (ix2 r k) * rhs (ix2 k c) := by
  show FloatOps.matmul _ none lhs rhs (constant (F := Ideal) S4000x32 .f32 0x00000000#32) (ix2 r c) = _
  rw [Ideal.matmul_constant_zero_apply, ← Equiv.sum_comp (contrEquiv1 dot_S4000x32_S32x32_S4000x32_1_0_0_1_n_n 32 rfl rfl).symm]
  refine Finset.sum_congr rfl fun k _ => ?_
  have c2 := contrEquiv1_symm_val dot_S4000x32_S32x32_S4000x32_1_0_0_1_n_n 32 rfl rfl k
  have l2 : dot_S4000x32_S32x32_S4000x32_1_0_0_1_n_n.lhsIdx (ix2 r c) ((contrEquiv1 _ 32 rfl rfl).symm k) = ix2 r k := by
    funext ax; apply Fin.ext
    match ax with
    | ⟨0, _⟩ => simp [DotDims.lhsIdx, dot_S4000x32_S32x32_S4000x32_1_0_0_1_n_n]; rfl
    | ⟨1, _⟩ => simp [DotDims.lhsIdx, dot_S4000x32_S32x32_S4000x32_1_0_0_1_n_n]; exact c2
  have r2 : dot_S4000x32_S32x32_S4000x32_1_0_0_1_n_n.rhsIdx (ix2 r c) ((contrEquiv1 _ 32 rfl rfl).symm k) = ix2 k c := by
    funext ax; apply Fin.ext
    match ax with
    | ⟨0, _⟩ => simp [DotDims.rhsIdx, dot_S4000x32_S32x32_S4000x32_1_0_0_1_n_n]; exact c2
    | ⟨1, _⟩ => simp [DotDims.rhsIdx, dot_S4000x32_S32x32_S4000x32_1_0_0_1_n_n]; rfl
  rw [l2, r2]

/-- The tile's perceptron output at row r, column c. -/
theorem mlp_apply (v3 : Vec Ideal S4000x64 .f32) (v5 : Vec Ideal S64x32 .f32) (v9 : Vec Ideal S32 .f32)
    (v15 : Vec Ideal S32x32 .f32) (v19 : Vec Ideal S32 .f32) (r : Fin 4000) (c : Fin 32) :
    k6_pay4 v3 v5 v9 v15 v19 (ix2 r c) = mlpAt v3 v5 v9 v15 v19 r c := by
  unfold k6_pay4 mlpAt
  rw [addf_apply, matmul2_at, broadcastTo_1b_ab_apply, shapeCast_a_1a_apply]
  refine congrArg (· + v19 (ix1 c)) (Finset.sum_congr rfl fun q _ => ?_)
  rw [truncf_apply, truncf_apply, maximumf_apply, addf_apply, matmul1_at, broadcastTo_1b_ab_apply, shapeCast_a_1a_apply,
    broadcast_apply]
  simp only [truncf_apply, shapeCast_self]
  rw [Ideal.ofBits_def, Ideal.ofBits_zero_f32]

/-- A sum over the row axis of a [4000, 32] block, read at column c, is the sum of the column's 4000 entries. -/
theorem colsum_at (src : FVec Ideal S4000x32 .f32) (h : S4000x32.Reduces [0] S32) (hφ : FKind.Formats .f32)
    (hacc : (0x00000000#32 : BitVec 32) = 0x00000000#32) (c : Fin 32) :
    multiReduction (F := Ideal) .add [0] S32 src 0x00000000#32 h hφ hacc (ix1 c) = ∑ k : Fin 4000, src (ix2 k c) :=
  (Ideal.multiReduction_add_single src 0x00000000#32 h hφ hacc (ix1 c)).trans
    (Finset.sum_congr rfl fun k _ => congrArg src (funext fun a => Fin.ext (by
      match a with
      | ⟨0, _⟩ => rfl
      | ⟨1, _⟩ => rfl)))

/-- The running row of column sums after the tile: what it held plus the tile's column sums of the perceptron output. -/
theorem sum_apply (v3 : Vec Ideal S4000x64 .f32) (v5 : Vec Ideal S64x32 .f32) (v9 : Vec Ideal S32 .f32)
    (v15 : Vec Ideal S32x32 .f32) (v19 : Vec Ideal S32 .f32) (v24 : Vec Ideal S1x32 .f32) (u : Fin 1) (c : Fin 32) :
    k6_pay5 v3 v5 v9 v15 v19 v24 (ix2 u c) = v24 (ix2 u c) + ∑ k : Fin 4000, mlpAt v3 v5 v9 v15 v19 k c := by
  unfold k6_pay5
  rw [addf_apply, shapeCast_self, shapeCast_a_1a_apply, colsum_at]
  exact congrArg (v24 (ix2 u c) + ·) (Finset.sum_congr rfl fun k _ => mlp_apply v3 v5 v9 v15 v19 k c)

/-- A running row plus the column sums of a block. -/
theorem acc_apply (v31 : FVec Ideal S1x32 .f32) (v32 : FVec Ideal S4000x32 .f32) (u : Fin 1) (c : Fin 32) :
    k6_pay1 v31 v32 (ix2 u c) = v31 (ix2 u c) + ∑ k : Fin 4000, v32 (ix2 k c) := by
  unfold k6_pay1
  rw [addf_apply, shapeCast_a_1a_apply, colsum_at]

theorem carried_eq (v30 : Vec Ideal S1x32 .f32) : k6_pay6 v30 = v30 := by
  unfold k6_pay6
  rw [shapeCast_self]

/-- The squares of the tile's perceptron output. -/
theorem sq_apply (v3 : Vec Ideal S4000x64 .f32) (v5 : Vec Ideal S64x32 .f32) (v9 : Vec Ideal S32 .f32)
    (v15 : Vec Ideal S32x32 .f32) (v19 : Vec Ideal S32 .f32) (r : Fin 4000) (c : Fin 32) :
    k6_pay7 v3 v5 v9 v15 v19 (ix2 r c) = mlpAt v3 v5 v9 v15 v19 r c * mlpAt v3 v5 v9 v15 v19 r c := by
  unfold k6_pay7
  rw [mulf_apply, mlp_apply]

/-- The running row of sums of squares after the tile. -/
theorem sumsq_apply (v3 : Vec Ideal S4000x64 .f32) (v5 : Vec Ideal S64x32 .f32) (v9 : Vec Ideal S32 .f32)
    (v15 : Vec Ideal S32x32 .f32) (v19 : Vec Ideal S32 .f32) (v30 : Vec Ideal S1x32 .f32) (u : Fin 1) (c : Fin 32) :
    k6_pay1 (k6_pay6 v30) (k6_pay7 v3 v5 v9 v15 v19) (ix2 u c)
      = v30 (ix2 u c) + ∑ k : Fin 4000, mlpAt v3 v5 v9 v15 v19 k c * mlpAt v3 v5 v9 v15 v19 k c := by
  rw [acc_apply, carried_eq]
  exact congrArg (v30 (ix2 u c) + ·) (Finset.sum_congr rfl fun k _ => sq_apply v3 v5 v9 v15 v19 k c)

/-- The two zero rows the first grid point stores. -/
theorem zero_sum_apply (j : S1x32.Idx) : k6_pay2 (F := Ideal) j = 0 := by
  unfold k6_pay2
  rw [broadcast_apply]
  exact Ideal.ofBits_zero_f32

theorem zero_sumsq_apply (j : S1x32.Idx) : k6_pay3 (F := Ideal) j = 0 := by
  unfold k6_pay3
  rw [broadcast_apply]
  exact Ideal.ofBits_zero_f32

end Cert.KernelIdeal.MlpPayL2j

end
-- ==== Proof.MlpRunL2j.lean ====
/- The three arrays the first device pass of one GIN layer leaves (region 6: [200000, 64] rows in 50 tiles of 4000, widths
   64, 32, 32), for any contents of the device's buffers when the region is entered.  Each control case's stores are read as
   values of the point's input blocks; the tile window's block at point t is rows 4000 t … 4000 t + 3999 of the array and
   the other input windows' one block is their whole array; so the tile output is the two-layer perceptron of the input
   array row by row, and, by induction over the grid points (the first point zeroes the two running rows, every point
   adds its tile's column sums), after the last point the two [1, 32] rows hold the column sums of the perceptron output
   and of its squares, tile after tile. -/
import proofs.«120907_j71768903516484_1_alg».proof.Proof.KIFrameP
import proofs.«120907_j71768903516484_1_alg».proof.Proof.MlpPayL2j
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MlpRunL2j

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## What each control case leaves in the three output buffers, as the stores' values -/

/-- At the first grid point the tile's perceptron output is stored. -/
theorem outA5_eq (c : Dev nD) (i : grid6.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : cond6_0 i) (x0 : Vec Ideal S4000x64 .f32) (x1 : Vec Ideal S64x32 .f32) (x2 : Vec Ideal S32 .f32) (x3 : Vec Ideal S32x32 .f32) (x4 : Vec Ideal S32 .f32) :
    out6_A_5 c i arg1 harg1 arg2 harg2 arg3 harg3 arg4 harg4 arg5 harg5 arg6 harg6 arg7 harg7 arg8 harg8 hc0 x0 x1 x2 x3 x4 = k6_pay4 x0 x1 x2 x3 x4 := by
  unfold out6_A_5
  rw [View.read_writes_eq_canon _ _ _ (cover6_A_5 c i arg1 harg1 arg2 harg2 arg3 harg3 arg4 harg4 arg5 harg5 arg6 harg6 arg7 harg7 arg8 harg8 hc0 x0 x1 x2 x3 x4)]
  unfold kernelRun6_A
  dsimp only
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1]

/-- At the first grid point the row of column sums is zeroed, then the tile's column sums are added to it. -/
theorem outA6_eq (c : Dev nD) (i : grid6.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : cond6_0 i) (x0 : Vec Ideal S4000x64 .f32) (x1 : Vec Ideal S64x32 .f32) (x2 : Vec Ideal S32 .f32) (x3 : Vec Ideal S32x32 .f32) (x4 : Vec Ideal S32 .f32) :
    out6_A_6 c i arg1 harg1 arg2 harg2 arg3 harg3 arg4 harg4 arg5 harg5 arg6 harg6 arg7 harg7 arg8 harg8 hc0 x0 x1 x2 x3 x4 = k6_pay5 x0 x1 x2 x3 x4 (k6_pay2 (F := Ideal)) := by
  unfold out6_A_6
  rw [View.read_writes_eq_canon _ _ _ (cover6_A_6 c i arg1 harg1 arg2 harg2 arg3 harg3 arg4 harg4 arg5 harg5 arg6 harg6 arg7 harg7 arg8 harg8 hc0 x0 x1 x2 x3 x4)]
  unfold kernelRun6_A
  dsimp only
  sl_unfold_words
  rw [View.canon_cons_unit_zero (S := S1x32) hz2, View.readCov_unit_zero (S := S1x32) _ hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1]

/-- At the first grid point the row of sums of squares is zeroed, then the tile's sums of squares are added to it. -/
theorem outA7_eq (c : Dev nD) (i : grid6.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : cond6_0 i) (x0 : Vec Ideal S4000x64 .f32) (x1 : Vec Ideal S64x32 .f32) (x2 : Vec Ideal S32 .f32) (x3 : Vec Ideal S32x32 .f32) (x4 : Vec Ideal S32 .f32) :
    out6_A_7 c i arg1 harg1 arg2 harg2 arg3 harg3 arg4 harg4 arg5 harg5 arg6 harg6 arg7 harg7 arg8 harg8 hc0 x0 x1 x2 x3 x4 = k6_pay1 (k6_pay6 (k6_pay3 (F := Ideal))) (k6_pay7 x0 x1 x2 x3 x4) := by
  unfold out6_A_7
  rw [View.read_writes_eq_canon _ _ _ (cover6_A_7 c i arg1 harg1 arg2 harg2 arg3 harg3 arg4 harg4 arg5 harg5 arg6 harg6 arg7 harg7 arg8 harg8 hc0 x0 x1 x2 x3 x4)]
  unfold kernelRun6_A
  dsimp only
  sl_unfold_words
  rw [View.canon_cons_unit_zero (S := S1x32) hz2, View.readCov_unit_zero (S := S1x32) _ hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1]

/-- At a later grid point the tile's perceptron output is stored. -/
theorem outB5_eq (c : Dev nD) (i : grid6.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : ¬cond6_0 i) (x0 : Vec Ideal S4000x64 .f32) (x1 : Vec Ideal S64x32 .f32) (x2 : Vec Ideal S32 .f32) (x3 : Vec Ideal S32x32 .f32) (x4 : Vec Ideal S32 .f32) (xo6 xo7 : Vec Ideal S1x32 .f32) :
    out6_B_5 c i arg1 harg1 arg2 harg2 arg3 harg3 arg4 harg4 arg5 harg5 arg6 harg6 arg7 harg7 arg8 harg8 hc0 x0 x1 x2 x3 x4 xo6 xo7 = k6_pay4 x0 x1 x2 x3 x4 := by
  unfold out6_B_5
  rw [View.read_writes_eq_canon _ _ _ (cover6_B_5 c i arg1 harg1 arg2 harg2 arg3 harg3 arg4 harg4 arg5 harg5 arg6 harg6 arg7 harg7 arg8 harg8 hc0 x0 x1 x2 x3 x4 xo6 xo7)]
  unfold kernelRun6_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1, harg7.read_unread, harg8.read_unread, View.ld_unit_zero (S := S1x32) hz2]

/-- At a later grid point the tile's column sums are added to the row the point before left. -/
theorem outB6_eq (c : Dev nD) (i : grid6.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : ¬cond6_0 i) (x0 : Vec Ideal S4000x64 .f32) (x1 : Vec Ideal S64x32 .f32) (x2 : Vec Ideal S32 .f32) (x3 : Vec Ideal S32x32 .f32) (x4 : Vec Ideal S32 .f32) (xo6 xo7 : Vec Ideal S1x32 .f32) :
    out6_B_6 c i arg1 harg1 arg2 harg2 arg3 harg3 arg4 harg4 arg5 harg5 arg6 harg6 arg7 harg7 arg8 harg8 hc0 x0 x1 x2 x3 x4 xo6 xo7 = k6_pay5 x0 x1 x2 x3 x4 xo6 := by
  unfold out6_B_6
  rw [View.read_writes_eq_canon _ _ _ (cover6_B_6 c i arg1 harg1 arg2 harg2 arg3 harg3 arg4 harg4 arg5 harg5 arg6 harg6 arg7 harg7 arg8 harg8 hc0 x0 x1 x2 x3 x4 xo6 xo7)]
  unfold kernelRun6_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1, harg7.read_unread, harg8.read_unread, View.ld_unit_zero (S := S1x32) hz2]

/-- At a later grid point the tile's sums of squares are added to the row the point before left. -/
theorem outB7_eq (c : Dev nD) (i : grid6.Coords) (arg1 : Memref sig .tc .vmem S4000x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S32x32 .f32) (harg4 : arg4.IsWhole) (arg5 : Memref sig .tc .vmem S32 .f32) (harg5 : arg5.IsWhole) (arg6 : Memref sig .tc .vmem S4000x32 .f32) (harg6 : arg6.IsWhole) (arg7 : Memref sig .tc .vmem S1x32 .f32) (harg7 : arg7.IsWhole) (arg8 : Memref sig .tc .vmem S1x32 .f32) (harg8 : arg8.IsWhole) (hc0 : ¬cond6_0 i) (x0 : Vec Ideal S4000x64 .f32) (x1 : Vec Ideal S64x32 .f32) (x2 : Vec Ideal S32 .f32) (x3 : Vec Ideal S32x32 .f32) (x4 : Vec Ideal S32 .f32) (xo6 xo7 : Vec Ideal S1x32 .f32) :
    out6_B_7 c i arg1 harg1 arg2 harg2 arg3 harg3 arg4 harg4 arg5 harg5 arg6 harg6 arg7 harg7 arg8 harg8 hc0 x0 x1 x2 x3 x4 xo6 xo7 = k6_pay1 (k6_pay6 xo7) (k6_pay7 x0 x1 x2 x3 x4) := by
  unfold out6_B_7
  rw [View.read_writes_eq_canon _ _ _ (cover6_B_7 c i arg1 harg1 arg2 harg2 arg3 harg3 arg4 harg4 arg5 harg5 arg6 harg6 arg7 harg7 arg8 harg8 hc0 x0 x1 x2 x3 x4 xo6 xo7)]
  unfold kernelRun6_B
  dsimp only
  try sl_unfold_words
  rw [View.canon_unit_zero hz2]
  simp only [View.readAt_eq_ld, harg1.read_unread, harg2.read_unread, harg3.read_unread, harg4.read_unread, harg5.read_unread, View.ld_unit_zero (S := S4000x64) hz2, View.ld_unit_zero (S := S64x32) hz2, View.ld_unit_zero (S := S32) hz1, View.ld_unit_zero (S := S32x32) hz2, View.ld_unit_zero (S := S32) hz1, harg7.read_unread, harg8.read_unread, View.ld_unit_zero (S := S1x32) hz2]

/-! ## The windows' blocks as parts of the arrays -/

/-- The printed index maps over the grid: the two tile windows (input 0, output 5) sit at block (t, 0); the weights, the
    biases and the two running rows at block 0. -/
structure IdxFacts (t : Fin cfg6.N) : Prop where
  w0a : win6_0.index t (0 : Fin 2) = t.val
  w0b : win6_0.index t (1 : Fin 2) = 0
  w1a : win6_1.index t (0 : Fin 2) = 0
  w1b : win6_1.index t (1 : Fin 2) = 0
  w2a : win6_2.index t (0 : Fin 1) = 0
  w3a : win6_3.index t (0 : Fin 2) = 0
  w3b : win6_3.index t (1 : Fin 2) = 0
  w4a : win6_4.index t (0 : Fin 1) = 0
  w5a : win6_5.index t (0 : Fin 2) = t.val
  w5b : win6_5.index t (1 : Fin 2) = 0
  w6a : win6_6.index t (0 : Fin 2) = 0
  w6b : win6_6.index t (1 : Fin 2) = 0
  w7a : win6_7.index t (0 : Fin 2) = 0
  w7b : win6_7.index t (1 : Fin 2) = 0

theorem idx_facts : ∀ t : Fin cfg6.N, IdxFacts t :=
  fun t => by
    have h : ∀ t : Fin cfg6.N,
        win6_0.index t (0 : Fin 2) = t.val ∧ win6_0.index t (1 : Fin 2) = 0
        ∧ win6_1.index t (0 : Fin 2) = 0 ∧ win6_1.index t (1 : Fin 2) = 0
        ∧ win6_2.index t (0 : Fin 1) = 0
        ∧ win6_3.index t (0 : Fin 2) = 0 ∧ win6_3.index t (1 : Fin 2) = 0
        ∧ win6_4.index t (0 : Fin 1) = 0
        ∧ win6_5.index t (0 : Fin 2) = t.val ∧ win6_5.index t (1 : Fin 2) = 0
        ∧ win6_6.index t (0 : Fin 2) = 0 ∧ win6_6.index t (1 : Fin 2) = 0
        ∧ win6_7.index t (0 : Fin 2) = 0 ∧ win6_7.index t (1 : Fin 2) = 0 :=
      (by decide +kernel : ∀ t : Fin grid6.N, _)
    obtain ⟨h0, h1, h2, h3, h4, h5, h6, h7, h8, h9, h10, h11, h12, h13⟩ := h t
    exact ⟨h0, h1, h2, h3, h4, h5, h6, h7, h8, h9, h10, h11, h12, h13⟩

/-- Row p of the input tile at point t is row 4000 t + p of the input array. -/
theorem blk0_apply (c : Dev nD) (t : Fin cfg6.N) (p : Fin 4000) (q : Fin 64) (k : Fin 200000) (hk : k.val = 4000 * t.val + p.val) :
    (iblk6 V c 0 t : Vec Ideal S4000x64 .f32) (ix2 p q) = (V c (Pipeline.arrRef spec6 0) : S200000x64.Idx → EReal) (ix2 k q) := by
  have e := idx_facts t
  unfold iblk6
  rw [View.read_apply]
  show (V c (Pipeline.arrRef spec6 0) : S200000x64.Idx → EReal) _ = _
  refine congrArg _ (funext fun ax => Fin.ext ?_)
  match ax with
  | ⟨0, _⟩ => show win6_0.index t (0 : Fin 2) * 4000 + 1 * p.val = k.val; rw [e.w0a, hk]; omega
  | ⟨1, _⟩ => show win6_0.index t (1 : Fin 2) * 64 + 1 * q.val = q.val; rw [e.w0b]; omega

/-- The first weight matrix's one block is the whole array. -/
theorem blk1_apply (c : Dev nD) (t : Fin cfg6.N) (a : Fin 64) (b : Fin 32) :
    (iblk6 V c 1 t : Vec Ideal S64x32 .f32) (ix2 a b) = (V c (Pipeline.arrRef spec6 1) : S64x32.Idx → EReal) (ix2 a b) := by
  have e := idx_facts t
  unfold iblk6
  rw [View.read_apply]
  show (V c (Pipeline.arrRef spec6 1) : S64x32.Idx → EReal) _ = _
  refine congrArg _ (funext fun ax => Fin.ext ?_)
  match ax with
  | ⟨0, _⟩ => show win6_1.index t (0 : Fin 2) * 64 + 1 * a.val = a.val; rw [e.w1a]; omega
  | ⟨1, _⟩ => show win6_1.index t (1 : Fin 2) * 32 + 1 * b.val = b.val; rw [e.w1b]; omega

/-- The first bias vector's one block is the whole array. -/
theorem blk2_apply (c : Dev nD) (t : Fin cfg6.N) (a : Fin 32) :
    (iblk6 V c 2 t : Vec Ideal S32 .f32) (ix1 a) = (V c (Pipeline.arrRef spec6 2) : S32.Idx → EReal) (ix1 a) := by
  have e := idx_facts t
  unfold iblk6
  rw [View.read_apply]
  show (V c (Pipeline.arrRef spec6 2) : S32.Idx → EReal) _ = _
  refine congrArg _ (funext fun ax => Fin.ext ?_)
  match ax with
  | ⟨0, _⟩ => show win6_2.index t (0 : Fin 1) * 32 + 1 * a.val = a.val; rw [e.w2a]; omega

/-- The second weight matrix's one block is the whole array. -/
theorem blk3_apply (c : Dev nD) (t : Fin cfg6.N) (a : Fin 32) (b : Fin 32) :
    (iblk6 V c 3 t : Vec Ideal S32x32 .f32) (ix2 a b) = (V c (Pipeline.arrRef spec6 3) : S32x32.Idx → EReal) (ix2 a b) := by
  have e := idx_facts t
  unfold iblk6
  rw [View.read_apply]
  show (V c (Pipeline.arrRef spec6 3) : S32x32.Idx → EReal) _ = _
  refine congrArg _ (funext fun ax => Fin.ext ?_)
  match ax with
  | ⟨0, _⟩ => show win6_3.index t (0 : Fin 2) * 32 + 1 * a.val = a.val; rw [e.w3a]; omega
  | ⟨1, _⟩ => show win6_3.index t (1 : Fin 2) * 32 + 1 * b.val = b.val; rw [e.w3b]; omega

/-- The second bias vector's one block is the whole array. -/
theorem blk4_apply (c : Dev nD) (t : Fin cfg6.N) (a : Fin 32) :
    (iblk6 V c 4 t : Vec Ideal S32 .f32) (ix1 a) = (V c (Pipeline.arrRef spec6 4) : S32.Idx → EReal) (ix1 a) := by
  have e := idx_facts t
  unfold iblk6
  rw [View.read_apply]
  show (V c (Pipeline.arrRef spec6 4) : S32.Idx → EReal) _ = _
  refine congrArg _ (funext fun ax => Fin.ext ?_)
  match ax with
  | ⟨0, _⟩ => show win6_4.index t (0 : Fin 1) * 32 + 1 * a.val = a.val; rw [e.w4a]; omega

/-! ## The three results -/

/-- The perceptron of the input array by the weights and biases the region finds, at a row and a column. -/
def H (c : Dev nD) : Fin 200000 → Fin 32 → EReal :=
  mlpAt (V c (Pipeline.arrRef spec6 0) : S200000x64.Idx → EReal)
    (V c (Pipeline.arrRef spec6 1) : S64x32.Idx → EReal)
    (V c (Pipeline.arrRef spec6 2) : S32.Idx → EReal)
    (V c (Pipeline.arrRef spec6 3) : S32x32.Idx → EReal)
    (V c (Pipeline.arrRef spec6 4) : S32.Idx → EReal)

/-- Window 5: the perceptron output, row by row. -/
def resultMlp (c : Dev nD) : S200000x32.Idx → EReal := fun i => H V c (i 0) (i 1)

/-- Window 6: its column sums over the 50 tiles of 4000 rows. -/
def resultSum (c : Dev nD) : S1x32.Idx → EReal :=
  fun i => colSumAt 50 4000 (by decide : 50 * 4000 = 200000) (H V c) (i 1)

/-- Window 7: the column sums of its squares. -/
def resultSumSq (c : Dev nD) : S1x32.Idx → EReal :=
  fun i => colSumAt 50 4000 (by decide : 50 * 4000 = 200000) (fun r q => H V c r q * H V c r q) (i 1)

/-- The perceptron of tile t at its row p is the perceptron of the array at row 4000 t + p. -/
theorem tile_mlp (c : Dev nD) (t : Fin cfg6.N) (ht : t.val < 50) (p : Fin 4000) (q : Fin 32) :
    mlpAt (iblk6 V c 0 t : Vec Ideal S4000x64 .f32) (iblk6 V c 1 t : Vec Ideal S64x32 .f32) (iblk6 V c 2 t : Vec Ideal S32 .f32) (iblk6 V c 3 t : Vec Ideal S32x32 .f32) (iblk6 V c 4 t : Vec Ideal S32 .f32) p q
      = H V c (tileRow (T := 50) (R := 4000) (n := 200000) (by decide) ⟨t.val, ht⟩ p) q :=
  mlpAt_congr q (fun a => blk0_apply V c t p a _ rfl) (fun a b => blk1_apply V c t a b) (fun b => blk2_apply V c t b)
    (fun a b => blk3_apply V c t a b) (fun b => blk4_apply V c t b)

/-! ## The output buffers after each grid point -/

/-- After any grid point the tile buffer holds the perceptron of the point's tile. -/
theorem out5_eq (c : Dev nD) (t : Fin cfg6.N) :
    (outsAt6 V c t.val t.isLt).1 = k6_pay4 (iblk6 V c 0 t : Vec Ideal S4000x64 .f32) (iblk6 V c 1 t : Vec Ideal S64x32 .f32) (iblk6 V c 2 t : Vec Ideal S32 .f32) (iblk6 V c 3 t : Vec Ideal S32x32 .f32) (iblk6 V c 4 t : Vec Ideal S32 .f32) := by
  by_cases h0 : t.val % 50 = 0
  · rw [outsAt6_A V c t h0]
    dsimp only
    exact outA5_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t)
  · rw [outsAt6_B V c t h0]
    dsimp only
    exact outB5_eq c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) _ _

/-- After grid point n the row of column sums holds the parts of tiles 0 … n, added in that order. -/
theorem sums_eq (c : Dev nD) : ∀ (n : ℕ) (h : n < cfg6.N),
    (outsAt6 V c n h).2.1
      = (fun j : S1x32.Idx => ∑ k ∈ Finset.range (n + 1), tileSum 50 4000 (by decide : 50 * 4000 = 200000) (H V c) k (j 1))
  | 0, h => by
    refine (congrArg (fun z => z.2.1) (outsAt6_A V c ⟨0, h⟩ (Nat.zero_mod _))).trans ?_
    dsimp only
    rw [outA6_eq]
    funext j
    obtain ⟨u, q, rfl⟩ : ∃ (u : Fin 1) (q : Fin 32), j = ix2 u q := ⟨j 0, j 1, eq_ix2 j⟩
    refine (MlpPayL2j.sum_apply _ _ _ _ _ _ u q).trans ?_
    rw [MlpPayL2j.zero_sum_apply, zero_add, Finset.sum_range_one, tileSum_of_lt 50 4000 _ _ (by decide : 0 < 50)]
    exact Finset.sum_congr rfl fun p _ => tile_mlp V c ⟨0, h⟩ (Nat.succ_pos 49) p q
  | n + 1, h => by
    have hN : n + 1 < 50 := lt_of_lt_of_eq h N_6
    have hB : ¬(⟨n + 1, h⟩ : Fin cfg6.N).val % 50 = 0 := by dsimp only; omega
    refine (congrArg (fun z => z.2.1) (outsAt6_B V c ⟨n + 1, h⟩ hB)).trans ?_
    dsimp only
    rw [outB6_eq]
    funext j
    obtain ⟨u, q, rfl⟩ : ∃ (u : Fin 1) (q : Fin 32), j = ix2 u q := ⟨j 0, j 1, eq_ix2 j⟩
    refine (MlpPayL2j.sum_apply _ _ _ _ _ _ u q).trans ?_
    rw [Finset.sum_range_succ _ (n + 1), tileSum_of_lt 50 4000 _ _ hN]
    refine congrArg₂ (· + ·) ?_ (Finset.sum_congr rfl fun p _ => tile_mlp V c ⟨n + 1, h⟩ hN p q)
    exact congrFun (sums_eq c n (Nat.lt_of_succ_lt h)) (ix2 u q)

/-- After grid point n the row of sums of squares holds the parts of tiles 0 … n, added in that order. -/
theorem sumsqs_eq (c : Dev nD) : ∀ (n : ℕ) (h : n < cfg6.N),
    (outsAt6 V c n h).2.2
      = (fun j : S1x32.Idx => ∑ k ∈ Finset.range (n + 1),
          tileSum 50 4000 (by decide : 50 * 4000 = 200000) (fun r q => H V c r q * H V c r q) k (j 1))
  | 0, h => by
    refine (congrArg (fun z => z.2.2) (outsAt6_A V c ⟨0, h⟩ (Nat.zero_mod _))).trans ?_
    dsimp only
    rw [outA7_eq]
    funext j
    obtain ⟨u, q, rfl⟩ : ∃ (u : Fin 1) (q : Fin 32), j = ix2 u q := ⟨j 0, j 1, eq_ix2 j⟩
    refine (MlpPayL2j.sumsq_apply _ _ _ _ _ _ u q).trans ?_
    rw [MlpPayL2j.zero_sumsq_apply, zero_add, Finset.sum_range_one, tileSum_of_lt 50 4000 _ _ (by decide : 0 < 50)]
    exact Finset.sum_congr rfl fun p _ => by rw [tile_mlp V c ⟨0, h⟩ (Nat.succ_pos 49) p q]
  | n + 1, h => by
    have hN : n + 1 < 50 := lt_of_lt_of_eq h N_6
    have hB : ¬(⟨n + 1, h⟩ : Fin cfg6.N).val % 50 = 0 := by dsimp only; omega
    refine (congrArg (fun z => z.2.2) (outsAt6_B V c ⟨n + 1, h⟩ hB)).trans ?_
    dsimp only
    rw [outB7_eq]
    funext j
    obtain ⟨u, q, rfl⟩ : ∃ (u : Fin 1) (q : Fin 32), j = ix2 u q := ⟨j 0, j 1, eq_ix2 j⟩
    refine (MlpPayL2j.sumsq_apply _ _ _ _ _ _ u q).trans ?_
    rw [Finset.sum_range_succ _ (n + 1), tileSum_of_lt 50 4000 _ _ hN]
    refine congrArg₂ (· + ·) ?_ (Finset.sum_congr rfl fun p _ => by rw [tile_mlp V c ⟨n + 1, h⟩ hN p q])
    exact congrFun (sumsqs_eq c n (Nat.lt_of_succ_lt h)) (ix2 u q)

/-! ## From the buffers to the arrays -/

/-- What grid point t writes back of window 5 is rows 4000 t … 4000 t + 3999 of the perceptron output. -/
theorem flushed5_eq (c : Dev nD) (t : Fin cfg6.N) :
    (dat6 V c).flushed 5 t = ((cfg6.win 5).blk t).view.read (Elt Ideal) (resultMlp V c) := by
  have hN : t.val < 50 := lt_of_lt_of_eq t.isLt N_6
  have e := idx_facts t
  show (cfg6.win 5).cut (grid6.coords t) ((dat6 V c).after 5 t) = _
  rw [after6_5, out5_eq]
  funext j
  obtain ⟨p, q, rfl⟩ : ∃ (p : Fin 4000) (q : Fin 32), j = ix2 p q := ⟨j 0, j 1, eq_ix2 j⟩
  show k6_pay4 (iblk6 V c 0 t : Vec Ideal S4000x64 .f32) (iblk6 V c 1 t : Vec Ideal S64x32 .f32) (iblk6 V c 2 t : Vec Ideal S32 .f32) (iblk6 V c 3 t : Vec Ideal S32x32 .f32) (iblk6 V c 4 t : Vec Ideal S32 .f32) (ix2 p q)
    = resultMlp V c (((cfg6.win 5).blk t).view.emb (ix2 p q))
  refine (MlpPayL2j.mlp_apply (iblk6 V c 0 t : Vec Ideal S4000x64 .f32) (iblk6 V c 1 t : Vec Ideal S64x32 .f32) (iblk6 V c 2 t : Vec Ideal S32 .f32) (iblk6 V c 3 t : Vec Ideal S32x32 .f32) (iblk6 V c 4 t : Vec Ideal S32 .f32) p q).trans ?_
  have hemb : ((cfg6.win 5).blk t).view.emb (ix2 p q)
      = ix2 (tileRow (T := 50) (R := 4000) (n := 200000) (by decide) ⟨t.val, hN⟩ p) q := by
    funext a; apply Fin.ext
    match a with
    | ⟨0, _⟩ => show win6_5.index t (0 : Fin 2) * 4000 + 1 * p.val = 4000 * t.val + p.val; rw [e.w5a]; omega
    | ⟨1, _⟩ => show win6_5.index t (1 : Fin 2) * 32 + 1 * q.val = q.val; rw [e.w5b]; omega
  rw [hemb]
  exact tile_mlp V c t hN p q

theorem mem_blk5 (t : Fin cfg6.N) (i : S200000x32.Idx) :
    i ∈ ((cfg6.win 5).blk t).view.set ↔ ∀ a : Fin 2, win6_5.index t a * S4000x32.size a ≤ (i a).val ∧ (i a).val < win6_5.index t a * S4000x32.size a + S4000x32.size a := by
  show i ∈ ((View.whole (Pipeline.arrRef spec6 5)).slice (win6_5.rect t)).set ↔ _
  rw [View.set_slice_whole, Rect.mem_set_unit]
  exact Iff.rfl

/-- Row r of the array lies in the block of point r / 4000. -/
theorem cover5 (i : S200000x32.Idx) : ∃ t : Fin cfg6.N, (cfg6.win 5).flush t = true ∧ i ∈ ((cfg6.win 5).blk t).view.set := by
  have hi0 : (i 0).val < 200000 := (i 0).isLt
  have hi1 : (i 1).val < 32 := (i 1).isLt
  have hN : cfg6.N = 50 := N_6
  let t : Fin cfg6.N := ⟨(i 0).val / 4000, by rw [hN]; omega⟩
  have e := idx_facts t
  have ht : t.val = (i 0).val / 4000 := rfl
  refine ⟨t, flush6_5 t, ?_⟩
  rw [mem_blk5]
  intro a
  match a with
  | ⟨0, _⟩ => show win6_5.index t (0 : Fin 2) * 4000 ≤ (i 0).val ∧ (i 0).val < win6_5.index t (0 : Fin 2) * 4000 + 4000; rw [e.w5a, ht]; omega
  | ⟨1, _⟩ => show win6_5.index t (1 : Fin 2) * 32 ≤ (i 1).val ∧ (i 1).val < win6_5.index t (1 : Fin 2) * 32 + 32; rw [e.w5b]; omega

/-- Window 5's array after the region is the perceptron output. -/
theorem final5 (c : Dev nD) : (dat6 V c).arrAt 5 cfg6.N = resultMlp V c :=
  (dat6 V c).arrAt_eq_of_cover 5 (resultMlp V c) (fun t _ => flushed5_eq V c t) cover5

/-- The one write-back of window 6, after the last grid point, writes the column sums. -/
theorem flushed6_eq (c : Dev nD) (t : Fin cfg6.N) (hf : (cfg6.win 6).flush t = true) :
    (dat6 V c).flushed 6 t = ((cfg6.win 6).blk t).view.read (Elt Ideal) (resultSum V c) := by
  have hN : t.val < 50 := lt_of_lt_of_eq t.isLt N_6
  have h49 : t.val = 49 := by have := (flush6_6 t).mp hf; omega
  have e := idx_facts t
  show (cfg6.win 6).cut (grid6.coords t) ((dat6 V c).after 6 t) = _
  rw [after6_6, sums_eq V c t.val t.isLt]
  funext j
  obtain ⟨u, q, rfl⟩ : ∃ (u : Fin 1) (q : Fin 32), j = ix2 u q := ⟨j 0, j 1, eq_ix2 j⟩
  show (∑ k ∈ Finset.range (t.val + 1), tileSum 50 4000 (by decide : 50 * 4000 = 200000) (H V c) k q)
    = resultSum V c (((cfg6.win 6).blk t).view.emb (ix2 u q))
  have hemb : ((cfg6.win 6).blk t).view.emb (ix2 u q) = ix2 u q := by
    funext a; apply Fin.ext
    match a with
    | ⟨0, _⟩ => show win6_6.index t (0 : Fin 2) * 1 + 1 * u.val = u.val; rw [e.w6a]; omega
    | ⟨1, _⟩ => show win6_6.index t (1 : Fin 2) * 32 + 1 * q.val = q.val; rw [e.w6b]; omega
  rw [hemb, h49]
  exact (colSumAt_eq_range 50 4000 _ (H V c) q).symm

theorem mem_blk6 (t : Fin cfg6.N) (i : S1x32.Idx) :
    i ∈ ((cfg6.win 6).blk t).view.set ↔ ∀ a : Fin 2, win6_6.index t a * S1x32.size a ≤ (i a).val ∧ (i a).val < win6_6.index t a * S1x32.size a + S1x32.size a := by
  show i ∈ ((View.whole (Pipeline.arrRef spec6 6)).slice (win6_6.rect t)).set ↔ _
  rw [View.set_slice_whole, Rect.mem_set_unit]
  exact Iff.rfl

/-- The last grid point's block is the whole [1, 32] array. -/
theorem cover6 (i : S1x32.Idx) : ∃ t : Fin cfg6.N, (cfg6.win 6).flush t = true ∧ i ∈ ((cfg6.win 6).blk t).view.set := by
  have hi0 : (i 0).val < 1 := (i 0).isLt
  have hi1 : (i 1).val < 32 := (i 1).isLt
  have hN : cfg6.N = 50 := N_6
  let t : Fin cfg6.N := ⟨49, by rw [hN]; omega⟩
  have e := idx_facts t
  refine ⟨t, (flush6_6 t).mpr rfl, ?_⟩
  rw [mem_blk6]
  intro a
  match a with
  | ⟨0, _⟩ => show win6_6.index t (0 : Fin 2) * 1 ≤ (i 0).val ∧ (i 0).val < win6_6.index t (0 : Fin 2) * 1 + 1; rw [e.w6a]; omega
  | ⟨1, _⟩ => show win6_6.index t (1 : Fin 2) * 32 ≤ (i 1).val ∧ (i 1).val < win6_6.index t (1 : Fin 2) * 32 + 32; rw [e.w6b]; omega

/-- Window 6's array after the region is the column sums. -/
theorem final6 (c : Dev nD) : (dat6 V c).arrAt 6 cfg6.N = resultSum V c :=
  (dat6 V c).arrAt_eq_of_cover 6 (resultSum V c) (fun t hf => flushed6_eq V c t hf) cover6

/-- The one write-back of window 7, after the last grid point, writes the column sums of squares. -/
theorem flushed7_eq (c : Dev nD) (t : Fin cfg6.N) (hf : (cfg6.win 7).flush t = true) :
    (dat6 V c).flushed 7 t = ((cfg6.win 7).blk t).view.read (Elt Ideal) (resultSumSq V c) := by
  have hN : t.val < 50 := lt_of_lt_of_eq t.isLt N_6
  have h49 : t.val = 49 := by have := (flush6_7 t).mp hf; omega
  have e := idx_facts t
  show (cfg6.win 7).cut (grid6.coords t) ((dat6 V c).after 7 t) = _
  rw [after6_7, sumsqs_eq V c t.val t.isLt]
  funext j
  obtain ⟨u, q, rfl⟩ : ∃ (u : Fin 1) (q : Fin 32), j = ix2 u q := ⟨j 0, j 1, eq_ix2 j⟩
  show (∑ k ∈ Finset.range (t.val + 1), tileSum 50 4000 (by decide : 50 * 4000 = 200000) (fun r q => H V c r q * H V c r q) k q)
    = resultSumSq V c (((cfg6.win 7).blk t).view.emb (ix2 u q))
  have hemb : ((cfg6.win 7).blk t).view.emb (ix2 u q) = ix2 u q := by
    funext a; apply Fin.ext
    match a with
    | ⟨0, _⟩ => show win6_7.index t (0 : Fin 2) * 1 + 1 * u.val = u.val; rw [e.w7a]; omega
    | ⟨1, _⟩ => show win6_7.index t (1 : Fin 2) * 32 + 1 * q.val = q.val; rw [e.w7b]; omega
  rw [hemb, h49]
  exact (colSumAt_eq_range 50 4000 _ (fun r q => H V c r q * H V c r q) q).symm

theorem mem_blk7 (t : Fin cfg6.N) (i : S1x32.Idx) :
    i ∈ ((cfg6.win 7).blk t).view.set ↔ ∀ a : Fin 2, win6_7.index t a * S1x32.size a ≤ (i a).val ∧ (i a).val < win6_7.index t a * S1x32.size a + S1x32.size a := by
  show i ∈ ((View.whole (Pipeline.arrRef spec6 7)).slice (win6_7.rect t)).set ↔ _
  rw [View.set_slice_whole, Rect.mem_set_unit]
  exact Iff.rfl

/-- The last grid point's block is the whole [1, 32] array. -/
theorem cover7 (i : S1x32.Idx) : ∃ t : Fin cfg6.N, (cfg6.win 7).flush t = true ∧ i ∈ ((cfg6.win 7).blk t).view.set := by
  have hi0 : (i 0).val < 1 := (i 0).isLt
  have hi1 : (i 1).val < 32 := (i 1).isLt
  have hN : cfg6.N = 50 := N_6
  let t : Fin cfg6.N := ⟨49, by rw [hN]; omega⟩
  have e := idx_facts t
  refine ⟨t, (flush6_7 t).mpr rfl, ?_⟩
  rw [mem_blk7]
  intro a
  match a with
  | ⟨0, _⟩ => show win6_7.index t (0 : Fin 2) * 1 ≤ (i 0).val ∧ (i 0).val < win6_7.index t (0 : Fin 2) * 1 + 1; rw [e.w7a]; omega
  | ⟨1, _⟩ => show win6_7.index t (1 : Fin 2) * 32 ≤ (i 1).val ∧ (i 1).val < win6_7.index t (1 : Fin 2) * 32 + 32; rw [e.w7b]; omega

/-- Window 7's array after the region is the column sums of squares. -/
theorem final7 (c : Dev nD) : (dat6 V c).arrAt 7 cfg6.N = resultSumSq V c :=
  (dat6 V c).arrAt_eq_of_cover 7 (resultSumSq V c) (fun t hf => flushed7_eq V c t hf) cover7

/-! ## The windows' arrays, by name -/

theorem arr0 : Pipeline.arrRef spec6 0 = main_v95 := rfl
theorem arr1 : Pipeline.arrRef spec6 1 = main_arg14 := rfl
theorem arr2 : Pipeline.arrRef spec6 2 = main_arg15 := rfl
theorem arr3 : Pipeline.arrRef spec6 3 = main_arg16 := rfl
theorem arr4 : Pipeline.arrRef spec6 4 = main_arg17 := rfl
theorem arr5 : Pipeline.arrRef spec6 5 = main_v96_0 := rfl
theorem arr6 : Pipeline.arrRef spec6 6 = main_v96_1 := rfl
theorem arr7 : Pipeline.arrRef spec6 7 = main_v96_2 := rfl

end Cert.KernelIdeal.MlpRunL2j

end
-- ==== Proof.AffinePayL2j.lean ====
/- The value the store of the second device pass of one GIN layer writes, read index by index at the ideal values: a
   [4000, 32] tile of rows, each column centred by the given mean, scaled, multiplied by the reciprocal square root of the
   given variance plus a literal, and shifted — in the device's order of operations. -/
import proofs.«120907_j71768903516484_1_alg».proof.Proof.Gen.KernelIdeal.Skeleton
import proofs.«120907_j71768903516484_1_alg».proof.Proof.GinSpec
import Idealize.ShloMosaic.Lib.ValueLayout
import Idealize.ShloMosaic.Lib.Pipeline.Value

noncomputable section

open Idealize.ShloMosaic Idealize.ShloMosaic.ValueIdx

namespace Cert.KernelIdeal.AffinePayL2j

open Cert.KernelIdeal Cert.KernelIdeal.Gen Cert.KernelIdeal.GinSpec

/-- The normalised tile at row r, column c. -/
theorem affine_apply (v0 : Vec Ideal S4000x32 .f32) (v2 v4 : Vec Ideal S1x32 .f32) (v9 v17 : Vec Ideal S32 .f32)
    (r : Fin 4000) (c : Fin 32) :
    k7_pay1 v0 v2 v4 v9 v17 (ix2 r c) = bnAffineAt v0 v2 v4 v9 v17 r c := by
  unfold k7_pay1 bnAffineAt
  rw [addf_apply, mulf_apply, mulf_apply, subf_apply]
  rw [broadcastTo_1b_ab_apply, broadcastTo_1b_ab_apply, broadcastTo_1b_ab_apply, broadcastTo_1b_ab_apply]
  rw [shapeCast_a_1a_apply, shapeCast_a_1a_apply, shapeCast_self, shapeCast_self, shapeCast_self]
  rfl

end Cert.KernelIdeal.AffinePayL2j

end
-- ==== Proof.AffineRunL2j.lean ====
/- The array the second device pass of one GIN layer leaves (region 7: [200000, 32] rows in 50 tiles of 4000), for any
   contents of the device's buffers when the region is entered: tile t of the output is the affine normalisation of tile
   t of the input by the one-block mean, variance, scale and shift arrays, the tiles cover the array, so the output array
   is the affine normalisation of the input array, index by index. -/
import proofs.«120907_j71768903516484_1_alg».proof.Proof.KIFrameP
import proofs.«120907_j71768903516484_1_alg».proof.Proof.AffinePayL2j
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AffineRunL2j

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the tile windows sit at block (t, 0), the one-block windows at block 0. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 1) = 0 ∧ win7_4.index t (0 : Fin 1) = 0
    ∧ win7_5.index t (0 : Fin 2) = t.val ∧ win7_5.index t (1 : Fin 2) = 0 :=
  (by decide +kernel : ∀ t : Fin grid7.N, _)

/-- Row p of the input tile at point t is row 4000 t + p of the input array. -/
theorem blk0_apply (c : Dev nD) (t : Fin cfg7.N) (p : Fin 4000) (q : Fin 32) (k : Fin 200000) (hk : k.val = 4000 * t.val + p.val) :
    (iblk7 V c 0 t : Vec Ideal S4000x32 .f32) (ix2 p q) = (V c (Pipeline.arrRef spec7 0) : S200000x32.Idx → EReal) (ix2 k q) := by
  obtain ⟨e0, e1, -⟩ := idx_facts t
  unfold iblk7
  rw [View.read_apply]
  show (V c (Pipeline.arrRef spec7 0) : S200000x32.Idx → EReal) _ = _
  refine congrArg _ (funext fun a => Fin.ext ?_)
  match a with
  | ⟨0, _⟩ => show win7_0.index t (0 : Fin 2) * 4000 + 1 * p.val = k.val; rw [e0, hk]; omega
  | ⟨1, _⟩ => show win7_0.index t (1 : Fin 2) * 32 + 1 * q.val = q.val; rw [e1]; omega

/-- The mean's one block is the mean array. -/
theorem blk1_apply (c : Dev nD) (t : Fin cfg7.N) (u : Fin 1) (q : Fin 32) :
    (iblk7 V c 1 t : Vec Ideal S1x32 .f32) (ix2 u q) = (V c (Pipeline.arrRef spec7 1) : S1x32.Idx → EReal) (ix2 u q) := by
  obtain ⟨-, -, e0, e1, -⟩ := idx_facts t
  unfold iblk7
  rw [View.read_apply]
  show (V c (Pipeline.arrRef spec7 1) : S1x32.Idx → EReal) _ = _
  refine congrArg _ (funext fun a => Fin.ext ?_)
  match a with
  | ⟨0, _⟩ => show win7_1.index t (0 : Fin 2) * 1 + 1 * u.val = u.val; rw [e0]; omega
  | ⟨1, _⟩ => show win7_1.index t (1 : Fin 2) * 32 + 1 * q.val = q.val; rw [e1]; omega

/-- The variance's one block is the variance array. -/
theorem blk2_apply (c : Dev nD) (t : Fin cfg7.N) (u : Fin 1) (q : Fin 32) :
    (iblk7 V c 2 t : Vec Ideal S1x32 .f32) (ix2 u q) = (V c (Pipeline.arrRef spec7 2) : S1x32.Idx → EReal) (ix2 u q) := by
  obtain ⟨-, -, -, -, e0, e1, -⟩ := idx_facts t
  unfold iblk7
  rw [View.read_apply]
  show (V c (Pipeline.arrRef spec7 2) : S1x32.Idx → EReal) _ = _
  refine congrArg _ (funext fun a => Fin.ext ?_)
  match a with
  | ⟨0, _⟩ => show win7_2.index t (0 : Fin 2) * 1 + 1 * u.val = u.val; rw [e0]; omega
  | ⟨1, _⟩ => show win7_2.index t (1 : Fin 2) * 32 + 1 * q.val = q.val; rw [e1]; omega

/-- The scale's one block is the scale array. -/
theorem blk3_apply (c : Dev nD) (t : Fin cfg7.N) (q : Fin 32) :
    (iblk7 V c 3 t : Vec Ideal S32 .f32) (ix1 q) = (V c (Pipeline.arrRef spec7 3) : S32.Idx → EReal) (ix1 q) := by
  obtain ⟨-, -, -, -, -, -, e0, -⟩ := idx_facts t
  unfold iblk7
  rw [View.read_apply]
  show (V c (Pipeline.arrRef spec7 3) : S32.Idx → EReal) _ = _
  refine congrArg _ (funext fun a => Fin.ext ?_)
  match a with
  | ⟨0, _⟩ => show win7_3.index t (0 : Fin 1) * 32 + 1 * q.val = q.val; rw [e0]; omega

/-- The shift's one block is the shift array. -/
theorem blk4_apply (c : Dev nD) (t : Fin cfg7.N) (q : Fin 32) :
    (iblk7 V c 4 t : Vec Ideal S32 .f32) (ix1 q) = (V c (Pipeline.arrRef spec7 4) : S32.Idx → EReal) (ix1 q) := by
  obtain ⟨-, -, -, -, -, -, -, e0, -⟩ := idx_facts t
  unfold iblk7
  rw [View.read_apply]
  show (V c (Pipeline.arrRef spec7 4) : S32.Idx → EReal) _ = _
  refine congrArg _ (funext fun a => Fin.ext ?_)
  match a with
  | ⟨0, _⟩ => show win7_4.index t (0 : Fin 1) * 32 + 1 * q.val = q.val; rw [e0]; omega

/-- The normalised array: the affine normalisation of the input array by the mean, variance, scale and shift arrays the
    region finds. -/
def result (c : Dev nD) : S200000x32.Idx → EReal :=
  bnAffine (V c (Pipeline.arrRef spec7 0) : S200000x32.Idx → EReal) (V c (Pipeline.arrRef spec7 1) : S1x32.Idx → EReal)
    (V c (Pipeline.arrRef spec7 2) : S1x32.Idx → EReal) (V c (Pipeline.arrRef spec7 3) : S32.Idx → EReal)
    (V c (Pipeline.arrRef spec7 4) : S32.Idx → EReal)

set_option maxHeartbeats 1000000 in
/-- What grid point t writes back is rows 4000 t … 4000 t + 3999 of the normalised array. -/
theorem flushed_eq (c : Dev nD) (t : Fin cfg7.N) :
    (dat7 V c).flushed 5 t = ((cfg7.win 5).blk t).view.read (Elt Ideal) (result V c) := by
  show (cfg7.win 5).cut (grid7.coords t) ((dat7 V c).after 5 t) = _
  rw [after7_5]
  unfold out7_5
  rw [View.canon_unit_zero hz2]
  simp only [View.ld_unit_zero (S := S4000x32) hz2, View.ld_unit_zero (S := S1x32) hz2, View.ld_unit_zero (S := S32) hz1]
  funext j
  obtain ⟨p, q, rfl⟩ : ∃ (p : Fin 4000) (q : Fin 32), j = ix2 p q := ⟨j 0, j 1, eq_ix2 j⟩
  obtain ⟨-, -, -, -, -, -, -, -, e8, e9⟩ := idx_facts t
  have hN : t.val < 50 := lt_of_lt_of_eq t.isLt N_7
  show k7_pay1 (iblk7 V c 0 t) (iblk7 V c 1 t) (iblk7 V c 2 t) (iblk7 V c 3 t) (iblk7 V c 4 t) (ix2 p q)
    = result V c (((cfg7.win 5).blk t).view.emb (ix2 p q))
  refine (AffinePayL2j.affine_apply (iblk7 V c 0 t) (iblk7 V c 1 t) (iblk7 V c 2 t) (iblk7 V c 3 t) (iblk7 V c 4 t) p q).trans ?_
  have hemb : ((cfg7.win 5).blk t).view.emb (ix2 p q) = ix2 (⟨4000 * t.val + p.val, by omega⟩ : Fin 200000) q := by
    funext a; apply Fin.ext
    match a with
    | ⟨0, _⟩ => show win7_5.index t (0 : Fin 2) * 4000 + 1 * p.val = 4000 * t.val + p.val; rw [e8]; omega
    | ⟨1, _⟩ => show win7_5.index t (1 : Fin 2) * 32 + 1 * q.val = q.val; rw [e9]; omega
  rw [hemb]
  unfold result bnAffine bnAffineAt
  rw [blk0_apply V c t p q ⟨4000 * t.val + p.val, by omega⟩ rfl, blk1_apply V c t 0 q, blk2_apply V c t 0 q,
    blk3_apply V c t q, blk4_apply V c t q]

/-- An index of the array is in point t's block iff each coordinate is in the block's range on its axis. -/
theorem mem_blk (t : Fin cfg7.N) (i : S200000x32.Idx) :
    i ∈ ((cfg7.win 5).blk t).view.set ↔ ∀ a : Fin 2, win7_5.index t a * S4000x32.size a ≤ (i a).val ∧ (i a).val < win7_5.index t a * S4000x32.size a + S4000x32.size a := by
  show i ∈ ((View.whole (Pipeline.arrRef spec7 5)).slice (win7_5.rect t)).set ↔ _
  rw [View.set_slice_whole, Rect.mem_set_unit]
  exact Iff.rfl

/-- Row r of the array lies in the block of point r / 4000. -/
theorem cover (i : S200000x32.Idx) : ∃ t : Fin cfg7.N, (cfg7.win 5).flush t = true ∧ i ∈ ((cfg7.win 5).blk t).view.set := by
  have hi0 : (i 0).val < 200000 := (i 0).isLt
  have hi1 : (i 1).val < 32 := (i 1).isLt
  have hN : cfg7.N = 50 := N_7
  let t : Fin cfg7.N := ⟨(i 0).val / 4000, by rw [hN]; omega⟩
  obtain ⟨-, -, -, -, -, -, -, -, e8, e9⟩ := idx_facts t
  have ht : t.val = (i 0).val / 4000 := rfl
  refine ⟨t, flush7_5 t, ?_⟩
  rw [mem_blk]
  intro a
  match a with
  | ⟨0, _⟩ => show win7_5.index t (0 : Fin 2) * 4000 ≤ (i 0).val ∧ (i 0).val < win7_5.index t (0 : Fin 2) * 4000 + 4000; rw [e8, ht]; omega
  | ⟨1, _⟩ => show win7_5.index t (1 : Fin 2) * 32 ≤ (i 1).val ∧ (i 1).val < win7_5.index t (1 : Fin 2) * 32 + 32; rw [e9]; omega

/-- The output array after the region is the normalised array. -/
theorem final (c : Dev nD) : (dat7 V c).arrAt 5 cfg7.N = result V c :=
  (dat7 V c).arrAt_eq_of_cover 5 (result V c) (fun t _ => flushed_eq V c t) cover

/-! ## The windows' arrays, by name -/

theorem arr0 : Pipeline.arrRef spec7 0 = main_v96_0 := rfl
theorem arr1 : Pipeline.arrRef spec7 1 = main_v98 := rfl
theorem arr2 : Pipeline.arrRef spec7 2 = main_v102 := rfl
theorem arr3 : Pipeline.arrRef spec7 3 = main_arg18 := rfl
theorem arr4 : Pipeline.arrRef spec7 4 = main_arg19 := rfl
theorem arr5 : Pipeline.arrRef spec7 5 = main_v103 := rfl

end Cert.KernelIdeal.AffineRunL2j

end
-- ==== Proof.MlpPayL3i.lean ====
/- The values the stores of the first device pass of one GIN layer write, read index by index at the ideal values: the
   two-layer perceptron of a [4000, 32] tile of rows (widths 32, 16, 16), its column sums added to a running [1, 16] row, and
   the column sums of its squares added to another.  Rounding to bf16 before each matrix product is the identity at the ideal
   values, a matrix product into the zero block is the plain sum of products, and a sum over the row axis is the sum over
   the tile's 4000 rows. -/
import proofs.«120907_j71768903516484_1_alg».proof.Proof.Gen.KernelIdeal.Skeleton
import proofs.«120907_j71768903516484_1_alg».proof.Proof.GinSpec
import Idealize.ShloMosaic.PureOps.Ideal.Laws
import Idealize.ShloMosaic.Lib.ValueLayout
import Idealize.ShloMosaic.Lib.Pipeline.Value

noncomputable section

open Idealize.ShloMosaic Idealize.ShloMosaic.ValueIdx

namespace Cert.KernelIdeal.MlpPayL3i

open Cert.KernelIdeal Cert.KernelIdeal.Gen Cert.KernelIdeal.GinSpec

/-- The device's matrix product of a [4000, 32] block by a [32, 16] matrix into the zero block, read at row r and column c:
    the sum over the contracted coordinate of the products of the entries. -/
theorem matmul1_at {φ₁ φ₂ : FTy} (lhs : FVec Ideal S4000x32 φ₁) (rhs : FVec Ideal S32x16 φ₂) (r : Fin 4000) (c : Fin 16) :
    matmul dot_S4000x32_S32x16_S4000x16_1_0_0_1_n_n none lhs rhs (constant (F := Ideal) S4000x16 .f32 0x00000000#32) (ix2 r c)
      = ∑ k : Fin 32, lhs (ix2 r k) * rhs (ix2 k c) := by
  show FloatOps.matmul _ none lhs rhs (constant (F := Ideal) S4000x16 .f32 0x00000000#32) (ix2 r c) = _
  rw [Ideal.matmul_constant_zero_apply, ← Equiv.sum_comp (contrEquiv1 dot_S4000x32_S32x16_S4000x16_1_0_0_1_n_n 32 rfl rfl).symm]
  refine Finset.sum_congr rfl fun k _ => ?_
  have c2 := contrEquiv1_symm_val dot_S4000x32_S32x16_S4000x16_1_0_0_1_n_n 32 rfl rfl k
  have l2 : dot_S4000x32_S32x16_S4000x16_1_0_0_1_n_n.lhsIdx (ix2 r c) ((contrEquiv1 _ 32 rfl rfl).symm k) = ix2 r k := by
    funext ax; apply Fin.ext
    match ax with
    | ⟨0, _⟩ => simp [DotDims.lhsIdx, dot_S4000x32_S32x16_S4000x16_1_0_0_1_n_n]; rfl
    | ⟨1, _⟩ => simp [DotDims.lhsIdx, dot_S4000x32_S32x16_S4000x16_1_0_0_1_n_n]; exact c2
  have r2 : dot_S4000x32_S32x16_S4000x16_1_0_0_1_n_n.rhsIdx (ix2 r c) ((contrEquiv1 _ 32 rfl rfl).symm k) = ix2 k c := by
    funext ax; apply Fin.ext
    match ax with
    | ⟨0, _⟩ => simp [DotDims.rhsIdx, dot_S4000x32_S32x16_S4000x16_1_0_0_1_n_n]; exact c2
    | ⟨1, _⟩ => simp [DotDims.rhsIdx, dot_S4000x32_S32x16_S4000x16_1_0_0_1_n_n]; rfl
  rw [l2, r2]

/-- The device's matrix product of a [4000, 16] block by a [16, 16] matrix into the zero block, read at row r and column c:
    the sum over the contracted coordinate of the products of the entries. -/
theorem matmul2_at {φ₁ φ₂ : FTy} (lhs : FVec Ideal S4000x16 φ₁) (rhs : FVec Ideal S16x16 φ₂) (r : Fin 4000) (c : Fin 16) :
    matmul dot_S4000x16_S16x16_S4000x16_1_0_0_1_n_n none lhs rhs (constant (F := Ideal) S4000x16 .f32 0x00000000#32) (ix2 r c)
      = ∑ k : Fin 16, lhs (ix2 r k) * rhs (ix2 k c) := by
  show FloatOps.matmul _ none lhs rhs (constant (F := Ideal) S4000x16 .f32 0x00000000#32) (ix2 r c) = _
  rw [Ideal.matmul_constant_zero_apply, ← Equiv.sum_comp (contrEquiv1 dot_S4000x16_S16x16_S4000x16_1_0_0_1_n_n 16 rfl rfl).symm]
  refine Finset.sum_congr rfl fun k _ => ?_
  have c2 := contrEquiv1_symm_val dot_S4000x16_S16x16_S4000x16_1_0_0_1_n_n 16 rfl rfl k
  have l2 : dot_S4000x16_S16x16_S4000x16_1_0_0_1_n_n.lhsIdx (ix2 r c) ((contrEquiv1 _ 16 rfl rfl).symm k) = ix2 r k := by
    funext ax; apply Fin.ext
    match ax with
    | ⟨0, _⟩ => simp [DotDims.lhsIdx, dot_S4000x16_S16x16_S4000x16_1_0_0_1_n_n]; rfl
    | ⟨1, _⟩ => simp [DotDims.lhsIdx, dot_S4000x16_S16x16_S4000x16_1_0_0_1_n_n]; exact c2
  have r2 : dot_S4000x16_S16x16_S4000x16_1_0_0_1_n_n.rhsIdx (ix2 r c) ((contrEquiv1 _ 16 rfl rfl).symm k) = ix2 k c := by
    funext ax; apply Fin.ext
    match ax with
    | ⟨0, _⟩ => simp [DotDims.rhsIdx, dot_S4000x16_S16x16_S4000x16_1_0_0_1_n_n]; exact c2
    | ⟨1, _⟩ => simp [DotDims.rhsIdx, dot_S4000x16_S16x16_S4000x16_1_0_0_1_n_n]; rfl
  rw [l2, r2]

/-- The tile's perceptron output at row r, column c. -/
theorem mlp_apply (v3 : Vec Ideal S4000x32 .f32) (v5 : Vec Ideal S32x16 .f32) (v9 : Vec Ideal S16 .f32)
    (v15 : Vec Ideal S16x16 .f32) (v19 : Vec Ideal S16 .f32) (r : Fin 4000) (c : Fin 16) :
    k8_pay4 v3 v5 v9 v15 v19 (ix2 r c) = mlpAt v3 v5 v9 v15 v19 r c := by
  unfold k8_pay4 mlpAt
  rw [addf_apply, matmul2_at, broadcastTo_1b_ab_apply, shapeCast_a_1a_apply]
  refine congrArg (· + v19 (ix1 c)) (Finset.sum_congr rfl fun q _ => ?_)
  rw [truncf_apply, truncf_apply, maximumf_apply, addf_apply, matmul1_at, broadcastTo_1b_ab_apply, shapeCast_a_1a_apply,
    broadcast_apply]
  simp only [truncf_apply, shapeCast_self]
  rw [Ideal.ofBits_def, Ideal.ofBits_zero_f32]

/-- A sum over the row axis of a [4000, 16] block, read at column c, is the sum of the column's 4000 entries. -/
theorem colsum_at (src : FVec Ideal S4000x16 .f32) (h : S4000x16.Reduces [0] S16) (hφ : FKind.Formats .f32)
    (hacc : (0x00000000#32 : BitVec 32) = 0x00000000#32) (c : Fin 16) :
    multiReduction (F := Ideal) .add [0] S16 src 0x00000000#32 h hφ hacc (ix1 c) = ∑ k : Fin 4000, src (ix2 k c) :=
  (Ideal.multiReduction_add_single src 0x00000000#32 h hφ hacc (ix1 c)).trans
    (Finset.sum_congr rfl fun k _ => congrArg src (funext fun a => Fin.ext (by
      match a with
      | ⟨0, _⟩ => rfl
      | ⟨1, _⟩ => rfl)))

/-- The running row of column sums after the tile: what it held plus the tile's column sums of the perceptron output. -/
theorem sum_apply (v3 : Vec Ideal S4000x32 .f32) (v5 : Vec Ideal S32x16 .f32) (v9 : Vec Ideal S16 .f32)
    (v15 : Vec Ideal S16x16 .f32) (v19 : Vec Ideal S16 .f32) (v24 : Vec Ideal S1x16 .f32) (u : Fin 1) (c : Fin 16) :
    k8_pay5 v3 v5 v9 v15 v19 v24 (ix2 u c) = v24 (ix2 u c) + ∑ k : Fin 4000, mlpAt v3 v5 v9 v15 v19 k c := by
  unfold k8_pay5
  rw [addf_apply, shapeCast_self, shapeCast_a_1a_apply, colsum_at]
  exact congrArg (v24 (ix2 u c) + ·) (Finset.sum_congr rfl fun k _ => mlp_apply v3 v5 v9 v15 v19 k c)

/-- A running row plus the column sums of a block. -/
theorem acc_apply (v31 : FVec Ideal S1x16 .f32) (v32 : FVec Ideal S4000x16 .f32) (u : Fin 1) (c : Fin 16) :
    k8_pay1 v31 v32 (ix2 u c) = v31 (ix2 u c) + ∑ k : Fin 4000, v32 (ix2 k c) := by
  unfold k8_pay1
  rw [addf_apply, shapeCast_a_1a_apply, colsum_at]

theorem carried_eq (v30 : Vec Ideal S1x16 .f32) : k8_pay6 v30 = v30 := by
  unfold k8_pay6
  rw [shapeCast_self]

/-- The squares of the tile's perceptron output. -/
theorem sq_apply (v3 : Vec Ideal S4000x32 .f32) (v5 : Vec Ideal S32x16 .f32) (v9 : Vec Ideal S16 .f32)
    (v15 : Vec Ideal S16x16 .f32) (v19 : Vec Ideal S16 .f32) (r : Fin 4000) (c : Fin 16) :
    k8_pay7 v3 v5 v9 v15 v19 (ix2 r c) = mlpAt v3 v5 v9 v15 v19 r c * mlpAt v3 v5 v9 v15 v19 r c := by
  unfold k8_pay7
  rw [mulf_apply, mlp_apply]

/-- The running row of sums of squares after the tile. -/
theorem sumsq_apply (v3 : Vec Ideal S4000x32 .f32) (v5 : Vec Ideal S32x16 .f32) (v9 : Vec Ideal S16 .f32)
    (v15 : Vec Ideal S16x16 .f32) (v19 : Vec Ideal S16 .f32) (v30 : Vec Ideal S1x16 .f32) (u : Fin 1) (c : Fin 16) :
    k8_pay1 (k8_pay6 v30) (k8_pay7 v3 v5 v9 v15 v19) (ix2 u c)
      = v30 (ix2 u c) + ∑ k : Fin 4000, mlpAt v3 v5 v9 v15 v19 k c * mlpAt v3 v5 v9 v15 v19 k c := by
  rw [acc_apply, carried_eq]
  exact congrArg (v30 (ix2 u c) + ·) (Finset.sum_congr rfl fun k _ => sq_apply v3 v5 v9 v15 v19 k c)

/-- The two zero rows the first grid point stores. -/
theorem zero_sum_apply (j : S1x16.Idx) : k8_pay2 (F := Ideal) j = 0 := by
  unfold k8_pay2
  rw [broadcast_apply]
  exact Ideal.ofBits_zero_f32

theorem zero_sumsq_apply (j : S1x16.Idx) : k8_pay3 (F := Ideal) j = 0 := by
  unfold k8_pay3
  rw [broadcast_apply]
  exact Ideal.ofBits_zero_f32

end Cert.KernelIdeal.MlpPayL3i

end
-- ==== Proof.MlpRunL3i.lean ====
/- The three arrays the first device pass of one GIN layer leaves (region 8: [200000, 32] rows in 50 tiles of 4000, widths
   32, 16, 16), for any contents of the device's buffers when the region is entered.  Each control case's stores are read as
   values of the point's input blocks; the tile window's block at point t is rows 4000 t … 4000 t + 3999 of the array and
   the other input windows' one block is their whole array; so the tile output is the two-layer perceptron of the input
   array row by row, and, by induction over the grid points (the first point zeroes the two running rows, every point
   adds its tile's column sums), after the last point the two [1, 16] rows hold the column sums of the perceptron output
   and of its squares, tile after tile. -/
import proofs.«120907_j71768903516484_1_alg».proof.Proof.KIFrameP
import proofs.«120907_j71768903516484_1_alg».proof.Proof.MlpPayL3i
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MlpRunL3i

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## What each control case leaves in the three output buffers, as the stores' values -/

/-- At the first grid point the tile's perceptron output is stored. -/
theorem outA5_eq (c : Dev nD) (i : grid8.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : cond8_0 i) (x0 : Vec Ideal S4000x32 .f32) (x1 : Vec Ideal S32x16 .f32) (x2 : Vec Ideal S16 .f32) (x3 : Vec Ideal S16x16 .f32) (x4 : Vec Ideal S16 .f32) :
    out8_A_5 c i arg1 harg1 arg2 harg2 arg3 harg3 arg4 harg4 arg5 harg5 arg6 harg6 arg7 harg7 arg8 harg8 hc0 x0 x1 x2 x3 x4 = k8_pay4 x0 x1 x2 x3 x4 := by
  unfold out8_A_5
  rw [View.read_writes_eq_canon _ _ _ (cover8_A_5 c i arg1 harg1 arg2 harg2 arg3 harg3 arg4 harg4 arg5 harg5 arg6 harg6 arg7 harg7 arg8 harg8 hc0 x0 x1 x2 x3 x4)]
  unfold kernelRun8_A
  dsimp only
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1]

/-- At the first grid point the row of column sums is zeroed, then the tile's column sums are added to it. -/
theorem outA6_eq (c : Dev nD) (i : grid8.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : cond8_0 i) (x0 : Vec Ideal S4000x32 .f32) (x1 : Vec Ideal S32x16 .f32) (x2 : Vec Ideal S16 .f32) (x3 : Vec Ideal S16x16 .f32) (x4 : Vec Ideal S16 .f32) :
    out8_A_6 c i arg1 harg1 arg2 harg2 arg3 harg3 arg4 harg4 arg5 harg5 arg6 harg6 arg7 harg7 arg8 harg8 hc0 x0 x1 x2 x3 x4 = k8_pay5 x0 x1 x2 x3 x4 (k8_pay2 (F := Ideal)) := by
  unfold out8_A_6
  rw [View.read_writes_eq_canon _ _ _ (cover8_A_6 c i arg1 harg1 arg2 harg2 arg3 harg3 arg4 harg4 arg5 harg5 arg6 harg6 arg7 harg7 arg8 harg8 hc0 x0 x1 x2 x3 x4)]
  unfold kernelRun8_A
  dsimp only
  sl_unfold_words
  rw [View.canon_cons_unit_zero (S := S1x16) hz2, View.readCov_unit_zero (S := S1x16) _ hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1]

/-- At the first grid point the row of sums of squares is zeroed, then the tile's sums of squares are added to it. -/
theorem outA7_eq (c : Dev nD) (i : grid8.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : cond8_0 i) (x0 : Vec Ideal S4000x32 .f32) (x1 : Vec Ideal S32x16 .f32) (x2 : Vec Ideal S16 .f32) (x3 : Vec Ideal S16x16 .f32) (x4 : Vec Ideal S16 .f32) :
    out8_A_7 c i arg1 harg1 arg2 harg2 arg3 harg3 arg4 harg4 arg5 harg5 arg6 harg6 arg7 harg7 arg8 harg8 hc0 x0 x1 x2 x3 x4 = k8_pay1 (k8_pay6 (k8_pay3 (F := Ideal))) (k8_pay7 x0 x1 x2 x3 x4) := by
  unfold out8_A_7
  rw [View.read_writes_eq_canon _ _ _ (cover8_A_7 c i arg1 harg1 arg2 harg2 arg3 harg3 arg4 harg4 arg5 harg5 arg6 harg6 arg7 harg7 arg8 harg8 hc0 x0 x1 x2 x3 x4)]
  unfold kernelRun8_A
  dsimp only
  sl_unfold_words
  rw [View.canon_cons_unit_zero (S := S1x16) hz2, View.readCov_unit_zero (S := S1x16) _ hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1]

/-- At a later grid point the tile's perceptron output is stored. -/
theorem outB5_eq (c : Dev nD) (i : grid8.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : ¬cond8_0 i) (x0 : Vec Ideal S4000x32 .f32) (x1 : Vec Ideal S32x16 .f32) (x2 : Vec Ideal S16 .f32) (x3 : Vec Ideal S16x16 .f32) (x4 : Vec Ideal S16 .f32) (xo6 xo7 : Vec Ideal S1x16 .f32) :
    out8_B_5 c i arg1 harg1 arg2 harg2 arg3 harg3 arg4 harg4 arg5 harg5 arg6 harg6 arg7 harg7 arg8 harg8 hc0 x0 x1 x2 x3 x4 xo6 xo7 = k8_pay4 x0 x1 x2 x3 x4 := by
  unfold out8_B_5
  rw [View.read_writes_eq_canon _ _ _ (cover8_B_5 c i arg1 harg1 arg2 harg2 arg3 harg3 arg4 harg4 arg5 harg5 arg6 harg6 arg7 harg7 arg8 harg8 hc0 x0 x1 x2 x3 x4 xo6 xo7)]
  unfold kernelRun8_B
  dsimp only
  try sl_unfold_words
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1, harg7.read_unread, harg8.read_unread, View.ld_unit_zero (S := S1x16) hz2]

/-- At a later grid point the tile's column sums are added to the row the point before left. -/
theorem outB6_eq (c : Dev nD) (i : grid8.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : ¬cond8_0 i) (x0 : Vec Ideal S4000x32 .f32) (x1 : Vec Ideal S32x16 .f32) (x2 : Vec Ideal S16 .f32) (x3 : Vec Ideal S16x16 .f32) (x4 : Vec Ideal S16 .f32) (xo6 xo7 : Vec Ideal S1x16 .f32) :
    out8_B_6 c i arg1 harg1 arg2 harg2 arg3 harg3 arg4 harg4 arg5 harg5 arg6 harg6 arg7 harg7 arg8 harg8 hc0 x0 x1 x2 x3 x4 xo6 xo7 = k8_pay5 x0 x1 x2 x3 x4 xo6 := by
  unfold out8_B_6
  rw [View.read_writes_eq_canon _ _ _ (cover8_B_6 c i arg1 harg1 arg2 harg2 arg3 harg3 arg4 harg4 arg5 harg5 arg6 harg6 arg7 harg7 arg8 harg8 hc0 x0 x1 x2 x3 x4 xo6 xo7)]
  unfold kernelRun8_B
  dsimp only
  try sl_unfold_words
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1, harg7.read_unread, harg8.read_unread, View.ld_unit_zero (S := S1x16) hz2]

/-- At a later grid point the tile's sums of squares are added to the row the point before left. -/
theorem outB7_eq (c : Dev nD) (i : grid8.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : ¬cond8_0 i) (x0 : Vec Ideal S4000x32 .f32) (x1 : Vec Ideal S32x16 .f32) (x2 : Vec Ideal S16 .f32) (x3 : Vec Ideal S16x16 .f32) (x4 : Vec Ideal S16 .f32) (xo6 xo7 : Vec Ideal S1x16 .f32) :
    out8_B_7 c i arg1 harg1 arg2 harg2 arg3 harg3 arg4 harg4 arg5 harg5 arg6 harg6 arg7 harg7 arg8 harg8 hc0 x0 x1 x2 x3 x4 xo6 xo7 = k8_pay1 (k8_pay6 xo7) (k8_pay7 x0 x1 x2 x3 x4) := by
  unfold out8_B_7
  rw [View.read_writes_eq_canon _ _ _ (cover8_B_7 c i arg1 harg1 arg2 harg2 arg3 harg3 arg4 harg4 arg5 harg5 arg6 harg6 arg7 harg7 arg8 harg8 hc0 x0 x1 x2 x3 x4 xo6 xo7)]
  unfold kernelRun8_B
  dsimp only
  try sl_unfold_words
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1, harg7.read_unread, harg8.read_unread, View.ld_unit_zero (S := S1x16) hz2]

/-! ## The windows' blocks as parts of the arrays -/

/-- The printed index maps over the grid: the two tile windows (input 0, output 5) sit at block (t, 0); the weights, the
    biases and the two running rows at block 0. -/
structure IdxFacts (t : Fin cfg8.N) : Prop where
  w0a : win8_0.index t (0 : Fin 2) = t.val
  w0b : win8_0.index t (1 : Fin 2) = 0
  w1a : win8_1.index t (0 : Fin 2) = 0
  w1b : win8_1.index t (1 : Fin 2) = 0
  w2a : win8_2.index t (0 : Fin 1) = 0
  w3a : win8_3.index t (0 : Fin 2) = 0
  w3b : win8_3.index t (1 : Fin 2) = 0
  w4a : win8_4.index t (0 : Fin 1) = 0
  w5a : win8_5.index t (0 : Fin 2) = t.val
  w5b : win8_5.index t (1 : Fin 2) = 0
  w6a : win8_6.index t (0 : Fin 2) = 0
  w6b : win8_6.index t (1 : Fin 2) = 0
  w7a : win8_7.index t (0 : Fin 2) = 0
  w7b : win8_7.index t (1 : Fin 2) = 0

theorem idx_facts : ∀ t : Fin cfg8.N, IdxFacts t :=
  fun t => by
    have h : ∀ t : Fin cfg8.N,
        win8_0.index t (0 : Fin 2) = t.val ∧ win8_0.index t (1 : Fin 2) = 0
        ∧ win8_1.index t (0 : Fin 2) = 0 ∧ win8_1.index t (1 : Fin 2) = 0
        ∧ win8_2.index t (0 : Fin 1) = 0
        ∧ win8_3.index t (0 : Fin 2) = 0 ∧ win8_3.index t (1 : Fin 2) = 0
        ∧ win8_4.index t (0 : Fin 1) = 0
        ∧ win8_5.index t (0 : Fin 2) = t.val ∧ win8_5.index t (1 : Fin 2) = 0
        ∧ win8_6.index t (0 : Fin 2) = 0 ∧ win8_6.index t (1 : Fin 2) = 0
        ∧ win8_7.index t (0 : Fin 2) = 0 ∧ win8_7.index t (1 : Fin 2) = 0 :=
      (by decide +kernel : ∀ t : Fin grid8.N, _)
    obtain ⟨h0, h1, h2, h3, h4, h5, h6, h7, h8, h9, h10, h11, h12, h13⟩ := h t
    exact ⟨h0, h1, h2, h3, h4, h5, h6, h7, h8, h9, h10, h11, h12, h13⟩

/-- Row p of the input tile at point t is row 4000 t + p of the input array. -/
theorem blk0_apply (c : Dev nD) (t : Fin cfg8.N) (p : Fin 4000) (q : Fin 32) (k : Fin 200000) (hk : k.val = 4000 * t.val + p.val) :
    (iblk8 V c 0 t : Vec Ideal S4000x32 .f32) (ix2 p q) = (V c (Pipeline.arrRef spec8 0) : S200000x32.Idx → EReal) (ix2 k q) := by
  have e := idx_facts t
  unfold iblk8
  rw [View.read_apply]
  show (V c (Pipeline.arrRef spec8 0) : S200000x32.Idx → EReal) _ = _
  refine congrArg _ (funext fun ax => Fin.ext ?_)
  match ax with
  | ⟨0, _⟩ => show win8_0.index t (0 : Fin 2) * 4000 + 1 * p.val = k.val; rw [e.w0a, hk]; omega
  | ⟨1, _⟩ => show win8_0.index t (1 : Fin 2) * 32 + 1 * q.val = q.val; rw [e.w0b]; omega

/-- The first weight matrix's one block is the whole array. -/
theorem blk1_apply (c : Dev nD) (t : Fin cfg8.N) (a : Fin 32) (b : Fin 16) :
    (iblk8 V c 1 t : Vec Ideal S32x16 .f32) (ix2 a b) = (V c (Pipeline.arrRef spec8 1) : S32x16.Idx → EReal) (ix2 a b) := by
  have e := idx_facts t
  unfold iblk8
  rw [View.read_apply]
  show (V c (Pipeline.arrRef spec8 1) : S32x16.Idx → EReal) _ = _
  refine congrArg _ (funext fun ax => Fin.ext ?_)
  match ax with
  | ⟨0, _⟩ => show win8_1.index t (0 : Fin 2) * 32 + 1 * a.val = a.val; rw [e.w1a]; omega
  | ⟨1, _⟩ => show win8_1.index t (1 : Fin 2) * 16 + 1 * b.val = b.val; rw [e.w1b]; omega

/-- The first bias vector's one block is the whole array. -/
theorem blk2_apply (c : Dev nD) (t : Fin cfg8.N) (a : Fin 16) :
    (iblk8 V c 2 t : Vec Ideal S16 .f32) (ix1 a) = (V c (Pipeline.arrRef spec8 2) : S16.Idx → EReal) (ix1 a) := by
  have e := idx_facts t
  unfold iblk8
  rw [View.read_apply]
  show (V c (Pipeline.arrRef spec8 2) : S16.Idx → EReal) _ = _
  refine congrArg _ (funext fun ax => Fin.ext ?_)
  match ax with
  | ⟨0, _⟩ => show win8_2.index t (0 : Fin 1) * 16 + 1 * a.val = a.val; rw [e.w2a]; omega

/-- The second weight matrix's one block is the whole array. -/
theorem blk3_apply (c : Dev nD) (t : Fin cfg8.N) (a : Fin 16) (b : Fin 16) :
    (iblk8 V c 3 t : Vec Ideal S16x16 .f32) (ix2 a b) = (V c (Pipeline.arrRef spec8 3) : S16x16.Idx → EReal) (ix2 a b) := by
  have e := idx_facts t
  unfold iblk8
  rw [View.read_apply]
  show (V c (Pipeline.arrRef spec8 3) : S16x16.Idx → EReal) _ = _
  refine congrArg _ (funext fun ax => Fin.ext ?_)
  match ax with
  | ⟨0, _⟩ => show win8_3.index t (0 : Fin 2) * 16 + 1 * a.val = a.val; rw [e.w3a]; omega
  | ⟨1, _⟩ => show win8_3.index t (1 : Fin 2) * 16 + 1 * b.val = b.val; rw [e.w3b]; omega

/-- The second bias vector's one block is the whole array. -/
theorem blk4_apply (c : Dev nD) (t : Fin cfg8.N) (a : Fin 16) :
    (iblk8 V c 4 t : Vec Ideal S16 .f32) (ix1 a) = (V c (Pipeline.arrRef spec8 4) : S16.Idx → EReal) (ix1 a) := by
  have e := idx_facts t
  unfold iblk8
  rw [View.read_apply]
  show (V c (Pipeline.arrRef spec8 4) : S16.Idx → EReal) _ = _
  refine congrArg _ (funext fun ax => Fin.ext ?_)
  match ax with
  | ⟨0, _⟩ => show win8_4.index t (0 : Fin 1) * 16 + 1 * a.val = a.val; rw [e.w4a]; omega

/-! ## The three results -/

/-- The perceptron of the input array by the weights and biases the region finds, at a row and a column. -/
def H (c : Dev nD) : Fin 200000 → Fin 16 → EReal :=
  mlpAt (V c (Pipeline.arrRef spec8 0) : S200000x32.Idx → EReal)
    (V c (Pipeline.arrRef spec8 1) : S32x16.Idx → EReal)
    (V c (Pipeline.arrRef spec8 2) : S16.Idx → EReal)
    (V c (Pipeline.arrRef spec8 3) : S16x16.Idx → EReal)
    (V c (Pipeline.arrRef spec8 4) : S16.Idx → EReal)

/-- Window 5: the perceptron output, row by row. -/
def resultMlp (c : Dev nD) : S200000x16.Idx → EReal := fun i => H V c (i 0) (i 1)

/-- Window 6: its column sums over the 50 tiles of 4000 rows. -/
def resultSum (c : Dev nD) : S1x16.Idx → EReal :=
  fun i => colSumAt 50 4000 (by decide : 50 * 4000 = 200000) (H V c) (i 1)

/-- Window 7: the column sums of its squares. -/
def resultSumSq (c : Dev nD) : S1x16.Idx → EReal :=
  fun i => colSumAt 50 4000 (by decide : 50 * 4000 = 200000) (fun r q => H V c r q * H V c r q) (i 1)

/-- The perceptron of tile t at its row p is the perceptron of the array at row 4000 t + p. -/
theorem tile_mlp (c : Dev nD) (t : Fin cfg8.N) (ht : t.val < 50) (p : Fin 4000) (q : Fin 16) :
    mlpAt (iblk8 V c 0 t : Vec Ideal S4000x32 .f32) (iblk8 V c 1 t : Vec Ideal S32x16 .f32) (iblk8 V c 2 t : Vec Ideal S16 .f32) (iblk8 V c 3 t : Vec Ideal S16x16 .f32) (iblk8 V c 4 t : Vec Ideal S16 .f32) p q
      = H V c (tileRow (T := 50) (R := 4000) (n := 200000) (by decide) ⟨t.val, ht⟩ p) q :=
  mlpAt_congr q (fun a => blk0_apply V c t p a _ rfl) (fun a b => blk1_apply V c t a b) (fun b => blk2_apply V c t b)
    (fun a b => blk3_apply V c t a b) (fun b => blk4_apply V c t b)

/-! ## The output buffers after each grid point -/

/-- After any grid point the tile buffer holds the perceptron of the point's tile. -/
theorem out5_eq (c : Dev nD) (t : Fin cfg8.N) :
    (outsAt8 V c t.val t.isLt).1 = k8_pay4 (iblk8 V c 0 t : Vec Ideal S4000x32 .f32) (iblk8 V c 1 t : Vec Ideal S32x16 .f32) (iblk8 V c 2 t : Vec Ideal S16 .f32) (iblk8 V c 3 t : Vec Ideal S16x16 .f32) (iblk8 V c 4 t : Vec Ideal S16 .f32) := by
  by_cases h0 : t.val % 50 = 0
  · rw [outsAt8_A V c t h0]
    dsimp only
    exact outA5_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t)
  · rw [outsAt8_B V c t h0]
    dsimp only
    exact outB5_eq c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) _ _

/-- After grid point n the row of column sums holds the parts of tiles 0 … n, added in that order. -/
theorem sums_eq (c : Dev nD) : ∀ (n : ℕ) (h : n < cfg8.N),
    (outsAt8 V c n h).2.1
      = (fun j : S1x16.Idx => ∑ k ∈ Finset.range (n + 1), tileSum 50 4000 (by decide : 50 * 4000 = 200000) (H V c) k (j 1))
  | 0, h => by
    refine (congrArg (fun z => z.2.1) (outsAt8_A V c ⟨0, h⟩ (Nat.zero_mod _))).trans ?_
    dsimp only
    rw [outA6_eq]
    funext j
    obtain ⟨u, q, rfl⟩ : ∃ (u : Fin 1) (q : Fin 16), j = ix2 u q := ⟨j 0, j 1, eq_ix2 j⟩
    refine (MlpPayL3i.sum_apply _ _ _ _ _ _ u q).trans ?_
    rw [MlpPayL3i.zero_sum_apply, zero_add, Finset.sum_range_one, tileSum_of_lt 50 4000 _ _ (by decide : 0 < 50)]
    exact Finset.sum_congr rfl fun p _ => tile_mlp V c ⟨0, h⟩ (Nat.succ_pos 49) p q
  | n + 1, h => by
    have hN : n + 1 < 50 := lt_of_lt_of_eq h N_8
    have hB : ¬(⟨n + 1, h⟩ : Fin cfg8.N).val % 50 = 0 := by dsimp only; omega
    refine (congrArg (fun z => z.2.1) (outsAt8_B V c ⟨n + 1, h⟩ hB)).trans ?_
    dsimp only
    rw [outB6_eq]
    funext j
    obtain ⟨u, q, rfl⟩ : ∃ (u : Fin 1) (q : Fin 16), j = ix2 u q := ⟨j 0, j 1, eq_ix2 j⟩
    refine (MlpPayL3i.sum_apply _ _ _ _ _ _ u q).trans ?_
    rw [Finset.sum_range_succ _ (n + 1), tileSum_of_lt 50 4000 _ _ hN]
    refine congrArg₂ (· + ·) ?_ (Finset.sum_congr rfl fun p _ => tile_mlp V c ⟨n + 1, h⟩ hN p q)
    exact congrFun (sums_eq c n (Nat.lt_of_succ_lt h)) (ix2 u q)

/-- After grid point n the row of sums of squares holds the parts of tiles 0 … n, added in that order. -/
theorem sumsqs_eq (c : Dev nD) : ∀ (n : ℕ) (h : n < cfg8.N),
    (outsAt8 V c n h).2.2
      = (fun j : S1x16.Idx => ∑ k ∈ Finset.range (n + 1),
          tileSum 50 4000 (by decide : 50 * 4000 = 200000) (fun r q => H V c r q * H V c r q) k (j 1))
  | 0, h => by
    refine (congrArg (fun z => z.2.2) (outsAt8_A V c ⟨0, h⟩ (Nat.zero_mod _))).trans ?_
    dsimp only
    rw [outA7_eq]
    funext j
    obtain ⟨u, q, rfl⟩ : ∃ (u : Fin 1) (q : Fin 16), j = ix2 u q := ⟨j 0, j 1, eq_ix2 j⟩
    refine (MlpPayL3i.sumsq_apply _ _ _ _ _ _ u q).trans ?_
    rw [MlpPayL3i.zero_sumsq_apply, zero_add, Finset.sum_range_one, tileSum_of_lt 50 4000 _ _ (by decide : 0 < 50)]
    exact Finset.sum_congr rfl fun p _ => by rw [tile_mlp V c ⟨0, h⟩ (Nat.succ_pos 49) p q]
  | n + 1, h => by
    have hN : n + 1 < 50 := lt_of_lt_of_eq h N_8
    have hB : ¬(⟨n + 1, h⟩ : Fin cfg8.N).val % 50 = 0 := by dsimp only; omega
    refine (congrArg (fun z => z.2.2) (outsAt8_B V c ⟨n + 1, h⟩ hB)).trans ?_
    dsimp only
    rw [outB7_eq]
    funext j
    obtain ⟨u, q, rfl⟩ : ∃ (u : Fin 1) (q : Fin 16), j = ix2 u q := ⟨j 0, j 1, eq_ix2 j⟩
    refine (MlpPayL3i.sumsq_apply _ _ _ _ _ _ u q).trans ?_
    rw [Finset.sum_range_succ _ (n + 1), tileSum_of_lt 50 4000 _ _ hN]
    refine congrArg₂ (· + ·) ?_ (Finset.sum_congr rfl fun p _ => by rw [tile_mlp V c ⟨n + 1, h⟩ hN p q])
    exact congrFun (sumsqs_eq c n (Nat.lt_of_succ_lt h)) (ix2 u q)

/-! ## From the buffers to the arrays -/

/-- What grid point t writes back of window 5 is rows 4000 t … 4000 t + 3999 of the perceptron output. -/
theorem flushed5_eq (c : Dev nD) (t : Fin cfg8.N) :
    (dat8 V c).flushed 5 t = ((cfg8.win 5).blk t).view.read (Elt Ideal) (resultMlp V c) := by
  have hN : t.val < 50 := lt_of_lt_of_eq t.isLt N_8
  have e := idx_facts t
  show (cfg8.win 5).cut (grid8.coords t) ((dat8 V c).after 5 t) = _
  rw [after8_5, out5_eq]
  funext j
  obtain ⟨p, q, rfl⟩ : ∃ (p : Fin 4000) (q : Fin 16), j = ix2 p q := ⟨j 0, j 1, eq_ix2 j⟩
  show k8_pay4 (iblk8 V c 0 t : Vec Ideal S4000x32 .f32) (iblk8 V c 1 t : Vec Ideal S32x16 .f32) (iblk8 V c 2 t : Vec Ideal S16 .f32) (iblk8 V c 3 t : Vec Ideal S16x16 .f32) (iblk8 V c 4 t : Vec Ideal S16 .f32) (ix2 p q)
    = resultMlp V c (((cfg8.win 5).blk t).view.emb (ix2 p q))
  refine (MlpPayL3i.mlp_apply (iblk8 V c 0 t : Vec Ideal S4000x32 .f32) (iblk8 V c 1 t : Vec Ideal S32x16 .f32) (iblk8 V c 2 t : Vec Ideal S16 .f32) (iblk8 V c 3 t : Vec Ideal S16x16 .f32) (iblk8 V c 4 t : Vec Ideal S16 .f32) p q).trans ?_
  have hemb : ((cfg8.win 5).blk t).view.emb (ix2 p q)
      = ix2 (tileRow (T := 50) (R := 4000) (n := 200000) (by decide) ⟨t.val, hN⟩ p) q := by
    funext a; apply Fin.ext
    match a with
    | ⟨0, _⟩ => show win8_5.index t (0 : Fin 2) * 4000 + 1 * p.val = 4000 * t.val + p.val; rw [e.w5a]; omega
    | ⟨1, _⟩ => show win8_5.index t (1 : Fin 2) * 16 + 1 * q.val = q.val; rw [e.w5b]; omega
  rw [hemb]
  exact tile_mlp V c t hN p q

theorem mem_blk5 (t : Fin cfg8.N) (i : S200000x16.Idx) :
    i ∈ ((cfg8.win 5).blk t).view.set ↔ ∀ a : Fin 2, win8_5.index t a * S4000x16.size a ≤ (i a).val ∧ (i a).val < win8_5.index t a * S4000x16.size a + S4000x16.size a := by
  show i ∈ ((View.whole (Pipeline.arrRef spec8 5)).slice (win8_5.rect t)).set ↔ _
  rw [View.set_slice_whole, Rect.mem_set_unit]
  exact Iff.rfl

/-- Row r of the array lies in the block of point r / 4000. -/
theorem cover5 (i : S200000x16.Idx) : ∃ t : Fin cfg8.N, (cfg8.win 5).flush t = true ∧ i ∈ ((cfg8.win 5).blk t).view.set := by
  have hi0 : (i 0).val < 200000 := (i 0).isLt
  have hi1 : (i 1).val < 16 := (i 1).isLt
  have hN : cfg8.N = 50 := N_8
  let t : Fin cfg8.N := ⟨(i 0).val / 4000, by rw [hN]; omega⟩
  have e := idx_facts t
  have ht : t.val = (i 0).val / 4000 := rfl
  refine ⟨t, flush8_5 t, ?_⟩
  rw [mem_blk5]
  intro a
  match a with
  | ⟨0, _⟩ => show win8_5.index t (0 : Fin 2) * 4000 ≤ (i 0).val ∧ (i 0).val < win8_5.index t (0 : Fin 2) * 4000 + 4000; rw [e.w5a, ht]; omega
  | ⟨1, _⟩ => show win8_5.index t (1 : Fin 2) * 16 ≤ (i 1).val ∧ (i 1).val < win8_5.index t (1 : Fin 2) * 16 + 16; rw [e.w5b]; omega

/-- Window 5's array after the region is the perceptron output. -/
theorem final5 (c : Dev nD) : (dat8 V c).arrAt 5 cfg8.N = resultMlp V c :=
  (dat8 V c).arrAt_eq_of_cover 5 (resultMlp V c) (fun t _ => flushed5_eq V c t) cover5

/-- The one write-back of window 6, after the last grid point, writes the column sums. -/
theorem flushed6_eq (c : Dev nD) (t : Fin cfg8.N) (hf : (cfg8.win 6).flush t = true) :
    (dat8 V c).flushed 6 t = ((cfg8.win 6).blk t).view.read (Elt Ideal) (resultSum V c) := by
  have hN : t.val < 50 := lt_of_lt_of_eq t.isLt N_8
  have h49 : t.val = 49 := by have := (flush8_6 t).mp hf; omega
  have e := idx_facts t
  show (cfg8.win 6).cut (grid8.coords t) ((dat8 V c).after 6 t) = _
  rw [after8_6, sums_eq V c t.val t.isLt]
  funext j
  obtain ⟨u, q, rfl⟩ : ∃ (u : Fin 1) (q : Fin 16), j = ix2 u q := ⟨j 0, j 1, eq_ix2 j⟩
  show (∑ k ∈ Finset.range (t.val + 1), tileSum 50 4000 (by decide : 50 * 4000 = 200000) (H V c) k q)
    = resultSum V c (((cfg8.win 6).blk t).view.emb (ix2 u q))
  have hemb : ((cfg8.win 6).blk t).view.emb (ix2 u q) = ix2 u q := by
    funext a; apply Fin.ext
    match a with
    | ⟨0, _⟩ => show win8_6.index t (0 : Fin 2) * 1 + 1 * u.val = u.val; rw [e.w6a]; omega
    | ⟨1, _⟩ => show win8_6.index t (1 : Fin 2) * 16 + 1 * q.val = q.val; rw [e.w6b]; omega
  rw [hemb, h49]
  exact (colSumAt_eq_range 50 4000 _ (H V c) q).symm

theorem mem_blk6 (t : Fin cfg8.N) (i : S1x16.Idx) :
    i ∈ ((cfg8.win 6).blk t).view.set ↔ ∀ a : Fin 2, win8_6.index t a * S1x16.size a ≤ (i a).val ∧ (i a).val < win8_6.index t a * S1x16.size a + S1x16.size a := by
  show i ∈ ((View.whole (Pipeline.arrRef spec8 6)).slice (win8_6.rect t)).set ↔ _
  rw [View.set_slice_whole, Rect.mem_set_unit]
  exact Iff.rfl

/-- The last grid point's block is the whole [1, 16] array. -/
theorem cover6 (i : S1x16.Idx) : ∃ t : Fin cfg8.N, (cfg8.win 6).flush t = true ∧ i ∈ ((cfg8.win 6).blk t).view.set := by
  have hi0 : (i 0).val < 1 := (i 0).isLt
  have hi1 : (i 1).val < 16 := (i 1).isLt
  have hN : cfg8.N = 50 := N_8
  let t : Fin cfg8.N := ⟨49, by rw [hN]; omega⟩
  have e := idx_facts t
  refine ⟨t, (flush8_6 t).mpr rfl, ?_⟩
  rw [mem_blk6]
  intro a
  match a with
  | ⟨0, _⟩ => show win8_6.index t (0 : Fin 2) * 1 ≤ (i 0).val ∧ (i 0).val < win8_6.index t (0 : Fin 2) * 1 + 1; rw [e.w6a]; omega
  | ⟨1, _⟩ => show win8_6.index t (1 : Fin 2) * 16 ≤ (i 1).val ∧ (i 1).val < win8_6.index t (1 : Fin 2) * 16 + 16; rw [e.w6b]; omega

/-- Window 6's array after the region is the column sums. -/
theorem final6 (c : Dev nD) : (dat8 V c).arrAt 6 cfg8.N = resultSum V c :=
  (dat8 V c).arrAt_eq_of_cover 6 (resultSum V c) (fun t hf => flushed6_eq V c t hf) cover6

/-- The one write-back of window 7, after the last grid point, writes the column sums of squares. -/
theorem flushed7_eq (c : Dev nD) (t : Fin cfg8.N) (hf : (cfg8.win 7).flush t = true) :
    (dat8 V c).flushed 7 t = ((cfg8.win 7).blk t).view.read (Elt Ideal) (resultSumSq V c) := by
  have hN : t.val < 50 := lt_of_lt_of_eq t.isLt N_8
  have h49 : t.val = 49 := by have := (flush8_7 t).mp hf; omega
  have e := idx_facts t
  show (cfg8.win 7).cut (grid8.coords t) ((dat8 V c).after 7 t) = _
  rw [after8_7, sumsqs_eq V c t.val t.isLt]
  funext j
  obtain ⟨u, q, rfl⟩ : ∃ (u : Fin 1) (q : Fin 16), j = ix2 u q := ⟨j 0, j 1, eq_ix2 j⟩
  show (∑ k ∈ Finset.range (t.val + 1), tileSum 50 4000 (by decide : 50 * 4000 = 200000) (fun r q => H V c r q * H V c r q) k q)
    = resultSumSq V c (((cfg8.win 7).blk t).view.emb (ix2 u q))
  have hemb : ((cfg8.win 7).blk t).view.emb (ix2 u q) = ix2 u q := by
    funext a; apply Fin.ext
    match a with
    | ⟨0, _⟩ => show win8_7.index t (0 : Fin 2) * 1 + 1 * u.val = u.val; rw [e.w7a]; omega
    | ⟨1, _⟩ => show win8_7.index t (1 : Fin 2) * 16 + 1 * q.val = q.val; rw [e.w7b]; omega
  rw [hemb, h49]
  exact (colSumAt_eq_range 50 4000 _ (fun r q => H V c r q * H V c r q) q).symm

theorem mem_blk7 (t : Fin cfg8.N) (i : S1x16.Idx) :
    i ∈ ((cfg8.win 7).blk t).view.set ↔ ∀ a : Fin 2, win8_7.index t a * S1x16.size a ≤ (i a).val ∧ (i a).val < win8_7.index t a * S1x16.size a + S1x16.size a := by
  show i ∈ ((View.whole (Pipeline.arrRef spec8 7)).slice (win8_7.rect t)).set ↔ _
  rw [View.set_slice_whole, Rect.mem_set_unit]
  exact Iff.rfl

/-- The last grid point's block is the whole [1, 16] array. -/
theorem cover7 (i : S1x16.Idx) : ∃ t : Fin cfg8.N, (cfg8.win 7).flush t = true ∧ i ∈ ((cfg8.win 7).blk t).view.set := by
  have hi0 : (i 0).val < 1 := (i 0).isLt
  have hi1 : (i 1).val < 16 := (i 1).isLt
  have hN : cfg8.N = 50 := N_8
  let t : Fin cfg8.N := ⟨49, by rw [hN]; omega⟩
  have e := idx_facts t
  refine ⟨t, (flush8_7 t).mpr rfl, ?_⟩
  rw [mem_blk7]
  intro a
  match a with
  | ⟨0, _⟩ => show win8_7.index t (0 : Fin 2) * 1 ≤ (i 0).val ∧ (i 0).val < win8_7.index t (0 : Fin 2) * 1 + 1; rw [e.w7a]; omega
  | ⟨1, _⟩ => show win8_7.index t (1 : Fin 2) * 16 ≤ (i 1).val ∧ (i 1).val < win8_7.index t (1 : Fin 2) * 16 + 16; rw [e.w7b]; omega

/-- Window 7's array after the region is the column sums of squares. -/
theorem final7 (c : Dev nD) : (dat8 V c).arrAt 7 cfg8.N = resultSumSq V c :=
  (dat8 V c).arrAt_eq_of_cover 7 (resultSumSq V c) (fun t hf => flushed7_eq V c t hf) cover7

/-! ## The windows' arrays, by name -/

theorem arr0 : Pipeline.arrRef spec8 0 = main_v121 := rfl
theorem arr1 : Pipeline.arrRef spec8 1 = main_arg21 := rfl
theorem arr2 : Pipeline.arrRef spec8 2 = main_arg22 := rfl
theorem arr3 : Pipeline.arrRef spec8 3 = main_arg23 := rfl
theorem arr4 : Pipeline.arrRef spec8 4 = main_arg24 := rfl
theorem arr5 : Pipeline.arrRef spec8 5 = main_v122_0 := rfl
theorem arr6 : Pipeline.arrRef spec8 6 = main_v122_1 := rfl
theorem arr7 : Pipeline.arrRef spec8 7 = main_v122_2 := rfl

end Cert.KernelIdeal.MlpRunL3i

end
-- ==== Proof.AffinePayL3i.lean ====
/- The value the store of the second device pass of one GIN layer writes, read index by index at the ideal values: a
   [4000, 16] tile of rows, each column centred by the given mean, scaled, multiplied by the reciprocal square root of the
   given variance plus a literal, and shifted — in the device's order of operations. -/
import proofs.«120907_j71768903516484_1_alg».proof.Proof.Gen.KernelIdeal.Skeleton
import proofs.«120907_j71768903516484_1_alg».proof.Proof.GinSpec
import Idealize.ShloMosaic.Lib.ValueLayout
import Idealize.ShloMosaic.Lib.Pipeline.Value

noncomputable section

open Idealize.ShloMosaic Idealize.ShloMosaic.ValueIdx

namespace Cert.KernelIdeal.AffinePayL3i

open Cert.KernelIdeal Cert.KernelIdeal.Gen Cert.KernelIdeal.GinSpec

/-- The normalised tile at row r, column c. -/
theorem affine_apply (v0 : Vec Ideal S4000x16 .f32) (v2 v4 : Vec Ideal S1x16 .f32) (v9 v17 : Vec Ideal S16 .f32)
    (r : Fin 4000) (c : Fin 16) :
    k9_pay1 v0 v2 v4 v9 v17 (ix2 r c) = bnAffineAt v0 v2 v4 v9 v17 r c := by
  unfold k9_pay1 bnAffineAt
  rw [addf_apply, mulf_apply, mulf_apply, subf_apply]
  rw [broadcastTo_1b_ab_apply, broadcastTo_1b_ab_apply, broadcastTo_1b_ab_apply, broadcastTo_1b_ab_apply]
  rw [shapeCast_a_1a_apply, shapeCast_a_1a_apply, shapeCast_self, shapeCast_self, shapeCast_self]
  rfl

end Cert.KernelIdeal.AffinePayL3i

end
-- ==== Proof.AffineRunL3i.lean ====
/- The array the second device pass of one GIN layer leaves (region 9: [200000, 16] rows in 50 tiles of 4000), for any
   contents of the device's buffers when the region is entered: tile t of the output is the affine normalisation of tile
   t of the input by the one-block mean, variance, scale and shift arrays, the tiles cover the array, so the output array
   is the affine normalisation of the input array, index by index. -/
import proofs.«120907_j71768903516484_1_alg».proof.Proof.KIFrameP
import proofs.«120907_j71768903516484_1_alg».proof.Proof.AffinePayL3i
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AffineRunL3i

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the tile windows sit at block (t, 0), the one-block windows at block 0. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 1) = 0 ∧ win9_4.index t (0 : Fin 1) = 0
    ∧ win9_5.index t (0 : Fin 2) = t.val ∧ win9_5.index t (1 : Fin 2) = 0 :=
  (by decide +kernel : ∀ t : Fin grid9.N, _)

/-- Row p of the input tile at point t is row 4000 t + p of the input array. -/
theorem blk0_apply (c : Dev nD) (t : Fin cfg9.N) (p : Fin 4000) (q : Fin 16) (k : Fin 200000) (hk : k.val = 4000 * t.val + p.val) :
    (iblk9 V c 0 t : Vec Ideal S4000x16 .f32) (ix2 p q) = (V c (Pipeline.arrRef spec9 0) : S200000x16.Idx → EReal) (ix2 k q) := by
  obtain ⟨e0, e1, -⟩ := idx_facts t
  unfold iblk9
  rw [View.read_apply]
  show (V c (Pipeline.arrRef spec9 0) : S200000x16.Idx → EReal) _ = _
  refine congrArg _ (funext fun a => Fin.ext ?_)
  match a with
  | ⟨0, _⟩ => show win9_0.index t (0 : Fin 2) * 4000 + 1 * p.val = k.val; rw [e0, hk]; omega
  | ⟨1, _⟩ => show win9_0.index t (1 : Fin 2) * 16 + 1 * q.val = q.val; rw [e1]; omega

/-- The mean's one block is the mean array. -/
theorem blk1_apply (c : Dev nD) (t : Fin cfg9.N) (u : Fin 1) (q : Fin 16) :
    (iblk9 V c 1 t : Vec Ideal S1x16 .f32) (ix2 u q) = (V c (Pipeline.arrRef spec9 1) : S1x16.Idx → EReal) (ix2 u q) := by
  obtain ⟨-, -, e0, e1, -⟩ := idx_facts t
  unfold iblk9
  rw [View.read_apply]
  show (V c (Pipeline.arrRef spec9 1) : S1x16.Idx → EReal) _ = _
  refine congrArg _ (funext fun a => Fin.ext ?_)
  match a with
  | ⟨0, _⟩ => show win9_1.index t (0 : Fin 2) * 1 + 1 * u.val = u.val; rw [e0]; omega
  | ⟨1, _⟩ => show win9_1.index t (1 : Fin 2) * 16 + 1 * q.val = q.val; rw [e1]; omega

/-- The variance's one block is the variance array. -/
theorem blk2_apply (c : Dev nD) (t : Fin cfg9.N) (u : Fin 1) (q : Fin 16) :
    (iblk9 V c 2 t : Vec Ideal S1x16 .f32) (ix2 u q) = (V c (Pipeline.arrRef spec9 2) : S1x16.Idx → EReal) (ix2 u q) := by
  obtain ⟨-, -, -, -, e0, e1, -⟩ := idx_facts t
  unfold iblk9
  rw [View.read_apply]
  show (V c (Pipeline.arrRef spec9 2) : S1x16.Idx → EReal) _ = _
  refine congrArg _ (funext fun a => Fin.ext ?_)
  match a with
  | ⟨0, _⟩ => show win9_2.index t (0 : Fin 2) * 1 + 1 * u.val = u.val; rw [e0]; omega
  | ⟨1, _⟩ => show win9_2.index t (1 : Fin 2) * 16 + 1 * q.val = q.val; rw [e1]; omega

/-- The scale's one block is the scale array. -/
theorem blk3_apply (c : Dev nD) (t : Fin cfg9.N) (q : Fin 16) :
    (iblk9 V c 3 t : Vec Ideal S16 .f32) (ix1 q) = (V c (Pipeline.arrRef spec9 3) : S16.Idx → EReal) (ix1 q) := by
  obtain ⟨-, -, -, -, -, -, e0, -⟩ := idx_facts t
  unfold iblk9
  rw [View.read_apply]
  show (V c (Pipeline.arrRef spec9 3) : S16.Idx → EReal) _ = _
  refine congrArg _ (funext fun a => Fin.ext ?_)
  match a with
  | ⟨0, _⟩ => show win9_3.index t (0 : Fin 1) * 16 + 1 * q.val = q.val; rw [e0]; omega

/-- The shift's one block is the shift array. -/
theorem blk4_apply (c : Dev nD) (t : Fin cfg9.N) (q : Fin 16) :
    (iblk9 V c 4 t : Vec Ideal S16 .f32) (ix1 q) = (V c (Pipeline.arrRef spec9 4) : S16.Idx → EReal) (ix1 q) := by
  obtain ⟨-, -, -, -, -, -, -, e0, -⟩ := idx_facts t
  unfold iblk9
  rw [View.read_apply]
  show (V c (Pipeline.arrRef spec9 4) : S16.Idx → EReal) _ = _
  refine congrArg _ (funext fun a => Fin.ext ?_)
  match a with
  | ⟨0, _⟩ => show win9_4.index t (0 : Fin 1) * 16 + 1 * q.val = q.val; rw [e0]; omega

/-- The normalised array: the affine normalisation of the input array by the mean, variance, scale and shift arrays the
    region finds. -/
def result (c : Dev nD) : S200000x16.Idx → EReal :=
  bnAffine (V c (Pipeline.arrRef spec9 0) : S200000x16.Idx → EReal) (V c (Pipeline.arrRef spec9 1) : S1x16.Idx → EReal)
    (V c (Pipeline.arrRef spec9 2) : S1x16.Idx → EReal) (V c (Pipeline.arrRef spec9 3) : S16.Idx → EReal)
    (V c (Pipeline.arrRef spec9 4) : S16.Idx → EReal)

set_option maxHeartbeats 1000000 in
/-- What grid point t writes back is rows 4000 t … 4000 t + 3999 of the normalised array. -/
theorem flushed_eq (c : Dev nD) (t : Fin cfg9.N) :
    (dat9 V c).flushed 5 t = ((cfg9.win 5).blk t).view.read (Elt Ideal) (result V c) := by
  show (cfg9.win 5).cut (grid9.coords t) ((dat9 V c).after 5 t) = _
  rw [after9_5]
  unfold out9_5
  rw [View.canon_unit_zero hz2]
  simp only [View.ld_unit_zero (S := S4000x16) hz2, View.ld_unit_zero (S := S1x16) hz2, View.ld_unit_zero (S := S16) hz1]
  funext j
  obtain ⟨p, q, rfl⟩ : ∃ (p : Fin 4000) (q : Fin 16), j = ix2 p q := ⟨j 0, j 1, eq_ix2 j⟩
  obtain ⟨-, -, -, -, -, -, -, -, e8, e9⟩ := idx_facts t
  have hN : t.val < 50 := lt_of_lt_of_eq t.isLt N_9
  show k9_pay1 (iblk9 V c 0 t) (iblk9 V c 1 t) (iblk9 V c 2 t) (iblk9 V c 3 t) (iblk9 V c 4 t) (ix2 p q)
    = result V c (((cfg9.win 5).blk t).view.emb (ix2 p q))
  refine (AffinePayL3i.affine_apply (iblk9 V c 0 t) (iblk9 V c 1 t) (iblk9 V c 2 t) (iblk9 V c 3 t) (iblk9 V c 4 t) p q).trans ?_
  have hemb : ((cfg9.win 5).blk t).view.emb (ix2 p q) = ix2 (⟨4000 * t.val + p.val, by omega⟩ : Fin 200000) q := by
    funext a; apply Fin.ext
    match a with
    | ⟨0, _⟩ => show win9_5.index t (0 : Fin 2) * 4000 + 1 * p.val = 4000 * t.val + p.val; rw [e8]; omega
    | ⟨1, _⟩ => show win9_5.index t (1 : Fin 2) * 16 + 1 * q.val = q.val; rw [e9]; omega
  rw [hemb]
  unfold result bnAffine bnAffineAt
  rw [blk0_apply V c t p q ⟨4000 * t.val + p.val, by omega⟩ rfl, blk1_apply V c t 0 q, blk2_apply V c t 0 q,
    blk3_apply V c t q, blk4_apply V c t q]

/-- An index of the array is in point t's block iff each coordinate is in the block's range on its axis. -/
theorem mem_blk (t : Fin cfg9.N) (i : S200000x16.Idx) :
    i ∈ ((cfg9.win 5).blk t).view.set ↔ ∀ a : Fin 2, win9_5.index t a * S4000x16.size a ≤ (i a).val ∧ (i a).val < win9_5.index t a * S4000x16.size a + S4000x16.size a := by
  show i ∈ ((View.whole (Pipeline.arrRef spec9 5)).slice (win9_5.rect t)).set ↔ _
  rw [View.set_slice_whole, Rect.mem_set_unit]
  exact Iff.rfl

/-- Row r of the array lies in the block of point r / 4000. -/
theorem cover (i : S200000x16.Idx) : ∃ t : Fin cfg9.N, (cfg9.win 5).flush t = true ∧ i ∈ ((cfg9.win 5).blk t).view.set := by
  have hi0 : (i 0).val < 200000 := (i 0).isLt
  have hi1 : (i 1).val < 16 := (i 1).isLt
  have hN : cfg9.N = 50 := N_9
  let t : Fin cfg9.N := ⟨(i 0).val / 4000, by rw [hN]; omega⟩
  obtain ⟨-, -, -, -, -, -, -, -, e8, e9⟩ := idx_facts t
  have ht : t.val = (i 0).val / 4000 := rfl
  refine ⟨t, flush9_5 t, ?_⟩
  rw [mem_blk]
  intro a
  match a with
  | ⟨0, _⟩ => show win9_5.index t (0 : Fin 2) * 4000 ≤ (i 0).val ∧ (i 0).val < win9_5.index t (0 : Fin 2) * 4000 + 4000; rw [e8, ht]; omega
  | ⟨1, _⟩ => show win9_5.index t (1 : Fin 2) * 16 ≤ (i 1).val ∧ (i 1).val < win9_5.index t (1 : Fin 2) * 16 + 16; rw [e9]; omega

/-- The output array after the region is the normalised array. -/
theorem final (c : Dev nD) : (dat9 V c).arrAt 5 cfg9.N = result V c :=
  (dat9 V c).arrAt_eq_of_cover 5 (result V c) (fun t _ => flushed_eq V c t) cover

/-! ## The windows' arrays, by name -/

theorem arr0 : Pipeline.arrRef spec9 0 = main_v122_0 := rfl
theorem arr1 : Pipeline.arrRef spec9 1 = main_v124 := rfl
theorem arr2 : Pipeline.arrRef spec9 2 = main_v128 := rfl
theorem arr3 : Pipeline.arrRef spec9 3 = main_arg25 := rfl
theorem arr4 : Pipeline.arrRef spec9 4 = main_arg26 := rfl
theorem arr5 : Pipeline.arrRef spec9 5 = main_v129 := rfl

end Cert.KernelIdeal.AffineRunL3i

end
-- ==== Proof.MlpPayL3j.lean ====
/- The values the stores of the first device pass of one GIN layer write, read index by index at the ideal values: the
   two-layer perceptron of a [4000, 32] tile of rows (widths 32, 16, 16), its column sums added to a running [1, 16] row, and
   the column sums of its squares added to another.  Rounding to bf16 before each matrix product is the identity at the ideal
   values, a matrix product into the zero block is the plain sum of products, and a sum over the row axis is the sum over
   the tile's 4000 rows. -/
import proofs.«120907_j71768903516484_1_alg».proof.Proof.Gen.KernelIdeal.Skeleton
import proofs.«120907_j71768903516484_1_alg».proof.Proof.GinSpec
import Idealize.ShloMosaic.PureOps.Ideal.Laws
import Idealize.ShloMosaic.Lib.ValueLayout
import Idealize.ShloMosaic.Lib.Pipeline.Value

noncomputable section

open Idealize.ShloMosaic Idealize.ShloMosaic.ValueIdx

namespace Cert.KernelIdeal.MlpPayL3j

open Cert.KernelIdeal Cert.KernelIdeal.Gen Cert.KernelIdeal.GinSpec

/-- The device's matrix product of a [4000, 32] block by a [32, 16] matrix into the zero block, read at row r and column c:
    the sum over the contracted coordinate of the products of the entries. -/
theorem matmul1_at {φ₁ φ₂ : FTy} (lhs : FVec Ideal S4000x32 φ₁) (rhs : FVec Ideal S32x16 φ₂) (r : Fin 4000) (c : Fin 16) :
    matmul dot_S4000x32_S32x16_S4000x16_1_0_0_1_n_n none lhs rhs (constant (F := Ideal) S4000x16 .f32 0x00000000#32) (ix2 r c)
      = ∑ k : Fin 32, lhs (ix2 r k) * rhs (ix2 k c) := by
  show FloatOps.matmul _ none lhs rhs (constant (F := Ideal) S4000x16 .f32 0x00000000#32) (ix2 r c) = _
  rw [Ideal.matmul_constant_zero_apply, ← Equiv.sum_comp (contrEquiv1 dot_S4000x32_S32x16_S4000x16_1_0_0_1_n_n 32 rfl rfl).symm]
  refine Finset.sum_congr rfl fun k _ => ?_
  have c2 := contrEquiv1_symm_val dot_S4000x32_S32x16_S4000x16_1_0_0_1_n_n 32 rfl rfl k
  have l2 : dot_S4000x32_S32x16_S4000x16_1_0_0_1_n_n.lhsIdx (ix2 r c) ((contrEquiv1 _ 32 rfl rfl).symm k) = ix2 r k := by
    funext ax; apply Fin.ext
    match ax with
    | ⟨0, _⟩ => simp [DotDims.lhsIdx, dot_S4000x32_S32x16_S4000x16_1_0_0_1_n_n]; rfl
    | ⟨1, _⟩ => simp [DotDims.lhsIdx, dot_S4000x32_S32x16_S4000x16_1_0_0_1_n_n]; exact c2
  have r2 : dot_S4000x32_S32x16_S4000x16_1_0_0_1_n_n.rhsIdx (ix2 r c) ((contrEquiv1 _ 32 rfl rfl).symm k) = ix2 k c := by
    funext ax; apply Fin.ext
    match ax with
    | ⟨0, _⟩ => simp [DotDims.rhsIdx, dot_S4000x32_S32x16_S4000x16_1_0_0_1_n_n]; exact c2
    | ⟨1, _⟩ => simp [DotDims.rhsIdx, dot_S4000x32_S32x16_S4000x16_1_0_0_1_n_n]; rfl
  rw [l2, r2]

/-- The device's matrix product of a [4000, 16] block by a [16, 16] matrix into the zero block, read at row r and column c:
    the sum over the contracted coordinate of the products of the entries. -/
theorem matmul2_at {φ₁ φ₂ : FTy} (lhs : FVec Ideal S4000x16 φ₁) (rhs : FVec Ideal S16x16 φ₂) (r : Fin 4000) (c : Fin 16) :
    matmul dot_S4000x16_S16x16_S4000x16_1_0_0_1_n_n none lhs rhs (constant (F := Ideal) S4000x16 .f32 0x00000000#32) (ix2 r c)
      = ∑ k : Fin 16, lhs (ix2 r k) * rhs (ix2 k c) := by
  show FloatOps.matmul _ none lhs rhs (constant (F := Ideal) S4000x16 .f32 0x00000000#32) (ix2 r c) = _
  rw [Ideal.matmul_constant_zero_apply, ← Equiv.sum_comp (contrEquiv1 dot_S4000x16_S16x16_S4000x16_1_0_0_1_n_n 16 rfl rfl).symm]
  refine Finset.sum_congr rfl fun k _ => ?_
  have c2 := contrEquiv1_symm_val dot_S4000x16_S16x16_S4000x16_1_0_0_1_n_n 16 rfl rfl k
  have l2 : dot_S4000x16_S16x16_S4000x16_1_0_0_1_n_n.lhsIdx (ix2 r c) ((contrEquiv1 _ 16 rfl rfl).symm k) = ix2 r k := by
    funext ax; apply Fin.ext
    match ax with
    | ⟨0, _⟩ => simp [DotDims.lhsIdx, dot_S4000x16_S16x16_S4000x16_1_0_0_1_n_n]; rfl
    | ⟨1, _⟩ => simp [DotDims.lhsIdx, dot_S4000x16_S16x16_S4000x16_1_0_0_1_n_n]; exact c2
  have r2 : dot_S4000x16_S16x16_S4000x16_1_0_0_1_n_n.rhsIdx (ix2 r c) ((contrEquiv1 _ 16 rfl rfl).symm k) = ix2 k c := by
    funext ax; apply Fin.ext
    match ax with
    | ⟨0, _⟩ => simp [DotDims.rhsIdx, dot_S4000x16_S16x16_S4000x16_1_0_0_1_n_n]; exact c2
    | ⟨1, _⟩ => simp [DotDims.rhsIdx, dot_S4000x16_S16x16_S4000x16_1_0_0_1_n_n]; rfl
  rw [l2, r2]

/-- The tile's perceptron output at row r, column c. -/
theorem mlp_apply (v3 : Vec Ideal S4000x32 .f32) (v5 : Vec Ideal S32x16 .f32) (v9 : Vec Ideal S16 .f32)
    (v15 : Vec Ideal S16x16 .f32) (v19 : Vec Ideal S16 .f32) (r : Fin 4000) (c : Fin 16) :
    k10_pay4 v3 v5 v9 v15 v19 (ix2 r c) = mlpAt v3 v5 v9 v15 v19 r c := by
  unfold k10_pay4 mlpAt
  rw [addf_apply, matmul2_at, broadcastTo_1b_ab_apply, shapeCast_a_1a_apply]
  refine congrArg (· + v19 (ix1 c)) (Finset.sum_congr rfl fun q _ => ?_)
  rw [truncf_apply, truncf_apply, maximumf_apply, addf_apply, matmul1_at, broadcastTo_1b_ab_apply, shapeCast_a_1a_apply,
    broadcast_apply]
  simp only [truncf_apply, shapeCast_self]
  rw [Ideal.ofBits_def, Ideal.ofBits_zero_f32]

/-- A sum over the row axis of a [4000, 16] block, read at column c, is the sum of the column's 4000 entries. -/
theorem colsum_at (src : FVec Ideal S4000x16 .f32) (h : S4000x16.Reduces [0] S16) (hφ : FKind.Formats .f32)
    (hacc : (0x00000000#32 : BitVec 32) = 0x00000000#32) (c : Fin 16) :
    multiReduction (F := Ideal) .add [0] S16 src 0x00000000#32 h hφ hacc (ix1 c) = ∑ k : Fin 4000, src (ix2 k c) :=
  (Ideal.multiReduction_add_single src 0x00000000#32 h hφ hacc (ix1 c)).trans
    (Finset.sum_congr rfl fun k _ => congrArg src (funext fun a => Fin.ext (by
      match a with
      | ⟨0, _⟩ => rfl
      | ⟨1, _⟩ => rfl)))

/-- The running row of column sums after the tile: what it held plus the tile's column sums of the perceptron output. -/
theorem sum_apply (v3 : Vec Ideal S4000x32 .f32) (v5 : Vec Ideal S32x16 .f32) (v9 : Vec Ideal S16 .f32)
    (v15 : Vec Ideal S16x16 .f32) (v19 : Vec Ideal S16 .f32) (v24 : Vec Ideal S1x16 .f32) (u : Fin 1) (c : Fin 16) :
    k10_pay5 v3 v5 v9 v15 v19 v24 (ix2 u c) = v24 (ix2 u c) + ∑ k : Fin 4000, mlpAt v3 v5 v9 v15 v19 k c := by
  unfold k10_pay5
  rw [addf_apply, shapeCast_self, shapeCast_a_1a_apply, colsum_at]
  exact congrArg (v24 (ix2 u c) + ·) (Finset.sum_congr rfl fun k _ => mlp_apply v3 v5 v9 v15 v19 k c)

/-- A running row plus the column sums of a block. -/
theorem acc_apply (v31 : FVec Ideal S1x16 .f32) (v32 : FVec Ideal S4000x16 .f32) (u : Fin 1) (c : Fin 16) :
    k10_pay1 v31 v32 (ix2 u c) = v31 (ix2 u c) + ∑ k : Fin 4000, v32 (ix2 k c) := by
  unfold k10_pay1
  rw [addf_apply, shapeCast_a_1a_apply, colsum_at]

theorem carried_eq (v30 : Vec Ideal S1x16 .f32) : k10_pay6 v30 = v30 := by
  unfold k10_pay6
  rw [shapeCast_self]

/-- The squares of the tile's perceptron output. -/
theorem sq_apply (v3 : Vec Ideal S4000x32 .f32) (v5 : Vec Ideal S32x16 .f32) (v9 : Vec Ideal S16 .f32)
    (v15 : Vec Ideal S16x16 .f32) (v19 : Vec Ideal S16 .f32) (r : Fin 4000) (c : Fin 16) :
    k10_pay7 v3 v5 v9 v15 v19 (ix2 r c) = mlpAt v3 v5 v9 v15 v19 r c * mlpAt v3 v5 v9 v15 v19 r c := by
  unfold k10_pay7
  rw [mulf_apply, mlp_apply]

/-- The running row of sums of squares after the tile. -/
theorem sumsq_apply (v3 : Vec Ideal S4000x32 .f32) (v5 : Vec Ideal S32x16 .f32) (v9 : Vec Ideal S16 .f32)
    (v15 : Vec Ideal S16x16 .f32) (v19 : Vec Ideal S16 .f32) (v30 : Vec Ideal S1x16 .f32) (u : Fin 1) (c : Fin 16) :
    k10_pay1 (k10_pay6 v30) (k10_pay7 v3 v5 v9 v15 v19) (ix2 u c)
      = v30 (ix2 u c) + ∑ k : Fin 4000, mlpAt v3 v5 v9 v15 v19 k c * mlpAt v3 v5 v9 v15 v19 k c := by
  rw [acc_apply, carried_eq]
  exact congrArg (v30 (ix2 u c) + ·) (Finset.sum_congr rfl fun k _ => sq_apply v3 v5 v9 v15 v19 k c)

/-- The two zero rows the first grid point stores. -/
theorem zero_sum_apply (j : S1x16.Idx) : k10_pay2 (F := Ideal) j = 0 := by
  unfold k10_pay2
  rw [broadcast_apply]
  exact Ideal.ofBits_zero_f32

theorem zero_sumsq_apply (j : S1x16.Idx) : k10_pay3 (F := Ideal) j = 0 := by
  unfold k10_pay3
  rw [broadcast_apply]
  exact Ideal.ofBits_zero_f32

end Cert.KernelIdeal.MlpPayL3j

end
-- ==== Proof.MlpRunL3j.lean ====
/- The three arrays the first device pass of one GIN layer leaves (region 10: [200000, 32] rows in 50 tiles of 4000, widths
   32, 16, 16), for any contents of the device's buffers when the region is entered.  Each control case's stores are read as
   values of the point's input blocks; the tile window's block at point t is rows 4000 t … 4000 t + 3999 of the array and
   the other input windows' one block is their whole array; so the tile output is the two-layer perceptron of the input
   array row by row, and, by induction over the grid points (the first point zeroes the two running rows, every point
   adds its tile's column sums), after the last point the two [1, 16] rows hold the column sums of the perceptron output
   and of its squares, tile after tile. -/
import proofs.«120907_j71768903516484_1_alg».proof.Proof.KIFrameP
import proofs.«120907_j71768903516484_1_alg».proof.Proof.MlpPayL3j
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.MlpRunL3j

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## What each control case leaves in the three output buffers, as the stores' values -/

/-- At the first grid point the tile's perceptron output is stored. -/
theorem outA5_eq (c : Dev nD) (i : grid10.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : cond10_0 i) (x0 : Vec Ideal S4000x32 .f32) (x1 : Vec Ideal S32x16 .f32) (x2 : Vec Ideal S16 .f32) (x3 : Vec Ideal S16x16 .f32) (x4 : Vec Ideal S16 .f32) :
    out10_A_5 c i arg1 harg1 arg2 harg2 arg3 harg3 arg4 harg4 arg5 harg5 arg6 harg6 arg7 harg7 arg8 harg8 hc0 x0 x1 x2 x3 x4 = k10_pay4 x0 x1 x2 x3 x4 := by
  unfold out10_A_5
  rw [View.read_writes_eq_canon _ _ _ (cover10_A_5 c i arg1 harg1 arg2 harg2 arg3 harg3 arg4 harg4 arg5 harg5 arg6 harg6 arg7 harg7 arg8 harg8 hc0 x0 x1 x2 x3 x4)]
  unfold kernelRun10_A
  dsimp only
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1]

/-- At the first grid point the row of column sums is zeroed, then the tile's column sums are added to it. -/
theorem outA6_eq (c : Dev nD) (i : grid10.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : cond10_0 i) (x0 : Vec Ideal S4000x32 .f32) (x1 : Vec Ideal S32x16 .f32) (x2 : Vec Ideal S16 .f32) (x3 : Vec Ideal S16x16 .f32) (x4 : Vec Ideal S16 .f32) :
    out10_A_6 c i arg1 harg1 arg2 harg2 arg3 harg3 arg4 harg4 arg5 harg5 arg6 harg6 arg7 harg7 arg8 harg8 hc0 x0 x1 x2 x3 x4 = k10_pay5 x0 x1 x2 x3 x4 (k10_pay2 (F := Ideal)) := by
  unfold out10_A_6
  rw [View.read_writes_eq_canon _ _ _ (cover10_A_6 c i arg1 harg1 arg2 harg2 arg3 harg3 arg4 harg4 arg5 harg5 arg6 harg6 arg7 harg7 arg8 harg8 hc0 x0 x1 x2 x3 x4)]
  unfold kernelRun10_A
  dsimp only
  sl_unfold_words
  rw [View.canon_cons_unit_zero (S := S1x16) hz2, View.readCov_unit_zero (S := S1x16) _ hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1]

/-- At the first grid point the row of sums of squares is zeroed, then the tile's sums of squares are added to it. -/
theorem outA7_eq (c : Dev nD) (i : grid10.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : cond10_0 i) (x0 : Vec Ideal S4000x32 .f32) (x1 : Vec Ideal S32x16 .f32) (x2 : Vec Ideal S16 .f32) (x3 : Vec Ideal S16x16 .f32) (x4 : Vec Ideal S16 .f32) :
    out10_A_7 c i arg1 harg1 arg2 harg2 arg3 harg3 arg4 harg4 arg5 harg5 arg6 harg6 arg7 harg7 arg8 harg8 hc0 x0 x1 x2 x3 x4 = k10_pay1 (k10_pay6 (k10_pay3 (F := Ideal))) (k10_pay7 x0 x1 x2 x3 x4) := by
  unfold out10_A_7
  rw [View.read_writes_eq_canon _ _ _ (cover10_A_7 c i arg1 harg1 arg2 harg2 arg3 harg3 arg4 harg4 arg5 harg5 arg6 harg6 arg7 harg7 arg8 harg8 hc0 x0 x1 x2 x3 x4)]
  unfold kernelRun10_A
  dsimp only
  sl_unfold_words
  rw [View.canon_cons_unit_zero (S := S1x16) hz2, View.readCov_unit_zero (S := S1x16) _ hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1]

/-- At a later grid point the tile's perceptron output is stored. -/
theorem outB5_eq (c : Dev nD) (i : grid10.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : ¬cond10_0 i) (x0 : Vec Ideal S4000x32 .f32) (x1 : Vec Ideal S32x16 .f32) (x2 : Vec Ideal S16 .f32) (x3 : Vec Ideal S16x16 .f32) (x4 : Vec Ideal S16 .f32) (xo6 xo7 : Vec Ideal S1x16 .f32) :
    out10_B_5 c i arg1 harg1 arg2 harg2 arg3 harg3 arg4 harg4 arg5 harg5 arg6 harg6 arg7 harg7 arg8 harg8 hc0 x0 x1 x2 x3 x4 xo6 xo7 = k10_pay4 x0 x1 x2 x3 x4 := by
  unfold out10_B_5
  rw [View.read_writes_eq_canon _ _ _ (cover10_B_5 c i arg1 harg1 arg2 harg2 arg3 harg3 arg4 harg4 arg5 harg5 arg6 harg6 arg7 harg7 arg8 harg8 hc0 x0 x1 x2 x3 x4 xo6 xo7)]
  unfold kernelRun10_B
  dsimp only
  try sl_unfold_words
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1, harg7.read_unread, harg8.read_unread, View.ld_unit_zero (S := S1x16) hz2]

/-- At a later grid point the tile's column sums are added to the row the point before left. -/
theorem outB6_eq (c : Dev nD) (i : grid10.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : ¬cond10_0 i) (x0 : Vec Ideal S4000x32 .f32) (x1 : Vec Ideal S32x16 .f32) (x2 : Vec Ideal S16 .f32) (x3 : Vec Ideal S16x16 .f32) (x4 : Vec Ideal S16 .f32) (xo6 xo7 : Vec Ideal S1x16 .f32) :
    out10_B_6 c i arg1 harg1 arg2 harg2 arg3 harg3 arg4 harg4 arg5 harg5 arg6 harg6 arg7 harg7 arg8 harg8 hc0 x0 x1 x2 x3 x4 xo6 xo7 = k10_pay5 x0 x1 x2 x3 x4 xo6 := by
  unfold out10_B_6
  rw [View.read_writes_eq_canon _ _ _ (cover10_B_6 c i arg1 harg1 arg2 harg2 arg3 harg3 arg4 harg4 arg5 harg5 arg6 harg6 arg7 harg7 arg8 harg8 hc0 x0 x1 x2 x3 x4 xo6 xo7)]
  unfold kernelRun10_B
  dsimp only
  try sl_unfold_words
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1, harg7.read_unread, harg8.read_unread, View.ld_unit_zero (S := S1x16) hz2]

/-- At a later grid point the tile's sums of squares are added to the row the point before left. -/
theorem outB7_eq (c : Dev nD) (i : grid10.Coords) (arg1 : Memref sig .tc .vmem S4000x32 .f32) (harg1 : arg1.IsWhole) (arg2 : Memref sig .tc .vmem S32x16 .f32) (harg2 : arg2.IsWhole) (arg3 : Memref sig .tc .vmem S16 .f32) (harg3 : arg3.IsWhole) (arg4 : Memref sig .tc .vmem S16x16 .f32) (harg4 : arg4.IsWhole) (arg5 : Memref sig .tc .vmem S16 .f32) (harg5 : arg5.IsWhole) (arg6 : Memref sig .tc .vmem S4000x16 .f32) (harg6 : arg6.IsWhole) (arg7 : Memref sig .tc .vmem S1x16 .f32) (harg7 : arg7.IsWhole) (arg8 : Memref sig .tc .vmem S1x16 .f32) (harg8 : arg8.IsWhole) (hc0 : ¬cond10_0 i) (x0 : Vec Ideal S4000x32 .f32) (x1 : Vec Ideal S32x16 .f32) (x2 : Vec Ideal S16 .f32) (x3 : Vec Ideal S16x16 .f32) (x4 : Vec Ideal S16 .f32) (xo6 xo7 : Vec Ideal S1x16 .f32) :
    out10_B_7 c i arg1 harg1 arg2 harg2 arg3 harg3 arg4 harg4 arg5 harg5 arg6 harg6 arg7 harg7 arg8 harg8 hc0 x0 x1 x2 x3 x4 xo6 xo7 = k10_pay1 (k10_pay6 xo7) (k10_pay7 x0 x1 x2 x3 x4) := by
  unfold out10_B_7
  rw [View.read_writes_eq_canon _ _ _ (cover10_B_7 c i arg1 harg1 arg2 harg2 arg3 harg3 arg4 harg4 arg5 harg5 arg6 harg6 arg7 harg7 arg8 harg8 hc0 x0 x1 x2 x3 x4 xo6 xo7)]
  unfold kernelRun10_B
  dsimp only
  try sl_unfold_words
  rw [View.canon_unit_zero hz2]
  simp only [View.readAt_eq_ld, harg1.read_unread, harg2.read_unread, harg3.read_unread, harg4.read_unread, harg5.read_unread, View.ld_unit_zero (S := S4000x32) hz2, View.ld_unit_zero (S := S32x16) hz2, View.ld_unit_zero (S := S16) hz1, View.ld_unit_zero (S := S16x16) hz2, View.ld_unit_zero (S := S16) hz1, harg7.read_unread, harg8.read_unread, View.ld_unit_zero (S := S1x16) hz2]

/-! ## The windows' blocks as parts of the arrays -/

/-- The printed index maps over the grid: the two tile windows (input 0, output 5) sit at block (t, 0); the weights, the
    biases and the two running rows at block 0. -/
structure IdxFacts (t : Fin cfg10.N) : Prop where
  w0a : win10_0.index t (0 : Fin 2) = t.val
  w0b : win10_0.index t (1 : Fin 2) = 0
  w1a : win10_1.index t (0 : Fin 2) = 0
  w1b : win10_1.index t (1 : Fin 2) = 0
  w2a : win10_2.index t (0 : Fin 1) = 0
  w3a : win10_3.index t (0 : Fin 2) = 0
  w3b : win10_3.index t (1 : Fin 2) = 0
  w4a : win10_4.index t (0 : Fin 1) = 0
  w5a : win10_5.index t (0 : Fin 2) = t.val
  w5b : win10_5.index t (1 : Fin 2) = 0
  w6a : win10_6.index t (0 : Fin 2) = 0
  w6b : win10_6.index t (1 : Fin 2) = 0
  w7a : win10_7.index t (0 : Fin 2) = 0
  w7b : win10_7.index t (1 : Fin 2) = 0

theorem idx_facts : ∀ t : Fin cfg10.N, IdxFacts t :=
  fun t => by
    have h : ∀ t : Fin cfg10.N,
        win10_0.index t (0 : Fin 2) = t.val ∧ win10_0.index t (1 : Fin 2) = 0
        ∧ win10_1.index t (0 : Fin 2) = 0 ∧ win10_1.index t (1 : Fin 2) = 0
        ∧ win10_2.index t (0 : Fin 1) = 0
        ∧ win10_3.index t (0 : Fin 2) = 0 ∧ win10_3.index t (1 : Fin 2) = 0
        ∧ win10_4.index t (0 : Fin 1) = 0
        ∧ win10_5.index t (0 : Fin 2) = t.val ∧ win10_5.index t (1 : Fin 2) = 0
        ∧ win10_6.index t (0 : Fin 2) = 0 ∧ win10_6.index t (1 : Fin 2) = 0
        ∧ win10_7.index t (0 : Fin 2) = 0 ∧ win10_7.index t (1 : Fin 2) = 0 :=
      (by decide +kernel : ∀ t : Fin grid10.N, _)
    obtain ⟨h0, h1, h2, h3, h4, h5, h6, h7, h8, h9, h10, h11, h12, h13⟩ := h t
    exact ⟨h0, h1, h2, h3, h4, h5, h6, h7, h8, h9, h10, h11, h12, h13⟩

/-- Row p of the input tile at point t is row 4000 t + p of the input array. -/
theorem blk0_apply (c : Dev nD) (t : Fin cfg10.N) (p : Fin 4000) (q : Fin 32) (k : Fin 200000) (hk : k.val = 4000 * t.val + p.val) :
    (iblk10 V c 0 t : Vec Ideal S4000x32 .f32) (ix2 p q) = (V c (Pipeline.arrRef spec10 0) : S200000x32.Idx → EReal) (ix2 k q) := by
  have e := idx_facts t
  unfold iblk10
  rw [View.read_apply]
  show (V c (Pipeline.arrRef spec10 0) : S200000x32.Idx → EReal) _ = _
  refine congrArg _ (funext fun ax => Fin.ext ?_)
  match ax with
  | ⟨0, _⟩ => show win10_0.index t (0 : Fin 2) * 4000 + 1 * p.val = k.val; rw [e.w0a, hk]; omega
  | ⟨1, _⟩ => show win10_0.index t (1 : Fin 2) * 32 + 1 * q.val = q.val; rw [e.w0b]; omega

/-- The first weight matrix's one block is the whole array. -/
theorem blk1_apply (c : Dev nD) (t : Fin cfg10.N) (a : Fin 32) (b : Fin 16) :
    (iblk10 V c 1 t : Vec Ideal S32x16 .f32) (ix2 a b) = (V c (Pipeline.arrRef spec10 1) : S32x16.Idx → EReal) (ix2 a b) := by
  have e := idx_facts t
  unfold iblk10
  rw [View.read_apply]
  show (V c (Pipeline.arrRef spec10 1) : S32x16.Idx → EReal) _ = _
  refine congrArg _ (funext fun ax => Fin.ext ?_)
  match ax with
  | ⟨0, _⟩ => show win10_1.index t (0 : Fin 2) * 32 + 1 * a.val = a.val; rw [e.w1a]; omega
  | ⟨1, _⟩ => show win10_1.index t (1 : Fin 2) * 16 + 1 * b.val = b.val; rw [e.w1b]; omega

/-- The first bias vector's one block is the whole array. -/
theorem blk2_apply (c : Dev nD) (t : Fin cfg10.N) (a : Fin 16) :
    (iblk10 V c 2 t : Vec Ideal S16 .f32) (ix1 a) = (V c (Pipeline.arrRef spec10 2) : S16.Idx → EReal) (ix1 a) := by
  have e := idx_facts t
  unfold iblk10
  rw [View.read_apply]
  show (V c (Pipeline.arrRef spec10 2) : S16.Idx → EReal) _ = _
  refine congrArg _ (funext fun ax => Fin.ext ?_)
  match ax with
  | ⟨0, _⟩ => show win10_2.index t (0 : Fin 1) * 16 + 1 * a.val = a.val; rw [e.w2a]; omega

/-- The second weight matrix's one block is the whole array. -/
theorem blk3_apply (c : Dev nD) (t : Fin cfg10.N) (a : Fin 16) (b : Fin 16) :
    (iblk10 V c 3 t : Vec Ideal S16x16 .f32) (ix2 a b) = (V c (Pipeline.arrRef spec10 3) : S16x16.Idx → EReal) (ix2 a b) := by
  have e := idx_facts t
  unfold iblk10
  rw [View.read_apply]
  show (V c (Pipeline.arrRef spec10 3) : S16x16.Idx → EReal) _ = _
  refine congrArg _ (funext fun ax => Fin.ext ?_)
  match ax with
  | ⟨0, _⟩ => show win10_3.index t (0 : Fin 2) * 16 + 1 * a.val = a.val; rw [e.w3a]; omega
  | ⟨1, _⟩ => show win10_3.index t (1 : Fin 2) * 16 + 1 * b.val = b.val; rw [e.w3b]; omega

/-- The second bias vector's one block is the whole array. -/
theorem blk4_apply (c : Dev nD) (t : Fin cfg10.N) (a : Fin 16) :
    (iblk10 V c 4 t : Vec Ideal S16 .f32) (ix1 a) = (V c (Pipeline.arrRef spec10 4) : S16.Idx → EReal) (ix1 a) := by
  have e := idx_facts t
  unfold iblk10
  rw [View.read_apply]
  show (V c (Pipeline.arrRef spec10 4) : S16.Idx → EReal) _ = _
  refine congrArg _ (funext fun ax => Fin.ext ?_)
  match ax with
  | ⟨0, _⟩ => show win10_4.index t (0 : Fin 1) * 16 + 1 * a.val = a.val; rw [e.w4a]; omega

/-! ## The three results -/

/-- The perceptron of the input array by the weights and biases the region finds, at a row and a column. -/
def H (c : Dev nD) : Fin 200000 → Fin 16 → EReal :=
  mlpAt (V c (Pipeline.arrRef spec10 0) : S200000x32.Idx → EReal)
    (V c (Pipeline.arrRef spec10 1) : S32x16.Idx → EReal)
    (V c (Pipeline.arrRef spec10 2) : S16.Idx → EReal)
    (V c (Pipeline.arrRef spec10 3) : S16x16.Idx → EReal)
    (V c (Pipeline.arrRef spec10 4) : S16.Idx → EReal)

/-- Window 5: the perceptron output, row by row. -/
def resultMlp (c : Dev nD) : S200000x16.Idx → EReal := fun i => H V c (i 0) (i 1)

/-- Window 6: its column sums over the 50 tiles of 4000 rows. -/
def resultSum (c : Dev nD) : S1x16.Idx → EReal :=
  fun i => colSumAt 50 4000 (by decide : 50 * 4000 = 200000) (H V c) (i 1)

/-- Window 7: the column sums of its squares. -/
def resultSumSq (c : Dev nD) : S1x16.Idx → EReal :=
  fun i => colSumAt 50 4000 (by decide : 50 * 4000 = 200000) (fun r q => H V c r q * H V c r q) (i 1)

/-- The perceptron of tile t at its row p is the perceptron of the array at row 4000 t + p. -/
theorem tile_mlp (c : Dev nD) (t : Fin cfg10.N) (ht : t.val < 50) (p : Fin 4000) (q : Fin 16) :
    mlpAt (iblk10 V c 0 t : Vec Ideal S4000x32 .f32) (iblk10 V c 1 t : Vec Ideal S32x16 .f32) (iblk10 V c 2 t : Vec Ideal S16 .f32) (iblk10 V c 3 t : Vec Ideal S16x16 .f32) (iblk10 V c 4 t : Vec Ideal S16 .f32) p q
      = H V c (tileRow (T := 50) (R := 4000) (n := 200000) (by decide) ⟨t.val, ht⟩ p) q :=
  mlpAt_congr q (fun a => blk0_apply V c t p a _ rfl) (fun a b => blk1_apply V c t a b) (fun b => blk2_apply V c t b)
    (fun a b => blk3_apply V c t a b) (fun b => blk4_apply V c t b)

/-! ## The output buffers after each grid point -/

/-- After any grid point the tile buffer holds the perceptron of the point's tile. -/
theorem out5_eq (c : Dev nD) (t : Fin cfg10.N) :
    (outsAt10 V c t.val t.isLt).1 = k10_pay4 (iblk10 V c 0 t : Vec Ideal S4000x32 .f32) (iblk10 V c 1 t : Vec Ideal S32x16 .f32) (iblk10 V c 2 t : Vec Ideal S16 .f32) (iblk10 V c 3 t : Vec Ideal S16x16 .f32) (iblk10 V c 4 t : Vec Ideal S16 .f32) := by
  by_cases h0 : t.val % 50 = 0
  · rw [outsAt10_A V c t h0]
    dsimp only
    exact outA5_eq c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) ((hcond10_0 t).mpr h0) (iblk10 V c 0 t) (iblk10 V c 1 t) (iblk10 V c 2 t) (iblk10 V c 3 t) (iblk10 V c 4 t)
  · rw [outsAt10_B V c t h0]
    dsimp only
    exact outB5_eq c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (fun h => h0 ((hcond10_0 t).mp h)) (iblk10 V c 0 t) (iblk10 V c 1 t) (iblk10 V c 2 t) (iblk10 V c 3 t) (iblk10 V c 4 t) _ _

/-- After grid point n the row of column sums holds the parts of tiles 0 … n, added in that order. -/
theorem sums_eq (c : Dev nD) : ∀ (n : ℕ) (h : n < cfg10.N),
    (outsAt10 V c n h).2.1
      = (fun j : S1x16.Idx => ∑ k ∈ Finset.range (n + 1), tileSum 50 4000 (by decide : 50 * 4000 = 200000) (H V c) k (j 1))
  | 0, h => by
    refine (congrArg (fun z => z.2.1) (outsAt10_A V c ⟨0, h⟩ (Nat.zero_mod _))).trans ?_
    dsimp only
    rw [outA6_eq]
    funext j
    obtain ⟨u, q, rfl⟩ : ∃ (u : Fin 1) (q : Fin 16), j = ix2 u q := ⟨j 0, j 1, eq_ix2 j⟩
    refine (MlpPayL3j.sum_apply _ _ _ _ _ _ u q).trans ?_
    rw [MlpPayL3j.zero_sum_apply, zero_add, Finset.sum_range_one, tileSum_of_lt 50 4000 _ _ (by decide : 0 < 50)]
    exact Finset.sum_congr rfl fun p _ => tile_mlp V c ⟨0, h⟩ (Nat.succ_pos 49) p q
  | n + 1, h => by
    have hN : n + 1 < 50 := lt_of_lt_of_eq h N_10
    have hB : ¬(⟨n + 1, h⟩ : Fin cfg10.N).val % 50 = 0 := by dsimp only; omega
    refine (congrArg (fun z => z.2.1) (outsAt10_B V c ⟨n + 1, h⟩ hB)).trans ?_
    dsimp only
    rw [outB6_eq]
    funext j
    obtain ⟨u, q, rfl⟩ : ∃ (u : Fin 1) (q : Fin 16), j = ix2 u q := ⟨j 0, j 1, eq_ix2 j⟩
    refine (MlpPayL3j.sum_apply _ _ _ _ _ _ u q).trans ?_
    rw [Finset.sum_range_succ _ (n + 1), tileSum_of_lt 50 4000 _ _ hN]
    refine congrArg₂ (· + ·) ?_ (Finset.sum_congr rfl fun p _ => tile_mlp V c ⟨n + 1, h⟩ hN p q)
    exact congrFun (sums_eq c n (Nat.lt_of_succ_lt h)) (ix2 u q)

/-- After grid point n the row of sums of squares holds the parts of tiles 0 … n, added in that order. -/
theorem sumsqs_eq (c : Dev nD) : ∀ (n : ℕ) (h : n < cfg10.N),
    (outsAt10 V c n h).2.2
      = (fun j : S1x16.Idx => ∑ k ∈ Finset.range (n + 1),
          tileSum 50 4000 (by decide : 50 * 4000 = 200000) (fun r q => H V c r q * H V c r q) k (j 1))
  | 0, h => by
    refine (congrArg (fun z => z.2.2) (outsAt10_A V c ⟨0, h⟩ (Nat.zero_mod _))).trans ?_
    dsimp only
    rw [outA7_eq]
    funext j
    obtain ⟨u, q, rfl⟩ : ∃ (u : Fin 1) (q : Fin 16), j = ix2 u q := ⟨j 0, j 1, eq_ix2 j⟩
    refine (MlpPayL3j.sumsq_apply _ _ _ _ _ _ u q).trans ?_
    rw [MlpPayL3j.zero_sumsq_apply, zero_add, Finset.sum_range_one, tileSum_of_lt 50 4000 _ _ (by decide : 0 < 50)]
    exact Finset.sum_congr rfl fun p _ => by rw [tile_mlp V c ⟨0, h⟩ (Nat.succ_pos 49) p q]
  | n + 1, h => by
    have hN : n + 1 < 50 := lt_of_lt_of_eq h N_10
    have hB : ¬(⟨n + 1, h⟩ : Fin cfg10.N).val % 50 = 0 := by dsimp only; omega
    refine (congrArg (fun z => z.2.2) (outsAt10_B V c ⟨n + 1, h⟩ hB)).trans ?_
    dsimp only
    rw [outB7_eq]
    funext j
    obtain ⟨u, q, rfl⟩ : ∃ (u : Fin 1) (q : Fin 16), j = ix2 u q := ⟨j 0, j 1, eq_ix2 j⟩
    refine (MlpPayL3j.sumsq_apply _ _ _ _ _ _ u q).trans ?_
    rw [Finset.sum_range_succ _ (n + 1), tileSum_of_lt 50 4000 _ _ hN]
    refine congrArg₂ (· + ·) ?_ (Finset.sum_congr rfl fun p _ => by rw [tile_mlp V c ⟨n + 1, h⟩ hN p q])
    exact congrFun (sumsqs_eq c n (Nat.lt_of_succ_lt h)) (ix2 u q)

/-! ## From the buffers to the arrays -/

/-- What grid point t writes back of window 5 is rows 4000 t … 4000 t + 3999 of the perceptron output. -/
theorem flushed5_eq (c : Dev nD) (t : Fin cfg10.N) :
    (dat10 V c).flushed 5 t = ((cfg10.win 5).blk t).view.read (Elt Ideal) (resultMlp V c) := by
  have hN : t.val < 50 := lt_of_lt_of_eq t.isLt N_10
  have e := idx_facts t
  show (cfg10.win 5).cut (grid10.coords t) ((dat10 V c).after 5 t) = _
  rw [after10_5, out5_eq]
  funext j
  obtain ⟨p, q, rfl⟩ : ∃ (p : Fin 4000) (q : Fin 16), j = ix2 p q := ⟨j 0, j 1, eq_ix2 j⟩
  show k10_pay4 (iblk10 V c 0 t : Vec Ideal S4000x32 .f32) (iblk10 V c 1 t : Vec Ideal S32x16 .f32) (iblk10 V c 2 t : Vec Ideal S16 .f32) (iblk10 V c 3 t : Vec Ideal S16x16 .f32) (iblk10 V c 4 t : Vec Ideal S16 .f32) (ix2 p q)
    = resultMlp V c (((cfg10.win 5).blk t).view.emb (ix2 p q))
  refine (MlpPayL3j.mlp_apply (iblk10 V c 0 t : Vec Ideal S4000x32 .f32) (iblk10 V c 1 t : Vec Ideal S32x16 .f32) (iblk10 V c 2 t : Vec Ideal S16 .f32) (iblk10 V c 3 t : Vec Ideal S16x16 .f32) (iblk10 V c 4 t : Vec Ideal S16 .f32) p q).trans ?_
  have hemb : ((cfg10.win 5).blk t).view.emb (ix2 p q)
      = ix2 (tileRow (T := 50) (R := 4000) (n := 200000) (by decide) ⟨t.val, hN⟩ p) q := by
    funext a; apply Fin.ext
    match a with
    | ⟨0, _⟩ => show win10_5.index t (0 : Fin 2) * 4000 + 1 * p.val = 4000 * t.val + p.val; rw [e.w5a]; omega
    | ⟨1, _⟩ => show win10_5.index t (1 : Fin 2) * 16 + 1 * q.val = q.val; rw [e.w5b]; omega
  rw [hemb]
  exact tile_mlp V c t hN p q

theorem mem_blk5 (t : Fin cfg10.N) (i : S200000x16.Idx) :
    i ∈ ((cfg10.win 5).blk t).view.set ↔ ∀ a : Fin 2, win10_5.index t a * S4000x16.size a ≤ (i a).val ∧ (i a).val < win10_5.index t a * S4000x16.size a + S4000x16.size a := by
  show i ∈ ((View.whole (Pipeline.arrRef spec10 5)).slice (win10_5.rect t)).set ↔ _
  rw [View.set_slice_whole, Rect.mem_set_unit]
  exact Iff.rfl

/-- Row r of the array lies in the block of point r / 4000. -/
theorem cover5 (i : S200000x16.Idx) : ∃ t : Fin cfg10.N, (cfg10.win 5).flush t = true ∧ i ∈ ((cfg10.win 5).blk t).view.set := by
  have hi0 : (i 0).val < 200000 := (i 0).isLt
  have hi1 : (i 1).val < 16 := (i 1).isLt
  have hN : cfg10.N = 50 := N_10
  let t : Fin cfg10.N := ⟨(i 0).val / 4000, by rw [hN]; omega⟩
  have e := idx_facts t
  have ht : t.val = (i 0).val / 4000 := rfl
  refine ⟨t, flush10_5 t, ?_⟩
  rw [mem_blk5]
  intro a
  match a with
  | ⟨0, _⟩ => show win10_5.index t (0 : Fin 2) * 4000 ≤ (i 0).val ∧ (i 0).val < win10_5.index t (0 : Fin 2) * 4000 + 4000; rw [e.w5a, ht]; omega
  | ⟨1, _⟩ => show win10_5.index t (1 : Fin 2) * 16 ≤ (i 1).val ∧ (i 1).val < win10_5.index t (1 : Fin 2) * 16 + 16; rw [e.w5b]; omega

/-- Window 5's array after the region is the perceptron output. -/
theorem final5 (c : Dev nD) : (dat10 V c).arrAt 5 cfg10.N = resultMlp V c :=
  (dat10 V c).arrAt_eq_of_cover 5 (resultMlp V c) (fun t _ => flushed5_eq V c t) cover5

/-- The one write-back of window 6, after the last grid point, writes the column sums. -/
theorem flushed6_eq (c : Dev nD) (t : Fin cfg10.N) (hf : (cfg10.win 6).flush t = true) :
    (dat10 V c).flushed 6 t = ((cfg10.win 6).blk t).view.read (Elt Ideal) (resultSum V c) := by
  have hN : t.val < 50 := lt_of_lt_of_eq t.isLt N_10
  have h49 : t.val = 49 := by have := (flush10_6 t).mp hf; omega
  have e := idx_facts t
  show (cfg10.win 6).cut (grid10.coords t) ((dat10 V c).after 6 t) = _
  rw [after10_6, sums_eq V c t.val t.isLt]
  funext j
  obtain ⟨u, q, rfl⟩ : ∃ (u : Fin 1) (q : Fin 16), j = ix2 u q := ⟨j 0, j 1, eq_ix2 j⟩
  show (∑ k ∈ Finset.range (t.val + 1), tileSum 50 4000 (by decide : 50 * 4000 = 200000) (H V c) k q)
    = resultSum V c (((cfg10.win 6).blk t).view.emb (ix2 u q))
  have hemb : ((cfg10.win 6).blk t).view.emb (ix2 u q) = ix2 u q := by
    funext a; apply Fin.ext
    match a with
    | ⟨0, _⟩ => show win10_6.index t (0 : Fin 2) * 1 + 1 * u.val = u.val; rw [e.w6a]; omega
    | ⟨1, _⟩ => show win10_6.index t (1 : Fin 2) * 16 + 1 * q.val = q.val; rw [e.w6b]; omega
  rw [hemb, h49]
  exact (colSumAt_eq_range 50 4000 _ (H V c) q).symm

theorem mem_blk6 (t : Fin cfg10.N) (i : S1x16.Idx) :
    i ∈ ((cfg10.win 6).blk t).view.set ↔ ∀ a : Fin 2, win10_6.index t a * S1x16.size a ≤ (i a).val ∧ (i a).val < win10_6.index t a * S1x16.size a + S1x16.size a := by
  show i ∈ ((View.whole (Pipeline.arrRef spec10 6)).slice (win10_6.rect t)).set ↔ _
  rw [View.set_slice_whole, Rect.mem_set_unit]
  exact Iff.rfl

/-- The last grid point's block is the whole [1, 16] array. -/
theorem cover6 (i : S1x16.Idx) : ∃ t : Fin cfg10.N, (cfg10.win 6).flush t = true ∧ i ∈ ((cfg10.win 6).blk t).view.set := by
  have hi0 : (i 0).val < 1 := (i 0).isLt
  have hi1 : (i 1).val < 16 := (i 1).isLt
  have hN : cfg10.N = 50 := N_10
  let t : Fin cfg10.N := ⟨49, by rw [hN]; omega⟩
  have e := idx_facts t
  refine ⟨t, (flush10_6 t).mpr rfl, ?_⟩
  rw [mem_blk6]
  intro a
  match a with
  | ⟨0, _⟩ => show win10_6.index t (0 : Fin 2) * 1 ≤ (i 0).val ∧ (i 0).val < win10_6.index t (0 : Fin 2) * 1 + 1; rw [e.w6a]; omega
  | ⟨1, _⟩ => show win10_6.index t (1 : Fin 2) * 16 ≤ (i 1).val ∧ (i 1).val < win10_6.index t (1 : Fin 2) * 16 + 16; rw [e.w6b]; omega

/-- Window 6's array after the region is the column sums. -/
theorem final6 (c : Dev nD) : (dat10 V c).arrAt 6 cfg10.N = resultSum V c :=
  (dat10 V c).arrAt_eq_of_cover 6 (resultSum V c) (fun t hf => flushed6_eq V c t hf) cover6

/-- The one write-back of window 7, after the last grid point, writes the column sums of squares. -/
theorem flushed7_eq (c : Dev nD) (t : Fin cfg10.N) (hf : (cfg10.win 7).flush t = true) :
    (dat10 V c).flushed 7 t = ((cfg10.win 7).blk t).view.read (Elt Ideal) (resultSumSq V c) := by
  have hN : t.val < 50 := lt_of_lt_of_eq t.isLt N_10
  have h49 : t.val = 49 := by have := (flush10_7 t).mp hf; omega
  have e := idx_facts t
  show (cfg10.win 7).cut (grid10.coords t) ((dat10 V c).after 7 t) = _
  rw [after10_7, sumsqs_eq V c t.val t.isLt]
  funext j
  obtain ⟨u, q, rfl⟩ : ∃ (u : Fin 1) (q : Fin 16), j = ix2 u q := ⟨j 0, j 1, eq_ix2 j⟩
  show (∑ k ∈ Finset.range (t.val + 1), tileSum 50 4000 (by decide : 50 * 4000 = 200000) (fun r q => H V c r q * H V c r q) k q)
    = resultSumSq V c (((cfg10.win 7).blk t).view.emb (ix2 u q))
  have hemb : ((cfg10.win 7).blk t).view.emb (ix2 u q) = ix2 u q := by
    funext a; apply Fin.ext
    match a with
    | ⟨0, _⟩ => show win10_7.index t (0 : Fin 2) * 1 + 1 * u.val = u.val; rw [e.w7a]; omega
    | ⟨1, _⟩ => show win10_7.index t (1 : Fin 2) * 16 + 1 * q.val = q.val; rw [e.w7b]; omega
  rw [hemb, h49]
  exact (colSumAt_eq_range 50 4000 _ (fun r q => H V c r q * H V c r q) q).symm

theorem mem_blk7 (t : Fin cfg10.N) (i : S1x16.Idx) :
    i ∈ ((cfg10.win 7).blk t).view.set ↔ ∀ a : Fin 2, win10_7.index t a * S1x16.size a ≤ (i a).val ∧ (i a).val < win10_7.index t a * S1x16.size a + S1x16.size a := by
  show i ∈ ((View.whole (Pipeline.arrRef spec10 7)).slice (win10_7.rect t)).set ↔ _
  rw [View.set_slice_whole, Rect.mem_set_unit]
  exact Iff.rfl

/-- The last grid point's block is the whole [1, 16] array. -/
theorem cover7 (i : S1x16.Idx) : ∃ t : Fin cfg10.N, (cfg10.win 7).flush t = true ∧ i ∈ ((cfg10.win 7).blk t).view.set := by
  have hi0 : (i 0).val < 1 := (i 0).isLt
  have hi1 : (i 1).val < 16 := (i 1).isLt
  have hN : cfg10.N = 50 := N_10
  let t : Fin cfg10.N := ⟨49, by rw [hN]; omega⟩
  have e := idx_facts t
  refine ⟨t, (flush10_7 t).mpr rfl, ?_⟩
  rw [mem_blk7]
  intro a
  match a with
  | ⟨0, _⟩ => show win10_7.index t (0 : Fin 2) * 1 ≤ (i 0).val ∧ (i 0).val < win10_7.index t (0 : Fin 2) * 1 + 1; rw [e.w7a]; omega
  | ⟨1, _⟩ => show win10_7.index t (1 : Fin 2) * 16 ≤ (i 1).val ∧ (i 1).val < win10_7.index t (1 : Fin 2) * 16 + 16; rw [e.w7b]; omega

/-- Window 7's array after the region is the column sums of squares. -/
theorem final7 (c : Dev nD) : (dat10 V c).arrAt 7 cfg10.N = resultSumSq V c :=
  (dat10 V c).arrAt_eq_of_cover 7 (resultSumSq V c) (fun t hf => flushed7_eq V c t hf) cover7

/-! ## The windows' arrays, by name -/

theorem arr0 : Pipeline.arrRef spec10 0 = main_v147 := rfl
theorem arr1 : Pipeline.arrRef spec10 1 = main_arg21 := rfl
theorem arr2 : Pipeline.arrRef spec10 2 = main_arg22 := rfl
theorem arr3 : Pipeline.arrRef spec10 3 = main_arg23 := rfl
theorem arr4 : Pipeline.arrRef spec10 4 = main_arg24 := rfl
theorem arr5 : Pipeline.arrRef spec10 5 = main_v148_0 := rfl
theorem arr6 : Pipeline.arrRef spec10 6 = main_v148_1 := rfl
theorem arr7 : Pipeline.arrRef spec10 7 = main_v148_2 := rfl

end Cert.KernelIdeal.MlpRunL3j

end
-- ==== Proof.AffinePayL3j.lean ====
/- The value the store of the second device pass of one GIN layer writes, read index by index at the ideal values: a
   [4000, 16] tile of rows, each column centred by the given mean, scaled, multiplied by the reciprocal square root of the
   given variance plus a literal, and shifted — in the device's order of operations. -/
import proofs.«120907_j71768903516484_1_alg».proof.Proof.Gen.KernelIdeal.Skeleton
import proofs.«120907_j71768903516484_1_alg».proof.Proof.GinSpec
import Idealize.ShloMosaic.Lib.ValueLayout
import Idealize.ShloMosaic.Lib.Pipeline.Value

noncomputable section

open Idealize.ShloMosaic Idealize.ShloMosaic.ValueIdx

namespace Cert.KernelIdeal.AffinePayL3j

open Cert.KernelIdeal Cert.KernelIdeal.Gen Cert.KernelIdeal.GinSpec

/-- The normalised tile at row r, column c. -/
theorem affine_apply (v0 : Vec Ideal S4000x16 .f32) (v2 v4 : Vec Ideal S1x16 .f32) (v9 v17 : Vec Ideal S16 .f32)
    (r : Fin 4000) (c : Fin 16) :
    k11_pay1 v0 v2 v4 v9 v17 (ix2 r c) = bnAffineAt v0 v2 v4 v9 v17 r c := by
  unfold k11_pay1 bnAffineAt
  rw [addf_apply, mulf_apply, mulf_apply, subf_apply]
  rw [broadcastTo_1b_ab_apply, broadcastTo_1b_ab_apply, broadcastTo_1b_ab_apply, broadcastTo_1b_ab_apply]
  rw [shapeCast_a_1a_apply, shapeCast_a_1a_apply, shapeCast_self, shapeCast_self, shapeCast_self]
  rfl

end Cert.KernelIdeal.AffinePayL3j

end
-- ==== Proof.AffineRunL3j.lean ====
/- The array the second device pass of one GIN layer leaves (region 11: [200000, 16] rows in 50 tiles of 4000), for any
   contents of the device's buffers when the region is entered: tile t of the output is the affine normalisation of tile
   t of the input by the one-block mean, variance, scale and shift arrays, the tiles cover the array, so the output array
   is the affine normalisation of the input array, index by index. -/
import proofs.«120907_j71768903516484_1_alg».proof.Proof.KIFrameP
import proofs.«120907_j71768903516484_1_alg».proof.Proof.AffinePayL3j
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.AffineRunL3j

open Cert.KernelIdeal Cert.KernelIdeal.Gen Cert.KernelIdeal.GenP Cert.KernelIdeal.GinSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the tile windows sit at block (t, 0), the one-block windows at block 0. -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 1) = 0 ∧ win11_4.index t (0 : Fin 1) = 0
    ∧ win11_5.index t (0 : Fin 2) = t.val ∧ win11_5.index t (1 : Fin 2) = 0 :=
  (by decide +kernel : ∀ t : Fin grid11.N, _)

/-- Row p of the input tile at point t is row 4000 t + p of the input array. -/
theorem blk0_apply (c : Dev nD) (t : Fin cfg11.N) (p : Fin 4000) (q : Fin 16) (k : Fin 200000) (hk : k.val = 4000 * t.val + p.val) :
    (iblk11 V c 0 t : Vec Ideal S4000x16 .f32) (ix2 p q) = (V c (Pipeline.arrRef spec11 0) : S200000x16.Idx → EReal) (ix2 k q) := by
  obtain ⟨e0, e1, -⟩ := idx_facts t
  unfold iblk11
  rw [View.read_apply]
  show (V c (Pipeline.arrRef spec11 0) : S200000x16.Idx → EReal) _ = _
  refine congrArg _ (funext fun a => Fin.ext ?_)
  match a with
  | ⟨0, _⟩ => show win11_0.index t (0 : Fin 2) * 4000 + 1 * p.val = k.val; rw [e0, hk]; omega
  | ⟨1, _⟩ => show win11_0.index t (1 : Fin 2) * 16 + 1 * q.val = q.val; rw [e1]; omega

/-- The mean's one block is the mean array. -/
theorem blk1_apply (c : Dev nD) (t : Fin cfg11.N) (u : Fin 1) (q : Fin 16) :
    (iblk11 V c 1 t : Vec Ideal S1x16 .f32) (ix2 u q) = (V c (Pipeline.arrRef spec11 1) : S1x16.Idx → EReal) (ix2 u q) := by
  obtain ⟨-, -, e0, e1, -⟩ := idx_facts t
  unfold iblk11
  rw [View.read_apply]
  show (V c (Pipeline.arrRef spec11 1) : S1x16.Idx → EReal) _ = _
  refine congrArg _ (funext fun a => Fin.ext ?_)
  match a with
  | ⟨0, _⟩ => show win11_1.index t (0 : Fin 2) * 1 + 1 * u.val = u.val; rw [e0]; omega
  | ⟨1, _⟩ => show win11_1.index t (1 : Fin 2) * 16 + 1 * q.val = q.val; rw [e1]; omega

/-- The variance's one block is the variance array. -/
theorem blk2_apply (c : Dev nD) (t : Fin cfg11.N) (u : Fin 1) (q : Fin 16) :
    (iblk11 V c 2 t : Vec Ideal S1x16 .f32) (ix2 u q) = (V c (Pipeline.arrRef spec11 2) : S1x16.Idx → EReal) (ix2 u q) := by
  obtain ⟨-, -, -, -, e0, e1, -⟩ := idx_facts t
  unfold iblk11
  rw [View.read_apply]
  show (V c (Pipeline.arrRef spec11 2) : S1x16.Idx → EReal) _ = _
  refine congrArg _ (funext fun a => Fin.ext ?_)
  match a with
  | ⟨0, _⟩ => show win11_2.index t (0 : Fin 2) * 1 + 1 * u.val = u.val; rw [e0]; omega
  | ⟨1, _⟩ => show win11_2.index t (1 : Fin 2) * 16 + 1 * q.val = q.val; rw [e1]; omega

/-- The scale's one block is the scale array. -/
theorem blk3_apply (c : Dev nD) (t : Fin cfg11.N) (q : Fin 16) :
    (iblk11 V c 3 t : Vec Ideal S16 .f32) (ix1 q) = (V c (Pipeline.arrRef spec11 3) : S16.Idx → EReal) (ix1 q) := by
  obtain ⟨-, -, -, -, -, -, e0, -⟩ := idx_facts t
  unfold iblk11
  rw [View.read_apply]
  show (V c (Pipeline.arrRef spec11 3) : S16.Idx → EReal) _ = _
  refine congrArg _ (funext fun a => Fin.ext ?_)
  match a with
  | ⟨0, _⟩ => show win11_3.index t (0 : Fin 1) * 16 + 1 * q.val = q.val; rw [e0]; omega

/-- The shift's one block is the shift array. -/
theorem blk4_apply (c : Dev nD) (t : Fin cfg11.N) (q : Fin 16) :
    (iblk11 V c 4 t : Vec Ideal S16 .f32) (ix1 q) = (V c (Pipeline.arrRef spec11 4) : S16.Idx → EReal) (ix1 q) := by
  obtain ⟨-, -, -, -, -, -, -, e0, -⟩ := idx_facts t
  unfold iblk11
  rw [View.read_apply]
  show (V c (Pipeline.arrRef spec11 4) : S16.Idx → EReal) _ = _
  refine congrArg _ (funext fun a => Fin.ext ?_)
  match a with
  | ⟨0, _⟩ => show win11_4.index t (0 : Fin 1) * 16 + 1 * q.val = q.val; rw [e0]; omega

/-- The normalised array: the affine normalisation of the input array by the mean, variance, scale and shift arrays the
    region finds. -/
def result (c : Dev nD) : S200000x16.Idx → EReal :=
  bnAffine (V c (Pipeline.arrRef spec11 0) : S200000x16.Idx → EReal) (V c (Pipeline.arrRef spec11 1) : S1x16.Idx → EReal)
    (V c (Pipeline.arrRef spec11 2) : S1x16.Idx → EReal) (V c (Pipeline.arrRef spec11 3) : S16.Idx → EReal)
    (V c (Pipeline.arrRef spec11 4) : S16.Idx → EReal)

set_option maxHeartbeats 1000000 in
/-- What grid point t writes back is rows 4000 t … 4000 t + 3999 of the normalised array. -/
theorem flushed_eq (c : Dev nD) (t : Fin cfg11.N) :
    (dat11 V c).flushed 5 t = ((cfg11.win 5).blk t).view.read (Elt Ideal) (result V c) := by
  show (cfg11.win 5).cut (grid11.coords t) ((dat11 V c).after 5 t) = _
  rw [after11_5]
  unfold out11_5
  rw [View.canon_unit_zero hz2]
  simp only [View.ld_unit_zero (S := S4000x16) hz2, View.ld_unit_zero (S := S1x16) hz2, View.ld_unit_zero (S := S16) hz1]
  funext j
  obtain ⟨p, q, rfl⟩ : ∃ (p : Fin 4000) (q : Fin 16), j = ix2 p q := ⟨j 0, j 1, eq_ix2 j⟩
  obtain ⟨-, -, -, -, -, -, -, -, e8, e9⟩ := idx_facts t
  have hN : t.val < 50 := lt_of_lt_of_eq t.isLt N_11
  show k11_pay1 (iblk11 V c 0 t) (iblk11 V c 1 t) (iblk11 V c 2 t) (iblk11 V c 3 t) (iblk11 V c 4 t) (ix2 p q)
    = result V c (((cfg11.win 5).blk t).view.emb (ix2 p q))
  refine (AffinePayL3j.affine_apply (iblk11 V c 0 t) (iblk11 V c 1 t) (iblk11 V c 2 t) (iblk11 V c 3 t) (iblk11 V c 4 t) p q).trans ?_
  have hemb : ((cfg11.win 5).blk t).view.emb (ix2 p q) = ix2 (⟨4000 * t.val + p.val, by omega⟩ : Fin 200000) q := by
    funext a; apply Fin.ext
    match a with
    | ⟨0, _⟩ => show win11_5.index t (0 : Fin 2) * 4000 + 1 * p.val = 4000 * t.val + p.val; rw [e8]; omega
    | ⟨1, _⟩ => show win11_5.index t (1 : Fin 2) * 16 + 1 * q.val = q.val; rw [e9]; omega
  rw [hemb]
  unfold result bnAffine bnAffineAt
  rw [blk0_apply V c t p q ⟨4000 * t.val + p.val, by omega⟩ rfl, blk1_apply V c t 0 q, blk2_apply V c t 0 q,
    blk3_apply V c t q, blk4_apply V c t q]

/-- An index of the array is in point t's block iff each coordinate is in the block's range on its axis. -/
theorem mem_blk (t : Fin cfg11.N) (i : S200000x16.Idx) :
    i ∈ ((cfg11.win 5).blk t).view.set ↔ ∀ a : Fin 2, win11_5.index t a * S4000x16.size a ≤ (i a).val ∧ (i a).val < win11_5.index t a * S4000x16.size a + S4000x16.size a := by
  show i ∈ ((View.whole (Pipeline.arrRef spec11 5)).slice (win11_5.rect t)).set ↔ _
  rw [View.set_slice_whole, Rect.mem_set_unit]
  exact Iff.rfl

/-- Row r of the array lies in the block of point r / 4000. -/
theorem cover (i : S200000x16.Idx) : ∃ t : Fin cfg11.N, (cfg11.win 5).flush t = true ∧ i ∈ ((cfg11.win 5).blk t).view.set := by
  have hi0 : (i 0).val < 200000 := (i 0).isLt
  have hi1 : (i 1).val < 16 := (i 1).isLt
  have hN : cfg11.N = 50 := N_11
  let t : Fin cfg11.N := ⟨(i 0).val / 4000, by rw [hN]; omega⟩
  obtain ⟨-, -, -, -, -, -, -, -, e8, e9⟩ := idx_facts t
  have ht : t.val = (i 0).val / 4000 := rfl
  refine ⟨t, flush11_5 t, ?_⟩
  rw [mem_blk]
  intro a
  match a with
  | ⟨0, _⟩ => show win11_5.index t (0 : Fin 2) * 4000 ≤ (i 0).val ∧ (i 0).val < win11_5.index t (0 : Fin 2) * 4000 + 4000; rw [e8, ht]; omega
  | ⟨1, _⟩ => show win11_5.index t (1 : Fin 2) * 16 ≤ (i 1).val ∧ (i 1).val < win11_5.index t (1 : Fin 2) * 16 + 16; rw [e9]; omega

/-- The output array after the region is the normalised array. -/
theorem final (c : Dev nD) : (dat11 V c).arrAt 5 cfg11.N = result V c :=
  (dat11 V c).arrAt_eq_of_cover 5 (result V c) (fun t _ => flushed_eq V c t) cover

/-! ## The windows' arrays, by name -/

theorem arr0 : Pipeline.arrRef spec11 0 = main_v148_0 := rfl
theorem arr1 : Pipeline.arrRef spec11 1 = main_v150 := rfl
theorem arr2 : Pipeline.arrRef spec11 2 = main_v154 := rfl
theorem arr3 : Pipeline.arrRef spec11 3 = main_arg25 := rfl
theorem arr4 : Pipeline.arrRef spec11 4 = main_arg26 := rfl
theorem arr5 : Pipeline.arrRef spec11 5 = main_v155 := rfl

end Cert.KernelIdeal.AffineRunL3j

end
-- ==== Proof.KChain.lean ====
/-
  The idealized kernel program's fold read to the end: from the launch memory, stretch by stretch and region by region,
  the three result buffers hold the network's three results of the launch arguments. Each region's arrays after the
  region are what its write-backs leave (the values read off the frame's proof data), every other buffer is as the
  region found it, and a region's read-only arrays are never written back; the host stretches are read as composed
  terms; the batch-normalisation law joins the kernel's statistics with the reference's, under the precondition that
  every float argument is finite.
-/
import proofs.«120907_j71768903516484_1_alg».proof.Proof.KIFrameP
import proofs.«120907_j71768903516484_1_alg».proof.Proof.Gen.ReferenceIdeal
import proofs.«120907_j71768903516484_1_alg».proof.Proof.Gen.Pre_finite_inputs
import proofs.«120907_j71768903516484_1_alg».proof.Proof.KWhole
import proofs.«120907_j71768903516484_1_alg».proof.Proof.BridgePre
import proofs.«120907_j71768903516484_1_alg».proof.Proof.Net
import proofs.«120907_j71768903516484_1_alg».proof.Proof.MlpRunL1i
import proofs.«120907_j71768903516484_1_alg».proof.Proof.AffineRunL1i
import proofs.«120907_j71768903516484_1_alg».proof.Proof.MlpRunL1j
import proofs.«120907_j71768903516484_1_alg».proof.Proof.AffineRunL1j
import proofs.«120907_j71768903516484_1_alg».proof.Proof.MlpRunL2i
import proofs.«120907_j71768903516484_1_alg».proof.Proof.AffineRunL2i
import proofs.«120907_j71768903516484_1_alg».proof.Proof.MlpRunL2j
import proofs.«120907_j71768903516484_1_alg».proof.Proof.AffineRunL2j
import proofs.«120907_j71768903516484_1_alg».proof.Proof.MlpRunL3i
import proofs.«120907_j71768903516484_1_alg».proof.Proof.AffineRunL3i
import proofs.«120907_j71768903516484_1_alg».proof.Proof.MlpRunL3j
import proofs.«120907_j71768903516484_1_alg».proof.Proof.AffineRunL3j

set_option maxRecDepth 16384

noncomputable section

namespace Cert.KernelIdeal.KChain

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

/-- The fold after the last region is the stretches after it, run as one list. -/
theorem W39_eq (c : Dev nD) :
    W39 m ρ c = after ((hostOps12 (F := Ideal)) ++ (hostOps12_1 (F := Ideal) ++ hostOps12_2 (F := Ideal) ++ hostOps12_3 (F := Ideal) ++ hostOps12_4 (F := Ideal) ++ hostOps12_5 (F := Ideal) ++ hostOps12_6 (F := Ideal) ++ hostOps12_7 (F := Ideal) ++ hostOps12_8 (F := Ideal) ++ hostOps12_9 (F := Ideal) ++ hostOps12_10 (F := Ideal) ++ hostOps12_11 (F := Ideal) ++ hostOps12_12 (F := Ideal) ++ hostOps12_13 (F := Ideal) ++ hostOps12_14 (F := Ideal))) (W24 m ρ c) := by
  repeat rw [Cert.KernelIdeal.KHost.after_append]

/-! ### Layer block 0: regions 0 and 1 -/

theorem hH_0 (c : Dev nD) : W2 m ρ c (Proc.devRef .tc main_v18_0) = Cert.KernelIdeal.MlpRunL1i.resultMlp (V1 m ρ) c :=
  (W2_arr m ρ c 5).trans (Cert.KernelIdeal.MlpRunL1i.final5 (V1 m ρ) c)
theorem hS_0 (c : Dev nD) : W2 m ρ c (Proc.devRef .tc main_v18_1) = Cert.KernelIdeal.MlpRunL1i.resultSum (V1 m ρ) c :=
  (W2_arr m ρ c 6).trans (Cert.KernelIdeal.MlpRunL1i.final6 (V1 m ρ) c)
theorem hQ_0 (c : Dev nD) : W2 m ρ c (Proc.devRef .tc main_v18_2) = Cert.KernelIdeal.MlpRunL1i.resultSumSq (V1 m ρ) c :=
  (W2_arr m ρ c 7).trans (Cert.KernelIdeal.MlpRunL1i.final7 (V1 m ρ) c)
theorem hk2_0 (c : Dev nD) (r : Ref sig .tc) (hr : r ∉ [main_v17, main_arg7, main_arg8, main_arg9, main_arg10, main_v18_0, main_v18_1, main_v18_2]) :
    W2 m ρ c (Proc.devRef .tc r) = W1 m ρ c (Proc.devRef .tc r) :=
  W2_of_ne m ρ c r fun w hw => hr (hw ▸ (by decide : ∀ w : Fin 8, Pipeline.arrRef spec0 w ∈ [main_v17, main_arg7, main_arg8, main_arg9, main_arg10, main_v18_0, main_v18_1, main_v18_2]) w)
theorem hin2_0 (c : Dev nD) (r : Ref sig .tc) (hr : r ∈ [main_arg7, main_arg8, main_arg9, main_arg10]) :
    W2 m ρ c (Proc.devRef .tc r) = W1 m ρ c (Proc.devRef .tc r) := by
  simp only [List.mem_cons, List.mem_nil_iff, or_false] at hr
  rcases hr with rfl | rfl | rfl | rfl
  · exact (W2_arr m ρ c 1).trans (((dat0 (V1 m ρ) c).arrAt_in 1 rfl _).trans (A_eq0 (V1 m ρ) c 1))
  · exact (W2_arr m ρ c 2).trans (((dat0 (V1 m ρ) c).arrAt_in 2 rfl _).trans (A_eq0 (V1 m ρ) c 2))
  · exact (W2_arr m ρ c 3).trans (((dat0 (V1 m ρ) c).arrAt_in 3 rfl _).trans (A_eq0 (V1 m ρ) c 3))
  · exact (W2_arr m ρ c 4).trans (((dat0 (V1 m ρ) c).arrAt_in 4 rfl _).trans (A_eq0 (V1 m ρ) c 4))
theorem hout_0 (c : Dev nD) : W4 m ρ c (Proc.devRef .tc main_v25) = Cert.KernelIdeal.AffineRunL1i.result (V3 m ρ) c :=
  (W4_arr m ρ c 5).trans (Cert.KernelIdeal.AffineRunL1i.final (V3 m ρ) c)
theorem hk4_0 (c : Dev nD) (r : Ref sig .tc) (hr : r ∉ [main_v18_0, main_v20, main_v24, main_arg11, main_arg12, main_v25]) :
    W4 m ρ c (Proc.devRef .tc r) = W3 m ρ c (Proc.devRef .tc r) :=
  W4_of_ne m ρ c r fun w hw => hr (hw ▸ (by decide : ∀ w : Fin 6, Pipeline.arrRef spec1 w ∈ [main_v18_0, main_v20, main_v24, main_arg11, main_arg12, main_v25]) w)
theorem hin4_0 (c : Dev nD) (r : Ref sig .tc) (hr : r ∈ [main_arg11, main_arg12]) :
    W4 m ρ c (Proc.devRef .tc r) = W3 m ρ c (Proc.devRef .tc r) := by
  simp only [List.mem_cons, List.mem_nil_iff, or_false] at hr
  rcases hr with rfl | rfl
  · exact (W4_arr m ρ c 3).trans (((dat1 (V3 m ρ) c).arrAt_in 3 rfl _).trans (A_eq1 (V3 m ρ) c 3))
  · exact (W4_arr m ρ c 4).trans (((dat1 (V3 m ρ) c).arrAt_in 4 rfl _).trans (A_eq1 (V3 m ρ) c 4))

/-- What the two regions of block 0 leave, in the shape the whole-program law takes. -/
theorem regions_0 (c : Dev nD) : Cert.KernelIdeal.KWhole.Regions_0 (W0 m ρ c) (W2 m ρ c) (W4 m ρ c) :=
  ⟨hH_0 m ρ c, hS_0 m ρ c, hQ_0 m ρ c, hk2_0 m ρ c, hin2_0 m ρ c, hout_0 m ρ c, hk4_0 m ρ c, hin4_0 m ρ c⟩

/-! ### Layer block 1: regions 2 and 3 -/

theorem hH_1 (c : Dev nD) : W6 m ρ c (Proc.devRef .tc main_v44_0) = Cert.KernelIdeal.MlpRunL1j.resultMlp (V5 m ρ) c :=
  (W6_arr m ρ c 5).trans (Cert.KernelIdeal.MlpRunL1j.final5 (V5 m ρ) c)
theorem hS_1 (c : Dev nD) : W6 m ρ c (Proc.devRef .tc main_v44_1) = Cert.KernelIdeal.MlpRunL1j.resultSum (V5 m ρ) c :=
  (W6_arr m ρ c 6).trans (Cert.KernelIdeal.MlpRunL1j.final6 (V5 m ρ) c)
theorem hQ_1 (c : Dev nD) : W6 m ρ c (Proc.devRef .tc main_v44_2) = Cert.KernelIdeal.MlpRunL1j.resultSumSq (V5 m ρ) c :=
  (W6_arr m ρ c 7).trans (Cert.KernelIdeal.MlpRunL1j.final7 (V5 m ρ) c)
theorem hk2_1 (c : Dev nD) (r : Ref sig .tc) (hr : r ∉ [main_v43, main_arg7, main_arg8, main_arg9, main_arg10, main_v44_0, main_v44_1, main_v44_2]) :
    W6 m ρ c (Proc.devRef .tc r) = W5 m ρ c (Proc.devRef .tc r) :=
  W6_of_ne m ρ c r fun w hw => hr (hw ▸ (by decide : ∀ w : Fin 8, Pipeline.arrRef spec2 w ∈ [main_v43, main_arg7, main_arg8, main_arg9, main_arg10, main_v44_0, main_v44_1, main_v44_2]) w)
theorem hin2_1 (c : Dev nD) (r : Ref sig .tc) (hr : r ∈ [main_arg7, main_arg8, main_arg9, main_arg10]) :
    W6 m ρ c (Proc.devRef .tc r) = W5 m ρ c (Proc.devRef .tc r) := by
  simp only [List.mem_cons, List.mem_nil_iff, or_false] at hr
  rcases hr with rfl | rfl | rfl | rfl
  · exact (W6_arr m ρ c 1).trans (((dat2 (V5 m ρ) c).arrAt_in 1 rfl _).trans (A_eq2 (V5 m ρ) c 1))
  · exact (W6_arr m ρ c 2).trans (((dat2 (V5 m ρ) c).arrAt_in 2 rfl _).trans (A_eq2 (V5 m ρ) c 2))
  · exact (W6_arr m ρ c 3).trans (((dat2 (V5 m ρ) c).arrAt_in 3 rfl _).trans (A_eq2 (V5 m ρ) c 3))
  · exact (W6_arr m ρ c 4).trans (((dat2 (V5 m ρ) c).arrAt_in 4 rfl _).trans (A_eq2 (V5 m ρ) c 4))
theorem hout_1 (c : Dev nD) : W8 m ρ c (Proc.devRef .tc main_v51) = Cert.KernelIdeal.AffineRunL1j.result (V7 m ρ) c :=
  (W8_arr m ρ c 5).trans (Cert.KernelIdeal.AffineRunL1j.final (V7 m ρ) c)
theorem hk4_1 (c : Dev nD) (r : Ref sig .tc) (hr : r ∉ [main_v44_0, main_v46, main_v50, main_arg11, main_arg12, main_v51]) :
    W8 m ρ c (Proc.devRef .tc r) = W7 m ρ c (Proc.devRef .tc r) :=
  W8_of_ne m ρ c r fun w hw => hr (hw ▸ (by decide : ∀ w : Fin 6, Pipeline.arrRef spec3 w ∈ [main_v44_0, main_v46, main_v50, main_arg11, main_arg12, main_v51]) w)
theorem hin4_1 (c : Dev nD) (r : Ref sig .tc) (hr : r ∈ [main_arg11, main_arg12]) :
    W8 m ρ c (Proc.devRef .tc r) = W7 m ρ c (Proc.devRef .tc r) := by
  simp only [List.mem_cons, List.mem_nil_iff, or_false] at hr
  rcases hr with rfl | rfl
  · exact (W8_arr m ρ c 3).trans (((dat3 (V7 m ρ) c).arrAt_in 3 rfl _).trans (A_eq3 (V7 m ρ) c 3))
  · exact (W8_arr m ρ c 4).trans (((dat3 (V7 m ρ) c).arrAt_in 4 rfl _).trans (A_eq3 (V7 m ρ) c 4))

/-- What the two regions of block 1 leave, in the shape the whole-program law takes. -/
theorem regions_1 (c : Dev nD) : Cert.KernelIdeal.KWhole.Regions_1 (W4 m ρ c) (W6 m ρ c) (W8 m ρ c) :=
  ⟨hH_1 m ρ c, hS_1 m ρ c, hQ_1 m ρ c, hk2_1 m ρ c, hin2_1 m ρ c, hout_1 m ρ c, hk4_1 m ρ c, hin4_1 m ρ c⟩

/-! ### Layer block 2: regions 4 and 5 -/

theorem hH_2 (c : Dev nD) : W10 m ρ c (Proc.devRef .tc main_v70_0) = Cert.KernelIdeal.MlpRunL2i.resultMlp (V9 m ρ) c :=
  (W10_arr m ρ c 5).trans (Cert.KernelIdeal.MlpRunL2i.final5 (V9 m ρ) c)
theorem hS_2 (c : Dev nD) : W10 m ρ c (Proc.devRef .tc main_v70_1) = Cert.KernelIdeal.MlpRunL2i.resultSum (V9 m ρ) c :=
  (W10_arr m ρ c 6).trans (Cert.KernelIdeal.MlpRunL2i.final6 (V9 m ρ) c)
theorem hQ_2 (c : Dev nD) : W10 m ρ c (Proc.devRef .tc main_v70_2) = Cert.KernelIdeal.MlpRunL2i.resultSumSq (V9 m ρ) c :=
  (W10_arr m ρ c 7).trans (Cert.KernelIdeal.MlpRunL2i.final7 (V9 m ρ) c)
theorem hk2_2 (c : Dev nD) (r : Ref sig .tc) (hr : r ∉ [main_v69, main_arg14, main_arg15, main_arg16, main_arg17, main_v70_0, main_v70_1, main_v70_2]) :
    W10 m ρ c (Proc.devRef .tc r) = W9 m ρ c (Proc.devRef .tc r) :=
  W10_of_ne m ρ c r fun w hw => hr (hw ▸ (by decide : ∀ w : Fin 8, Pipeline.arrRef spec4 w ∈ [main_v69, main_arg14, main_arg15, main_arg16, main_arg17, main_v70_0, main_v70_1, main_v70_2]) w)
theorem hin2_2 (c : Dev nD) (r : Ref sig .tc) (hr : r ∈ [main_arg14, main_arg15, main_arg16, main_arg17]) :
    W10 m ρ c (Proc.devRef .tc r) = W9 m ρ c (Proc.devRef .tc r) := by
  simp only [List.mem_cons, List.mem_nil_iff, or_false] at hr
  rcases hr with rfl | rfl | rfl | rfl
  · exact (W10_arr m ρ c 1).trans (((dat4 (V9 m ρ) c).arrAt_in 1 rfl _).trans (A_eq4 (V9 m ρ) c 1))
  · exact (W10_arr m ρ c 2).trans (((dat4 (V9 m ρ) c).arrAt_in 2 rfl _).trans (A_eq4 (V9 m ρ) c 2))
  · exact (W10_arr m ρ c 3).trans (((dat4 (V9 m ρ) c).arrAt_in 3 rfl _).trans (A_eq4 (V9 m ρ) c 3))
  · exact (W10_arr m ρ c 4).trans (((dat4 (V9 m ρ) c).arrAt_in 4 rfl _).trans (A_eq4 (V9 m ρ) c 4))
theorem hout_2 (c : Dev nD) : W12 m ρ c (Proc.devRef .tc main_v77) = Cert.KernelIdeal.AffineRunL2i.result (V11 m ρ) c :=
  (W12_arr m ρ c 5).trans (Cert.KernelIdeal.AffineRunL2i.final (V11 m ρ) c)
theorem hk4_2 (c : Dev nD) (r : Ref sig .tc) (hr : r ∉ [main_v70_0, main_v72, main_v76, main_arg18, main_arg19, main_v77]) :
    W12 m ρ c (Proc.devRef .tc r) = W11 m ρ c (Proc.devRef .tc r) :=
  W12_of_ne m ρ c r fun w hw => hr (hw ▸ (by decide : ∀ w : Fin 6, Pipeline.arrRef spec5 w ∈ [main_v70_0, main_v72, main_v76, main_arg18, main_arg19, main_v77]) w)
theorem hin4_2 (c : Dev nD) (r : Ref sig .tc) (hr : r ∈ [main_arg18, main_arg19]) :
    W12 m ρ c (Proc.devRef .tc r) = W11 m ρ c (Proc.devRef .tc r) := by
  simp only [List.mem_cons, List.mem_nil_iff, or_false] at hr
  rcases hr with rfl | rfl
  · exact (W12_arr m ρ c 3).trans (((dat5 (V11 m ρ) c).arrAt_in 3 rfl _).trans (A_eq5 (V11 m ρ) c 3))
  · exact (W12_arr m ρ c 4).trans (((dat5 (V11 m ρ) c).arrAt_in 4 rfl _).trans (A_eq5 (V11 m ρ) c 4))

/-- What the two regions of block 2 leave, in the shape the whole-program law takes. -/
theorem regions_2 (c : Dev nD) : Cert.KernelIdeal.KWhole.Regions_2 (W8 m ρ c) (W10 m ρ c) (W12 m ρ c) :=
  ⟨hH_2 m ρ c, hS_2 m ρ c, hQ_2 m ρ c, hk2_2 m ρ c, hin2_2 m ρ c, hout_2 m ρ c, hk4_2 m ρ c, hin4_2 m ρ c⟩

/-! ### Layer block 3: regions 6 and 7 -/

theorem hH_3 (c : Dev nD) : W14 m ρ c (Proc.devRef .tc main_v96_0) = Cert.KernelIdeal.MlpRunL2j.resultMlp (V13 m ρ) c :=
  (W14_arr m ρ c 5).trans (Cert.KernelIdeal.MlpRunL2j.final5 (V13 m ρ) c)
theorem hS_3 (c : Dev nD) : W14 m ρ c (Proc.devRef .tc main_v96_1) = Cert.KernelIdeal.MlpRunL2j.resultSum (V13 m ρ) c :=
  (W14_arr m ρ c 6).trans (Cert.KernelIdeal.MlpRunL2j.final6 (V13 m ρ) c)
theorem hQ_3 (c : Dev nD) : W14 m ρ c (Proc.devRef .tc main_v96_2) = Cert.KernelIdeal.MlpRunL2j.resultSumSq (V13 m ρ) c :=
  (W14_arr m ρ c 7).trans (Cert.KernelIdeal.MlpRunL2j.final7 (V13 m ρ) c)
theorem hk2_3 (c : Dev nD) (r : Ref sig .tc) (hr : r ∉ [main_v95, main_arg14, main_arg15, main_arg16, main_arg17, main_v96_0, main_v96_1, main_v96_2]) :
    W14 m ρ c (Proc.devRef .tc r) = W13 m ρ c (Proc.devRef .tc r) :=
  W14_of_ne m ρ c r fun w hw => hr (hw ▸ (by decide : ∀ w : Fin 8, Pipeline.arrRef spec6 w ∈ [main_v95, main_arg14, main_arg15, main_arg16, main_arg17, main_v96_0, main_v96_1, main_v96_2]) w)
theorem hin2_3 (c : Dev nD) (r : Ref sig .tc) (hr : r ∈ [main_arg14, main_arg15, main_arg16, main_arg17]) :
    W14 m ρ c (Proc.devRef .tc r) = W13 m ρ c (Proc.devRef .tc r) := by
  simp only [List.mem_cons, List.mem_nil_iff, or_false] at hr
  rcases hr with rfl | rfl | rfl | rfl
  · exact (W14_arr m ρ c 1).trans (((dat6 (V13 m ρ) c).arrAt_in 1 rfl _).trans (A_eq6 (V13 m ρ) c 1))
  · exact (W14_arr m ρ c 2).trans (((dat6 (V13 m ρ) c).arrAt_in 2 rfl _).trans (A_eq6 (V13 m ρ) c 2))
  · exact (W14_arr m ρ c 3).trans (((dat6 (V13 m ρ) c).arrAt_in 3 rfl _).trans (A_eq6 (V13 m ρ) c 3))
  · exact (W14_arr m ρ c 4).trans (((dat6 (V13 m ρ) c).arrAt_in 4 rfl _).trans (A_eq6 (V13 m ρ) c 4))
theorem hout_3 (c : Dev nD) : W16 m ρ c (Proc.devRef .tc main_v103) = Cert.KernelIdeal.AffineRunL2j.result (V15 m ρ) c :=
  (W16_arr m ρ c 5).trans (Cert.KernelIdeal.AffineRunL2j.final (V15 m ρ) c)
theorem hk4_3 (c : Dev nD) (r : Ref sig .tc) (hr : r ∉ [main_v96_0, main_v98, main_v102, main_arg18, main_arg19, main_v103]) :
    W16 m ρ c (Proc.devRef .tc r) = W15 m ρ c (Proc.devRef .tc r) :=
  W16_of_ne m ρ c r fun w hw => hr (hw ▸ (by decide : ∀ w : Fin 6, Pipeline.arrRef spec7 w ∈ [main_v96_0, main_v98, main_v102, main_arg18, main_arg19, main_v103]) w)
theorem hin4_3 (c : Dev nD) (r : Ref sig .tc) (hr : r ∈ [main_arg18, main_arg19]) :
    W16 m ρ c (Proc.devRef .tc r) = W15 m ρ c (Proc.devRef .tc r) := by
  simp only [List.mem_cons, List.mem_nil_iff, or_false] at hr
  rcases hr with rfl | rfl
  · exact (W16_arr m ρ c 3).trans (((dat7 (V15 m ρ) c).arrAt_in 3 rfl _).trans (A_eq7 (V15 m ρ) c 3))
  · exact (W16_arr m ρ c 4).trans (((dat7 (V15 m ρ) c).arrAt_in 4 rfl _).trans (A_eq7 (V15 m ρ) c 4))

/-- What the two regions of block 3 leave, in the shape the whole-program law takes. -/
theorem regions_3 (c : Dev nD) : Cert.KernelIdeal.KWhole.Regions_3 (W12 m ρ c) (W14 m ρ c) (W16 m ρ c) :=
  ⟨hH_3 m ρ c, hS_3 m ρ c, hQ_3 m ρ c, hk2_3 m ρ c, hin2_3 m ρ c, hout_3 m ρ c, hk4_3 m ρ c, hin4_3 m ρ c⟩

/-! ### Layer block 4: regions 8 and 9 -/

theorem hH_4 (c : Dev nD) : W18 m ρ c (Proc.devRef .tc main_v122_0) = Cert.KernelIdeal.MlpRunL3i.resultMlp (V17 m ρ) c :=
  (W18_arr m ρ c 5).trans (Cert.KernelIdeal.MlpRunL3i.final5 (V17 m ρ) c)
theorem hS_4 (c : Dev nD) : W18 m ρ c (Proc.devRef .tc main_v122_1) = Cert.KernelIdeal.MlpRunL3i.resultSum (V17 m ρ) c :=
  (W18_arr m ρ c 6).trans (Cert.KernelIdeal.MlpRunL3i.final6 (V17 m ρ) c)
theorem hQ_4 (c : Dev nD) : W18 m ρ c (Proc.devRef .tc main_v122_2) = Cert.KernelIdeal.MlpRunL3i.resultSumSq (V17 m ρ) c :=
  (W18_arr m ρ c 7).trans (Cert.KernelIdeal.MlpRunL3i.final7 (V17 m ρ) c)
theorem hk2_4 (c : Dev nD) (r : Ref sig .tc) (hr : r ∉ [main_v121, main_arg21, main_arg22, main_arg23, main_arg24, main_v122_0, main_v122_1, main_v122_2]) :
    W18 m ρ c (Proc.devRef .tc r) = W17 m ρ c (Proc.devRef .tc r) :=
  W18_of_ne m ρ c r fun w hw => hr (hw ▸ (by decide : ∀ w : Fin 8, Pipeline.arrRef spec8 w ∈ [main_v121, main_arg21, main_arg22, main_arg23, main_arg24, main_v122_0, main_v122_1, main_v122_2]) w)
theorem hin2_4 (c : Dev nD) (r : Ref sig .tc) (hr : r ∈ [main_arg21, main_arg22, main_arg23, main_arg24]) :
    W18 m ρ c (Proc.devRef .tc r) = W17 m ρ c (Proc.devRef .tc r) := by
  simp only [List.mem_cons, List.mem_nil_iff, or_false] at hr
  rcases hr with rfl | rfl | rfl | rfl
  · exact (W18_arr m ρ c 1).trans (((dat8 (V17 m ρ) c).arrAt_in 1 rfl _).trans (A_eq8 (V17 m ρ) c 1))
  · exact (W18_arr m ρ c 2).trans (((dat8 (V17 m ρ) c).arrAt_in 2 rfl _).trans (A_eq8 (V17 m ρ) c 2))
  · exact (W18_arr m ρ c 3).trans (((dat8 (V17 m ρ) c).arrAt_in 3 rfl _).trans (A_eq8 (V17 m ρ) c 3))
  · exact (W18_arr m ρ c 4).trans (((dat8 (V17 m ρ) c).arrAt_in 4 rfl _).trans (A_eq8 (V17 m ρ) c 4))
theorem hout_4 (c : Dev nD) : W20 m ρ c (Proc.devRef .tc main_v129) = Cert.KernelIdeal.AffineRunL3i.result (V19 m ρ) c :=
  (W20_arr m ρ c 5).trans (Cert.KernelIdeal.AffineRunL3i.final (V19 m ρ) c)
theorem hk4_4 (c : Dev nD) (r : Ref sig .tc) (hr : r ∉ [main_v122_0, main_v124, main_v128, main_arg25, main_arg26, main_v129]) :
    W20 m ρ c (Proc.devRef .tc r) = W19 m ρ c (Proc.devRef .tc r) :=
  W20_of_ne m ρ c r fun w hw => hr (hw ▸ (by decide : ∀ w : Fin 6, Pipeline.arrRef spec9 w ∈ [main_v122_0, main_v124, main_v128, main_arg25, main_arg26, main_v129]) w)
theorem hin4_4 (c : Dev nD) (r : Ref sig .tc) (hr : r ∈ [main_arg25, main_arg26]) :
    W20 m ρ c (Proc.devRef .tc r) = W19 m ρ c (Proc.devRef .tc r) := by
  simp only [List.mem_cons, List.mem_nil_iff, or_false] at hr
  rcases hr with rfl | rfl
  · exact (W20_arr m ρ c 3).trans (((dat9 (V19 m ρ) c).arrAt_in 3 rfl _).trans (A_eq9 (V19 m ρ) c 3))
  · exact (W20_arr m ρ c 4).trans (((dat9 (V19 m ρ) c).arrAt_in 4 rfl _).trans (A_eq9 (V19 m ρ) c 4))

/-- What the two regions of block 4 leave, in the shape the whole-program law takes. -/
theorem regions_4 (c : Dev nD) : Cert.KernelIdeal.KWhole.Regions_4 (W16 m ρ c) (W18 m ρ c) (W20 m ρ c) :=
  ⟨hH_4 m ρ c, hS_4 m ρ c, hQ_4 m ρ c, hk2_4 m ρ c, hin2_4 m ρ c, hout_4 m ρ c, hk4_4 m ρ c, hin4_4 m ρ c⟩

/-! ### Layer block 5: regions 10 and 11 -/

theorem hH_5 (c : Dev nD) : W22 m ρ c (Proc.devRef .tc main_v148_0) = Cert.KernelIdeal.MlpRunL3j.resultMlp (V21 m ρ) c :=
  (W22_arr m ρ c 5).trans (Cert.KernelIdeal.MlpRunL3j.final5 (V21 m ρ) c)
theorem hS_5 (c : Dev nD) : W22 m ρ c (Proc.devRef .tc main_v148_1) = Cert.KernelIdeal.MlpRunL3j.resultSum (V21 m ρ) c :=
  (W22_arr m ρ c 6).trans (Cert.KernelIdeal.MlpRunL3j.final6 (V21 m ρ) c)
theorem hQ_5 (c : Dev nD) : W22 m ρ c (Proc.devRef .tc main_v148_2) = Cert.KernelIdeal.MlpRunL3j.resultSumSq (V21 m ρ) c :=
  (W22_arr m ρ c 7).trans (Cert.KernelIdeal.MlpRunL3j.final7 (V21 m ρ) c)
theorem hk2_5 (c : Dev nD) (r : Ref sig .tc) (hr : r ∉ [main_v147, main_arg21, main_arg22, main_arg23, main_arg24, main_v148_0, main_v148_1, main_v148_2]) :
    W22 m ρ c (Proc.devRef .tc r) = W21 m ρ c (Proc.devRef .tc r) :=
  W22_of_ne m ρ c r fun w hw => hr (hw ▸ (by decide : ∀ w : Fin 8, Pipeline.arrRef spec10 w ∈ [main_v147, main_arg21, main_arg22, main_arg23, main_arg24, main_v148_0, main_v148_1, main_v148_2]) w)
theorem hin2_5 (c : Dev nD) (r : Ref sig .tc) (hr : r ∈ [main_arg21, main_arg22, main_arg23, main_arg24]) :
    W22 m ρ c (Proc.devRef .tc r) = W21 m ρ c (Proc.devRef .tc r) := by
  simp only [List.mem_cons, List.mem_nil_iff, or_false] at hr
  rcases hr with rfl | rfl | rfl | rfl
  · exact (W22_arr m ρ c 1).trans (((dat10 (V21 m ρ) c).arrAt_in 1 rfl _).trans (A_eq10 (V21 m ρ) c 1))
  · exact (W22_arr m ρ c 2).trans (((dat10 (V21 m ρ) c).arrAt_in 2 rfl _).trans (A_eq10 (V21 m ρ) c 2))
  · exact (W22_arr m ρ c 3).trans (((dat10 (V21 m ρ) c).arrAt_in 3 rfl _).trans (A_eq10 (V21 m ρ) c 3))
  · exact (W22_arr m ρ c 4).trans (((dat10 (V21 m ρ) c).arrAt_in 4 rfl _).trans (A_eq10 (V21 m ρ) c 4))
theorem hout_5 (c : Dev nD) : W24 m ρ c (Proc.devRef .tc main_v155) = Cert.KernelIdeal.AffineRunL3j.result (V23 m ρ) c :=
  (W24_arr m ρ c 5).trans (Cert.KernelIdeal.AffineRunL3j.final (V23 m ρ) c)
theorem hk4_5 (c : Dev nD) (r : Ref sig .tc) (hr : r ∉ [main_v148_0, main_v150, main_v154, main_arg25, main_arg26, main_v155]) :
    W24 m ρ c (Proc.devRef .tc r) = W23 m ρ c (Proc.devRef .tc r) :=
  W24_of_ne m ρ c r fun w hw => hr (hw ▸ (by decide : ∀ w : Fin 6, Pipeline.arrRef spec11 w ∈ [main_v148_0, main_v150, main_v154, main_arg25, main_arg26, main_v155]) w)
theorem hin4_5 (c : Dev nD) (r : Ref sig .tc) (hr : r ∈ [main_arg25, main_arg26]) :
    W24 m ρ c (Proc.devRef .tc r) = W23 m ρ c (Proc.devRef .tc r) := by
  simp only [List.mem_cons, List.mem_nil_iff, or_false] at hr
  rcases hr with rfl | rfl
  · exact (W24_arr m ρ c 3).trans (((dat11 (V23 m ρ) c).arrAt_in 3 rfl _).trans (A_eq11 (V23 m ρ) c 3))
  · exact (W24_arr m ρ c 4).trans (((dat11 (V23 m ρ) c).arrAt_in 4 rfl _).trans (A_eq11 (V23 m ρ) c 4))

/-- What the two regions of block 5 leave, in the shape the whole-program law takes. -/
theorem regions_5 (c : Dev nD) : Cert.KernelIdeal.KWhole.Regions_5 (W20 m ρ c) (W22 m ρ c) (W24 m ρ c) :=
  ⟨hH_5 m ρ c, hS_5 m ρ c, hQ_5 m ρ c, hk2_5 m ρ c, hin2_5 m ρ c, hout_5 m ρ c, hk4_5 m ρ c, hin4_5 m ρ c⟩

/-- The three result buffers at the end of the fold hold the network's results of the launch arguments. -/
theorem results [Cert.Pre_finite_inputs.Facts] (hpre : Cert.Pre_KernelIdeal m) (c : Dev nD) :
    W39 m ρ c (Proc.devRef .tc main_v305) = (Cert.Spec.net
        (m ((c : Thread nD τ).loc main_arg0) : FVec Ideal S200000x64 .f32)
        (m ((c : Thread nD τ).loc main_arg1) : FVec Ideal S200000x64 .f32)
        (m ((c : Thread nD τ).loc main_arg2) : IVec S2x3200000 32)
        (m ((c : Thread nD τ).loc main_arg3) : IVec S2x3200000 32)
        (m ((c : Thread nD τ).loc main_arg4) : IVec S200000 32)
        (m ((c : Thread nD τ).loc main_arg5) : IVec S200000 32)
        (m ((c : Thread nD τ).loc main_arg6) : FVec Ideal S_ .f32)
        (m ((c : Thread nD τ).loc main_arg7) : FVec Ideal S64x64 .f32)
        (m ((c : Thread nD τ).loc main_arg8) : FVec Ideal S64 .f32)
        (m ((c : Thread nD τ).loc main_arg9) : FVec Ideal S64x64 .f32)
        (m ((c : Thread nD τ).loc main_arg10) : FVec Ideal S64 .f32)
        (m ((c : Thread nD τ).loc main_arg11) : FVec Ideal S64 .f32)
        (m ((c : Thread nD τ).loc main_arg12) : FVec Ideal S64 .f32)
        (m ((c : Thread nD τ).loc main_arg13) : FVec Ideal S_ .f32)
        (m ((c : Thread nD τ).loc main_arg14) : FVec Ideal S64x32 .f32)
        (m ((c : Thread nD τ).loc main_arg15) : FVec Ideal S32 .f32)
        (m ((c : Thread nD τ).loc main_arg16) : FVec Ideal S32x32 .f32)
        (m ((c : Thread nD τ).loc main_arg17) : FVec Ideal S32 .f32)
        (m ((c : Thread nD τ).loc main_arg18) : FVec Ideal S32 .f32)
        (m ((c : Thread nD τ).loc main_arg19) : FVec Ideal S32 .f32)
        (m ((c : Thread nD τ).loc main_arg20) : FVec Ideal S_ .f32)
        (m ((c : Thread nD τ).loc main_arg21) : FVec Ideal S32x16 .f32)
        (m ((c : Thread nD τ).loc main_arg22) : FVec Ideal S16 .f32)
        (m ((c : Thread nD τ).loc main_arg23) : FVec Ideal S16x16 .f32)
        (m ((c : Thread nD τ).loc main_arg24) : FVec Ideal S16 .f32)
        (m ((c : Thread nD τ).loc main_arg25) : FVec Ideal S16 .f32)
        (m ((c : Thread nD τ).loc main_arg26) : FVec Ideal S16 .f32)
        (m ((c : Thread nD τ).loc main_arg27) : FVec Ideal S16x16 .f32)
        (m ((c : Thread nD τ).loc main_arg28) : FVec Ideal S16 .f32)
        (m ((c : Thread nD τ).loc main_arg29) : FVec Ideal S32x8 .f32)
        (m ((c : Thread nD τ).loc main_arg30) : FVec Ideal S8 .f32)
        (m ((c : Thread nD τ).loc main_arg31) : FVec Ideal S8x32 .f32)
        (m ((c : Thread nD τ).loc main_arg32) : FVec Ideal S32 .f32)
        (m ((c : Thread nD τ).loc main_arg33) : FVec Ideal S32x16 .f32)
        (m ((c : Thread nD τ).loc main_arg34) : FVec Ideal S16 .f32)
        (m ((c : Thread nD τ).loc main_arg35) : FVec Ideal S16x8 .f32)
        (m ((c : Thread nD τ).loc main_arg36) : FVec Ideal S8 .f32)
        (m ((c : Thread nD τ).loc main_arg37) : FVec Ideal S8x1 .f32)
        (m ((c : Thread nD τ).loc main_arg38) : FVec Ideal S1 .f32)).1
    ∧ W39 m ρ c (Proc.devRef .tc main_v294) = (Cert.Spec.net
        (m ((c : Thread nD τ).loc main_arg0) : FVec Ideal S200000x64 .f32)
        (m ((c : Thread nD τ).loc main_arg1) : FVec Ideal S200000x64 .f32)
        (m ((c : Thread nD τ).loc main_arg2) : IVec S2x3200000 32)
        (m ((c : Thread nD τ).loc main_arg3) : IVec S2x3200000 32)
        (m ((c : Thread nD τ).loc main_arg4) : IVec S200000 32)
        (m ((c : Thread nD τ).loc main_arg5) : IVec S200000 32)
        (m ((c : Thread nD τ).loc main_arg6) : FVec Ideal S_ .f32)
        (m ((c : Thread nD τ).loc main_arg7) : FVec Ideal S64x64 .f32)
        (m ((c : Thread nD τ).loc main_arg8) : FVec Ideal S64 .f32)
        (m ((c : Thread nD τ).loc main_arg9) : FVec Ideal S64x64 .f32)
        (m ((c : Thread nD τ).loc main_arg10) : FVec Ideal S64 .f32)
        (m ((c : Thread nD τ).loc main_arg11) : FVec Ideal S64 .f32)
        (m ((c : Thread nD τ).loc main_arg12) : FVec Ideal S64 .f32)
        (m ((c : Thread nD τ).loc main_arg13) : FVec Ideal S_ .f32)
        (m ((c : Thread nD τ).loc main_arg14) : FVec Ideal S64x32 .f32)
        (m ((c : Thread nD τ).loc main_arg15) : FVec Ideal S32 .f32)
        (m ((c : Thread nD τ).loc main_arg16) : FVec Ideal S32x32 .f32)
        (m ((c : Thread nD τ).loc main_arg17) : FVec Ideal S32 .f32)
        (m ((c : Thread nD τ).loc main_arg18) : FVec Ideal S32 .f32)
        (m ((c : Thread nD τ).loc main_arg19) : FVec Ideal S32 .f32)
        (m ((c : Thread nD τ).loc main_arg20) : FVec Ideal S_ .f32)
        (m ((c : Thread nD τ).loc main_arg21) : FVec Ideal S32x16 .f32)
        (m ((c : Thread nD τ).loc main_arg22) : FVec Ideal S16 .f32)
        (m ((c : Thread nD τ).loc main_arg23) : FVec Ideal S16x16 .f32)
        (m ((c : Thread nD τ).loc main_arg24) : FVec Ideal S16 .f32)
        (m ((c : Thread nD τ).loc main_arg25) : FVec Ideal S16 .f32)
        (m ((c : Thread nD τ).loc main_arg26) : FVec Ideal S16 .f32)
        (m ((c : Thread nD τ).loc main_arg27) : FVec Ideal S16x16 .f32)
        (m ((c : Thread nD τ).loc main_arg28) : FVec Ideal S16 .f32)
        (m ((c : Thread nD τ).loc main_arg29) : FVec Ideal S32x8 .f32)
        (m ((c : Thread nD τ).loc main_arg30) : FVec Ideal S8 .f32)
        (m ((c : Thread nD τ).loc main_arg31) : FVec Ideal S8x32 .f32)
        (m ((c : Thread nD τ).loc main_arg32) : FVec Ideal S32 .f32)
        (m ((c : Thread nD τ).loc main_arg33) : FVec Ideal S32x16 .f32)
        (m ((c : Thread nD τ).loc main_arg34) : FVec Ideal S16 .f32)
        (m ((c : Thread nD τ).loc main_arg35) : FVec Ideal S16x8 .f32)
        (m ((c : Thread nD τ).loc main_arg36) : FVec Ideal S8 .f32)
        (m ((c : Thread nD τ).loc main_arg37) : FVec Ideal S8x1 .f32)
        (m ((c : Thread nD τ).loc main_arg38) : FVec Ideal S1 .f32)).2.1
    ∧ W39 m ρ c (Proc.devRef .tc main_v295) = (Cert.Spec.net
        (m ((c : Thread nD τ).loc main_arg0) : FVec Ideal S200000x64 .f32)
        (m ((c : Thread nD τ).loc main_arg1) : FVec Ideal S200000x64 .f32)
        (m ((c : Thread nD τ).loc main_arg2) : IVec S2x3200000 32)
        (m ((c : Thread nD τ).loc main_arg3) : IVec S2x3200000 32)
        (m ((c : Thread nD τ).loc main_arg4) : IVec S200000 32)
        (m ((c : Thread nD τ).loc main_arg5) : IVec S200000 32)
        (m ((c : Thread nD τ).loc main_arg6) : FVec Ideal S_ .f32)
        (m ((c : Thread nD τ).loc main_arg7) : FVec Ideal S64x64 .f32)
        (m ((c : Thread nD τ).loc main_arg8) : FVec Ideal S64 .f32)
        (m ((c : Thread nD τ).loc main_arg9) : FVec Ideal S64x64 .f32)
        (m ((c : Thread nD τ).loc main_arg10) : FVec Ideal S64 .f32)
        (m ((c : Thread nD τ).loc main_arg11) : FVec Ideal S64 .f32)
        (m ((c : Thread nD τ).loc main_arg12) : FVec Ideal S64 .f32)
        (m ((c : Thread nD τ).loc main_arg13) : FVec Ideal S_ .f32)
        (m ((c : Thread nD τ).loc main_arg14) : FVec Ideal S64x32 .f32)
        (m ((c : Thread nD τ).loc main_arg15) : FVec Ideal S32 .f32)
        (m ((c : Thread nD τ).loc main_arg16) : FVec Ideal S32x32 .f32)
        (m ((c : Thread nD τ).loc main_arg17) : FVec Ideal S32 .f32)
        (m ((c : Thread nD τ).loc main_arg18) : FVec Ideal S32 .f32)
        (m ((c : Thread nD τ).loc main_arg19) : FVec Ideal S32 .f32)
        (m ((c : Thread nD τ).loc main_arg20) : FVec Ideal S_ .f32)
        (m ((c : Thread nD τ).loc main_arg21) : FVec Ideal S32x16 .f32)
        (m ((c : Thread nD τ).loc main_arg22) : FVec Ideal S16 .f32)
        (m ((c : Thread nD τ).loc main_arg23) : FVec Ideal S16x16 .f32)
        (m ((c : Thread nD τ).loc main_arg24) : FVec Ideal S16 .f32)
        (m ((c : Thread nD τ).loc main_arg25) : FVec Ideal S16 .f32)
        (m ((c : Thread nD τ).loc main_arg26) : FVec Ideal S16 .f32)
        (m ((c : Thread nD τ).loc main_arg27) : FVec Ideal S16x16 .f32)
        (m ((c : Thread nD τ).loc main_arg28) : FVec Ideal S16 .f32)
        (m ((c : Thread nD τ).loc main_arg29) : FVec Ideal S32x8 .f32)
        (m ((c : Thread nD τ).loc main_arg30) : FVec Ideal S8 .f32)
        (m ((c : Thread nD τ).loc main_arg31) : FVec Ideal S8x32 .f32)
        (m ((c : Thread nD τ).loc main_arg32) : FVec Ideal S32 .f32)
        (m ((c : Thread nD τ).loc main_arg33) : FVec Ideal S32x16 .f32)
        (m ((c : Thread nD τ).loc main_arg34) : FVec Ideal S16 .f32)
        (m ((c : Thread nD τ).loc main_arg35) : FVec Ideal S16x8 .f32)
        (m ((c : Thread nD τ).loc main_arg36) : FVec Ideal S8 .f32)
        (m ((c : Thread nD τ).loc main_arg37) : FVec Ideal S8x1 .f32)
        (m ((c : Thread nD τ).loc main_arg38) : FVec Ideal S1 .f32)).2.2 := by
  have hR := Cert.Bridge.args_real m hpre c
  rw [W39_eq m ρ c]
  exact Cert.KernelIdeal.KWhole.whole (W0 m ρ c) (W2 m ρ c) (W4 m ρ c) (W6 m ρ c) (W8 m ρ c) (W10 m ρ c) (W12 m ρ c) (W14 m ρ c) (W16 m ρ c) (W18 m ρ c) (W20 m ρ c) (W22 m ρ c) (W24 m ρ c)
    _ _ _ _ _ _ _ _ _ _ _ _ _ _ _ _ _ _ _ _ _ _ _ _ _ _ _ _ _ _ _ _ _ _ _ _ _ _ _
    rfl rfl rfl rfl rfl rfl rfl rfl rfl rfl rfl rfl rfl rfl rfl rfl rfl rfl rfl rfl rfl rfl rfl rfl rfl rfl rfl rfl rfl rfl rfl rfl rfl rfl rfl rfl rfl rfl rfl
    hR.arg0 hR.arg1 hR.arg6 hR.arg7 hR.arg8 hR.arg9 hR.arg10 hR.arg11 hR.arg12 hR.arg13 hR.arg14 hR.arg15 hR.arg16 hR.arg17 hR.arg18 hR.arg19 hR.arg20 hR.arg21 hR.arg22 hR.arg23 hR.arg24 hR.arg25 hR.arg26 hR.arg27 hR.arg28 hR.arg29 hR.arg30 hR.arg31 hR.arg32 hR.arg33 hR.arg34 hR.arg35 hR.arg36 hR.arg37 hR.arg38
    (regions_0 m ρ c) (regions_1 m ρ c) (regions_2 m ρ c) (regions_3 m ρ c) (regions_4 m ρ c) (regions_5 m ρ c)

end Cert.KernelIdeal.KChain

end
-- ==== Proof.Out.lean ====
/-
  The network's three results of the arguments as the idealized kernel program's launch memory holds them on core c:
  the value both idealized programs are shown to end with.
-/
import proofs.«120907_j71768903516484_1_alg».proof.KernelIdeal
import proofs.«120907_j71768903516484_1_alg».proof.Proof.Gen.ReferenceIdeal
import proofs.«120907_j71768903516484_1_alg».proof.Proof.Net

noncomputable section

namespace Cert.Proof

open Idealize.ShloMosaic Idealize.SL.Sem

/-- The network's results of core c's launch arguments. -/
def out (m : (ℓ : Loc Cert.KernelIdeal.nD Cert.KernelIdeal.τ Cert.KernelIdeal.sig) → Buf (Elt Ideal) ℓ) (c : Dev Cert.KernelIdeal.nD) :
    FVec Ideal Cert.ReferenceIdeal.S1000 .f32 × FVec Ideal Cert.ReferenceIdeal.S1000x16 .f32 × FVec Ideal Cert.ReferenceIdeal.S1000x16 .f32 :=
  Cert.Spec.net
        (m ((c.tc : Thread Cert.KernelIdeal.nD Cert.KernelIdeal.τ).loc Cert.KernelIdeal.main_arg0) : FVec Ideal Cert.ReferenceIdeal.S200000x64 .f32)
        (m ((c.tc : Thread Cert.KernelIdeal.nD Cert.KernelIdeal.τ).loc Cert.KernelIdeal.main_arg1) : FVec Ideal Cert.ReferenceIdeal.S200000x64 .f32)
        (m ((c.tc : Thread Cert.KernelIdeal.nD Cert.KernelIdeal.τ).loc Cert.KernelIdeal.main_arg2) : IVec Cert.ReferenceIdeal.S2x3200000 32)
        (m ((c.tc : Thread Cert.KernelIdeal.nD Cert.KernelIdeal.τ).loc Cert.KernelIdeal.main_arg3) : IVec Cert.ReferenceIdeal.S2x3200000 32)
        (m ((c.tc : Thread Cert.KernelIdeal.nD Cert.KernelIdeal.τ).loc Cert.KernelIdeal.main_arg4) : IVec Cert.ReferenceIdeal.S200000 32)
        (m ((c.tc : Thread Cert.KernelIdeal.nD Cert.KernelIdeal.τ).loc Cert.KernelIdeal.main_arg5) : IVec Cert.ReferenceIdeal.S200000 32)
        (m ((c.tc : Thread Cert.KernelIdeal.nD Cert.KernelIdeal.τ).loc Cert.KernelIdeal.main_arg6) : FVec Ideal Cert.ReferenceIdeal.S_ .f32)
        (m ((c.tc : Thread Cert.KernelIdeal.nD Cert.KernelIdeal.τ).loc Cert.KernelIdeal.main_arg7) : FVec Ideal Cert.ReferenceIdeal.S64x64 .f32)
        (m ((c.tc : Thread Cert.KernelIdeal.nD Cert.KernelIdeal.τ).loc Cert.KernelIdeal.main_arg8) : FVec Ideal Cert.ReferenceIdeal.S64 .f32)
        (m ((c.tc : Thread Cert.KernelIdeal.nD Cert.KernelIdeal.τ).loc Cert.KernelIdeal.main_arg9) : FVec Ideal Cert.ReferenceIdeal.S64x64 .f32)
        (m ((c.tc : Thread Cert.KernelIdeal.nD Cert.KernelIdeal.τ).loc Cert.KernelIdeal.main_arg10) : FVec Ideal Cert.ReferenceIdeal.S64 .f32)
        (m ((c.tc : Thread Cert.KernelIdeal.nD Cert.KernelIdeal.τ).loc Cert.KernelIdeal.main_arg11) : FVec Ideal Cert.ReferenceIdeal.S64 .f32)
        (m ((c.tc : Thread Cert.KernelIdeal.nD Cert.KernelIdeal.τ).loc Cert.KernelIdeal.main_arg12) : FVec Ideal Cert.ReferenceIdeal.S64 .f32)
        (m ((c.tc : Thread Cert.KernelIdeal.nD Cert.KernelIdeal.τ).loc Cert.KernelIdeal.main_arg13) : FVec Ideal Cert.ReferenceIdeal.S_ .f32)
        (m ((c.tc : Thread Cert.KernelIdeal.nD Cert.KernelIdeal.τ).loc Cert.KernelIdeal.main_arg14) : FVec Ideal Cert.ReferenceIdeal.S64x32 .f32)
        (m ((c.tc : Thread Cert.KernelIdeal.nD Cert.KernelIdeal.τ).loc Cert.KernelIdeal.main_arg15) : FVec Ideal Cert.ReferenceIdeal.S32 .f32)
        (m ((c.tc : Thread Cert.KernelIdeal.nD Cert.KernelIdeal.τ).loc Cert.KernelIdeal.main_arg16) : FVec Ideal Cert.ReferenceIdeal.S32x32 .f32)
        (m ((c.tc : Thread Cert.KernelIdeal.nD Cert.KernelIdeal.τ).loc Cert.KernelIdeal.main_arg17) : FVec Ideal Cert.ReferenceIdeal.S32 .f32)
        (m ((c.tc : Thread Cert.KernelIdeal.nD Cert.KernelIdeal.τ).loc Cert.KernelIdeal.main_arg18) : FVec Ideal Cert.ReferenceIdeal.S32 .f32)
        (m ((c.tc : Thread Cert.KernelIdeal.nD Cert.KernelIdeal.τ).loc Cert.KernelIdeal.main_arg19) : FVec Ideal Cert.ReferenceIdeal.S32 .f32)
        (m ((c.tc : Thread Cert.KernelIdeal.nD Cert.KernelIdeal.τ).loc Cert.KernelIdeal.main_arg20) : FVec Ideal Cert.ReferenceIdeal.S_ .f32)
        (m ((c.tc : Thread Cert.KernelIdeal.nD Cert.KernelIdeal.τ).loc Cert.KernelIdeal.main_arg21) : FVec Ideal Cert.ReferenceIdeal.S32x16 .f32)
        (m ((c.tc : Thread Cert.KernelIdeal.nD Cert.KernelIdeal.τ).loc Cert.KernelIdeal.main_arg22) : FVec Ideal Cert.ReferenceIdeal.S16 .f32)
        (m ((c.tc : Thread Cert.KernelIdeal.nD Cert.KernelIdeal.τ).loc Cert.KernelIdeal.main_arg23) : FVec Ideal Cert.ReferenceIdeal.S16x16 .f32)
        (m ((c.tc : Thread Cert.KernelIdeal.nD Cert.KernelIdeal.τ).loc Cert.KernelIdeal.main_arg24) : FVec Ideal Cert.ReferenceIdeal.S16 .f32)
        (m ((c.tc : Thread Cert.KernelIdeal.nD Cert.KernelIdeal.τ).loc Cert.KernelIdeal.main_arg25) : FVec Ideal Cert.ReferenceIdeal.S16 .f32)
        (m ((c.tc : Thread Cert.KernelIdeal.nD Cert.KernelIdeal.τ).loc Cert.KernelIdeal.main_arg26) : FVec Ideal Cert.ReferenceIdeal.S16 .f32)
        (m ((c.tc : Thread Cert.KernelIdeal.nD Cert.KernelIdeal.τ).loc Cert.KernelIdeal.main_arg27) : FVec Ideal Cert.ReferenceIdeal.S16x16 .f32)
        (m ((c.tc : Thread Cert.KernelIdeal.nD Cert.KernelIdeal.τ).loc Cert.KernelIdeal.main_arg28) : FVec Ideal Cert.ReferenceIdeal.S16 .f32)
        (m ((c.tc : Thread Cert.KernelIdeal.nD Cert.KernelIdeal.τ).loc Cert.KernelIdeal.main_arg29) : FVec Ideal Cert.ReferenceIdeal.S32x8 .f32)
        (m ((c.tc : Thread Cert.KernelIdeal.nD Cert.KernelIdeal.τ).loc Cert.KernelIdeal.main_arg30) : FVec Ideal Cert.ReferenceIdeal.S8 .f32)
        (m ((c.tc : Thread Cert.KernelIdeal.nD Cert.KernelIdeal.τ).loc Cert.KernelIdeal.main_arg31) : FVec Ideal Cert.ReferenceIdeal.S8x32 .f32)
        (m ((c.tc : Thread Cert.KernelIdeal.nD Cert.KernelIdeal.τ).loc Cert.KernelIdeal.main_arg32) : FVec Ideal Cert.ReferenceIdeal.S32 .f32)
        (m ((c.tc : Thread Cert.KernelIdeal.nD Cert.KernelIdeal.τ).loc Cert.KernelIdeal.main_arg33) : FVec Ideal Cert.ReferenceIdeal.S32x16 .f32)
        (m ((c.tc : Thread Cert.KernelIdeal.nD Cert.KernelIdeal.τ).loc Cert.KernelIdeal.main_arg34) : FVec Ideal Cert.ReferenceIdeal.S16 .f32)
        (m ((c.tc : Thread Cert.KernelIdeal.nD Cert.KernelIdeal.τ).loc Cert.KernelIdeal.main_arg35) : FVec Ideal Cert.ReferenceIdeal.S16x8 .f32)
        (m ((c.tc : Thread Cert.KernelIdeal.nD Cert.KernelIdeal.τ).loc Cert.KernelIdeal.main_arg36) : FVec Ideal Cert.ReferenceIdeal.S8 .f32)
        (m ((c.tc : Thread Cert.KernelIdeal.nD Cert.KernelIdeal.τ).loc Cert.KernelIdeal.main_arg37) : FVec Ideal Cert.ReferenceIdeal.S8x1 .f32)
        (m ((c.tc : Thread Cert.KernelIdeal.nD Cert.KernelIdeal.τ).loc Cert.KernelIdeal.main_arg38) : FVec Ideal Cert.ReferenceIdeal.S1 .f32)

end Cert.Proof

end
-- ==== Proof.KValue.lean ====
/-
  The idealized kernel program's run with its three results named: under the precondition (every float input finite)
  every weakly fair execution terminates with the three result buffers at the network's three results of the launch
  arguments and the argument arrays unchanged.
-/
import proofs.«120907_j71768903516484_1_alg».proof.Defs
import proofs.«120907_j71768903516484_1_alg».proof.Proof.Gen.KernelIdeal
import proofs.«120907_j71768903516484_1_alg».proof.Proof.Gen.ReferenceIdeal
import proofs.«120907_j71768903516484_1_alg».proof.Proof.Gen.Pre_finite_inputs
import proofs.«120907_j71768903516484_1_alg».proof.Proof.KRun
import proofs.«120907_j71768903516484_1_alg».proof.Proof.KChain
import proofs.«120907_j71768903516484_1_alg».proof.Proof.Net
import proofs.«120907_j71768903516484_1_alg».proof.Proof.Out

set_option maxRecDepth 16384

noncomputable section

namespace Cert.KernelIdeal.KValue

open Cert.KernelIdeal Cert.KernelIdeal.Gen Cert.KernelIdeal.GenP
open Idealize.ShloMosaic Idealize.ShloMosaic.TcCoe Idealize.SL.Sem

theorem run_results (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v305) = (Cert.Proof.out m c).1
      ∧ r.2.mem ((c.tc : Thread nD τ).loc main_v294) = (Cert.Proof.out m c).2.1
      ∧ r.2.mem ((c.tc : Thread nD τ).loc main_v295) = (Cert.Proof.out m c).2.2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)) :=
  (θ_run (defs (F := Ideal)) _ _).mono (fun r h c =>
    ⟨(h c _ (mem_uc main_v305 (by decide))).trans (Cert.KernelIdeal.KChain.results m ρ hpre c).1,
     (h c _ (mem_uc main_v294 (by decide))).trans (Cert.KernelIdeal.KChain.results m ρ hpre c).2.1,
     (h c _ (mem_uc main_v295 (by decide))).trans (Cert.KernelIdeal.KChain.results m ρ hpre c).2.2,
     (h c _ (mem_uc main_arg0 (by decide))).trans (W39_main_arg0 m ρ c),
     (h c _ (mem_uc main_arg1 (by decide))).trans (W39_main_arg1 m ρ c),
     (h c _ (mem_uc main_arg2 (by decide))).trans (W39_main_arg2 m ρ c),
     (h c _ (mem_uc main_arg3 (by decide))).trans (W39_main_arg3 m ρ c),
     (h c _ (mem_uc main_arg4 (by decide))).trans (W39_main_arg4 m ρ c),
     (h c _ (mem_uc main_arg5 (by decide))).trans (W39_main_arg5 m ρ c),
     (h c _ (mem_uc main_arg6 (by decide))).trans (W39_main_arg6 m ρ c),
     (h c _ (mem_uc main_arg7 (by decide))).trans (W39_main_arg7 m ρ c),
     (h c _ (mem_uc main_arg8 (by decide))).trans (W39_main_arg8 m ρ c),
     (h c _ (mem_uc main_arg9 (by decide))).trans (W39_main_arg9 m ρ c),
     (h c _ (mem_uc main_arg10 (by decide))).trans (W39_main_arg10 m ρ c),
     (h c _ (mem_uc main_arg11 (by decide))).trans (W39_main_arg11 m ρ c),
     (h c _ (mem_uc main_arg12 (by decide))).trans (W39_main_arg12 m ρ c),
     (h c _ (mem_uc main_arg13 (by decide))).trans (W39_main_arg13 m ρ c),
     (h c _ (mem_uc main_arg14 (by decide))).trans (W39_main_arg14 m ρ c),
     (h c _ (mem_uc main_arg15 (by decide))).trans (W39_main_arg15 m ρ c),
     (h c _ (mem_uc main_arg16 (by decide))).trans (W39_main_arg16 m ρ c),
     (h c _ (mem_uc main_arg17 (by decide))).trans (W39_main_arg17 m ρ c),
     (h c _ (mem_uc main_arg18 (by decide))).trans (W39_main_arg18 m ρ c),
     (h c _ (mem_uc main_arg19 (by decide))).trans (W39_main_arg19 m ρ c),
     (h c _ (mem_uc main_arg20 (by decide))).trans (W39_main_arg20 m ρ c),
     (h c _ (mem_uc main_arg21 (by decide))).trans (W39_main_arg21 m ρ c),
     (h c _ (mem_uc main_arg22 (by decide))).trans (W39_main_arg22 m ρ c),
     (h c _ (mem_uc main_arg23 (by decide))).trans (W39_main_arg23 m ρ c),
     (h c _ (mem_uc main_arg24 (by decide))).trans (W39_main_arg24 m ρ c),
     (h c _ (mem_uc main_arg25 (by decide))).trans (W39_main_arg25 m ρ c),
     (h c _ (mem_uc main_arg26 (by decide))).trans (W39_main_arg26 m ρ c),
     (h c _ (mem_uc main_arg27 (by decide))).trans (W39_main_arg27 m ρ c),
     (h c _ (mem_uc main_arg28 (by decide))).trans (W39_main_arg28 m ρ c),
     (h c _ (mem_uc main_arg29 (by decide))).trans (W39_main_arg29 m ρ c),
     (h c _ (mem_uc main_arg30 (by decide))).trans (W39_main_arg30 m ρ c),
     (h c _ (mem_uc main_arg31 (by decide))).trans (W39_main_arg31 m ρ c),
     (h c _ (mem_uc main_arg32 (by decide))).trans (W39_main_arg32 m ρ c),
     (h c _ (mem_uc main_arg33 (by decide))).trans (W39_main_arg33 m ρ c),
     (h c _ (mem_uc main_arg34 (by decide))).trans (W39_main_arg34 m ρ c),
     (h c _ (mem_uc main_arg35 (by decide))).trans (W39_main_arg35 m ρ c),
     (h c _ (mem_uc main_arg36 (by decide))).trans (W39_main_arg36 m ρ c),
     (h c _ (mem_uc main_arg37 (by decide))).trans (W39_main_arg37 m ρ c),
     (h c _ (mem_uc main_arg38 (by decide))).trans (W39_main_arg38 m ρ c)⟩)
    (Cert.KernelIdeal.KRun.run_all m ρ)

end Cert.KernelIdeal.KValue

end
-- ==== Proof.RefOps.P0.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0 of the reference's @main as a list: its 83 operations in order, a call's being the callee's over that call's buffers. -/
abbrev ops_part0 : List (HloOp τ sig (Elt F)) :=
  [ StableHlo.unary main_arg2 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg2 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v1 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 200000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v1 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst (constant S_ .f32 0x00000000#32),
    StableHlo.unary main_cst main_v11 (broadcastInDim S200000x64 ![] bcast_S_S200000x64 : (⟨S_, .f32⟩ : BufTy).Contents (Elt F) → (⟨S200000x64, .f32⟩ : BufTy).Contents (Elt F)),
    StableHlo.unary main_v3 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_1 (constant S_ .f32 0x3F800000#32),
    StableHlo.binary main_cst_1 main_arg6 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S200000x64 ![] bcast_S_S200000x64 : (⟨S_, .f32⟩ : BufTy).Contents (Elt F) → (⟨S200000x64, .f32⟩ : BufTy).Contents (Elt F)),
    StableHlo.binary main_v15 main_arg0 main_v16 (mulf : (⟨S200000x64, .f32⟩ : BufTy).Contents (Elt F) → (⟨S200000x64, .f32⟩ : BufTy).Contents (Elt F) → (⟨S200000x64, .f32⟩ : BufTy).Contents (Elt F)),
    StableHlo.binary main_v16 main_v13 main_v17 (addf : (⟨S200000x64, .f32⟩ : BufTy).Contents (Elt F) → (⟨S200000x64, .f32⟩ : BufTy).Contents (Elt F) → (⟨S200000x64, .f32⟩ : BufTy).Contents (Elt F)),
    StableHlo.binary main_v17 main_arg7 main_v18 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg8 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S200000x64 ![0, 1] bcast_S1x64_S200000x64_0_1 : (⟨S1x64, .f32⟩ : BufTy).Contents (Elt F) → (⟨S200000x64, .f32⟩ : BufTy).Contents (Elt F)),
    StableHlo.binary main_v18 main_v20 main_v21 (addf : (⟨S200000x64, .f32⟩ : BufTy).Contents (Elt F) → (⟨S200000x64, .f32⟩ : BufTy).Contents (Elt F) → (⟨S200000x64, .f32⟩ : BufTy).Contents (Elt F)),
    StableHlo.TRef.nullary main_call0.cst (constant S_ .f32 0x00000000#32),
    StableHlo.TRef.unary main_call0.cst main_call0.v0 (broadcastInDim S200000x64 ![] bcast_S_S200000x64),
    StableHlo.TRef.binary (.of main_v21) main_call0.v0 main_call0.v1 maximumf,
    StableHlo.binary main_v22 main_arg9 main_v23 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg10 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S200000x64 ![0, 1] bcast_S1x64_S200000x64_0_1 : (⟨S1x64, .f32⟩ : BufTy).Contents (Elt F) → (⟨S200000x64, .f32⟩ : BufTy).Contents (Elt F)),
    StableHlo.binary main_v23 main_v25 main_v26 (addf : (⟨S200000x64, .f32⟩ : BufTy).Contents (Elt F) → (⟨S200000x64, .f32⟩ : BufTy).Contents (Elt F) → (⟨S200000x64, .f32⟩ : BufTy).Contents (Elt F)),
    StableHlo.nullary main_cst_2 (constant S_ .f32 0x00000000#32),
    StableHlo.binary main_v26 main_cst_2 main_v27 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_3 (constant S_ .f32 0x48435000#32),
    StableHlo.unary main_cst_3 main_v28 (broadcastInDim S64 ![] bcast_S_S64 : (⟨S_, .f32⟩ : BufTy).Contents (Elt F) → (⟨S64, .f32⟩ : BufTy).Contents (Elt F)),
    StableHlo.binary main_v27 main_v28 main_v29 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call1.cst (constant S_ .f32 0x00000000#32),
    StableHlo.TRef.binary (.of main_v26) main_call1.cst main_call1.v0 (fun x v => Host.reduceAdd x v reducesTo_S200000x64_S64_d0 h_S_),
    StableHlo.TRef.unary main_call1.v0 main_call1.v1 (broadcastInDim S1x64 ![1] bcast_S64_S1x64_1),
    StableHlo.TRef.nullary main_call1.cst_0 (constant S_ .f32 0x48435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S200000x64 ![0, 1] bcast_S1x64_S200000x64_0_1),
    StableHlo.TRef.binary (.of main_v26) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x48435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S200000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v29 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S200000x64 ![0, 1] bcast_S1x64_S200000x64_0_1 : (⟨S1x64, .f32⟩ : BufTy).Contents (Elt F) → (⟨S200000x64, .f32⟩ : BufTy).Contents (Elt F)),
    StableHlo.binary main_v26 main_v32 main_v33 (subf : (⟨S200000x64, .f32⟩ : BufTy).Contents (Elt F) → (⟨S200000x64, .f32⟩ : BufTy).Contents (Elt F) → (⟨S200000x64, .f32⟩ : BufTy).Contents (Elt F)),
    StableHlo.unary main_arg11 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S200000x64 ![0, 1] bcast_S1x64_S200000x64_0_1 : (⟨S1x64, .f32⟩ : BufTy).Contents (Elt F) → (⟨S200000x64, .f32⟩ : BufTy).Contents (Elt F)),
    StableHlo.binary main_v35 main_v33 main_v36 (mulf : (⟨S200000x64, .f32⟩ : BufTy).Contents (Elt F) → (⟨S200000x64, .f32⟩ : BufTy).Contents (Elt F) → (⟨S200000x64, .f32⟩ : BufTy).Contents (Elt F)),
    StableHlo.nullary main_cst_5 (constant S_ .f32 0x3727C5AC#32),
    StableHlo.unary main_cst_5 main_v37 (broadcastInDim S64 ![] bcast_S_S64 : (⟨S_, .f32⟩ : BufTy).Contents (Elt F) → (⟨S64, .f32⟩ : BufTy).Contents (Elt F)),
    StableHlo.binary main_v30 main_v37 main_v38 (addf : (⟨S64, .f32⟩ : BufTy).Contents (Elt F) → (⟨S64, .f32⟩ : BufTy).Contents (Elt F) → (⟨S64, .f32⟩ : BufTy).Contents (Elt F)),
    StableHlo.unary main_v38 main_v39 (Host.rsqrt : (⟨S64, .f32⟩ : BufTy).Contents (Elt F) → (⟨S64, .f32⟩ : BufTy).Contents (Elt F)),
    StableHlo.unary main_v39 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S200000x64 ![0, 1] bcast_S1x64_S200000x64_0_1 : (⟨S1x64, .f32⟩ : BufTy).Contents (Elt F) → (⟨S200000x64, .f32⟩ : BufTy).Contents (Elt F)),
    StableHlo.binary main_v36 main_v41 main_v42 (mulf : (⟨S200000x64, .f32⟩ : BufTy).Contents (Elt F) → (⟨S200000x64, .f32⟩ : BufTy).Contents (Elt F) → (⟨S200000x64, .f32⟩ : BufTy).Contents (Elt F)),
    StableHlo.unary main_arg12 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S200000x64 ![0, 1] bcast_S1x64_S200000x64_0_1 : (⟨S1x64, .f32⟩ : BufTy).Contents (Elt F) → (⟨S200000x64, .f32⟩ : BufTy).Contents (Elt F)),
    StableHlo.binary main_v42 main_v44 main_v45 (addf : (⟨S200000x64, .f32⟩ : BufTy).Contents (Elt F) → (⟨S200000x64, .f32⟩ : BufTy).Contents (Elt F) → (⟨S200000x64, .f32⟩ : BufTy).Contents (Elt F)),
    StableHlo.unary main_arg3 main_v46 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v46 main_v47 rfl shapeCasts_S1x3200000_S3200000,
    StableHlo.unary main_arg3 main_v48 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v48 main_v49 rfl shapeCasts_S1x3200000_S3200000,
    StableHlo.nullary main_c_6 (constantI S_ 32 0#32),
    StableHlo.unary main_c_6 main_v50 (broadcastInDim S3200000 ![] bcast_S_S3200000 : (⟨S_, .i32⟩ : BufTy).Contents (Elt F) → (⟨S3200000, .i32⟩ : BufTy).Contents (Elt F)) ]

set_option maxRecDepth 8192 in
set_option maxHeartbeats 4000000 in
/-- The window is that straight line: the callees' definitions unfolded at their calls, both sides are one chain of steps once sequencing is reassociated. -/
theorem main_part0_eq (c : Dev nD) : main_part0 (F := F) c = seq ops_part0 := by
  simp only [main_part0, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub ..⟩

/-- The buffers the window's operations write, in order. -/
abbrev ops_part0_W : List (Ref sig .tc) := [main_v0, main_v1, main_v2, main_v3, main_c, main_v4, main_v5, main_c_0, main_v6, main_v7, main_v8, main_v9, main_v10, main_cst, main_v11, main_v12, main_v13, main_cst_1, main_v14, main_v15, main_v16, main_v17, main_v18, main_v19, main_v20, main_v21, main_call0.cst.ref, main_call0.v0.ref, main_call0.v1.ref, main_v23, main_v24, main_v25, main_v26, main_cst_2, main_v27, main_cst_3, main_v28, main_v29, main_c_4, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v31, main_v32, main_v33, main_v34, main_v35, main_v36, main_cst_5, main_v37, main_v38, main_v39, main_v40, main_v41, main_v42, main_v43, main_v44, main_v45, main_v46, main_v47, main_v48, main_v49, main_c_6, main_v50]

set_option maxRecDepth 8192 in
/-- Each operation of the window writes one buffer, the one listed at its place. -/
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P1.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1 of the reference's @main as a list: its 83 operations in order, a call's being the callee's over that call's buffers. -/
abbrev ops_part1 : List (HloOp τ sig (Elt F)) :=
  [ StableHlo.binary main_v47 main_v50 main_v51 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 200000#32),
    StableHlo.unary main_c_7 main_v52 (broadcastInDim S3200000 ![] bcast_S_S3200000 : (⟨S_, .i32⟩ : BufTy).Contents (Elt F) → (⟨S3200000, .i32⟩ : BufTy).Contents (Elt F)),
    StableHlo.binary main_v47 main_v52 main_v53 (addi : (⟨S3200000, .i32⟩ : BufTy).Contents (Elt F) → (⟨S3200000, .i32⟩ : BufTy).Contents (Elt F) → (⟨S3200000, .i32⟩ : BufTy).Contents (Elt F)),
    StableHlo.ternary main_v51 main_v53 main_v47 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v54 main_v55 (broadcastInDim S3200000x1 ![0] bcast_S3200000_S3200000x1_0 : (⟨S3200000, .i32⟩ : BufTy).Contents (Elt F) → (⟨S3200000x1, .i32⟩ : BufTy).Contents (Elt F)),
    StableHlo.binary main_arg1 main_v55 main_v56 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst_8 (constant S_ .f32 0x00000000#32),
    StableHlo.unary main_cst_8 main_v57 (broadcastInDim S200000x64 ![] bcast_S_S200000x64 : (⟨S_, .f32⟩ : BufTy).Contents (Elt F) → (⟨S200000x64, .f32⟩ : BufTy).Contents (Elt F)),
    StableHlo.unary main_v49 main_v58 (broadcastInDim S3200000x1 ![0] bcast_S3200000_S3200000x1_0 : (⟨S3200000, .i32⟩ : BufTy).Contents (Elt F) → (⟨S3200000x1, .i32⟩ : BufTy).Contents (Elt F)),
    StableHlo.ternary main_v57 main_v58 main_v56 main_v59 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_9 (constant S_ .f32 0x3F800000#32),
    StableHlo.binary main_cst_9 main_arg6 main_v60 (addf : (⟨S_, .f32⟩ : BufTy).Contents (Elt F) → (⟨S_, .f32⟩ : BufTy).Contents (Elt F) → (⟨S_, .f32⟩ : BufTy).Contents (Elt F)),
    StableHlo.unary main_v60 main_v61 (broadcastInDim S200000x64 ![] bcast_S_S200000x64 : (⟨S_, .f32⟩ : BufTy).Contents (Elt F) → (⟨S200000x64, .f32⟩ : BufTy).Contents (Elt F)),
    StableHlo.binary main_v61 main_arg1 main_v62 (mulf : (⟨S200000x64, .f32⟩ : BufTy).Contents (Elt F) → (⟨S200000x64, .f32⟩ : BufTy).Contents (Elt F) → (⟨S200000x64, .f32⟩ : BufTy).Contents (Elt F)),
    StableHlo.binary main_v62 main_v59 main_v63 (addf : (⟨S200000x64, .f32⟩ : BufTy).Contents (Elt F) → (⟨S200000x64, .f32⟩ : BufTy).Contents (Elt F) → (⟨S200000x64, .f32⟩ : BufTy).Contents (Elt F)),
    StableHlo.binary main_v63 main_arg7 main_v64 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg8 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S200000x64 ![0, 1] bcast_S1x64_S200000x64_0_1 : (⟨S1x64, .f32⟩ : BufTy).Contents (Elt F) → (⟨S200000x64, .f32⟩ : BufTy).Contents (Elt F)),
    StableHlo.binary main_v64 main_v66 main_v67 (addf : (⟨S200000x64, .f32⟩ : BufTy).Contents (Elt F) → (⟨S200000x64, .f32⟩ : BufTy).Contents (Elt F) → (⟨S200000x64, .f32⟩ : BufTy).Contents (Elt F)),
    StableHlo.TRef.nullary main_call2.cst (constant S_ .f32 0x00000000#32),
    StableHlo.TRef.unary main_call2.cst main_call2.v0 (broadcastInDim S200000x64 ![] bcast_S_S200000x64),
    StableHlo.TRef.binary (.of main_v67) main_call2.v0 main_call2.v1 maximumf,
    StableHlo.binary main_v68 main_arg9 main_v69 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg10 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S200000x64 ![0, 1] bcast_S1x64_S200000x64_0_1 : (⟨S1x64, .f32⟩ : BufTy).Contents (Elt F) → (⟨S200000x64, .f32⟩ : BufTy).Contents (Elt F)),
    StableHlo.binary main_v69 main_v71 main_v72 (addf : (⟨S200000x64, .f32⟩ : BufTy).Contents (Elt F) → (⟨S200000x64, .f32⟩ : BufTy).Contents (Elt F) → (⟨S200000x64, .f32⟩ : BufTy).Contents (Elt F)),
    StableHlo.nullary main_cst_10 (constant S_ .f32 0x00000000#32),
    StableHlo.binary main_v72 main_cst_10 main_v73 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_11 (constant S_ .f32 0x48435000#32),
    StableHlo.unary main_cst_11 main_v74 (broadcastInDim S64 ![] bcast_S_S64 : (⟨S_, .f32⟩ : BufTy).Contents (Elt F) → (⟨S64, .f32⟩ : BufTy).Contents (Elt F)),
    StableHlo.binary main_v73 main_v74 main_v75 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call3.cst (constant S_ .f32 0x00000000#32),
    StableHlo.TRef.binary (.of main_v72) main_call3.cst main_call3.v0 (fun x v => Host.reduceAdd x v reducesTo_S200000x64_S64_d0 h_S_),
    StableHlo.TRef.unary main_call3.v0 main_call3.v1 (broadcastInDim S1x64 ![1] bcast_S64_S1x64_1),
    StableHlo.TRef.nullary main_call3.cst_0 (constant S_ .f32 0x48435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S200000x64 ![0, 1] bcast_S1x64_S200000x64_0_1),
    StableHlo.TRef.binary (.of main_v72) main_call3.v4 main_call3.v5 subf,
    StableHlo.TRef.binary main_call3.v5 main_call3.v5 main_call3.v6 mulf,
    StableHlo.TRef.unary (.of main_c_12) main_call3.v7 (sitofp .f32),
    StableHlo.TRef.nullary main_call3.cst_1 (constant S_ .f32 0x48435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S200000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v75 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S200000x64 ![0, 1] bcast_S1x64_S200000x64_0_1 : (⟨S1x64, .f32⟩ : BufTy).Contents (Elt F) → (⟨S200000x64, .f32⟩ : BufTy).Contents (Elt F)),
    StableHlo.binary main_v72 main_v78 main_v79 (subf : (⟨S200000x64, .f32⟩ : BufTy).Contents (Elt F) → (⟨S200000x64, .f32⟩ : BufTy).Contents (Elt F) → (⟨S200000x64, .f32⟩ : BufTy).Contents (Elt F)),
    StableHlo.unary main_arg11 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S200000x64 ![0, 1] bcast_S1x64_S200000x64_0_1 : (⟨S1x64, .f32⟩ : BufTy).Contents (Elt F) → (⟨S200000x64, .f32⟩ : BufTy).Contents (Elt F)),
    StableHlo.binary main_v81 main_v79 main_v82 (mulf : (⟨S200000x64, .f32⟩ : BufTy).Contents (Elt F) → (⟨S200000x64, .f32⟩ : BufTy).Contents (Elt F) → (⟨S200000x64, .f32⟩ : BufTy).Contents (Elt F)),
    StableHlo.nullary main_cst_13 (constant S_ .f32 0x3727C5AC#32),
    StableHlo.unary main_cst_13 main_v83 (broadcastInDim S64 ![] bcast_S_S64 : (⟨S_, .f32⟩ : BufTy).Contents (Elt F) → (⟨S64, .f32⟩ : BufTy).Contents (Elt F)),
    StableHlo.binary main_v76 main_v83 main_v84 (addf : (⟨S64, .f32⟩ : BufTy).Contents (Elt F) → (⟨S64, .f32⟩ : BufTy).Contents (Elt F) → (⟨S64, .f32⟩ : BufTy).Contents (Elt F)),
    StableHlo.unary main_v84 main_v85 (Host.rsqrt : (⟨S64, .f32⟩ : BufTy).Contents (Elt F) → (⟨S64, .f32⟩ : BufTy).Contents (Elt F)),
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S200000x64 ![0, 1] bcast_S1x64_S200000x64_0_1 : (⟨S1x64, .f32⟩ : BufTy).Contents (Elt F) → (⟨S200000x64, .f32⟩ : BufTy).Contents (Elt F)),
    StableHlo.binary main_v82 main_v87 main_v88 (mulf : (⟨S200000x64, .f32⟩ : BufTy).Contents (Elt F) → (⟨S200000x64, .f32⟩ : BufTy).Contents (Elt F) → (⟨S200000x64, .f32⟩ : BufTy).Contents (Elt F)),
    StableHlo.unary main_arg12 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S200000x64 ![0, 1] bcast_S1x64_S200000x64_0_1 : (⟨S1x64, .f32⟩ : BufTy).Contents (Elt F) → (⟨S200000x64, .f32⟩ : BufTy).Contents (Elt F)),
    StableHlo.binary main_v88 main_v90 main_v91 (addf : (⟨S200000x64, .f32⟩ : BufTy).Contents (Elt F) → (⟨S200000x64, .f32⟩ : BufTy).Contents (Elt F) → (⟨S200000x64, .f32⟩ : BufTy).Contents (Elt F)),
    StableHlo.unary main_arg2 main_v92 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v92 main_v93 rfl shapeCasts_S1x3200000_S3200000,
    StableHlo.unary main_arg2 main_v94 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v94 main_v95 rfl shapeCasts_S1x3200000_S3200000,
    StableHlo.nullary main_c_14 (constantI S_ 32 0#32),
    StableHlo.unary main_c_14 main_v96 (broadcastInDim S3200000 ![] bcast_S_S3200000 : (⟨S_, .i32⟩ : BufTy).Contents (Elt F) → (⟨S3200000, .i32⟩ : BufTy).Contents (Elt F)),
    StableHlo.binary main_v93 main_v96 main_v97 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 200000#32),
    StableHlo.unary main_c_15 main_v98 (broadcastInDim S3200000 ![] bcast_S_S3200000 : (⟨S_, .i32⟩ : BufTy).Contents (Elt F) → (⟨S3200000, .i32⟩ : BufTy).Contents (Elt F)),
    StableHlo.binary main_v93 main_v98 main_v99 (addi : (⟨S3200000, .i32⟩ : BufTy).Contents (Elt F) → (⟨S3200000, .i32⟩ : BufTy).Contents (Elt F) → (⟨S3200000, .i32⟩ : BufTy).Contents (Elt F)),
    StableHlo.ternary main_v97 main_v99 main_v93 main_v100 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v100 main_v101 (broadcastInDim S3200000x1 ![0] bcast_S3200000_S3200000x1_0 : (⟨S3200000, .i32⟩ : BufTy).Contents (Elt F) → (⟨S3200000x1, .i32⟩ : BufTy).Contents (Elt F)) ]

set_option maxRecDepth 8192 in
set_option maxHeartbeats 4000000 in
/-- The window is that straight line: the callees' definitions unfolded at their calls, both sides are one chain of steps once sequencing is reassociated. -/
theorem main_part1_eq (c : Dev nD) : main_part1 (F := F) c = seq ops_part1 := by
  simp only [main_part1, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part1_sub : (ops_part1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩

/-- The buffers the window's operations write, in order. -/
abbrev ops_part1_W : List (Ref sig .tc) := [main_v51, main_c_7, main_v52, main_v53, main_v54, main_v55, main_v56, main_cst_8, main_v57, main_v58, main_v59, main_cst_9, main_v60, main_v61, main_v62, main_v63, main_v64, main_v65, main_v66, main_v67, main_call2.cst.ref, main_call2.v0.ref, main_call2.v1.ref, main_v69, main_v70, main_v71, main_v72, main_cst_10, main_v73, main_cst_11, main_v74, main_v75, main_c_12, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v77, main_v78, main_v79, main_v80, main_v81, main_v82, main_cst_13, main_v83, main_v84, main_v85, main_v86, main_v87, main_v88, main_v89, main_v90, main_v91, main_v92, main_v93, main_v94, main_v95, main_c_14, main_v96, main_v97, main_c_15, main_v98, main_v99, main_v100, main_v101]

set_option maxRecDepth 8192 in
/-- Each operation of the window writes one buffer, the one listed at its place. -/
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P2.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2 of the reference's @main as a list: its 83 operations in order, a call's being the callee's over that call's buffers. -/
abbrev ops_part2 : List (HloOp τ sig (Elt F)) :=
  [ StableHlo.binary main_v45 main_v101 main_v102 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst_16 (constant S_ .f32 0x00000000#32),
    StableHlo.unary main_cst_16 main_v103 (broadcastInDim S200000x64 ![] bcast_S_S200000x64 : (⟨S_, .f32⟩ : BufTy).Contents (Elt F) → (⟨S200000x64, .f32⟩ : BufTy).Contents (Elt F)),
    StableHlo.unary main_v95 main_v104 (broadcastInDim S3200000x1 ![0] bcast_S3200000_S3200000x1_0 : (⟨S3200000, .i32⟩ : BufTy).Contents (Elt F) → (⟨S3200000x1, .i32⟩ : BufTy).Contents (Elt F)),
    StableHlo.ternary main_v103 main_v104 main_v102 main_v105 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_17 (constant S_ .f32 0x3F800000#32),
    StableHlo.binary main_cst_17 main_arg13 main_v106 (addf : (⟨S_, .f32⟩ : BufTy).Contents (Elt F) → (⟨S_, .f32⟩ : BufTy).Contents (Elt F) → (⟨S_, .f32⟩ : BufTy).Contents (Elt F)),
    StableHlo.unary main_v106 main_v107 (broadcastInDim S200000x64 ![] bcast_S_S200000x64 : (⟨S_, .f32⟩ : BufTy).Contents (Elt F) → (⟨S200000x64, .f32⟩ : BufTy).Contents (Elt F)),
    StableHlo.binary main_v107 main_v45 main_v108 (mulf : (⟨S200000x64, .f32⟩ : BufTy).Contents (Elt F) → (⟨S200000x64, .f32⟩ : BufTy).Contents (Elt F) → (⟨S200000x64, .f32⟩ : BufTy).Contents (Elt F)),
    StableHlo.binary main_v108 main_v105 main_v109 (addf : (⟨S200000x64, .f32⟩ : BufTy).Contents (Elt F) → (⟨S200000x64, .f32⟩ : BufTy).Contents (Elt F) → (⟨S200000x64, .f32⟩ : BufTy).Contents (Elt F)),
    StableHlo.binary main_v109 main_arg14 main_v110 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    StableHlo.unary main_arg15 main_v111 (broadcastInDim S1x32 ![1] bcast_S32_S1x32_1 : (⟨S32, .f32⟩ : BufTy).Contents (Elt F) → (⟨S1x32, .f32⟩ : BufTy).Contents (Elt F)),
    StableHlo.unary main_v111 main_v112 (broadcastInDim S200000x32 ![0, 1] bcast_S1x32_S200000x32_0_1 : (⟨S1x32, .f32⟩ : BufTy).Contents (Elt F) → (⟨S200000x32, .f32⟩ : BufTy).Contents (Elt F)),
    StableHlo.binary main_v110 main_v112 main_v113 (addf : (⟨S200000x32, .f32⟩ : BufTy).Contents (Elt F) → (⟨S200000x32, .f32⟩ : BufTy).Contents (Elt F) → (⟨S200000x32, .f32⟩ : BufTy).Contents (Elt F)),
    StableHlo.TRef.nullary main_call4.cst (constant S_ .f32 0x00000000#32),
    StableHlo.TRef.unary main_call4.cst main_call4.v0 (broadcastInDim S200000x32 ![] bcast_S_S200000x32),
    StableHlo.TRef.binary (.of main_v113) main_call4.v0 main_call4.v1 maximumf,
    StableHlo.binary main_v114 main_arg16 main_v115 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg17 main_v116 (broadcastInDim S1x32 ![1] bcast_S32_S1x32_1 : (⟨S32, .f32⟩ : BufTy).Contents (Elt F) → (⟨S1x32, .f32⟩ : BufTy).Contents (Elt F)),
    StableHlo.unary main_v116 main_v117 (broadcastInDim S200000x32 ![0, 1] bcast_S1x32_S200000x32_0_1 : (⟨S1x32, .f32⟩ : BufTy).Contents (Elt F) → (⟨S200000x32, .f32⟩ : BufTy).Contents (Elt F)),
    StableHlo.binary main_v115 main_v117 main_v118 (addf : (⟨S200000x32, .f32⟩ : BufTy).Contents (Elt F) → (⟨S200000x32, .f32⟩ : BufTy).Contents (Elt F) → (⟨S200000x32, .f32⟩ : BufTy).Contents (Elt F)),
    StableHlo.nullary main_cst_18 (constant S_ .f32 0x00000000#32),
    StableHlo.binary main_v118 main_cst_18 main_v119 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_19 (constant S_ .f32 0x48435000#32),
    StableHlo.unary main_cst_19 main_v120 (broadcastInDim S32 ![] bcast_S_S32 : (⟨S_, .f32⟩ : BufTy).Contents (Elt F) → (⟨S32, .f32⟩ : BufTy).Contents (Elt F)),
    StableHlo.binary main_v119 main_v120 main_v121 (Host.divf : (⟨S32, .f32⟩ : BufTy).Contents (Elt F) → (⟨S32, .f32⟩ : BufTy).Contents (Elt F) → (⟨S32, .f32⟩ : BufTy).Contents (Elt F)),
    StableHlo.nullary main_c_20 (constantI S_ 32 0#32),
    StableHlo.TRef.nullary main_call5.cst (constant S_ .f32 0x00000000#32),
    StableHlo.TRef.binary (.of main_v118) main_call5.cst main_call5.v0 (fun x v => Host.reduceAdd x v reducesTo_S200000x32_S32_d0 h_S_),
    StableHlo.TRef.unary main_call5.v0 main_call5.v1 (broadcastInDim S1x32 ![1] bcast_S32_S1x32_1),
    StableHlo.TRef.nullary main_call5.cst_0 (constant S_ .f32 0x48435000#32),
    StableHlo.TRef.unary main_call5.cst_0 main_call5.v2 (broadcastInDim S1x32 ![] bcast_S_S1x32),
    StableHlo.TRef.binary main_call5.v1 main_call5.v2 main_call5.v3 Host.divf,
    StableHlo.TRef.unary main_call5.v3 main_call5.v4 (broadcastInDim S200000x32 ![0, 1] bcast_S1x32_S200000x32_0_1),
    StableHlo.TRef.binary (.of main_v118) main_call5.v4 main_call5.v5 subf,
    StableHlo.TRef.binary main_call5.v5 main_call5.v5 main_call5.v6 mulf,
    StableHlo.TRef.unary (.of main_c_20) main_call5.v7 (sitofp .f32),
    StableHlo.TRef.nullary main_call5.cst_1 (constant S_ .f32 0x48435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S200000x32_S32_d0 h_S_),
    StableHlo.TRef.unary main_call5.v8 main_call5.v10 (broadcastInDim S32 ![] bcast_S_S32),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S32 ![] bcast_S_S32),
    StableHlo.TRef.ternary main_call5.v12 main_call5.v11 main_call5.call0.v1 main_call5.call0.v2 (fun p a b => select (broadcastInDim S32 ![] bcast_S_S32 p) a b),
    StableHlo.unary main_v121 main_v123 (broadcastInDim S1x32 ![1] bcast_S32_S1x32_1 : (⟨S32, .f32⟩ : BufTy).Contents (Elt F) → (⟨S1x32, .f32⟩ : BufTy).Contents (Elt F)),
    StableHlo.unary main_v123 main_v124 (broadcastInDim S200000x32 ![0, 1] bcast_S1x32_S200000x32_0_1 : (⟨S1x32, .f32⟩ : BufTy).Contents (Elt F) → (⟨S200000x32, .f32⟩ : BufTy).Contents (Elt F)),
    StableHlo.binary main_v118 main_v124 main_v125 (subf : (⟨S200000x32, .f32⟩ : BufTy).Contents (Elt F) → (⟨S200000x32, .f32⟩ : BufTy).Contents (Elt F) → (⟨S200000x32, .f32⟩ : BufTy).Contents (Elt F)),
    StableHlo.unary main_arg18 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S200000x32 ![0, 1] bcast_S1x32_S200000x32_0_1 : (⟨S1x32, .f32⟩ : BufTy).Contents (Elt F) → (⟨S200000x32, .f32⟩ : BufTy).Contents (Elt F)),
    StableHlo.binary main_v127 main_v125 main_v128 (mulf : (⟨S200000x32, .f32⟩ : BufTy).Contents (Elt F) → (⟨S200000x32, .f32⟩ : BufTy).Contents (Elt F) → (⟨S200000x32, .f32⟩ : BufTy).Contents (Elt F)),
    StableHlo.nullary main_cst_21 (constant S_ .f32 0x3727C5AC#32),
    StableHlo.unary main_cst_21 main_v129 (broadcastInDim S32 ![] bcast_S_S32 : (⟨S_, .f32⟩ : BufTy).Contents (Elt F) → (⟨S32, .f32⟩ : BufTy).Contents (Elt F)),
    StableHlo.binary main_v122 main_v129 main_v130 (addf : (⟨S32, .f32⟩ : BufTy).Contents (Elt F) → (⟨S32, .f32⟩ : BufTy).Contents (Elt F) → (⟨S32, .f32⟩ : BufTy).Contents (Elt F)),
    StableHlo.unary main_v130 main_v131 (Host.rsqrt : (⟨S32, .f32⟩ : BufTy).Contents (Elt F) → (⟨S32, .f32⟩ : BufTy).Contents (Elt F)),
    StableHlo.unary main_v131 main_v132 (broadcastInDim S1x32 ![1] bcast_S32_S1x32_1 : (⟨S32, .f32⟩ : BufTy).Contents (Elt F) → (⟨S1x32, .f32⟩ : BufTy).Contents (Elt F)),
    StableHlo.unary main_v132 main_v133 (broadcastInDim S200000x32 ![0, 1] bcast_S1x32_S200000x32_0_1 : (⟨S1x32, .f32⟩ : BufTy).Contents (Elt F) → (⟨S200000x32, .f32⟩ : BufTy).Contents (Elt F)),
    StableHlo.binary main_v128 main_v133 main_v134 (mulf : (⟨S200000x32, .f32⟩ : BufTy).Contents (Elt F) → (⟨S200000x32, .f32⟩ : BufTy).Contents (Elt F) → (⟨S200000x32, .f32⟩ : BufTy).Contents (Elt F)),
    StableHlo.unary main_arg19 main_v135 (broadcastInDim S1x32 ![1] bcast_S32_S1x32_1 : (⟨S32, .f32⟩ : BufTy).Contents (Elt F) → (⟨S1x32, .f32⟩ : BufTy).Contents (Elt F)),
    StableHlo.unary main_v135 main_v136 (broadcastInDim S200000x32 ![0, 1] bcast_S1x32_S200000x32_0_1 : (⟨S1x32, .f32⟩ : BufTy).Contents (Elt F) → (⟨S200000x32, .f32⟩ : BufTy).Contents (Elt F)),
    StableHlo.binary main_v134 main_v136 main_v137 (addf : (⟨S200000x32, .f32⟩ : BufTy).Contents (Elt F) → (⟨S200000x32, .f32⟩ : BufTy).Contents (Elt F) → (⟨S200000x32, .f32⟩ : BufTy).Contents (Elt F)),
    StableHlo.unary main_arg3 main_v138 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v138 main_v139 rfl shapeCasts_S1x3200000_S3200000,
    StableHlo.unary main_arg3 main_v140 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v140 main_v141 rfl shapeCasts_S1x3200000_S3200000,
    StableHlo.nullary main_c_22 (constantI S_ 32 0#32),
    StableHlo.unary main_c_22 main_v142 (broadcastInDim S3200000 ![] bcast_S_S3200000 : (⟨S_, .i32⟩ : BufTy).Contents (Elt F) → (⟨S3200000, .i32⟩ : BufTy).Contents (Elt F)),
    StableHlo.binary main_v139 main_v142 main_v143 (cmpi .slt : (⟨S3200000, .i32⟩ : BufTy).Contents (Elt F) → (⟨S3200000, .i32⟩ : BufTy).Contents (Elt F) → (⟨S3200000, .i1⟩ : BufTy).Contents (Elt F)),
    StableHlo.nullary main_c_23 (constantI S_ 32 200000#32),
    StableHlo.unary main_c_23 main_v144 (broadcastInDim S3200000 ![] bcast_S_S3200000 : (⟨S_, .i32⟩ : BufTy).Contents (Elt F) → (⟨S3200000, .i32⟩ : BufTy).Contents (Elt F)),
    StableHlo.binary main_v139 main_v144 main_v145 (addi : (⟨S3200000, .i32⟩ : BufTy).Contents (Elt F) → (⟨S3200000, .i32⟩ : BufTy).Contents (Elt F) → (⟨S3200000, .i32⟩ : BufTy).Contents (Elt F)),
    StableHlo.ternary main_v143 main_v145 main_v139 main_v146 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v146 main_v147 (broadcastInDim S3200000x1 ![0] bcast_S3200000_S3200000x1_0 : (⟨S3200000, .i32⟩ : BufTy).Contents (Elt F) → (⟨S3200000x1, .i32⟩ : BufTy).Contents (Elt F)),
    StableHlo.binary main_v91 main_v147 main_v148 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst_24 (constant S_ .f32 0x00000000#32),
    StableHlo.unary main_cst_24 main_v149 (broadcastInDim S200000x64 ![] bcast_S_S200000x64 : (⟨S_, .f32⟩ : BufTy).Contents (Elt F) → (⟨S200000x64, .f32⟩ : BufTy).Contents (Elt F)),
    StableHlo.unary main_v141 main_v150 (broadcastInDim S3200000x1 ![0] bcast_S3200000_S3200000x1_0 : (⟨S3200000, .i32⟩ : BufTy).Contents (Elt F) → (⟨S3200000x1, .i32⟩ : BufTy).Contents (Elt F)),
    StableHlo.ternary main_v149 main_v150 main_v148 main_v151 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_25 (constant S_ .f32 0x3F800000#32) ]

set_option maxRecDepth 8192 in
set_option maxHeartbeats 4000000 in
/-- The window is that straight line: the callees' definitions unfolded at their calls, both sides are one chain of steps once sequencing is reassociated. -/
theorem main_part2_eq (c : Dev nD) : main_part2 (F := F) c = seq ops_part2 := by
  simp only [main_part2, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part2_sub : (ops_part2 : List (HloOp τ sig (Elt F))).Forall fun op => op.bufs ⊆ tcRefs τ sig :=
  ⟨binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub ..⟩

/-- The buffers the window's operations write, in order. -/
abbrev ops_part2_W : List (Ref sig .tc) := [main_v102, main_cst_16, main_v103, main_v104, main_v105, main_cst_17, main_v106, main_v107, main_v108, main_v109, main_v110, main_v111, main_v112, main_v113, main_call4.cst.ref, main_call4.v0.ref, main_call4.v1.ref, main_v115, main_v116, main_v117, main_v118, main_cst_18, main_v119, main_cst_19, main_v120, main_v121, main_c_20, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v123, main_v124, main_v125, main_v126, main_v127, main_v128, main_cst_21, main_v129, main_v130, main_v131, main_v132, main_v133, main_v134, main_v135, main_v136, main_v137, main_v138, main_v139, main_v140, main_v141, main_c_22, main_v142, main_v143, main_c_23, main_v144, main_v145, main_v146, main_v147, main_v148, main_cst_24, main_v149, main_v150, main_v151, main_cst_25]

set_option maxRecDepth 8192 in
/-- Each operation of the window writes one buffer, the one listed at its place. -/
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P3.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3 of the reference's @main as a list: its 83 operations in order, a call's being the callee's over that call's buffers. -/
abbrev ops_part3 : List (HloOp τ sig (Elt F)) :=
  [ StableHlo.binary main_cst_25 main_arg13 main_v152 (addf : (⟨S_, .f32⟩ : BufTy).Contents (Elt F) → (⟨S_, .f32⟩ : BufTy).Contents (Elt F) → (⟨S_, .f32⟩ : BufTy).Contents (Elt F)),
    StableHlo.unary main_v152 main_v153 (broadcastInDim S200000x64 ![] bcast_S_S200000x64 : (⟨S_, .f32⟩ : BufTy).Contents (Elt F) → (⟨S200000x64, .f32⟩ : BufTy).Contents (Elt F)),
    StableHlo.binary main_v153 main_v91 main_v154 (mulf : (⟨S200000x64, .f32⟩ : BufTy).Contents (Elt F) → (⟨S200000x64, .f32⟩ : BufTy).Contents (Elt F) → (⟨S200000x64, .f32⟩ : BufTy).Contents (Elt F)),
    StableHlo.binary main_v154 main_v151 main_v155 (addf : (⟨S200000x64, .f32⟩ : BufTy).Contents (Elt F) → (⟨S200000x64, .f32⟩ : BufTy).Contents (Elt F) → (⟨S200000x64, .f32⟩ : BufTy).Contents (Elt F)),
    StableHlo.binary main_v155 main_arg14 main_v156 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    StableHlo.unary main_arg15 main_v157 (broadcastInDim S1x32 ![1] bcast_S32_S1x32_1 : (⟨S32, .f32⟩ : BufTy).Contents (Elt F) → (⟨S1x32, .f32⟩ : BufTy).Contents (Elt F)),
    StableHlo.unary main_v157 main_v158 (broadcastInDim S200000x32 ![0, 1] bcast_S1x32_S200000x32_0_1 : (⟨S1x32, .f32⟩ : BufTy).Contents (Elt F) → (⟨S200000x32, .f32⟩ : BufTy).Contents (Elt F)),
    StableHlo.binary main_v156 main_v158 main_v159 (addf : (⟨S200000x32, .f32⟩ : BufTy).Contents (Elt F) → (⟨S200000x32, .f32⟩ : BufTy).Contents (Elt F) → (⟨S200000x32, .f32⟩ : BufTy).Contents (Elt F)),
    StableHlo.TRef.nullary main_call6.cst (constant S_ .f32 0x00000000#32),
    StableHlo.TRef.unary main_call6.cst main_call6.v0 (broadcastInDim S200000x32 ![] bcast_S_S200000x32),
    StableHlo.TRef.binary (.of main_v159) main_call6.v0 main_call6.v1 maximumf,
    StableHlo.binary main_v160 main_arg16 main_v161 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg17 main_v162 (broadcastInDim S1x32 ![1] bcast_S32_S1x32_1 : (⟨S32, .f32⟩ : BufTy).Contents (Elt F) → (⟨S1x32, .f32⟩ : BufTy).Contents (Elt F)),
    StableHlo.unary main_v162 main_v163 (broadcastInDim S200000x32 ![0, 1] bcast_S1x32_S200000x32_0_1 : (⟨S1x32, .f32⟩ : BufTy).Contents (Elt F) → (⟨S200000x32, .f32⟩ : BufTy).Contents (Elt F)),
    StableHlo.binary main_v161 main_v163 main_v164 (addf : (⟨S200000x32, .f32⟩ : BufTy).Contents (Elt F) → (⟨S200000x32, .f32⟩ : BufTy).Contents (Elt F) → (⟨S200000x32, .f32⟩ : BufTy).Contents (Elt F)),
    StableHlo.nullary main_cst_26 (constant S_ .f32 0x00000000#32),
    StableHlo.binary main_v164 main_cst_26 main_v165 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_27 (constant S_ .f32 0x48435000#32),
    StableHlo.unary main_cst_27 main_v166 (broadcastInDim S32 ![] bcast_S_S32 : (⟨S_, .f32⟩ : BufTy).Contents (Elt F) → (⟨S32, .f32⟩ : BufTy).Contents (Elt F)),
    StableHlo.binary main_v165 main_v166 main_v167 (Host.divf : (⟨S32, .f32⟩ : BufTy).Contents (Elt F) → (⟨S32, .f32⟩ : BufTy).Contents (Elt F) → (⟨S32, .f32⟩ : BufTy).Contents (Elt F)),
    StableHlo.nullary main_c_28 (constantI S_ 32 0#32),
    StableHlo.TRef.nullary main_call7.cst (constant S_ .f32 0x00000000#32),
    StableHlo.TRef.binary (.of main_v164) main_call7.cst main_call7.v0 (fun x v => Host.reduceAdd x v reducesTo_S200000x32_S32_d0 h_S_),
    StableHlo.TRef.unary main_call7.v0 main_call7.v1 (broadcastInDim S1x32 ![1] bcast_S32_S1x32_1),
    StableHlo.TRef.nullary main_call7.cst_0 (constant S_ .f32 0x48435000#32),
    StableHlo.TRef.unary main_call7.cst_0 main_call7.v2 (broadcastInDim S1x32 ![] bcast_S_S1x32),
    StableHlo.TRef.binary main_call7.v1 main_call7.v2 main_call7.v3 Host.divf,
    StableHlo.TRef.unary main_call7.v3 main_call7.v4 (broadcastInDim S200000x32 ![0, 1] bcast_S1x32_S200000x32_0_1),
    StableHlo.TRef.binary (.of main_v164) main_call7.v4 main_call7.v5 subf,
    StableHlo.TRef.binary main_call7.v5 main_call7.v5 main_call7.v6 mulf,
    StableHlo.TRef.unary (.of main_c_28) main_call7.v7 (sitofp .f32),
    StableHlo.TRef.nullary main_call7.cst_1 (constant S_ .f32 0x48435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S200000x32_S32_d0 h_S_),
    StableHlo.TRef.unary main_call7.v8 main_call7.v10 (broadcastInDim S32 ![] bcast_S_S32),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S32 ![] bcast_S_S32),
    StableHlo.TRef.ternary main_call7.v12 main_call7.v11 main_call7.call0.v1 main_call7.call0.v2 (fun p a b => select (broadcastInDim S32 ![] bcast_S_S32 p) a b),
    StableHlo.unary main_v167 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S200000x32 ![0, 1] bcast_S1x32_S200000x32_0_1 : (⟨S1x32, .f32⟩ : BufTy).Contents (Elt F) → (⟨S200000x32, .f32⟩ : BufTy).Contents (Elt F)),
    StableHlo.binary main_v164 main_v170 main_v171 (subf : (⟨S200000x32, .f32⟩ : BufTy).Contents (Elt F) → (⟨S200000x32, .f32⟩ : BufTy).Contents (Elt F) → (⟨S200000x32, .f32⟩ : BufTy).Contents (Elt F)),
    StableHlo.unary main_arg18 main_v172 (broadcastInDim S1x32 ![1] bcast_S32_S1x32_1 : (⟨S32, .f32⟩ : BufTy).Contents (Elt F) → (⟨S1x32, .f32⟩ : BufTy).Contents (Elt F)),
    StableHlo.unary main_v172 main_v173 (broadcastInDim S200000x32 ![0, 1] bcast_S1x32_S200000x32_0_1 : (⟨S1x32, .f32⟩ : BufTy).Contents (Elt F) → (⟨S200000x32, .f32⟩ : BufTy).Contents (Elt F)),
    StableHlo.binary main_v173 main_v171 main_v174 (mulf : (⟨S200000x32, .f32⟩ : BufTy).Contents (Elt F) → (⟨S200000x32, .f32⟩ : BufTy).Contents (Elt F) → (⟨S200000x32, .f32⟩ : BufTy).Contents (Elt F)),
    StableHlo.nullary main_cst_29 (constant S_ .f32 0x3727C5AC#32),
    StableHlo.unary main_cst_29 main_v175 (broadcastInDim S32 ![] bcast_S_S32 : (⟨S_, .f32⟩ : BufTy).Contents (Elt F) → (⟨S32, .f32⟩ : BufTy).Contents (Elt F)),
    StableHlo.binary main_v168 main_v175 main_v176 (addf : (⟨S32, .f32⟩ : BufTy).Contents (Elt F) → (⟨S32, .f32⟩ : BufTy).Contents (Elt F) → (⟨S32, .f32⟩ : BufTy).Contents (Elt F)),
    StableHlo.unary main_v176 main_v177 (Host.rsqrt : (⟨S32, .f32⟩ : BufTy).Contents (Elt F) → (⟨S32, .f32⟩ : BufTy).Contents (Elt F)),
    StableHlo.unary main_v177 main_v178 (broadcastInDim S1x32 ![1] bcast_S32_S1x32_1 : (⟨S32, .f32⟩ : BufTy).Contents (Elt F) → (⟨S1x32, .f32⟩ : BufTy).Contents (Elt F)),
    StableHlo.unary main_v178 main_v179 (broadcastInDim S200000x32 ![0, 1] bcast_S1x32_S200000x32_0_1 : (⟨S1x32, .f32⟩ : BufTy).Contents (Elt F) → (⟨S200000x32, .f32⟩ : BufTy).Contents (Elt F)),
    StableHlo.binary main_v174 main_v179 main_v180 (mulf : (⟨S200000x32, .f32⟩ : BufTy).Contents (Elt F) → (⟨S200000x32, .f32⟩ : BufTy).Contents (Elt F) → (⟨S200000x32, .f32⟩ : BufTy).Contents (Elt F)),
    StableHlo.unary main_arg19 main_v181 (broadcastInDim S1x32 ![1] bcast_S32_S1x32_1 : (⟨S32, .f32⟩ : BufTy).Contents (Elt F) → (⟨S1x32, .f32⟩ : BufTy).Contents (Elt F)),
    StableHlo.unary main_v181 main_v182 (broadcastInDim S200000x32 ![0, 1] bcast_S1x32_S200000x32_0_1 : (⟨S1x32, .f32⟩ : BufTy).Contents (Elt F) → (⟨S200000x32, .f32⟩ : BufTy).Contents (Elt F)),
    StableHlo.binary main_v180 main_v182 main_v183 (addf : (⟨S200000x32, .f32⟩ : BufTy).Contents (Elt F) → (⟨S200000x32, .f32⟩ : BufTy).Contents (Elt F) → (⟨S200000x32, .f32⟩ : BufTy).Contents (Elt F)),
    StableHlo.unary main_arg2 main_v184 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v184 main_v185 rfl shapeCasts_S1x3200000_S3200000,
    StableHlo.unary main_arg2 main_v186 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v186 main_v187 rfl shapeCasts_S1x3200000_S3200000,
    StableHlo.nullary main_c_30 (constantI S_ 32 0#32),
    StableHlo.unary main_c_30 main_v188 (broadcastInDim S3200000 ![] bcast_S_S3200000 : (⟨S_, .i32⟩ : BufTy).Contents (Elt F) → (⟨S3200000, .i32⟩ : BufTy).Contents (Elt F)),
    StableHlo.binary main_v185 main_v188 main_v189 (cmpi .slt : (⟨S3200000, .i32⟩ : BufTy).Contents (Elt F) → (⟨S3200000, .i32⟩ : BufTy).Contents (Elt F) → (⟨S3200000, .i1⟩ : BufTy).Contents (Elt F)),
    StableHlo.nullary main_c_31 (constantI S_ 32 200000#32),
    StableHlo.unary main_c_31 main_v190 (broadcastInDim S3200000 ![] bcast_S_S3200000 : (⟨S_, .i32⟩ : BufTy).Contents (Elt F) → (⟨S3200000, .i32⟩ : BufTy).Contents (Elt F)),
    StableHlo.binary main_v185 main_v190 main_v191 (addi : (⟨S3200000, .i32⟩ : BufTy).Contents (Elt F) → (⟨S3200000, .i32⟩ : BufTy).Contents (Elt F) → (⟨S3200000, .i32⟩ : BufTy).Contents (Elt F)),
    StableHlo.ternary main_v189 main_v191 main_v185 main_v192 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v192 main_v193 (broadcastInDim S3200000x1 ![0] bcast_S3200000_S3200000x1_0 : (⟨S3200000, .i32⟩ : BufTy).Contents (Elt F) → (⟨S3200000x1, .i32⟩ : BufTy).Contents (Elt F)),
    StableHlo.binary main_v137 main_v193 main_v194 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    StableHlo.nullary main_cst_32 (constant S_ .f32 0x00000000#32),
    StableHlo.unary main_cst_32 main_v195 (broadcastInDim S200000x32 ![] bcast_S_S200000x32 : (⟨S_, .f32⟩ : BufTy).Contents (Elt F) → (⟨S200000x32, .f32⟩ : BufTy).Contents (Elt F)),
    StableHlo.unary main_v187 main_v196 (broadcastInDim S3200000x1 ![0] bcast_S3200000_S3200000x1_0 : (⟨S3200000, .i32⟩ : BufTy).Contents (Elt F) → (⟨S3200000x1, .i32⟩ : BufTy).Contents (Elt F)),
    StableHlo.ternary main_v195 main_v196 main_v194 main_v197 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    StableHlo.nullary main_cst_33 (constant S_ .f32 0x3F800000#32),
    StableHlo.binary main_cst_33 main_arg20 main_v198 (addf : (⟨S_, .f32⟩ : BufTy).Contents (Elt F) → (⟨S_, .f32⟩ : BufTy).Contents (Elt F) → (⟨S_, .f32⟩ : BufTy).Contents (Elt F)),
    StableHlo.unary main_v198 main_v199 (broadcastInDim S200000x32 ![] bcast_S_S200000x32 : (⟨S_, .f32⟩ : BufTy).Contents (Elt F) → (⟨S200000x32, .f32⟩ : BufTy).Contents (Elt F)),
    StableHlo.binary main_v199 main_v137 main_v200 (mulf : (⟨S200000x32, .f32⟩ : BufTy).Contents (Elt F) → (⟨S200000x32, .f32⟩ : BufTy).Contents (Elt F) → (⟨S200000x32, .f32⟩ : BufTy).Contents (Elt F)),
    StableHlo.binary main_v200 main_v197 main_v201 (addf : (⟨S200000x32, .f32⟩ : BufTy).Contents (Elt F) → (⟨S200000x32, .f32⟩ : BufTy).Contents (Elt F) → (⟨S200000x32, .f32⟩ : BufTy).Contents (Elt F)),
    StableHlo.binary main_v201 main_arg21 main_v202 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    StableHlo.unary main_arg22 main_v203 (broadcastInDim S1x16 ![1] bcast_S16_S1x16_1 : (⟨S16, .f32⟩ : BufTy).Contents (Elt F) → (⟨S1x16, .f32⟩ : BufTy).Contents (Elt F)) ]

set_option maxRecDepth 8192 in
set_option maxHeartbeats 4000000 in
/-- The window is that straight line: the callees' definitions unfolded at their calls, both sides are one chain of steps once sequencing is reassociated. -/
theorem main_part3_eq (c : Dev nD) : main_part3 (F := F) c = seq ops_part3 := by
  simp only [main_part3, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part3_sub : (ops_part3 : List (HloOp τ sig (Elt F))).Forall fun op => op.bufs ⊆ tcRefs τ sig :=
  ⟨binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub ..⟩

/-- The buffers the window's operations write, in order. -/
abbrev ops_part3_W : List (Ref sig .tc) := [main_v152, main_v153, main_v154, main_v155, main_v156, main_v157, main_v158, main_v159, main_call6.cst.ref, main_call6.v0.ref, main_call6.v1.ref, main_v161, main_v162, main_v163, main_v164, main_cst_26, main_v165, main_cst_27, main_v166, main_v167, main_c_28, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v169, main_v170, main_v171, main_v172, main_v173, main_v174, main_cst_29, main_v175, main_v176, main_v177, main_v178, main_v179, main_v180, main_v181, main_v182, main_v183, main_v184, main_v185, main_v186, main_v187, main_c_30, main_v188, main_v189, main_c_31, main_v190, main_v191, main_v192, main_v193, main_v194, main_cst_32, main_v195, main_v196, main_v197, main_cst_33, main_v198, main_v199, main_v200, main_v201, main_v202, main_v203]

set_option maxRecDepth 8192 in
/-- Each operation of the window writes one buffer, the one listed at its place. -/
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P4.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 4 of the reference's @main as a list: its 85 operations in order, a call's being the callee's over that call's buffers. -/
abbrev ops_part4 : List (HloOp τ sig (Elt F)) :=
  [ StableHlo.unary main_v203 main_v204 (broadcastInDim S200000x16 ![0, 1] bcast_S1x16_S200000x16_0_1 : (⟨S1x16, .f32⟩ : BufTy).Contents (Elt F) → (⟨S200000x16, .f32⟩ : BufTy).Contents (Elt F)),
    StableHlo.binary main_v202 main_v204 main_v205 (addf : (⟨S200000x16, .f32⟩ : BufTy).Contents (Elt F) → (⟨S200000x16, .f32⟩ : BufTy).Contents (Elt F) → (⟨S200000x16, .f32⟩ : BufTy).Contents (Elt F)),
    StableHlo.TRef.nullary main_call8.cst (constant S_ .f32 0x00000000#32),
    StableHlo.TRef.unary main_call8.cst main_call8.v0 (broadcastInDim S200000x16 ![] bcast_S_S200000x16),
    StableHlo.TRef.binary (.of main_v205) main_call8.v0 main_call8.v1 maximumf,
    StableHlo.binary main_v206 main_arg23 main_v207 ((fun l r => Host.dotGeneral dot_S200000x16_S16x16_S200000x16_1_0_0_1_n_n none l r) : (⟨S200000x16, .f32⟩ : BufTy).Contents (Elt F) → (⟨S16x16, .f32⟩ : BufTy).Contents (Elt F) → (⟨S200000x16, .f32⟩ : BufTy).Contents (Elt F)),
    StableHlo.unary main_arg24 main_v208 (broadcastInDim S1x16 ![1] bcast_S16_S1x16_1 : (⟨S16, .f32⟩ : BufTy).Contents (Elt F) → (⟨S1x16, .f32⟩ : BufTy).Contents (Elt F)),
    StableHlo.unary main_v208 main_v209 (broadcastInDim S200000x16 ![0, 1] bcast_S1x16_S200000x16_0_1 : (⟨S1x16, .f32⟩ : BufTy).Contents (Elt F) → (⟨S200000x16, .f32⟩ : BufTy).Contents (Elt F)),
    StableHlo.binary main_v207 main_v209 main_v210 (addf : (⟨S200000x16, .f32⟩ : BufTy).Contents (Elt F) → (⟨S200000x16, .f32⟩ : BufTy).Contents (Elt F) → (⟨S200000x16, .f32⟩ : BufTy).Contents (Elt F)),
    StableHlo.nullary main_cst_34 (constant S_ .f32 0x00000000#32),
    StableHlo.binary main_v210 main_cst_34 main_v211 ((fun x v => Host.reduceAdd x v reducesTo_S200000x16_S16_d0 h_S_) : (⟨S200000x16, .f32⟩ : BufTy).Contents (Elt F) → (⟨S_, .f32⟩ : BufTy).Contents (Elt F) → (⟨S16, .f32⟩ : BufTy).Contents (Elt F)),
    StableHlo.nullary main_cst_35 (constant S_ .f32 0x48435000#32),
    StableHlo.unary main_cst_35 main_v212 (broadcastInDim S16 ![] bcast_S_S16 : (⟨S_, .f32⟩ : BufTy).Contents (Elt F) → (⟨S16, .f32⟩ : BufTy).Contents (Elt F)),
    StableHlo.binary main_v211 main_v212 main_v213 (Host.divf : (⟨S16, .f32⟩ : BufTy).Contents (Elt F) → (⟨S16, .f32⟩ : BufTy).Contents (Elt F) → (⟨S16, .f32⟩ : BufTy).Contents (Elt F)),
    StableHlo.nullary main_c_36 (constantI S_ 32 0#32),
    StableHlo.TRef.nullary main_call9.cst (constant S_ .f32 0x00000000#32),
    StableHlo.TRef.binary (.of main_v210) main_call9.cst main_call9.v0 (fun x v => Host.reduceAdd x v reducesTo_S200000x16_S16_d0 h_S_),
    StableHlo.TRef.unary main_call9.v0 main_call9.v1 (broadcastInDim S1x16 ![1] bcast_S16_S1x16_1),
    StableHlo.TRef.nullary main_call9.cst_0 (constant S_ .f32 0x48435000#32),
    StableHlo.TRef.unary main_call9.cst_0 main_call9.v2 (broadcastInDim S1x16 ![] bcast_S_S1x16),
    StableHlo.TRef.binary main_call9.v1 main_call9.v2 main_call9.v3 Host.divf,
    StableHlo.TRef.unary main_call9.v3 main_call9.v4 (broadcastInDim S200000x16 ![0, 1] bcast_S1x16_S200000x16_0_1),
    StableHlo.TRef.binary (.of main_v210) main_call9.v4 main_call9.v5 subf,
    StableHlo.TRef.binary main_call9.v5 main_call9.v5 main_call9.v6 mulf,
    StableHlo.TRef.unary (.of main_c_36) main_call9.v7 (sitofp .f32),
    StableHlo.TRef.nullary main_call9.cst_1 (constant S_ .f32 0x48435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S200000x16_S16_d0 h_S_),
    StableHlo.TRef.unary main_call9.v8 main_call9.v10 (broadcastInDim S16 ![] bcast_S_S16),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S16 ![] bcast_S_S16),
    StableHlo.TRef.ternary main_call9.v12 main_call9.v11 main_call9.call0.v1 main_call9.call0.v2 (fun p a b => select (broadcastInDim S16 ![] bcast_S_S16 p) a b),
    StableHlo.unary main_v213 main_v215 (broadcastInDim S1x16 ![1] bcast_S16_S1x16_1 : (⟨S16, .f32⟩ : BufTy).Contents (Elt F) → (⟨S1x16, .f32⟩ : BufTy).Contents (Elt F)),
    StableHlo.unary main_v215 main_v216 (broadcastInDim S200000x16 ![0, 1] bcast_S1x16_S200000x16_0_1 : (⟨S1x16, .f32⟩ : BufTy).Contents (Elt F) → (⟨S200000x16, .f32⟩ : BufTy).Contents (Elt F)),
    StableHlo.binary main_v210 main_v216 main_v217 (subf : (⟨S200000x16, .f32⟩ : BufTy).Contents (Elt F) → (⟨S200000x16, .f32⟩ : BufTy).Contents (Elt F) → (⟨S200000x16, .f32⟩ : BufTy).Contents (Elt F)),
    StableHlo.unary main_arg25 main_v218 (broadcastInDim S1x16 ![1] bcast_S16_S1x16_1 : (⟨S16, .f32⟩ : BufTy).Contents (Elt F) → (⟨S1x16, .f32⟩ : BufTy).Contents (Elt F)),
    StableHlo.unary main_v218 main_v219 (broadcastInDim S200000x16 ![0, 1] bcast_S1x16_S200000x16_0_1 : (⟨S1x16, .f32⟩ : BufTy).Contents (Elt F) → (⟨S200000x16, .f32⟩ : BufTy).Contents (Elt F)),
    StableHlo.binary main_v219 main_v217 main_v220 (mulf : (⟨S200000x16, .f32⟩ : BufTy).Contents (Elt F) → (⟨S200000x16, .f32⟩ : BufTy).Contents (Elt F) → (⟨S200000x16, .f32⟩ : BufTy).Contents (Elt F)),
    StableHlo.nullary main_cst_37 (constant S_ .f32 0x3727C5AC#32),
    StableHlo.unary main_cst_37 main_v221 (broadcastInDim S16 ![] bcast_S_S16 : (⟨S_, .f32⟩ : BufTy).Contents (Elt F) → (⟨S16, .f32⟩ : BufTy).Contents (Elt F)),
    StableHlo.binary main_v214 main_v221 main_v222 (addf : (⟨S16, .f32⟩ : BufTy).Contents (Elt F) → (⟨S16, .f32⟩ : BufTy).Contents (Elt F) → (⟨S16, .f32⟩ : BufTy).Contents (Elt F)),
    StableHlo.unary main_v222 main_v223 (Host.rsqrt : (⟨S16, .f32⟩ : BufTy).Contents (Elt F) → (⟨S16, .f32⟩ : BufTy).Contents (Elt F)),
    StableHlo.unary main_v223 main_v224 (broadcastInDim S1x16 ![1] bcast_S16_S1x16_1 : (⟨S16, .f32⟩ : BufTy).Contents (Elt F) → (⟨S1x16, .f32⟩ : BufTy).Contents (Elt F)),
    StableHlo.unary main_v224 main_v225 (broadcastInDim S200000x16 ![0, 1] bcast_S1x16_S200000x16_0_1 : (⟨S1x16, .f32⟩ : BufTy).Contents (Elt F) → (⟨S200000x16, .f32⟩ : BufTy).Contents (Elt F)),
    StableHlo.binary main_v220 main_v225 main_v226 (mulf : (⟨S200000x16, .f32⟩ : BufTy).Contents (Elt F) → (⟨S200000x16, .f32⟩ : BufTy).Contents (Elt F) → (⟨S200000x16, .f32⟩ : BufTy).Contents (Elt F)),
    StableHlo.unary main_arg26 main_v227 (broadcastInDim S1x16 ![1] bcast_S16_S1x16_1 : (⟨S16, .f32⟩ : BufTy).Contents (Elt F) → (⟨S1x16, .f32⟩ : BufTy).Contents (Elt F)),
    StableHlo.unary main_v227 main_v228 (broadcastInDim S200000x16 ![0, 1] bcast_S1x16_S200000x16_0_1 : (⟨S1x16, .f32⟩ : BufTy).Contents (Elt F) → (⟨S200000x16, .f32⟩ : BufTy).Contents (Elt F)),
    StableHlo.binary main_v226 main_v228 main_v229 (addf : (⟨S200000x16, .f32⟩ : BufTy).Contents (Elt F) → (⟨S200000x16, .f32⟩ : BufTy).Contents (Elt F) → (⟨S200000x16, .f32⟩ : BufTy).Contents (Elt F)),
    StableHlo.unary main_arg3 main_v230 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v230 main_v231 rfl shapeCasts_S1x3200000_S3200000,
    StableHlo.unary main_arg3 main_v232 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v232 main_v233 rfl shapeCasts_S1x3200000_S3200000,
    StableHlo.nullary main_c_38 (constantI S_ 32 0#32),
    StableHlo.unary main_c_38 main_v234 (broadcastInDim S3200000 ![] bcast_S_S3200000 : (⟨S_, .i32⟩ : BufTy).Contents (Elt F) → (⟨S3200000, .i32⟩ : BufTy).Contents (Elt F)),
    StableHlo.binary main_v231 main_v234 main_v235 (cmpi .slt : (⟨S3200000, .i32⟩ : BufTy).Contents (Elt F) → (⟨S3200000, .i32⟩ : BufTy).Contents (Elt F) → (⟨S3200000, .i1⟩ : BufTy).Contents (Elt F)),
    StableHlo.nullary main_c_39 (constantI S_ 32 200000#32),
    StableHlo.unary main_c_39 main_v236 (broadcastInDim S3200000 ![] bcast_S_S3200000 : (⟨S_, .i32⟩ : BufTy).Contents (Elt F) → (⟨S3200000, .i32⟩ : BufTy).Contents (Elt F)),
    StableHlo.binary main_v231 main_v236 main_v237 (addi : (⟨S3200000, .i32⟩ : BufTy).Contents (Elt F) → (⟨S3200000, .i32⟩ : BufTy).Contents (Elt F) → (⟨S3200000, .i32⟩ : BufTy).Contents (Elt F)),
    StableHlo.ternary main_v235 main_v237 main_v231 main_v238 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v238 main_v239 (broadcastInDim S3200000x1 ![0] bcast_S3200000_S3200000x1_0 : (⟨S3200000, .i32⟩ : BufTy).Contents (Elt F) → (⟨S3200000x1, .i32⟩ : BufTy).Contents (Elt F)),
    StableHlo.binary main_v183 main_v239 main_v240 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    StableHlo.nullary main_cst_40 (constant S_ .f32 0x00000000#32),
    StableHlo.unary main_cst_40 main_v241 (broadcastInDim S200000x32 ![] bcast_S_S200000x32 : (⟨S_, .f32⟩ : BufTy).Contents (Elt F) → (⟨S200000x32, .f32⟩ : BufTy).Contents (Elt F)),
    StableHlo.unary main_v233 main_v242 (broadcastInDim S3200000x1 ![0] bcast_S3200000_S3200000x1_0 : (⟨S3200000, .i32⟩ : BufTy).Contents (Elt F) → (⟨S3200000x1, .i32⟩ : BufTy).Contents (Elt F)),
    StableHlo.ternary main_v241 main_v242 main_v240 main_v243 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    StableHlo.nullary main_cst_41 (constant S_ .f32 0x3F800000#32),
    StableHlo.binary main_cst_41 main_arg20 main_v244 (addf : (⟨S_, .f32⟩ : BufTy).Contents (Elt F) → (⟨S_, .f32⟩ : BufTy).Contents (Elt F) → (⟨S_, .f32⟩ : BufTy).Contents (Elt F)),
    StableHlo.unary main_v244 main_v245 (broadcastInDim S200000x32 ![] bcast_S_S200000x32 : (⟨S_, .f32⟩ : BufTy).Contents (Elt F) → (⟨S200000x32, .f32⟩ : BufTy).Contents (Elt F)),
    StableHlo.binary main_v245 main_v183 main_v246 (mulf : (⟨S200000x32, .f32⟩ : BufTy).Contents (Elt F) → (⟨S200000x32, .f32⟩ : BufTy).Contents (Elt F) → (⟨S200000x32, .f32⟩ : BufTy).Contents (Elt F)),
    StableHlo.binary main_v246 main_v243 main_v247 (addf : (⟨S200000x32, .f32⟩ : BufTy).Contents (Elt F) → (⟨S200000x32, .f32⟩ : BufTy).Contents (Elt F) → (⟨S200000x32, .f32⟩ : BufTy).Contents (Elt F)),
    StableHlo.binary main_v247 main_arg21 main_v248 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    StableHlo.unary main_arg22 main_v249 (broadcastInDim S1x16 ![1] bcast_S16_S1x16_1 : (⟨S16, .f32⟩ : BufTy).Contents (Elt F) → (⟨S1x16, .f32⟩ : BufTy).Contents (Elt F)),
    StableHlo.unary main_v249 main_v250 (broadcastInDim S200000x16 ![0, 1] bcast_S1x16_S200000x16_0_1 : (⟨S1x16, .f32⟩ : BufTy).Contents (Elt F) → (⟨S200000x16, .f32⟩ : BufTy).Contents (Elt F)),
    StableHlo.binary main_v248 main_v250 main_v251 (addf : (⟨S200000x16, .f32⟩ : BufTy).Contents (Elt F) → (⟨S200000x16, .f32⟩ : BufTy).Contents (Elt F) → (⟨S200000x16, .f32⟩ : BufTy).Contents (Elt F)),
    StableHlo.TRef.nullary main_call10.cst (constant S_ .f32 0x00000000#32),
    StableHlo.TRef.unary main_call10.cst main_call10.v0 (broadcastInDim S200000x16 ![] bcast_S_S200000x16),
    StableHlo.TRef.binary (.of main_v251) main_call10.v0 main_call10.v1 maximumf,
    StableHlo.binary main_v252 main_arg23 main_v253 ((fun l r => Host.dotGeneral dot_S200000x16_S16x16_S200000x16_1_0_0_1_n_n none l r) : (⟨S200000x16, .f32⟩ : BufTy).Contents (Elt F) → (⟨S16x16, .f32⟩ : BufTy).Contents (Elt F) → (⟨S200000x16, .f32⟩ : BufTy).Contents (Elt F)),
    StableHlo.unary main_arg24 main_v254 (broadcastInDim S1x16 ![1] bcast_S16_S1x16_1 : (⟨S16, .f32⟩ : BufTy).Contents (Elt F) → (⟨S1x16, .f32⟩ : BufTy).Contents (Elt F)),
    StableHlo.unary main_v254 main_v255 (broadcastInDim S200000x16 ![0, 1] bcast_S1x16_S200000x16_0_1 : (⟨S1x16, .f32⟩ : BufTy).Contents (Elt F) → (⟨S200000x16, .f32⟩ : BufTy).Contents (Elt F)) ]

set_option maxRecDepth 8192 in
set_option maxHeartbeats 4000000 in
/-- The window is that straight line: the callees' definitions unfolded at their calls, both sides are one chain of steps once sequencing is reassociated. -/
theorem main_part4_eq (c : Dev nD) : main_part4 (F := F) c = seq ops_part4 := by
  simp only [main_part4, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part4_sub : (ops_part4 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

/-- The buffers the window's operations write, in order. -/
abbrev ops_part4_W : List (Ref sig .tc) := [main_v204, main_v205, main_call8.cst.ref, main_call8.v0.ref, main_call8.v1.ref, main_v207, main_v208, main_v209, main_v210, main_cst_34, main_v211, main_cst_35, main_v212, main_v213, main_c_36, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref, main_v215, main_v216, main_v217, main_v218, main_v219, main_v220, main_cst_37, main_v221, main_v222, main_v223, main_v224, main_v225, main_v226, main_v227, main_v228, main_v229, main_v230, main_v231, main_v232, main_v233, main_c_38, main_v234, main_v235, main_c_39, main_v236, main_v237, main_v238, main_v239, main_v240, main_cst_40, main_v241, main_v242, main_v243, main_cst_41, main_v244, main_v245, main_v246, main_v247, main_v248, main_v249, main_v250, main_v251, main_call10.cst.ref, main_call10.v0.ref, main_call10.v1.ref, main_v253, main_v254, main_v255]

set_option maxRecDepth 8192 in
/-- Each operation of the window writes one buffer, the one listed at its place. -/
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P5.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 5 of the reference's @main as a list: its 81 operations in order, a call's being the callee's over that call's buffers. -/
abbrev ops_part5 : List (HloOp τ sig (Elt F)) :=
  [ StableHlo.binary main_v253 main_v255 main_v256 (addf : (⟨S200000x16, .f32⟩ : BufTy).Contents (Elt F) → (⟨S200000x16, .f32⟩ : BufTy).Contents (Elt F) → (⟨S200000x16, .f32⟩ : BufTy).Contents (Elt F)),
    StableHlo.nullary main_cst_42 (constant S_ .f32 0x00000000#32),
    StableHlo.binary main_v256 main_cst_42 main_v257 ((fun x v => Host.reduceAdd x v reducesTo_S200000x16_S16_d0 h_S_) : (⟨S200000x16, .f32⟩ : BufTy).Contents (Elt F) → (⟨S_, .f32⟩ : BufTy).Contents (Elt F) → (⟨S16, .f32⟩ : BufTy).Contents (Elt F)),
    StableHlo.nullary main_cst_43 (constant S_ .f32 0x48435000#32),
    StableHlo.unary main_cst_43 main_v258 (broadcastInDim S16 ![] bcast_S_S16 : (⟨S_, .f32⟩ : BufTy).Contents (Elt F) → (⟨S16, .f32⟩ : BufTy).Contents (Elt F)),
    StableHlo.binary main_v257 main_v258 main_v259 (Host.divf : (⟨S16, .f32⟩ : BufTy).Contents (Elt F) → (⟨S16, .f32⟩ : BufTy).Contents (Elt F) → (⟨S16, .f32⟩ : BufTy).Contents (Elt F)),
    StableHlo.nullary main_c_44 (constantI S_ 32 0#32),
    StableHlo.TRef.nullary main_call11.cst (constant S_ .f32 0x00000000#32),
    StableHlo.TRef.binary (.of main_v256) main_call11.cst main_call11.v0 (fun x v => Host.reduceAdd x v reducesTo_S200000x16_S16_d0 h_S_),
    StableHlo.TRef.unary main_call11.v0 main_call11.v1 (broadcastInDim S1x16 ![1] bcast_S16_S1x16_1),
    StableHlo.TRef.nullary main_call11.cst_0 (constant S_ .f32 0x48435000#32),
    StableHlo.TRef.unary main_call11.cst_0 main_call11.v2 (broadcastInDim S1x16 ![] bcast_S_S1x16),
    StableHlo.TRef.binary main_call11.v1 main_call11.v2 main_call11.v3 Host.divf,
    StableHlo.TRef.unary main_call11.v3 main_call11.v4 (broadcastInDim S200000x16 ![0, 1] bcast_S1x16_S200000x16_0_1),
    StableHlo.TRef.binary (.of main_v256) main_call11.v4 main_call11.v5 subf,
    StableHlo.TRef.binary main_call11.v5 main_call11.v5 main_call11.v6 mulf,
    StableHlo.TRef.unary (.of main_c_44) main_call11.v7 (sitofp .f32),
    StableHlo.TRef.nullary main_call11.cst_1 (constant S_ .f32 0x48435000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S200000x16_S16_d0 h_S_),
    StableHlo.TRef.unary main_call11.v8 main_call11.v10 (broadcastInDim S16 ![] bcast_S_S16),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S16 ![] bcast_S_S16),
    StableHlo.TRef.ternary main_call11.v12 main_call11.v11 main_call11.call0.v1 main_call11.call0.v2 (fun p a b => select (broadcastInDim S16 ![] bcast_S_S16 p) a b),
    StableHlo.unary main_v259 main_v261 (broadcastInDim S1x16 ![1] bcast_S16_S1x16_1 : (⟨S16, .f32⟩ : BufTy).Contents (Elt F) → (⟨S1x16, .f32⟩ : BufTy).Contents (Elt F)),
    StableHlo.unary main_v261 main_v262 (broadcastInDim S200000x16 ![0, 1] bcast_S1x16_S200000x16_0_1 : (⟨S1x16, .f32⟩ : BufTy).Contents (Elt F) → (⟨S200000x16, .f32⟩ : BufTy).Contents (Elt F)),
    StableHlo.binary main_v256 main_v262 main_v263 (subf : (⟨S200000x16, .f32⟩ : BufTy).Contents (Elt F) → (⟨S200000x16, .f32⟩ : BufTy).Contents (Elt F) → (⟨S200000x16, .f32⟩ : BufTy).Contents (Elt F)),
    StableHlo.unary main_arg25 main_v264 (broadcastInDim S1x16 ![1] bcast_S16_S1x16_1 : (⟨S16, .f32⟩ : BufTy).Contents (Elt F) → (⟨S1x16, .f32⟩ : BufTy).Contents (Elt F)),
    StableHlo.unary main_v264 main_v265 (broadcastInDim S200000x16 ![0, 1] bcast_S1x16_S200000x16_0_1 : (⟨S1x16, .f32⟩ : BufTy).Contents (Elt F) → (⟨S200000x16, .f32⟩ : BufTy).Contents (Elt F)),
    StableHlo.binary main_v265 main_v263 main_v266 (mulf : (⟨S200000x16, .f32⟩ : BufTy).Contents (Elt F) → (⟨S200000x16, .f32⟩ : BufTy).Contents (Elt F) → (⟨S200000x16, .f32⟩ : BufTy).Contents (Elt F)),
    StableHlo.nullary main_cst_45 (constant S_ .f32 0x3727C5AC#32),
    StableHlo.unary main_cst_45 main_v267 (broadcastInDim S16 ![] bcast_S_S16 : (⟨S_, .f32⟩ : BufTy).Contents (Elt F) → (⟨S16, .f32⟩ : BufTy).Contents (Elt F)),
    StableHlo.binary main_v260 main_v267 main_v268 (addf : (⟨S16, .f32⟩ : BufTy).Contents (Elt F) → (⟨S16, .f32⟩ : BufTy).Contents (Elt F) → (⟨S16, .f32⟩ : BufTy).Contents (Elt F)),
    StableHlo.unary main_v268 main_v269 (Host.rsqrt : (⟨S16, .f32⟩ : BufTy).Contents (Elt F) → (⟨S16, .f32⟩ : BufTy).Contents (Elt F)),
    StableHlo.unary main_v269 main_v270 (broadcastInDim S1x16 ![1] bcast_S16_S1x16_1 : (⟨S16, .f32⟩ : BufTy).Contents (Elt F) → (⟨S1x16, .f32⟩ : BufTy).Contents (Elt F)),
    StableHlo.unary main_v270 main_v271 (broadcastInDim S200000x16 ![0, 1] bcast_S1x16_S200000x16_0_1 : (⟨S1x16, .f32⟩ : BufTy).Contents (Elt F) → (⟨S200000x16, .f32⟩ : BufTy).Contents (Elt F)),
    StableHlo.binary main_v266 main_v271 main_v272 (mulf : (⟨S200000x16, .f32⟩ : BufTy).Contents (Elt F) → (⟨S200000x16, .f32⟩ : BufTy).Contents (Elt F) → (⟨S200000x16, .f32⟩ : BufTy).Contents (Elt F)),
    StableHlo.unary main_arg26 main_v273 (broadcastInDim S1x16 ![1] bcast_S16_S1x16_1 : (⟨S16, .f32⟩ : BufTy).Contents (Elt F) → (⟨S1x16, .f32⟩ : BufTy).Contents (Elt F)),
    StableHlo.unary main_v273 main_v274 (broadcastInDim S200000x16 ![0, 1] bcast_S1x16_S200000x16_0_1 : (⟨S1x16, .f32⟩ : BufTy).Contents (Elt F) → (⟨S200000x16, .f32⟩ : BufTy).Contents (Elt F)),
    StableHlo.binary main_v272 main_v274 main_v275 (addf : (⟨S200000x16, .f32⟩ : BufTy).Contents (Elt F) → (⟨S200000x16, .f32⟩ : BufTy).Contents (Elt F) → (⟨S200000x16, .f32⟩ : BufTy).Contents (Elt F)),
    StableHlo.nullary main_cst_46 (constant S_ .f32 0x3F800000#32),
    StableHlo.unary main_cst_46 main_v276 (broadcastInDim S200000x1 ![] bcast_S_S200000x1 : (⟨S_, .f32⟩ : BufTy).Contents (Elt F) → (⟨S200000x1, .f32⟩ : BufTy).Contents (Elt F)),
    StableHlo.nullary main_cst_47 (constant S_ .f32 0x00000000#32),
    StableHlo.unary main_cst_47 main_v277 (broadcastInDim S1000x1 ![] bcast_S_S1000x1 : (⟨S_, .f32⟩ : BufTy).Contents (Elt F) → (⟨S1000x1, .f32⟩ : BufTy).Contents (Elt F)),
    StableHlo.unary main_arg4 main_v278 (broadcastInDim S200000x1 ![0] bcast_S200000_S200000x1_0 : (⟨S200000, .i32⟩ : BufTy).Contents (Elt F) → (⟨S200000x1, .i32⟩ : BufTy).Contents (Elt F)),
    StableHlo.ternary main_v277 main_v278 main_v276 main_v279 ((fun x i u => Host.scatterAdd scatter_S1000x1_S200000x1_S200000x1_1_0_0_1 x i u) : (⟨S1000x1, .f32⟩ : BufTy).Contents (Elt F) → (⟨S200000x1, .i32⟩ : BufTy).Contents (Elt F) → (⟨S200000x1, .f32⟩ : BufTy).Contents (Elt F) → (⟨S1000x1, .f32⟩ : BufTy).Contents (Elt F)),
    StableHlo.nullary main_cst_48 (constant S_ .f32 0x00000000#32),
    StableHlo.unary main_cst_48 main_v280 (broadcastInDim S1000x16 ![] bcast_S_S1000x16 : (⟨S_, .f32⟩ : BufTy).Contents (Elt F) → (⟨S1000x16, .f32⟩ : BufTy).Contents (Elt F)),
    StableHlo.unary main_arg4 main_v281 (broadcastInDim S200000x1 ![0] bcast_S200000_S200000x1_0 : (⟨S200000, .i32⟩ : BufTy).Contents (Elt F) → (⟨S200000x1, .i32⟩ : BufTy).Contents (Elt F)),
    StableHlo.ternary main_v280 main_v281 main_v229 main_v282 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.nullary main_cst_49 (constant S_ .f32 0x3F800000#32),
    StableHlo.unary main_cst_49 main_v283 (broadcastInDim S1000x1 ![] bcast_S_S1000x1 : (⟨S_, .f32⟩ : BufTy).Contents (Elt F) → (⟨S1000x1, .f32⟩ : BufTy).Contents (Elt F)),
    StableHlo.binary main_v279 main_v283 main_v284 (maximumf : (⟨S1000x1, .f32⟩ : BufTy).Contents (Elt F) → (⟨S1000x1, .f32⟩ : BufTy).Contents (Elt F) → (⟨S1000x1, .f32⟩ : BufTy).Contents (Elt F)),
    StableHlo.unary main_v284 main_v285 (broadcastInDim S1000x16 ![0, 1] bcast_S1000x1_S1000x16_0_1 : (⟨S1000x1, .f32⟩ : BufTy).Contents (Elt F) → (⟨S1000x16, .f32⟩ : BufTy).Contents (Elt F)),
    StableHlo.binary main_v282 main_v285 main_v286 (Host.divf : (⟨S1000x16, .f32⟩ : BufTy).Contents (Elt F) → (⟨S1000x16, .f32⟩ : BufTy).Contents (Elt F) → (⟨S1000x16, .f32⟩ : BufTy).Contents (Elt F)),
    StableHlo.binary main_v286 main_arg27 main_v287 ((fun l r => Host.dotGeneral dot_S1000x16_S16x16_S1000x16_1_0_0_1_n_n none l r) : (⟨S1000x16, .f32⟩ : BufTy).Contents (Elt F) → (⟨S16x16, .f32⟩ : BufTy).Contents (Elt F) → (⟨S1000x16, .f32⟩ : BufTy).Contents (Elt F)),
    StableHlo.unary main_arg28 main_v288 (broadcastInDim S1x16 ![1] bcast_S16_S1x16_1 : (⟨S16, .f32⟩ : BufTy).Contents (Elt F) → (⟨S1x16, .f32⟩ : BufTy).Contents (Elt F)),
    StableHlo.unary main_v288 main_v289 (broadcastInDim S1000x16 ![0, 1] bcast_S1x16_S1000x16_0_1 : (⟨S1x16, .f32⟩ : BufTy).Contents (Elt F) → (⟨S1000x16, .f32⟩ : BufTy).Contents (Elt F)),
    StableHlo.binary main_v287 main_v289 main_v290 (addf : (⟨S1000x16, .f32⟩ : BufTy).Contents (Elt F) → (⟨S1000x16, .f32⟩ : BufTy).Contents (Elt F) → (⟨S1000x16, .f32⟩ : BufTy).Contents (Elt F)),
    StableHlo.unary main_v290 main_v291 (Host.negf : (⟨S1000x16, .f32⟩ : BufTy).Contents (Elt F) → (⟨S1000x16, .f32⟩ : BufTy).Contents (Elt F)),
    StableHlo.unary main_v291 main_v292 (Host.exp : (⟨S1000x16, .f32⟩ : BufTy).Contents (Elt F) → (⟨S1000x16, .f32⟩ : BufTy).Contents (Elt F)),
    StableHlo.nullary main_cst_50 (constant S_ .f32 0x3F800000#32),
    StableHlo.unary main_cst_50 main_v293 (broadcastInDim S1000x16 ![] bcast_S_S1000x16 : (⟨S_, .f32⟩ : BufTy).Contents (Elt F) → (⟨S1000x16, .f32⟩ : BufTy).Contents (Elt F)),
    StableHlo.binary main_v293 main_v292 main_v294 (addf : (⟨S1000x16, .f32⟩ : BufTy).Contents (Elt F) → (⟨S1000x16, .f32⟩ : BufTy).Contents (Elt F) → (⟨S1000x16, .f32⟩ : BufTy).Contents (Elt F)),
    StableHlo.nullary main_cst_51 (constant S_ .f32 0x3F800000#32),
    StableHlo.unary main_cst_51 main_v295 (broadcastInDim S1000x16 ![] bcast_S_S1000x16 : (⟨S_, .f32⟩ : BufTy).Contents (Elt F) → (⟨S1000x16, .f32⟩ : BufTy).Contents (Elt F)),
    StableHlo.binary main_v295 main_v294 main_v296 (Host.divf : (⟨S1000x16, .f32⟩ : BufTy).Contents (Elt F) → (⟨S1000x16, .f32⟩ : BufTy).Contents (Elt F) → (⟨S1000x16, .f32⟩ : BufTy).Contents (Elt F)),
    StableHlo.nullary main_c_52 (constantI S_ 32 0#32),
    StableHlo.unary main_c_52 main_v297 (broadcastInDim S200000 ![] bcast_S_S200000 : (⟨S_, .i32⟩ : BufTy).Contents (Elt F) → (⟨S200000, .i32⟩ : BufTy).Contents (Elt F)),
    StableHlo.binary main_arg4 main_v297 main_v298 (cmpi .slt : (⟨S200000, .i32⟩ : BufTy).Contents (Elt F) → (⟨S200000, .i32⟩ : BufTy).Contents (Elt F) → (⟨S200000, .i1⟩ : BufTy).Contents (Elt F)),
    StableHlo.nullary main_c_53 (constantI S_ 32 1000#32),
    StableHlo.unary main_c_53 main_v299 (broadcastInDim S200000 ![] bcast_S_S200000 : (⟨S_, .i32⟩ : BufTy).Contents (Elt F) → (⟨S200000, .i32⟩ : BufTy).Contents (Elt F)),
    StableHlo.binary main_arg4 main_v299 main_v300 (addi : (⟨S200000, .i32⟩ : BufTy).Contents (Elt F) → (⟨S200000, .i32⟩ : BufTy).Contents (Elt F) → (⟨S200000, .i32⟩ : BufTy).Contents (Elt F)),
    StableHlo.ternary main_v298 main_v300 main_arg4 main_v301 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v301 main_v302 (broadcastInDim S200000x1 ![0] bcast_S200000_S200000x1_0 : (⟨S200000, .i32⟩ : BufTy).Contents (Elt F) → (⟨S200000x1, .i32⟩ : BufTy).Contents (Elt F)),
    StableHlo.binary main_v296 main_v302 main_v303 ((fun x i => Host.gather gather_S1000x16_S200000x1_S200000x16_1_0_n_n_0_1_116 x i) : (⟨S1000x16, .f32⟩ : BufTy).Contents (Elt F) → (⟨S200000x1, .i32⟩ : BufTy).Contents (Elt F) → (⟨S200000x16, .f32⟩ : BufTy).Contents (Elt F)) ]

set_option maxRecDepth 8192 in
set_option maxHeartbeats 4000000 in
/-- The window is that straight line: the callees' definitions unfolded at their calls, both sides are one chain of steps once sequencing is reassociated. -/
theorem main_part5_eq (c : Dev nD) : main_part5 (F := F) c = seq ops_part5 := by
  simp only [main_part5, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part5_sub : (ops_part5 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The buffers the window's operations write, in order. -/
abbrev ops_part5_W : List (Ref sig .tc) := [main_v256, main_cst_42, main_v257, main_cst_43, main_v258, main_v259, main_c_44, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.cst_3.ref, main_call11.v12.ref, main_call11.cst_4.ref, main_call11.call0.v0.ref, main_call11.call0.v1.ref, main_call11.call0.v2.ref, main_v261, main_v262, main_v263, main_v264, main_v265, main_v266, main_cst_45, main_v267, main_v268, main_v269, main_v270, main_v271, main_v272, main_v273, main_v274, main_v275, main_cst_46, main_v276, main_cst_47, main_v277, main_v278, main_v279, main_cst_48, main_v280, main_v281, main_v282, main_cst_49, main_v283, main_v284, main_v285, main_v286, main_v287, main_v288, main_v289, main_v290, main_v291, main_v292, main_cst_50, main_v293, main_v294, main_cst_51, main_v295, main_v296, main_c_52, main_v297, main_v298, main_c_53, main_v299, main_v300, main_v301, main_v302, main_v303]

set_option maxRecDepth 8192 in
/-- Each operation of the window writes one buffer, the one listed at its place. -/
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P6.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 6 of the reference's @main as a list: its 60 operations in order, a call's being the callee's over that call's buffers. -/
abbrev ops_part6 : List (HloOp τ sig (Elt F)) :=
  [ StableHlo.binary main_v229 main_v303 main_v304 (mulf : (⟨S200000x16, .f32⟩ : BufTy).Contents (Elt F) → (⟨S200000x16, .f32⟩ : BufTy).Contents (Elt F) → (⟨S200000x16, .f32⟩ : BufTy).Contents (Elt F)),
    StableHlo.nullary main_cst_54 (constant S_ .f32 0x00000000#32),
    StableHlo.binary main_v304 main_cst_54 main_v305 ((fun x v => Host.reduceAdd x v reducesTo_S200000x16_S200000_d1 h_S_) : (⟨S200000x16, .f32⟩ : BufTy).Contents (Elt F) → (⟨S_, .f32⟩ : BufTy).Contents (Elt F) → (⟨S200000, .f32⟩ : BufTy).Contents (Elt F)),
    StableHlo.unary main_v305 main_v306 (broadcastInDim S200000x1 ![0] bcast_S200000_S200000x1_0 : (⟨S200000, .f32⟩ : BufTy).Contents (Elt F) → (⟨S200000x1, .f32⟩ : BufTy).Contents (Elt F)),
    StableHlo.unary main_v306 main_v307 (Host.negf : (⟨S200000x1, .f32⟩ : BufTy).Contents (Elt F) → (⟨S200000x1, .f32⟩ : BufTy).Contents (Elt F)),
    StableHlo.unary main_v307 main_v308 (Host.exp : (⟨S200000x1, .f32⟩ : BufTy).Contents (Elt F) → (⟨S200000x1, .f32⟩ : BufTy).Contents (Elt F)),
    StableHlo.nullary main_cst_55 (constant S_ .f32 0x3F800000#32),
    StableHlo.unary main_cst_55 main_v309 (broadcastInDim S200000x1 ![] bcast_S_S200000x1 : (⟨S_, .f32⟩ : BufTy).Contents (Elt F) → (⟨S200000x1, .f32⟩ : BufTy).Contents (Elt F)),
    StableHlo.binary main_v309 main_v308 main_v310 (addf : (⟨S200000x1, .f32⟩ : BufTy).Contents (Elt F) → (⟨S200000x1, .f32⟩ : BufTy).Contents (Elt F) → (⟨S200000x1, .f32⟩ : BufTy).Contents (Elt F)),
    StableHlo.nullary main_cst_56 (constant S_ .f32 0x3F800000#32),
    StableHlo.unary main_cst_56 main_v311 (broadcastInDim S200000x1 ![] bcast_S_S200000x1 : (⟨S_, .f32⟩ : BufTy).Contents (Elt F) → (⟨S200000x1, .f32⟩ : BufTy).Contents (Elt F)),
    StableHlo.binary main_v311 main_v310 main_v312 (Host.divf : (⟨S200000x1, .f32⟩ : BufTy).Contents (Elt F) → (⟨S200000x1, .f32⟩ : BufTy).Contents (Elt F) → (⟨S200000x1, .f32⟩ : BufTy).Contents (Elt F)),
    StableHlo.unary main_v312 main_v313 (broadcastInDim S200000x16 ![0, 1] bcast_S200000x1_S200000x16_0_1 : (⟨S200000x1, .f32⟩ : BufTy).Contents (Elt F) → (⟨S200000x16, .f32⟩ : BufTy).Contents (Elt F)),
    StableHlo.binary main_v313 main_v229 main_v314 (mulf : (⟨S200000x16, .f32⟩ : BufTy).Contents (Elt F) → (⟨S200000x16, .f32⟩ : BufTy).Contents (Elt F) → (⟨S200000x16, .f32⟩ : BufTy).Contents (Elt F)),
    StableHlo.nullary main_cst_57 (constant S_ .f32 0x00000000#32),
    StableHlo.unary main_cst_57 main_v315 (broadcastInDim S1000x16 ![] bcast_S_S1000x16 : (⟨S_, .f32⟩ : BufTy).Contents (Elt F) → (⟨S1000x16, .f32⟩ : BufTy).Contents (Elt F)),
    StableHlo.unary main_arg4 main_v316 (broadcastInDim S200000x1 ![0] bcast_S200000_S200000x1_0 : (⟨S200000, .i32⟩ : BufTy).Contents (Elt F) → (⟨S200000x1, .i32⟩ : BufTy).Contents (Elt F)),
    StableHlo.ternary main_v315 main_v316 main_v314 main_v317 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.nullary main_cst_58 (constant S_ .f32 0x3F800000#32),
    StableHlo.unary main_cst_58 main_v318 (broadcastInDim S200000x1 ![] bcast_S_S200000x1 : (⟨S_, .f32⟩ : BufTy).Contents (Elt F) → (⟨S200000x1, .f32⟩ : BufTy).Contents (Elt F)),
    StableHlo.nullary main_cst_59 (constant S_ .f32 0x00000000#32),
    StableHlo.unary main_cst_59 main_v319 (broadcastInDim S1000x1 ![] bcast_S_S1000x1 : (⟨S_, .f32⟩ : BufTy).Contents (Elt F) → (⟨S1000x1, .f32⟩ : BufTy).Contents (Elt F)),
    StableHlo.unary main_arg5 main_v320 (broadcastInDim S200000x1 ![0] bcast_S200000_S200000x1_0 : (⟨S200000, .i32⟩ : BufTy).Contents (Elt F) → (⟨S200000x1, .i32⟩ : BufTy).Contents (Elt F)),
    StableHlo.ternary main_v319 main_v320 main_v318 main_v321 ((fun x i u => Host.scatterAdd scatter_S1000x1_S200000x1_S200000x1_1_0_0_1 x i u) : (⟨S1000x1, .f32⟩ : BufTy).Contents (Elt F) → (⟨S200000x1, .i32⟩ : BufTy).Contents (Elt F) → (⟨S200000x1, .f32⟩ : BufTy).Contents (Elt F) → (⟨S1000x1, .f32⟩ : BufTy).Contents (Elt F)),
    StableHlo.nullary main_cst_60 (constant S_ .f32 0x00000000#32),
    StableHlo.unary main_cst_60 main_v322 (broadcastInDim S1000x16 ![] bcast_S_S1000x16 : (⟨S_, .f32⟩ : BufTy).Contents (Elt F) → (⟨S1000x16, .f32⟩ : BufTy).Contents (Elt F)),
    StableHlo.unary main_arg5 main_v323 (broadcastInDim S200000x1 ![0] bcast_S200000_S200000x1_0 : (⟨S200000, .i32⟩ : BufTy).Contents (Elt F) → (⟨S200000x1, .i32⟩ : BufTy).Contents (Elt F)),
    StableHlo.ternary main_v322 main_v323 main_v275 main_v324 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.nullary main_cst_61 (constant S_ .f32 0x3F800000#32),
    StableHlo.unary main_cst_61 main_v325 (broadcastInDim S1000x1 ![] bcast_S_S1000x1 : (⟨S_, .f32⟩ : BufTy).Contents (Elt F) → (⟨S1000x1, .f32⟩ : BufTy).Contents (Elt F)),
    StableHlo.binary main_v321 main_v325 main_v326 (maximumf : (⟨S1000x1, .f32⟩ : BufTy).Contents (Elt F) → (⟨S1000x1, .f32⟩ : BufTy).Contents (Elt F) → (⟨S1000x1, .f32⟩ : BufTy).Contents (Elt F)),
    StableHlo.unary main_v326 main_v327 (broadcastInDim S1000x16 ![0, 1] bcast_S1000x1_S1000x16_0_1 : (⟨S1000x1, .f32⟩ : BufTy).Contents (Elt F) → (⟨S1000x16, .f32⟩ : BufTy).Contents (Elt F)),
    StableHlo.binary main_v324 main_v327 main_v328 (Host.divf : (⟨S1000x16, .f32⟩ : BufTy).Contents (Elt F) → (⟨S1000x16, .f32⟩ : BufTy).Contents (Elt F) → (⟨S1000x16, .f32⟩ : BufTy).Contents (Elt F)),
    StableHlo.binary main_v328 main_arg27 main_v329 ((fun l r => Host.dotGeneral dot_S1000x16_S16x16_S1000x16_1_0_0_1_n_n none l r) : (⟨S1000x16, .f32⟩ : BufTy).Contents (Elt F) → (⟨S16x16, .f32⟩ : BufTy).Contents (Elt F) → (⟨S1000x16, .f32⟩ : BufTy).Contents (Elt F)),
    StableHlo.unary main_arg28 main_v330 (broadcastInDim S1x16 ![1] bcast_S16_S1x16_1 : (⟨S16, .f32⟩ : BufTy).Contents (Elt F) → (⟨S1x16, .f32⟩ : BufTy).Contents (Elt F)),
    StableHlo.unary main_v330 main_v331 (broadcastInDim S1000x16 ![0, 1] bcast_S1x16_S1000x16_0_1 : (⟨S1x16, .f32⟩ : BufTy).Contents (Elt F) → (⟨S1000x16, .f32⟩ : BufTy).Contents (Elt F)),
    StableHlo.binary main_v329 main_v331 main_v332 (addf : (⟨S1000x16, .f32⟩ : BufTy).Contents (Elt F) → (⟨S1000x16, .f32⟩ : BufTy).Contents (Elt F) → (⟨S1000x16, .f32⟩ : BufTy).Contents (Elt F)),
    StableHlo.unary main_v332 main_v333 (Host.negf : (⟨S1000x16, .f32⟩ : BufTy).Contents (Elt F) → (⟨S1000x16, .f32⟩ : BufTy).Contents (Elt F)),
    StableHlo.unary main_v333 main_v334 (Host.exp : (⟨S1000x16, .f32⟩ : BufTy).Contents (Elt F) → (⟨S1000x16, .f32⟩ : BufTy).Contents (Elt F)),
    StableHlo.nullary main_cst_62 (constant S_ .f32 0x3F800000#32),
    StableHlo.unary main_cst_62 main_v335 (broadcastInDim S1000x16 ![] bcast_S_S1000x16 : (⟨S_, .f32⟩ : BufTy).Contents (Elt F) → (⟨S1000x16, .f32⟩ : BufTy).Contents (Elt F)),
    StableHlo.binary main_v335 main_v334 main_v336 (addf : (⟨S1000x16, .f32⟩ : BufTy).Contents (Elt F) → (⟨S1000x16, .f32⟩ : BufTy).Contents (Elt F) → (⟨S1000x16, .f32⟩ : BufTy).Contents (Elt F)),
    StableHlo.nullary main_cst_63 (constant S_ .f32 0x3F800000#32),
    StableHlo.unary main_cst_63 main_v337 (broadcastInDim S1000x16 ![] bcast_S_S1000x16 : (⟨S_, .f32⟩ : BufTy).Contents (Elt F) → (⟨S1000x16, .f32⟩ : BufTy).Contents (Elt F)),
    StableHlo.binary main_v337 main_v336 main_v338 (Host.divf : (⟨S1000x16, .f32⟩ : BufTy).Contents (Elt F) → (⟨S1000x16, .f32⟩ : BufTy).Contents (Elt F) → (⟨S1000x16, .f32⟩ : BufTy).Contents (Elt F)),
    StableHlo.nullary main_c_64 (constantI S_ 32 0#32),
    StableHlo.unary main_c_64 main_v339 (broadcastInDim S200000 ![] bcast_S_S200000 : (⟨S_, .i32⟩ : BufTy).Contents (Elt F) → (⟨S200000, .i32⟩ : BufTy).Contents (Elt F)),
    StableHlo.binary main_arg5 main_v339 main_v340 (cmpi .slt : (⟨S200000, .i32⟩ : BufTy).Contents (Elt F) → (⟨S200000, .i32⟩ : BufTy).Contents (Elt F) → (⟨S200000, .i1⟩ : BufTy).Contents (Elt F)),
    StableHlo.nullary main_c_65 (constantI S_ 32 1000#32),
    StableHlo.unary main_c_65 main_v341 (broadcastInDim S200000 ![] bcast_S_S200000 : (⟨S_, .i32⟩ : BufTy).Contents (Elt F) → (⟨S200000, .i32⟩ : BufTy).Contents (Elt F)),
    StableHlo.binary main_arg5 main_v341 main_v342 (addi : (⟨S200000, .i32⟩ : BufTy).Contents (Elt F) → (⟨S200000, .i32⟩ : BufTy).Contents (Elt F) → (⟨S200000, .i32⟩ : BufTy).Contents (Elt F)),
    StableHlo.ternary main_v340 main_v342 main_arg5 main_v343 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v343 main_v344 (broadcastInDim S200000x1 ![0] bcast_S200000_S200000x1_0 : (⟨S200000, .i32⟩ : BufTy).Contents (Elt F) → (⟨S200000x1, .i32⟩ : BufTy).Contents (Elt F)),
    StableHlo.binary main_v338 main_v344 main_v345 ((fun x i => Host.gather gather_S1000x16_S200000x1_S200000x16_1_0_n_n_0_1_116 x i) : (⟨S1000x16, .f32⟩ : BufTy).Contents (Elt F) → (⟨S200000x1, .i32⟩ : BufTy).Contents (Elt F) → (⟨S200000x16, .f32⟩ : BufTy).Contents (Elt F)),
    StableHlo.binary main_v275 main_v345 main_v346 (mulf : (⟨S200000x16, .f32⟩ : BufTy).Contents (Elt F) → (⟨S200000x16, .f32⟩ : BufTy).Contents (Elt F) → (⟨S200000x16, .f32⟩ : BufTy).Contents (Elt F)),
    StableHlo.nullary main_cst_66 (constant S_ .f32 0x00000000#32),
    StableHlo.binary main_v346 main_cst_66 main_v347 ((fun x v => Host.reduceAdd x v reducesTo_S200000x16_S200000_d1 h_S_) : (⟨S200000x16, .f32⟩ : BufTy).Contents (Elt F) → (⟨S_, .f32⟩ : BufTy).Contents (Elt F) → (⟨S200000, .f32⟩ : BufTy).Contents (Elt F)),
    StableHlo.unary main_v347 main_v348 (broadcastInDim S200000x1 ![0] bcast_S200000_S200000x1_0 : (⟨S200000, .f32⟩ : BufTy).Contents (Elt F) → (⟨S200000x1, .f32⟩ : BufTy).Contents (Elt F)),
    StableHlo.unary main_v348 main_v349 (Host.negf : (⟨S200000x1, .f32⟩ : BufTy).Contents (Elt F) → (⟨S200000x1, .f32⟩ : BufTy).Contents (Elt F)),
    StableHlo.unary main_v349 main_v350 (Host.exp : (⟨S200000x1, .f32⟩ : BufTy).Contents (Elt F) → (⟨S200000x1, .f32⟩ : BufTy).Contents (Elt F)) ]

set_option maxRecDepth 8192 in
set_option maxHeartbeats 4000000 in
/-- The window is that straight line: the callees' definitions unfolded at their calls, both sides are one chain of steps once sequencing is reassociated. -/
theorem main_part6_eq (c : Dev nD) : main_part6 (F := F) c = seq ops_part6 := by
  simp only [main_part6, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part6_sub : (ops_part6 : List (HloOp τ sig (Elt F))).Forall fun op => op.bufs ⊆ tcRefs τ sig :=
  ⟨binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub ..⟩

/-- The buffers the window's operations write, in order. -/
abbrev ops_part6_W : List (Ref sig .tc) := [main_v304, main_cst_54, main_v305, main_v306, main_v307, main_v308, main_cst_55, main_v309, main_v310, main_cst_56, main_v311, main_v312, main_v313, main_v314, main_cst_57, main_v315, main_v316, main_v317, main_cst_58, main_v318, main_cst_59, main_v319, main_v320, main_v321, main_cst_60, main_v322, main_v323, main_v324, main_cst_61, main_v325, main_v326, main_v327, main_v328, main_v329, main_v330, main_v331, main_v332, main_v333, main_v334, main_cst_62, main_v335, main_v336, main_cst_63, main_v337, main_v338, main_c_64, main_v339, main_v340, main_c_65, main_v341, main_v342, main_v343, main_v344, main_v345, main_v346, main_cst_66, main_v347, main_v348, main_v349, main_v350]

set_option maxRecDepth 8192 in
/-- Each operation of the window writes one buffer, the one listed at its place. -/
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P7.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 7 of the reference's @main as a list: its 70 operations in order, a call's being the callee's over that call's buffers. -/
abbrev ops_part7 : List (HloOp τ sig (Elt F)) :=
  [ StableHlo.nullary main_cst_67 (constant S_ .f32 0x3F800000#32),
    StableHlo.unary main_cst_67 main_v351 (broadcastInDim S200000x1 ![] bcast_S_S200000x1 : (⟨S_, .f32⟩ : BufTy).Contents (Elt F) → (⟨S200000x1, .f32⟩ : BufTy).Contents (Elt F)),
    StableHlo.binary main_v351 main_v350 main_v352 (addf : (⟨S200000x1, .f32⟩ : BufTy).Contents (Elt F) → (⟨S200000x1, .f32⟩ : BufTy).Contents (Elt F) → (⟨S200000x1, .f32⟩ : BufTy).Contents (Elt F)),
    StableHlo.nullary main_cst_68 (constant S_ .f32 0x3F800000#32),
    StableHlo.unary main_cst_68 main_v353 (broadcastInDim S200000x1 ![] bcast_S_S200000x1 : (⟨S_, .f32⟩ : BufTy).Contents (Elt F) → (⟨S200000x1, .f32⟩ : BufTy).Contents (Elt F)),
    StableHlo.binary main_v353 main_v352 main_v354 (Host.divf : (⟨S200000x1, .f32⟩ : BufTy).Contents (Elt F) → (⟨S200000x1, .f32⟩ : BufTy).Contents (Elt F) → (⟨S200000x1, .f32⟩ : BufTy).Contents (Elt F)),
    StableHlo.unary main_v354 main_v355 (broadcastInDim S200000x16 ![0, 1] bcast_S200000x1_S200000x16_0_1 : (⟨S200000x1, .f32⟩ : BufTy).Contents (Elt F) → (⟨S200000x16, .f32⟩ : BufTy).Contents (Elt F)),
    StableHlo.binary main_v355 main_v275 main_v356 (mulf : (⟨S200000x16, .f32⟩ : BufTy).Contents (Elt F) → (⟨S200000x16, .f32⟩ : BufTy).Contents (Elt F) → (⟨S200000x16, .f32⟩ : BufTy).Contents (Elt F)),
    StableHlo.nullary main_cst_69 (constant S_ .f32 0x00000000#32),
    StableHlo.unary main_cst_69 main_v357 (broadcastInDim S1000x16 ![] bcast_S_S1000x16 : (⟨S_, .f32⟩ : BufTy).Contents (Elt F) → (⟨S1000x16, .f32⟩ : BufTy).Contents (Elt F)),
    StableHlo.unary main_arg5 main_v358 (broadcastInDim S200000x1 ![0] bcast_S200000_S200000x1_0 : (⟨S200000, .i32⟩ : BufTy).Contents (Elt F) → (⟨S200000x1, .i32⟩ : BufTy).Contents (Elt F)),
    StableHlo.ternary main_v357 main_v358 main_v356 main_v359 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.binary main_v317 main_v359 main_v360 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v360 main_arg29 main_v361 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v362 (broadcastInDim S1x8 ![1] bcast_S8_S1x8_1 : (⟨S8, .f32⟩ : BufTy).Contents (Elt F) → (⟨S1x8, .f32⟩ : BufTy).Contents (Elt F)),
    StableHlo.unary main_v362 main_v363 (broadcastInDim S1000x8 ![0, 1] bcast_S1x8_S1000x8_0_1 : (⟨S1x8, .f32⟩ : BufTy).Contents (Elt F) → (⟨S1000x8, .f32⟩ : BufTy).Contents (Elt F)),
    StableHlo.binary main_v361 main_v363 main_v364 (addf : (⟨S1000x8, .f32⟩ : BufTy).Contents (Elt F) → (⟨S1000x8, .f32⟩ : BufTy).Contents (Elt F) → (⟨S1000x8, .f32⟩ : BufTy).Contents (Elt F)),
    StableHlo.TRef.nullary main_call12.cst (constant S_ .f32 0x00000000#32),
    StableHlo.TRef.unary main_call12.cst main_call12.v0 (broadcastInDim S1000x8 ![] bcast_S_S1000x8),
    StableHlo.TRef.binary (.of main_v364) main_call12.v0 main_call12.v1 maximumf,
    StableHlo.binary main_v365 main_arg31 main_v366 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v367 (broadcastInDim S1x32 ![1] bcast_S32_S1x32_1 : (⟨S32, .f32⟩ : BufTy).Contents (Elt F) → (⟨S1x32, .f32⟩ : BufTy).Contents (Elt F)),
    StableHlo.unary main_v367 main_v368 (broadcastInDim S1000x32 ![0, 1] bcast_S1x32_S1000x32_0_1 : (⟨S1x32, .f32⟩ : BufTy).Contents (Elt F) → (⟨S1000x32, .f32⟩ : BufTy).Contents (Elt F)),
    StableHlo.binary main_v366 main_v368 main_v369 (addf : (⟨S1000x32, .f32⟩ : BufTy).Contents (Elt F) → (⟨S1000x32, .f32⟩ : BufTy).Contents (Elt F) → (⟨S1000x32, .f32⟩ : BufTy).Contents (Elt F)),
    StableHlo.unary main_v369 main_v370 (Host.tanh : (⟨S1000x32, .f32⟩ : BufTy).Contents (Elt F) → (⟨S1000x32, .f32⟩ : BufTy).Contents (Elt F)),
    StableHlo.binary main_v370 main_v360 main_v371 (mulf : (⟨S1000x32, .f32⟩ : BufTy).Contents (Elt F) → (⟨S1000x32, .f32⟩ : BufTy).Contents (Elt F) → (⟨S1000x32, .f32⟩ : BufTy).Contents (Elt F)),
    StableHlo.binary main_v371 main_v360 main_v372 (addf : (⟨S1000x32, .f32⟩ : BufTy).Contents (Elt F) → (⟨S1000x32, .f32⟩ : BufTy).Contents (Elt F) → (⟨S1000x32, .f32⟩ : BufTy).Contents (Elt F)),
    StableHlo.binary main_v372 main_arg33 main_v373 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v374 (broadcastInDim S1x16 ![1] bcast_S16_S1x16_1 : (⟨S16, .f32⟩ : BufTy).Contents (Elt F) → (⟨S1x16, .f32⟩ : BufTy).Contents (Elt F)),
    StableHlo.unary main_v374 main_v375 (broadcastInDim S1000x16 ![0, 1] bcast_S1x16_S1000x16_0_1 : (⟨S1x16, .f32⟩ : BufTy).Contents (Elt F) → (⟨S1000x16, .f32⟩ : BufTy).Contents (Elt F)),
    StableHlo.binary main_v373 main_v375 main_v376 (addf : (⟨S1000x16, .f32⟩ : BufTy).Contents (Elt F) → (⟨S1000x16, .f32⟩ : BufTy).Contents (Elt F) → (⟨S1000x16, .f32⟩ : BufTy).Contents (Elt F)),
    StableHlo.TRef.nullary main_call13.cst (constant S_ .f32 0x00000000#32),
    StableHlo.TRef.unary main_call13.cst main_call13.v0 (broadcastInDim S1000x16 ![] bcast_S_S1000x16),
    StableHlo.TRef.binary (.of main_v376) main_call13.v0 main_call13.v1 maximumf,
    StableHlo.binary main_v317 main_v317 main_v378 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v378 main_arg29 main_v379 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v380 (broadcastInDim S1x8 ![1] bcast_S8_S1x8_1 : (⟨S8, .f32⟩ : BufTy).Contents (Elt F) → (⟨S1x8, .f32⟩ : BufTy).Contents (Elt F)),
    StableHlo.unary main_v380 main_v381 (broadcastInDim S1000x8 ![0, 1] bcast_S1x8_S1000x8_0_1 : (⟨S1x8, .f32⟩ : BufTy).Contents (Elt F) → (⟨S1000x8, .f32⟩ : BufTy).Contents (Elt F)),
    StableHlo.binary main_v379 main_v381 main_v382 (addf : (⟨S1000x8, .f32⟩ : BufTy).Contents (Elt F) → (⟨S1000x8, .f32⟩ : BufTy).Contents (Elt F) → (⟨S1000x8, .f32⟩ : BufTy).Contents (Elt F)),
    StableHlo.TRef.nullary main_call14.cst (constant S_ .f32 0x00000000#32),
    StableHlo.TRef.unary main_call14.cst main_call14.v0 (broadcastInDim S1000x8 ![] bcast_S_S1000x8),
    StableHlo.TRef.binary (.of main_v382) main_call14.v0 main_call14.v1 maximumf,
    StableHlo.binary main_v383 main_arg31 main_v384 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v385 (broadcastInDim S1x32 ![1] bcast_S32_S1x32_1 : (⟨S32, .f32⟩ : BufTy).Contents (Elt F) → (⟨S1x32, .f32⟩ : BufTy).Contents (Elt F)),
    StableHlo.unary main_v385 main_v386 (broadcastInDim S1000x32 ![0, 1] bcast_S1x32_S1000x32_0_1 : (⟨S1x32, .f32⟩ : BufTy).Contents (Elt F) → (⟨S1000x32, .f32⟩ : BufTy).Contents (Elt F)),
    StableHlo.binary main_v384 main_v386 main_v387 (addf : (⟨S1000x32, .f32⟩ : BufTy).Contents (Elt F) → (⟨S1000x32, .f32⟩ : BufTy).Contents (Elt F) → (⟨S1000x32, .f32⟩ : BufTy).Contents (Elt F)),
    StableHlo.unary main_v387 main_v388 (Host.tanh : (⟨S1000x32, .f32⟩ : BufTy).Contents (Elt F) → (⟨S1000x32, .f32⟩ : BufTy).Contents (Elt F)),
    StableHlo.binary main_v388 main_v378 main_v389 (mulf : (⟨S1000x32, .f32⟩ : BufTy).Contents (Elt F) → (⟨S1000x32, .f32⟩ : BufTy).Contents (Elt F) → (⟨S1000x32, .f32⟩ : BufTy).Contents (Elt F)),
    StableHlo.binary main_v389 main_v378 main_v390 (addf : (⟨S1000x32, .f32⟩ : BufTy).Contents (Elt F) → (⟨S1000x32, .f32⟩ : BufTy).Contents (Elt F) → (⟨S1000x32, .f32⟩ : BufTy).Contents (Elt F)),
    StableHlo.binary main_v390 main_arg33 main_v391 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v392 (broadcastInDim S1x16 ![1] bcast_S16_S1x16_1 : (⟨S16, .f32⟩ : BufTy).Contents (Elt F) → (⟨S1x16, .f32⟩ : BufTy).Contents (Elt F)),
    StableHlo.unary main_v392 main_v393 (broadcastInDim S1000x16 ![0, 1] bcast_S1x16_S1000x16_0_1 : (⟨S1x16, .f32⟩ : BufTy).Contents (Elt F) → (⟨S1000x16, .f32⟩ : BufTy).Contents (Elt F)),
    StableHlo.binary main_v391 main_v393 main_v394 (addf : (⟨S1000x16, .f32⟩ : BufTy).Contents (Elt F) → (⟨S1000x16, .f32⟩ : BufTy).Contents (Elt F) → (⟨S1000x16, .f32⟩ : BufTy).Contents (Elt F)),
    StableHlo.TRef.nullary main_call15.cst (constant S_ .f32 0x00000000#32),
    StableHlo.TRef.unary main_call15.cst main_call15.v0 (broadcastInDim S1000x16 ![] bcast_S_S1000x16),
    StableHlo.TRef.binary (.of main_v394) main_call15.v0 main_call15.v1 maximumf,
    StableHlo.binary main_v359 main_v359 main_v396 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v396 main_arg29 main_v397 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v398 (broadcastInDim S1x8 ![1] bcast_S8_S1x8_1 : (⟨S8, .f32⟩ : BufTy).Contents (Elt F) → (⟨S1x8, .f32⟩ : BufTy).Contents (Elt F)),
    StableHlo.unary main_v398 main_v399 (broadcastInDim S1000x8 ![0, 1] bcast_S1x8_S1000x8_0_1 : (⟨S1x8, .f32⟩ : BufTy).Contents (Elt F) → (⟨S1000x8, .f32⟩ : BufTy).Contents (Elt F)),
    StableHlo.binary main_v397 main_v399 main_v400 (addf : (⟨S1000x8, .f32⟩ : BufTy).Contents (Elt F) → (⟨S1000x8, .f32⟩ : BufTy).Contents (Elt F) → (⟨S1000x8, .f32⟩ : BufTy).Contents (Elt F)),
    StableHlo.TRef.nullary main_call16.cst (constant S_ .f32 0x00000000#32),
    StableHlo.TRef.unary main_call16.cst main_call16.v0 (broadcastInDim S1000x8 ![] bcast_S_S1000x8),
    StableHlo.TRef.binary (.of main_v400) main_call16.v0 main_call16.v1 maximumf,
    StableHlo.binary main_v401 main_arg31 main_v402 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v403 (broadcastInDim S1x32 ![1] bcast_S32_S1x32_1 : (⟨S32, .f32⟩ : BufTy).Contents (Elt F) → (⟨S1x32, .f32⟩ : BufTy).Contents (Elt F)),
    StableHlo.unary main_v403 main_v404 (broadcastInDim S1000x32 ![0, 1] bcast_S1x32_S1000x32_0_1 : (⟨S1x32, .f32⟩ : BufTy).Contents (Elt F) → (⟨S1000x32, .f32⟩ : BufTy).Contents (Elt F)),
    StableHlo.binary main_v402 main_v404 main_v405 (addf : (⟨S1000x32, .f32⟩ : BufTy).Contents (Elt F) → (⟨S1000x32, .f32⟩ : BufTy).Contents (Elt F) → (⟨S1000x32, .f32⟩ : BufTy).Contents (Elt F)),
    StableHlo.unary main_v405 main_v406 (Host.tanh : (⟨S1000x32, .f32⟩ : BufTy).Contents (Elt F) → (⟨S1000x32, .f32⟩ : BufTy).Contents (Elt F)),
    StableHlo.binary main_v406 main_v396 main_v407 (mulf : (⟨S1000x32, .f32⟩ : BufTy).Contents (Elt F) → (⟨S1000x32, .f32⟩ : BufTy).Contents (Elt F) → (⟨S1000x32, .f32⟩ : BufTy).Contents (Elt F)) ]

set_option maxRecDepth 8192 in
set_option maxHeartbeats 4000000 in
/-- The window is that straight line: the callees' definitions unfolded at their calls, both sides are one chain of steps once sequencing is reassociated. -/
theorem main_part7_eq (c : Dev nD) : main_part7 (F := F) c = seq ops_part7 := by
  simp only [main_part7, fn_relu.body, fn_relu_0.body, fn_relu_3.body, fn_relu_6.body, fn_relu_7.body, fn_var.body, fn_var_1.body, fn_var_4.body, fn_where.body, fn_where_2.body, fn_where_5.body, seq, bind_assoc, pure_bind]
  rfl

set_option maxRecDepth 8192 in
/-- Every operation of the window touches TensorCore buffers only. -/
theorem ops_part7_sub : (ops_part7 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub ..⟩

/-- The buffers the window's operations write, in order. -/
abbrev ops_part7_W : List (Ref sig .tc) := [main_cst_67, main_v351, main_v352, main_cst_68, main_v353, main_v354, main_v355, main_v356, main_cst_69, main_v357, main_v358, main_v359, main_v360, main_v361, main_v362, main_v363, main_v364, main_call12.cst.ref, main_call12.v0.ref, main_call12.v1.ref, main_v366, main_v367, main_v368, main_v369, main_v370, main_v371, main_v372, main_v373, main_v374, main_v375, main_v376, main_call13.cst.ref, main_call13.v0.ref, main_call13.v1.ref, main_v378, main_v379, main_v380, main_v381, main_v382, main_call14.cst.ref, main_call14.v0.ref, main_call14.v1.ref, main_v384, main_v385, main_v386, main_v387, main_v388, main_v389, main_v390, main_v391, main_v392, main_v393, main_v394, main_call15.cst.ref, main_call15.v0.ref, main_call15.v1.ref, main_v396, main_v397, main_v398, main_v399, main_v400, main_call16.cst.ref, main_call16.v0.ref, main_call16.v1.ref, main_v402, main_v403, main_v404, main_v405, main_v406, main_v407]

set_option maxRecDepth 8192 in
/-- Each operation of the window writes one buffer, the one listed at its place. -/
theorem ops_part7_writes : (ops_part7 : List (HloOp τ sig (Elt F))).Forall fun op => op.writes ⊆ (ops_part7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.P8.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 8 of the reference's @main as a list: its 22 operations in order, a call's being the callee's over that call's buffers. -/
abbrev ops_part8 : List (HloOp τ sig (Elt F)) :=
  [ StableHlo.binary main_v407 main_v396 main_v408 (addf : (⟨S1000x32, .f32⟩ : BufTy).Contents (Elt F) → (⟨S1000x32, .f32⟩ : BufTy).Contents (Elt F) → (⟨S1000x32, .f32⟩ : BufTy).Contents (Elt F)),
    StableHlo.binary main_v408 main_arg33 main_v409 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v410 (broadcastInDim S1x16 ![1] bcast_S16_S1x16_1 : (⟨S16, .f32⟩ : BufTy).Contents (Elt F) → (⟨S1x16, .f32⟩ : BufTy).Contents (Elt F)),
    StableHlo.unary main_v410 main_v411 (broadcastInDim S1000x16 ![0, 1] bcast_S1x16_S1000x16_0_1 : (⟨S1x16, .f32⟩ : BufTy).Contents (Elt F) → (⟨S1000x16, .f32⟩ : BufTy).Contents (Elt F)),
    StableHlo.binary main_v409 main_v411 main_v412 (addf : (⟨S1000x16, .f32⟩ : BufTy).Contents (Elt F) → (⟨S1000x16, .f32⟩ : BufTy).Contents (Elt F) → (⟨S1000x16, .f32⟩ : BufTy).Contents (Elt F)),
    StableHlo.TRef.nullary main_call17.cst (constant S_ .f32 0x00000000#32),
    StableHlo.TRef.unary main_call17.cst main_call17.v0 (broadcastInDim S1000x16 ![] bcast_S_S1000x16),
    StableHlo.TRef.binary (.of main_v412) main_call17.v0 main_call17.v1 maximumf,
    StableHlo.binary main_v377 main_v413 main_v414 (subf : (⟨S1000x16, .f32⟩ : BufTy).Contents (Elt F) → (⟨S1000x16, .f32⟩ : BufTy).Contents (Elt F) → (⟨S1000x16, .f32⟩ : BufTy).Contents (Elt F)),
    StableHlo.binary main_v377 main_v395 main_v415 (subf : (⟨S1000x16, .f32⟩ : BufTy).Contents (Elt F) → (⟨S1000x16, .f32⟩ : BufTy).Contents (Elt F) → (⟨S1000x16, .f32⟩ : BufTy).Contents (Elt F)),
    StableHlo.binary main_v377 main_arg35 main_v416 ((fun l r => Host.dotGeneral dot_S1000x16_S16x8_S1000x8_1_0_0_1_n_n none l r) : (⟨S1000x16, .f32⟩ : BufTy).Contents (Elt F) → (⟨S16x8, .f32⟩ : BufTy).Contents (Elt F) → (⟨S1000x8, .f32⟩ : BufTy).Contents (Elt F)),
    StableHlo.unary main_arg36 main_v417 (broadcastInDim S1x8 ![1] bcast_S8_S1x8_1 : (⟨S8, .f32⟩ : BufTy).Contents (Elt F) → (⟨S1x8, .f32⟩ : BufTy).Contents (Elt F)),
    StableHlo.unary main_v417 main_v418 (broadcastInDim S1000x8 ![0, 1] bcast_S1x8_S1000x8_0_1 : (⟨S1x8, .f32⟩ : BufTy).Contents (Elt F) → (⟨S1000x8, .f32⟩ : BufTy).Contents (Elt F)),
    StableHlo.binary main_v416 main_v418 main_v419 (addf : (⟨S1000x8, .f32⟩ : BufTy).Contents (Elt F) → (⟨S1000x8, .f32⟩ : BufTy).Contents (Elt F) → (⟨S1000x8, .f32⟩ : BufTy).Contents (Elt F)),
    StableHlo.TRef.nullary main_call18.cst (constant S_ .f32 0x00000000#32),
    StableHlo.TRef.unary main_call18.cst main_call18.v0 (broadcastInDim S1000x8 ![] bcast_S_S1000x8),
    StableHlo.TRef.binary (.of main_v419) main_call18.v0 main_call18.v1 maximumf,
    StableHlo.binary main_v420 main_arg37 main_v421 ((fun l r => Host.dotGeneral dot_S1000x8_S8x1_S1000x1_1_0_0_1_n_n none l r) : (⟨S1000x8, .f32⟩ : BufTy).Contents (Elt F) → (⟨S8x1, .f32⟩ : BufTy).Contents (Elt F) → (⟨S1000x1, .f32⟩ : BufTy).Contents (Elt F)),
    StableHlo.unary main_arg38 main_v422 (broadcastInDim S1x1 ![1] bcast_S1_S1x1_1 : (⟨S1, .f32⟩ : BufTy).Contents (Elt F) → (⟨S1x1, .f32⟩ : BufTy).Contents (Elt F)),
    StableHlo.unary main_v422 main_v423 (broadcastInDim S1000x1 ![0, 1] bcast_S1x1_S1000x1_0_1 : (⟨S1x1, .f32⟩ : BufTy).Contents (Elt F) → (⟨S1000x1, .f32⟩ : BufTy).Contents (Elt F)),
    StableHlo.binary main_v421 main_v423 main_v424 (addf : (⟨S1000x1, .f32⟩ : BufTy).Contents (Elt F) → (⟨S1000x1, .f32⟩ : BufTy).Contents (Elt F) → (⟨S1000x1, .f32⟩ : BufTy).Contents (Elt F)),
    StableHlo.reshape main_v424 main_v425 rfl shapeCasts_S1000x1_S1000 ]

set_option maxRecDepth 8192 in
set_option maxHeartbeats 4000000 in
/-- The window is that straight line: the callees' definitions unfolded at their calls, both sides are one chain of steps once sequencing is reassociated. -/
theorem main_part8_eq (c : Dev nD) : main_part8 (F := F) c = seq ops_part8 := by
  simp only [main_part8, fn_relu.body, fn_relu_0.body, fn_relu_3.body, fn_relu_6.body, fn_relu_7.body, fn_var.body, fn_var_1.body, fn_var_4.body, fn_where.body, fn_where_2.body, fn_where_5.body, seq, bind_assoc, pure_bind]

set_option maxRecDepth 8192 in
/-- Every operation of the window touches TensorCore buffers only. -/
theorem ops_part8_sub : (ops_part8 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- The buffers the window's operations write, in order. -/
abbrev ops_part8_W : List (Ref sig .tc) := [main_v408, main_v409, main_v410, main_v411, main_v412, main_call17.cst.ref, main_call17.v0.ref, main_call17.v1.ref, main_v414, main_v415, main_v416, main_v417, main_v418, main_v419, main_call18.cst.ref, main_call18.v0.ref, main_call18.v1.ref, main_v421, main_v422, main_v423, main_v424, main_v425]

set_option maxRecDepth 8192 in
/-- Each operation of the window writes one buffer, the one listed at its place. -/
theorem ops_part8_writes : (ops_part8 : List (HloOp τ sig (Elt F))).Forall fun op => op.writes ⊆ (ops_part8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefRun

end
-- ==== Proof.RefOps.lean ====
import proofs.«120907_j71768903516484_1_alg».proof.Proof.Gen.ReferenceIdeal
import Idealize.ShloMosaic.Lib.StableHlo.Run
import Idealize.ShloMosaic.Lib.Pipeline.Frame
import proofs.«120907_j71768903516484_1_alg».proof.Proof.RefOps.P0
import proofs.«120907_j71768903516484_1_alg».proof.Proof.RefOps.P1
import proofs.«120907_j71768903516484_1_alg».proof.Proof.RefOps.P2
import proofs.«120907_j71768903516484_1_alg».proof.Proof.RefOps.P3
import proofs.«120907_j71768903516484_1_alg».proof.Proof.RefOps.P4
import proofs.«120907_j71768903516484_1_alg».proof.Proof.RefOps.P5
import proofs.«120907_j71768903516484_1_alg».proof.Proof.RefOps.P6
import proofs.«120907_j71768903516484_1_alg».proof.Proof.RefOps.P7
import proofs.«120907_j71768903516484_1_alg».proof.Proof.RefOps.P8

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's @main as one list: its 650 operations in order (the windows' lists, concatenated). -/
abbrev ops : List (HloOp τ sig (Elt F)) :=
  ops_part0 ++ (ops_part1 ++ (ops_part2 ++ (ops_part3 ++ (ops_part4 ++ (ops_part5 ++ (ops_part6 ++ (ops_part7 ++ (ops_part8))))))))

set_option maxRecDepth 8192 in
/-- @main runs its windows in turn, each the straight line of its list: the line of the concatenation. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore buffers only: each window's do. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h]

/-- A buffer that no window writes keeps its contents through @main: window by window, from the last back to the first. -/
theorem ops_keep (V : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) (h6 : r ∉ ops_part6_W) (h7 : r ∉ ops_part7_W) (h8 : r ∉ ops_part8_W) :
    after ops V (Proc.devRef .tc r) = V (Proc.devRef .tc r) := by
  simp only [ops, after_append]
  rw [after_of_writes_sub ops_part8 _ ops_part8_writes h8, after_of_writes_sub ops_part7 _ ops_part7_writes h7, after_of_writes_sub ops_part6 _ ops_part6_writes h6, after_of_writes_sub ops_part5 _ ops_part5_writes h5, after_of_writes_sub ops_part4 _ ops_part4_writes h4, after_of_writes_sub ops_part3 _ ops_part3_writes h3, after_of_writes_sub ops_part2 _ ops_part2_writes h2, after_of_writes_sub ops_part1 _ ops_part1_writes h1, after_of_writes_sub ops_part0 _ ops_part0_writes h0]

/-- At the compiled mesh, for any float values, from any memory with zero counters: every weakly fair execution of @main on
    the TensorCores terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFrame.lean ====
import proofs.«120907_j71768903516484_1_alg».proof.Defs
import proofs.«120907_j71768903516484_1_alg».proof.Proof.Gen.ReferenceIdeal
import proofs.«120907_j71768903516484_1_alg».proof.Proof.Gen.Pre_finite_inputs
import proofs.«120907_j71768903516484_1_alg».proof.Proof.RefOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A buffer keeps its contents through @main when it is among no window's written buffers; for a literal
    buffer each of the nine memberships is decided. -/
macro "arg_keep" : tactic =>
  `(tactic| exact ops_keep _ _ (by decide) (by decide) (by decide) (by decide) (by decide) (by decide) (by decide) (by decide) (by decide))

/-! ## No operation of @main writes an argument array

Each operation writes one buffer, a value's own; the 39 argument buffers are none of them. -/

theorem arg0_eq (V : Valuation τ sig (Elt F)) : after ops V (main_arg0 : DevRef τ sig) = V (main_arg0 : DevRef τ sig) := by arg_keep
theorem arg1_eq (V : Valuation τ sig (Elt F)) : after ops V (main_arg1 : DevRef τ sig) = V (main_arg1 : DevRef τ sig) := by arg_keep
theorem arg2_eq (V : Valuation τ sig (Elt F)) : after ops V (main_arg2 : DevRef τ sig) = V (main_arg2 : DevRef τ sig) := by arg_keep
theorem arg3_eq (V : Valuation τ sig (Elt F)) : after ops V (main_arg3 : DevRef τ sig) = V (main_arg3 : DevRef τ sig) := by arg_keep
theorem arg4_eq (V : Valuation τ sig (Elt F)) : after ops V (main_arg4 : DevRef τ sig) = V (main_arg4 : DevRef τ sig) := by arg_keep
theorem arg5_eq (V : Valuation τ sig (Elt F)) : after ops V (main_arg5 : DevRef τ sig) = V (main_arg5 : DevRef τ sig) := by arg_keep
theorem arg6_eq (V : Valuation τ sig (Elt F)) : after ops V (main_arg6 : DevRef τ sig) = V (main_arg6 : DevRef τ sig) := by arg_keep
theorem arg7_eq (V : Valuation τ sig (Elt F)) : after ops V (main_arg7 : DevRef τ sig) = V (main_arg7 : DevRef τ sig) := by arg_keep
theorem arg8_eq (V : Valuation τ sig (Elt F)) : after ops V (main_arg8 : DevRef τ sig) = V (main_arg8 : DevRef τ sig) := by arg_keep
theorem arg9_eq (V : Valuation τ sig (Elt F)) : after ops V (main_arg9 : DevRef τ sig) = V (main_arg9 : DevRef τ sig) := by arg_keep
theorem arg10_eq (V : Valuation τ sig (Elt F)) : after ops V (main_arg10 : DevRef τ sig) = V (main_arg10 : DevRef τ sig) := by arg_keep
theorem arg11_eq (V : Valuation τ sig (Elt F)) : after ops V (main_arg11 : DevRef τ sig) = V (main_arg11 : DevRef τ sig) := by arg_keep
theorem arg12_eq (V : Valuation τ sig (Elt F)) : after ops V (main_arg12 : DevRef τ sig) = V (main_arg12 : DevRef τ sig) := by arg_keep
theorem arg13_eq (V : Valuation τ sig (Elt F)) : after ops V (main_arg13 : DevRef τ sig) = V (main_arg13 : DevRef τ sig) := by arg_keep
theorem arg14_eq (V : Valuation τ sig (Elt F)) : after ops V (main_arg14 : DevRef τ sig) = V (main_arg14 : DevRef τ sig) := by arg_keep
theorem arg15_eq (V : Valuation τ sig (Elt F)) : after ops V (main_arg15 : DevRef τ sig) = V (main_arg15 : DevRef τ sig) := by arg_keep
theorem arg16_eq (V : Valuation τ sig (Elt F)) : after ops V (main_arg16 : DevRef τ sig) = V (main_arg16 : DevRef τ sig) := by arg_keep
theorem arg17_eq (V : Valuation τ sig (Elt F)) : after ops V (main_arg17 : DevRef τ sig) = V (main_arg17 : DevRef τ sig) := by arg_keep
theorem arg18_eq (V : Valuation τ sig (Elt F)) : after ops V (main_arg18 : DevRef τ sig) = V (main_arg18 : DevRef τ sig) := by arg_keep
theorem arg19_eq (V : Valuation τ sig (Elt F)) : after ops V (main_arg19 : DevRef τ sig) = V (main_arg19 : DevRef τ sig) := by arg_keep
theorem arg20_eq (V : Valuation τ sig (Elt F)) : after ops V (main_arg20 : DevRef τ sig) = V (main_arg20 : DevRef τ sig) := by arg_keep
theorem arg21_eq (V : Valuation τ sig (Elt F)) : after ops V (main_arg21 : DevRef τ sig) = V (main_arg21 : DevRef τ sig) := by arg_keep
theorem arg22_eq (V : Valuation τ sig (Elt F)) : after ops V (main_arg22 : DevRef τ sig) = V (main_arg22 : DevRef τ sig) := by arg_keep
theorem arg23_eq (V : Valuation τ sig (Elt F)) : after ops V (main_arg23 : DevRef τ sig) = V (main_arg23 : DevRef τ sig) := by arg_keep
theorem arg24_eq (V : Valuation τ sig (Elt F)) : after ops V (main_arg24 : DevRef τ sig) = V (main_arg24 : DevRef τ sig) := by arg_keep
theorem arg25_eq (V : Valuation τ sig (Elt F)) : after ops V (main_arg25 : DevRef τ sig) = V (main_arg25 : DevRef τ sig) := by arg_keep
theorem arg26_eq (V : Valuation τ sig (Elt F)) : after ops V (main_arg26 : DevRef τ sig) = V (main_arg26 : DevRef τ sig) := by arg_keep
theorem arg27_eq (V : Valuation τ sig (Elt F)) : after ops V (main_arg27 : DevRef τ sig) = V (main_arg27 : DevRef τ sig) := by arg_keep
theorem arg28_eq (V : Valuation τ sig (Elt F)) : after ops V (main_arg28 : DevRef τ sig) = V (main_arg28 : DevRef τ sig) := by arg_keep
theorem arg29_eq (V : Valuation τ sig (Elt F)) : after ops V (main_arg29 : DevRef τ sig) = V (main_arg29 : DevRef τ sig) := by arg_keep
theorem arg30_eq (V : Valuation τ sig (Elt F)) : after ops V (main_arg30 : DevRef τ sig) = V (main_arg30 : DevRef τ sig) := by arg_keep
theorem arg31_eq (V : Valuation τ sig (Elt F)) : after ops V (main_arg31 : DevRef τ sig) = V (main_arg31 : DevRef τ sig) := by arg_keep
theorem arg32_eq (V : Valuation τ sig (Elt F)) : after ops V (main_arg32 : DevRef τ sig) = V (main_arg32 : DevRef τ sig) := by arg_keep
theorem arg33_eq (V : Valuation τ sig (Elt F)) : after ops V (main_arg33 : DevRef τ sig) = V (main_arg33 : DevRef τ sig) := by arg_keep
theorem arg34_eq (V : Valuation τ sig (Elt F)) : after ops V (main_arg34 : DevRef τ sig) = V (main_arg34 : DevRef τ sig) := by arg_keep
theorem arg35_eq (V : Valuation τ sig (Elt F)) : after ops V (main_arg35 : DevRef τ sig) = V (main_arg35 : DevRef τ sig) := by arg_keep
theorem arg36_eq (V : Valuation τ sig (Elt F)) : after ops V (main_arg36 : DevRef τ sig) = V (main_arg36 : DevRef τ sig) := by arg_keep
theorem arg37_eq (V : Valuation τ sig (Elt F)) : after ops V (main_arg37 : DevRef τ sig) = V (main_arg37 : DevRef τ sig) := by arg_keep
theorem arg38_eq (V : Valuation τ sig (Elt F)) : after ops V (main_arg38 : DevRef τ sig) = V (main_arg38 : DevRef τ sig) := by arg_keep

/-- The reference runs (every weakly fair execution terminates, none faults) and its 39 argument arrays end as they
    began: the run's final memory at an argument buffer is the operations' fold there, which is the launch contents. -/
theorem frame_ri : Cert.frame_ReferenceIdeal := fun m ρ _ =>
  (θ_run Cert.ReferenceIdeal.defs _ _).mono
    (fun _ h c =>
    ⟨ (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c)),
      (h c main_arg20).trans (arg20_eq (launchContents m c)),
      (h c main_arg21).trans (arg21_eq (launchContents m c)),
      (h c main_arg22).trans (arg22_eq (launchContents m c)),
      (h c main_arg23).trans (arg23_eq (launchContents m c)),
      (h c main_arg24).trans (arg24_eq (launchContents m c)),
      (h c main_arg25).trans (arg25_eq (launchContents m c)),
      (h c main_arg26).trans (arg26_eq (launchContents m c)),
      (h c main_arg27).trans (arg27_eq (launchContents m c)),
      (h c main_arg28).trans (arg28_eq (launchContents m c)),
      (h c main_arg29).trans (arg29_eq (launchContents m c)),
      (h c main_arg30).trans (arg30_eq (launchContents m c)),
      (h c main_arg31).trans (arg31_eq (launchContents m c)),
      (h c main_arg32).trans (arg32_eq (launchContents m c)),
      (h c main_arg33).trans (arg33_eq (launchContents m c)),
      (h c main_arg34).trans (arg34_eq (launchContents m c)),
      (h c main_arg35).trans (arg35_eq (launchContents m c)),
      (h c main_arg36).trans (arg36_eq (launchContents m c)),
      (h c main_arg37).trans (arg37_eq (launchContents m c)),
      (h c main_arg38).trans (arg38_eq (launchContents m c)) ⟩)
    (run_main (F := Ideal) m ρ)

end Cert.ReferenceIdeal.RefRun

end
-- ==== Proof.RefBlocks.B0.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 77 operations of statements 0 … 53 of @main, in order, a call's being the callee's over that call's buffers. -/
abbrev blk0 : List (HloOp τ sig (Elt F)) :=
  [ StableHlo.unary main_arg2 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg2 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v1 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 200000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v1 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst (constant S_ .f32 0x00000000#32),
    StableHlo.unary main_cst main_v11 (broadcastInDim S200000x64 ![] bcast_S_S200000x64 : (⟨S_, .f32⟩ : BufTy).Contents (Elt F) → (⟨S200000x64, .f32⟩ : BufTy).Contents (Elt F)),
    StableHlo.unary main_v3 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_1 (constant S_ .f32 0x3F800000#32),
    StableHlo.binary main_cst_1 main_arg6 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S200000x64 ![] bcast_S_S200000x64 : (⟨S_, .f32⟩ : BufTy).Contents (Elt F) → (⟨S200000x64, .f32⟩ : BufTy).Contents (Elt F)),
    StableHlo.binary main_v15 main_arg0 main_v16 (mulf : (⟨S200000x64, .f32⟩ : BufTy).Contents (Elt F) → (⟨S200000x64, .f32⟩ : BufTy).Contents (Elt F) → (⟨S200000x64, .f32⟩ : BufTy).Contents (Elt F)),
    StableHlo.binary main_v16 main_v13 main_v17 (addf : (⟨S200000x64, .f32⟩ : BufTy).Contents (Elt F) → (⟨S200000x64, .f32⟩ : BufTy).Contents (Elt F) → (⟨S200000x64, .f32⟩ : BufTy).Contents (Elt F)),
    StableHlo.binary main_v17 main_arg7 main_v18 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg8 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S200000x64 ![0, 1] bcast_S1x64_S200000x64_0_1 : (⟨S1x64, .f32⟩ : BufTy).Contents (Elt F) → (⟨S200000x64, .f32⟩ : BufTy).Contents (Elt F)),
    StableHlo.binary main_v18 main_v20 main_v21 (addf : (⟨S200000x64, .f32⟩ : BufTy).Contents (Elt F) → (⟨S200000x64, .f32⟩ : BufTy).Contents (Elt F) → (⟨S200000x64, .f32⟩ : BufTy).Contents (Elt F)),
    StableHlo.TRef.nullary main_call0.cst (constant S_ .f32 0x00000000#32),
    StableHlo.TRef.unary main_call0.cst main_call0.v0 (broadcastInDim S200000x64 ![] bcast_S_S200000x64),
    StableHlo.TRef.binary (.of main_v21) main_call0.v0 main_call0.v1 maximumf,
    StableHlo.binary main_v22 main_arg9 main_v23 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg10 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S200000x64 ![0, 1] bcast_S1x64_S200000x64_0_1 : (⟨S1x64, .f32⟩ : BufTy).Contents (Elt F) → (⟨S200000x64, .f32⟩ : BufTy).Contents (Elt F)),
    StableHlo.binary main_v23 main_v25 main_v26 (addf : (⟨S200000x64, .f32⟩ : BufTy).Contents (Elt F) → (⟨S200000x64, .f32⟩ : BufTy).Contents (Elt F) → (⟨S200000x64, .f32⟩ : BufTy).Contents (Elt F)),
    StableHlo.nullary main_cst_2 (constant S_ .f32 0x00000000#32),
    StableHlo.binary main_v26 main_cst_2 main_v27 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_3 (constant S_ .f32 0x48435000#32),
    StableHlo.unary main_cst_3 main_v28 (broadcastInDim S64 ![] bcast_S_S64 : (⟨S_, .f32⟩ : BufTy).Contents (Elt F) → (⟨S64, .f32⟩ : BufTy).Contents (Elt F)),
    StableHlo.binary main_v27 main_v28 main_v29 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call1.cst (constant S_ .f32 0x00000000#32),
    StableHlo.TRef.binary (.of main_v26) main_call1.cst main_call1.v0 (fun x v => Host.reduceAdd x v reducesTo_S200000x64_S64_d0 h_S_),
    StableHlo.TRef.unary main_call1.v0 main_call1.v1 (broadcastInDim S1x64 ![1] bcast_S64_S1x64_1),
    StableHlo.TRef.nullary main_call1.cst_0 (constant S_ .f32 0x48435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S200000x64 ![0, 1] bcast_S1x64_S200000x64_0_1),
    StableHlo.TRef.binary (.of main_v26) main_call1.v4 main_call1.v5 subf,
    StableHlo.TRef.binary main_call1.v5 main_call1.v5 main_call1.v6 mulf,
    StableHlo.TRef.unary (.of main_c_4) main_call1.v7 (sitofp .f32),
    StableHlo.TRef.nullary main_call1.cst_1 (constant S_ .f32 0x48435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S200000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v29 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S200000x64 ![0, 1] bcast_S1x64_S200000x64_0_1 : (⟨S1x64, .f32⟩ : BufTy).Contents (Elt F) → (⟨S200000x64, .f32⟩ : BufTy).Contents (Elt F)),
    StableHlo.binary main_v26 main_v32 main_v33 (subf : (⟨S200000x64, .f32⟩ : BufTy).Contents (Elt F) → (⟨S200000x64, .f32⟩ : BufTy).Contents (Elt F) → (⟨S200000x64, .f32⟩ : BufTy).Contents (Elt F)),
    StableHlo.unary main_arg11 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S200000x64 ![0, 1] bcast_S1x64_S200000x64_0_1 : (⟨S1x64, .f32⟩ : BufTy).Contents (Elt F) → (⟨S200000x64, .f32⟩ : BufTy).Contents (Elt F)),
    StableHlo.binary main_v35 main_v33 main_v36 (mulf : (⟨S200000x64, .f32⟩ : BufTy).Contents (Elt F) → (⟨S200000x64, .f32⟩ : BufTy).Contents (Elt F) → (⟨S200000x64, .f32⟩ : BufTy).Contents (Elt F)),
    StableHlo.nullary main_cst_5 (constant S_ .f32 0x3727C5AC#32),
    StableHlo.unary main_cst_5 main_v37 (broadcastInDim S64 ![] bcast_S_S64 : (⟨S_, .f32⟩ : BufTy).Contents (Elt F) → (⟨S64, .f32⟩ : BufTy).Contents (Elt F)),
    StableHlo.binary main_v30 main_v37 main_v38 (addf : (⟨S64, .f32⟩ : BufTy).Contents (Elt F) → (⟨S64, .f32⟩ : BufTy).Contents (Elt F) → (⟨S64, .f32⟩ : BufTy).Contents (Elt F)),
    StableHlo.unary main_v38 main_v39 (Host.rsqrt : (⟨S64, .f32⟩ : BufTy).Contents (Elt F) → (⟨S64, .f32⟩ : BufTy).Contents (Elt F)),
    StableHlo.unary main_v39 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S200000x64 ![0, 1] bcast_S1x64_S200000x64_0_1 : (⟨S1x64, .f32⟩ : BufTy).Contents (Elt F) → (⟨S200000x64, .f32⟩ : BufTy).Contents (Elt F)),
    StableHlo.binary main_v36 main_v41 main_v42 (mulf : (⟨S200000x64, .f32⟩ : BufTy).Contents (Elt F) → (⟨S200000x64, .f32⟩ : BufTy).Contents (Elt F) → (⟨S200000x64, .f32⟩ : BufTy).Contents (Elt F)),
    StableHlo.unary main_arg12 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S200000x64 ![0, 1] bcast_S1x64_S200000x64_0_1 : (⟨S1x64, .f32⟩ : BufTy).Contents (Elt F) → (⟨S200000x64, .f32⟩ : BufTy).Contents (Elt F)),
    StableHlo.binary main_v42 main_v44 main_v45 (addf : (⟨S200000x64, .f32⟩ : BufTy).Contents (Elt F) → (⟨S200000x64, .f32⟩ : BufTy).Contents (Elt F) → (⟨S200000x64, .f32⟩ : BufTy).Contents (Elt F)) ]

/-- The buffers these operations write, in order. -/
abbrev blk0_W : List (Ref sig .tc) := [main_v0, main_v1, main_v2, main_v3, main_c, main_v4, main_v5, main_c_0, main_v6, main_v7, main_v8, main_v9, main_v10, main_cst, main_v11, main_v12, main_v13, main_cst_1, main_v14, main_v15, main_v16, main_v17, main_v18, main_v19, main_v20, main_v21, main_call0.cst.ref, main_call0.v0.ref, main_call0.v1.ref, main_v23, main_v24, main_v25, main_v26, main_cst_2, main_v27, main_cst_3, main_v28, main_v29, main_c_4, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v31, main_v32, main_v33, main_v34, main_v35, main_v36, main_cst_5, main_v37, main_v38, main_v39, main_v40, main_v41, main_v42, main_v43, main_v44, main_v45]

set_option maxRecDepth 8192 in
/-- Each operation writes one buffer, the one listed at its place. -/
theorem blk0_writes : (blk0 : List (HloOp τ sig (Elt F))).Forall fun op => op.writes ⊆ (blk0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem blk0_keep (V : Valuation τ sig (Elt F)) (r : Ref sig .tc) (h : r ∉ blk0_W) :
    after blk0 V (Proc.devRef .tc r) = V (Proc.devRef .tc r) :=
  after_of_writes_sub blk0 V blk0_writes h

/-- The contents after these operations, named: a rewriting rule about it is found by this name, not by the list. -/
def blk0_after (V : Valuation τ sig (Elt F)) : Valuation τ sig (Elt F) := after blk0 V

/-- The same, for rewriting (the buffer un-indexed: a literal buffer's reference unfolds). -/
theorem blk0_after_keep (V : Valuation τ sig (Elt F)) (r : Ref sig .tc) (h : r ∉ blk0_W) :
    blk0_after V (no_index (Proc.devRef .tc r)) = V (Proc.devRef .tc r) :=
  after_of_writes_sub blk0 V blk0_writes h

end Cert.ReferenceIdeal.RefRun

end
-- ==== Proof.RefBlocks.B1.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 77 operations of statements 54 … 107 of @main, in order, a call's being the callee's over that call's buffers. -/
abbrev blk1 : List (HloOp τ sig (Elt F)) :=
  [ StableHlo.unary main_arg3 main_v46 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v46 main_v47 rfl shapeCasts_S1x3200000_S3200000,
    StableHlo.unary main_arg3 main_v48 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v48 main_v49 rfl shapeCasts_S1x3200000_S3200000,
    StableHlo.nullary main_c_6 (constantI S_ 32 0#32),
    StableHlo.unary main_c_6 main_v50 (broadcastInDim S3200000 ![] bcast_S_S3200000 : (⟨S_, .i32⟩ : BufTy).Contents (Elt F) → (⟨S3200000, .i32⟩ : BufTy).Contents (Elt F)),
    StableHlo.binary main_v47 main_v50 main_v51 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 200000#32),
    StableHlo.unary main_c_7 main_v52 (broadcastInDim S3200000 ![] bcast_S_S3200000 : (⟨S_, .i32⟩ : BufTy).Contents (Elt F) → (⟨S3200000, .i32⟩ : BufTy).Contents (Elt F)),
    StableHlo.binary main_v47 main_v52 main_v53 (addi : (⟨S3200000, .i32⟩ : BufTy).Contents (Elt F) → (⟨S3200000, .i32⟩ : BufTy).Contents (Elt F) → (⟨S3200000, .i32⟩ : BufTy).Contents (Elt F)),
    StableHlo.ternary main_v51 main_v53 main_v47 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v54 main_v55 (broadcastInDim S3200000x1 ![0] bcast_S3200000_S3200000x1_0 : (⟨S3200000, .i32⟩ : BufTy).Contents (Elt F) → (⟨S3200000x1, .i32⟩ : BufTy).Contents (Elt F)),
    StableHlo.binary main_arg1 main_v55 main_v56 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst_8 (constant S_ .f32 0x00000000#32),
    StableHlo.unary main_cst_8 main_v57 (broadcastInDim S200000x64 ![] bcast_S_S200000x64 : (⟨S_, .f32⟩ : BufTy).Contents (Elt F) → (⟨S200000x64, .f32⟩ : BufTy).Contents (Elt F)),
    StableHlo.unary main_v49 main_v58 (broadcastInDim S3200000x1 ![0] bcast_S3200000_S3200000x1_0 : (⟨S3200000, .i32⟩ : BufTy).Contents (Elt F) → (⟨S3200000x1, .i32⟩ : BufTy).Contents (Elt F)),
    StableHlo.ternary main_v57 main_v58 main_v56 main_v59 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_9 (constant S_ .f32 0x3F800000#32),
    StableHlo.binary main_cst_9 main_arg6 main_v60 (addf : (⟨S_, .f32⟩ : BufTy).Contents (Elt F) → (⟨S_, .f32⟩ : BufTy).Contents (Elt F) → (⟨S_, .f32⟩ : BufTy).Contents (Elt F)),
    StableHlo.unary main_v60 main_v61 (broadcastInDim S200000x64 ![] bcast_S_S200000x64 : (⟨S_, .f32⟩ : BufTy).Contents (Elt F) → (⟨S200000x64, .f32⟩ : BufTy).Contents (Elt F)),
    StableHlo.binary main_v61 main_arg1 main_v62 (mulf : (⟨S200000x64, .f32⟩ : BufTy).Contents (Elt F) → (⟨S200000x64, .f32⟩ : BufTy).Contents (Elt F) → (⟨S200000x64, .f32⟩ : BufTy).Contents (Elt F)),
    StableHlo.binary main_v62 main_v59 main_v63 (addf : (⟨S200000x64, .f32⟩ : BufTy).Contents (Elt F) → (⟨S200000x64, .f32⟩ : BufTy).Contents (Elt F) → (⟨S200000x64, .f32⟩ : BufTy).Contents (Elt F)),
    StableHlo.binary main_v63 main_arg7 main_v64 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg8 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S200000x64 ![0, 1] bcast_S1x64_S200000x64_0_1 : (⟨S1x64, .f32⟩ : BufTy).Contents (Elt F) → (⟨S200000x64, .f32⟩ : BufTy).Contents (Elt F)),
    StableHlo.binary main_v64 main_v66 main_v67 (addf : (⟨S200000x64, .f32⟩ : BufTy).Contents (Elt F) → (⟨S200000x64, .f32⟩ : BufTy).Contents (Elt F) → (⟨S200000x64, .f32⟩ : BufTy).Contents (Elt F)),
    StableHlo.TRef.nullary main_call2.cst (constant S_ .f32 0x00000000#32),
    StableHlo.TRef.unary main_call2.cst main_call2.v0 (broadcastInDim S200000x64 ![] bcast_S_S200000x64),
    StableHlo.TRef.binary (.of main_v67) main_call2.v0 main_call2.v1 maximumf,
    StableHlo.binary main_v68 main_arg9 main_v69 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg10 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S200000x64 ![0, 1] bcast_S1x64_S200000x64_0_1 : (⟨S1x64, .f32⟩ : BufTy).Contents (Elt F) → (⟨S200000x64, .f32⟩ : BufTy).Contents (Elt F)),
    StableHlo.binary main_v69 main_v71 main_v72 (addf : (⟨S200000x64, .f32⟩ : BufTy).Contents (Elt F) → (⟨S200000x64, .f32⟩ : BufTy).Contents (Elt F) → (⟨S200000x64, .f32⟩ : BufTy).Contents (Elt F)),
    StableHlo.nullary main_cst_10 (constant S_ .f32 0x00000000#32),
    StableHlo.binary main_v72 main_cst_10 main_v73 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_11 (constant S_ .f32 0x48435000#32),
    StableHlo.unary main_cst_11 main_v74 (broadcastInDim S64 ![] bcast_S_S64 : (⟨S_, .f32⟩ : BufTy).Contents (Elt F) → (⟨S64, .f32⟩ : BufTy).Contents (Elt F)),
    StableHlo.binary main_v73 main_v74 main_v75 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call3.cst (constant S_ .f32 0x00000000#32),
    StableHlo.TRef.binary (.of main_v72) main_call3.cst main_call3.v0 (fun x v => Host.reduceAdd x v reducesTo_S200000x64_S64_d0 h_S_),
    StableHlo.TRef.unary main_call3.v0 main_call3.v1 (broadcastInDim S1x64 ![1] bcast_S64_S1x64_1),
    StableHlo.TRef.nullary main_call3.cst_0 (constant S_ .f32 0x48435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S200000x64 ![0, 1] bcast_S1x64_S200000x64_0_1),
    StableHlo.TRef.binary (.of main_v72) main_call3.v4 main_call3.v5 subf,
    StableHlo.TRef.binary main_call3.v5 main_call3.v5 main_call3.v6 mulf,
    StableHlo.TRef.unary (.of main_c_12) main_call3.v7 (sitofp .f32),
    StableHlo.TRef.nullary main_call3.cst_1 (constant S_ .f32 0x48435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S200000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v75 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S200000x64 ![0, 1] bcast_S1x64_S200000x64_0_1 : (⟨S1x64, .f32⟩ : BufTy).Contents (Elt F) → (⟨S200000x64, .f32⟩ : BufTy).Contents (Elt F)),
    StableHlo.binary main_v72 main_v78 main_v79 (subf : (⟨S200000x64, .f32⟩ : BufTy).Contents (Elt F) → (⟨S200000x64, .f32⟩ : BufTy).Contents (Elt F) → (⟨S200000x64, .f32⟩ : BufTy).Contents (Elt F)),
    StableHlo.unary main_arg11 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S200000x64 ![0, 1] bcast_S1x64_S200000x64_0_1 : (⟨S1x64, .f32⟩ : BufTy).Contents (Elt F) → (⟨S200000x64, .f32⟩ : BufTy).Contents (Elt F)),
    StableHlo.binary main_v81 main_v79 main_v82 (mulf : (⟨S200000x64, .f32⟩ : BufTy).Contents (Elt F) → (⟨S200000x64, .f32⟩ : BufTy).Contents (Elt F) → (⟨S200000x64, .f32⟩ : BufTy).Contents (Elt F)),
    StableHlo.nullary main_cst_13 (constant S_ .f32 0x3727C5AC#32),
    StableHlo.unary main_cst_13 main_v83 (broadcastInDim S64 ![] bcast_S_S64 : (⟨S_, .f32⟩ : BufTy).Contents (Elt F) → (⟨S64, .f32⟩ : BufTy).Contents (Elt F)),
    StableHlo.binary main_v76 main_v83 main_v84 (addf : (⟨S64, .f32⟩ : BufTy).Contents (Elt F) → (⟨S64, .f32⟩ : BufTy).Contents (Elt F) → (⟨S64, .f32⟩ : BufTy).Contents (Elt F)),
    StableHlo.unary main_v84 main_v85 (Host.rsqrt : (⟨S64, .f32⟩ : BufTy).Contents (Elt F) → (⟨S64, .f32⟩ : BufTy).Contents (Elt F)),
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S200000x64 ![0, 1] bcast_S1x64_S200000x64_0_1 : (⟨S1x64, .f32⟩ : BufTy).Contents (Elt F) → (⟨S200000x64, .f32⟩ : BufTy).Contents (Elt F)),
    StableHlo.binary main_v82 main_v87 main_v88 (mulf : (⟨S200000x64, .f32⟩ : BufTy).Contents (Elt F) → (⟨S200000x64, .f32⟩ : BufTy).Contents (Elt F) → (⟨S200000x64, .f32⟩ : BufTy).Contents (Elt F)),
    StableHlo.unary main_arg12 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S200000x64 ![0, 1] bcast_S1x64_S200000x64_0_1 : (⟨S1x64, .f32⟩ : BufTy).Contents (Elt F) → (⟨S200000x64, .f32⟩ : BufTy).Contents (Elt F)),
    StableHlo.binary main_v88 main_v90 main_v91 (addf : (⟨S200000x64, .f32⟩ : BufTy).Contents (Elt F) → (⟨S200000x64, .f32⟩ : BufTy).Contents (Elt F) → (⟨S200000x64, .f32⟩ : BufTy).Contents (Elt F)) ]

/-- The buffers these operations write, in order. -/
abbrev blk1_W : List (Ref sig .tc) := [main_v46, main_v47, main_v48, main_v49, main_c_6, main_v50, main_v51, main_c_7, main_v52, main_v53, main_v54, main_v55, main_v56, main_cst_8, main_v57, main_v58, main_v59, main_cst_9, main_v60, main_v61, main_v62, main_v63, main_v64, main_v65, main_v66, main_v67, main_call2.cst.ref, main_call2.v0.ref, main_call2.v1.ref, main_v69, main_v70, main_v71, main_v72, main_cst_10, main_v73, main_cst_11, main_v74, main_v75, main_c_12, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v77, main_v78, main_v79, main_v80, main_v81, main_v82, main_cst_13, main_v83, main_v84, main_v85, main_v86, main_v87, main_v88, main_v89, main_v90, main_v91]

set_option maxRecDepth 8192 in
/-- Each operation writes one buffer, the one listed at its place. -/
theorem blk1_writes : (blk1 : List (HloOp τ sig (Elt F))).Forall fun op => op.writes ⊆ (blk1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem blk1_keep (V : Valuation τ sig (Elt F)) (r : Ref sig .tc) (h : r ∉ blk1_W) :
    after blk1 V (Proc.devRef .tc r) = V (Proc.devRef .tc r) :=
  after_of_writes_sub blk1 V blk1_writes h

/-- The contents after these operations, named: a rewriting rule about it is found by this name, not by the list. -/
def blk1_after (V : Valuation τ sig (Elt F)) : Valuation τ sig (Elt F) := after blk1 V

/-- The same, for rewriting (the buffer un-indexed: a literal buffer's reference unfolds). -/
theorem blk1_after_keep (V : Valuation τ sig (Elt F)) (r : Ref sig .tc) (h : r ∉ blk1_W) :
    blk1_after V (no_index (Proc.devRef .tc r)) = V (Proc.devRef .tc r) :=
  after_of_writes_sub blk1 V blk1_writes h

end Cert.ReferenceIdeal.RefRun

end
-- ==== Proof.RefBlocks.B2.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 77 operations of statements 108 … 161 of @main, in order, a call's being the callee's over that call's buffers. -/
abbrev blk2 : List (HloOp τ sig (Elt F)) :=
  [ StableHlo.unary main_arg2 main_v92 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v92 main_v93 rfl shapeCasts_S1x3200000_S3200000,
    StableHlo.unary main_arg2 main_v94 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v94 main_v95 rfl shapeCasts_S1x3200000_S3200000,
    StableHlo.nullary main_c_14 (constantI S_ 32 0#32),
    StableHlo.unary main_c_14 main_v96 (broadcastInDim S3200000 ![] bcast_S_S3200000 : (⟨S_, .i32⟩ : BufTy).Contents (Elt F) → (⟨S3200000, .i32⟩ : BufTy).Contents (Elt F)),
    StableHlo.binary main_v93 main_v96 main_v97 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 200000#32),
    StableHlo.unary main_c_15 main_v98 (broadcastInDim S3200000 ![] bcast_S_S3200000 : (⟨S_, .i32⟩ : BufTy).Contents (Elt F) → (⟨S3200000, .i32⟩ : BufTy).Contents (Elt F)),
    StableHlo.binary main_v93 main_v98 main_v99 (addi : (⟨S3200000, .i32⟩ : BufTy).Contents (Elt F) → (⟨S3200000, .i32⟩ : BufTy).Contents (Elt F) → (⟨S3200000, .i32⟩ : BufTy).Contents (Elt F)),
    StableHlo.ternary main_v97 main_v99 main_v93 main_v100 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v100 main_v101 (broadcastInDim S3200000x1 ![0] bcast_S3200000_S3200000x1_0 : (⟨S3200000, .i32⟩ : BufTy).Contents (Elt F) → (⟨S3200000x1, .i32⟩ : BufTy).Contents (Elt F)),
    StableHlo.binary main_v45 main_v101 main_v102 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst_16 (constant S_ .f32 0x00000000#32),
    StableHlo.unary main_cst_16 main_v103 (broadcastInDim S200000x64 ![] bcast_S_S200000x64 : (⟨S_, .f32⟩ : BufTy).Contents (Elt F) → (⟨S200000x64, .f32⟩ : BufTy).Contents (Elt F)),
    StableHlo.unary main_v95 main_v104 (broadcastInDim S3200000x1 ![0] bcast_S3200000_S3200000x1_0 : (⟨S3200000, .i32⟩ : BufTy).Contents (Elt F) → (⟨S3200000x1, .i32⟩ : BufTy).Contents (Elt F)),
    StableHlo.ternary main_v103 main_v104 main_v102 main_v105 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_17 (constant S_ .f32 0x3F800000#32),
    StableHlo.binary main_cst_17 main_arg13 main_v106 (addf : (⟨S_, .f32⟩ : BufTy).Contents (Elt F) → (⟨S_, .f32⟩ : BufTy).Contents (Elt F) → (⟨S_, .f32⟩ : BufTy).Contents (Elt F)),
    StableHlo.unary main_v106 main_v107 (broadcastInDim S200000x64 ![] bcast_S_S200000x64 : (⟨S_, .f32⟩ : BufTy).Contents (Elt F) → (⟨S200000x64, .f32⟩ : BufTy).Contents (Elt F)),
    StableHlo.binary main_v107 main_v45 main_v108 (mulf : (⟨S200000x64, .f32⟩ : BufTy).Contents (Elt F) → (⟨S200000x64, .f32⟩ : BufTy).Contents (Elt F) → (⟨S200000x64, .f32⟩ : BufTy).Contents (Elt F)),
    StableHlo.binary main_v108 main_v105 main_v109 (addf : (⟨S200000x64, .f32⟩ : BufTy).Contents (Elt F) → (⟨S200000x64, .f32⟩ : BufTy).Contents (Elt F) → (⟨S200000x64, .f32⟩ : BufTy).Contents (Elt F)),
    StableHlo.binary main_v109 main_arg14 main_v110 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    StableHlo.unary main_arg15 main_v111 (broadcastInDim S1x32 ![1] bcast_S32_S1x32_1 : (⟨S32, .f32⟩ : BufTy).Contents (Elt F) → (⟨S1x32, .f32⟩ : BufTy).Contents (Elt F)),
    StableHlo.unary main_v111 main_v112 (broadcastInDim S200000x32 ![0, 1] bcast_S1x32_S200000x32_0_1 : (⟨S1x32, .f32⟩ : BufTy).Contents (Elt F) → (⟨S200000x32, .f32⟩ : BufTy).Contents (Elt F)),
    StableHlo.binary main_v110 main_v112 main_v113 (addf : (⟨S200000x32, .f32⟩ : BufTy).Contents (Elt F) → (⟨S200000x32, .f32⟩ : BufTy).Contents (Elt F) → (⟨S200000x32, .f32⟩ : BufTy).Contents (Elt F)),
    StableHlo.TRef.nullary main_call4.cst (constant S_ .f32 0x00000000#32),
    StableHlo.TRef.unary main_call4.cst main_call4.v0 (broadcastInDim S200000x32 ![] bcast_S_S200000x32),
    StableHlo.TRef.binary (.of main_v113) main_call4.v0 main_call4.v1 maximumf,
    StableHlo.binary main_v114 main_arg16 main_v115 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg17 main_v116 (broadcastInDim S1x32 ![1] bcast_S32_S1x32_1 : (⟨S32, .f32⟩ : BufTy).Contents (Elt F) → (⟨S1x32, .f32⟩ : BufTy).Contents (Elt F)),
    StableHlo.unary main_v116 main_v117 (broadcastInDim S200000x32 ![0, 1] bcast_S1x32_S200000x32_0_1 : (⟨S1x32, .f32⟩ : BufTy).Contents (Elt F) → (⟨S200000x32, .f32⟩ : BufTy).Contents (Elt F)),
    StableHlo.binary main_v115 main_v117 main_v118 (addf : (⟨S200000x32, .f32⟩ : BufTy).Contents (Elt F) → (⟨S200000x32, .f32⟩ : BufTy).Contents (Elt F) → (⟨S200000x32, .f32⟩ : BufTy).Contents (Elt F)),
    StableHlo.nullary main_cst_18 (constant S_ .f32 0x00000000#32),
    StableHlo.binary main_v118 main_cst_18 main_v119 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_19 (constant S_ .f32 0x48435000#32),
    StableHlo.unary main_cst_19 main_v120 (broadcastInDim S32 ![] bcast_S_S32 : (⟨S_, .f32⟩ : BufTy).Contents (Elt F) → (⟨S32, .f32⟩ : BufTy).Contents (Elt F)),
    StableHlo.binary main_v119 main_v120 main_v121 (Host.divf : (⟨S32, .f32⟩ : BufTy).Contents (Elt F) → (⟨S32, .f32⟩ : BufTy).Contents (Elt F) → (⟨S32, .f32⟩ : BufTy).Contents (Elt F)),
    StableHlo.nullary main_c_20 (constantI S_ 32 0#32),
    StableHlo.TRef.nullary main_call5.cst (constant S_ .f32 0x00000000#32),
    StableHlo.TRef.binary (.of main_v118) main_call5.cst main_call5.v0 (fun x v => Host.reduceAdd x v reducesTo_S200000x32_S32_d0 h_S_),
    StableHlo.TRef.unary main_call5.v0 main_call5.v1 (broadcastInDim S1x32 ![1] bcast_S32_S1x32_1),
    StableHlo.TRef.nullary main_call5.cst_0 (constant S_ .f32 0x48435000#32),
    StableHlo.TRef.unary main_call5.cst_0 main_call5.v2 (broadcastInDim S1x32 ![] bcast_S_S1x32),
    StableHlo.TRef.binary main_call5.v1 main_call5.v2 main_call5.v3 Host.divf,
    StableHlo.TRef.unary main_call5.v3 main_call5.v4 (broadcastInDim S200000x32 ![0, 1] bcast_S1x32_S200000x32_0_1),
    StableHlo.TRef.binary (.of main_v118) main_call5.v4 main_call5.v5 subf,
    StableHlo.TRef.binary main_call5.v5 main_call5.v5 main_call5.v6 mulf,
    StableHlo.TRef.unary (.of main_c_20) main_call5.v7 (sitofp .f32),
    StableHlo.TRef.nullary main_call5.cst_1 (constant S_ .f32 0x48435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S200000x32_S32_d0 h_S_),
    StableHlo.TRef.unary main_call5.v8 main_call5.v10 (broadcastInDim S32 ![] bcast_S_S32),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S32 ![] bcast_S_S32),
    StableHlo.TRef.ternary main_call5.v12 main_call5.v11 main_call5.call0.v1 main_call5.call0.v2 (fun p a b => select (broadcastInDim S32 ![] bcast_S_S32 p) a b),
    StableHlo.unary main_v121 main_v123 (broadcastInDim S1x32 ![1] bcast_S32_S1x32_1 : (⟨S32, .f32⟩ : BufTy).Contents (Elt F) → (⟨S1x32, .f32⟩ : BufTy).Contents (Elt F)),
    StableHlo.unary main_v123 main_v124 (broadcastInDim S200000x32 ![0, 1] bcast_S1x32_S200000x32_0_1 : (⟨S1x32, .f32⟩ : BufTy).Contents (Elt F) → (⟨S200000x32, .f32⟩ : BufTy).Contents (Elt F)),
    StableHlo.binary main_v118 main_v124 main_v125 (subf : (⟨S200000x32, .f32⟩ : BufTy).Contents (Elt F) → (⟨S200000x32, .f32⟩ : BufTy).Contents (Elt F) → (⟨S200000x32, .f32⟩ : BufTy).Contents (Elt F)),
    StableHlo.unary main_arg18 main_v126 (broadcastInDim S1x32 ![1] bcast_S32_S1x32_1 : (⟨S32, .f32⟩ : BufTy).Contents (Elt F) → (⟨S1x32, .f32⟩ : BufTy).Contents (Elt F)),
    StableHlo.unary main_v126 main_v127 (broadcastInDim S200000x32 ![0, 1] bcast_S1x32_S200000x32_0_1 : (⟨S1x32, .f32⟩ : BufTy).Contents (Elt F) → (⟨S200000x32, .f32⟩ : BufTy).Contents (Elt F)),
    StableHlo.binary main_v127 main_v125 main_v128 (mulf : (⟨S200000x32, .f32⟩ : BufTy).Contents (Elt F) → (⟨S200000x32, .f32⟩ : BufTy).Contents (Elt F) → (⟨S200000x32, .f32⟩ : BufTy).Contents (Elt F)),
    StableHlo.nullary main_cst_21 (constant S_ .f32 0x3727C5AC#32),
    StableHlo.unary main_cst_21 main_v129 (broadcastInDim S32 ![] bcast_S_S32 : (⟨S_, .f32⟩ : BufTy).Contents (Elt F) → (⟨S32, .f32⟩ : BufTy).Contents (Elt F)),
    StableHlo.binary main_v122 main_v129 main_v130 (addf : (⟨S32, .f32⟩ : BufTy).Contents (Elt F) → (⟨S32, .f32⟩ : BufTy).Contents (Elt F) → (⟨S32, .f32⟩ : BufTy).Contents (Elt F)),
    StableHlo.unary main_v130 main_v131 (Host.rsqrt : (⟨S32, .f32⟩ : BufTy).Contents (Elt F) → (⟨S32, .f32⟩ : BufTy).Contents (Elt F)),
    StableHlo.unary main_v131 main_v132 (broadcastInDim S1x32 ![1] bcast_S32_S1x32_1 : (⟨S32, .f32⟩ : BufTy).Contents (Elt F) → (⟨S1x32, .f32⟩ : BufTy).Contents (Elt F)),
    StableHlo.unary main_v132 main_v133 (broadcastInDim S200000x32 ![0, 1] bcast_S1x32_S200000x32_0_1 : (⟨S1x32, .f32⟩ : BufTy).Contents (Elt F) → (⟨S200000x32, .f32⟩ : BufTy).Contents (Elt F)),
    StableHlo.binary main_v128 main_v133 main_v134 (mulf : (⟨S200000x32, .f32⟩ : BufTy).Contents (Elt F) → (⟨S200000x32, .f32⟩ : BufTy).Contents (Elt F) → (⟨S200000x32, .f32⟩ : BufTy).Contents (Elt F)),
    StableHlo.unary main_arg19 main_v135 (broadcastInDim S1x32 ![1] bcast_S32_S1x32_1 : (⟨S32, .f32⟩ : BufTy).Contents (Elt F) → (⟨S1x32, .f32⟩ : BufTy).Contents (Elt F)),
    StableHlo.unary main_v135 main_v136 (broadcastInDim S200000x32 ![0, 1] bcast_S1x32_S200000x32_0_1 : (⟨S1x32, .f32⟩ : BufTy).Contents (Elt F) → (⟨S200000x32, .f32⟩ : BufTy).Contents (Elt F)),
    StableHlo.binary main_v134 main_v136 main_v137 (addf : (⟨S200000x32, .f32⟩ : BufTy).Contents (Elt F) → (⟨S200000x32, .f32⟩ : BufTy).Contents (Elt F) → (⟨S200000x32, .f32⟩ : BufTy).Contents (Elt F)) ]

/-- The buffers these operations write, in order. -/
abbrev blk2_W : List (Ref sig .tc) := [main_v92, main_v93, main_v94, main_v95, main_c_14, main_v96, main_v97, main_c_15, main_v98, main_v99, main_v100, main_v101, main_v102, main_cst_16, main_v103, main_v104, main_v105, main_cst_17, main_v106, main_v107, main_v108, main_v109, main_v110, main_v111, main_v112, main_v113, main_call4.cst.ref, main_call4.v0.ref, main_call4.v1.ref, main_v115, main_v116, main_v117, main_v118, main_cst_18, main_v119, main_cst_19, main_v120, main_v121, main_c_20, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v123, main_v124, main_v125, main_v126, main_v127, main_v128, main_cst_21, main_v129, main_v130, main_v131, main_v132, main_v133, main_v134, main_v135, main_v136, main_v137]

set_option maxRecDepth 8192 in
/-- Each operation writes one buffer, the one listed at its place. -/
theorem blk2_writes : (blk2 : List (HloOp τ sig (Elt F))).Forall fun op => op.writes ⊆ (blk2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem blk2_keep (V : Valuation τ sig (Elt F)) (r : Ref sig .tc) (h : r ∉ blk2_W) :
    after blk2 V (Proc.devRef .tc r) = V (Proc.devRef .tc r) :=
  after_of_writes_sub blk2 V blk2_writes h

/-- The contents after these operations, named: a rewriting rule about it is found by this name, not by the list. -/
def blk2_after (V : Valuation τ sig (Elt F)) : Valuation τ sig (Elt F) := after blk2 V

/-- The same, for rewriting (the buffer un-indexed: a literal buffer's reference unfolds). -/
theorem blk2_after_keep (V : Valuation τ sig (Elt F)) (r : Ref sig .tc) (h : r ∉ blk2_W) :
    blk2_after V (no_index (Proc.devRef .tc r)) = V (Proc.devRef .tc r) :=
  after_of_writes_sub blk2 V blk2_writes h

end Cert.ReferenceIdeal.RefRun

end
-- ==== Proof.RefBlocks.B3.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 77 operations of statements 162 … 215 of @main, in order, a call's being the callee's over that call's buffers. -/
abbrev blk3 : List (HloOp τ sig (Elt F)) :=
  [ StableHlo.unary main_arg3 main_v138 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v138 main_v139 rfl shapeCasts_S1x3200000_S3200000,
    StableHlo.unary main_arg3 main_v140 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v140 main_v141 rfl shapeCasts_S1x3200000_S3200000,
    StableHlo.nullary main_c_22 (constantI S_ 32 0#32),
    StableHlo.unary main_c_22 main_v142 (broadcastInDim S3200000 ![] bcast_S_S3200000 : (⟨S_, .i32⟩ : BufTy).Contents (Elt F) → (⟨S3200000, .i32⟩ : BufTy).Contents (Elt F)),
    StableHlo.binary main_v139 main_v142 main_v143 (cmpi .slt : (⟨S3200000, .i32⟩ : BufTy).Contents (Elt F) → (⟨S3200000, .i32⟩ : BufTy).Contents (Elt F) → (⟨S3200000, .i1⟩ : BufTy).Contents (Elt F)),
    StableHlo.nullary main_c_23 (constantI S_ 32 200000#32),
    StableHlo.unary main_c_23 main_v144 (broadcastInDim S3200000 ![] bcast_S_S3200000 : (⟨S_, .i32⟩ : BufTy).Contents (Elt F) → (⟨S3200000, .i32⟩ : BufTy).Contents (Elt F)),
    StableHlo.binary main_v139 main_v144 main_v145 (addi : (⟨S3200000, .i32⟩ : BufTy).Contents (Elt F) → (⟨S3200000, .i32⟩ : BufTy).Contents (Elt F) → (⟨S3200000, .i32⟩ : BufTy).Contents (Elt F)),
    StableHlo.ternary main_v143 main_v145 main_v139 main_v146 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v146 main_v147 (broadcastInDim S3200000x1 ![0] bcast_S3200000_S3200000x1_0 : (⟨S3200000, .i32⟩ : BufTy).Contents (Elt F) → (⟨S3200000x1, .i32⟩ : BufTy).Contents (Elt F)),
    StableHlo.binary main_v91 main_v147 main_v148 ((fun x i => Host.gather gather_S200000x64_S3200000x1_S3200000x64_1_0_n_n_0_1_164 x i) : (⟨S200000x64, .f32⟩ : BufTy).Contents (Elt F) → (⟨S3200000x1, .i32⟩ : BufTy).Contents (Elt F) → (⟨S3200000x64, .f32⟩ : BufTy).Contents (Elt F)),
    StableHlo.nullary main_cst_24 (constant S_ .f32 0x00000000#32),
    StableHlo.unary main_cst_24 main_v149 (broadcastInDim S200000x64 ![] bcast_S_S200000x64 : (⟨S_, .f32⟩ : BufTy).Contents (Elt F) → (⟨S200000x64, .f32⟩ : BufTy).Contents (Elt F)),
    StableHlo.unary main_v141 main_v150 (broadcastInDim S3200000x1 ![0] bcast_S3200000_S3200000x1_0 : (⟨S3200000, .i32⟩ : BufTy).Contents (Elt F) → (⟨S3200000x1, .i32⟩ : BufTy).Contents (Elt F)),
    StableHlo.ternary main_v149 main_v150 main_v148 main_v151 ((fun x i u => Host.scatterAdd scatter_S200000x64_S3200000x1_S3200000x64_1_0_0_1 x i u) : (⟨S200000x64, .f32⟩ : BufTy).Contents (Elt F) → (⟨S3200000x1, .i32⟩ : BufTy).Contents (Elt F) → (⟨S3200000x64, .f32⟩ : BufTy).Contents (Elt F) → (⟨S200000x64, .f32⟩ : BufTy).Contents (Elt F)),
    StableHlo.nullary main_cst_25 (constant S_ .f32 0x3F800000#32),
    StableHlo.binary main_cst_25 main_arg13 main_v152 (addf : (⟨S_, .f32⟩ : BufTy).Contents (Elt F) → (⟨S_, .f32⟩ : BufTy).Contents (Elt F) → (⟨S_, .f32⟩ : BufTy).Contents (Elt F)),
    StableHlo.unary main_v152 main_v153 (broadcastInDim S200000x64 ![] bcast_S_S200000x64 : (⟨S_, .f32⟩ : BufTy).Contents (Elt F) → (⟨S200000x64, .f32⟩ : BufTy).Contents (Elt F)),
    StableHlo.binary main_v153 main_v91 main_v154 (mulf : (⟨S200000x64, .f32⟩ : BufTy).Contents (Elt F) → (⟨S200000x64, .f32⟩ : BufTy).Contents (Elt F) → (⟨S200000x64, .f32⟩ : BufTy).Contents (Elt F)),
    StableHlo.binary main_v154 main_v151 main_v155 (addf : (⟨S200000x64, .f32⟩ : BufTy).Contents (Elt F) → (⟨S200000x64, .f32⟩ : BufTy).Contents (Elt F) → (⟨S200000x64, .f32⟩ : BufTy).Contents (Elt F)),
    StableHlo.binary main_v155 main_arg14 main_v156 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    StableHlo.unary main_arg15 main_v157 (broadcastInDim S1x32 ![1] bcast_S32_S1x32_1 : (⟨S32, .f32⟩ : BufTy).Contents (Elt F) → (⟨S1x32, .f32⟩ : BufTy).Contents (Elt F)),
    StableHlo.unary main_v157 main_v158 (broadcastInDim S200000x32 ![0, 1] bcast_S1x32_S200000x32_0_1 : (⟨S1x32, .f32⟩ : BufTy).Contents (Elt F) → (⟨S200000x32, .f32⟩ : BufTy).Contents (Elt F)),
    StableHlo.binary main_v156 main_v158 main_v159 (addf : (⟨S200000x32, .f32⟩ : BufTy).Contents (Elt F) → (⟨S200000x32, .f32⟩ : BufTy).Contents (Elt F) → (⟨S200000x32, .f32⟩ : BufTy).Contents (Elt F)),
    StableHlo.TRef.nullary main_call6.cst (constant S_ .f32 0x00000000#32),
    StableHlo.TRef.unary main_call6.cst main_call6.v0 (broadcastInDim S200000x32 ![] bcast_S_S200000x32),
    StableHlo.TRef.binary (.of main_v159) main_call6.v0 main_call6.v1 maximumf,
    StableHlo.binary main_v160 main_arg16 main_v161 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.unary main_arg17 main_v162 (broadcastInDim S1x32 ![1] bcast_S32_S1x32_1 : (⟨S32, .f32⟩ : BufTy).Contents (Elt F) → (⟨S1x32, .f32⟩ : BufTy).Contents (Elt F)),
    StableHlo.unary main_v162 main_v163 (broadcastInDim S200000x32 ![0, 1] bcast_S1x32_S200000x32_0_1 : (⟨S1x32, .f32⟩ : BufTy).Contents (Elt F) → (⟨S200000x32, .f32⟩ : BufTy).Contents (Elt F)),
    StableHlo.binary main_v161 main_v163 main_v164 (addf : (⟨S200000x32, .f32⟩ : BufTy).Contents (Elt F) → (⟨S200000x32, .f32⟩ : BufTy).Contents (Elt F) → (⟨S200000x32, .f32⟩ : BufTy).Contents (Elt F)),
    StableHlo.nullary main_cst_26 (constant S_ .f32 0x00000000#32),
    StableHlo.binary main_v164 main_cst_26 main_v165 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_27 (constant S_ .f32 0x48435000#32),
    StableHlo.unary main_cst_27 main_v166 (broadcastInDim S32 ![] bcast_S_S32 : (⟨S_, .f32⟩ : BufTy).Contents (Elt F) → (⟨S32, .f32⟩ : BufTy).Contents (Elt F)),
    StableHlo.binary main_v165 main_v166 main_v167 (Host.divf : (⟨S32, .f32⟩ : BufTy).Contents (Elt F) → (⟨S32, .f32⟩ : BufTy).Contents (Elt F) → (⟨S32, .f32⟩ : BufTy).Contents (Elt F)),
    StableHlo.nullary main_c_28 (constantI S_ 32 0#32),
    StableHlo.TRef.nullary main_call7.cst (constant S_ .f32 0x00000000#32),
    StableHlo.TRef.binary (.of main_v164) main_call7.cst main_call7.v0 (fun x v => Host.reduceAdd x v reducesTo_S200000x32_S32_d0 h_S_),
    StableHlo.TRef.unary main_call7.v0 main_call7.v1 (broadcastInDim S1x32 ![1] bcast_S32_S1x32_1),
    StableHlo.TRef.nullary main_call7.cst_0 (constant S_ .f32 0x48435000#32),
    StableHlo.TRef.unary main_call7.cst_0 main_call7.v2 (broadcastInDim S1x32 ![] bcast_S_S1x32),
    StableHlo.TRef.binary main_call7.v1 main_call7.v2 main_call7.v3 Host.divf,
    StableHlo.TRef.unary main_call7.v3 main_call7.v4 (broadcastInDim S200000x32 ![0, 1] bcast_S1x32_S200000x32_0_1),
    StableHlo.TRef.binary (.of main_v164) main_call7.v4 main_call7.v5 subf,
    StableHlo.TRef.binary main_call7.v5 main_call7.v5 main_call7.v6 mulf,
    StableHlo.TRef.unary (.of main_c_28) main_call7.v7 (sitofp .f32),
    StableHlo.TRef.nullary main_call7.cst_1 (constant S_ .f32 0x48435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S200000x32_S32_d0 h_S_),
    StableHlo.TRef.unary main_call7.v8 main_call7.v10 (broadcastInDim S32 ![] bcast_S_S32),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S32 ![] bcast_S_S32),
    StableHlo.TRef.ternary main_call7.v12 main_call7.v11 main_call7.call0.v1 main_call7.call0.v2 (fun p a b => select (broadcastInDim S32 ![] bcast_S_S32 p) a b),
    StableHlo.unary main_v167 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S200000x32 ![0, 1] bcast_S1x32_S200000x32_0_1 : (⟨S1x32, .f32⟩ : BufTy).Contents (Elt F) → (⟨S200000x32, .f32⟩ : BufTy).Contents (Elt F)),
    StableHlo.binary main_v164 main_v170 main_v171 (subf : (⟨S200000x32, .f32⟩ : BufTy).Contents (Elt F) → (⟨S200000x32, .f32⟩ : BufTy).Contents (Elt F) → (⟨S200000x32, .f32⟩ : BufTy).Contents (Elt F)),
    StableHlo.unary main_arg18 main_v172 (broadcastInDim S1x32 ![1] bcast_S32_S1x32_1 : (⟨S32, .f32⟩ : BufTy).Contents (Elt F) → (⟨S1x32, .f32⟩ : BufTy).Contents (Elt F)),
    StableHlo.unary main_v172 main_v173 (broadcastInDim S200000x32 ![0, 1] bcast_S1x32_S200000x32_0_1 : (⟨S1x32, .f32⟩ : BufTy).Contents (Elt F) → (⟨S200000x32, .f32⟩ : BufTy).Contents (Elt F)),
    StableHlo.binary main_v173 main_v171 main_v174 (mulf : (⟨S200000x32, .f32⟩ : BufTy).Contents (Elt F) → (⟨S200000x32, .f32⟩ : BufTy).Contents (Elt F) → (⟨S200000x32, .f32⟩ : BufTy).Contents (Elt F)),
    StableHlo.nullary main_cst_29 (constant S_ .f32 0x3727C5AC#32),
    StableHlo.unary main_cst_29 main_v175 (broadcastInDim S32 ![] bcast_S_S32 : (⟨S_, .f32⟩ : BufTy).Contents (Elt F) → (⟨S32, .f32⟩ : BufTy).Contents (Elt F)),
    StableHlo.binary main_v168 main_v175 main_v176 (addf : (⟨S32, .f32⟩ : BufTy).Contents (Elt F) → (⟨S32, .f32⟩ : BufTy).Contents (Elt F) → (⟨S32, .f32⟩ : BufTy).Contents (Elt F)),
    StableHlo.unary main_v176 main_v177 (Host.rsqrt : (⟨S32, .f32⟩ : BufTy).Contents (Elt F) → (⟨S32, .f32⟩ : BufTy).Contents (Elt F)),
    StableHlo.unary main_v177 main_v178 (broadcastInDim S1x32 ![1] bcast_S32_S1x32_1 : (⟨S32, .f32⟩ : BufTy).Contents (Elt F) → (⟨S1x32, .f32⟩ : BufTy).Contents (Elt F)),
    StableHlo.unary main_v178 main_v179 (broadcastInDim S200000x32 ![0, 1] bcast_S1x32_S200000x32_0_1 : (⟨S1x32, .f32⟩ : BufTy).Contents (Elt F) → (⟨S200000x32, .f32⟩ : BufTy).Contents (Elt F)),
    StableHlo.binary main_v174 main_v179 main_v180 (mulf : (⟨S200000x32, .f32⟩ : BufTy).Contents (Elt F) → (⟨S200000x32, .f32⟩ : BufTy).Contents (Elt F) → (⟨S200000x32, .f32⟩ : BufTy).Contents (Elt F)),
    StableHlo.unary main_arg19 main_v181 (broadcastInDim S1x32 ![1] bcast_S32_S1x32_1 : (⟨S32, .f32⟩ : BufTy).Contents (Elt F) → (⟨S1x32, .f32⟩ : BufTy).Contents (Elt F)),
    StableHlo.unary main_v181 main_v182 (broadcastInDim S200000x32 ![0, 1] bcast_S1x32_S200000x32_0_1 : (⟨S1x32, .f32⟩ : BufTy).Contents (Elt F) → (⟨S200000x32, .f32⟩ : BufTy).Contents (Elt F)),
    StableHlo.binary main_v180 main_v182 main_v183 (addf : (⟨S200000x32, .f32⟩ : BufTy).Contents (Elt F) → (⟨S200000x32, .f32⟩ : BufTy).Contents (Elt F) → (⟨S200000x32, .f32⟩ : BufTy).Contents (Elt F)) ]

/-- The buffers these operations write, in order. -/
abbrev blk3_W : List (Ref sig .tc) := [main_v138, main_v139, main_v140, main_v141, main_c_22, main_v142, main_v143, main_c_23, main_v144, main_v145, main_v146, main_v147, main_v148, main_cst_24, main_v149, main_v150, main_v151, main_cst_25, main_v152, main_v153, main_v154, main_v155, main_v156, main_v157, main_v158, main_v159, main_call6.cst.ref, main_call6.v0.ref, main_call6.v1.ref, main_v161, main_v162, main_v163, main_v164, main_cst_26, main_v165, main_cst_27, main_v166, main_v167, main_c_28, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref, main_v169, main_v170, main_v171, main_v172, main_v173, main_v174, main_cst_29, main_v175, main_v176, main_v177, main_v178, main_v179, main_v180, main_v181, main_v182, main_v183]

set_option maxRecDepth 8192 in
/-- Each operation writes one buffer, the one listed at its place. -/
theorem blk3_writes : (blk3 : List (HloOp τ sig (Elt F))).Forall fun op => op.writes ⊆ (blk3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem blk3_keep (V : Valuation τ sig (Elt F)) (r : Ref sig .tc) (h : r ∉ blk3_W) :
    after blk3 V (Proc.devRef .tc r) = V (Proc.devRef .tc r) :=
  after_of_writes_sub blk3 V blk3_writes h

/-- The contents after these operations, named: a rewriting rule about it is found by this name, not by the list. -/
def blk3_after (V : Valuation τ sig (Elt F)) : Valuation τ sig (Elt F) := after blk3 V

/-- The same, for rewriting (the buffer un-indexed: a literal buffer's reference unfolds). -/
theorem blk3_after_keep (V : Valuation τ sig (Elt F)) (r : Ref sig .tc) (h : r ∉ blk3_W) :
    blk3_after V (no_index (Proc.devRef .tc r)) = V (Proc.devRef .tc r) :=
  after_of_writes_sub blk3 V blk3_writes h

end Cert.ReferenceIdeal.RefRun

end
-- ==== Proof.RefBlocks.B4.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 77 operations of statements 216 … 269 of @main, in order, a call's being the callee's over that call's buffers. -/
abbrev blk4 : List (HloOp τ sig (Elt F)) :=
  [ StableHlo.unary main_arg2 main_v184 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v184 main_v185 rfl shapeCasts_S1x3200000_S3200000,
    StableHlo.unary main_arg2 main_v186 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v186 main_v187 rfl shapeCasts_S1x3200000_S3200000,
    StableHlo.nullary main_c_30 (constantI S_ 32 0#32),
    StableHlo.unary main_c_30 main_v188 (broadcastInDim S3200000 ![] bcast_S_S3200000 : (⟨S_, .i32⟩ : BufTy).Contents (Elt F) → (⟨S3200000, .i32⟩ : BufTy).Contents (Elt F)),
    StableHlo.binary main_v185 main_v188 main_v189 (cmpi .slt : (⟨S3200000, .i32⟩ : BufTy).Contents (Elt F) → (⟨S3200000, .i32⟩ : BufTy).Contents (Elt F) → (⟨S3200000, .i1⟩ : BufTy).Contents (Elt F)),
    StableHlo.nullary main_c_31 (constantI S_ 32 200000#32),
    StableHlo.unary main_c_31 main_v190 (broadcastInDim S3200000 ![] bcast_S_S3200000 : (⟨S_, .i32⟩ : BufTy).Contents (Elt F) → (⟨S3200000, .i32⟩ : BufTy).Contents (Elt F)),
    StableHlo.binary main_v185 main_v190 main_v191 (addi : (⟨S3200000, .i32⟩ : BufTy).Contents (Elt F) → (⟨S3200000, .i32⟩ : BufTy).Contents (Elt F) → (⟨S3200000, .i32⟩ : BufTy).Contents (Elt F)),
    StableHlo.ternary main_v189 main_v191 main_v185 main_v192 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v192 main_v193 (broadcastInDim S3200000x1 ![0] bcast_S3200000_S3200000x1_0 : (⟨S3200000, .i32⟩ : BufTy).Contents (Elt F) → (⟨S3200000x1, .i32⟩ : BufTy).Contents (Elt F)),
    StableHlo.binary main_v137 main_v193 main_v194 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    StableHlo.nullary main_cst_32 (constant S_ .f32 0x00000000#32),
    StableHlo.unary main_cst_32 main_v195 (broadcastInDim S200000x32 ![] bcast_S_S200000x32 : (⟨S_, .f32⟩ : BufTy).Contents (Elt F) → (⟨S200000x32, .f32⟩ : BufTy).Contents (Elt F)),
    StableHlo.unary main_v187 main_v196 (broadcastInDim S3200000x1 ![0] bcast_S3200000_S3200000x1_0 : (⟨S3200000, .i32⟩ : BufTy).Contents (Elt F) → (⟨S3200000x1, .i32⟩ : BufTy).Contents (Elt F)),
    StableHlo.ternary main_v195 main_v196 main_v194 main_v197 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    StableHlo.nullary main_cst_33 (constant S_ .f32 0x3F800000#32),
    StableHlo.binary main_cst_33 main_arg20 main_v198 (addf : (⟨S_, .f32⟩ : BufTy).Contents (Elt F) → (⟨S_, .f32⟩ : BufTy).Contents (Elt F) → (⟨S_, .f32⟩ : BufTy).Contents (Elt F)),
    StableHlo.unary main_v198 main_v199 (broadcastInDim S200000x32 ![] bcast_S_S200000x32 : (⟨S_, .f32⟩ : BufTy).Contents (Elt F) → (⟨S200000x32, .f32⟩ : BufTy).Contents (Elt F)),
    StableHlo.binary main_v199 main_v137 main_v200 (mulf : (⟨S200000x32, .f32⟩ : BufTy).Contents (Elt F) → (⟨S200000x32, .f32⟩ : BufTy).Contents (Elt F) → (⟨S200000x32, .f32⟩ : BufTy).Contents (Elt F)),
    StableHlo.binary main_v200 main_v197 main_v201 (addf : (⟨S200000x32, .f32⟩ : BufTy).Contents (Elt F) → (⟨S200000x32, .f32⟩ : BufTy).Contents (Elt F) → (⟨S200000x32, .f32⟩ : BufTy).Contents (Elt F)),
    StableHlo.binary main_v201 main_arg21 main_v202 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    StableHlo.unary main_arg22 main_v203 (broadcastInDim S1x16 ![1] bcast_S16_S1x16_1 : (⟨S16, .f32⟩ : BufTy).Contents (Elt F) → (⟨S1x16, .f32⟩ : BufTy).Contents (Elt F)),
    StableHlo.unary main_v203 main_v204 (broadcastInDim S200000x16 ![0, 1] bcast_S1x16_S200000x16_0_1 : (⟨S1x16, .f32⟩ : BufTy).Contents (Elt F) → (⟨S200000x16, .f32⟩ : BufTy).Contents (Elt F)),
    StableHlo.binary main_v202 main_v204 main_v205 (addf : (⟨S200000x16, .f32⟩ : BufTy).Contents (Elt F) → (⟨S200000x16, .f32⟩ : BufTy).Contents (Elt F) → (⟨S200000x16, .f32⟩ : BufTy).Contents (Elt F)),
    StableHlo.TRef.nullary main_call8.cst (constant S_ .f32 0x00000000#32),
    StableHlo.TRef.unary main_call8.cst main_call8.v0 (broadcastInDim S200000x16 ![] bcast_S_S200000x16),
    StableHlo.TRef.binary (.of main_v205) main_call8.v0 main_call8.v1 maximumf,
    StableHlo.binary main_v206 main_arg23 main_v207 ((fun l r => Host.dotGeneral dot_S200000x16_S16x16_S200000x16_1_0_0_1_n_n none l r) : (⟨S200000x16, .f32⟩ : BufTy).Contents (Elt F) → (⟨S16x16, .f32⟩ : BufTy).Contents (Elt F) → (⟨S200000x16, .f32⟩ : BufTy).Contents (Elt F)),
    StableHlo.unary main_arg24 main_v208 (broadcastInDim S1x16 ![1] bcast_S16_S1x16_1 : (⟨S16, .f32⟩ : BufTy).Contents (Elt F) → (⟨S1x16, .f32⟩ : BufTy).Contents (Elt F)),
    StableHlo.unary main_v208 main_v209 (broadcastInDim S200000x16 ![0, 1] bcast_S1x16_S200000x16_0_1 : (⟨S1x16, .f32⟩ : BufTy).Contents (Elt F) → (⟨S200000x16, .f32⟩ : BufTy).Contents (Elt F)),
    StableHlo.binary main_v207 main_v209 main_v210 (addf : (⟨S200000x16, .f32⟩ : BufTy).Contents (Elt F) → (⟨S200000x16, .f32⟩ : BufTy).Contents (Elt F) → (⟨S200000x16, .f32⟩ : BufTy).Contents (Elt F)),
    StableHlo.nullary main_cst_34 (constant S_ .f32 0x00000000#32),
    StableHlo.binary main_v210 main_cst_34 main_v211 ((fun x v => Host.reduceAdd x v reducesTo_S200000x16_S16_d0 h_S_) : (⟨S200000x16, .f32⟩ : BufTy).Contents (Elt F) → (⟨S_, .f32⟩ : BufTy).Contents (Elt F) → (⟨S16, .f32⟩ : BufTy).Contents (Elt F)),
    StableHlo.nullary main_cst_35 (constant S_ .f32 0x48435000#32),
    StableHlo.unary main_cst_35 main_v212 (broadcastInDim S16 ![] bcast_S_S16 : (⟨S_, .f32⟩ : BufTy).Contents (Elt F) → (⟨S16, .f32⟩ : BufTy).Contents (Elt F)),
    StableHlo.binary main_v211 main_v212 main_v213 (Host.divf : (⟨S16, .f32⟩ : BufTy).Contents (Elt F) → (⟨S16, .f32⟩ : BufTy).Contents (Elt F) → (⟨S16, .f32⟩ : BufTy).Contents (Elt F)),
    StableHlo.nullary main_c_36 (constantI S_ 32 0#32),
    StableHlo.TRef.nullary main_call9.cst (constant S_ .f32 0x00000000#32),
    StableHlo.TRef.binary (.of main_v210) main_call9.cst main_call9.v0 (fun x v => Host.reduceAdd x v reducesTo_S200000x16_S16_d0 h_S_),
    StableHlo.TRef.unary main_call9.v0 main_call9.v1 (broadcastInDim S1x16 ![1] bcast_S16_S1x16_1),
    StableHlo.TRef.nullary main_call9.cst_0 (constant S_ .f32 0x48435000#32),
    StableHlo.TRef.unary main_call9.cst_0 main_call9.v2 (broadcastInDim S1x16 ![] bcast_S_S1x16),
    StableHlo.TRef.binary main_call9.v1 main_call9.v2 main_call9.v3 Host.divf,
    StableHlo.TRef.unary main_call9.v3 main_call9.v4 (broadcastInDim S200000x16 ![0, 1] bcast_S1x16_S200000x16_0_1),
    StableHlo.TRef.binary (.of main_v210) main_call9.v4 main_call9.v5 subf,
    StableHlo.TRef.binary main_call9.v5 main_call9.v5 main_call9.v6 mulf,
    StableHlo.TRef.unary (.of main_c_36) main_call9.v7 (sitofp .f32),
    StableHlo.TRef.nullary main_call9.cst_1 (constant S_ .f32 0x48435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S200000x16_S16_d0 h_S_),
    StableHlo.TRef.unary main_call9.v8 main_call9.v10 (broadcastInDim S16 ![] bcast_S_S16),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S16 ![] bcast_S_S16),
    StableHlo.TRef.ternary main_call9.v12 main_call9.v11 main_call9.call0.v1 main_call9.call0.v2 (fun p a b => select (broadcastInDim S16 ![] bcast_S_S16 p) a b),
    StableHlo.unary main_v213 main_v215 (broadcastInDim S1x16 ![1] bcast_S16_S1x16_1 : (⟨S16, .f32⟩ : BufTy).Contents (Elt F) → (⟨S1x16, .f32⟩ : BufTy).Contents (Elt F)),
    StableHlo.unary main_v215 main_v216 (broadcastInDim S200000x16 ![0, 1] bcast_S1x16_S200000x16_0_1 : (⟨S1x16, .f32⟩ : BufTy).Contents (Elt F) → (⟨S200000x16, .f32⟩ : BufTy).Contents (Elt F)),
    StableHlo.binary main_v210 main_v216 main_v217 (subf : (⟨S200000x16, .f32⟩ : BufTy).Contents (Elt F) → (⟨S200000x16, .f32⟩ : BufTy).Contents (Elt F) → (⟨S200000x16, .f32⟩ : BufTy).Contents (Elt F)),
    StableHlo.unary main_arg25 main_v218 (broadcastInDim S1x16 ![1] bcast_S16_S1x16_1 : (⟨S16, .f32⟩ : BufTy).Contents (Elt F) → (⟨S1x16, .f32⟩ : BufTy).Contents (Elt F)),
    StableHlo.unary main_v218 main_v219 (broadcastInDim S200000x16 ![0, 1] bcast_S1x16_S200000x16_0_1 : (⟨S1x16, .f32⟩ : BufTy).Contents (Elt F) → (⟨S200000x16, .f32⟩ : BufTy).Contents (Elt F)),
    StableHlo.binary main_v219 main_v217 main_v220 (mulf : (⟨S200000x16, .f32⟩ : BufTy).Contents (Elt F) → (⟨S200000x16, .f32⟩ : BufTy).Contents (Elt F) → (⟨S200000x16, .f32⟩ : BufTy).Contents (Elt F)),
    StableHlo.nullary main_cst_37 (constant S_ .f32 0x3727C5AC#32),
    StableHlo.unary main_cst_37 main_v221 (broadcastInDim S16 ![] bcast_S_S16 : (⟨S_, .f32⟩ : BufTy).Contents (Elt F) → (⟨S16, .f32⟩ : BufTy).Contents (Elt F)),
    StableHlo.binary main_v214 main_v221 main_v222 (addf : (⟨S16, .f32⟩ : BufTy).Contents (Elt F) → (⟨S16, .f32⟩ : BufTy).Contents (Elt F) → (⟨S16, .f32⟩ : BufTy).Contents (Elt F)),
    StableHlo.unary main_v222 main_v223 (Host.rsqrt : (⟨S16, .f32⟩ : BufTy).Contents (Elt F) → (⟨S16, .f32⟩ : BufTy).Contents (Elt F)),
    StableHlo.unary main_v223 main_v224 (broadcastInDim S1x16 ![1] bcast_S16_S1x16_1 : (⟨S16, .f32⟩ : BufTy).Contents (Elt F) → (⟨S1x16, .f32⟩ : BufTy).Contents (Elt F)),
    StableHlo.unary main_v224 main_v225 (broadcastInDim S200000x16 ![0, 1] bcast_S1x16_S200000x16_0_1 : (⟨S1x16, .f32⟩ : BufTy).Contents (Elt F) → (⟨S200000x16, .f32⟩ : BufTy).Contents (Elt F)),
    StableHlo.binary main_v220 main_v225 main_v226 (mulf : (⟨S200000x16, .f32⟩ : BufTy).Contents (Elt F) → (⟨S200000x16, .f32⟩ : BufTy).Contents (Elt F) → (⟨S200000x16, .f32⟩ : BufTy).Contents (Elt F)),
    StableHlo.unary main_arg26 main_v227 (broadcastInDim S1x16 ![1] bcast_S16_S1x16_1 : (⟨S16, .f32⟩ : BufTy).Contents (Elt F) → (⟨S1x16, .f32⟩ : BufTy).Contents (Elt F)),
    StableHlo.unary main_v227 main_v228 (broadcastInDim S200000x16 ![0, 1] bcast_S1x16_S200000x16_0_1 : (⟨S1x16, .f32⟩ : BufTy).Contents (Elt F) → (⟨S200000x16, .f32⟩ : BufTy).Contents (Elt F)),
    StableHlo.binary main_v226 main_v228 main_v229 (addf : (⟨S200000x16, .f32⟩ : BufTy).Contents (Elt F) → (⟨S200000x16, .f32⟩ : BufTy).Contents (Elt F) → (⟨S200000x16, .f32⟩ : BufTy).Contents (Elt F)) ]

/-- The buffers these operations write, in order. -/
abbrev blk4_W : List (Ref sig .tc) := [main_v184, main_v185, main_v186, main_v187, main_c_30, main_v188, main_v189, main_c_31, main_v190, main_v191, main_v192, main_v193, main_v194, main_cst_32, main_v195, main_v196, main_v197, main_cst_33, main_v198, main_v199, main_v200, main_v201, main_v202, main_v203, main_v204, main_v205, main_call8.cst.ref, main_call8.v0.ref, main_call8.v1.ref, main_v207, main_v208, main_v209, main_v210, main_cst_34, main_v211, main_cst_35, main_v212, main_v213, main_c_36, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.cst_3.ref, main_call9.v12.ref, main_call9.cst_4.ref, main_call9.call0.v0.ref, main_call9.call0.v1.ref, main_call9.call0.v2.ref, main_v215, main_v216, main_v217, main_v218, main_v219, main_v220, main_cst_37, main_v221, main_v222, main_v223, main_v224, main_v225, main_v226, main_v227, main_v228, main_v229]

set_option maxRecDepth 8192 in
/-- Each operation writes one buffer, the one listed at its place. -/
theorem blk4_writes : (blk4 : List (HloOp τ sig (Elt F))).Forall fun op => op.writes ⊆ (blk4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem blk4_keep (V : Valuation τ sig (Elt F)) (r : Ref sig .tc) (h : r ∉ blk4_W) :
    after blk4 V (Proc.devRef .tc r) = V (Proc.devRef .tc r) :=
  after_of_writes_sub blk4 V blk4_writes h

/-- The contents after these operations, named: a rewriting rule about it is found by this name, not by the list. -/
def blk4_after (V : Valuation τ sig (Elt F)) : Valuation τ sig (Elt F) := after blk4 V

/-- The same, for rewriting (the buffer un-indexed: a literal buffer's reference unfolds). -/
theorem blk4_after_keep (V : Valuation τ sig (Elt F)) (r : Ref sig .tc) (h : r ∉ blk4_W) :
    blk4_after V (no_index (Proc.devRef .tc r)) = V (Proc.devRef .tc r) :=
  after_of_writes_sub blk4 V blk4_writes h

end Cert.ReferenceIdeal.RefRun

end
-- ==== Proof.RefBlocks.B5.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 77 operations of statements 270 … 323 of @main, in order, a call's being the callee's over that call's buffers. -/
abbrev blk5 : List (HloOp τ sig (Elt F)) :=
  [ StableHlo.unary main_arg3 main_v230 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v230 main_v231 rfl shapeCasts_S1x3200000_S3200000,
    StableHlo.unary main_arg3 main_v232 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v232 main_v233 rfl shapeCasts_S1x3200000_S3200000,
    StableHlo.nullary main_c_38 (constantI S_ 32 0#32),
    StableHlo.unary main_c_38 main_v234 (broadcastInDim S3200000 ![] bcast_S_S3200000 : (⟨S_, .i32⟩ : BufTy).Contents (Elt F) → (⟨S3200000, .i32⟩ : BufTy).Contents (Elt F)),
    StableHlo.binary main_v231 main_v234 main_v235 (cmpi .slt : (⟨S3200000, .i32⟩ : BufTy).Contents (Elt F) → (⟨S3200000, .i32⟩ : BufTy).Contents (Elt F) → (⟨S3200000, .i1⟩ : BufTy).Contents (Elt F)),
    StableHlo.nullary main_c_39 (constantI S_ 32 200000#32),
    StableHlo.unary main_c_39 main_v236 (broadcastInDim S3200000 ![] bcast_S_S3200000 : (⟨S_, .i32⟩ : BufTy).Contents (Elt F) → (⟨S3200000, .i32⟩ : BufTy).Contents (Elt F)),
    StableHlo.binary main_v231 main_v236 main_v237 (addi : (⟨S3200000, .i32⟩ : BufTy).Contents (Elt F) → (⟨S3200000, .i32⟩ : BufTy).Contents (Elt F) → (⟨S3200000, .i32⟩ : BufTy).Contents (Elt F)),
    StableHlo.ternary main_v235 main_v237 main_v231 main_v238 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v238 main_v239 (broadcastInDim S3200000x1 ![0] bcast_S3200000_S3200000x1_0 : (⟨S3200000, .i32⟩ : BufTy).Contents (Elt F) → (⟨S3200000x1, .i32⟩ : BufTy).Contents (Elt F)),
    StableHlo.binary main_v183 main_v239 main_v240 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    StableHlo.nullary main_cst_40 (constant S_ .f32 0x00000000#32),
    StableHlo.unary main_cst_40 main_v241 (broadcastInDim S200000x32 ![] bcast_S_S200000x32 : (⟨S_, .f32⟩ : BufTy).Contents (Elt F) → (⟨S200000x32, .f32⟩ : BufTy).Contents (Elt F)),
    StableHlo.unary main_v233 main_v242 (broadcastInDim S3200000x1 ![0] bcast_S3200000_S3200000x1_0 : (⟨S3200000, .i32⟩ : BufTy).Contents (Elt F) → (⟨S3200000x1, .i32⟩ : BufTy).Contents (Elt F)),
    StableHlo.ternary main_v241 main_v242 main_v240 main_v243 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    StableHlo.nullary main_cst_41 (constant S_ .f32 0x3F800000#32),
    StableHlo.binary main_cst_41 main_arg20 main_v244 (addf : (⟨S_, .f32⟩ : BufTy).Contents (Elt F) → (⟨S_, .f32⟩ : BufTy).Contents (Elt F) → (⟨S_, .f32⟩ : BufTy).Contents (Elt F)),
    StableHlo.unary main_v244 main_v245 (broadcastInDim S200000x32 ![] bcast_S_S200000x32 : (⟨S_, .f32⟩ : BufTy).Contents (Elt F) → (⟨S200000x32, .f32⟩ : BufTy).Contents (Elt F)),
    StableHlo.binary main_v245 main_v183 main_v246 (mulf : (⟨S200000x32, .f32⟩ : BufTy).Contents (Elt F) → (⟨S200000x32, .f32⟩ : BufTy).Contents (Elt F) → (⟨S200000x32, .f32⟩ : BufTy).Contents (Elt F)),
    StableHlo.binary main_v246 main_v243 main_v247 (addf : (⟨S200000x32, .f32⟩ : BufTy).Contents (Elt F) → (⟨S200000x32, .f32⟩ : BufTy).Contents (Elt F) → (⟨S200000x32, .f32⟩ : BufTy).Contents (Elt F)),
    StableHlo.binary main_v247 main_arg21 main_v248 ((fun l r => Host.dotGeneral dot_S200000x32_S32x16_S200000x16_1_0_0_1_n_n none l r) : (⟨S200000x32, .f32⟩ : BufTy).Contents (Elt F) → (⟨S32x16, .f32⟩ : BufTy).Contents (Elt F) → (⟨S200000x16, .f32⟩ : BufTy).Contents (Elt F)),
    StableHlo.unary main_arg22 main_v249 (broadcastInDim S1x16 ![1] bcast_S16_S1x16_1 : (⟨S16, .f32⟩ : BufTy).Contents (Elt F) → (⟨S1x16, .f32⟩ : BufTy).Contents (Elt F)),
    StableHlo.unary main_v249 main_v250 (broadcastInDim S200000x16 ![0, 1] bcast_S1x16_S200000x16_0_1 : (⟨S1x16, .f32⟩ : BufTy).Contents (Elt F) → (⟨S200000x16, .f32⟩ : BufTy).Contents (Elt F)),
    StableHlo.binary main_v248 main_v250 main_v251 (addf : (⟨S200000x16, .f32⟩ : BufTy).Contents (Elt F) → (⟨S200000x16, .f32⟩ : BufTy).Contents (Elt F) → (⟨S200000x16, .f32⟩ : BufTy).Contents (Elt F)),
    StableHlo.TRef.nullary main_call10.cst (constant S_ .f32 0x00000000#32),
    StableHlo.TRef.unary main_call10.cst main_call10.v0 (broadcastInDim S200000x16 ![] bcast_S_S200000x16),
    StableHlo.TRef.binary (.of main_v251) main_call10.v0 main_call10.v1 maximumf,
    StableHlo.binary main_v252 main_arg23 main_v253 ((fun l r => Host.dotGeneral dot_S200000x16_S16x16_S200000x16_1_0_0_1_n_n none l r) : (⟨S200000x16, .f32⟩ : BufTy).Contents (Elt F) → (⟨S16x16, .f32⟩ : BufTy).Contents (Elt F) → (⟨S200000x16, .f32⟩ : BufTy).Contents (Elt F)),
    StableHlo.unary main_arg24 main_v254 (broadcastInDim S1x16 ![1] bcast_S16_S1x16_1 : (⟨S16, .f32⟩ : BufTy).Contents (Elt F) → (⟨S1x16, .f32⟩ : BufTy).Contents (Elt F)),
    StableHlo.unary main_v254 main_v255 (broadcastInDim S200000x16 ![0, 1] bcast_S1x16_S200000x16_0_1 : (⟨S1x16, .f32⟩ : BufTy).Contents (Elt F) → (⟨S200000x16, .f32⟩ : BufTy).Contents (Elt F)),
    StableHlo.binary main_v253 main_v255 main_v256 (addf : (⟨S200000x16, .f32⟩ : BufTy).Contents (Elt F) → (⟨S200000x16, .f32⟩ : BufTy).Contents (Elt F) → (⟨S200000x16, .f32⟩ : BufTy).Contents (Elt F)),
    StableHlo.nullary main_cst_42 (constant S_ .f32 0x00000000#32),
    StableHlo.binary main_v256 main_cst_42 main_v257 ((fun x v => Host.reduceAdd x v reducesTo_S200000x16_S16_d0 h_S_) : (⟨S200000x16, .f32⟩ : BufTy).Contents (Elt F) → (⟨S_, .f32⟩ : BufTy).Contents (Elt F) → (⟨S16, .f32⟩ : BufTy).Contents (Elt F)),
    StableHlo.nullary main_cst_43 (constant S_ .f32 0x48435000#32),
    StableHlo.unary main_cst_43 main_v258 (broadcastInDim S16 ![] bcast_S_S16 : (⟨S_, .f32⟩ : BufTy).Contents (Elt F) → (⟨S16, .f32⟩ : BufTy).Contents (Elt F)),
    StableHlo.binary main_v257 main_v258 main_v259 (Host.divf : (⟨S16, .f32⟩ : BufTy).Contents (Elt F) → (⟨S16, .f32⟩ : BufTy).Contents (Elt F) → (⟨S16, .f32⟩ : BufTy).Contents (Elt F)),
    StableHlo.nullary main_c_44 (constantI S_ 32 0#32),
    StableHlo.TRef.nullary main_call11.cst (constant S_ .f32 0x00000000#32),
    StableHlo.TRef.binary (.of main_v256) main_call11.cst main_call11.v0 (fun x v => Host.reduceAdd x v reducesTo_S200000x16_S16_d0 h_S_),
    StableHlo.TRef.unary main_call11.v0 main_call11.v1 (broadcastInDim S1x16 ![1] bcast_S16_S1x16_1),
    StableHlo.TRef.nullary main_call11.cst_0 (constant S_ .f32 0x48435000#32),
    StableHlo.TRef.unary main_call11.cst_0 main_call11.v2 (broadcastInDim S1x16 ![] bcast_S_S1x16),
    StableHlo.TRef.binary main_call11.v1 main_call11.v2 main_call11.v3 Host.divf,
    StableHlo.TRef.unary main_call11.v3 main_call11.v4 (broadcastInDim S200000x16 ![0, 1] bcast_S1x16_S200000x16_0_1),
    StableHlo.TRef.binary (.of main_v256) main_call11.v4 main_call11.v5 subf,
    StableHlo.TRef.binary main_call11.v5 main_call11.v5 main_call11.v6 mulf,
    StableHlo.TRef.unary (.of main_c_44) main_call11.v7 (sitofp .f32),
    StableHlo.TRef.nullary main_call11.cst_1 (constant S_ .f32 0x48435000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S200000x16_S16_d0 h_S_),
    StableHlo.TRef.unary main_call11.v8 main_call11.v10 (broadcastInDim S16 ![] bcast_S_S16),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S16 ![] bcast_S_S16),
    StableHlo.TRef.ternary main_call11.v12 main_call11.v11 main_call11.call0.v1 main_call11.call0.v2 (fun p a b => select (broadcastInDim S16 ![] bcast_S_S16 p) a b),
    StableHlo.unary main_v259 main_v261 (broadcastInDim S1x16 ![1] bcast_S16_S1x16_1 : (⟨S16, .f32⟩ : BufTy).Contents (Elt F) → (⟨S1x16, .f32⟩ : BufTy).Contents (Elt F)),
    StableHlo.unary main_v261 main_v262 (broadcastInDim S200000x16 ![0, 1] bcast_S1x16_S200000x16_0_1 : (⟨S1x16, .f32⟩ : BufTy).Contents (Elt F) → (⟨S200000x16, .f32⟩ : BufTy).Contents (Elt F)),
    StableHlo.binary main_v256 main_v262 main_v263 (subf : (⟨S200000x16, .f32⟩ : BufTy).Contents (Elt F) → (⟨S200000x16, .f32⟩ : BufTy).Contents (Elt F) → (⟨S200000x16, .f32⟩ : BufTy).Contents (Elt F)),
    StableHlo.unary main_arg25 main_v264 (broadcastInDim S1x16 ![1] bcast_S16_S1x16_1 : (⟨S16, .f32⟩ : BufTy).Contents (Elt F) → (⟨S1x16, .f32⟩ : BufTy).Contents (Elt F)),
    StableHlo.unary main_v264 main_v265 (broadcastInDim S200000x16 ![0, 1] bcast_S1x16_S200000x16_0_1 : (⟨S1x16, .f32⟩ : BufTy).Contents (Elt F) → (⟨S200000x16, .f32⟩ : BufTy).Contents (Elt F)),
    StableHlo.binary main_v265 main_v263 main_v266 (mulf : (⟨S200000x16, .f32⟩ : BufTy).Contents (Elt F) → (⟨S200000x16, .f32⟩ : BufTy).Contents (Elt F) → (⟨S200000x16, .f32⟩ : BufTy).Contents (Elt F)),
    StableHlo.nullary main_cst_45 (constant S_ .f32 0x3727C5AC#32),
    StableHlo.unary main_cst_45 main_v267 (broadcastInDim S16 ![] bcast_S_S16 : (⟨S_, .f32⟩ : BufTy).Contents (Elt F) → (⟨S16, .f32⟩ : BufTy).Contents (Elt F)),
    StableHlo.binary main_v260 main_v267 main_v268 (addf : (⟨S16, .f32⟩ : BufTy).Contents (Elt F) → (⟨S16, .f32⟩ : BufTy).Contents (Elt F) → (⟨S16, .f32⟩ : BufTy).Contents (Elt F)),
    StableHlo.unary main_v268 main_v269 (Host.rsqrt : (⟨S16, .f32⟩ : BufTy).Contents (Elt F) → (⟨S16, .f32⟩ : BufTy).Contents (Elt F)),
    StableHlo.unary main_v269 main_v270 (broadcastInDim S1x16 ![1] bcast_S16_S1x16_1 : (⟨S16, .f32⟩ : BufTy).Contents (Elt F) → (⟨S1x16, .f32⟩ : BufTy).Contents (Elt F)),
    StableHlo.unary main_v270 main_v271 (broadcastInDim S200000x16 ![0, 1] bcast_S1x16_S200000x16_0_1 : (⟨S1x16, .f32⟩ : BufTy).Contents (Elt F) → (⟨S200000x16, .f32⟩ : BufTy).Contents (Elt F)),
    StableHlo.binary main_v266 main_v271 main_v272 (mulf : (⟨S200000x16, .f32⟩ : BufTy).Contents (Elt F) → (⟨S200000x16, .f32⟩ : BufTy).Contents (Elt F) → (⟨S200000x16, .f32⟩ : BufTy).Contents (Elt F)),
    StableHlo.unary main_arg26 main_v273 (broadcastInDim S1x16 ![1] bcast_S16_S1x16_1 : (⟨S16, .f32⟩ : BufTy).Contents (Elt F) → (⟨S1x16, .f32⟩ : BufTy).Contents (Elt F)),
    StableHlo.unary main_v273 main_v274 (broadcastInDim S200000x16 ![0, 1] bcast_S1x16_S200000x16_0_1 : (⟨S1x16, .f32⟩ : BufTy).Contents (Elt F) → (⟨S200000x16, .f32⟩ : BufTy).Contents (Elt F)),
    StableHlo.binary main_v272 main_v274 main_v275 (addf : (⟨S200000x16, .f32⟩ : BufTy).Contents (Elt F) → (⟨S200000x16, .f32⟩ : BufTy).Contents (Elt F) → (⟨S200000x16, .f32⟩ : BufTy).Contents (Elt F)) ]

/-- The buffers these operations write, in order. -/
abbrev blk5_W : List (Ref sig .tc) := [main_v230, main_v231, main_v232, main_v233, main_c_38, main_v234, main_v235, main_c_39, main_v236, main_v237, main_v238, main_v239, main_v240, main_cst_40, main_v241, main_v242, main_v243, main_cst_41, main_v244, main_v245, main_v246, main_v247, main_v248, main_v249, main_v250, main_v251, main_call10.cst.ref, main_call10.v0.ref, main_call10.v1.ref, main_v253, main_v254, main_v255, main_v256, main_cst_42, main_v257, main_cst_43, main_v258, main_v259, main_c_44, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.cst_3.ref, main_call11.v12.ref, main_call11.cst_4.ref, main_call11.call0.v0.ref, main_call11.call0.v1.ref, main_call11.call0.v2.ref, main_v261, main_v262, main_v263, main_v264, main_v265, main_v266, main_cst_45, main_v267, main_v268, main_v269, main_v270, main_v271, main_v272, main_v273, main_v274, main_v275]

set_option maxRecDepth 8192 in
/-- Each operation writes one buffer, the one listed at its place. -/
theorem blk5_writes : (blk5 : List (HloOp τ sig (Elt F))).Forall fun op => op.writes ⊆ (blk5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem blk5_keep (V : Valuation τ sig (Elt F)) (r : Ref sig .tc) (h : r ∉ blk5_W) :
    after blk5 V (Proc.devRef .tc r) = V (Proc.devRef .tc r) :=
  after_of_writes_sub blk5 V blk5_writes h

/-- The contents after these operations, named: a rewriting rule about it is found by this name, not by the list. -/
def blk5_after (V : Valuation τ sig (Elt F)) : Valuation τ sig (Elt F) := after blk5 V

/-- The same, for rewriting (the buffer un-indexed: a literal buffer's reference unfolds). -/
theorem blk5_after_keep (V : Valuation τ sig (Elt F)) (r : Ref sig .tc) (h : r ∉ blk5_W) :
    blk5_after V (no_index (Proc.devRef .tc r)) = V (Proc.devRef .tc r) :=
  after_of_writes_sub blk5 V blk5_writes h

end Cert.ReferenceIdeal.RefRun

end
-- ==== Proof.RefBlocks.T0.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 54 operations of statements 324 … 377 of @main, in order, a call's being the callee's over that call's buffers. -/
abbrev t0 : List (HloOp τ sig (Elt F)) :=
  [ StableHlo.nullary main_cst_46 (constant S_ .f32 0x3F800000#32),
    StableHlo.unary main_cst_46 main_v276 (broadcastInDim S200000x1 ![] bcast_S_S200000x1 : (⟨S_, .f32⟩ : BufTy).Contents (Elt F) → (⟨S200000x1, .f32⟩ : BufTy).Contents (Elt F)),
    StableHlo.nullary main_cst_47 (constant S_ .f32 0x00000000#32),
    StableHlo.unary main_cst_47 main_v277 (broadcastInDim S1000x1 ![] bcast_S_S1000x1 : (⟨S_, .f32⟩ : BufTy).Contents (Elt F) → (⟨S1000x1, .f32⟩ : BufTy).Contents (Elt F)),
    StableHlo.unary main_arg4 main_v278 (broadcastInDim S200000x1 ![0] bcast_S200000_S200000x1_0 : (⟨S200000, .i32⟩ : BufTy).Contents (Elt F) → (⟨S200000x1, .i32⟩ : BufTy).Contents (Elt F)),
    StableHlo.ternary main_v277 main_v278 main_v276 main_v279 ((fun x i u => Host.scatterAdd scatter_S1000x1_S200000x1_S200000x1_1_0_0_1 x i u) : (⟨S1000x1, .f32⟩ : BufTy).Contents (Elt F) → (⟨S200000x1, .i32⟩ : BufTy).Contents (Elt F) → (⟨S200000x1, .f32⟩ : BufTy).Contents (Elt F) → (⟨S1000x1, .f32⟩ : BufTy).Contents (Elt F)),
    StableHlo.nullary main_cst_48 (constant S_ .f32 0x00000000#32),
    StableHlo.unary main_cst_48 main_v280 (broadcastInDim S1000x16 ![] bcast_S_S1000x16 : (⟨S_, .f32⟩ : BufTy).Contents (Elt F) → (⟨S1000x16, .f32⟩ : BufTy).Contents (Elt F)),
    StableHlo.unary main_arg4 main_v281 (broadcastInDim S200000x1 ![0] bcast_S200000_S200000x1_0 : (⟨S200000, .i32⟩ : BufTy).Contents (Elt F) → (⟨S200000x1, .i32⟩ : BufTy).Contents (Elt F)),
    StableHlo.ternary main_v280 main_v281 main_v229 main_v282 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.nullary main_cst_49 (constant S_ .f32 0x3F800000#32),
    StableHlo.unary main_cst_49 main_v283 (broadcastInDim S1000x1 ![] bcast_S_S1000x1 : (⟨S_, .f32⟩ : BufTy).Contents (Elt F) → (⟨S1000x1, .f32⟩ : BufTy).Contents (Elt F)),
    StableHlo.binary main_v279 main_v283 main_v284 (maximumf : (⟨S1000x1, .f32⟩ : BufTy).Contents (Elt F) → (⟨S1000x1, .f32⟩ : BufTy).Contents (Elt F) → (⟨S1000x1, .f32⟩ : BufTy).Contents (Elt F)),
    StableHlo.unary main_v284 main_v285 (broadcastInDim S1000x16 ![0, 1] bcast_S1000x1_S1000x16_0_1 : (⟨S1000x1, .f32⟩ : BufTy).Contents (Elt F) → (⟨S1000x16, .f32⟩ : BufTy).Contents (Elt F)),
    StableHlo.binary main_v282 main_v285 main_v286 (Host.divf : (⟨S1000x16, .f32⟩ : BufTy).Contents (Elt F) → (⟨S1000x16, .f32⟩ : BufTy).Contents (Elt F) → (⟨S1000x16, .f32⟩ : BufTy).Contents (Elt F)),
    StableHlo.binary main_v286 main_arg27 main_v287 ((fun l r => Host.dotGeneral dot_S1000x16_S16x16_S1000x16_1_0_0_1_n_n none l r) : (⟨S1000x16, .f32⟩ : BufTy).Contents (Elt F) → (⟨S16x16, .f32⟩ : BufTy).Contents (Elt F) → (⟨S1000x16, .f32⟩ : BufTy).Contents (Elt F)),
    StableHlo.unary main_arg28 main_v288 (broadcastInDim S1x16 ![1] bcast_S16_S1x16_1 : (⟨S16, .f32⟩ : BufTy).Contents (Elt F) → (⟨S1x16, .f32⟩ : BufTy).Contents (Elt F)),
    StableHlo.unary main_v288 main_v289 (broadcastInDim S1000x16 ![0, 1] bcast_S1x16_S1000x16_0_1 : (⟨S1x16, .f32⟩ : BufTy).Contents (Elt F) → (⟨S1000x16, .f32⟩ : BufTy).Contents (Elt F)),
    StableHlo.binary main_v287 main_v289 main_v290 (addf : (⟨S1000x16, .f32⟩ : BufTy).Contents (Elt F) → (⟨S1000x16, .f32⟩ : BufTy).Contents (Elt F) → (⟨S1000x16, .f32⟩ : BufTy).Contents (Elt F)),
    StableHlo.unary main_v290 main_v291 (Host.negf : (⟨S1000x16, .f32⟩ : BufTy).Contents (Elt F) → (⟨S1000x16, .f32⟩ : BufTy).Contents (Elt F)),
    StableHlo.unary main_v291 main_v292 (Host.exp : (⟨S1000x16, .f32⟩ : BufTy).Contents (Elt F) → (⟨S1000x16, .f32⟩ : BufTy).Contents (Elt F)),
    StableHlo.nullary main_cst_50 (constant S_ .f32 0x3F800000#32),
    StableHlo.unary main_cst_50 main_v293 (broadcastInDim S1000x16 ![] bcast_S_S1000x16 : (⟨S_, .f32⟩ : BufTy).Contents (Elt F) → (⟨S1000x16, .f32⟩ : BufTy).Contents (Elt F)),
    StableHlo.binary main_v293 main_v292 main_v294 (addf : (⟨S1000x16, .f32⟩ : BufTy).Contents (Elt F) → (⟨S1000x16, .f32⟩ : BufTy).Contents (Elt F) → (⟨S1000x16, .f32⟩ : BufTy).Contents (Elt F)),
    StableHlo.nullary main_cst_51 (constant S_ .f32 0x3F800000#32),
    StableHlo.unary main_cst_51 main_v295 (broadcastInDim S1000x16 ![] bcast_S_S1000x16 : (⟨S_, .f32⟩ : BufTy).Contents (Elt F) → (⟨S1000x16, .f32⟩ : BufTy).Contents (Elt F)),
    StableHlo.binary main_v295 main_v294 main_v296 (Host.divf : (⟨S1000x16, .f32⟩ : BufTy).Contents (Elt F) → (⟨S1000x16, .f32⟩ : BufTy).Contents (Elt F) → (⟨S1000x16, .f32⟩ : BufTy).Contents (Elt F)),
    StableHlo.nullary main_c_52 (constantI S_ 32 0#32),
    StableHlo.unary main_c_52 main_v297 (broadcastInDim S200000 ![] bcast_S_S200000 : (⟨S_, .i32⟩ : BufTy).Contents (Elt F) → (⟨S200000, .i32⟩ : BufTy).Contents (Elt F)),
    StableHlo.binary main_arg4 main_v297 main_v298 (cmpi .slt : (⟨S200000, .i32⟩ : BufTy).Contents (Elt F) → (⟨S200000, .i32⟩ : BufTy).Contents (Elt F) → (⟨S200000, .i1⟩ : BufTy).Contents (Elt F)),
    StableHlo.nullary main_c_53 (constantI S_ 32 1000#32),
    StableHlo.unary main_c_53 main_v299 (broadcastInDim S200000 ![] bcast_S_S200000 : (⟨S_, .i32⟩ : BufTy).Contents (Elt F) → (⟨S200000, .i32⟩ : BufTy).Contents (Elt F)),
    StableHlo.binary main_arg4 main_v299 main_v300 (addi : (⟨S200000, .i32⟩ : BufTy).Contents (Elt F) → (⟨S200000, .i32⟩ : BufTy).Contents (Elt F) → (⟨S200000, .i32⟩ : BufTy).Contents (Elt F)),
    StableHlo.ternary main_v298 main_v300 main_arg4 main_v301 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v301 main_v302 (broadcastInDim S200000x1 ![0] bcast_S200000_S200000x1_0 : (⟨S200000, .i32⟩ : BufTy).Contents (Elt F) → (⟨S200000x1, .i32⟩ : BufTy).Contents (Elt F)),
    StableHlo.binary main_v296 main_v302 main_v303 ((fun x i => Host.gather gather_S1000x16_S200000x1_S200000x16_1_0_n_n_0_1_116 x i) : (⟨S1000x16, .f32⟩ : BufTy).Contents (Elt F) → (⟨S200000x1, .i32⟩ : BufTy).Contents (Elt F) → (⟨S200000x16, .f32⟩ : BufTy).Contents (Elt F)),
    StableHlo.binary main_v229 main_v303 main_v304 (mulf : (⟨S200000x16, .f32⟩ : BufTy).Contents (Elt F) → (⟨S200000x16, .f32⟩ : BufTy).Contents (Elt F) → (⟨S200000x16, .f32⟩ : BufTy).Contents (Elt F)),
    StableHlo.nullary main_cst_54 (constant S_ .f32 0x00000000#32),
    StableHlo.binary main_v304 main_cst_54 main_v305 ((fun x v => Host.reduceAdd x v reducesTo_S200000x16_S200000_d1 h_S_) : (⟨S200000x16, .f32⟩ : BufTy).Contents (Elt F) → (⟨S_, .f32⟩ : BufTy).Contents (Elt F) → (⟨S200000, .f32⟩ : BufTy).Contents (Elt F)),
    StableHlo.unary main_v305 main_v306 (broadcastInDim S200000x1 ![0] bcast_S200000_S200000x1_0 : (⟨S200000, .f32⟩ : BufTy).Contents (Elt F) → (⟨S200000x1, .f32⟩ : BufTy).Contents (Elt F)),
    StableHlo.unary main_v306 main_v307 (Host.negf : (⟨S200000x1, .f32⟩ : BufTy).Contents (Elt F) → (⟨S200000x1, .f32⟩ : BufTy).Contents (Elt F)),
    StableHlo.unary main_v307 main_v308 (Host.exp : (⟨S200000x1, .f32⟩ : BufTy).Contents (Elt F) → (⟨S200000x1, .f32⟩ : BufTy).Contents (Elt F)),
    StableHlo.nullary main_cst_55 (constant S_ .f32 0x3F800000#32),
    StableHlo.unary main_cst_55 main_v309 (broadcastInDim S200000x1 ![] bcast_S_S200000x1 : (⟨S_, .f32⟩ : BufTy).Contents (Elt F) → (⟨S200000x1, .f32⟩ : BufTy).Contents (Elt F)),
    StableHlo.binary main_v309 main_v308 main_v310 (addf : (⟨S200000x1, .f32⟩ : BufTy).Contents (Elt F) → (⟨S200000x1, .f32⟩ : BufTy).Contents (Elt F) → (⟨S200000x1, .f32⟩ : BufTy).Contents (Elt F)),
    StableHlo.nullary main_cst_56 (constant S_ .f32 0x3F800000#32),
    StableHlo.unary main_cst_56 main_v311 (broadcastInDim S200000x1 ![] bcast_S_S200000x1 : (⟨S_, .f32⟩ : BufTy).Contents (Elt F) → (⟨S200000x1, .f32⟩ : BufTy).Contents (Elt F)),
    StableHlo.binary main_v311 main_v310 main_v312 (Host.divf : (⟨S200000x1, .f32⟩ : BufTy).Contents (Elt F) → (⟨S200000x1, .f32⟩ : BufTy).Contents (Elt F) → (⟨S200000x1, .f32⟩ : BufTy).Contents (Elt F)),
    StableHlo.unary main_v312 main_v313 (broadcastInDim S200000x16 ![0, 1] bcast_S200000x1_S200000x16_0_1 : (⟨S200000x1, .f32⟩ : BufTy).Contents (Elt F) → (⟨S200000x16, .f32⟩ : BufTy).Contents (Elt F)),
    StableHlo.binary main_v313 main_v229 main_v314 (mulf : (⟨S200000x16, .f32⟩ : BufTy).Contents (Elt F) → (⟨S200000x16, .f32⟩ : BufTy).Contents (Elt F) → (⟨S200000x16, .f32⟩ : BufTy).Contents (Elt F)),
    StableHlo.nullary main_cst_57 (constant S_ .f32 0x00000000#32),
    StableHlo.unary main_cst_57 main_v315 (broadcastInDim S1000x16 ![] bcast_S_S1000x16 : (⟨S_, .f32⟩ : BufTy).Contents (Elt F) → (⟨S1000x16, .f32⟩ : BufTy).Contents (Elt F)),
    StableHlo.unary main_arg4 main_v316 (broadcastInDim S200000x1 ![0] bcast_S200000_S200000x1_0 : (⟨S200000, .i32⟩ : BufTy).Contents (Elt F) → (⟨S200000x1, .i32⟩ : BufTy).Contents (Elt F)),
    StableHlo.ternary main_v315 main_v316 main_v314 main_v317 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)) ]

/-- The buffers these operations write, in order. -/
abbrev t0_W : List (Ref sig .tc) := [main_cst_46, main_v276, main_cst_47, main_v277, main_v278, main_v279, main_cst_48, main_v280, main_v281, main_v282, main_cst_49, main_v283, main_v284, main_v285, main_v286, main_v287, main_v288, main_v289, main_v290, main_v291, main_v292, main_cst_50, main_v293, main_v294, main_cst_51, main_v295, main_v296, main_c_52, main_v297, main_v298, main_c_53, main_v299, main_v300, main_v301, main_v302, main_v303, main_v304, main_cst_54, main_v305, main_v306, main_v307, main_v308, main_cst_55, main_v309, main_v310, main_cst_56, main_v311, main_v312, main_v313, main_v314, main_cst_57, main_v315, main_v316, main_v317]

set_option maxRecDepth 8192 in
/-- Each operation writes one buffer, the one listed at its place. -/
theorem t0_writes : (t0 : List (HloOp τ sig (Elt F))).Forall fun op => op.writes ⊆ (t0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem t0_keep (V : Valuation τ sig (Elt F)) (r : Ref sig .tc) (h : r ∉ t0_W) :
    after t0 V (Proc.devRef .tc r) = V (Proc.devRef .tc r) :=
  after_of_writes_sub t0 V t0_writes h

/-- The contents after these operations, named: a rewriting rule about it is found by this name, not by the list. -/
def t0_after (V : Valuation τ sig (Elt F)) : Valuation τ sig (Elt F) := after t0 V

/-- The same, for rewriting (the buffer un-indexed: a literal buffer's reference unfolds). -/
theorem t0_after_keep (V : Valuation τ sig (Elt F)) (r : Ref sig .tc) (h : r ∉ t0_W) :
    t0_after V (no_index (Proc.devRef .tc r)) = V (Proc.devRef .tc r) :=
  after_of_writes_sub t0 V t0_writes h

end Cert.ReferenceIdeal.RefRun

end
-- ==== Proof.RefBlocks.T1.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 54 operations of statements 378 … 431 of @main, in order, a call's being the callee's over that call's buffers. -/
abbrev t1 : List (HloOp τ sig (Elt F)) :=
  [ StableHlo.nullary main_cst_58 (constant S_ .f32 0x3F800000#32),
    StableHlo.unary main_cst_58 main_v318 (broadcastInDim S200000x1 ![] bcast_S_S200000x1 : (⟨S_, .f32⟩ : BufTy).Contents (Elt F) → (⟨S200000x1, .f32⟩ : BufTy).Contents (Elt F)),
    StableHlo.nullary main_cst_59 (constant S_ .f32 0x00000000#32),
    StableHlo.unary main_cst_59 main_v319 (broadcastInDim S1000x1 ![] bcast_S_S1000x1 : (⟨S_, .f32⟩ : BufTy).Contents (Elt F) → (⟨S1000x1, .f32⟩ : BufTy).Contents (Elt F)),
    StableHlo.unary main_arg5 main_v320 (broadcastInDim S200000x1 ![0] bcast_S200000_S200000x1_0 : (⟨S200000, .i32⟩ : BufTy).Contents (Elt F) → (⟨S200000x1, .i32⟩ : BufTy).Contents (Elt F)),
    StableHlo.ternary main_v319 main_v320 main_v318 main_v321 ((fun x i u => Host.scatterAdd scatter_S1000x1_S200000x1_S200000x1_1_0_0_1 x i u) : (⟨S1000x1, .f32⟩ : BufTy).Contents (Elt F) → (⟨S200000x1, .i32⟩ : BufTy).Contents (Elt F) → (⟨S200000x1, .f32⟩ : BufTy).Contents (Elt F) → (⟨S1000x1, .f32⟩ : BufTy).Contents (Elt F)),
    StableHlo.nullary main_cst_60 (constant S_ .f32 0x00000000#32),
    StableHlo.unary main_cst_60 main_v322 (broadcastInDim S1000x16 ![] bcast_S_S1000x16 : (⟨S_, .f32⟩ : BufTy).Contents (Elt F) → (⟨S1000x16, .f32⟩ : BufTy).Contents (Elt F)),
    StableHlo.unary main_arg5 main_v323 (broadcastInDim S200000x1 ![0] bcast_S200000_S200000x1_0 : (⟨S200000, .i32⟩ : BufTy).Contents (Elt F) → (⟨S200000x1, .i32⟩ : BufTy).Contents (Elt F)),
    StableHlo.ternary main_v322 main_v323 main_v275 main_v324 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)),
    StableHlo.nullary main_cst_61 (constant S_ .f32 0x3F800000#32),
    StableHlo.unary main_cst_61 main_v325 (broadcastInDim S1000x1 ![] bcast_S_S1000x1 : (⟨S_, .f32⟩ : BufTy).Contents (Elt F) → (⟨S1000x1, .f32⟩ : BufTy).Contents (Elt F)),
    StableHlo.binary main_v321 main_v325 main_v326 (maximumf : (⟨S1000x1, .f32⟩ : BufTy).Contents (Elt F) → (⟨S1000x1, .f32⟩ : BufTy).Contents (Elt F) → (⟨S1000x1, .f32⟩ : BufTy).Contents (Elt F)),
    StableHlo.unary main_v326 main_v327 (broadcastInDim S1000x16 ![0, 1] bcast_S1000x1_S1000x16_0_1 : (⟨S1000x1, .f32⟩ : BufTy).Contents (Elt F) → (⟨S1000x16, .f32⟩ : BufTy).Contents (Elt F)),
    StableHlo.binary main_v324 main_v327 main_v328 (Host.divf : (⟨S1000x16, .f32⟩ : BufTy).Contents (Elt F) → (⟨S1000x16, .f32⟩ : BufTy).Contents (Elt F) → (⟨S1000x16, .f32⟩ : BufTy).Contents (Elt F)),
    StableHlo.binary main_v328 main_arg27 main_v329 ((fun l r => Host.dotGeneral dot_S1000x16_S16x16_S1000x16_1_0_0_1_n_n none l r) : (⟨S1000x16, .f32⟩ : BufTy).Contents (Elt F) → (⟨S16x16, .f32⟩ : BufTy).Contents (Elt F) → (⟨S1000x16, .f32⟩ : BufTy).Contents (Elt F)),
    StableHlo.unary main_arg28 main_v330 (broadcastInDim S1x16 ![1] bcast_S16_S1x16_1 : (⟨S16, .f32⟩ : BufTy).Contents (Elt F) → (⟨S1x16, .f32⟩ : BufTy).Contents (Elt F)),
    StableHlo.unary main_v330 main_v331 (broadcastInDim S1000x16 ![0, 1] bcast_S1x16_S1000x16_0_1 : (⟨S1x16, .f32⟩ : BufTy).Contents (Elt F) → (⟨S1000x16, .f32⟩ : BufTy).Contents (Elt F)),
    StableHlo.binary main_v329 main_v331 main_v332 (addf : (⟨S1000x16, .f32⟩ : BufTy).Contents (Elt F) → (⟨S1000x16, .f32⟩ : BufTy).Contents (Elt F) → (⟨S1000x16, .f32⟩ : BufTy).Contents (Elt F)),
    StableHlo.unary main_v332 main_v333 (Host.negf : (⟨S1000x16, .f32⟩ : BufTy).Contents (Elt F) → (⟨S1000x16, .f32⟩ : BufTy).Contents (Elt F)),
    StableHlo.unary main_v333 main_v334 (Host.exp : (⟨S1000x16, .f32⟩ : BufTy).Contents (Elt F) → (⟨S1000x16, .f32⟩ : BufTy).Contents (Elt F)),
    StableHlo.nullary main_cst_62 (constant S_ .f32 0x3F800000#32),
    StableHlo.unary main_cst_62 main_v335 (broadcastInDim S1000x16 ![] bcast_S_S1000x16 : (⟨S_, .f32⟩ : BufTy).Contents (Elt F) → (⟨S1000x16, .f32⟩ : BufTy).Contents (Elt F)),
    StableHlo.binary main_v335 main_v334 main_v336 (addf : (⟨S1000x16, .f32⟩ : BufTy).Contents (Elt F) → (⟨S1000x16, .f32⟩ : BufTy).Contents (Elt F) → (⟨S1000x16, .f32⟩ : BufTy).Contents (Elt F)),
    StableHlo.nullary main_cst_63 (constant S_ .f32 0x3F800000#32),
    StableHlo.unary main_cst_63 main_v337 (broadcastInDim S1000x16 ![] bcast_S_S1000x16 : (⟨S_, .f32⟩ : BufTy).Contents (Elt F) → (⟨S1000x16, .f32⟩ : BufTy).Contents (Elt F)),
    StableHlo.binary main_v337 main_v336 main_v338 (Host.divf : (⟨S1000x16, .f32⟩ : BufTy).Contents (Elt F) → (⟨S1000x16, .f32⟩ : BufTy).Contents (Elt F) → (⟨S1000x16, .f32⟩ : BufTy).Contents (Elt F)),
    StableHlo.nullary main_c_64 (constantI S_ 32 0#32),
    StableHlo.unary main_c_64 main_v339 (broadcastInDim S200000 ![] bcast_S_S200000 : (⟨S_, .i32⟩ : BufTy).Contents (Elt F) → (⟨S200000, .i32⟩ : BufTy).Contents (Elt F)),
    StableHlo.binary main_arg5 main_v339 main_v340 (cmpi .slt : (⟨S200000, .i32⟩ : BufTy).Contents (Elt F) → (⟨S200000, .i32⟩ : BufTy).Contents (Elt F) → (⟨S200000, .i1⟩ : BufTy).Contents (Elt F)),
    StableHlo.nullary main_c_65 (constantI S_ 32 1000#32),
    StableHlo.unary main_c_65 main_v341 (broadcastInDim S200000 ![] bcast_S_S200000 : (⟨S_, .i32⟩ : BufTy).Contents (Elt F) → (⟨S200000, .i32⟩ : BufTy).Contents (Elt F)),
    StableHlo.binary main_arg5 main_v341 main_v342 (addi : (⟨S200000, .i32⟩ : BufTy).Contents (Elt F) → (⟨S200000, .i32⟩ : BufTy).Contents (Elt F) → (⟨S200000, .i32⟩ : BufTy).Contents (Elt F)),
    StableHlo.ternary main_v340 main_v342 main_arg5 main_v343 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v343 main_v344 (broadcastInDim S200000x1 ![0] bcast_S200000_S200000x1_0 : (⟨S200000, .i32⟩ : BufTy).Contents (Elt F) → (⟨S200000x1, .i32⟩ : BufTy).Contents (Elt F)),
    StableHlo.binary main_v338 main_v344 main_v345 ((fun x i => Host.gather gather_S1000x16_S200000x1_S200000x16_1_0_n_n_0_1_116 x i) : (⟨S1000x16, .f32⟩ : BufTy).Contents (Elt F) → (⟨S200000x1, .i32⟩ : BufTy).Contents (Elt F) → (⟨S200000x16, .f32⟩ : BufTy).Contents (Elt F)),
    StableHlo.binary main_v275 main_v345 main_v346 (mulf : (⟨S200000x16, .f32⟩ : BufTy).Contents (Elt F) → (⟨S200000x16, .f32⟩ : BufTy).Contents (Elt F) → (⟨S200000x16, .f32⟩ : BufTy).Contents (Elt F)),
    StableHlo.nullary main_cst_66 (constant S_ .f32 0x00000000#32),
    StableHlo.binary main_v346 main_cst_66 main_v347 ((fun x v => Host.reduceAdd x v reducesTo_S200000x16_S200000_d1 h_S_) : (⟨S200000x16, .f32⟩ : BufTy).Contents (Elt F) → (⟨S_, .f32⟩ : BufTy).Contents (Elt F) → (⟨S200000, .f32⟩ : BufTy).Contents (Elt F)),
    StableHlo.unary main_v347 main_v348 (broadcastInDim S200000x1 ![0] bcast_S200000_S200000x1_0 : (⟨S200000, .f32⟩ : BufTy).Contents (Elt F) → (⟨S200000x1, .f32⟩ : BufTy).Contents (Elt F)),
    StableHlo.unary main_v348 main_v349 (Host.negf : (⟨S200000x1, .f32⟩ : BufTy).Contents (Elt F) → (⟨S200000x1, .f32⟩ : BufTy).Contents (Elt F)),
    StableHlo.unary main_v349 main_v350 (Host.exp : (⟨S200000x1, .f32⟩ : BufTy).Contents (Elt F) → (⟨S200000x1, .f32⟩ : BufTy).Contents (Elt F)),
    StableHlo.nullary main_cst_67 (constant S_ .f32 0x3F800000#32),
    StableHlo.unary main_cst_67 main_v351 (broadcastInDim S200000x1 ![] bcast_S_S200000x1 : (⟨S_, .f32⟩ : BufTy).Contents (Elt F) → (⟨S200000x1, .f32⟩ : BufTy).Contents (Elt F)),
    StableHlo.binary main_v351 main_v350 main_v352 (addf : (⟨S200000x1, .f32⟩ : BufTy).Contents (Elt F) → (⟨S200000x1, .f32⟩ : BufTy).Contents (Elt F) → (⟨S200000x1, .f32⟩ : BufTy).Contents (Elt F)),
    StableHlo.nullary main_cst_68 (constant S_ .f32 0x3F800000#32),
    StableHlo.unary main_cst_68 main_v353 (broadcastInDim S200000x1 ![] bcast_S_S200000x1 : (⟨S_, .f32⟩ : BufTy).Contents (Elt F) → (⟨S200000x1, .f32⟩ : BufTy).Contents (Elt F)),
    StableHlo.binary main_v353 main_v352 main_v354 (Host.divf : (⟨S200000x1, .f32⟩ : BufTy).Contents (Elt F) → (⟨S200000x1, .f32⟩ : BufTy).Contents (Elt F) → (⟨S200000x1, .f32⟩ : BufTy).Contents (Elt F)),
    StableHlo.unary main_v354 main_v355 (broadcastInDim S200000x16 ![0, 1] bcast_S200000x1_S200000x16_0_1 : (⟨S200000x1, .f32⟩ : BufTy).Contents (Elt F) → (⟨S200000x16, .f32⟩ : BufTy).Contents (Elt F)),
    StableHlo.binary main_v355 main_v275 main_v356 (mulf : (⟨S200000x16, .f32⟩ : BufTy).Contents (Elt F) → (⟨S200000x16, .f32⟩ : BufTy).Contents (Elt F) → (⟨S200000x16, .f32⟩ : BufTy).Contents (Elt F)),
    StableHlo.nullary main_cst_69 (constant S_ .f32 0x00000000#32),
    StableHlo.unary main_cst_69 main_v357 (broadcastInDim S1000x16 ![] bcast_S_S1000x16 : (⟨S_, .f32⟩ : BufTy).Contents (Elt F) → (⟨S1000x16, .f32⟩ : BufTy).Contents (Elt F)),
    StableHlo.unary main_arg5 main_v358 (broadcastInDim S200000x1 ![0] bcast_S200000_S200000x1_0 : (⟨S200000, .i32⟩ : BufTy).Contents (Elt F) → (⟨S200000x1, .i32⟩ : BufTy).Contents (Elt F)),
    StableHlo.ternary main_v357 main_v358 main_v356 main_v359 ((fun x i u => Host.scatterAdd scatter_S1000x16_S200000x1_S200000x16_1_0_0_1 x i u) : (⟨S1000x16, .f32⟩ : BufTy).Contents (Elt F) → (⟨S200000x1, .i32⟩ : BufTy).Contents (Elt F) → (⟨S200000x16, .f32⟩ : BufTy).Contents (Elt F) → (⟨S1000x16, .f32⟩ : BufTy).Contents (Elt F)) ]

/-- The buffers these operations write, in order. -/
abbrev t1_W : List (Ref sig .tc) := [main_cst_58, main_v318, main_cst_59, main_v319, main_v320, main_v321, main_cst_60, main_v322, main_v323, main_v324, main_cst_61, main_v325, main_v326, main_v327, main_v328, main_v329, main_v330, main_v331, main_v332, main_v333, main_v334, main_cst_62, main_v335, main_v336, main_cst_63, main_v337, main_v338, main_c_64, main_v339, main_v340, main_c_65, main_v341, main_v342, main_v343, main_v344, main_v345, main_v346, main_cst_66, main_v347, main_v348, main_v349, main_v350, main_cst_67, main_v351, main_v352, main_cst_68, main_v353, main_v354, main_v355, main_v356, main_cst_69, main_v357, main_v358, main_v359]

set_option maxRecDepth 8192 in
/-- Each operation writes one buffer, the one listed at its place. -/
theorem t1_writes : (t1 : List (HloOp τ sig (Elt F))).Forall fun op => op.writes ⊆ (t1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem t1_keep (V : Valuation τ sig (Elt F)) (r : Ref sig .tc) (h : r ∉ t1_W) :
    after t1 V (Proc.devRef .tc r) = V (Proc.devRef .tc r) :=
  after_of_writes_sub t1 V t1_writes h

/-- The contents after these operations, named: a rewriting rule about it is found by this name, not by the list. -/
def t1_after (V : Valuation τ sig (Elt F)) : Valuation τ sig (Elt F) := after t1 V

/-- The same, for rewriting (the buffer un-indexed: a literal buffer's reference unfolds). -/
theorem t1_after_keep (V : Valuation τ sig (Elt F)) (r : Ref sig .tc) (h : r ∉ t1_W) :
    t1_after V (no_index (Proc.devRef .tc r)) = V (Proc.devRef .tc r) :=
  after_of_writes_sub t1 V t1_writes h

end Cert.ReferenceIdeal.RefRun

end
-- ==== Proof.RefBlocks.T2.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 22 operations of statements 432 … 449 of @main, in order, a call's being the callee's over that call's buffers. -/
abbrev t2 : List (HloOp τ sig (Elt F)) :=
  [ StableHlo.binary main_v317 main_v359 main_v360 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v360 main_arg29 main_v361 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v362 (broadcastInDim S1x8 ![1] bcast_S8_S1x8_1 : (⟨S8, .f32⟩ : BufTy).Contents (Elt F) → (⟨S1x8, .f32⟩ : BufTy).Contents (Elt F)),
    StableHlo.unary main_v362 main_v363 (broadcastInDim S1000x8 ![0, 1] bcast_S1x8_S1000x8_0_1 : (⟨S1x8, .f32⟩ : BufTy).Contents (Elt F) → (⟨S1000x8, .f32⟩ : BufTy).Contents (Elt F)),
    StableHlo.binary main_v361 main_v363 main_v364 (addf : (⟨S1000x8, .f32⟩ : BufTy).Contents (Elt F) → (⟨S1000x8, .f32⟩ : BufTy).Contents (Elt F) → (⟨S1000x8, .f32⟩ : BufTy).Contents (Elt F)),
    StableHlo.TRef.nullary main_call12.cst (constant S_ .f32 0x00000000#32),
    StableHlo.TRef.unary main_call12.cst main_call12.v0 (broadcastInDim S1000x8 ![] bcast_S_S1000x8),
    StableHlo.TRef.binary (.of main_v364) main_call12.v0 main_call12.v1 maximumf,
    StableHlo.binary main_v365 main_arg31 main_v366 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v367 (broadcastInDim S1x32 ![1] bcast_S32_S1x32_1 : (⟨S32, .f32⟩ : BufTy).Contents (Elt F) → (⟨S1x32, .f32⟩ : BufTy).Contents (Elt F)),
    StableHlo.unary main_v367 main_v368 (broadcastInDim S1000x32 ![0, 1] bcast_S1x32_S1000x32_0_1 : (⟨S1x32, .f32⟩ : BufTy).Contents (Elt F) → (⟨S1000x32, .f32⟩ : BufTy).Contents (Elt F)),
    StableHlo.binary main_v366 main_v368 main_v369 (addf : (⟨S1000x32, .f32⟩ : BufTy).Contents (Elt F) → (⟨S1000x32, .f32⟩ : BufTy).Contents (Elt F) → (⟨S1000x32, .f32⟩ : BufTy).Contents (Elt F)),
    StableHlo.unary main_v369 main_v370 (Host.tanh : (⟨S1000x32, .f32⟩ : BufTy).Contents (Elt F) → (⟨S1000x32, .f32⟩ : BufTy).Contents (Elt F)),
    StableHlo.binary main_v370 main_v360 main_v371 (mulf : (⟨S1000x32, .f32⟩ : BufTy).Contents (Elt F) → (⟨S1000x32, .f32⟩ : BufTy).Contents (Elt F) → (⟨S1000x32, .f32⟩ : BufTy).Contents (Elt F)),
    StableHlo.binary main_v371 main_v360 main_v372 (addf : (⟨S1000x32, .f32⟩ : BufTy).Contents (Elt F) → (⟨S1000x32, .f32⟩ : BufTy).Contents (Elt F) → (⟨S1000x32, .f32⟩ : BufTy).Contents (Elt F)),
    StableHlo.binary main_v372 main_arg33 main_v373 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v374 (broadcastInDim S1x16 ![1] bcast_S16_S1x16_1 : (⟨S16, .f32⟩ : BufTy).Contents (Elt F) → (⟨S1x16, .f32⟩ : BufTy).Contents (Elt F)),
    StableHlo.unary main_v374 main_v375 (broadcastInDim S1000x16 ![0, 1] bcast_S1x16_S1000x16_0_1 : (⟨S1x16, .f32⟩ : BufTy).Contents (Elt F) → (⟨S1000x16, .f32⟩ : BufTy).Contents (Elt F)),
    StableHlo.binary main_v373 main_v375 main_v376 (addf : (⟨S1000x16, .f32⟩ : BufTy).Contents (Elt F) → (⟨S1000x16, .f32⟩ : BufTy).Contents (Elt F) → (⟨S1000x16, .f32⟩ : BufTy).Contents (Elt F)),
    StableHlo.TRef.nullary main_call13.cst (constant S_ .f32 0x00000000#32),
    StableHlo.TRef.unary main_call13.cst main_call13.v0 (broadcastInDim S1000x16 ![] bcast_S_S1000x16),
    StableHlo.TRef.binary (.of main_v376) main_call13.v0 main_call13.v1 maximumf ]

/-- The buffers these operations write, in order. -/
abbrev t2_W : List (Ref sig .tc) := [main_v360, main_v361, main_v362, main_v363, main_v364, main_call12.cst.ref, main_call12.v0.ref, main_call12.v1.ref, main_v366, main_v367, main_v368, main_v369, main_v370, main_v371, main_v372, main_v373, main_v374, main_v375, main_v376, main_call13.cst.ref, main_call13.v0.ref, main_call13.v1.ref]

set_option maxRecDepth 8192 in
/-- Each operation writes one buffer, the one listed at its place. -/
theorem t2_writes : (t2 : List (HloOp τ sig (Elt F))).Forall fun op => op.writes ⊆ (t2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem t2_keep (V : Valuation τ sig (Elt F)) (r : Ref sig .tc) (h : r ∉ t2_W) :
    after t2 V (Proc.devRef .tc r) = V (Proc.devRef .tc r) :=
  after_of_writes_sub t2 V t2_writes h

/-- The contents after these operations, named: a rewriting rule about it is found by this name, not by the list. -/
def t2_after (V : Valuation τ sig (Elt F)) : Valuation τ sig (Elt F) := after t2 V

/-- The same, for rewriting (the buffer un-indexed: a literal buffer's reference unfolds). -/
theorem t2_after_keep (V : Valuation τ sig (Elt F)) (r : Ref sig .tc) (h : r ∉ t2_W) :
    t2_after V (no_index (Proc.devRef .tc r)) = V (Proc.devRef .tc r) :=
  after_of_writes_sub t2 V t2_writes h

end Cert.ReferenceIdeal.RefRun

end
-- ==== Proof.RefBlocks.T3.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 22 operations of statements 450 … 467 of @main, in order, a call's being the callee's over that call's buffers. -/
abbrev t3 : List (HloOp τ sig (Elt F)) :=
  [ StableHlo.binary main_v317 main_v317 main_v378 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v378 main_arg29 main_v379 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v380 (broadcastInDim S1x8 ![1] bcast_S8_S1x8_1 : (⟨S8, .f32⟩ : BufTy).Contents (Elt F) → (⟨S1x8, .f32⟩ : BufTy).Contents (Elt F)),
    StableHlo.unary main_v380 main_v381 (broadcastInDim S1000x8 ![0, 1] bcast_S1x8_S1000x8_0_1 : (⟨S1x8, .f32⟩ : BufTy).Contents (Elt F) → (⟨S1000x8, .f32⟩ : BufTy).Contents (Elt F)),
    StableHlo.binary main_v379 main_v381 main_v382 (addf : (⟨S1000x8, .f32⟩ : BufTy).Contents (Elt F) → (⟨S1000x8, .f32⟩ : BufTy).Contents (Elt F) → (⟨S1000x8, .f32⟩ : BufTy).Contents (Elt F)),
    StableHlo.TRef.nullary main_call14.cst (constant S_ .f32 0x00000000#32),
    StableHlo.TRef.unary main_call14.cst main_call14.v0 (broadcastInDim S1000x8 ![] bcast_S_S1000x8),
    StableHlo.TRef.binary (.of main_v382) main_call14.v0 main_call14.v1 maximumf,
    StableHlo.binary main_v383 main_arg31 main_v384 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v385 (broadcastInDim S1x32 ![1] bcast_S32_S1x32_1 : (⟨S32, .f32⟩ : BufTy).Contents (Elt F) → (⟨S1x32, .f32⟩ : BufTy).Contents (Elt F)),
    StableHlo.unary main_v385 main_v386 (broadcastInDim S1000x32 ![0, 1] bcast_S1x32_S1000x32_0_1 : (⟨S1x32, .f32⟩ : BufTy).Contents (Elt F) → (⟨S1000x32, .f32⟩ : BufTy).Contents (Elt F)),
    StableHlo.binary main_v384 main_v386 main_v387 (addf : (⟨S1000x32, .f32⟩ : BufTy).Contents (Elt F) → (⟨S1000x32, .f32⟩ : BufTy).Contents (Elt F) → (⟨S1000x32, .f32⟩ : BufTy).Contents (Elt F)),
    StableHlo.unary main_v387 main_v388 (Host.tanh : (⟨S1000x32, .f32⟩ : BufTy).Contents (Elt F) → (⟨S1000x32, .f32⟩ : BufTy).Contents (Elt F)),
    StableHlo.binary main_v388 main_v378 main_v389 (mulf : (⟨S1000x32, .f32⟩ : BufTy).Contents (Elt F) → (⟨S1000x32, .f32⟩ : BufTy).Contents (Elt F) → (⟨S1000x32, .f32⟩ : BufTy).Contents (Elt F)),
    StableHlo.binary main_v389 main_v378 main_v390 (addf : (⟨S1000x32, .f32⟩ : BufTy).Contents (Elt F) → (⟨S1000x32, .f32⟩ : BufTy).Contents (Elt F) → (⟨S1000x32, .f32⟩ : BufTy).Contents (Elt F)),
    StableHlo.binary main_v390 main_arg33 main_v391 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v392 (broadcastInDim S1x16 ![1] bcast_S16_S1x16_1 : (⟨S16, .f32⟩ : BufTy).Contents (Elt F) → (⟨S1x16, .f32⟩ : BufTy).Contents (Elt F)),
    StableHlo.unary main_v392 main_v393 (broadcastInDim S1000x16 ![0, 1] bcast_S1x16_S1000x16_0_1 : (⟨S1x16, .f32⟩ : BufTy).Contents (Elt F) → (⟨S1000x16, .f32⟩ : BufTy).Contents (Elt F)),
    StableHlo.binary main_v391 main_v393 main_v394 (addf : (⟨S1000x16, .f32⟩ : BufTy).Contents (Elt F) → (⟨S1000x16, .f32⟩ : BufTy).Contents (Elt F) → (⟨S1000x16, .f32⟩ : BufTy).Contents (Elt F)),
    StableHlo.TRef.nullary main_call15.cst (constant S_ .f32 0x00000000#32),
    StableHlo.TRef.unary main_call15.cst main_call15.v0 (broadcastInDim S1000x16 ![] bcast_S_S1000x16),
    StableHlo.TRef.binary (.of main_v394) main_call15.v0 main_call15.v1 maximumf ]

/-- The buffers these operations write, in order. -/
abbrev t3_W : List (Ref sig .tc) := [main_v378, main_v379, main_v380, main_v381, main_v382, main_call14.cst.ref, main_call14.v0.ref, main_call14.v1.ref, main_v384, main_v385, main_v386, main_v387, main_v388, main_v389, main_v390, main_v391, main_v392, main_v393, main_v394, main_call15.cst.ref, main_call15.v0.ref, main_call15.v1.ref]

set_option maxRecDepth 8192 in
/-- Each operation writes one buffer, the one listed at its place. -/
theorem t3_writes : (t3 : List (HloOp τ sig (Elt F))).Forall fun op => op.writes ⊆ (t3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem t3_keep (V : Valuation τ sig (Elt F)) (r : Ref sig .tc) (h : r ∉ t3_W) :
    after t3 V (Proc.devRef .tc r) = V (Proc.devRef .tc r) :=
  after_of_writes_sub t3 V t3_writes h

/-- The contents after these operations, named: a rewriting rule about it is found by this name, not by the list. -/
def t3_after (V : Valuation τ sig (Elt F)) : Valuation τ sig (Elt F) := after t3 V

/-- The same, for rewriting (the buffer un-indexed: a literal buffer's reference unfolds). -/
theorem t3_after_keep (V : Valuation τ sig (Elt F)) (r : Ref sig .tc) (h : r ∉ t3_W) :
    t3_after V (no_index (Proc.devRef .tc r)) = V (Proc.devRef .tc r) :=
  after_of_writes_sub t3 V t3_writes h

end Cert.ReferenceIdeal.RefRun

end
-- ==== Proof.RefBlocks.T4.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 22 operations of statements 468 … 485 of @main, in order, a call's being the callee's over that call's buffers. -/
abbrev t4 : List (HloOp τ sig (Elt F)) :=
  [ StableHlo.binary main_v359 main_v359 main_v396 ((fun a b => concatenate S1000x32 1 [⟨S1000x16, a⟩, ⟨S1000x16, b⟩] concatenates_S1000x16_S1000x16_S1000x32_d1) : (⟨S1000x16, .f32⟩ : BufTy).Contents (Elt F) → (⟨S1000x16, .f32⟩ : BufTy).Contents (Elt F) → (⟨S1000x32, .f32⟩ : BufTy).Contents (Elt F)),
    StableHlo.binary main_v396 main_arg29 main_v397 ((fun l r => Host.dotGeneral dot_S1000x32_S32x8_S1000x8_1_0_0_1_n_n none l r) : (⟨S1000x32, .f32⟩ : BufTy).Contents (Elt F) → (⟨S32x8, .f32⟩ : BufTy).Contents (Elt F) → (⟨S1000x8, .f32⟩ : BufTy).Contents (Elt F)),
    StableHlo.unary main_arg30 main_v398 (broadcastInDim S1x8 ![1] bcast_S8_S1x8_1 : (⟨S8, .f32⟩ : BufTy).Contents (Elt F) → (⟨S1x8, .f32⟩ : BufTy).Contents (Elt F)),
    StableHlo.unary main_v398 main_v399 (broadcastInDim S1000x8 ![0, 1] bcast_S1x8_S1000x8_0_1 : (⟨S1x8, .f32⟩ : BufTy).Contents (Elt F) → (⟨S1000x8, .f32⟩ : BufTy).Contents (Elt F)),
    StableHlo.binary main_v397 main_v399 main_v400 (addf : (⟨S1000x8, .f32⟩ : BufTy).Contents (Elt F) → (⟨S1000x8, .f32⟩ : BufTy).Contents (Elt F) → (⟨S1000x8, .f32⟩ : BufTy).Contents (Elt F)),
    StableHlo.TRef.nullary main_call16.cst (constant S_ .f32 0x00000000#32),
    StableHlo.TRef.unary main_call16.cst main_call16.v0 (broadcastInDim S1000x8 ![] bcast_S_S1000x8),
    StableHlo.TRef.binary (.of main_v400) main_call16.v0 main_call16.v1 maximumf,
    StableHlo.binary main_v401 main_arg31 main_v402 ((fun l r => Host.dotGeneral dot_S1000x8_S8x32_S1000x32_1_0_0_1_n_n none l r) : (⟨S1000x8, .f32⟩ : BufTy).Contents (Elt F) → (⟨S8x32, .f32⟩ : BufTy).Contents (Elt F) → (⟨S1000x32, .f32⟩ : BufTy).Contents (Elt F)),
    StableHlo.unary main_arg32 main_v403 (broadcastInDim S1x32 ![1] bcast_S32_S1x32_1 : (⟨S32, .f32⟩ : BufTy).Contents (Elt F) → (⟨S1x32, .f32⟩ : BufTy).Contents (Elt F)),
    StableHlo.unary main_v403 main_v404 (broadcastInDim S1000x32 ![0, 1] bcast_S1x32_S1000x32_0_1 : (⟨S1x32, .f32⟩ : BufTy).Contents (Elt F) → (⟨S1000x32, .f32⟩ : BufTy).Contents (Elt F)),
    StableHlo.binary main_v402 main_v404 main_v405 (addf : (⟨S1000x32, .f32⟩ : BufTy).Contents (Elt F) → (⟨S1000x32, .f32⟩ : BufTy).Contents (Elt F) → (⟨S1000x32, .f32⟩ : BufTy).Contents (Elt F)),
    StableHlo.unary main_v405 main_v406 (Host.tanh : (⟨S1000x32, .f32⟩ : BufTy).Contents (Elt F) → (⟨S1000x32, .f32⟩ : BufTy).Contents (Elt F)),
    StableHlo.binary main_v406 main_v396 main_v407 (mulf : (⟨S1000x32, .f32⟩ : BufTy).Contents (Elt F) → (⟨S1000x32, .f32⟩ : BufTy).Contents (Elt F) → (⟨S1000x32, .f32⟩ : BufTy).Contents (Elt F)),
    StableHlo.binary main_v407 main_v396 main_v408 (addf : (⟨S1000x32, .f32⟩ : BufTy).Contents (Elt F) → (⟨S1000x32, .f32⟩ : BufTy).Contents (Elt F) → (⟨S1000x32, .f32⟩ : BufTy).Contents (Elt F)),
    StableHlo.binary main_v408 main_arg33 main_v409 ((fun l r => Host.dotGeneral dot_S1000x32_S32x16_S1000x16_1_0_0_1_n_n none l r) : (⟨S1000x32, .f32⟩ : BufTy).Contents (Elt F) → (⟨S32x16, .f32⟩ : BufTy).Contents (Elt F) → (⟨S1000x16, .f32⟩ : BufTy).Contents (Elt F)),
    StableHlo.unary main_arg34 main_v410 (broadcastInDim S1x16 ![1] bcast_S16_S1x16_1 : (⟨S16, .f32⟩ : BufTy).Contents (Elt F) → (⟨S1x16, .f32⟩ : BufTy).Contents (Elt F)),
    StableHlo.unary main_v410 main_v411 (broadcastInDim S1000x16 ![0, 1] bcast_S1x16_S1000x16_0_1 : (⟨S1x16, .f32⟩ : BufTy).Contents (Elt F) → (⟨S1000x16, .f32⟩ : BufTy).Contents (Elt F)),
    StableHlo.binary main_v409 main_v411 main_v412 (addf : (⟨S1000x16, .f32⟩ : BufTy).Contents (Elt F) → (⟨S1000x16, .f32⟩ : BufTy).Contents (Elt F) → (⟨S1000x16, .f32⟩ : BufTy).Contents (Elt F)),
    StableHlo.TRef.nullary main_call17.cst (constant S_ .f32 0x00000000#32),
    StableHlo.TRef.unary main_call17.cst main_call17.v0 (broadcastInDim S1000x16 ![] bcast_S_S1000x16),
    StableHlo.TRef.binary (.of main_v412) main_call17.v0 main_call17.v1 maximumf ]

/-- The buffers these operations write, in order. -/
abbrev t4_W : List (Ref sig .tc) := [main_v396, main_v397, main_v398, main_v399, main_v400, main_call16.cst.ref, main_call16.v0.ref, main_call16.v1.ref, main_v402, main_v403, main_v404, main_v405, main_v406, main_v407, main_v408, main_v409, main_v410, main_v411, main_v412, main_call17.cst.ref, main_call17.v0.ref, main_call17.v1.ref]

set_option maxRecDepth 8192 in
/-- Each operation writes one buffer, the one listed at its place. -/
theorem t4_writes : (t4 : List (HloOp τ sig (Elt F))).Forall fun op => op.writes ⊆ (t4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem t4_keep (V : Valuation τ sig (Elt F)) (r : Ref sig .tc) (h : r ∉ t4_W) :
    after t4 V (Proc.devRef .tc r) = V (Proc.devRef .tc r) :=
  after_of_writes_sub t4 V t4_writes h

/-- The contents after these operations, named: a rewriting rule about it is found by this name, not by the list. -/
def t4_after (V : Valuation τ sig (Elt F)) : Valuation τ sig (Elt F) := after t4 V

/-- The same, for rewriting (the buffer un-indexed: a literal buffer's reference unfolds). -/
theorem t4_after_keep (V : Valuation τ sig (Elt F)) (r : Ref sig .tc) (h : r ∉ t4_W) :
    t4_after V (no_index (Proc.devRef .tc r)) = V (Proc.devRef .tc r) :=
  after_of_writes_sub t4 V t4_writes h

end Cert.ReferenceIdeal.RefRun

end
-- ==== Proof.RefBlocks.T5.lean ====
import proofs.«120907_j71768903516484_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 14 operations of statements 486 … 497 of @main, in order, a call's being the callee's over that call's buffers. -/
abbrev t5 : List (HloOp τ sig (Elt F)) :=
  [ StableHlo.binary main_v377 main_v413 main_v414 (subf : (⟨S1000x16, .f32⟩ : BufTy).Contents (Elt F) → (⟨S1000x16, .f32⟩ : BufTy).Contents (Elt F) → (⟨S1000x16, .f32⟩ : BufTy).Contents (Elt F)),
    StableHlo.binary main_v377 main_v395 main_v415 (subf : (⟨S1000x16, .f32⟩ : BufTy).Contents (Elt F) → (⟨S1000x16, .f32⟩ : BufTy).Contents (Elt F) → (⟨S1000x16, .f32⟩ : BufTy).Contents (Elt F)),
    StableHlo.binary main_v377 main_arg35 main_v416 ((fun l r => Host.dotGeneral dot_S1000x16_S16x8_S1000x8_1_0_0_1_n_n none l r) : (⟨S1000x16, .f32⟩ : BufTy).Contents (Elt F) → (⟨S16x8, .f32⟩ : BufTy).Contents (Elt F) → (⟨S1000x8, .f32⟩ : BufTy).Contents (Elt F)),
    StableHlo.unary main_arg36 main_v417 (broadcastInDim S1x8 ![1] bcast_S8_S1x8_1 : (⟨S8, .f32⟩ : BufTy).Contents (Elt F) → (⟨S1x8, .f32⟩ : BufTy).Contents (Elt F)),
    StableHlo.unary main_v417 main_v418 (broadcastInDim S1000x8 ![0, 1] bcast_S1x8_S1000x8_0_1 : (⟨S1x8, .f32⟩ : BufTy).Contents (Elt F) → (⟨S1000x8, .f32⟩ : BufTy).Contents (Elt F)),
    StableHlo.binary main_v416 main_v418 main_v419 (addf : (⟨S1000x8, .f32⟩ : BufTy).Contents (Elt F) → (⟨S1000x8, .f32⟩ : BufTy).Contents (Elt F) → (⟨S1000x8, .f32⟩ : BufTy).Contents (Elt F)),
    StableHlo.TRef.nullary main_call18.cst (constant S_ .f32 0x00000000#32),
    StableHlo.TRef.unary main_call18.cst main_call18.v0 (broadcastInDim S1000x8 ![] bcast_S_S1000x8),
    StableHlo.TRef.binary (.of main_v419) main_call18.v0 main_call18.v1 maximumf,
    StableHlo.binary main_v420 main_arg37 main_v421 ((fun l r => Host.dotGeneral dot_S1000x8_S8x1_S1000x1_1_0_0_1_n_n none l r) : (⟨S1000x8, .f32⟩ : BufTy).Contents (Elt F) → (⟨S8x1, .f32⟩ : BufTy).Contents (Elt F) → (⟨S1000x1, .f32⟩ : BufTy).Contents (Elt F)),
    StableHlo.unary main_arg38 main_v422 (broadcastInDim S1x1 ![1] bcast_S1_S1x1_1 : (⟨S1, .f32⟩ : BufTy).Contents (Elt F) → (⟨S1x1, .f32⟩ : BufTy).Contents (Elt F)),
    StableHlo.unary main_v422 main_v423 (broadcastInDim S1000x1 ![0, 1] bcast_S1x1_S1000x1_0_1 : (⟨S1x1, .f32⟩ : BufTy).Contents (Elt F) → (⟨S1000x1, .f32⟩ : BufTy).Contents (Elt F)),
    StableHlo.binary main_v421 main_v423 main_v424 (addf : (⟨S1000x1, .f32⟩ : BufTy).Contents (Elt F) → (⟨S1000x1, .f32⟩ : BufTy).Contents (Elt F) → (⟨S1000x1, .f32⟩ : BufTy).Contents (Elt F)),
    StableHlo.reshape main_v424 main_v425 rfl shapeCasts_S1000x1_S1000 ]

/-- The buffers these operations write, in order. -/
abbrev t5_W : List (Ref sig .tc) := [main_v414, main_v415, main_v416, main_v417, main_v418, main_v419, main_call18.cst.ref, main_call18.v0.ref, main_call18.v1.ref, main_v421, main_v422, main_v423, main_v424, main_v425]

set_option maxRecDepth 8192 in
/-- Each operation writes one buffer, the one listed at its place. -/
theorem t5_writes : (t5 : List (HloOp τ sig (Elt F))).Forall fun op => op.writes ⊆ (t5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- A buffer these operations do not write keeps its contents through them. -/
theorem t5_keep (V : Valuation τ sig (Elt F)) (r : Ref sig .tc) (h : r ∉ t5_W) :
    after t5 V (Proc.devRef .tc r) = V (Proc.devRef .tc r) :=
  after_of_writes_sub t5 V t5_writes h

/-- The contents after these operations, named: a rewriting rule about it is found by this name, not by the list. -/
def t5_after (V : Valuation τ sig (Elt F)) : Valuation τ sig (Elt F) := after t5 V

/-- The same, for rewriting (the buffer un-indexed: a literal buffer's reference unfolds). -/
theorem t5_after_keep (V : Valuation τ sig (Elt F)) (r : Ref sig .tc) (h : r ∉ t5_W) :
    t5_after V (no_index (Proc.devRef .tc r)) = V (Proc.devRef .tc r) :=
  after_of_writes_sub t5 V t5_writes h

end Cert.ReferenceIdeal.RefRun

end
-- ==== Proof.RefBlocks.lean ====
import proofs.«120907_j71768903516484_1_alg».proof.Proof.Gen.ReferenceIdeal
import Idealize.ShloMosaic.Lib.StableHlo.Run
import Idealize.ShloMosaic.Lib.Pipeline.Frame
import proofs.«120907_j71768903516484_1_alg».proof.Proof.RefOps
import proofs.«120907_j71768903516484_1_alg».proof.Proof.RefBlocks.B0
import proofs.«120907_j71768903516484_1_alg».proof.Proof.RefBlocks.B1
import proofs.«120907_j71768903516484_1_alg».proof.Proof.RefBlocks.B2
import proofs.«120907_j71768903516484_1_alg».proof.Proof.RefBlocks.B3
import proofs.«120907_j71768903516484_1_alg».proof.Proof.RefBlocks.B4
import proofs.«120907_j71768903516484_1_alg».proof.Proof.RefBlocks.B5
import proofs.«120907_j71768903516484_1_alg».proof.Proof.RefBlocks.T0
import proofs.«120907_j71768903516484_1_alg».proof.Proof.RefBlocks.T1
import proofs.«120907_j71768903516484_1_alg».proof.Proof.RefBlocks.T2
import proofs.«120907_j71768903516484_1_alg».proof.Proof.RefBlocks.T3
import proofs.«120907_j71768903516484_1_alg».proof.Proof.RefBlocks.T4
import proofs.«120907_j71768903516484_1_alg».proof.Proof.RefBlocks.T5

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- What follows the six layer blocks: the two readouts, the three pairwise heads, the two differences and the score. -/
abbrev tail : List (HloOp τ sig (Elt F)) := t0 ++ (t1 ++ (t2 ++ (t3 ++ (t4 ++ (t5)))))

set_option maxRecDepth 65536 in
/-- The same 650 operations cut at other places: both sides are one literal list. -/
theorem ops_split : (ops : List (HloOp τ sig (Elt F))) = blk0 ++ (blk1 ++ (blk2 ++ (blk3 ++ (blk4 ++ (blk5 ++ (tail)))))) := rfl

/-- The contents after @main are the contents after the six blocks and the tail in turn. -/
theorem after_split (V : Valuation τ sig (Elt F)) : after ops V = after tail (after blk5 (after blk4 (after blk3 (after blk2 (after blk1 (after blk0 (V))))))) := by
  rw [ops_split]; simp only [after_append]

/-- The contents after the tail are the contents after its six pieces in turn. -/
theorem after_tail (V : Valuation τ sig (Elt F)) : after tail V = after t5 (after t4 (after t3 (after t2 (after t1 (after t0 (V)))))) := by
  simp only [tail, after_append]

/-- The contents after @main, piece by piece, each piece's by its name. -/
theorem after_pieces (V : Valuation τ sig (Elt F)) : after ops V = t5_after (t4_after (t3_after (t2_after (t1_after (t0_after (blk5_after (blk4_after (blk3_after (blk2_after (blk1_after (blk0_after (V)))))))))))) := by
  rw [after_split, after_tail]; rfl

end Cert.ReferenceIdeal.RefRun

end
-- ==== Proof.RefPiecesB.lean ====
import proofs.«120907_j71768903516484_1_alg».proof.Proof.Gen.ReferenceIdeal
import Idealize.ShloMosaic.Lib.StableHlo.Run
import proofs.«120907_j71768903516484_1_alg».proof.Proof.Spec
import proofs.«120907_j71768903516484_1_alg».proof.Proof.RefBlocks.B0
import proofs.«120907_j71768903516484_1_alg».proof.Proof.RefBlocks.B1
import proofs.«120907_j71768903516484_1_alg».proof.Proof.RefBlocks.B2
import proofs.«120907_j71768903516484_1_alg».proof.Proof.RefBlocks.B3
import proofs.«120907_j71768903516484_1_alg».proof.Proof.RefBlocks.B4
import proofs.«120907_j71768903516484_1_alg».proof.Proof.RefBlocks.B5

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## What each piece leaves in its output buffer

Each piece of @main is a straight line of operations; the contents of its last buffer after it, from any contents `W`
before it, are the composed term of those operations over `W` at the buffers the piece reads from outside. That term
is the named stage of the network, by unfolding. Here: the six layer blocks. -/

set_option maxRecDepth 8192 in
set_option maxHeartbeats 4000000 in
/-- Side i, layer 1: the block's last buffer holds the layer function of the node features, the edge list and the layer's seven parameters. -/
theorem blk0_v45 (W : Valuation τ sig (Elt Ideal)) :
    blk0_after W (no_index (Proc.devRef .tc main_v45)) = Cert.Spec.layerA (W (main_arg0 : DevRef τ sig)) (W (main_arg2 : DevRef τ sig)) (W (main_arg6 : DevRef τ sig)) (W (main_arg7 : DevRef τ sig)) (W (main_arg8 : DevRef τ sig)) (W (main_arg9 : DevRef τ sig)) (W (main_arg10 : DevRef τ sig)) (W (main_arg11 : DevRef τ sig)) (W (main_arg12 : DevRef τ sig)) := by
  unfold blk0_after
  after_results_simp
  rfl

set_option maxRecDepth 8192 in
set_option maxHeartbeats 4000000 in
/-- Side j, layer 1. -/
theorem blk1_v91 (W : Valuation τ sig (Elt Ideal)) :
    blk1_after W (no_index (Proc.devRef .tc main_v91)) = Cert.Spec.layerA (W (main_arg1 : DevRef τ sig)) (W (main_arg3 : DevRef τ sig)) (W (main_arg6 : DevRef τ sig)) (W (main_arg7 : DevRef τ sig)) (W (main_arg8 : DevRef τ sig)) (W (main_arg9 : DevRef τ sig)) (W (main_arg10 : DevRef τ sig)) (W (main_arg11 : DevRef τ sig)) (W (main_arg12 : DevRef τ sig)) := by
  unfold blk1_after
  after_results_simp
  rfl

set_option maxRecDepth 8192 in
set_option maxHeartbeats 4000000 in
/-- Side i, layer 2: its input is layer 1's output buffer. -/
theorem blk2_v137 (W : Valuation τ sig (Elt Ideal)) :
    blk2_after W (no_index (Proc.devRef .tc main_v137)) = Cert.Spec.layerB (W (main_v45 : DevRef τ sig)) (W (main_arg2 : DevRef τ sig)) (W (main_arg13 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig)) := by
  unfold blk2_after
  after_results_simp
  rfl

set_option maxRecDepth 8192 in
set_option maxHeartbeats 4000000 in
/-- Side j, layer 2. -/
theorem blk3_v183 (W : Valuation τ sig (Elt Ideal)) :
    blk3_after W (no_index (Proc.devRef .tc main_v183)) = Cert.Spec.layerB (W (main_v91 : DevRef τ sig)) (W (main_arg3 : DevRef τ sig)) (W (main_arg13 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig)) := by
  unfold blk3_after
  after_results_simp
  rfl

set_option maxRecDepth 8192 in
set_option maxHeartbeats 4000000 in
/-- Side i, layer 3. -/
theorem blk4_v229 (W : Valuation τ sig (Elt Ideal)) :
    blk4_after W (no_index (Proc.devRef .tc main_v229)) = Cert.Spec.layerC (W (main_v137 : DevRef τ sig)) (W (main_arg2 : DevRef τ sig)) (W (main_arg20 : DevRef τ sig)) (W (main_arg21 : DevRef τ sig)) (W (main_arg22 : DevRef τ sig)) (W (main_arg23 : DevRef τ sig)) (W (main_arg24 : DevRef τ sig)) (W (main_arg25 : DevRef τ sig)) (W (main_arg26 : DevRef τ sig)) := by
  unfold blk4_after
  after_results_simp
  rfl

set_option maxRecDepth 8192 in
set_option maxHeartbeats 4000000 in
/-- Side j, layer 3. -/
theorem blk5_v275 (W : Valuation τ sig (Elt Ideal)) :
    blk5_after W (no_index (Proc.devRef .tc main_v275)) = Cert.Spec.layerC (W (main_v183 : DevRef τ sig)) (W (main_arg3 : DevRef τ sig)) (W (main_arg20 : DevRef τ sig)) (W (main_arg21 : DevRef τ sig)) (W (main_arg22 : DevRef τ sig)) (W (main_arg23 : DevRef τ sig)) (W (main_arg24 : DevRef τ sig)) (W (main_arg25 : DevRef τ sig)) (W (main_arg26 : DevRef τ sig)) := by
  unfold blk5_after
  after_results_simp
  rfl

end Cert.ReferenceIdeal.RefRun

end
-- ==== Proof.RefPiecesT.lean ====
import proofs.«120907_j71768903516484_1_alg».proof.Proof.Gen.ReferenceIdeal
import Idealize.ShloMosaic.Lib.StableHlo.Run
import proofs.«120907_j71768903516484_1_alg».proof.Proof.Spec
import proofs.«120907_j71768903516484_1_alg».proof.Proof.RefBlocks.T0
import proofs.«120907_j71768903516484_1_alg».proof.Proof.RefBlocks.T1
import proofs.«120907_j71768903516484_1_alg».proof.Proof.RefBlocks.T2
import proofs.«120907_j71768903516484_1_alg».proof.Proof.RefBlocks.T3
import proofs.«120907_j71768903516484_1_alg».proof.Proof.RefBlocks.T4
import proofs.«120907_j71768903516484_1_alg».proof.Proof.RefBlocks.T5

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## What each piece leaves in its output buffer

Each piece of @main is a straight line of operations; the contents of its last buffer after it, from any contents `W`
before it, are the composed term of those operations over `W` at the buffers the piece reads from outside. That term
is the named stage of the network, by unfolding. Here: the two readouts, the three pairwise heads, the two differences and the score. -/

set_option maxRecDepth 8192 in
set_option maxHeartbeats 4000000 in
/-- Side i's pooled vector: the gated readout of layer 3's output by the graph index. -/
theorem t0_v317 (W : Valuation τ sig (Elt Ideal)) :
    t0_after W (no_index (Proc.devRef .tc main_v317)) = Cert.Spec.readout (W (main_v229 : DevRef τ sig)) (W (main_arg4 : DevRef τ sig)) (W (main_arg27 : DevRef τ sig)) (W (main_arg28 : DevRef τ sig)) := by
  unfold t0_after
  after_results_simp
  rfl

set_option maxRecDepth 8192 in
set_option maxHeartbeats 4000000 in
/-- Side j's pooled vector. -/
theorem t1_v359 (W : Valuation τ sig (Elt Ideal)) :
    t1_after W (no_index (Proc.devRef .tc main_v359)) = Cert.Spec.readout (W (main_v275 : DevRef τ sig)) (W (main_arg5 : DevRef τ sig)) (W (main_arg27 : DevRef τ sig)) (W (main_arg28 : DevRef τ sig)) := by
  unfold t1_after
  after_results_simp
  rfl

set_option maxRecDepth 8192 in
set_option maxHeartbeats 4000000 in
/-- The pairwise head on (i, j). -/
theorem t2_v377 (W : Valuation τ sig (Elt Ideal)) :
    t2_after W (no_index (Proc.devRef .tc main_v377)) = Cert.Spec.efn (W (main_v317 : DevRef τ sig)) (W (main_v359 : DevRef τ sig)) (W (main_arg29 : DevRef τ sig)) (W (main_arg30 : DevRef τ sig)) (W (main_arg31 : DevRef τ sig)) (W (main_arg32 : DevRef τ sig)) (W (main_arg33 : DevRef τ sig)) (W (main_arg34 : DevRef τ sig)) := by
  unfold t2_after
  after_results_simp
  rfl

set_option maxRecDepth 8192 in
set_option maxHeartbeats 4000000 in
/-- The pairwise head on (i, i). -/
theorem t3_v395 (W : Valuation τ sig (Elt Ideal)) :
    t3_after W (no_index (Proc.devRef .tc main_v395)) = Cert.Spec.efn (W (main_v317 : DevRef τ sig)) (W (main_v317 : DevRef τ sig)) (W (main_arg29 : DevRef τ sig)) (W (main_arg30 : DevRef τ sig)) (W (main_arg31 : DevRef τ sig)) (W (main_arg32 : DevRef τ sig)) (W (main_arg33 : DevRef τ sig)) (W (main_arg34 : DevRef τ sig)) := by
  unfold t3_after
  after_results_simp
  rfl

set_option maxRecDepth 8192 in
set_option maxHeartbeats 4000000 in
/-- The pairwise head on (j, j). -/
theorem t4_v413 (W : Valuation τ sig (Elt Ideal)) :
    t4_after W (no_index (Proc.devRef .tc main_v413)) = Cert.Spec.efn (W (main_v359 : DevRef τ sig)) (W (main_v359 : DevRef τ sig)) (W (main_arg29 : DevRef τ sig)) (W (main_arg30 : DevRef τ sig)) (W (main_arg31 : DevRef τ sig)) (W (main_arg32 : DevRef τ sig)) (W (main_arg33 : DevRef τ sig)) (W (main_arg34 : DevRef τ sig)) := by
  unfold t4_after
  after_results_simp
  rfl

set_option maxRecDepth 8192 in
set_option maxHeartbeats 4000000 in
/-- The second result: the (i, j) head minus the (j, j) head. -/
theorem t5_v414 (W : Valuation τ sig (Elt Ideal)) :
    t5_after W (no_index (Proc.devRef .tc main_v414)) = (subf (W (main_v377 : DevRef τ sig)) (W (main_v413 : DevRef τ sig)) : FVec Ideal S1000x16 .f32) := by
  unfold t5_after
  after_results_simp

set_option maxRecDepth 8192 in
set_option maxHeartbeats 4000000 in
/-- The third result: the (i, j) head minus the (i, i) head. -/
theorem t5_v415 (W : Valuation τ sig (Elt Ideal)) :
    t5_after W (no_index (Proc.devRef .tc main_v415)) = (subf (W (main_v377 : DevRef τ sig)) (W (main_v395 : DevRef τ sig)) : FVec Ideal S1000x16 .f32) := by
  unfold t5_after
  after_results_simp

set_option maxRecDepth 8192 in
set_option maxHeartbeats 4000000 in
/-- The first result: the score of the (i, j) head. -/
theorem t5_v425 (W : Valuation τ sig (Elt Ideal)) :
    t5_after W (no_index (Proc.devRef .tc main_v425)) = Cert.Spec.score (W (main_v377 : DevRef τ sig)) (W (main_arg35 : DevRef τ sig)) (W (main_arg36 : DevRef τ sig)) (W (main_arg37 : DevRef τ sig)) (W (main_arg38 : DevRef τ sig)) := by
  unfold t5_after
  after_results_simp
  rfl

end Cert.ReferenceIdeal.RefRun

end
-- ==== Proof.RefValue.lean ====
import proofs.«120907_j71768903516484_1_alg».proof.Proof.Spec
import proofs.«120907_j71768903516484_1_alg».proof.Proof.RefBlocks
import proofs.«120907_j71768903516484_1_alg».proof.Proof.RefPiecesB
import proofs.«120907_j71768903516484_1_alg».proof.Proof.RefPiecesT
import proofs.«120907_j71768903516484_1_alg».proof.Proof.RefFrame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The reference's three results as functions of its arguments

The contents after @main are the contents after its twelve pieces in turn. Each piece's output is the named stage of
its inputs; a buffer a piece does not write passes through it unchanged (membership among the piece's written buffers is
decided). Read from the last piece back to the first, the three result buffers hold the network's three results of the
39 argument arrays. -/

set_option maxRecDepth 8192 in
set_option maxHeartbeats 4000000 in
theorem results_eq (V : Valuation τ sig (Elt Ideal)) :
    after ops V (main_v425 : DevRef τ sig) = (Cert.Spec.heads (Cert.Spec.pooledI (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))) (Cert.Spec.pooledJ (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))).1
    ∧ after ops V (main_v414 : DevRef τ sig) = (Cert.Spec.heads (Cert.Spec.pooledI (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))) (Cert.Spec.pooledJ (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))).2.1
    ∧ after ops V (main_v415 : DevRef τ sig) = (Cert.Spec.heads (Cert.Spec.pooledI (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))) (Cert.Spec.pooledJ (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))) (V (main_arg29 : DevRef τ sig)) (V (main_arg30 : DevRef τ sig)) (V (main_arg31 : DevRef τ sig)) (V (main_arg32 : DevRef τ sig)) (V (main_arg33 : DevRef τ sig)) (V (main_arg34 : DevRef τ sig)) (V (main_arg35 : DevRef τ sig)) (V (main_arg36 : DevRef τ sig)) (V (main_arg37 : DevRef τ sig)) (V (main_arg38 : DevRef τ sig))).2.2 := by
  rw [after_pieces]
  simp (disch := decide) only [blk0_v45, blk1_v91, blk2_v137, blk3_v183, blk4_v229, blk5_v275, t0_v317, t1_v359, t2_v377, t3_v395, t4_v413, t5_v414, t5_v415, t5_v425, blk0_after_keep, blk1_after_keep, blk2_after_keep, blk3_after_keep, blk4_after_keep, blk5_after_keep, t0_after_keep, t1_after_keep, t2_after_keep, t3_after_keep, t4_after_keep, t5_after_keep]
  exact ⟨rfl, rfl, rfl⟩

set_option maxRecDepth 8192 in
set_option maxHeartbeats 4000000 in
/-- The reference runs (every weakly fair execution terminates, none faults), its three result arrays end at the
    network's three results of the launch contents of the 39 argument arrays, and those arrays end as they began. -/
theorem run_results (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v425) = (Cert.Spec.heads (Cert.Spec.pooledI (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)) (m' ((c.tc : Thread nD τ).loc main_arg27)) (m' ((c.tc : Thread nD τ).loc main_arg28)) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))) (Cert.Spec.pooledJ (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)) (m' ((c.tc : Thread nD τ).loc main_arg27)) (m' ((c.tc : Thread nD τ).loc main_arg28)) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))).1
      ∧ r.2.mem ((c.tc : Thread nD τ).loc main_v414) = (Cert.Spec.heads (Cert.Spec.pooledI (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)) (m' ((c.tc : Thread nD τ).loc main_arg27)) (m' ((c.tc : Thread nD τ).loc main_arg28)) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))) (Cert.Spec.pooledJ (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)) (m' ((c.tc : Thread nD τ).loc main_arg27)) (m' ((c.tc : Thread nD τ).loc main_arg28)) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))).2.1
      ∧ r.2.mem ((c.tc : Thread nD τ).loc main_v415) = (Cert.Spec.heads (Cert.Spec.pooledI (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)) (m' ((c.tc : Thread nD τ).loc main_arg27)) (m' ((c.tc : Thread nD τ).loc main_arg28)) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))) (Cert.Spec.pooledJ (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)) (m' ((c.tc : Thread nD τ).loc main_arg27)) (m' ((c.tc : Thread nD τ).loc main_arg28)) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))) (m' ((c.tc : Thread nD τ).loc main_arg29)) (m' ((c.tc : Thread nD τ).loc main_arg30)) (m' ((c.tc : Thread nD τ).loc main_arg31)) (m' ((c.tc : Thread nD τ).loc main_arg32)) (m' ((c.tc : Thread nD τ).loc main_arg33)) (m' ((c.tc : Thread nD τ).loc main_arg34)) (m' ((c.tc : Thread nD τ).loc main_arg35)) (m' ((c.tc : Thread nD τ).loc main_arg36)) (m' ((c.tc : Thread nD τ).loc main_arg37)) (m' ((c.tc : Thread nD τ).loc main_arg38))).2.2
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)
      ∧ r.2.mem ((c.tc : Thread nD τ).loc main_arg27) = m' ((c.tc : Thread nD τ).loc main_arg27)
      ∧ r.2.mem ((c.tc : Thread nD τ).loc main_arg28) = m' ((c.tc : Thread nD τ).loc main_arg28)
      ∧ r.2.mem ((c.tc : Thread nD τ).loc main_arg29) = m' ((c.tc : Thread nD τ).loc main_arg29)
      ∧ r.2.mem ((c.tc : Thread nD τ).loc main_arg30) = m' ((c.tc : Thread nD τ).loc main_arg30)
      ∧ r.2.mem ((c.tc : Thread nD τ).loc main_arg31) = m' ((c.tc : Thread nD τ).loc main_arg31)
      ∧ r.2.mem ((c.tc : Thread nD τ).loc main_arg32) = m' ((c.tc : Thread nD τ).loc main_arg32)
      ∧ r.2.mem ((c.tc : Thread nD τ).loc main_arg33) = m' ((c.tc : Thread nD τ).loc main_arg33)
      ∧ r.2.mem ((c.tc : Thread nD τ).loc main_arg34) = m' ((c.tc : Thread nD τ).loc main_arg34)
      ∧ r.2.mem ((c.tc : Thread nD τ).loc main_arg35) = m' ((c.tc : Thread nD τ).loc main_arg35)
      ∧ r.2.mem ((c.tc : Thread nD τ).loc main_arg36) = m' ((c.tc : Thread nD τ).loc main_arg36)
      ∧ r.2.mem ((c.tc : Thread nD τ).loc main_arg37) = m' ((c.tc : Thread nD τ).loc main_arg37)
      ∧ r.2.mem ((c.tc : Thread nD τ).loc main_arg38) = m' ((c.tc : Thread nD τ).loc main_arg38)) :=
  (θ_run (defs (F := Ideal)) _ _).mono
    (fun _ h c =>
    ⟨ (h c main_v425).trans (results_eq (launchContents m' c)).1,
      (h c main_v414).trans (results_eq (launchContents m' c)).2.1,
      (h c main_v415).trans (results_eq (launchContents m' c)).2.2,
      (h c main_arg0).trans (arg0_eq (launchContents m' c)),
      (h c main_arg1).trans (arg1_eq (launchContents m' c)),
      (h c main_arg2).trans (arg2_eq (launchContents m' c)),
      (h c main_arg3).trans (arg3_eq (launchContents m' c)),
      (h c main_arg4).trans (arg4_eq (launchContents m' c)),
      (h c main_arg5).trans (arg5_eq (launchContents m' c)),
      (h c main_arg6).trans (arg6_eq (launchContents m' c)),
      (h c main_arg7).trans (arg7_eq (launchContents m' c)),
      (h c main_arg8).trans (arg8_eq (launchContents m' c)),
      (h c main_arg9).trans (arg9_eq (launchContents m' c)),
      (h c main_arg10).trans (arg10_eq (launchContents m' c)),
      (h c main_arg11).trans (arg11_eq (launchContents m' c)),
      (h c main_arg12).trans (arg12_eq (launchContents m' c)),
      (h c main_arg13).trans (arg13_eq (launchContents m' c)),
      (h c main_arg14).trans (arg14_eq (launchContents m' c)),
      (h c main_arg15).trans (arg15_eq (launchContents m' c)),
      (h c main_arg16).trans (arg16_eq (launchContents m' c)),
      (h c main_arg17).trans (arg17_eq (launchContents m' c)),
      (h c main_arg18).trans (arg18_eq (launchContents m' c)),
      (h c main_arg19).trans (arg19_eq (launchContents m' c)),
      (h c main_arg20).trans (arg20_eq (launchContents m' c)),
      (h c main_arg21).trans (arg21_eq (launchContents m' c)),
      (h c main_arg22).trans (arg22_eq (launchContents m' c)),
      (h c main_arg23).trans (arg23_eq (launchContents m' c)),
      (h c main_arg24).trans (arg24_eq (launchContents m' c)),
      (h c main_arg25).trans (arg25_eq (launchContents m' c)),
      (h c main_arg26).trans (arg26_eq (launchContents m' c)),
      (h c main_arg27).trans (arg27_eq (launchContents m' c)),
      (h c main_arg28).trans (arg28_eq (launchContents m' c)),
      (h c main_arg29).trans (arg29_eq (launchContents m' c)),
      (h c main_arg30).trans (arg30_eq (launchContents m' c)),
      (h c main_arg31).trans (arg31_eq (launchContents m' c)),
      (h c main_arg32).trans (arg32_eq (launchContents m' c)),
      (h c main_arg33).trans (arg33_eq (launchContents m' c)),
      (h c main_arg34).trans (arg34_eq (launchContents m' c)),
      (h c main_arg35).trans (arg35_eq (launchContents m' c)),
      (h c main_arg36).trans (arg36_eq (launchContents m' c)),
      (h c main_arg37).trans (arg37_eq (launchContents m' c)),
      (h c main_arg38).trans (arg38_eq (launchContents m' c)) ⟩)
    (run_main (F := Ideal) m' ρ')

end Cert.ReferenceIdeal.RefRun

end
-- ==== Proof.RefSide.lean ====
import proofs.«120907_j71768903516484_1_alg».proof.Proof.Out
import proofs.«120907_j71768903516484_1_alg».proof.Proof.RefValue

set_option maxRecDepth 16384

noncomputable section

namespace Cert.Proof

open Idealize.ShloMosaic Idealize.SL.Sem

set_option maxHeartbeats 4000000 in
/-- The reference's half of the agreement: from a memory that agrees with the kernel program's on the 39 arguments, the
    reference runs, its three result arrays end at the network's three results of the kernel program's arguments, and its
    own argument arrays end as they began. Its run ends at the network's results of ITS arguments; those are the kernel
    program's, argument by argument. -/
theorem ref_side
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree :
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38))) :
      θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v425) = (Cert.Proof.out m c).1
          ∧ r.2.mem ((c.tc : Thread Cert.ReferenceIdeal.nD Cert.ReferenceIdeal.τ).loc Cert.ReferenceIdeal.main_v414) = (Cert.Proof.out m c).2.1
          ∧ r.2.mem ((c.tc : Thread Cert.ReferenceIdeal.nD Cert.ReferenceIdeal.τ).loc Cert.ReferenceIdeal.main_v415) = (Cert.Proof.out m c).2.2
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)) := by
  refine (θ_run Cert.ReferenceIdeal.defs _ _).mono (fun r h c => ?_) (Cert.ReferenceIdeal.RefRun.run_results m' g')
  obtain ⟨h1, h2, h3, hargs⟩ := h c
  obtain ⟨g0, g1, g2, g3, g4, g5, g6, g7, g8, g9, g10, g11, g12, g13, g14, g15, g16, g17, g18, g19, g20, g21, g22, g23, g24, g25, g26, g27, g28, g29, g30, g31, g32, g33, g34, g35, g36, g37, g38⟩ := hagree c
  rw [g0, g1, g2, g3, g4, g5, g6, g7, g8, g9, g10, g11, g12, g13, g14, g15, g16, g17, g18, g19, g20, g21, g22, g23, g24, g25, g26, g27, g28, g29, g30, g31, g32, g33, g34, g35, g36, g37, g38] at h1 h2 h3
  exact ⟨h1, h2, h3, hargs⟩

end Cert.Proof

end
-- ==== Proof.lean ====
/-
  The certificate. The kernel is a three-layer graph isomorphism network with batch normalisation: per layer and per
  side a first pass (Linear, ReLU, Linear on 4000-row tiles, accumulating the column sums and the column sums of squares
  over the 50 tiles) and a second pass (the affine normalisation with mean = sum / 200000 and
  variance = sum of squares / 200000 - mean * mean), between stretches of host operations (the neighbour aggregation
  before a layer, the gated pooling and the pairwise heads after the last). The reference computes the same network with
  the column mean and the mean squared deviation from it. At the ideal values the two agree: the matrix products and the
  tile-wise sums are the same finite sums in another order, and the mean squared deviation is the mean square minus the
  squared mean as long as every summand is a real number — which the precondition (every float input finite) gives for
  the first layer and the positivity of variance + eps carries to the next ones.
  The three frames: the two kernel programs' by the frame certificate of the twelve regions, the reference's by its run.
  The idealization rewrote no operation, so its claim is trivial.
-/
import proofs.«120907_j71768903516484_1_alg».proof.Defs
import proofs.«120907_j71768903516484_1_alg».proof.Proof.Gen.Kernel
import proofs.«120907_j71768903516484_1_alg».proof.Proof.Gen.KernelIdeal
import proofs.«120907_j71768903516484_1_alg».proof.Proof.Gen.ReferenceIdeal
import proofs.«120907_j71768903516484_1_alg».proof.Proof.Gen.Pre_finite_inputs
import proofs.«120907_j71768903516484_1_alg».proof.Proof.KFrameP
import proofs.«120907_j71768903516484_1_alg».proof.Proof.KIFrameP
import proofs.«120907_j71768903516484_1_alg».proof.Proof.KValue
import proofs.«120907_j71768903516484_1_alg».proof.Proof.RefFrame
import proofs.«120907_j71768903516484_1_alg».proof.Proof.RefSide
import Idealize.ShloMosaic.Adequacy
import Idealize.ShloMosaic.Init

set_option maxRecDepth 16384

noncomputable section

namespace Cert.Proof

open Idealize.ShloMosaic Idealize.SL.Sem

/-- From memories that agree on the arguments both idealized programs end with the network's three results of those
    arguments: the kernel program by its fold read to the end, the reference by its run. -/
theorem algebraic : Cert.algebraic_KernelIdeal_ReferenceIdeal := by
  intro m ρ m' ρ' hpre hagree
  exact ⟨fun c => (Cert.Proof.out m c).1, fun c => (Cert.Proof.out m c).2.1,
    fun c => (Cert.Proof.out m c).2.2, Cert.KernelIdeal.KValue.run_results m ρ hpre, Cert.Proof.ref_side m m' ρ' hagree⟩

theorem claim : Cert.Claim :=
  ⟨Cert.Kernel.Gen.facts, Cert.KernelIdeal.Gen.facts, Cert.ReferenceIdeal.Gen.facts, Cert.Pre_finite_inputs.Gen.facts,
    fun m ρ _ => Cert.Kernel.GenP.frame m ρ, fun m ρ _ => Cert.KernelIdeal.GenP.frame m ρ,
    Cert.ReferenceIdeal.RefRun.frame_ri, trivial, algebraic⟩

end Cert.Proof

end
